-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)
  ∧ IdealRules.named_const.Statement Cert.KernelIdeal.κ "inv_50000" .f32 0x37A7C5AC#32 ((1 / 50000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v107)) (v1 : (c : Dev Cert.KernelIdeal.nD) → Buf (Elt Ideal) ((c.tc : Thread Cert.KernelIdeal.nD Cert.KernelIdeal.τ).loc Cert.KernelIdeal.main_v124)) (v2 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v107) = v0 c
          ∧ r.2.mem ((c.tc : Thread Cert.KernelIdeal.nD Cert.KernelIdeal.τ).loc Cert.KernelIdeal.main_v124) = v1 c
          ∧ r.2.mem ((c.tc : Thread Cert.KernelIdeal.nD Cert.KernelIdeal.τ).loc Cert.KernelIdeal.main_v114) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_v219) = v1 c
          ∧ r.2.mem ((c.tc : Thread Cert.ReferenceIdeal.nD Cert.ReferenceIdeal.τ).loc Cert.ReferenceIdeal.main_v187) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000x1 : Shape := ⟨2, ![50000, 1]⟩
abbrev S256 : Shape := ⟨1, ![256]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S50000x1 : S_.BroadcastsInDim S50000x1 (![] : Fin 0 → Fin S50000x1.rank)
  reducesTo_S50000x1_S_d0_1 : S50000x1.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128x128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128 .f32) (main_arg12 : FVec F S128 .f32) (main_arg13 : FVec F S128x128 .f32) (main_arg14 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_v48 main_v49 main_v50

def fn_part1 {F : FTy → Type} [FloatOps F] (main_arg6 : FVec F S3x128x128 .f32) (main_arg7 : FVec F S3x128 .f32) (main_arg8 : FVec F S3x128 .f32) (main_arg9 : FVec F S128x128 .f32) (main_arg10 : FVec F S128 .f32) (main_arg11 : FVec F S128 .f32) (main_arg12 : FVec F S128 .f32) (main_arg13 : FVec F S128x128 .f32) (main_arg14 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : FVec F S50000x1 .f32) (main_arg3 : IVec S256 32) (main_arg4 : FVec F S3x128x128 .f32) (main_arg5 : FVec F S3x128 .f32) (main_arg6 : FVec F S3x128x128 .f32) (main_arg7 : FVec F S3x128 .f32) (main_arg8 : FVec F S3x128 .f32) (main_arg9 : FVec F S128x128 .f32) (main_arg10 : FVec F S128 .f32) (main_arg11 : FVec F S128 .f32) (main_arg12 : FVec F S128 .f32) (main_arg13 : FVec F S128x128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x1 .f32 := Host.absf main_arg2
  let main_cst_0 : FVec F S_ .f32 := constant S_ .f32 0x7F800000#32
  let main_v5 : FVec F S50000x1 .f32 := broadcastInDim S50000x1 ![] bcast_S_S50000x1 main_cst_0
  let main_v6 : IVec S50000x1 1 := cmpf .olt main_v4 main_v5
  let main_c_1 : IVec S_ 1 := constantI S_ 1 1#1
  let main_v7 : IVec S_ 1 := (fun x v => Host.reduce IntOp.andi x v reducesTo_S50000x1_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000x1 : Shape := ⟨2, ![50000, 1]⟩
abbrev S256 : Shape := ⟨1, ![256]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128x128 : Shape := ⟨3, ![1, 128, 128]⟩
abbrev S1x128 : Shape := ⟨2, ![1, 128]⟩
abbrev S5000x128 : Shape := ⟨2, ![5000, 128]⟩
abbrev S256x1 : Shape := ⟨2, ![256, 1]⟩
abbrev S256x128 : Shape := ⟨2, ![256, 128]⟩
abbrev S5000x1 : Shape := ⟨2, ![5000, 1]⟩

abbrev nBuf : Space → Nat
  | .hbm => 167
  | .vmem => 85
  | .smem => 0
  | _ => 0

abbrev hbmTy0_0 (i : Nat) : BufTy := match i % 128 with
  | 0 => ⟨S50000x128, .f32⟩
  | 1 => ⟨S2x800000, .i32⟩
  | 2 => ⟨S50000x1, .f32⟩
  | 3 => ⟨S256, .i32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .f32⟩
  | 20 => ⟨S800000x1, .f32⟩
  | 21 => ⟨S_, .f32⟩
  | 22 => ⟨S50000x1, .f32⟩
  | 23 => ⟨S800000x1, .i32⟩
  | 24 => ⟨S50000x1, .f32⟩
  | 25 => ⟨S_, .f32⟩
  | 26 => ⟨S50000x1, .f32⟩
  | 27 => ⟨S50000x1, .i1⟩
  | 28 => ⟨S_, .f32⟩
  | 29 => ⟨S50000x1, .f32⟩
  | 30 => ⟨S50000x1, .f32⟩
  | 31 => ⟨S_, .f32⟩
  | 32 => ⟨S50000x1, .f32⟩
  | 33 => ⟨S50000x1, .f32⟩
  | 34 => ⟨S_, .f32⟩
  | 35 => ⟨S_, .f32⟩
  | 36 => ⟨S50000x1, .f32⟩
  | 37 => ⟨S50000x1, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S50000x128, .f32⟩
  | 53 => ⟨S1x128x128, .f32⟩
  | 54 => ⟨S128x128, .f32⟩
  | 55 => ⟨S1x128, .f32⟩
  | 56 => ⟨S128, .f32⟩
  | 57 => ⟨S1x128x128, .f32⟩
  | 58 => ⟨S128x128, .f32⟩
  | 59 => ⟨S1x128, .f32⟩
  | 60 => ⟨S50000x128, .f32⟩
  | 61 => ⟨S1x128, .f32⟩
  | 62 => ⟨S1x128, .f32⟩
  | 63 => ⟨S128, .f32⟩
  | 64 => ⟨S128, .f32⟩
  | 65 => ⟨S1x128, .f32⟩
  | 66 => ⟨S128, .f32⟩
  | 67 => ⟨S1x128, .f32⟩
  | 68 => ⟨S128, .f32⟩
  | 69 => ⟨S1x128, .f32⟩
  | 70 => ⟨S1x128, .f32⟩
  | 71 => ⟨S1x128, .f32⟩
  | 72 => ⟨S1x128, .f32⟩
  | 73 => ⟨S50000x128, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000x128, .f32⟩
  | 88 => ⟨S50000x128, .f32⟩
  | 89 => ⟨S1x128x128, .f32⟩
  | 90 => ⟨S128x128, .f32⟩
  | 91 => ⟨S1x128, .f32⟩
  | 92 => ⟨S128, .f32⟩
  | 93 => ⟨S1x128x128, .f32⟩
  | 94 => ⟨S128x128, .f32⟩
  | 95 => ⟨S1x128, .f32⟩
  | 96 => ⟨S50000x128, .f32⟩
  | 97 => ⟨S1x128, .f32⟩
  | 98 => ⟨S1x128, .f32⟩
  | 99 => ⟨S128, .f32⟩
  | 100 => ⟨S128, .f32⟩
  | 101 => ⟨S1x128, .f32⟩
  | 102 => ⟨S128, .f32⟩
  | 103 => ⟨S1x128, .f32⟩
  | 104 => ⟨S128, .f32⟩
  | 105 => ⟨S1x128, .f32⟩
  | 106 => ⟨S1x128, .f32⟩
  | 107 => ⟨S1x128, .f32⟩
  | 108 => ⟨S1x128, .f32⟩
  | 109 => ⟨S50000x128, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x128, .f32⟩
  | 119 => ⟨S_, .f32⟩
  | 120 => ⟨S50000x128, .f32⟩
  | 121 => ⟨S800000x1, .i32⟩
  | 122 => ⟨S50000x128, .f32⟩
  | 123 => ⟨S50000x128, .f32⟩
  | 124 => ⟨S50000x128, .f32⟩
  | 125 => ⟨S1x128x128, .f32⟩
  | 126 => ⟨S128x128, .f32⟩
  | 127 => ⟨S1x128, .f32⟩
  | _ => ⟨S50000x128, .f32⟩

abbrev hbmTy0_1 (i : Nat) : BufTy := match i % 128 with
  | 0 => ⟨S128, .f32⟩
  | 1 => ⟨S1x128x128, .f32⟩
  | 2 => ⟨S128x128, .f32⟩
  | 3 => ⟨S1x128, .f32⟩
  | 4 => ⟨S50000x128, .f32⟩
  | 5 => ⟨S1x128, .f32⟩
  | 6 => ⟨S1x128, .f32⟩
  | 7 => ⟨S128, .f32⟩
  | 8 => ⟨S128, .f32⟩
  | 9 => ⟨S1x128, .f32⟩
  | 10 => ⟨S128, .f32⟩
  | 11 => ⟨S1x128, .f32⟩
  | 12 => ⟨S128, .f32⟩
  | 13 => ⟨S1x128, .f32⟩
  | 14 => ⟨S1x128, .f32⟩
  | 15 => ⟨S1x128, .f32⟩
  | 16 => ⟨S1x128, .f32⟩
  | 17 => ⟨S50000x128, .f32⟩
  | 18 => ⟨S_, .i32⟩
  | 19 => ⟨S256, .i32⟩
  | 20 => ⟨S256, .i1⟩
  | 21 => ⟨S_, .i32⟩
  | 22 => ⟨S256, .i32⟩
  | 23 => ⟨S256, .i32⟩
  | 24 => ⟨S256, .i32⟩
  | 25 => ⟨S256x1, .i32⟩
  | 26 => ⟨S256x128, .f32⟩
  | 27 => ⟨S1x128, .f32⟩
  | 28 => ⟨S50000x128, .f32⟩
  | 29 => ⟨S1x128, .f32⟩
  | 30 => ⟨S1x128, .f32⟩
  | 31 => ⟨S128, .f32⟩
  | 32 => ⟨S128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S128x128, .f32⟩
  | .local _ .vmem, ⟨47, _⟩ => ⟨S128x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S1x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S1x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S128x128, .f32⟩
  | .local _ .vmem, ⟨66, _⟩ => ⟨S1x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S5000x128, .f32⟩
  | .local _ .vmem, ⟨74, _⟩ => ⟨S5000x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S1x128, .f32⟩
  | .local _ .vmem, ⟨79, _⟩ => ⟨S128x128, .f32⟩
  | .local _ .vmem, ⟨80, _⟩ => ⟨S1x128, .f32⟩
  | .local _ .vmem, ⟨81, _⟩ => ⟨S5000x1, .f32⟩
  | .local _ .vmem, ⟨82, _⟩ => ⟨S5000x1, .f32⟩
  | .local _ .vmem, ⟨83, _⟩ => ⟨S5000x128, .f32⟩
  | .local _ .vmem, ⟨84, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 77 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | _ => false

abbrev sig : RefSig :=
  ofTc nBuf bufTy 0 77 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_cst_3 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_cst_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34_0 : Ref sig .tc := ⟨.hbm, 60, rfl⟩
abbrev main_v34_1 : Ref sig .tc := ⟨.hbm, 61, rfl⟩
abbrev main_v34_2 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_c_7 : Ref sig .tc := ⟨.hbm, 74, rfl⟩
abbrev main_v46 : Ref sig .tc := ⟨.hbm, 75, rfl⟩
abbrev main_v47 : Ref sig .tc := ⟨.hbm, 76, rfl⟩
abbrev main_c_8 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65_0 : Ref sig .tc := ⟨.hbm, 96, rfl⟩
abbrev main_v65_1 : Ref sig .tc := ⟨.hbm, 97, rfl⟩
abbrev main_v65_2 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_10 : Ref sig .tc := ⟨.hbm, 110, rfl⟩
abbrev main_v77 : Ref sig .tc := ⟨.hbm, 111, rfl⟩
abbrev main_v78 : Ref sig .tc := ⟨.hbm, 112, rfl⟩
abbrev main_c_11 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_12 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96_0 : Ref sig .tc := ⟨.hbm, 132, rfl⟩
abbrev main_v96_1 : Ref sig .tc := ⟨.hbm, 133, rfl⟩
abbrev main_v96_2 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_c_13 : Ref sig .tc := ⟨.hbm, 146, rfl⟩
abbrev main_v108 : Ref sig .tc := ⟨.hbm, 147, rfl⟩
abbrev main_v109 : Ref sig .tc := ⟨.hbm, 148, rfl⟩
abbrev main_c_14 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116_0 : Ref sig .tc := ⟨.hbm, 156, rfl⟩
abbrev main_v116_1 : Ref sig .tc := ⟨.hbm, 157, rfl⟩
abbrev main_v116_2 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc2_stg6_0 : Ref sig .tc := ⟨.vmem, 30, rfl⟩
abbrev cc2_stg7_0 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg4_0 : Ref sig .tc := ⟨.vmem, 39, rfl⟩
abbrev cc3_stg5_0 : Ref sig .tc := ⟨.vmem, 40, rfl⟩
abbrev cc3_stg5_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg7_0 : Ref sig .tc := ⟨.vmem, 52, rfl⟩
abbrev cc4_scratch0 : Ref sig .tc := ⟨.vmem, 53, rfl⟩
abbrev cc4_scratch1 : Ref sig .tc := ⟨.vmem, 54, rfl⟩
abbrev cc5_stg0_0 : Ref sig .tc := ⟨.vmem, 55, rfl⟩
abbrev cc5_stg0_1 : Ref sig .tc := ⟨.vmem, 56, rfl⟩
abbrev cc5_stg1_0 : Ref sig .tc := ⟨.vmem, 57, rfl⟩
abbrev cc5_stg2_0 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg5_0 : Ref sig .tc := ⟨.vmem, 61, rfl⟩
abbrev cc5_stg5_1 : Ref sig .tc := ⟨.vmem, 62, rfl⟩
abbrev cc6_stg0_0 : Ref sig .tc := ⟨.vmem, 63, rfl⟩
abbrev cc6_stg0_1 : Ref sig .tc := ⟨.vmem, 64, rfl⟩
abbrev cc6_stg1_0 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg3_1 : Ref sig .tc := ⟨.vmem, 68, rfl⟩
abbrev cc6_stg4_0 : Ref sig .tc := ⟨.vmem, 69, rfl⟩
abbrev cc6_stg5_0 : Ref sig .tc := ⟨.vmem, 70, rfl⟩
abbrev cc6_scratch0 : Ref sig .tc := ⟨.vmem, 71, rfl⟩
abbrev cc6_scratch1 : Ref sig .tc := ⟨.vmem, 72, rfl⟩
abbrev cc7_stg0_0 : Ref sig .tc := ⟨.vmem, 73, rfl⟩
abbrev cc7_stg0_1 : Ref sig .tc := ⟨.vmem, 74, rfl⟩
abbrev cc7_stg1_0 : Ref sig .tc := ⟨.vmem, 75, rfl⟩
abbrev cc7_stg2_0 : Ref sig .tc := ⟨.vmem, 76, rfl⟩
abbrev cc7_stg3_0 : Ref sig .tc := ⟨.vmem, 77, rfl⟩
abbrev cc7_stg4_0 : Ref sig .tc := ⟨.vmem, 78, rfl⟩
abbrev cc7_stg5_0 : Ref sig .tc := ⟨.vmem, 79, rfl⟩
abbrev cc7_stg6_0 : Ref sig .tc := ⟨.vmem, 80, rfl⟩
abbrev cc7_stg7_0 : Ref sig .tc := ⟨.vmem, 81, rfl⟩
abbrev cc7_stg7_1 : Ref sig .tc := ⟨.vmem, 82, rfl⟩
abbrev cc7_stg8_0 : Ref sig .tc := ⟨.vmem, 83, rfl⟩
abbrev cc7_stg8_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem5_1 : DmaSem sig := 27
abbrev cc2_sem6_0 : DmaSem sig := 28
abbrev cc2_sem7_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem5_1 : DmaSem sig := 46
abbrev cc4_sem6_0 : DmaSem sig := 47
abbrev cc4_sem7_0 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem3_1 : DmaSem sig := 62
abbrev cc6_sem4_0 : DmaSem sig := 63
abbrev cc6_sem5_0 : DmaSem sig := 64
abbrev cc7_sem0_0 : DmaSem sig := 65
abbrev cc7_sem0_1 : DmaSem sig := 66
abbrev cc7_sem1_0 : DmaSem sig := 67
abbrev cc7_sem2_0 : DmaSem sig := 68
abbrev cc7_sem3_0 : DmaSem sig := 69
abbrev cc7_sem4_0 : DmaSem sig := 70
abbrev cc7_sem5_0 : DmaSem sig := 71
abbrev cc7_sem6_0 : DmaSem sig := 72
abbrev cc7_sem7_0 : DmaSem sig := 73
abbrev cc7_sem7_1 : DmaSem sig := 74
abbrev cc7_sem8_0 : DmaSem sig := 75
abbrev cc7_sem8_1 : DmaSem sig := 76

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v39 : BitVec 1 := Scalar.cmpi .eq arg0 c9_i32
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def k2_cond2 (i : grid2.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_23 : BitVec 32 := 0#32
  let v42 : BitVec 1 := Scalar.cmpi .ne v41 c0_i32_23
  v42

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v40 : BitVec 1 := Scalar.cmpi .eq arg0 c9_i32
  let v41 : BitVec 32 := Scalar.extui v40
  let c0_i32_23 : BitVec 32 := 0#32
  let v42 : BitVec 1 := Scalar.cmpi .ne v41 c0_i32_23
  v42

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_18 : BitVec 32 := 0#32
  let v32 : BitVec 1 := Scalar.cmpi .ne v31 c0_i32_18
  v32

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_8 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S128x128 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x128 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S5000x1 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

abbrev stage7_8 : Fin 2 → Memref sig .tc .vmem S5000x128 .f32 := fun | 0 => Memref.whole cc7_stg8_0 | 1 => Memref.whole cc7_stg8_1 | ⟨_ + 2, h⟩ => absurd h (Nat.not_lt.2 (Nat.le_add_left _ _))
abbrev sem7_8 : Fin 2 → DmaSem sig := fun | 0 => cc7_sem8_0 | 1 => cc7_sem8_1 | ⟨_ + 2, h⟩ => absurd h (Nat.not_lt.2 (Nat.le_add_left _ _))
abbrev reads7_8 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000x1 : S_.BroadcastsInDim S800000x1 (![] : Fin 0 → Fin S800000x1.rank)
  bcast_S_S50000x1 : S_.BroadcastsInDim S50000x1 (![] : Fin 0 → Fin S50000x1.rank)
  bcast_S800000_S800000x1_0 : S800000.BroadcastsInDim S800000x1 (![0] : Fin 1 → Fin S800000x1.rank)
  bcast_S_S800000 : S_.BroadcastsInDim S800000 (![] : Fin 0 → Fin S800000.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  broadcasts_S1x128_S5000x128 : S1x128.Broadcasts S5000x128
  reduces_S5000x128_S128 : S5000x128.Reduces [0] S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256 : S_.BroadcastsInDim S256 (![] : Fin 0 → Fin S256.rank)
  bcast_S256_S256x1_0 : S256.BroadcastsInDim S256x1 (![0] : Fin 1 → Fin S256x1.rank)
  inb_S5000x1_S5000x1_0_0 : ∀ a, (![0, 0] : Fin 2 → Nat) a + S5000x1.size a ≤ S5000x1.size a
  h_S5000x1 : 0 < S5000x1.numel
  broadcasts_S5000x1_S5000x128 : S5000x1.Broadcasts S5000x128
  scatter_S50000x1_S800000x1_S800000x1_1_0_0_1_wf : ScatterDims.WF S50000x1 S800000x1 S800000x1 [1] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S256x1_S256x128_1_0_n_n_0_1_1128_wf : GatherDims.WF S50000x128 S256x1 S256x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S50000x128.size a
  hwx4_5 : ∀ i : grid4.Coords, EltTy.bits .f32 = 32 ∨ (Rect.block (s := S50000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x128.size a ≤ S1x128.size a
  hwx4_7 : ∀ i : grid4.Coords, EltTy.bits .f32 = 32 ∨ (Rect.block (s := S1x128) S1x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S50000x128.size a
  hwx7_0 : ∀ i : grid7.Coords, EltTy.bits .f32 = 32 ∨ (Rect.block (s := S50000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S128x128.size a ≤ S128x128.size a
  hwx7_5 : ∀ i : grid7.Coords, EltTy.bits .f32 = 32 ∨ (Rect.block (s := S128x128) S128x128.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x128.size a ≤ S1x128.size a
  hwx7_6 : ∀ i : grid7.Coords, EltTy.bits .f32 = 32 ∨ (Rect.block (s := S1x128) S1x128.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S5000x1.size a ≤ S50000x1.size a
  hwx7_7 : ∀ i : grid7.Coords, EltTy.bits .f32 = 32 ∨ (Rect.block (s := S50000x1) S5000x1.size (cc7_transform_7 i) (hinb7_7 i)).WholeWords (EltTy.packing .f32)
  hstage7_8 : ∀ j, (stage7_8 j).IsWhole
  nbuf7_8 : grid7.bufCount reads7_8 false = 2
  hreads7_8 : ∀ i i' : grid7.Coords, (∀ a, reads7_8 a = true → i a = i' a) → cc7_transform_8 i = cc7_transform_8 i'
  hinb7_8 : ∀ (i : grid7.Coords) a, (cc7_transform_8 i a + 1) * S5000x128.size a ≤ S50000x128.size a
  hwx7_8 : ∀ i : grid7.Coords, EltTy.bits .f32 = 32 ∨ (Rect.block (s := S50000x128) S5000x128.size (cc7_transform_8 i) (hinb7_8 i)).WholeWords (EltTy.packing .f32)

variable [Facts₀]

def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf

abbrev win0_0 : Pipeline.Window sig grid0 :=
  Pipeline.Window.ofSpec (Memref.whole main_v26) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v34_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v34_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v59) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v63) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v64) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v65_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v65_1) S1x128.size cc2_transform_6 reads2_6 true true 1 stage2_6 sem2_6
    hrank2 hreads2_6 hinb2_6 nbuf2_6 (Memref.isWhole_whole _) hwx2_6 hstage2_6

abbrev win2_7 : Pipeline.Window sig grid2 :=
  Pipeline.Window.ofSpec (Memref.whole main_v65_2) S1x128.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun i => !(k2_cond2 i == 1#1) | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v65_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v75) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v90) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v94) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v95) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v96_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v96_1) S1x128.size cc4_transform_6 reads4_6 true true 1 stage4_6 sem4_6
    hrank4 hreads4_6 hinb4_6 nbuf4_6 (Memref.isWhole_whole _) hwx4_6 hstage4_6

abbrev win4_7 : Pipeline.Window sig grid4 :=
  Pipeline.Window.ofSpec (Memref.whole main_v96_2) S1x128.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev idle4 : Fin 8 → grid4.Coords → Bool := fun | 0 => fun _ => false | 1 => fun _ => false | 2 => fun _ => false | 3 => fun _ => false | 4 => fun _ => false | 5 => fun _ => false | 6 => fun i => !(k4_cond2 i == 1#1) | 7 => fun i => !(k4_cond2 i == 1#1) | ⟨_ + 8, h⟩ => absurd h (Nat.not_lt.2 (Nat.le_add_left _ _))

abbrev win5_0 : Pipeline.Window sig grid5 :=
  Pipeline.Window.ofSpec (Memref.whole main_v96_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v107) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v115) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v116_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v116_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v116_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev idle6 : Fin 6 → grid6.Coords → Bool := fun | 0 => fun _ => false | 1 => fun _ => false | 2 => fun _ => false | 3 => fun _ => false | 4 => fun i => !(k6_cond2 i == 1#1) | 5 => fun i => !(k6_cond2 i == 1#1) | ⟨_ + 6, h⟩ => absurd h (Nat.not_lt.2 (Nat.le_add_left _ _))

abbrev win7_0 : Pipeline.Window sig grid7 :=
  Pipeline.Window.ofSpec (Memref.whole main_v116_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v119) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v120) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v121) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v122) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg13) S128x128.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v123) S1x128.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_arg2) S5000x1.size cc7_transform_7 reads7_7 false false 2 stage7_7 sem7_7
    hrank7 hreads7_7 hinb7_7 nbuf7_7 (Memref.isWhole_whole _) hwx7_7 hstage7_7

abbrev win7_8 : Pipeline.Window sig grid7 :=
  Pipeline.Window.ofSpec (Memref.whole main_v124) S5000x128.size cc7_transform_8 reads7_8 true false 2 stage7_8 sem7_8
    hrank7 hreads7_8 hinb7_8 nbuf7_8 (Memref.isWhole_whole _) hwx7_8 hstage7_8

abbrev win7 : Fin 9 → Pipeline.Window sig grid7 := fun | 0 => win7_0 | 1 => win7_1 | 2 => win7_2 | 3 => win7_3 | 4 => win7_4 | 5 => win7_5 | 6 => win7_6 | 7 => win7_7 | 8 => win7_8 | ⟨_ + 9, h⟩ => absurd h (Nat.not_lt.2 (Nat.le_add_left _ _))
abbrev spec7 : Fin 9 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000x1 : Shape := ⟨2, ![50000, 1]⟩
abbrev S256 : Shape := ⟨1, ![256]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128x128 : Shape := ⟨3, ![1, 128, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S256x1 : Shape := ⟨2, ![256, 1]⟩
abbrev S256x128 : Shape := ⟨2, ![256, 128]⟩

abbrev nBuf : Space → Nat
  | .hbm => 378
  | .vmem => 0
  | .smem => 0
  | _ => 0

abbrev hbmTy0_0 (i : Nat) : BufTy := match i % 128 with
  | 0 => ⟨S50000x128, .f32⟩
  | 1 => ⟨S2x800000, .i32⟩
  | 2 => ⟨S50000x1, .f32⟩
  | 3 => ⟨S256, .i32⟩
  | 4 => ⟨S3x128x128, .f32⟩
  | 5 => ⟨S3x128, .f32⟩
  | 6 => ⟨S3x128x128, .f32⟩
  | 7 => ⟨S3x128, .f32⟩
  | 8 => ⟨S3x128, .f32⟩
  | 9 => ⟨S128x128, .f32⟩
  | 10 => ⟨S128, .f32⟩
  | 11 => ⟨S128, .f32⟩
  | 12 => ⟨S128, .f32⟩
  | 13 => ⟨S128x128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S1x128x128, .f32⟩
  | 20 => ⟨S128x128, .f32⟩
  | 21 => ⟨S1x128, .f32⟩
  | 22 => ⟨S128, .f32⟩
  | 23 => ⟨S1x128x128, .f32⟩
  | 24 => ⟨S128x128, .f32⟩
  | 25 => ⟨S1x128, .f32⟩
  | 26 => ⟨S128, .f32⟩
  | 27 => ⟨S1x128, .f32⟩
  | 28 => ⟨S128, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S800000x1, .f32⟩
  | 44 => ⟨S_, .f32⟩
  | 45 => ⟨S50000x1, .f32⟩
  | 46 => ⟨S800000x1, .i32⟩
  | 47 => ⟨S50000x1, .f32⟩
  | 48 => ⟨S_, .f32⟩
  | 49 => ⟨S50000x1, .f32⟩
  | 50 => ⟨S50000x1, .i1⟩
  | 51 => ⟨S_, .f32⟩
  | 52 => ⟨S50000x1, .f32⟩
  | 53 => ⟨S50000x1, .f32⟩
  | 54 => ⟨S50000x128, .f32⟩
  | 55 => ⟨S50000x128, .f32⟩
  | 56 => ⟨S_, .f32⟩
  | 57 => ⟨S_, .f32⟩
  | 58 => ⟨S50000x128, .i1⟩
  | 59 => ⟨S50000x128, .f32⟩
  | 60 => ⟨S50000x128, .f32⟩
  | 61 => ⟨S128x128, .f32⟩
  | 62 => ⟨S50000x128, .f32⟩
  | 63 => ⟨S1x128, .f32⟩
  | 64 => ⟨S50000x128, .f32⟩
  | 65 => ⟨S50000x128, .f32⟩
  | 66 => ⟨S128x128, .f32⟩
  | 67 => ⟨S50000x128, .f32⟩
  | 68 => ⟨S50000x128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S50000x128, .f32⟩
  | 82 => ⟨S50000x128, .f32⟩
  | 83 => ⟨S50000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S50000x128, .f32⟩
  | 99 => ⟨S50000x128, .f32⟩
  | 100 => ⟨S_, .f32⟩
  | 101 => ⟨S128, .f32⟩
  | 102 => ⟨S128, .f32⟩
  | 103 => ⟨S128, .f32⟩
  | 104 => ⟨S1x128, .f32⟩
  | 105 => ⟨S50000x128, .f32⟩
  | 106 => ⟨S50000x128, .f32⟩
  | 107 => ⟨S1x128, .f32⟩
  | 108 => ⟨S50000x128, .f32⟩
  | 109 => ⟨S50000x128, .f32⟩
  | 110 => ⟨S1x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S1x128x128, .f32⟩
  | 117 => ⟨S128x128, .f32⟩
  | 118 => ⟨S1x128, .f32⟩
  | 119 => ⟨S128, .f32⟩
  | 120 => ⟨S1x128x128, .f32⟩
  | 121 => ⟨S128x128, .f32⟩
  | 122 => ⟨S1x128, .f32⟩
  | 123 => ⟨S128, .f32⟩
  | 124 => ⟨S1x128, .f32⟩
  | 125 => ⟨S128, .f32⟩
  | 126 => ⟨S_, .i32⟩
  | 127 => ⟨S800000, .i32⟩
  | _ => ⟨S50000x128, .f32⟩

abbrev hbmTy0_1 (i : Nat) : BufTy := match i % 128 with
  | 0 => ⟨S800000, .i1⟩
  | 1 => ⟨S_, .i32⟩
  | 2 => ⟨S800000, .i32⟩
  | 3 => ⟨S800000, .i32⟩
  | 4 => ⟨S800000, .i32⟩
  | 5 => ⟨S800000x1, .i32⟩
  | 6 => ⟨S800000x128, .f32⟩
  | 7 => ⟨S_, .f32⟩
  | 8 => ⟨S50000x128, .f32⟩
  | 9 => ⟨S800000x1, .i32⟩
  | 10 => ⟨S50000x128, .f32⟩
  | 11 => ⟨S_, .f32⟩
  | 12 => ⟨S800000x1, .f32⟩
  | 13 => ⟨S_, .f32⟩
  | 14 => ⟨S50000x1, .f32⟩
  | 15 => ⟨S800000x1, .i32⟩
  | 16 => ⟨S50000x1, .f32⟩
  | 17 => ⟨S_, .f32⟩
  | 18 => ⟨S50000x1, .f32⟩
  | 19 => ⟨S50000x1, .i1⟩
  | 20 => ⟨S_, .f32⟩
  | 21 => ⟨S50000x1, .f32⟩
  | 22 => ⟨S50000x1, .f32⟩
  | 23 => ⟨S50000x128, .f32⟩
  | 24 => ⟨S50000x128, .f32⟩
  | 25 => ⟨S_, .f32⟩
  | 26 => ⟨S_, .f32⟩
  | 27 => ⟨S50000x128, .i1⟩
  | 28 => ⟨S50000x128, .f32⟩
  | 29 => ⟨S50000x128, .f32⟩
  | 30 => ⟨S128x128, .f32⟩
  | 31 => ⟨S50000x128, .f32⟩
  | 32 => ⟨S1x128, .f32⟩
  | 33 => ⟨S50000x128, .f32⟩
  | 34 => ⟨S50000x128, .f32⟩
  | 35 => ⟨S128x128, .f32⟩
  | 36 => ⟨S50000x128, .f32⟩
  | 37 => ⟨S50000x128, .f32⟩
  | 38 => ⟨S_, .f32⟩
  | 39 => ⟨S128, .f32⟩
  | 40 => ⟨S_, .f32⟩
  | 41 => ⟨S128, .f32⟩
  | 42 => ⟨S128, .f32⟩
  | 43 => ⟨S_, .i32⟩
  | 44 => ⟨S_, .f32⟩
  | 45 => ⟨S128, .f32⟩
  | 46 => ⟨S1x128, .f32⟩
  | 47 => ⟨S_, .f32⟩
  | 48 => ⟨S1x128, .f32⟩
  | 49 => ⟨S1x128, .f32⟩
  | 50 => ⟨S50000x128, .f32⟩
  | 51 => ⟨S50000x128, .f32⟩
  | 52 => ⟨S50000x128, .f32⟩
  | 53 => ⟨S_, .f32⟩
  | 54 => ⟨S_, .f32⟩
  | 55 => ⟨S_, .f32⟩
  | 56 => ⟨S_, .f32⟩
  | 57 => ⟨S128, .f32⟩
  | 58 => ⟨S128, .f32⟩
  | 59 => ⟨S128, .f32⟩
  | 60 => ⟨S_, .f32⟩
  | 61 => ⟨S_, .i1⟩
  | 62 => ⟨S_, .f32⟩
  | 63 => ⟨S_, .f32⟩
  | 64 => ⟨S128, .f32⟩
  | 65 => ⟨S128, .f32⟩
  | 66 => ⟨S1x128, .f32⟩
  | 67 => ⟨S50000x128, .f32⟩
  | 68 => ⟨S50000x128, .f32⟩
  | 69 => ⟨S_, .f32⟩
  | 70 => ⟨S128, .f32⟩
  | 71 => ⟨S128, .f32⟩
  | 72 => ⟨S128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S50000x128, .f32⟩
  | 84 => ⟨S50000x128, .f32⟩
  | 85 => ⟨S1x128x128, .f32⟩
  | 86 => ⟨S128x128, .f32⟩
  | 87 => ⟨S1x128, .f32⟩
  | 88 => ⟨S128, .f32⟩
  | 89 => ⟨S1x128x128, .f32⟩
  | 90 => ⟨S128x128, .f32⟩
  | 91 => ⟨S1x128, .f32⟩
  | 92 => ⟨S128, .f32⟩
  | 93 => ⟨S1x128, .f32⟩
  | 94 => ⟨S128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S_, .f32⟩
  | 109 => ⟨S800000x1, .f32⟩
  | 110 => ⟨S_, .f32⟩
  | 111 => ⟨S50000x1, .f32⟩
  | 112 => ⟨S800000x1, .i32⟩
  | 113 => ⟨S50000x1, .f32⟩
  | 114 => ⟨S_, .f32⟩
  | 115 => ⟨S50000x1, .f32⟩
  | 116 => ⟨S50000x1, .i1⟩
  | 117 => ⟨S_, .f32⟩
  | 118 => ⟨S50000x1, .f32⟩
  | 119 => ⟨S50000x1, .f32⟩
  | 120 => ⟨S50000x128, .f32⟩
  | 121 => ⟨S50000x128, .f32⟩
  | 122 => ⟨S_, .f32⟩
  | 123 => ⟨S_, .f32⟩
  | 124 => ⟨S50000x128, .i1⟩
  | 125 => ⟨S50000x128, .f32⟩
  | 126 => ⟨S50000x128, .f32⟩
  | 127 => ⟨S128x128, .f32⟩
  | _ => ⟨S50000x128, .f32⟩

abbrev hbmTy0_2 (i : Nat) : BufTy := match i % 128 with
  | 0 => ⟨S50000x128, .f32⟩
  | 1 => ⟨S1x128, .f32⟩
  | 2 => ⟨S50000x128, .f32⟩
  | 3 => ⟨S50000x128, .f32⟩
  | 4 => ⟨S128x128, .f32⟩
  | 5 => ⟨S50000x128, .f32⟩
  | 6 => ⟨S50000x128, .f32⟩
  | 7 => ⟨S_, .f32⟩
  | 8 => ⟨S128, .f32⟩
  | 9 => ⟨S_, .f32⟩
  | 10 => ⟨S128, .f32⟩
  | 11 => ⟨S128, .f32⟩
  | 12 => ⟨S_, .i32⟩
  | 13 => ⟨S_, .f32⟩
  | 14 => ⟨S128, .f32⟩
  | 15 => ⟨S1x128, .f32⟩
  | 16 => ⟨S_, .f32⟩
  | 17 => ⟨S1x128, .f32⟩
  | 18 => ⟨S1x128, .f32⟩
  | 19 => ⟨S50000x128, .f32⟩
  | 20 => ⟨S50000x128, .f32⟩
  | 21 => ⟨S50000x128, .f32⟩
  | 22 => ⟨S_, .f32⟩
  | 23 => ⟨S_, .f32⟩
  | 24 => ⟨S_, .f32⟩
  | 25 => ⟨S_, .f32⟩
  | 26 => ⟨S128, .f32⟩
  | 27 => ⟨S128, .f32⟩
  | 28 => ⟨S128, .f32⟩
  | 29 => ⟨S_, .f32⟩
  | 30 => ⟨S_, .i1⟩
  | 31 => ⟨S_, .f32⟩
  | 32 => ⟨S_, .f32⟩
  | 33 => ⟨S128, .f32⟩
  | 34 => ⟨S128, .f32⟩
  | 35 => ⟨S1x128, .f32⟩
  | 36 => ⟨S50000x128, .f32⟩
  | 37 => ⟨S50000x128, .f32⟩
  | 38 => ⟨S_, .f32⟩
  | 39 => ⟨S128, .f32⟩
  | 40 => ⟨S128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S1x128, .f32⟩
  | 49 => ⟨S50000x128, .f32⟩
  | 50 => ⟨S50000x128, .f32⟩
  | 51 => ⟨S_, .f32⟩
  | 52 => ⟨S50000x128, .f32⟩
  | 53 => ⟨S50000x128, .f32⟩
  | 54 => ⟨S_, .i32⟩
  | 55 => ⟨S256, .i32⟩
  | 56 => ⟨S256, .i1⟩
  | 57 => ⟨S_, .i32⟩
  | 58 => ⟨S256, .i32⟩
  | 59 => ⟨S256, .i32⟩
  | 60 => ⟨S256, .i32⟩
  | 61 => ⟨S256x1, .i32⟩
  | 62 => ⟨S256x128, .f32⟩
  | 63 => ⟨S128x128, .f32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S128, .f32⟩
  | 70 => ⟨S_, .f32⟩
  | 71 => ⟨S128, .f32⟩
  | 72 => ⟨S128, .f32⟩
  | 73 => ⟨S_, .i32⟩
  | 74 => ⟨S_, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S50000x128, .f32⟩
  | 81 => ⟨S50000x128, .f32⟩
  | 82 => ⟨S50000x128, .f32⟩
  | 83 => ⟨S_, .f32⟩
  | 84 => ⟨S_, .f32⟩
  | 85 => ⟨S_, .f32⟩
  | 86 => ⟨S_, .f32⟩
  | 87 => ⟨S128, .f32⟩
  | 88 => ⟨S128, .f32⟩
  | 89 => ⟨S128, .f32⟩
  | 90 => ⟨S_, .f32⟩
  | 91 => ⟨S_, .i1⟩
  | 92 => ⟨S_, .f32⟩
  | 93 => ⟨S_, .f32⟩
  | 94 => ⟨S128, .f32⟩
  | 95 => ⟨S128, .f32⟩
  | 96 => ⟨S1x128, .f32⟩
  | 97 => ⟨S50000x128, .f32⟩
  | 98 => ⟨S50000x128, .f32⟩
  | 99 => ⟨S_, .f32⟩
  | 100 => ⟨S128, .f32⟩
  | 101 => ⟨S128, .f32⟩
  | 102 => ⟨S128, .f32⟩
  | 103 => ⟨S1x128, .f32⟩
  | 104 => ⟨S50000x128, .f32⟩
  | 105 => ⟨S50000x128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S_, .f32⟩
  | 113 => ⟨S50000x128, .f32⟩
  | 114 => ⟨S50000x128, .f32⟩
  | 115 => ⟨S128x128, .f32⟩
  | 116 => ⟨S50000x128, .f32⟩
  | 117 => ⟨S1x128, .f32⟩
  | 118 => ⟨S50000x128, .f32⟩
  | 119 => ⟨S50000x128, .f32⟩
  | 120 => ⟨S50000x128, .f32⟩
  | 121 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_c : Ref sig .tc := ⟨.hbm, 29, rfl⟩
abbrev main_v14 : Ref sig .tc := ⟨.hbm, 30, rfl⟩
abbrev main_v15 : Ref sig .tc := ⟨.hbm, 31, rfl⟩
abbrev main_c_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_1 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_6 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_c_8 : Ref sig .tc := ⟨.hbm, 74, rfl⟩
abbrev main_call1_cst : Ref sig .tc := ⟨.hbm, 75, rfl⟩
abbrev main_call1_v0 : Ref sig .tc := ⟨.hbm, 76, rfl⟩
abbrev main_call1_v1 : Ref sig .tc := ⟨.hbm, 77, rfl⟩
abbrev main_call1_cst_0 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_call1_v5 : Ref sig .tc := ⟨.hbm, 82, rfl⟩
abbrev main_call1_v6 : Ref sig .tc := ⟨.hbm, 83, rfl⟩
abbrev main_call1_v7 : Ref sig .tc := ⟨.hbm, 84, rfl⟩
abbrev main_call1_cst_1 : Ref sig .tc := ⟨.hbm, 85, rfl⟩
abbrev main_call1_v8 : Ref sig .tc := ⟨.hbm, 86, rfl⟩
abbrev main_call1_cst_2 : Ref sig .tc := ⟨.hbm, 87, rfl⟩
abbrev main_call1_v9 : Ref sig .tc := ⟨.hbm, 88, rfl⟩
abbrev main_call1_v10 : Ref sig .tc := ⟨.hbm, 89, rfl⟩
abbrev main_call1_v11 : Ref sig .tc := ⟨.hbm, 90, rfl⟩
abbrev main_call1_cst_3 : Ref sig .tc := ⟨.hbm, 91, rfl⟩
abbrev main_call1_v12 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_cst_9 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_call2_cst : Ref sig .tc := ⟨.hbm, 113, rfl⟩
abbrev main_call2_v0 : Ref sig .tc := ⟨.hbm, 114, rfl⟩
abbrev main_v62 : Ref sig .tc := ⟨.hbm, 115, rfl⟩
abbrev main_v63 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_c_10 : Ref sig .tc := ⟨.hbm, 126, rfl⟩
abbrev main_v73 : Ref sig .tc := ⟨.hbm, 127, rfl⟩
abbrev main_v74 : Ref sig .tc := ⟨.hbm, 128, rfl⟩
abbrev main_c_11 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_12 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_13 : Ref sig .tc := ⟨.hbm, 139, rfl⟩
abbrev main_v83 : Ref sig .tc := ⟨.hbm, 140, rfl⟩
abbrev main_cst_14 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_cst_15 : Ref sig .tc := ⟨.hbm, 145, rfl⟩
abbrev main_v87 : Ref sig .tc := ⟨.hbm, 146, rfl⟩
abbrev main_v88 : Ref sig .tc := ⟨.hbm, 147, rfl⟩
abbrev main_cst_16 : Ref sig .tc := ⟨.hbm, 148, rfl⟩
abbrev main_v89 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_cst_17 : Ref sig .tc := ⟨.hbm, 153, rfl⟩
abbrev main_call3_v0 : Ref sig .tc := ⟨.hbm, 154, rfl⟩
abbrev main_call3_v1 : Ref sig .tc := ⟨.hbm, 155, rfl⟩
abbrev main_call3_v2 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_cst_18 : Ref sig .tc := ⟨.hbm, 166, rfl⟩
abbrev main_v102 : Ref sig .tc := ⟨.hbm, 167, rfl⟩
abbrev main_cst_19 : Ref sig .tc := ⟨.hbm, 168, rfl⟩
abbrev main_v103 : Ref sig .tc := ⟨.hbm, 169, rfl⟩
abbrev main_v104 : Ref sig .tc := ⟨.hbm, 170, rfl⟩
abbrev main_c_20 : Ref sig .tc := ⟨.hbm, 171, rfl⟩
abbrev main_call4_cst : Ref sig .tc := ⟨.hbm, 172, rfl⟩
abbrev main_call4_v0 : Ref sig .tc := ⟨.hbm, 173, rfl⟩
abbrev main_call4_v1 : Ref sig .tc := ⟨.hbm, 174, rfl⟩
abbrev main_call4_cst_0 : Ref sig .tc := ⟨.hbm, 175, rfl⟩
abbrev main_call4_v2 : Ref sig .tc := ⟨.hbm, 176, rfl⟩
abbrev main_call4_v3 : Ref sig .tc := ⟨.hbm, 177, rfl⟩
abbrev main_call4_v4 : Ref sig .tc := ⟨.hbm, 178, rfl⟩
abbrev main_call4_v5 : Ref sig .tc := ⟨.hbm, 179, rfl⟩
abbrev main_call4_v6 : Ref sig .tc := ⟨.hbm, 180, rfl⟩
abbrev main_call4_v7 : Ref sig .tc := ⟨.hbm, 181, rfl⟩
abbrev main_call4_cst_1 : Ref sig .tc := ⟨.hbm, 182, rfl⟩
abbrev main_call4_v8 : Ref sig .tc := ⟨.hbm, 183, rfl⟩
abbrev main_call4_cst_2 : Ref sig .tc := ⟨.hbm, 184, rfl⟩
abbrev main_call4_v9 : Ref sig .tc := ⟨.hbm, 185, rfl⟩
abbrev main_call4_v10 : Ref sig .tc := ⟨.hbm, 186, rfl⟩
abbrev main_call4_v11 : Ref sig .tc := ⟨.hbm, 187, rfl⟩
abbrev main_call4_cst_3 : Ref sig .tc := ⟨.hbm, 188, rfl⟩
abbrev main_call4_v12 : Ref sig .tc := ⟨.hbm, 189, rfl⟩
abbrev main_call4_cst_4 : Ref sig .tc := ⟨.hbm, 190, rfl⟩
abbrev main_call4_call0_v0 : Ref sig .tc := ⟨.hbm, 191, rfl⟩
abbrev main_call4_call0_v1 : Ref sig .tc := ⟨.hbm, 192, rfl⟩
abbrev main_v105 : Ref sig .tc := ⟨.hbm, 193, rfl⟩
abbrev main_v106 : Ref sig .tc := ⟨.hbm, 194, rfl⟩
abbrev main_v107 : Ref sig .tc := ⟨.hbm, 195, rfl⟩
abbrev main_v108 : Ref sig .tc := ⟨.hbm, 196, rfl⟩
abbrev main_cst_21 : Ref sig .tc := ⟨.hbm, 197, rfl⟩
abbrev main_v109 : Ref sig .tc := ⟨.hbm, 198, rfl⟩
abbrev main_v110 : Ref sig .tc := ⟨.hbm, 199, rfl⟩
abbrev main_v111 : Ref sig .tc := ⟨.hbm, 200, rfl⟩
abbrev main_v112 : Ref sig .tc := ⟨.hbm, 201, rfl⟩
abbrev main_v113 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_call5_cst : Ref sig .tc := ⟨.hbm, 210, rfl⟩
abbrev main_call5_v0 : Ref sig .tc := ⟨.hbm, 211, rfl⟩
abbrev main_v121 : Ref sig .tc := ⟨.hbm, 212, rfl⟩
abbrev main_v122 : Ref sig .tc := ⟨.hbm, 213, rfl⟩
abbrev main_v123 : Ref sig .tc := ⟨.hbm, 214, rfl⟩
abbrev main_v124 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_c_22 : Ref sig .tc := ⟨.hbm, 223, rfl⟩
abbrev main_v132 : Ref sig .tc := ⟨.hbm, 224, rfl⟩
abbrev main_v133 : Ref sig .tc := ⟨.hbm, 225, rfl⟩
abbrev main_c_23 : Ref sig .tc := ⟨.hbm, 226, rfl⟩
abbrev main_v134 : Ref sig .tc := ⟨.hbm, 227, rfl⟩
abbrev main_v135 : Ref sig .tc := ⟨.hbm, 228, rfl⟩
abbrev main_v136 : Ref sig .tc := ⟨.hbm, 229, rfl⟩
abbrev main_v137 : Ref sig .tc := ⟨.hbm, 230, rfl⟩
abbrev main_v138 : Ref sig .tc := ⟨.hbm, 231, rfl⟩
abbrev main_cst_24 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_cst_25 : Ref sig .tc := ⟨.hbm, 236, rfl⟩
abbrev main_v142 : Ref sig .tc := ⟨.hbm, 237, rfl⟩
abbrev main_cst_26 : Ref sig .tc := ⟨.hbm, 238, rfl⟩
abbrev main_v143 : Ref sig .tc := ⟨.hbm, 239, rfl⟩
abbrev main_v144 : Ref sig .tc := ⟨.hbm, 240, rfl⟩
abbrev main_v145 : Ref sig .tc := ⟨.hbm, 241, rfl⟩
abbrev main_cst_27 : Ref sig .tc := ⟨.hbm, 242, rfl⟩
abbrev main_v146 : Ref sig .tc := ⟨.hbm, 243, rfl⟩
abbrev main_v147 : Ref sig .tc := ⟨.hbm, 244, rfl⟩
abbrev main_cst_28 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_cst_29 : Ref sig .tc := ⟨.hbm, 250, rfl⟩
abbrev main_call6_v0 : Ref sig .tc := ⟨.hbm, 251, rfl⟩
abbrev main_call6_v1 : Ref sig .tc := ⟨.hbm, 252, rfl⟩
abbrev main_call6_v2 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_cst_30 : Ref sig .tc := ⟨.hbm, 263, rfl⟩
abbrev main_v161 : Ref sig .tc := ⟨.hbm, 264, rfl⟩
abbrev main_cst_31 : Ref sig .tc := ⟨.hbm, 265, rfl⟩
abbrev main_v162 : Ref sig .tc := ⟨.hbm, 266, rfl⟩
abbrev main_v163 : Ref sig .tc := ⟨.hbm, 267, rfl⟩
abbrev main_c_32 : Ref sig .tc := ⟨.hbm, 268, rfl⟩
abbrev main_call7_cst : Ref sig .tc := ⟨.hbm, 269, rfl⟩
abbrev main_call7_v0 : Ref sig .tc := ⟨.hbm, 270, rfl⟩
abbrev main_call7_v1 : Ref sig .tc := ⟨.hbm, 271, rfl⟩
abbrev main_call7_cst_0 : Ref sig .tc := ⟨.hbm, 272, rfl⟩
abbrev main_call7_v2 : Ref sig .tc := ⟨.hbm, 273, rfl⟩
abbrev main_call7_v3 : Ref sig .tc := ⟨.hbm, 274, rfl⟩
abbrev main_call7_v4 : Ref sig .tc := ⟨.hbm, 275, rfl⟩
abbrev main_call7_v5 : Ref sig .tc := ⟨.hbm, 276, rfl⟩
abbrev main_call7_v6 : Ref sig .tc := ⟨.hbm, 277, rfl⟩
abbrev main_call7_v7 : Ref sig .tc := ⟨.hbm, 278, rfl⟩
abbrev main_call7_cst_1 : Ref sig .tc := ⟨.hbm, 279, rfl⟩
abbrev main_call7_v8 : Ref sig .tc := ⟨.hbm, 280, rfl⟩
abbrev main_call7_cst_2 : Ref sig .tc := ⟨.hbm, 281, rfl⟩
abbrev main_call7_v9 : Ref sig .tc := ⟨.hbm, 282, rfl⟩
abbrev main_call7_v10 : Ref sig .tc := ⟨.hbm, 283, rfl⟩
abbrev main_call7_v11 : Ref sig .tc := ⟨.hbm, 284, rfl⟩
abbrev main_call7_cst_3 : Ref sig .tc := ⟨.hbm, 285, rfl⟩
abbrev main_call7_v12 : Ref sig .tc := ⟨.hbm, 286, rfl⟩
abbrev main_call7_cst_4 : Ref sig .tc := ⟨.hbm, 287, rfl⟩
abbrev main_call7_call0_v0 : Ref sig .tc := ⟨.hbm, 288, rfl⟩
abbrev main_call7_call0_v1 : Ref sig .tc := ⟨.hbm, 289, rfl⟩
abbrev main_v164 : Ref sig .tc := ⟨.hbm, 290, rfl⟩
abbrev main_v165 : Ref sig .tc := ⟨.hbm, 291, rfl⟩
abbrev main_v166 : Ref sig .tc := ⟨.hbm, 292, rfl⟩
abbrev main_v167 : Ref sig .tc := ⟨.hbm, 293, rfl⟩
abbrev main_cst_33 : Ref sig .tc := ⟨.hbm, 294, rfl⟩
abbrev main_v168 : Ref sig .tc := ⟨.hbm, 295, rfl⟩
abbrev main_v169 : Ref sig .tc := ⟨.hbm, 296, rfl⟩
abbrev main_v170 : Ref sig .tc := ⟨.hbm, 297, rfl⟩
abbrev main_v171 : Ref sig .tc := ⟨.hbm, 298, rfl⟩
abbrev main_v172 : Ref sig .tc := ⟨.hbm, 299, rfl⟩
abbrev main_v173 : Ref sig .tc := ⟨.hbm, 300, rfl⟩
abbrev main_v174 : Ref sig .tc := ⟨.hbm, 301, rfl⟩
abbrev main_v175 : Ref sig .tc := ⟨.hbm, 302, rfl⟩
abbrev main_v176 : Ref sig .tc := ⟨.hbm, 303, rfl⟩
abbrev main_v177 : Ref sig .tc := ⟨.hbm, 304, rfl⟩
abbrev main_v178 : Ref sig .tc := ⟨.hbm, 305, rfl⟩
abbrev main_v179 : Ref sig .tc := ⟨.hbm, 306, rfl⟩
abbrev main_call8_cst : Ref sig .tc := ⟨.hbm, 307, rfl⟩
abbrev main_call8_v0 : Ref sig .tc := ⟨.hbm, 308, rfl⟩
abbrev main_v180 : Ref sig .tc := ⟨.hbm, 309, rfl⟩
abbrev main_c_34 : Ref sig .tc := ⟨.hbm, 310, rfl⟩
abbrev main_v181 : Ref sig .tc := ⟨.hbm, 311, rfl⟩
abbrev main_v182 : Ref sig .tc := ⟨.hbm, 312, rfl⟩
abbrev main_c_35 : Ref sig .tc := ⟨.hbm, 313, rfl⟩
abbrev main_v183 : Ref sig .tc := ⟨.hbm, 314, rfl⟩
abbrev main_v184 : Ref sig .tc := ⟨.hbm, 315, rfl⟩
abbrev main_v185 : Ref sig .tc := ⟨.hbm, 316, rfl⟩
abbrev main_v186 : Ref sig .tc := ⟨.hbm, 317, rfl⟩
abbrev main_v187 : Ref sig .tc := ⟨.hbm, 318, rfl⟩
abbrev main_v188 : Ref sig .tc := ⟨.hbm, 319, rfl⟩
abbrev main_v189 : Ref sig .tc := ⟨.hbm, 320, rfl⟩
abbrev main_v190 : Ref sig .tc := ⟨.hbm, 321, rfl⟩
abbrev main_v191 : Ref sig .tc := ⟨.hbm, 322, rfl⟩
abbrev main_v192 : Ref sig .tc := ⟨.hbm, 323, rfl⟩
abbrev main_cst_36 : Ref sig .tc := ⟨.hbm, 324, rfl⟩
abbrev main_v193 : Ref sig .tc := ⟨.hbm, 325, rfl⟩
abbrev main_cst_37 : Ref sig .tc := ⟨.hbm, 326, rfl⟩
abbrev main_v194 : Ref sig .tc := ⟨.hbm, 327, rfl⟩
abbrev main_v195 : Ref sig .tc := ⟨.hbm, 328, rfl⟩
abbrev main_c_38 : Ref sig .tc := ⟨.hbm, 329, rfl⟩
abbrev main_call9_cst : Ref sig .tc := ⟨.hbm, 330, rfl⟩
abbrev main_call9_v0 : Ref sig .tc := ⟨.hbm, 331, rfl⟩
abbrev main_call9_v1 : Ref sig .tc := ⟨.hbm, 332, rfl⟩
abbrev main_call9_cst_0 : Ref sig .tc := ⟨.hbm, 333, rfl⟩
abbrev main_call9_v2 : Ref sig .tc := ⟨.hbm, 334, rfl⟩
abbrev main_call9_v3 : Ref sig .tc := ⟨.hbm, 335, rfl⟩
abbrev main_call9_v4 : Ref sig .tc := ⟨.hbm, 336, rfl⟩
abbrev main_call9_v5 : Ref sig .tc := ⟨.hbm, 337, rfl⟩
abbrev main_call9_v6 : Ref sig .tc := ⟨.hbm, 338, rfl⟩
abbrev main_call9_v7 : Ref sig .tc := ⟨.hbm, 339, rfl⟩
abbrev main_call9_cst_1 : Ref sig .tc := ⟨.hbm, 340, rfl⟩
abbrev main_call9_v8 : Ref sig .tc := ⟨.hbm, 341, rfl⟩
abbrev main_call9_cst_2 : Ref sig .tc := ⟨.hbm, 342, rfl⟩
abbrev main_call9_v9 : Ref sig .tc := ⟨.hbm, 343, rfl⟩
abbrev main_call9_v10 : Ref sig .tc := ⟨.hbm, 344, rfl⟩
abbrev main_call9_v11 : Ref sig .tc := ⟨.hbm, 345, rfl⟩
abbrev main_call9_cst_3 : Ref sig .tc := ⟨.hbm, 346, rfl⟩
abbrev main_call9_v12 : Ref sig .tc := ⟨.hbm, 347, rfl⟩
abbrev main_call9_cst_4 : Ref sig .tc := ⟨.hbm, 348, rfl⟩
abbrev main_call9_call0_v0 : Ref sig .tc := ⟨.hbm, 349, rfl⟩
abbrev main_call9_call0_v1 : Ref sig .tc := ⟨.hbm, 350, rfl⟩
abbrev main_v196 : Ref sig .tc := ⟨.hbm, 351, rfl⟩
abbrev main_v197 : Ref sig .tc := ⟨.hbm, 352, rfl⟩
abbrev main_v198 : Ref sig .tc := ⟨.hbm, 353, rfl⟩
abbrev main_v199 : Ref sig .tc := ⟨.hbm, 354, rfl⟩
abbrev main_cst_39 : Ref sig .tc := ⟨.hbm, 355, rfl⟩
abbrev main_v200 : Ref sig .tc := ⟨.hbm, 356, rfl⟩
abbrev main_v201 : Ref sig .tc := ⟨.hbm, 357, rfl⟩
abbrev main_v202 : Ref sig .tc := ⟨.hbm, 358, rfl⟩
abbrev main_v203 : Ref sig .tc := ⟨.hbm, 359, rfl⟩
abbrev main_v204 : Ref sig .tc := ⟨.hbm, 360, rfl⟩
abbrev main_v205 : Ref sig .tc := ⟨.hbm, 361, rfl⟩
abbrev main_v206 : Ref sig .tc := ⟨.hbm, 362, rfl⟩
abbrev main_v207 : Ref sig .tc := ⟨.hbm, 363, rfl⟩
abbrev main_v208 : Ref sig .tc := ⟨.hbm, 364, rfl⟩
abbrev main_v209 : Ref sig .tc := ⟨.hbm, 365, rfl⟩
abbrev main_v210 : Ref sig .tc := ⟨.hbm, 366, rfl⟩
abbrev main_v211 : Ref sig .tc := ⟨.hbm, 367, rfl⟩
abbrev main_call10_cst : Ref sig .tc := ⟨.hbm, 368, rfl⟩
abbrev main_call10_v0 : Ref sig .tc := ⟨.hbm, 369, rfl⟩
abbrev main_v212 : Ref sig .tc := ⟨.hbm, 370, rfl⟩
abbrev main_v213 : Ref sig .tc := ⟨.hbm, 371, rfl⟩
abbrev main_v214 : Ref sig .tc := ⟨.hbm, 372, rfl⟩
abbrev main_v215 : Ref sig .tc := ⟨.hbm, 373, rfl⟩
abbrev main_v216 : Ref sig .tc := ⟨.hbm, 374, rfl⟩
abbrev main_v217 : Ref sig .tc := ⟨.hbm, 375, rfl⟩
abbrev main_v218 : Ref sig .tc := ⟨.hbm, 376, rfl⟩
abbrev main_v219 : Ref sig .tc := ⟨.hbm, 377, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S256 : S_.BroadcastsInDim S256 (![] : Fin 0 → Fin S256.rank)
  bcast_S256_S256x1_0 : S256.BroadcastsInDim S256x1 (![0] : Fin 1 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []
  gather_S50000x128_S256x1_S256x128_1_0_n_n_0_1_1128_wf : GatherDims.WF S50000x128 S256x1 S256x128 [1] [0] [] [0] [] 1 ![1, 128]

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S256x1_S256x128_1_0_n_n_0_1_1128 : GatherDims S50000x128 S256x1 S256x128 where
  offsetDims := [1]
  collapsedSliceDims := [0]
  operandBatchingDims := []
  startIndicesBatchingDims := []
  startIndexMap := [0]
  indexVectorDim := 1
  sliceSizes := ![1, 128]
  wf := gather_S50000x128_S256x1_S256x128_1_0_n_n_0_1_1128_wf

class Facts : Prop extends Facts₀ where

variable [Facts]
-- ==== Proof.RefOps.lean ====
/- The reference program's @main as a list of its 363 host operations.

   The printed @main is five windows (`main_part0` … `main_part4`) run in order; each window is a straight line of
   StableHLO operations and calls of the module's private functions (`@_where`, `@_var` — which itself calls
   `@_where_0` —, `@relu`). A call executes the callee's body on the operands, each value of the body in a buffer of
   that call's own record, so a call is the callee's operations written at the call site: the callee's arguments read
   as the operands, its record as the call's (`main_callJ`, a nested call's record the field of its caller's).
   `opsK` is window K read that way; `ops` is the five lists one after the other, and `main = seq ops`.

   Every operation writes exactly one buffer, its result's, and the 363 result buffers are the values `%0 … %219`,
   the constants and the calls' bodies' values: none is one of the fifteen arguments. `WK` lists window K's result
   buffers, `opsK_writes` says window K writes inside them. -/
import proofs.«180021_j37692632990117_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A builder's operation writes one buffer, its result's; that buffer among the references `W` puts what the
    operation writes inside `W`'s buffers. -/
theorem writes_sub_of_mem {y : Ref sig .tc} {W : List (Ref sig .tc)} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- Window `main_part0` of @main as a list: its 84 operations in order, a called function's operations standing at
    its call, over that call's buffers. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg4 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v4 main_v5 rfl shapeCasts_S1x128x128_S128x128,
    StableHlo.unary main_arg5 main_v6 ((extractStridedSlice S1x128 ![0, 0] · slices_S3x128_S1x128_0_0) : (⟨S3x128, .f32⟩ : BufTy).Contents (Elt F) → (⟨S1x128, .f32⟩ : BufTy).Contents (Elt F)),
    StableHlo.reshape main_v6 main_v7 rfl shapeCasts_S1x128_S128,
    StableHlo.unary main_arg6 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v8 main_v9 rfl shapeCasts_S1x128x128_S128x128,
    StableHlo.unary main_arg7 main_v10 ((extractStridedSlice S1x128 ![0, 0] · slices_S3x128_S1x128_0_0) : (⟨S3x128, .f32⟩ : BufTy).Contents (Elt F) → (⟨S1x128, .f32⟩ : BufTy).Contents (Elt F)),
    StableHlo.reshape main_v10 main_v11 rfl shapeCasts_S1x128_S128,
    StableHlo.unary main_arg8 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128,
    StableHlo.nullary main_c (constantI S_ 32 0#32),
    StableHlo.unary main_c main_v14 (broadcastInDim S800000 ![] bcast_S_S800000 : (⟨S_, .i32⟩ : BufTy).Contents (Elt F) → (⟨S800000, .i32⟩ : BufTy).Contents (Elt F)),
    StableHlo.binary main_v1 main_v14 main_v15 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v16 (broadcastInDim S800000 ![] bcast_S_S800000 : (⟨S_, .i32⟩ : BufTy).Contents (Elt F) → (⟨S800000, .i32⟩ : BufTy).Contents (Elt F)),
    StableHlo.binary main_v1 main_v16 main_v17 (addi : (⟨S800000, .i32⟩ : BufTy).Contents (Elt F) → (⟨S800000, .i32⟩ : BufTy).Contents (Elt F) → (⟨S800000, .i32⟩ : BufTy).Contents (Elt F)),
    StableHlo.ternary main_v15 main_v17 main_v1 main_v18 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v18 main_v19 (broadcastInDim S800000x1 ![0] bcast_S800000_S800000x1_0 : (⟨S800000, .i32⟩ : BufTy).Contents (Elt F) → (⟨S800000x1, .i32⟩ : BufTy).Contents (Elt F)),
    StableHlo.binary main_arg0 main_v19 main_v20 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v21 (broadcastInDim S50000x128 ![] bcast_S_S50000x128 : (⟨S_, .f32⟩ : BufTy).Contents (Elt F) → (⟨S50000x128, .f32⟩ : BufTy).Contents (Elt F)),
    StableHlo.unary main_v3 main_v22 (broadcastInDim S800000x1 ![0] bcast_S800000_S800000x1_0 : (⟨S800000, .i32⟩ : BufTy).Contents (Elt F) → (⟨S800000x1, .i32⟩ : BufTy).Contents (Elt F)),
    StableHlo.ternary main_v21 main_v22 main_v20 main_v23 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v24 (broadcastInDim S800000x1 ![] bcast_S_S800000x1 : (⟨S_, .f32⟩ : BufTy).Contents (Elt F) → (⟨S800000x1, .f32⟩ : BufTy).Contents (Elt F)),
    StableHlo.nullary main_cst_2 (constant S_ .f32 0x00000000#32),
    StableHlo.unary main_cst_2 main_v25 (broadcastInDim S50000x1 ![] bcast_S_S50000x1 : (⟨S_, .f32⟩ : BufTy).Contents (Elt F) → (⟨S50000x1, .f32⟩ : BufTy).Contents (Elt F)),
    StableHlo.unary main_v3 main_v26 (broadcastInDim S800000x1 ![0] bcast_S800000_S800000x1_0 : (⟨S800000, .i32⟩ : BufTy).Contents (Elt F) → (⟨S800000x1, .i32⟩ : BufTy).Contents (Elt F)),
    StableHlo.ternary main_v25 main_v26 main_v24 main_v27 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_3 (constant S_ .f32 0x00000000#32),
    StableHlo.unary main_cst_3 main_v28 (broadcastInDim S50000x1 ![] bcast_S_S50000x1 : (⟨S_, .f32⟩ : BufTy).Contents (Elt F) → (⟨S50000x1, .f32⟩ : BufTy).Contents (Elt F)),
    StableHlo.binary main_v27 main_v28 main_v29 (cmpf .ogt : (⟨S50000x1, .f32⟩ : BufTy).Contents (Elt F) → (⟨S50000x1, .f32⟩ : BufTy).Contents (Elt F) → (⟨S50000x1, .i1⟩ : BufTy).Contents (Elt F)),
    StableHlo.nullary main_cst_4 (constant S_ .f32 0x3F800000#32),
    StableHlo.unary main_cst_4 main_v30 (broadcastInDim S50000x1 ![] bcast_S_S50000x1 : (⟨S_, .f32⟩ : BufTy).Contents (Elt F) → (⟨S50000x1, .f32⟩ : BufTy).Contents (Elt F)),
    StableHlo.binary main_v27 main_v30 main_v31 (maximumf : (⟨S50000x1, .f32⟩ : BufTy).Contents (Elt F) → (⟨S50000x1, .f32⟩ : BufTy).Contents (Elt F) → (⟨S50000x1, .f32⟩ : BufTy).Contents (Elt F)),
    StableHlo.unary main_v31 main_v32 (broadcastInDim S50000x128 ![0, 1] bcast_S50000x1_S50000x128_0_1 : (⟨S50000x1, .f32⟩ : BufTy).Contents (Elt F) → (⟨S50000x128, .f32⟩ : BufTy).Contents (Elt F)),
    StableHlo.binary main_v23 main_v32 main_v33 (Host.divf : (⟨S50000x128, .f32⟩ : BufTy).Contents (Elt F) → (⟨S50000x128, .f32⟩ : BufTy).Contents (Elt F) → (⟨S50000x128, .f32⟩ : BufTy).Contents (Elt F)),
    StableHlo.nullary main_cst_5 (constant S_ .f32 0x00000000#32),
    StableHlo.TRef.unary (.of main_cst_5 : StableHlo.TRef sig ⟨S_, .f32⟩) main_call0.v0 id,
    StableHlo.TRef.unary (.of main_v29 : StableHlo.TRef sig ⟨S50000x1, .i1⟩) main_call0.v1 (broadcastInDim S50000x128 ![0, 1] bcast_S50000x1_S50000x128_0_1),
    StableHlo.TRef.unary main_call0.v0 main_call0.v2 (broadcastInDim S50000x128 ![] bcast_S_S50000x128),
    StableHlo.TRef.ternary main_call0.v1 (.of main_v33 : StableHlo.TRef sig ⟨S50000x128, .f32⟩) main_call0.v2 main_call0.v3 select,
    StableHlo.unary main_v5 main_v35 ((transpose S128x128 [1, 0] · transposes_S128x128_S128x128_1_0) : (⟨S128x128, .f32⟩ : BufTy).Contents (Elt F) → (⟨S128x128, .f32⟩ : BufTy).Contents (Elt F)),
    StableHlo.binary main_v34 main_v35 main_v36 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v36 main_v38 main_v39 (addf : (⟨S50000x128, .f32⟩ : BufTy).Contents (Elt F) → (⟨S50000x128, .f32⟩ : BufTy).Contents (Elt F) → (⟨S50000x128, .f32⟩ : BufTy).Contents (Elt F)),
    StableHlo.unary main_v9 main_v40 ((transpose S128x128 [1, 0] · transposes_S128x128_S128x128_1_0) : (⟨S128x128, .f32⟩ : BufTy).Contents (Elt F) → (⟨S128x128, .f32⟩ : BufTy).Contents (Elt F)),
    StableHlo.binary main_arg0 main_v40 main_v41 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)),
    StableHlo.nullary main_cst_6 (constant S_ .f32 0x00000000#32),
    StableHlo.binary main_v42 main_cst_6 main_v43 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v44 (broadcastInDim S128 ![] bcast_S_S128 : (⟨S_, .f32⟩ : BufTy).Contents (Elt F) → (⟨S128, .f32⟩ : BufTy).Contents (Elt F)),
    StableHlo.binary main_v43 main_v44 main_v45 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call1.cst (constant S_ .f32 0x00000000#32),
    StableHlo.TRef.binary (.of main_v42 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v42 : StableHlo.TRef sig ⟨S50000x128, .f32⟩) main_call1.v4 main_call1.v5 subf,
    StableHlo.TRef.binary main_call1.v5 main_call1.v5 main_call1.v6 mulf,
    StableHlo.TRef.unary (.of main_c_8 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v45 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S50000x128 ![0, 1] bcast_S1x128_S50000x128_0_1 : (⟨S1x128, .f32⟩ : BufTy).Contents (Elt F) → (⟨S50000x128, .f32⟩ : BufTy).Contents (Elt F)) ]

/-- The buffers window `main_part0`'s operations write: one an operation, its result's. -/
abbrev W0 : List (Ref sig .tc) :=
  [main_v0, main_v1, main_v2, main_v3, main_v4, main_v5, main_v6, main_v7, main_v8, main_v9, main_v10, main_v11, main_v12, main_v13, main_c, main_v14, main_v15, main_c_0, main_v16, main_v17, main_v18, main_v19, main_v20, main_cst, main_v21, main_v22, main_v23, main_cst_1, main_v24, main_cst_2, main_v25, main_v26, main_v27, main_cst_3, main_v28, main_v29, main_cst_4, main_v30, main_v31, main_v32, main_v33, main_cst_5, main_call0_v0, main_call0_v1, main_call0_v2, main_v34, main_v35, main_v36, main_v37, main_v38, main_v39, main_v40, main_v41, main_v42, main_cst_6, main_v43, main_cst_7, main_v44, main_v45, main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v46, main_v47, main_v48]

set_option maxRecDepth 8192 in
theorem main_part0_eq (c : Dev nD) : main_part0 (F := F) c = seq ops0 := rfl

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
theorem ops0_fresh : (ops0 : List (HloOp τ sig (Elt F))).Forall fun op => op.fresh = ∅ := by
  simp only [List.Forall]; repeat' constructor

set_option maxRecDepth 8192 in
theorem ops0_writes : (ops0 : List (HloOp τ sig (Elt F))).Forall fun op => op.writes ⊆ (W0.map (Proc.devRef (τ := τ) .tc)).toFinset :=
  ⟨writes_sub_of_mem (y := main_v0) (by decide),
    writes_sub_of_mem (y := main_v1) (by decide),
    writes_sub_of_mem (y := main_v2) (by decide),
    writes_sub_of_mem (y := main_v3) (by decide),
    writes_sub_of_mem (y := main_v4) (by decide),
    writes_sub_of_mem (y := main_v5) (by decide),
    writes_sub_of_mem (y := main_v6) (by decide),
    writes_sub_of_mem (y := main_v7) (by decide),
    writes_sub_of_mem (y := main_v8) (by decide),
    writes_sub_of_mem (y := main_v9) (by decide),
    writes_sub_of_mem (y := main_v10) (by decide),
    writes_sub_of_mem (y := main_v11) (by decide),
    writes_sub_of_mem (y := main_v12) (by decide),
    writes_sub_of_mem (y := main_v13) (by decide),
    writes_sub_of_mem (y := main_c) (by decide),
    writes_sub_of_mem (y := main_v14) (by decide),
    writes_sub_of_mem (y := main_v15) (by decide),
    writes_sub_of_mem (y := main_c_0) (by decide),
    writes_sub_of_mem (y := main_v16) (by decide),
    writes_sub_of_mem (y := main_v17) (by decide),
    writes_sub_of_mem (y := main_v18) (by decide),
    writes_sub_of_mem (y := main_v19) (by decide),
    writes_sub_of_mem (y := main_v20) (by decide),
    writes_sub_of_mem (y := main_cst) (by decide),
    writes_sub_of_mem (y := main_v21) (by decide),
    writes_sub_of_mem (y := main_v22) (by decide),
    writes_sub_of_mem (y := main_v23) (by decide),
    writes_sub_of_mem (y := main_cst_1) (by decide),
    writes_sub_of_mem (y := main_v24) (by decide),
    writes_sub_of_mem (y := main_cst_2) (by decide),
    writes_sub_of_mem (y := main_v25) (by decide),
    writes_sub_of_mem (y := main_v26) (by decide),
    writes_sub_of_mem (y := main_v27) (by decide),
    writes_sub_of_mem (y := main_cst_3) (by decide),
    writes_sub_of_mem (y := main_v28) (by decide),
    writes_sub_of_mem (y := main_v29) (by decide),
    writes_sub_of_mem (y := main_cst_4) (by decide),
    writes_sub_of_mem (y := main_v30) (by decide),
    writes_sub_of_mem (y := main_v31) (by decide),
    writes_sub_of_mem (y := main_v32) (by decide),
    writes_sub_of_mem (y := main_v33) (by decide),
    writes_sub_of_mem (y := main_cst_5) (by decide),
    writes_sub_of_mem (y := main_call0_v0) (by decide),
    writes_sub_of_mem (y := main_call0_v1) (by decide),
    writes_sub_of_mem (y := main_call0_v2) (by decide),
    writes_sub_of_mem (y := main_v34) (by decide),
    writes_sub_of_mem (y := main_v35) (by decide),
    writes_sub_of_mem (y := main_v36) (by decide),
    writes_sub_of_mem (y := main_v37) (by decide),
    writes_sub_of_mem (y := main_v38) (by decide),
    writes_sub_of_mem (y := main_v39) (by decide),
    writes_sub_of_mem (y := main_v40) (by decide),
    writes_sub_of_mem (y := main_v41) (by decide),
    writes_sub_of_mem (y := main_v42) (by decide),
    writes_sub_of_mem (y := main_cst_6) (by decide),
    writes_sub_of_mem (y := main_v43) (by decide),
    writes_sub_of_mem (y := main_cst_7) (by decide),
    writes_sub_of_mem (y := main_v44) (by decide),
    writes_sub_of_mem (y := main_v45) (by decide),
    writes_sub_of_mem (y := main_c_8) (by decide),
    writes_sub_of_mem (y := main_call1_cst) (by decide),
    writes_sub_of_mem (y := main_call1_v0) (by decide),
    writes_sub_of_mem (y := main_call1_v1) (by decide),
    writes_sub_of_mem (y := main_call1_cst_0) (by decide),
    writes_sub_of_mem (y := main_call1_v2) (by decide),
    writes_sub_of_mem (y := main_call1_v3) (by decide),
    writes_sub_of_mem (y := main_call1_v4) (by decide),
    writes_sub_of_mem (y := main_call1_v5) (by decide),
    writes_sub_of_mem (y := main_call1_v6) (by decide),
    writes_sub_of_mem (y := main_call1_v7) (by decide),
    writes_sub_of_mem (y := main_call1_cst_1) (by decide),
    writes_sub_of_mem (y := main_call1_v8) (by decide),
    writes_sub_of_mem (y := main_call1_cst_2) (by decide),
    writes_sub_of_mem (y := main_call1_v9) (by decide),
    writes_sub_of_mem (y := main_call1_v10) (by decide),
    writes_sub_of_mem (y := main_call1_v11) (by decide),
    writes_sub_of_mem (y := main_call1_cst_3) (by decide),
    writes_sub_of_mem (y := main_call1_v12) (by decide),
    writes_sub_of_mem (y := main_call1_cst_4) (by decide),
    writes_sub_of_mem (y := main_call1_call0_v0) (by decide),
    writes_sub_of_mem (y := main_call1_call0_v1) (by decide),
    writes_sub_of_mem (y := main_v46) (by decide),
    writes_sub_of_mem (y := main_v47) (by decide),
    writes_sub_of_mem (y := main_v48) (by decide)⟩

/-- Window `main_part1` of @main as a list: its 65 operations in order, a called function's operations standing at
    its call, over that call's buffers. -/
abbrev ops1 : List (HloOp τ sig (Elt F)) :=
  [ StableHlo.binary main_v42 main_v48 main_v49 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v50 (broadcastInDim S128 ![] bcast_S_S128 : (⟨S_, .f32⟩ : BufTy).Contents (Elt F) → (⟨S128, .f32⟩ : BufTy).Contents (Elt F)),
    StableHlo.binary main_v46 main_v50 main_v51 (addf : (⟨S128, .f32⟩ : BufTy).Contents (Elt F) → (⟨S128, .f32⟩ : BufTy).Contents (Elt F) → (⟨S128, .f32⟩ : BufTy).Contents (Elt F)),
    StableHlo.unary main_v51 main_v52 (Host.rsqrt : (⟨S128, .f32⟩ : BufTy).Contents (Elt F) → (⟨S128, .f32⟩ : BufTy).Contents (Elt F)),
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S50000x128 ![0, 1] bcast_S1x128_S50000x128_0_1 : (⟨S1x128, .f32⟩ : BufTy).Contents (Elt F) → (⟨S50000x128, .f32⟩ : BufTy).Contents (Elt F)),
    StableHlo.binary main_v49 main_v54 main_v55 (mulf : (⟨S50000x128, .f32⟩ : BufTy).Contents (Elt F) → (⟨S50000x128, .f32⟩ : BufTy).Contents (Elt F) → (⟨S50000x128, .f32⟩ : BufTy).Contents (Elt F)),
    StableHlo.unary main_v11 main_v56 (broadcastInDim S1x128 ![1] bcast_S128_S1x128_1 : (⟨S128, .f32⟩ : BufTy).Contents (Elt F) → (⟨S1x128, .f32⟩ : BufTy).Contents (Elt F)),
    StableHlo.unary main_v56 main_v57 (broadcastInDim S50000x128 ![0, 1] bcast_S1x128_S50000x128_0_1 : (⟨S1x128, .f32⟩ : BufTy).Contents (Elt F) → (⟨S50000x128, .f32⟩ : BufTy).Contents (Elt F)),
    StableHlo.binary main_v55 main_v57 main_v58 (mulf : (⟨S50000x128, .f32⟩ : BufTy).Contents (Elt F) → (⟨S50000x128, .f32⟩ : BufTy).Contents (Elt F) → (⟨S50000x128, .f32⟩ : BufTy).Contents (Elt F)),
    StableHlo.unary main_v13 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v58 main_v60 main_v61 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v61 : StableHlo.TRef sig ⟨S50000x128, .f32⟩) main_call2.v0 main_call2.v1 maximumf,
    StableHlo.unary main_arg4 main_v63 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v63 main_v64 rfl shapeCasts_S1x128x128_S128x128,
    StableHlo.unary main_arg5 main_v65 ((extractStridedSlice S1x128 ![1, 0] · slices_S3x128_S1x128_1_0) : (⟨S3x128, .f32⟩ : BufTy).Contents (Elt F) → (⟨S1x128, .f32⟩ : BufTy).Contents (Elt F)),
    StableHlo.reshape main_v65 main_v66 rfl shapeCasts_S1x128_S128,
    StableHlo.unary main_arg6 main_v67 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v67 main_v68 rfl shapeCasts_S1x128x128_S128x128,
    StableHlo.unary main_arg7 main_v69 ((extractStridedSlice S1x128 ![1, 0] · slices_S3x128_S1x128_1_0) : (⟨S3x128, .f32⟩ : BufTy).Contents (Elt F) → (⟨S1x128, .f32⟩ : BufTy).Contents (Elt F)),
    StableHlo.reshape main_v69 main_v70 rfl shapeCasts_S1x128_S128,
    StableHlo.unary main_arg8 main_v71 ((extractStridedSlice S1x128 ![1, 0] · slices_S3x128_S1x128_1_0) : (⟨S3x128, .f32⟩ : BufTy).Contents (Elt F) → (⟨S1x128, .f32⟩ : BufTy).Contents (Elt F)),
    StableHlo.reshape main_v71 main_v72 rfl shapeCasts_S1x128_S128,
    StableHlo.nullary main_c_10 (constantI S_ 32 0#32),
    StableHlo.unary main_c_10 main_v73 (broadcastInDim S800000 ![] bcast_S_S800000 : (⟨S_, .i32⟩ : BufTy).Contents (Elt F) → (⟨S800000, .i32⟩ : BufTy).Contents (Elt F)),
    StableHlo.binary main_v1 main_v73 main_v74 (cmpi .slt : (⟨S800000, .i32⟩ : BufTy).Contents (Elt F) → (⟨S800000, .i32⟩ : BufTy).Contents (Elt F) → (⟨S800000, .i1⟩ : BufTy).Contents (Elt F)),
    StableHlo.nullary main_c_11 (constantI S_ 32 50000#32),
    StableHlo.unary main_c_11 main_v75 (broadcastInDim S800000 ![] bcast_S_S800000 : (⟨S_, .i32⟩ : BufTy).Contents (Elt F) → (⟨S800000, .i32⟩ : BufTy).Contents (Elt F)),
    StableHlo.binary main_v1 main_v75 main_v76 (addi : (⟨S800000, .i32⟩ : BufTy).Contents (Elt F) → (⟨S800000, .i32⟩ : BufTy).Contents (Elt F) → (⟨S800000, .i32⟩ : BufTy).Contents (Elt F)),
    StableHlo.ternary main_v74 main_v76 main_v1 main_v77 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v77 main_v78 (broadcastInDim S800000x1 ![0] bcast_S800000_S800000x1_0 : (⟨S800000, .i32⟩ : BufTy).Contents (Elt F) → (⟨S800000x1, .i32⟩ : BufTy).Contents (Elt F)),
    StableHlo.binary main_v62 main_v78 main_v79 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v80 (broadcastInDim S50000x128 ![] bcast_S_S50000x128 : (⟨S_, .f32⟩ : BufTy).Contents (Elt F) → (⟨S50000x128, .f32⟩ : BufTy).Contents (Elt F)),
    StableHlo.unary main_v3 main_v81 (broadcastInDim S800000x1 ![0] bcast_S800000_S800000x1_0 : (⟨S800000, .i32⟩ : BufTy).Contents (Elt F) → (⟨S800000x1, .i32⟩ : BufTy).Contents (Elt F)),
    StableHlo.ternary main_v80 main_v81 main_v79 main_v82 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_13 (constant S_ .f32 0x3F800000#32),
    StableHlo.unary main_cst_13 main_v83 (broadcastInDim S800000x1 ![] bcast_S_S800000x1 : (⟨S_, .f32⟩ : BufTy).Contents (Elt F) → (⟨S800000x1, .f32⟩ : BufTy).Contents (Elt F)),
    StableHlo.nullary main_cst_14 (constant S_ .f32 0x00000000#32),
    StableHlo.unary main_cst_14 main_v84 (broadcastInDim S50000x1 ![] bcast_S_S50000x1 : (⟨S_, .f32⟩ : BufTy).Contents (Elt F) → (⟨S50000x1, .f32⟩ : BufTy).Contents (Elt F)),
    StableHlo.unary main_v3 main_v85 (broadcastInDim S800000x1 ![0] bcast_S800000_S800000x1_0 : (⟨S800000, .i32⟩ : BufTy).Contents (Elt F) → (⟨S800000x1, .i32⟩ : BufTy).Contents (Elt F)),
    StableHlo.ternary main_v84 main_v85 main_v83 main_v86 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_15 (constant S_ .f32 0x00000000#32),
    StableHlo.unary main_cst_15 main_v87 (broadcastInDim S50000x1 ![] bcast_S_S50000x1 : (⟨S_, .f32⟩ : BufTy).Contents (Elt F) → (⟨S50000x1, .f32⟩ : BufTy).Contents (Elt F)),
    StableHlo.binary main_v86 main_v87 main_v88 (cmpf .ogt : (⟨S50000x1, .f32⟩ : BufTy).Contents (Elt F) → (⟨S50000x1, .f32⟩ : BufTy).Contents (Elt F) → (⟨S50000x1, .i1⟩ : BufTy).Contents (Elt F)),
    StableHlo.nullary main_cst_16 (constant S_ .f32 0x3F800000#32),
    StableHlo.unary main_cst_16 main_v89 (broadcastInDim S50000x1 ![] bcast_S_S50000x1 : (⟨S_, .f32⟩ : BufTy).Contents (Elt F) → (⟨S50000x1, .f32⟩ : BufTy).Contents (Elt F)),
    StableHlo.binary main_v86 main_v89 main_v90 (maximumf : (⟨S50000x1, .f32⟩ : BufTy).Contents (Elt F) → (⟨S50000x1, .f32⟩ : BufTy).Contents (Elt F) → (⟨S50000x1, .f32⟩ : BufTy).Contents (Elt F)),
    StableHlo.unary main_v90 main_v91 (broadcastInDim S50000x128 ![0, 1] bcast_S50000x1_S50000x128_0_1 : (⟨S50000x1, .f32⟩ : BufTy).Contents (Elt F) → (⟨S50000x128, .f32⟩ : BufTy).Contents (Elt F)),
    StableHlo.binary main_v82 main_v91 main_v92 (Host.divf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x00000000#32),
    StableHlo.TRef.unary (.of main_cst_17 : StableHlo.TRef sig ⟨S_, .f32⟩) main_call3.v0 id,
    StableHlo.TRef.unary (.of main_v88 : StableHlo.TRef sig ⟨S50000x1, .i1⟩) main_call3.v1 (broadcastInDim S50000x128 ![0, 1] bcast_S50000x1_S50000x128_0_1),
    StableHlo.TRef.unary main_call3.v0 main_call3.v2 (broadcastInDim S50000x128 ![] bcast_S_S50000x128),
    StableHlo.TRef.ternary main_call3.v1 (.of main_v92 : StableHlo.TRef sig ⟨S50000x128, .f32⟩) main_call3.v2 main_call3.v3 select,
    StableHlo.unary main_v64 main_v94 ((transpose S128x128 [1, 0] · transposes_S128x128_S128x128_1_0) : (⟨S128x128, .f32⟩ : BufTy).Contents (Elt F) → (⟨S128x128, .f32⟩ : BufTy).Contents (Elt F)),
    StableHlo.binary main_v93 main_v94 main_v95 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v66 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S50000x128 ![0, 1] bcast_S1x128_S50000x128_0_1 : (⟨S1x128, .f32⟩ : BufTy).Contents (Elt F) → (⟨S50000x128, .f32⟩ : BufTy).Contents (Elt F)),
    StableHlo.binary main_v95 main_v97 main_v98 (addf : (⟨S50000x128, .f32⟩ : BufTy).Contents (Elt F) → (⟨S50000x128, .f32⟩ : BufTy).Contents (Elt F) → (⟨S50000x128, .f32⟩ : BufTy).Contents (Elt F)),
    StableHlo.unary main_v68 main_v99 ((transpose S128x128 [1, 0] · transposes_S128x128_S128x128_1_0) : (⟨S128x128, .f32⟩ : BufTy).Contents (Elt F) → (⟨S128x128, .f32⟩ : BufTy).Contents (Elt F)) ]

/-- The buffers window `main_part1`'s operations write: one an operation, its result's. -/
abbrev W1 : List (Ref sig .tc) :=
  [main_v49, main_cst_9, main_v50, main_v51, main_v52, main_v53, main_v54, main_v55, main_v56, main_v57, main_v58, main_v59, main_v60, main_v61, main_call2_cst, main_call2_v0, main_v62, main_v63, main_v64, main_v65, main_v66, main_v67, main_v68, main_v69, main_v70, main_v71, main_v72, main_c_10, main_v73, main_v74, main_c_11, main_v75, main_v76, main_v77, main_v78, main_v79, main_cst_12, main_v80, main_v81, main_v82, main_cst_13, main_v83, main_cst_14, main_v84, main_v85, main_v86, main_cst_15, main_v87, main_v88, main_cst_16, main_v89, main_v90, main_v91, main_v92, main_cst_17, main_call3_v0, main_call3_v1, main_call3_v2, main_v93, main_v94, main_v95, main_v96, main_v97, main_v98, main_v99]

set_option maxRecDepth 8192 in
theorem main_part1_eq (c : Dev nD) : main_part1 (F := F) c = seq ops1 := rfl

set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., binary_bufs_sub .., nullary_bufs_sub .., unary_bufs_sub .., unary_bufs_sub .., unary_bufs_sub .., ternary_bufs_sub .., unary_bufs_sub .., binary_bufs_sub .., unary_bufs_sub .., unary_bufs_sub .., binary_bufs_sub .., unary_bufs_sub ..⟩

set_option maxRecDepth 8192 in
theorem ops1_fresh : (ops1 : List (HloOp τ sig (Elt F))).Forall fun op => op.fresh = ∅ := by
  simp only [List.Forall]; repeat' constructor

set_option maxRecDepth 8192 in
theorem ops1_writes : (ops1 : List (HloOp τ sig (Elt F))).Forall fun op => op.writes ⊆ (W1.map (Proc.devRef (τ := τ) .tc)).toFinset :=
  ⟨writes_sub_of_mem (y := main_v49) (by decide),
    writes_sub_of_mem (y := main_cst_9) (by decide),
    writes_sub_of_mem (y := main_v50) (by decide),
    writes_sub_of_mem (y := main_v51) (by decide),
    writes_sub_of_mem (y := main_v52) (by decide),
    writes_sub_of_mem (y := main_v53) (by decide),
    writes_sub_of_mem (y := main_v54) (by decide),
    writes_sub_of_mem (y := main_v55) (by decide),
    writes_sub_of_mem (y := main_v56) (by decide),
    writes_sub_of_mem (y := main_v57) (by decide),
    writes_sub_of_mem (y := main_v58) (by decide),
    writes_sub_of_mem (y := main_v59) (by decide),
    writes_sub_of_mem (y := main_v60) (by decide),
    writes_sub_of_mem (y := main_v61) (by decide),
    writes_sub_of_mem (y := main_call2_cst) (by decide),
    writes_sub_of_mem (y := main_call2_v0) (by decide),
    writes_sub_of_mem (y := main_v62) (by decide),
    writes_sub_of_mem (y := main_v63) (by decide),
    writes_sub_of_mem (y := main_v64) (by decide),
    writes_sub_of_mem (y := main_v65) (by decide),
    writes_sub_of_mem (y := main_v66) (by decide),
    writes_sub_of_mem (y := main_v67) (by decide),
    writes_sub_of_mem (y := main_v68) (by decide),
    writes_sub_of_mem (y := main_v69) (by decide),
    writes_sub_of_mem (y := main_v70) (by decide),
    writes_sub_of_mem (y := main_v71) (by decide),
    writes_sub_of_mem (y := main_v72) (by decide),
    writes_sub_of_mem (y := main_c_10) (by decide),
    writes_sub_of_mem (y := main_v73) (by decide),
    writes_sub_of_mem (y := main_v74) (by decide),
    writes_sub_of_mem (y := main_c_11) (by decide),
    writes_sub_of_mem (y := main_v75) (by decide),
    writes_sub_of_mem (y := main_v76) (by decide),
    writes_sub_of_mem (y := main_v77) (by decide),
    writes_sub_of_mem (y := main_v78) (by decide),
    writes_sub_of_mem (y := main_v79) (by decide),
    writes_sub_of_mem (y := main_cst_12) (by decide),
    writes_sub_of_mem (y := main_v80) (by decide),
    writes_sub_of_mem (y := main_v81) (by decide),
    writes_sub_of_mem (y := main_v82) (by decide),
    writes_sub_of_mem (y := main_cst_13) (by decide),
    writes_sub_of_mem (y := main_v83) (by decide),
    writes_sub_of_mem (y := main_cst_14) (by decide),
    writes_sub_of_mem (y := main_v84) (by decide),
    writes_sub_of_mem (y := main_v85) (by decide),
    writes_sub_of_mem (y := main_v86) (by decide),
    writes_sub_of_mem (y := main_cst_15) (by decide),
    writes_sub_of_mem (y := main_v87) (by decide),
    writes_sub_of_mem (y := main_v88) (by decide),
    writes_sub_of_mem (y := main_cst_16) (by decide),
    writes_sub_of_mem (y := main_v89) (by decide),
    writes_sub_of_mem (y := main_v90) (by decide),
    writes_sub_of_mem (y := main_v91) (by decide),
    writes_sub_of_mem (y := main_v92) (by decide),
    writes_sub_of_mem (y := main_cst_17) (by decide),
    writes_sub_of_mem (y := main_call3_v0) (by decide),
    writes_sub_of_mem (y := main_call3_v1) (by decide),
    writes_sub_of_mem (y := main_call3_v2) (by decide),
    writes_sub_of_mem (y := main_v93) (by decide),
    writes_sub_of_mem (y := main_v94) (by decide),
    writes_sub_of_mem (y := main_v95) (by decide),
    writes_sub_of_mem (y := main_v96) (by decide),
    writes_sub_of_mem (y := main_v97) (by decide),
    writes_sub_of_mem (y := main_v98) (by decide),
    writes_sub_of_mem (y := main_v99) (by decide)⟩

/-- Window `main_part2` of @main as a list: its 83 operations in order, a called function's operations standing at
    its call, over that call's buffers. -/
abbrev ops2 : List (HloOp τ sig (Elt F)) :=
  [ StableHlo.binary main_v62 main_v99 main_v100 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v98 main_v100 main_v101 (addf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.binary main_v101 main_cst_18 main_v102 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_19 (constant S_ .f32 0x47435000#32),
    StableHlo.unary main_cst_19 main_v103 (broadcastInDim S128 ![] bcast_S_S128 : (⟨S_, .f32⟩ : BufTy).Contents (Elt F) → (⟨S128, .f32⟩ : BufTy).Contents (Elt F)),
    StableHlo.binary main_v102 main_v103 main_v104 (Host.divf : (⟨S128, .f32⟩ : BufTy).Contents (Elt F) → (⟨S128, .f32⟩ : BufTy).Contents (Elt F) → (⟨S128, .f32⟩ : BufTy).Contents (Elt F)),
    StableHlo.nullary main_c_20 (constantI S_ 32 0#32),
    StableHlo.TRef.nullary main_call4.cst (constant S_ .f32 0x00000000#32),
    StableHlo.TRef.binary (.of main_v101 : StableHlo.TRef sig ⟨S50000x128, .f32⟩) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v101 : StableHlo.TRef sig ⟨S50000x128, .f32⟩) main_call4.v4 main_call4.v5 subf,
    StableHlo.TRef.binary main_call4.v5 main_call4.v5 main_call4.v6 mulf,
    StableHlo.TRef.unary (.of main_c_20 : StableHlo.TRef sig ⟨S_, .i32⟩) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v104 main_v106 (broadcastInDim S1x128 ![1] bcast_S128_S1x128_1 : (⟨S128, .f32⟩ : BufTy).Contents (Elt F) → (⟨S1x128, .f32⟩ : BufTy).Contents (Elt F)),
    StableHlo.unary main_v106 main_v107 (broadcastInDim S50000x128 ![0, 1] bcast_S1x128_S50000x128_0_1 : (⟨S1x128, .f32⟩ : BufTy).Contents (Elt F) → (⟨S50000x128, .f32⟩ : BufTy).Contents (Elt F)),
    StableHlo.binary main_v101 main_v107 main_v108 (subf : (⟨S50000x128, .f32⟩ : BufTy).Contents (Elt F) → (⟨S50000x128, .f32⟩ : BufTy).Contents (Elt F) → (⟨S50000x128, .f32⟩ : BufTy).Contents (Elt F)),
    StableHlo.nullary main_cst_21 (constant S_ .f32 0x3727C5AC#32),
    StableHlo.unary main_cst_21 main_v109 (broadcastInDim S128 ![] bcast_S_S128 : (⟨S_, .f32⟩ : BufTy).Contents (Elt F) → (⟨S128, .f32⟩ : BufTy).Contents (Elt F)),
    StableHlo.binary main_v105 main_v109 main_v110 (addf : (⟨S128, .f32⟩ : BufTy).Contents (Elt F) → (⟨S128, .f32⟩ : BufTy).Contents (Elt F) → (⟨S128, .f32⟩ : BufTy).Contents (Elt F)),
    StableHlo.unary main_v110 main_v111 (Host.rsqrt : (⟨S128, .f32⟩ : BufTy).Contents (Elt F) → (⟨S128, .f32⟩ : BufTy).Contents (Elt F)),
    StableHlo.unary main_v111 main_v112 (broadcastInDim S1x128 ![1] bcast_S128_S1x128_1 : (⟨S128, .f32⟩ : BufTy).Contents (Elt F) → (⟨S1x128, .f32⟩ : BufTy).Contents (Elt F)),
    StableHlo.unary main_v112 main_v113 (broadcastInDim S50000x128 ![0, 1] bcast_S1x128_S50000x128_0_1 : (⟨S1x128, .f32⟩ : BufTy).Contents (Elt F) → (⟨S50000x128, .f32⟩ : BufTy).Contents (Elt F)),
    StableHlo.binary main_v108 main_v113 main_v114 (mulf : (⟨S50000x128, .f32⟩ : BufTy).Contents (Elt F) → (⟨S50000x128, .f32⟩ : BufTy).Contents (Elt F) → (⟨S50000x128, .f32⟩ : BufTy).Contents (Elt F)),
    StableHlo.unary main_v70 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (mulf : (⟨S50000x128, .f32⟩ : BufTy).Contents (Elt F) → (⟨S50000x128, .f32⟩ : BufTy).Contents (Elt F) → (⟨S50000x128, .f32⟩ : BufTy).Contents (Elt F)),
    StableHlo.unary main_v72 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S50000x128 ![0, 1] bcast_S1x128_S50000x128_0_1 : (⟨S1x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.TRef.nullary main_call5.cst (constant S_ .f32 0x00000000#32),
    StableHlo.TRef.unary main_call5.cst main_call5.v0 (broadcastInDim S50000x128 ![] bcast_S_S50000x128),
    StableHlo.TRef.binary (.of main_v120 : StableHlo.TRef sig ⟨S50000x128, .f32⟩) main_call5.v0 main_call5.v1 maximumf,
    StableHlo.unary main_arg4 main_v122 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v122 main_v123 rfl shapeCasts_S1x128x128_S128x128,
    StableHlo.unary main_arg5 main_v124 ((extractStridedSlice S1x128 ![2, 0] · slices_S3x128_S1x128_2_0) : (⟨S3x128, .f32⟩ : BufTy).Contents (Elt F) → (⟨S1x128, .f32⟩ : BufTy).Contents (Elt F)),
    StableHlo.reshape main_v124 main_v125 rfl shapeCasts_S1x128_S128,
    StableHlo.unary main_arg6 main_v126 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v126 main_v127 rfl shapeCasts_S1x128x128_S128x128,
    StableHlo.unary main_arg7 main_v128 ((extractStridedSlice S1x128 ![2, 0] · slices_S3x128_S1x128_2_0) : (⟨S3x128, .f32⟩ : BufTy).Contents (Elt F) → (⟨S1x128, .f32⟩ : BufTy).Contents (Elt F)),
    StableHlo.reshape main_v128 main_v129 rfl shapeCasts_S1x128_S128,
    StableHlo.unary main_arg8 main_v130 ((extractStridedSlice S1x128 ![2, 0] · slices_S3x128_S1x128_2_0) : (⟨S3x128, .f32⟩ : BufTy).Contents (Elt F) → (⟨S1x128, .f32⟩ : BufTy).Contents (Elt F)),
    StableHlo.reshape main_v130 main_v131 rfl shapeCasts_S1x128_S128,
    StableHlo.nullary main_c_22 (constantI S_ 32 0#32),
    StableHlo.unary main_c_22 main_v132 (broadcastInDim S800000 ![] bcast_S_S800000 : (⟨S_, .i32⟩ : BufTy).Contents (Elt F) → (⟨S800000, .i32⟩ : BufTy).Contents (Elt F)),
    StableHlo.binary main_v1 main_v132 main_v133 (cmpi .slt : (⟨S800000, .i32⟩ : BufTy).Contents (Elt F) → (⟨S800000, .i32⟩ : BufTy).Contents (Elt F) → (⟨S800000, .i1⟩ : BufTy).Contents (Elt F)),
    StableHlo.nullary main_c_23 (constantI S_ 32 50000#32),
    StableHlo.unary main_c_23 main_v134 (broadcastInDim S800000 ![] bcast_S_S800000 : (⟨S_, .i32⟩ : BufTy).Contents (Elt F) → (⟨S800000, .i32⟩ : BufTy).Contents (Elt F)),
    StableHlo.binary main_v1 main_v134 main_v135 (addi : (⟨S800000, .i32⟩ : BufTy).Contents (Elt F) → (⟨S800000, .i32⟩ : BufTy).Contents (Elt F) → (⟨S800000, .i32⟩ : BufTy).Contents (Elt F)),
    StableHlo.ternary main_v133 main_v135 main_v1 main_v136 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v136 main_v137 (broadcastInDim S800000x1 ![0] bcast_S800000_S800000x1_0 : (⟨S800000, .i32⟩ : BufTy).Contents (Elt F) → (⟨S800000x1, .i32⟩ : BufTy).Contents (Elt F)),
    StableHlo.binary main_v121 main_v137 main_v138 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_24 (constant S_ .f32 0x00000000#32),
    StableHlo.unary main_cst_24 main_v139 (broadcastInDim S50000x128 ![] bcast_S_S50000x128 : (⟨S_, .f32⟩ : BufTy).Contents (Elt F) → (⟨S50000x128, .f32⟩ : BufTy).Contents (Elt F)),
    StableHlo.unary main_v3 main_v140 (broadcastInDim S800000x1 ![0] bcast_S800000_S800000x1_0 : (⟨S800000, .i32⟩ : BufTy).Contents (Elt F) → (⟨S800000x1, .i32⟩ : BufTy).Contents (Elt F)),
    StableHlo.ternary main_v139 main_v140 main_v138 main_v141 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_25 (constant S_ .f32 0x3F800000#32),
    StableHlo.unary main_cst_25 main_v142 (broadcastInDim S800000x1 ![] bcast_S_S800000x1 : (⟨S_, .f32⟩ : BufTy).Contents (Elt F) → (⟨S800000x1, .f32⟩ : BufTy).Contents (Elt F)),
    StableHlo.nullary main_cst_26 (constant S_ .f32 0x00000000#32),
    StableHlo.unary main_cst_26 main_v143 (broadcastInDim S50000x1 ![] bcast_S_S50000x1 : (⟨S_, .f32⟩ : BufTy).Contents (Elt F) → (⟨S50000x1, .f32⟩ : BufTy).Contents (Elt F)),
    StableHlo.unary main_v3 main_v144 (broadcastInDim S800000x1 ![0] bcast_S800000_S800000x1_0 : (⟨S800000, .i32⟩ : BufTy).Contents (Elt F) → (⟨S800000x1, .i32⟩ : BufTy).Contents (Elt F)),
    StableHlo.ternary main_v143 main_v144 main_v142 main_v145 ((fun x i u => Host.scatterAdd scatter_S50000x1_S800000x1_S800000x1_1_0_0_1 x i u) : (⟨S50000x1, .f32⟩ : BufTy).Contents (Elt F) → (⟨S800000x1, .i32⟩ : BufTy).Contents (Elt F) → (⟨S800000x1, .f32⟩ : BufTy).Contents (Elt F) → (⟨S50000x1, .f32⟩ : BufTy).Contents (Elt F)),
    StableHlo.nullary main_cst_27 (constant S_ .f32 0x00000000#32),
    StableHlo.unary main_cst_27 main_v146 (broadcastInDim S50000x1 ![] bcast_S_S50000x1 : (⟨S_, .f32⟩ : BufTy).Contents (Elt F) → (⟨S50000x1, .f32⟩ : BufTy).Contents (Elt F)),
    StableHlo.binary main_v145 main_v146 main_v147 (cmpf .ogt : (⟨S50000x1, .f32⟩ : BufTy).Contents (Elt F) → (⟨S50000x1, .f32⟩ : BufTy).Contents (Elt F) → (⟨S50000x1, .i1⟩ : BufTy).Contents (Elt F)),
    StableHlo.nullary main_cst_28 (constant S_ .f32 0x3F800000#32),
    StableHlo.unary main_cst_28 main_v148 (broadcastInDim S50000x1 ![] bcast_S_S50000x1 : (⟨S_, .f32⟩ : BufTy).Contents (Elt F) → (⟨S50000x1, .f32⟩ : BufTy).Contents (Elt F)) ]

/-- The buffers window `main_part2`'s operations write: one an operation, its result's. -/
abbrev W2 : List (Ref sig .tc) :=
  [main_v100, main_v101, main_cst_18, main_v102, main_cst_19, main_v103, main_v104, main_c_20, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v105, main_v106, main_v107, main_v108, main_cst_21, main_v109, main_v110, main_v111, main_v112, main_v113, main_v114, main_v115, main_v116, main_v117, main_v118, main_v119, main_v120, main_call5_cst, main_call5_v0, main_v121, main_v122, main_v123, main_v124, main_v125, main_v126, main_v127, main_v128, main_v129, main_v130, main_v131, main_c_22, main_v132, main_v133, main_c_23, main_v134, main_v135, main_v136, main_v137, main_v138, main_cst_24, main_v139, main_v140, main_v141, main_cst_25, main_v142, main_cst_26, main_v143, main_v144, main_v145, main_cst_27, main_v146, main_v147, main_cst_28, main_v148]

set_option maxRecDepth 8192 in
theorem main_part2_eq (c : Dev nD) : main_part2 (F := F) c = seq ops2 := rfl

set_option maxRecDepth 8192 in
theorem ops2_sub : (ops2 : List (HloOp τ sig (Elt F))).Forall fun op => op.bufs ⊆ tcRefs τ sig :=
  ⟨binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub ..⟩

set_option maxRecDepth 8192 in
theorem ops2_fresh : (ops2 : List (HloOp τ sig (Elt F))).Forall fun op => op.fresh = ∅ := by
  simp only [List.Forall]; repeat' constructor

set_option maxRecDepth 8192 in
theorem ops2_writes : (ops2 : List (HloOp τ sig (Elt F))).Forall fun op => op.writes ⊆ (W2.map (Proc.devRef (τ := τ) .tc)).toFinset :=
  ⟨writes_sub_of_mem (y := main_v100) (by decide),
    writes_sub_of_mem (y := main_v101) (by decide),
    writes_sub_of_mem (y := main_cst_18) (by decide),
    writes_sub_of_mem (y := main_v102) (by decide),
    writes_sub_of_mem (y := main_cst_19) (by decide),
    writes_sub_of_mem (y := main_v103) (by decide),
    writes_sub_of_mem (y := main_v104) (by decide),
    writes_sub_of_mem (y := main_c_20) (by decide),
    writes_sub_of_mem (y := main_call4_cst) (by decide),
    writes_sub_of_mem (y := main_call4_v0) (by decide),
    writes_sub_of_mem (y := main_call4_v1) (by decide),
    writes_sub_of_mem (y := main_call4_cst_0) (by decide),
    writes_sub_of_mem (y := main_call4_v2) (by decide),
    writes_sub_of_mem (y := main_call4_v3) (by decide),
    writes_sub_of_mem (y := main_call4_v4) (by decide),
    writes_sub_of_mem (y := main_call4_v5) (by decide),
    writes_sub_of_mem (y := main_call4_v6) (by decide),
    writes_sub_of_mem (y := main_call4_v7) (by decide),
    writes_sub_of_mem (y := main_call4_cst_1) (by decide),
    writes_sub_of_mem (y := main_call4_v8) (by decide),
    writes_sub_of_mem (y := main_call4_cst_2) (by decide),
    writes_sub_of_mem (y := main_call4_v9) (by decide),
    writes_sub_of_mem (y := main_call4_v10) (by decide),
    writes_sub_of_mem (y := main_call4_v11) (by decide),
    writes_sub_of_mem (y := main_call4_cst_3) (by decide),
    writes_sub_of_mem (y := main_call4_v12) (by decide),
    writes_sub_of_mem (y := main_call4_cst_4) (by decide),
    writes_sub_of_mem (y := main_call4_call0_v0) (by decide),
    writes_sub_of_mem (y := main_call4_call0_v1) (by decide),
    writes_sub_of_mem (y := main_v105) (by decide),
    writes_sub_of_mem (y := main_v106) (by decide),
    writes_sub_of_mem (y := main_v107) (by decide),
    writes_sub_of_mem (y := main_v108) (by decide),
    writes_sub_of_mem (y := main_cst_21) (by decide),
    writes_sub_of_mem (y := main_v109) (by decide),
    writes_sub_of_mem (y := main_v110) (by decide),
    writes_sub_of_mem (y := main_v111) (by decide),
    writes_sub_of_mem (y := main_v112) (by decide),
    writes_sub_of_mem (y := main_v113) (by decide),
    writes_sub_of_mem (y := main_v114) (by decide),
    writes_sub_of_mem (y := main_v115) (by decide),
    writes_sub_of_mem (y := main_v116) (by decide),
    writes_sub_of_mem (y := main_v117) (by decide),
    writes_sub_of_mem (y := main_v118) (by decide),
    writes_sub_of_mem (y := main_v119) (by decide),
    writes_sub_of_mem (y := main_v120) (by decide),
    writes_sub_of_mem (y := main_call5_cst) (by decide),
    writes_sub_of_mem (y := main_call5_v0) (by decide),
    writes_sub_of_mem (y := main_v121) (by decide),
    writes_sub_of_mem (y := main_v122) (by decide),
    writes_sub_of_mem (y := main_v123) (by decide),
    writes_sub_of_mem (y := main_v124) (by decide),
    writes_sub_of_mem (y := main_v125) (by decide),
    writes_sub_of_mem (y := main_v126) (by decide),
    writes_sub_of_mem (y := main_v127) (by decide),
    writes_sub_of_mem (y := main_v128) (by decide),
    writes_sub_of_mem (y := main_v129) (by decide),
    writes_sub_of_mem (y := main_v130) (by decide),
    writes_sub_of_mem (y := main_v131) (by decide),
    writes_sub_of_mem (y := main_c_22) (by decide),
    writes_sub_of_mem (y := main_v132) (by decide),
    writes_sub_of_mem (y := main_v133) (by decide),
    writes_sub_of_mem (y := main_c_23) (by decide),
    writes_sub_of_mem (y := main_v134) (by decide),
    writes_sub_of_mem (y := main_v135) (by decide),
    writes_sub_of_mem (y := main_v136) (by decide),
    writes_sub_of_mem (y := main_v137) (by decide),
    writes_sub_of_mem (y := main_v138) (by decide),
    writes_sub_of_mem (y := main_cst_24) (by decide),
    writes_sub_of_mem (y := main_v139) (by decide),
    writes_sub_of_mem (y := main_v140) (by decide),
    writes_sub_of_mem (y := main_v141) (by decide),
    writes_sub_of_mem (y := main_cst_25) (by decide),
    writes_sub_of_mem (y := main_v142) (by decide),
    writes_sub_of_mem (y := main_cst_26) (by decide),
    writes_sub_of_mem (y := main_v143) (by decide),
    writes_sub_of_mem (y := main_v144) (by decide),
    writes_sub_of_mem (y := main_v145) (by decide),
    writes_sub_of_mem (y := main_cst_27) (by decide),
    writes_sub_of_mem (y := main_v146) (by decide),
    writes_sub_of_mem (y := main_v147) (by decide),
    writes_sub_of_mem (y := main_cst_28) (by decide),
    writes_sub_of_mem (y := main_v148) (by decide)⟩

/-- Window `main_part3` of @main as a list: its 107 operations in order, a called function's operations standing at
    its call, over that call's buffers. -/
abbrev ops3 : List (HloOp τ sig (Elt F)) :=
  [ StableHlo.binary main_v145 main_v148 main_v149 (maximumf : (⟨S50000x1, .f32⟩ : BufTy).Contents (Elt F) → (⟨S50000x1, .f32⟩ : BufTy).Contents (Elt F) → (⟨S50000x1, .f32⟩ : BufTy).Contents (Elt F)),
    StableHlo.unary main_v149 main_v150 (broadcastInDim S50000x128 ![0, 1] bcast_S50000x1_S50000x128_0_1 : (⟨S50000x1, .f32⟩ : BufTy).Contents (Elt F) → (⟨S50000x128, .f32⟩ : BufTy).Contents (Elt F)),
    StableHlo.binary main_v141 main_v150 main_v151 (Host.divf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x00000000#32),
    StableHlo.TRef.unary (.of main_cst_29 : StableHlo.TRef sig ⟨S_, .f32⟩) main_call6.v0 id,
    StableHlo.TRef.unary (.of main_v147 : StableHlo.TRef sig ⟨S50000x1, .i1⟩) main_call6.v1 (broadcastInDim S50000x128 ![0, 1] bcast_S50000x1_S50000x128_0_1),
    StableHlo.TRef.unary main_call6.v0 main_call6.v2 (broadcastInDim S50000x128 ![] bcast_S_S50000x128),
    StableHlo.TRef.ternary main_call6.v1 (.of main_v151 : StableHlo.TRef sig ⟨S50000x128, .f32⟩) main_call6.v2 main_call6.v3 select,
    StableHlo.unary main_v123 main_v153 ((transpose S128x128 [1, 0] · transposes_S128x128_S128x128_1_0) : (⟨S128x128, .f32⟩ : BufTy).Contents (Elt F) → (⟨S128x128, .f32⟩ : BufTy).Contents (Elt F)),
    StableHlo.binary main_v152 main_v153 main_v154 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v125 main_v155 (broadcastInDim S1x128 ![1] bcast_S128_S1x128_1 : (⟨S128, .f32⟩ : BufTy).Contents (Elt F) → (⟨S1x128, .f32⟩ : BufTy).Contents (Elt F)),
    StableHlo.unary main_v155 main_v156 (broadcastInDim S50000x128 ![0, 1] bcast_S1x128_S50000x128_0_1 : (⟨S1x128, .f32⟩ : BufTy).Contents (Elt F) → (⟨S50000x128, .f32⟩ : BufTy).Contents (Elt F)),
    StableHlo.binary main_v154 main_v156 main_v157 (addf : (⟨S50000x128, .f32⟩ : BufTy).Contents (Elt F) → (⟨S50000x128, .f32⟩ : BufTy).Contents (Elt F) → (⟨S50000x128, .f32⟩ : BufTy).Contents (Elt F)),
    StableHlo.unary main_v127 main_v158 ((transpose S128x128 [1, 0] · transposes_S128x128_S128x128_1_0) : (⟨S128x128, .f32⟩ : BufTy).Contents (Elt F) → (⟨S128x128, .f32⟩ : BufTy).Contents (Elt F)),
    StableHlo.binary main_v121 main_v158 main_v159 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v157 main_v159 main_v160 (addf : (⟨S50000x128, .f32⟩ : BufTy).Contents (Elt F) → (⟨S50000x128, .f32⟩ : BufTy).Contents (Elt F) → (⟨S50000x128, .f32⟩ : BufTy).Contents (Elt F)),
    StableHlo.nullary main_cst_30 (constant S_ .f32 0x00000000#32),
    StableHlo.binary main_v160 main_cst_30 main_v161 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_31 (constant S_ .f32 0x47435000#32),
    StableHlo.unary main_cst_31 main_v162 (broadcastInDim S128 ![] bcast_S_S128 : (⟨S_, .f32⟩ : BufTy).Contents (Elt F) → (⟨S128, .f32⟩ : BufTy).Contents (Elt F)),
    StableHlo.binary main_v161 main_v162 main_v163 (Host.divf : (⟨S128, .f32⟩ : BufTy).Contents (Elt F) → (⟨S128, .f32⟩ : BufTy).Contents (Elt F) → (⟨S128, .f32⟩ : BufTy).Contents (Elt F)),
    StableHlo.nullary main_c_32 (constantI S_ 32 0#32),
    StableHlo.TRef.nullary main_call7.cst (constant S_ .f32 0x00000000#32),
    StableHlo.TRef.binary (.of main_v160 : StableHlo.TRef sig ⟨S50000x128, .f32⟩) main_call7.cst main_call7.v0 (fun x v => Host.reduceAdd x v reducesTo_S50000x128_S128_d0 h_S_),
    StableHlo.TRef.unary main_call7.v0 main_call7.v1 (broadcastInDim S1x128 ![1] bcast_S128_S1x128_1),
    StableHlo.TRef.nullary main_call7.cst_0 (constant S_ .f32 0x47435000#32),
    StableHlo.TRef.unary main_call7.cst_0 main_call7.v2 (broadcastInDim S1x128 ![] bcast_S_S1x128),
    StableHlo.TRef.binary main_call7.v1 main_call7.v2 main_call7.v3 Host.divf,
    StableHlo.TRef.unary main_call7.v3 main_call7.v4 (broadcastInDim S50000x128 ![0, 1] bcast_S1x128_S50000x128_0_1),
    StableHlo.TRef.binary (.of main_v160 : StableHlo.TRef sig ⟨S50000x128, .f32⟩) main_call7.v4 main_call7.v5 subf,
    StableHlo.TRef.binary main_call7.v5 main_call7.v5 main_call7.v6 mulf,
    StableHlo.TRef.unary (.of main_c_32 : StableHlo.TRef sig ⟨S_, .i32⟩) main_call7.v7 (sitofp .f32),
    StableHlo.TRef.nullary main_call7.cst_1 (constant S_ .f32 0x47435000#32),
    StableHlo.TRef.binary main_call7.cst_1 main_call7.v7 main_call7.v8 subf,
    StableHlo.TRef.nullary main_call7.cst_2 (constant S_ .f32 0x00000000#32),
    StableHlo.TRef.binary main_call7.v6 main_call7.cst_2 main_call7.v9 (fun x v => Host.reduceAdd x v reducesTo_S50000x128_S128_d0 h_S_),
    StableHlo.TRef.unary main_call7.v8 main_call7.v10 (broadcastInDim S128 ![] bcast_S_S128),
    StableHlo.TRef.binary main_call7.v9 main_call7.v10 main_call7.v11 Host.divf,
    StableHlo.TRef.nullary main_call7.cst_3 (constant S_ .f32 0x00000000#32),
    StableHlo.TRef.binary main_call7.v8 main_call7.cst_3 main_call7.v12 (cmpf .ogt),
    StableHlo.TRef.nullary main_call7.cst_4 (constant S_ .f32 0x7FC00000#32),
    StableHlo.TRef.unary main_call7.cst_4 main_call7.call0.v0 id,
    StableHlo.TRef.unary main_call7.call0.v0 main_call7.call0.v1 (broadcastInDim S128 ![] bcast_S_S128),
    StableHlo.TRef.ternary main_call7.v12 main_call7.v11 main_call7.call0.v1 main_call7.call0.v2 (fun p a b => select (broadcastInDim S128 ![] bcast_S_S128 p) a b),
    StableHlo.unary main_v163 main_v165 (broadcastInDim S1x128 ![1] bcast_S128_S1x128_1 : (⟨S128, .f32⟩ : BufTy).Contents (Elt F) → (⟨S1x128, .f32⟩ : BufTy).Contents (Elt F)),
    StableHlo.unary main_v165 main_v166 (broadcastInDim S50000x128 ![0, 1] bcast_S1x128_S50000x128_0_1 : (⟨S1x128, .f32⟩ : BufTy).Contents (Elt F) → (⟨S50000x128, .f32⟩ : BufTy).Contents (Elt F)),
    StableHlo.binary main_v160 main_v166 main_v167 (subf : (⟨S50000x128, .f32⟩ : BufTy).Contents (Elt F) → (⟨S50000x128, .f32⟩ : BufTy).Contents (Elt F) → (⟨S50000x128, .f32⟩ : BufTy).Contents (Elt F)),
    StableHlo.nullary main_cst_33 (constant S_ .f32 0x3727C5AC#32),
    StableHlo.unary main_cst_33 main_v168 (broadcastInDim S128 ![] bcast_S_S128 : (⟨S_, .f32⟩ : BufTy).Contents (Elt F) → (⟨S128, .f32⟩ : BufTy).Contents (Elt F)),
    StableHlo.binary main_v164 main_v168 main_v169 (addf : (⟨S128, .f32⟩ : BufTy).Contents (Elt F) → (⟨S128, .f32⟩ : BufTy).Contents (Elt F) → (⟨S128, .f32⟩ : BufTy).Contents (Elt F)),
    StableHlo.unary main_v169 main_v170 (Host.rsqrt : (⟨S128, .f32⟩ : BufTy).Contents (Elt F) → (⟨S128, .f32⟩ : BufTy).Contents (Elt F)),
    StableHlo.unary main_v170 main_v171 (broadcastInDim S1x128 ![1] bcast_S128_S1x128_1 : (⟨S128, .f32⟩ : BufTy).Contents (Elt F) → (⟨S1x128, .f32⟩ : BufTy).Contents (Elt F)),
    StableHlo.unary main_v171 main_v172 (broadcastInDim S50000x128 ![0, 1] bcast_S1x128_S50000x128_0_1 : (⟨S1x128, .f32⟩ : BufTy).Contents (Elt F) → (⟨S50000x128, .f32⟩ : BufTy).Contents (Elt F)),
    StableHlo.binary main_v167 main_v172 main_v173 (mulf : (⟨S50000x128, .f32⟩ : BufTy).Contents (Elt F) → (⟨S50000x128, .f32⟩ : BufTy).Contents (Elt F) → (⟨S50000x128, .f32⟩ : BufTy).Contents (Elt F)),
    StableHlo.unary main_v129 main_v174 (broadcastInDim S1x128 ![1] bcast_S128_S1x128_1 : (⟨S128, .f32⟩ : BufTy).Contents (Elt F) → (⟨S1x128, .f32⟩ : BufTy).Contents (Elt F)),
    StableHlo.unary main_v174 main_v175 (broadcastInDim S50000x128 ![0, 1] bcast_S1x128_S50000x128_0_1 : (⟨S1x128, .f32⟩ : BufTy).Contents (Elt F) → (⟨S50000x128, .f32⟩ : BufTy).Contents (Elt F)),
    StableHlo.binary main_v173 main_v175 main_v176 (mulf : (⟨S50000x128, .f32⟩ : BufTy).Contents (Elt F) → (⟨S50000x128, .f32⟩ : BufTy).Contents (Elt F) → (⟨S50000x128, .f32⟩ : BufTy).Contents (Elt F)),
    StableHlo.unary main_v131 main_v177 (broadcastInDim S1x128 ![1] bcast_S128_S1x128_1 : (⟨S128, .f32⟩ : BufTy).Contents (Elt F) → (⟨S1x128, .f32⟩ : BufTy).Contents (Elt F)),
    StableHlo.unary main_v177 main_v178 (broadcastInDim S50000x128 ![0, 1] bcast_S1x128_S50000x128_0_1 : (⟨S1x128, .f32⟩ : BufTy).Contents (Elt F) → (⟨S50000x128, .f32⟩ : BufTy).Contents (Elt F)),
    StableHlo.binary main_v176 main_v178 main_v179 (addf : (⟨S50000x128, .f32⟩ : BufTy).Contents (Elt F) → (⟨S50000x128, .f32⟩ : BufTy).Contents (Elt F) → (⟨S50000x128, .f32⟩ : BufTy).Contents (Elt F)),
    StableHlo.TRef.nullary main_call8.cst (constant S_ .f32 0x00000000#32),
    StableHlo.TRef.unary main_call8.cst main_call8.v0 (broadcastInDim S50000x128 ![] bcast_S_S50000x128),
    StableHlo.TRef.binary (.of main_v179 : StableHlo.TRef sig ⟨S50000x128, .f32⟩) main_call8.v0 main_call8.v1 maximumf,
    StableHlo.nullary main_c_34 (constantI S_ 32 0#32),
    StableHlo.unary main_c_34 main_v181 (broadcastInDim S256 ![] bcast_S_S256 : (⟨S_, .i32⟩ : BufTy).Contents (Elt F) → (⟨S256, .i32⟩ : BufTy).Contents (Elt F)),
    StableHlo.binary main_arg3 main_v181 main_v182 (cmpi .slt : (⟨S256, .i32⟩ : BufTy).Contents (Elt F) → (⟨S256, .i32⟩ : BufTy).Contents (Elt F) → (⟨S256, .i1⟩ : BufTy).Contents (Elt F)),
    StableHlo.nullary main_c_35 (constantI S_ 32 50000#32),
    StableHlo.unary main_c_35 main_v183 (broadcastInDim S256 ![] bcast_S_S256 : (⟨S_, .i32⟩ : BufTy).Contents (Elt F) → (⟨S256, .i32⟩ : BufTy).Contents (Elt F)),
    StableHlo.binary main_arg3 main_v183 main_v184 (addi : (⟨S256, .i32⟩ : BufTy).Contents (Elt F) → (⟨S256, .i32⟩ : BufTy).Contents (Elt F) → (⟨S256, .i32⟩ : BufTy).Contents (Elt F)),
    StableHlo.ternary main_v182 main_v184 main_arg3 main_v185 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v185 main_v186 (broadcastInDim S256x1 ![0] bcast_S256_S256x1_0 : (⟨S256, .i32⟩ : BufTy).Contents (Elt F) → (⟨S256x1, .i32⟩ : BufTy).Contents (Elt F)),
    StableHlo.binary main_v180 main_v186 main_v187 ((fun x i => Host.gather gather_S50000x128_S256x1_S256x128_1_0_n_n_0_1_1128 x i) : (⟨S50000x128, .f32⟩ : BufTy).Contents (Elt F) → (⟨S256x1, .i32⟩ : BufTy).Contents (Elt F) → (⟨S256x128, .f32⟩ : BufTy).Contents (Elt F)),
    StableHlo.unary main_arg9 main_v188 ((transpose S128x128 [1, 0] · transposes_S128x128_S128x128_1_0) : (⟨S128x128, .f32⟩ : BufTy).Contents (Elt F) → (⟨S128x128, .f32⟩ : BufTy).Contents (Elt F)),
    StableHlo.binary main_v180 main_v188 main_v189 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg10 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v191 main_v192 (addf : (⟨S50000x128, .f32⟩ : BufTy).Contents (Elt F) → (⟨S50000x128, .f32⟩ : BufTy).Contents (Elt F) → (⟨S50000x128, .f32⟩ : BufTy).Contents (Elt F)),
    StableHlo.nullary main_cst_36 (constant S_ .f32 0x00000000#32),
    StableHlo.binary main_v192 main_cst_36 main_v193 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_37 (constant S_ .f32 0x47435000#32),
    StableHlo.unary main_cst_37 main_v194 (broadcastInDim S128 ![] bcast_S_S128 : (⟨S_, .f32⟩ : BufTy).Contents (Elt F) → (⟨S128, .f32⟩ : BufTy).Contents (Elt F)),
    StableHlo.binary main_v193 main_v194 main_v195 (Host.divf : (⟨S128, .f32⟩ : BufTy).Contents (Elt F) → (⟨S128, .f32⟩ : BufTy).Contents (Elt F) → (⟨S128, .f32⟩ : BufTy).Contents (Elt F)),
    StableHlo.nullary main_c_38 (constantI S_ 32 0#32),
    StableHlo.TRef.nullary main_call9.cst (constant S_ .f32 0x00000000#32),
    StableHlo.TRef.binary (.of main_v192 : StableHlo.TRef sig ⟨S50000x128, .f32⟩) main_call9.cst main_call9.v0 (fun x v => Host.reduceAdd x v reducesTo_S50000x128_S128_d0 h_S_),
    StableHlo.TRef.unary main_call9.v0 main_call9.v1 (broadcastInDim S1x128 ![1] bcast_S128_S1x128_1),
    StableHlo.TRef.nullary main_call9.cst_0 (constant S_ .f32 0x47435000#32),
    StableHlo.TRef.unary main_call9.cst_0 main_call9.v2 (broadcastInDim S1x128 ![] bcast_S_S1x128),
    StableHlo.TRef.binary main_call9.v1 main_call9.v2 main_call9.v3 Host.divf,
    StableHlo.TRef.unary main_call9.v3 main_call9.v4 (broadcastInDim S50000x128 ![0, 1] bcast_S1x128_S50000x128_0_1),
    StableHlo.TRef.binary (.of main_v192 : StableHlo.TRef sig ⟨S50000x128, .f32⟩) main_call9.v4 main_call9.v5 subf,
    StableHlo.TRef.binary main_call9.v5 main_call9.v5 main_call9.v6 mulf,
    StableHlo.TRef.unary (.of main_c_38 : StableHlo.TRef sig ⟨S_, .i32⟩) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x128_S128_d0 h_S_),
    StableHlo.TRef.unary main_call9.v8 main_call9.v10 (broadcastInDim S128 ![] bcast_S_S128),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S128 ![] bcast_S_S128),
    StableHlo.TRef.ternary main_call9.v12 main_call9.v11 main_call9.call0.v1 main_call9.call0.v2 (fun p a b => select (broadcastInDim S128 ![] bcast_S_S128 p) a b),
    StableHlo.unary main_v195 main_v197 (broadcastInDim S1x128 ![1] bcast_S128_S1x128_1 : (⟨S128, .f32⟩ : BufTy).Contents (Elt F) → (⟨S1x128, .f32⟩ : BufTy).Contents (Elt F)),
    StableHlo.unary main_v197 main_v198 (broadcastInDim S50000x128 ![0, 1] bcast_S1x128_S50000x128_0_1 : (⟨S1x128, .f32⟩ : BufTy).Contents (Elt F) → (⟨S50000x128, .f32⟩ : BufTy).Contents (Elt F)) ]

/-- The buffers window `main_part3`'s operations write: one an operation, its result's. -/
abbrev W3 : List (Ref sig .tc) :=
  [main_v149, main_v150, main_v151, main_cst_29, main_call6_v0, main_call6_v1, main_call6_v2, main_v152, main_v153, main_v154, main_v155, main_v156, main_v157, main_v158, main_v159, main_v160, main_cst_30, main_v161, main_cst_31, main_v162, main_v163, main_c_32, main_call7_cst, main_call7_v0, main_call7_v1, main_call7_cst_0, main_call7_v2, main_call7_v3, main_call7_v4, main_call7_v5, main_call7_v6, main_call7_v7, main_call7_cst_1, main_call7_v8, main_call7_cst_2, main_call7_v9, main_call7_v10, main_call7_v11, main_call7_cst_3, main_call7_v12, main_call7_cst_4, main_call7_call0_v0, main_call7_call0_v1, main_v164, main_v165, main_v166, main_v167, main_cst_33, main_v168, main_v169, main_v170, main_v171, main_v172, main_v173, main_v174, main_v175, main_v176, main_v177, main_v178, main_v179, main_call8_cst, main_call8_v0, main_v180, main_c_34, main_v181, main_v182, main_c_35, main_v183, main_v184, main_v185, main_v186, main_v187, main_v188, main_v189, main_v190, main_v191, main_v192, main_cst_36, main_v193, main_cst_37, main_v194, main_v195, main_c_38, main_call9_cst, main_call9_v0, main_call9_v1, main_call9_cst_0, main_call9_v2, main_call9_v3, main_call9_v4, main_call9_v5, main_call9_v6, main_call9_v7, main_call9_cst_1, main_call9_v8, main_call9_cst_2, main_call9_v9, main_call9_v10, main_call9_v11, main_call9_cst_3, main_call9_v12, main_call9_cst_4, main_call9_call0_v0, main_call9_call0_v1, main_v196, main_v197, main_v198]

set_option maxRecDepth 8192 in
theorem main_part3_eq (c : Dev nD) : main_part3 (F := F) c = seq ops3 := rfl

set_option maxRecDepth 8192 in
theorem ops3_sub : (ops3 : List (HloOp τ sig (Elt F))).Forall fun op => op.bufs ⊆ tcRefs τ sig :=
  ⟨binary_bufs_sub .., unary_bufs_sub .., binary_bufs_sub .., nullary_bufs_sub .., unary_bufs_sub .., unary_bufs_sub .., unary_bufs_sub .., ternary_bufs_sub .., unary_bufs_sub .., binary_bufs_sub .., unary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub ..⟩

set_option maxRecDepth 8192 in
theorem ops3_fresh : (ops3 : List (HloOp τ sig (Elt F))).Forall fun op => op.fresh = ∅ := by
  simp only [List.Forall]; repeat' constructor

set_option maxRecDepth 8192 in
theorem ops3_writes : (ops3 : List (HloOp τ sig (Elt F))).Forall fun op => op.writes ⊆ (W3.map (Proc.devRef (τ := τ) .tc)).toFinset :=
  ⟨writes_sub_of_mem (y := main_v149) (by decide),
    writes_sub_of_mem (y := main_v150) (by decide),
    writes_sub_of_mem (y := main_v151) (by decide),
    writes_sub_of_mem (y := main_cst_29) (by decide),
    writes_sub_of_mem (y := main_call6_v0) (by decide),
    writes_sub_of_mem (y := main_call6_v1) (by decide),
    writes_sub_of_mem (y := main_call6_v2) (by decide),
    writes_sub_of_mem (y := main_v152) (by decide),
    writes_sub_of_mem (y := main_v153) (by decide),
    writes_sub_of_mem (y := main_v154) (by decide),
    writes_sub_of_mem (y := main_v155) (by decide),
    writes_sub_of_mem (y := main_v156) (by decide),
    writes_sub_of_mem (y := main_v157) (by decide),
    writes_sub_of_mem (y := main_v158) (by decide),
    writes_sub_of_mem (y := main_v159) (by decide),
    writes_sub_of_mem (y := main_v160) (by decide),
    writes_sub_of_mem (y := main_cst_30) (by decide),
    writes_sub_of_mem (y := main_v161) (by decide),
    writes_sub_of_mem (y := main_cst_31) (by decide),
    writes_sub_of_mem (y := main_v162) (by decide),
    writes_sub_of_mem (y := main_v163) (by decide),
    writes_sub_of_mem (y := main_c_32) (by decide),
    writes_sub_of_mem (y := main_call7_cst) (by decide),
    writes_sub_of_mem (y := main_call7_v0) (by decide),
    writes_sub_of_mem (y := main_call7_v1) (by decide),
    writes_sub_of_mem (y := main_call7_cst_0) (by decide),
    writes_sub_of_mem (y := main_call7_v2) (by decide),
    writes_sub_of_mem (y := main_call7_v3) (by decide),
    writes_sub_of_mem (y := main_call7_v4) (by decide),
    writes_sub_of_mem (y := main_call7_v5) (by decide),
    writes_sub_of_mem (y := main_call7_v6) (by decide),
    writes_sub_of_mem (y := main_call7_v7) (by decide),
    writes_sub_of_mem (y := main_call7_cst_1) (by decide),
    writes_sub_of_mem (y := main_call7_v8) (by decide),
    writes_sub_of_mem (y := main_call7_cst_2) (by decide),
    writes_sub_of_mem (y := main_call7_v9) (by decide),
    writes_sub_of_mem (y := main_call7_v10) (by decide),
    writes_sub_of_mem (y := main_call7_v11) (by decide),
    writes_sub_of_mem (y := main_call7_cst_3) (by decide),
    writes_sub_of_mem (y := main_call7_v12) (by decide),
    writes_sub_of_mem (y := main_call7_cst_4) (by decide),
    writes_sub_of_mem (y := main_call7_call0_v0) (by decide),
    writes_sub_of_mem (y := main_call7_call0_v1) (by decide),
    writes_sub_of_mem (y := main_v164) (by decide),
    writes_sub_of_mem (y := main_v165) (by decide),
    writes_sub_of_mem (y := main_v166) (by decide),
    writes_sub_of_mem (y := main_v167) (by decide),
    writes_sub_of_mem (y := main_cst_33) (by decide),
    writes_sub_of_mem (y := main_v168) (by decide),
    writes_sub_of_mem (y := main_v169) (by decide),
    writes_sub_of_mem (y := main_v170) (by decide),
    writes_sub_of_mem (y := main_v171) (by decide),
    writes_sub_of_mem (y := main_v172) (by decide),
    writes_sub_of_mem (y := main_v173) (by decide),
    writes_sub_of_mem (y := main_v174) (by decide),
    writes_sub_of_mem (y := main_v175) (by decide),
    writes_sub_of_mem (y := main_v176) (by decide),
    writes_sub_of_mem (y := main_v177) (by decide),
    writes_sub_of_mem (y := main_v178) (by decide),
    writes_sub_of_mem (y := main_v179) (by decide),
    writes_sub_of_mem (y := main_call8_cst) (by decide),
    writes_sub_of_mem (y := main_call8_v0) (by decide),
    writes_sub_of_mem (y := main_v180) (by decide),
    writes_sub_of_mem (y := main_c_34) (by decide),
    writes_sub_of_mem (y := main_v181) (by decide),
    writes_sub_of_mem (y := main_v182) (by decide),
    writes_sub_of_mem (y := main_c_35) (by decide),
    writes_sub_of_mem (y := main_v183) (by decide),
    writes_sub_of_mem (y := main_v184) (by decide),
    writes_sub_of_mem (y := main_v185) (by decide),
    writes_sub_of_mem (y := main_v186) (by decide),
    writes_sub_of_mem (y := main_v187) (by decide),
    writes_sub_of_mem (y := main_v188) (by decide),
    writes_sub_of_mem (y := main_v189) (by decide),
    writes_sub_of_mem (y := main_v190) (by decide),
    writes_sub_of_mem (y := main_v191) (by decide),
    writes_sub_of_mem (y := main_v192) (by decide),
    writes_sub_of_mem (y := main_cst_36) (by decide),
    writes_sub_of_mem (y := main_v193) (by decide),
    writes_sub_of_mem (y := main_cst_37) (by decide),
    writes_sub_of_mem (y := main_v194) (by decide),
    writes_sub_of_mem (y := main_v195) (by decide),
    writes_sub_of_mem (y := main_c_38) (by decide),
    writes_sub_of_mem (y := main_call9_cst) (by decide),
    writes_sub_of_mem (y := main_call9_v0) (by decide),
    writes_sub_of_mem (y := main_call9_v1) (by decide),
    writes_sub_of_mem (y := main_call9_cst_0) (by decide),
    writes_sub_of_mem (y := main_call9_v2) (by decide),
    writes_sub_of_mem (y := main_call9_v3) (by decide),
    writes_sub_of_mem (y := main_call9_v4) (by decide),
    writes_sub_of_mem (y := main_call9_v5) (by decide),
    writes_sub_of_mem (y := main_call9_v6) (by decide),
    writes_sub_of_mem (y := main_call9_v7) (by decide),
    writes_sub_of_mem (y := main_call9_cst_1) (by decide),
    writes_sub_of_mem (y := main_call9_v8) (by decide),
    writes_sub_of_mem (y := main_call9_cst_2) (by decide),
    writes_sub_of_mem (y := main_call9_v9) (by decide),
    writes_sub_of_mem (y := main_call9_v10) (by decide),
    writes_sub_of_mem (y := main_call9_v11) (by decide),
    writes_sub_of_mem (y := main_call9_cst_3) (by decide),
    writes_sub_of_mem (y := main_call9_v12) (by decide),
    writes_sub_of_mem (y := main_call9_cst_4) (by decide),
    writes_sub_of_mem (y := main_call9_call0_v0) (by decide),
    writes_sub_of_mem (y := main_call9_call0_v1) (by decide),
    writes_sub_of_mem (y := main_v196) (by decide),
    writes_sub_of_mem (y := main_v197) (by decide),
    writes_sub_of_mem (y := main_v198) (by decide)⟩

/-- Window `main_part4` of @main as a list: its 24 operations in order, a called function's operations standing at
    its call, over that call's buffers. -/
abbrev ops4 : List (HloOp τ sig (Elt F)) :=
  [ StableHlo.binary main_v192 main_v198 main_v199 (subf : (⟨S50000x128, .f32⟩ : BufTy).Contents (Elt F) → (⟨S50000x128, .f32⟩ : BufTy).Contents (Elt F) → (⟨S50000x128, .f32⟩ : BufTy).Contents (Elt F)),
    StableHlo.nullary main_cst_39 (constant S_ .f32 0x3727C5AC#32),
    StableHlo.unary main_cst_39 main_v200 (broadcastInDim S128 ![] bcast_S_S128 : (⟨S_, .f32⟩ : BufTy).Contents (Elt F) → (⟨S128, .f32⟩ : BufTy).Contents (Elt F)),
    StableHlo.binary main_v196 main_v200 main_v201 (addf : (⟨S128, .f32⟩ : BufTy).Contents (Elt F) → (⟨S128, .f32⟩ : BufTy).Contents (Elt F) → (⟨S128, .f32⟩ : BufTy).Contents (Elt F)),
    StableHlo.unary main_v201 main_v202 (Host.rsqrt : (⟨S128, .f32⟩ : BufTy).Contents (Elt F) → (⟨S128, .f32⟩ : BufTy).Contents (Elt F)),
    StableHlo.unary main_v202 main_v203 (broadcastInDim S1x128 ![1] bcast_S128_S1x128_1 : (⟨S128, .f32⟩ : BufTy).Contents (Elt F) → (⟨S1x128, .f32⟩ : BufTy).Contents (Elt F)),
    StableHlo.unary main_v203 main_v204 (broadcastInDim S50000x128 ![0, 1] bcast_S1x128_S50000x128_0_1 : (⟨S1x128, .f32⟩ : BufTy).Contents (Elt F) → (⟨S50000x128, .f32⟩ : BufTy).Contents (Elt F)),
    StableHlo.binary main_v199 main_v204 main_v205 (mulf : (⟨S50000x128, .f32⟩ : BufTy).Contents (Elt F) → (⟨S50000x128, .f32⟩ : BufTy).Contents (Elt F) → (⟨S50000x128, .f32⟩ : BufTy).Contents (Elt F)),
    StableHlo.unary main_arg11 main_v206 (broadcastInDim S1x128 ![1] bcast_S128_S1x128_1 : (⟨S128, .f32⟩ : BufTy).Contents (Elt F) → (⟨S1x128, .f32⟩ : BufTy).Contents (Elt F)),
    StableHlo.unary main_v206 main_v207 (broadcastInDim S50000x128 ![0, 1] bcast_S1x128_S50000x128_0_1 : (⟨S1x128, .f32⟩ : BufTy).Contents (Elt F) → (⟨S50000x128, .f32⟩ : BufTy).Contents (Elt F)),
    StableHlo.binary main_v205 main_v207 main_v208 (mulf : (⟨S50000x128, .f32⟩ : BufTy).Contents (Elt F) → (⟨S50000x128, .f32⟩ : BufTy).Contents (Elt F) → (⟨S50000x128, .f32⟩ : BufTy).Contents (Elt F)),
    StableHlo.unary main_arg12 main_v209 (broadcastInDim S1x128 ![1] bcast_S128_S1x128_1 : (⟨S128, .f32⟩ : BufTy).Contents (Elt F) → (⟨S1x128, .f32⟩ : BufTy).Contents (Elt F)),
    StableHlo.unary main_v209 main_v210 (broadcastInDim S50000x128 ![0, 1] bcast_S1x128_S50000x128_0_1 : (⟨S1x128, .f32⟩ : BufTy).Contents (Elt F) → (⟨S50000x128, .f32⟩ : BufTy).Contents (Elt F)),
    StableHlo.binary main_v208 main_v210 main_v211 (addf : (⟨S50000x128, .f32⟩ : BufTy).Contents (Elt F) → (⟨S50000x128, .f32⟩ : BufTy).Contents (Elt F) → (⟨S50000x128, .f32⟩ : BufTy).Contents (Elt F)),
    StableHlo.TRef.nullary main_call10.cst (constant S_ .f32 0x00000000#32),
    StableHlo.TRef.unary main_call10.cst main_call10.v0 (broadcastInDim S50000x128 ![] bcast_S_S50000x128),
    StableHlo.TRef.binary (.of main_v211 : StableHlo.TRef sig ⟨S50000x128, .f32⟩) main_call10.v0 main_call10.v1 maximumf,
    StableHlo.unary main_arg13 main_v213 ((transpose S128x128 [1, 0] · transposes_S128x128_S128x128_1_0) : (⟨S128x128, .f32⟩ : BufTy).Contents (Elt F) → (⟨S128x128, .f32⟩ : BufTy).Contents (Elt F)),
    StableHlo.binary main_v212 main_v213 main_v214 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg14 main_v215 (broadcastInDim S1x128 ![1] bcast_S128_S1x128_1 : (⟨S128, .f32⟩ : BufTy).Contents (Elt F) → (⟨S1x128, .f32⟩ : BufTy).Contents (Elt F)),
    StableHlo.unary main_v215 main_v216 (broadcastInDim S50000x128 ![0, 1] bcast_S1x128_S50000x128_0_1 : (⟨S1x128, .f32⟩ : BufTy).Contents (Elt F) → (⟨S50000x128, .f32⟩ : BufTy).Contents (Elt F)),
    StableHlo.binary main_v214 main_v216 main_v217 (addf : (⟨S50000x128, .f32⟩ : BufTy).Contents (Elt F) → (⟨S50000x128, .f32⟩ : BufTy).Contents (Elt F) → (⟨S50000x128, .f32⟩ : BufTy).Contents (Elt F)),
    StableHlo.unary main_arg2 main_v218 (broadcastInDim S50000x128 ![0, 1] bcast_S50000x1_S50000x128_0_1 : (⟨S50000x1, .f32⟩ : BufTy).Contents (Elt F) → (⟨S50000x128, .f32⟩ : BufTy).Contents (Elt F)),
    StableHlo.binary main_v217 main_v218 main_v219 (mulf : (⟨S50000x128, .f32⟩ : BufTy).Contents (Elt F) → (⟨S50000x128, .f32⟩ : BufTy).Contents (Elt F) → (⟨S50000x128, .f32⟩ : BufTy).Contents (Elt F)) ]

/-- The buffers window `main_part4`'s operations write: one an operation, its result's. -/
abbrev W4 : List (Ref sig .tc) :=
  [main_v199, main_cst_39, main_v200, main_v201, main_v202, main_v203, main_v204, main_v205, main_v206, main_v207, main_v208, main_v209, main_v210, main_v211, main_call10_cst, main_call10_v0, main_v212, main_v213, main_v214, main_v215, main_v216, main_v217, main_v218, main_v219]

set_option maxRecDepth 8192 in
theorem main_part4_eq (c : Dev nD) : main_part4 (F := F) c = seq ops4 := rfl

set_option maxRecDepth 8192 in
theorem ops4_sub : (ops4 : List (HloOp τ sig (Elt F))).Forall fun op => op.bufs ⊆ tcRefs τ sig :=
  ⟨binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., unary_bufs_sub .., binary_bufs_sub ..⟩

set_option maxRecDepth 8192 in
theorem ops4_fresh : (ops4 : List (HloOp τ sig (Elt F))).Forall fun op => op.fresh = ∅ := by
  simp only [List.Forall]; repeat' constructor

set_option maxRecDepth 8192 in
theorem ops4_writes : (ops4 : List (HloOp τ sig (Elt F))).Forall fun op => op.writes ⊆ (W4.map (Proc.devRef (τ := τ) .tc)).toFinset :=
  ⟨writes_sub_of_mem (y := main_v199) (by decide),
    writes_sub_of_mem (y := main_cst_39) (by decide),
    writes_sub_of_mem (y := main_v200) (by decide),
    writes_sub_of_mem (y := main_v201) (by decide),
    writes_sub_of_mem (y := main_v202) (by decide),
    writes_sub_of_mem (y := main_v203) (by decide),
    writes_sub_of_mem (y := main_v204) (by decide),
    writes_sub_of_mem (y := main_v205) (by decide),
    writes_sub_of_mem (y := main_v206) (by decide),
    writes_sub_of_mem (y := main_v207) (by decide),
    writes_sub_of_mem (y := main_v208) (by decide),
    writes_sub_of_mem (y := main_v209) (by decide),
    writes_sub_of_mem (y := main_v210) (by decide),
    writes_sub_of_mem (y := main_v211) (by decide),
    writes_sub_of_mem (y := main_call10_cst) (by decide),
    writes_sub_of_mem (y := main_call10_v0) (by decide),
    writes_sub_of_mem (y := main_v212) (by decide),
    writes_sub_of_mem (y := main_v213) (by decide),
    writes_sub_of_mem (y := main_v214) (by decide),
    writes_sub_of_mem (y := main_v215) (by decide),
    writes_sub_of_mem (y := main_v216) (by decide),
    writes_sub_of_mem (y := main_v217) (by decide),
    writes_sub_of_mem (y := main_v218) (by decide),
    writes_sub_of_mem (y := main_v219) (by decide)⟩

/-- @main's 363 operations, in order: the five windows' lists one after the other (every call's callee operations
    stand at the call, over that call's buffers). -/
abbrev ops : List (HloOp τ sig (Elt F)) := ops0 ++ (ops1 ++ (ops2 ++ (ops3 ++ ops4)))

/-- @main runs its windows in order, each window is its list run as a line, and two lines run one after the other
    are their concatenation run as one (`seq_append`). -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: window by window, an operation of the concatenation being
    one of some window. -/
theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops0_sub op h, List.forall_iff_forall_mem.mp ops1_sub op h, List.forall_iff_forall_mem.mp ops2_sub op h, List.forall_iff_forall_mem.mp ops3_sub op h, List.forall_iff_forall_mem.mp ops4_sub op h]

/-- Every operation determines its results (none allocates): window by window. -/
theorem ops_fresh : ∀ op ∈ (ops : List (HloOp τ sig (Elt F))), op.fresh = ∅ := fun op h => by
  simp only [ops, List.mem_append] at h
  rcases h with h | h | h | h | h
  exacts [List.forall_iff_forall_mem.mp ops0_fresh op h, List.forall_iff_forall_mem.mp ops1_fresh op h, List.forall_iff_forall_mem.mp ops2_fresh op h, List.forall_iff_forall_mem.mp ops3_fresh op h, List.forall_iff_forall_mem.mp ops4_fresh op h]

/-- The contents after two lists run one after the other: the second's fold over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A reference that is no window's result buffer keeps its contents through the whole of @main: each window's
    operations write only that window's result buffers (`after_of_writes_sub`), and the contents after @main are the
    windows' folds one over the other. -/
theorem keep (V : Valuation τ sig (Elt F)) {r : Ref sig .tc}
    (h0 : r ∉ W0) (h1 : r ∉ W1) (h2 : r ∉ W2) (h3 : r ∉ W3) (h4 : r ∉ W4) :
    after ops V (Proc.devRef .tc r) = V (Proc.devRef .tc r) := by
  show after (ops0 ++ (ops1 ++ (ops2 ++ (ops3 ++ ops4)))) V (Proc.devRef .tc r) = V (Proc.devRef .tc r)
  rw [after_app, after_app, after_app, after_app,
    after_of_writes_sub ops4 _ ops4_writes h4, after_of_writes_sub ops3 _ ops3_writes h3,
    after_of_writes_sub ops2 _ ops2_writes h2, after_of_writes_sub ops1 _ ops1_writes h1,
    after_of_writes_sub ops0 _ ops0_writes h0]

end Cert.ReferenceIdeal.RefRun

end
-- ==== Proof.RefRun.lean ====
/- The reference program's run, read off its operation list.

   @main is the straight line `seq ops` (`main_eq`) on a signature that scopes no buffer and no semaphore, so from any
   memory with zero counters every weakly fair execution terminates and leaves every TensorCore buffer at the fold of
   the operations' results over the launch contents (`run_seq`): `run_after`. The three results `main_v180`,
   `main_v219`, `main_v187` are that fold at their buffers, left folded here.

   No operation writes an argument: each writes only its own result buffer, the result buffers are the values, the
   constants and the called bodies' values, and the fifteen arguments are among none of the five windows' lists of
   result buffers (decided by comparing references). Hence every argument ends at its launch contents: `frame`. -/
import proofs.«180021_j37692632990117_2_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of @main
    terminates, and every final state has each TensorCore buffer at the fold of @main's operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

-- deciding that a reference is none of a window's hundred-odd result buffers recurses once per list element
set_option maxRecDepth 8192 in
/-- Every argument ends at its launch contents: it is the fold at a reference no operation writes. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨(h c main_arg0).trans (keep _ (by decide) (by decide) (by decide) (by decide) (by decide)),
      (h c main_arg1).trans (keep _ (by decide) (by decide) (by decide) (by decide) (by decide)),
      (h c main_arg2).trans (keep _ (by decide) (by decide) (by decide) (by decide) (by decide)),
      (h c main_arg3).trans (keep _ (by decide) (by decide) (by decide) (by decide) (by decide)),
      (h c main_arg4).trans (keep _ (by decide) (by decide) (by decide) (by decide) (by decide)),
      (h c main_arg5).trans (keep _ (by decide) (by decide) (by decide) (by decide) (by decide)),
      (h c main_arg6).trans (keep _ (by decide) (by decide) (by decide) (by decide) (by decide)),
      (h c main_arg7).trans (keep _ (by decide) (by decide) (by decide) (by decide) (by decide)),
      (h c main_arg8).trans (keep _ (by decide) (by decide) (by decide) (by decide) (by decide)),
      (h c main_arg9).trans (keep _ (by decide) (by decide) (by decide) (by decide) (by decide)),
      (h c main_arg10).trans (keep _ (by decide) (by decide) (by decide) (by decide) (by decide)),
      (h c main_arg11).trans (keep _ (by decide) (by decide) (by decide) (by decide) (by decide)),
      (h c main_arg12).trans (keep _ (by decide) (by decide) (by decide) (by decide) (by decide)),
      (h c main_arg13).trans (keep _ (by decide) (by decide) (by decide) (by decide) (by decide)),
      (h c main_arg14).trans (keep _ (by decide) (by decide) (by decide) (by decide) (by decide))⟩)
    (run_after m ρ)

end Cert.ReferenceIdeal.RefRun

end
-- ==== Proof.RefRunPost.lean ====
/- The reference program's run with its three results named.

   `run_after` gives every TensorCore buffer after @main as the fold of @main's operations over the launch contents.
   Read at the three buffers @main returns — `main_v180`, `main_v219`, `main_v187` — that is the fold at each, left
   folded; read at an argument it is the launch contents, no operation writing an argument (`keep`). One statement
   holds the three results and the fifteen arguments. -/
import proofs.«180021_j37692632990117_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- deciding that a reference is none of a window's hundred-odd result buffers recurses once per list element
set_option maxRecDepth 8192 in
/-- Every weakly fair execution of @main terminates with each result at the fold of @main's operations over the launch
    contents, read at the result's buffer, and each argument at its launch contents. -/
theorem run_results (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v180) = after ops (launchContents m c) (Proc.devRef .tc main_v180)
      ∧ r.2.mem ((c.tc : Thread nD τ).loc main_v219) = after ops (launchContents m c) (Proc.devRef .tc main_v219)
      ∧ r.2.mem ((c.tc : Thread nD τ).loc main_v187) = after ops (launchContents m c) (Proc.devRef .tc main_v187)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c =>
    ⟨h c main_v180,
      h c main_v219,
      h c main_v187,
      (h c main_arg0).trans (keep _ (by decide) (by decide) (by decide) (by decide) (by decide)),
      (h c main_arg1).trans (keep _ (by decide) (by decide) (by decide) (by decide) (by decide)),
      (h c main_arg2).trans (keep _ (by decide) (by decide) (by decide) (by decide) (by decide)),
      (h c main_arg3).trans (keep _ (by decide) (by decide) (by decide) (by decide) (by decide)),
      (h c main_arg4).trans (keep _ (by decide) (by decide) (by decide) (by decide) (by decide)),
      (h c main_arg5).trans (keep _ (by decide) (by decide) (by decide) (by decide) (by decide)),
      (h c main_arg6).trans (keep _ (by decide) (by decide) (by decide) (by decide) (by decide)),
      (h c main_arg7).trans (keep _ (by decide) (by decide) (by decide) (by decide) (by decide)),
      (h c main_arg8).trans (keep _ (by decide) (by decide) (by decide) (by decide) (by decide)),
      (h c main_arg9).trans (keep _ (by decide) (by decide) (by decide) (by decide) (by decide)),
      (h c main_arg10).trans (keep _ (by decide) (by decide) (by decide) (by decide) (by decide)),
      (h c main_arg11).trans (keep _ (by decide) (by decide) (by decide) (by decide) (by decide)),
      (h c main_arg12).trans (keep _ (by decide) (by decide) (by decide) (by decide) (by decide)),
      (h c main_arg13).trans (keep _ (by decide) (by decide) (by decide) (by decide) (by decide)),
      (h c main_arg14).trans (keep _ (by decide) (by decide) (by decide) (by decide) (by decide))⟩)
    (run_after m ρ)

end Cert.ReferenceIdeal.RefRun

end
-- ==== Proof.IdealStats0Runs.lean ====
/- Region 0: the linear map agg·Wlᵀ + h·Wrᵀ + b with the running column statistics, one grid point at a time.

   At each of the ten points the body forms the tile agg·Wlᵀ + h·Wrᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The two branch conditions over the grid -/

/-- "This is the first point": the body clears the accumulators. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point": the body finalises the mean and the variance. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where a window's buffer is left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Before the last point the body stores nothing into window 6 and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Before the last point the body stores nothing into window 7 and its block is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-! ## The buffers the body is called on -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two accumulators: whole scratch buffers of the kernel's own. -/
abbrev scM0_0 : Memref sig .tc .vmem S1x128 .f32 := Memref.whole cc0_scratch0
abbrev scM0_1 : Memref sig .tc .vmem S1x128 .f32 := Memref.whole cc0_scratch1
/-- Views through which the contents of the buffers the body stores into are stated. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev VS0_0 : View sig .tc .vmem S1x128 .f32 := scM0_0.view
abbrev VS0_1 : View sig .tc .vmem S1x128 .f32 := scM0_1.view

/-- What the region's own buffers and the generator register amount to: the two accumulators at some contents, the other
    scoped buffers unopened, the register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := Pipeline.UD sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32)  :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_lin_stats_kernel_eq_skeleton]; unfold cc0__sage_lin_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_lin_stats_kernel_eq_skeleton]; unfold cc0__sage_lin_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_lin_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__sage_lin_stats_kernel_eq_skeleton]; unfold cc0__sage_lin_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen

end
-- ==== Proof.IdealStats0.lean ====
/- Region 0, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case's run leaves: its pieces cover the buffer, and read back over anything -/

theorem cover0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)
theorem cover0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The accumulators and the outputs after each point -/

/-- The two accumulators after point `n`. -/
def accAt0 (c : Dev nD) : (n : ℕ) → n < cfg0.N → Vec F S1x128 .f32 × Vec F S1x128 .f32
  | 0, hn =>
    have h0 : (⟨0, hn⟩ : Fin cfg0.N).val = 0 := rfl
    have h1 : ¬(⟨0, hn⟩ : Fin cfg0.N).val = 9 := fun h => absurd (show (0 : ℕ) = 9 from h) (by decide)
    (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    have h0 : ¬(⟨n + 1, hn⟩ : Fin cfg0.N).val = 0 := Nat.succ_ne_zero n
    if h1 : (⟨n + 1, hn⟩ : Fin cfg0.N).val = 9 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)

theorem accAt0_A (c : Dev nD) (t : Fin cfg0.N) (h0 : t.val = 0) (h1 : ¬t.val = 9) :
    accAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => rfl
  | succ n => exact absurd h0 (Nat.succ_ne_zero n)

theorem accAt0_B (c : Dev nD) (t : Fin cfg0.N) (h0 : ¬t.val = 0) (h1 : ¬t.val = 9) :
    accAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_neg h1).trans rfl

theorem accAt0_C (c : Dev nD) (t : Fin cfg0.N) (h0 : ¬t.val = 0) (h1 : t.val = 9) :
    accAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt0 (c : Dev nD) (t : Fin cfg0.N) : Vec F S5000x128 .f32 :=
  if h0 : t.val = 0 then
    if h1 : t.val = 9 then iblk0 V c 5 t else out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)
  else
    if h1 : t.val = 9 then out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2
    else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2

/-- The mean and the variance rows after point `t`: the last point's run's (elsewhere the windows are left alone, and
    what is written here is never consulted). -/
def meanAt0 (c : Dev nD) (t : Fin cfg0.N) : Vec F S1x128 .f32 :=
  if h0 : t.val = 0 then iblk0 V c 6 t else if h1 : t.val = 9 then out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2 else iblk0 V c 6 t
def varAt0 (c : Dev nD) (t : Fin cfg0.N) : Vec F S1x128 .f32 :=
  if h0 : t.val = 0 then iblk0 V c 7 t else if h1 : t.val = 9 then out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2 else iblk0 V c 7 t

/-! ## The invariant between points and the proof data -/

/-- Before point `n`: at the start the region's own buffers at anything; afterwards the two accumulators at what the point
    before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((accAt0 V c n hn).1) ∗ owns (c : Thread nD τ) scM0_1 fullShare ((accAt0 V c n hn).2))
      ∗ Pipeline.scopedRestBut (Ix := Unit) (Name := ℕ) (U := Pipeline.UD sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((accAt0 V c n hn).1) ∗ owns (c : Thread nD τ) scM0_1 fullShare ((accAt0 V c n hn).2))
      ∗ Pipeline.scopedRestBut (Ix := Unit) (Name := ℕ) (U := Pipeline.UD sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((accAt0 V c (n - 1) (by omega)).1) ∗ owns (c : Thread nD τ) scM0_1 fullShare ((accAt0 V c (n - 1) (by omega)).2))
      ∗ Pipeline.scopedRestBut (Ix := Unit) (Name := ℕ) (U := Pipeline.UD sig nD τ) (Lvl := ℕ) (Val := Elt F) spec0 c [cc0_scratch0, cc0_scratch1]) ∗ (∃ r, prngReg c r)) := by
  cases n with
  | zero => exact absurd rfl hz
  | succ n => rfl

/-- The proof data of this region on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tileAt0 V c t
    | ⟨6, _⟩ => meanAt0 V c t
    | ⟨7, _⟩ => varAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = tileAt0 V c t := by dsimp only [dat0]
theorem after0_6 (c : Dev nD) (t : Fin cfg0.N) : (dat0 V c).after 6 t = meanAt0 V c t := by dsimp only [dat0]
theorem after0_7 (c : Dev nD) (t : Fin cfg0.N) : (dat0 V c).after 7 t = varAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.KernelIdeal.Gen

end
-- ==== Proof.IdealStats0Body.lean ====
/- Region 0, concluded: the body obligation at every grid point, by the three cases, and the invariant at the region's ends. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 10 := lt_of_lt_of_eq t.isLt N_0
  by_cases h0 : t.val = 0
  · have h1 : ¬t.val = 9 := by omega
    rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    rw [accAt0_A V c t h0 h1]
    simp only [tileAt0, dif_pos h0, dif_neg h1]
    unfold out0_A_5 sout0_A_0 sout0_A_1; (try dsimp only)
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _)
    isplitl [H6]; · iexists _; iexact H6
    iexists _; iexact H7
  · by_cases h1 : t.val = 9
    · rw [show (dat0 V c).leavesExact 6 t = owns (c : Thread nD τ) (ms0_6 t) fullShare ((dat0 V c).after 6 t) from by
        unfold Dat.leavesExact; rw [liveAt0_6_C t ((hcond0_1 t).mpr h1)], after0_6]
      rw [show (dat0 V c).leavesExact 7 t = owns (c : Thread nD τ) (ms0_7 t) fullShare ((dat0 V c).after 7 t) from by
        unfold Dat.leavesExact; rw [liveAt0_7_C t ((hcond0_1 t).mpr h1)], after0_7]
      rw [accAt0_C V c t h0 h1]
      simp only [tileAt0, meanAt0, varAt0, dif_neg h0, dif_pos h1]
      unfold out0_C_5 out0_C_6 out0_C_7 sout0_C_0 sout0_C_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    · rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [accAt0_B V c t h0 h1]
      simp only [tileAt0, dif_neg h0, dif_neg h1]
      unfold out0_B_5 sout0_B_0 sout0_B_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the region's own buffers back at some contents. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Gen

end
-- ==== Proof.IdealStats2Runs.lean ====
/- Region 2: the linear map agg·Wlᵀ + h·Wrᵀ + b with the running column statistics, one grid point at a time.

   At each of the ten points the body forms the tile agg·Wlᵀ + h·Wrᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The two branch conditions over the grid -/

/-- "This is the first point": the body clears the accumulators. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": the body finalises the mean and the variance. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where a window's buffer is left alone -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last point the body stores nothing into window 6 and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6_C : ∀ t : Fin cfg2.N, cond2_1 (grid2.coords t) → cfg2.idle 6 (grid2.coords t) = false := by decide +kernel
/-- Before the last point the body stores nothing into window 7 and its block is not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel

/-! ## The buffers the body is called on -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two accumulators: whole scratch buffers of the kernel's own. -/
abbrev scM2_0 : Memref sig .tc .vmem S1x128 .f32 := Memref.whole cc2_scratch0
abbrev scM2_1 : Memref sig .tc .vmem S1x128 .f32 := Memref.whole cc2_scratch1
/-- Views through which the contents of the buffers the body stores into are stated. -/
abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev VS2_0 : View sig .tc .vmem S1x128 .f32 := scM2_0.view
abbrev VS2_1 : View sig .tc .vmem S1x128 .f32 := scM2_1.view

/-- What the region's own buffers and the generator register amount to: the two accumulators at some contents, the other
    scoped buffers unopened, the register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := Pipeline.UD sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S5000x128 .f32) (x2 : Vec F S128x128 .f32) (x3 : Vec F S128x128 .f32) (x4 : Vec F S1x128 .f32)  :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__sage_lin_stats_kernel_eq_skeleton]; unfold cc2__sage_lin_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__sage_lin_stats_kernel_eq_skeleton]; unfold cc2__sage_lin_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__sage_lin_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__sage_lin_stats_kernel_eq_skeleton]; unfold cc2__sage_lin_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen

end
-- ==== Proof.IdealStats2.lean ====
/- Region 2, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What each case's run leaves: its pieces cover the buffer, and read back over anything -/

theorem cover2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) : Vec F S5000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.1)
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.1)
theorem cover2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def out2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The accumulators and the outputs after each point -/

/-- The two accumulators after point `n`. -/
def accAt2 (c : Dev nD) : (n : ℕ) → n < cfg2.N → Vec F S1x128 .f32 × Vec F S1x128 .f32
  | 0, hn =>
    have h0 : (⟨0, hn⟩ : Fin cfg2.N).val = 0 := rfl
    have h1 : ¬(⟨0, hn⟩ : Fin cfg2.N).val = 9 := fun h => absurd (show (0 : ℕ) = 9 from h) (by decide)
    (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    have h0 : ¬(⟨n + 1, hn⟩ : Fin cfg2.N).val = 0 := Nat.succ_ne_zero n
    if h1 : (⟨n + 1, hn⟩ : Fin cfg2.N).val = 9 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2)

theorem accAt2_A (c : Dev nD) (t : Fin cfg2.N) (h0 : t.val = 0) (h1 : ¬t.val = 9) :
    accAt2 V c t.val t.isLt = (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => rfl
  | succ n => exact absurd h0 (Nat.succ_ne_zero n)

theorem accAt2_B (c : Dev nD) (t : Fin cfg2.N) (h0 : ¬t.val = 0) (h1 : ¬t.val = 9) :
    accAt2 V c t.val t.isLt = (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2) := by
  obtain ⟨n, hn⟩ := t
  cases n with
  | zero => exact absurd rfl h0
  | succ n => exact (dif_neg h1).trans rfl

theorem accAt2_C (c : Dev nD) (t : Fin cfg2.N) (h0 : ¬t.val = 0) (h1 : t.val = 9) :
    accAt2 V c t.val t.isLt = (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt2 (c : Dev nD) (t : Fin cfg2.N) : Vec F S5000x128 .f32 :=
  if h0 : t.val = 0 then
    if h1 : t.val = 9 then iblk2 V c 5 t else out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)
  else
    if h1 : t.val = 9 then out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2
    else out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2

/-- The mean and the variance rows after point `t`: the last point's run's (elsewhere the windows are left alone, and
    what is written here is never consulted). -/
def meanAt2 (c : Dev nD) (t : Fin cfg2.N) : Vec F S1x128 .f32 :=
  if h0 : t.val = 0 then iblk2 V c 6 t else if h1 : t.val = 9 then out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2 else iblk2 V c 6 t
def varAt2 (c : Dev nD) (t : Fin cfg2.N) : Vec F S1x128 .f32 :=
  if h0 : t.val = 0 then iblk2 V c 7 t else if h1 : t.val = 9 then out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2 else iblk2 V c 7 t

/-! ## The invariant between points and the proof data -/

/-- Before point `n`: at the start the region's own buffers at anything; afterwards the two accumulators at what the point
    before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((accAt2 V c n hn).1) ∗ owns (c : Thread nD τ) scM2_1 fullShare ((accAt2 V c n hn).2))
      ∗ Pipeline.scopedRestBut (Ix := Unit) (Name := ℕ) (U := Pipeline.UD sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((accAt2 V c n hn).1) ∗ owns (c : Thread nD τ) scM2_1 fullShare ((accAt2 V c n hn).2))
      ∗ Pipeline.scopedRestBut (Ix := Unit) (Name := ℕ) (U := Pipeline.UD sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((accAt2 V c (n - 1) (by omega)).1) ∗ owns (c : Thread nD τ) scM2_1 fullShare ((accAt2 V c (n - 1) (by omega)).2))
      ∗ Pipeline.scopedRestBut (Ix := Unit) (Name := ℕ) (U := Pipeline.UD sig nD τ) (Lvl := ℕ) (Val := Elt F) spec2 c [cc2_scratch0, cc2_scratch1]) ∗ (∃ r, prngReg c r)) := by
  cases n with
  | zero => exact absurd rfl hz
  | succ n => rfl

/-- The proof data of this region on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => tileAt2 V c t
    | ⟨6, _⟩ => meanAt2 V c t
    | ⟨7, _⟩ => varAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = tileAt2 V c t := by dsimp only [dat2]
theorem after2_6 (c : Dev nD) (t : Fin cfg2.N) : (dat2 V c).after 6 t = meanAt2 V c t := by dsimp only [dat2]
theorem after2_7 (c : Dev nD) (t : Fin cfg2.N) : (dat2 V c).after 7 t = varAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.KernelIdeal.Gen

end
-- ==== Proof.IdealStats2Body.lean ====
/- Region 2, concluded: the body obligation at every grid point, by the three cases, and the invariant at the region's ends. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 10 := lt_of_lt_of_eq t.isLt N_2
  by_cases h0 : t.val = 0
  · have h1 : ¬t.val = 9 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [accAt2_A V c t h0 h1]
    simp only [tileAt2, dif_pos h0, dif_neg h1]
    unfold out2_A_5 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _ _ _ _ _ _)
    isplitl [H6]; · iexists _; iexact H6
    iexists _; iexact H7
  · by_cases h1 : t.val = 9
    · rw [show (dat2 V c).leavesExact 6 t = owns (c : Thread nD τ) (ms2_6 t) fullShare ((dat2 V c).after 6 t) from by
        unfold Dat.leavesExact; rw [liveAt2_6_C t ((hcond2_1 t).mpr h1)], after2_6]
      rw [show (dat2 V c).leavesExact 7 t = owns (c : Thread nD τ) (ms2_7 t) fullShare ((dat2 V c).after 7 t) from by
        unfold Dat.leavesExact; rw [liveAt2_7_C t ((hcond2_1 t).mpr h1)], after2_7]
      rw [accAt2_C V c t h0 h1]
      simp only [tileAt2, meanAt2, varAt2, dif_neg h0, dif_pos h1]
      unfold out2_C_5 out2_C_6 out2_C_7 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [accAt2_B V c t h0 h1]
      simp only [tileAt2, dif_neg h0, dif_neg h1]
      unfold out2_B_5 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _)
      isplitl [H6]; · iexists _; iexact H6
      iexists _; iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the region's own buffers back at some contents. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Gen

end
-- ==== Proof.IdealStats4Runs.lean ====
/- Region 4: the linear map agg·Wlᵀ + h·Wrᵀ + b with the running column statistics, one grid point at a time.

   At each of the ten points the body forms the tile agg·Wlᵀ + h·Wrᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The two branch conditions over the grid -/

/-- "This is the first point": the body clears the accumulators. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- "This is the last point": the body finalises the mean and the variance. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where a window's buffer is left alone -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last point the body stores nothing into window 6 and its block is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel
/-- Before the last point the body stores nothing into window 7 and its block is not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel

/-! ## The buffers the body is called on -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two accumulators: whole scratch buffers of the kernel's own. -/
abbrev scM4_0 : Memref sig .tc .vmem S1x128 .f32 := Memref.whole cc4_scratch0
abbrev scM4_1 : Memref sig .tc .vmem S1x128 .f32 := Memref.whole cc4_scratch1
/-- Views through which the contents of the buffers the body stores into are stated. -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev VS4_0 : View sig .tc .vmem S1x128 .f32 := scM4_0.view
abbrev VS4_1 : View sig .tc .vmem S1x128 .f32 := scM4_1.view

/-- What the region's own buffers and the generator register amount to: the two accumulators at some contents, the other
    scoped buffers unopened, the register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := Pipeline.UD sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32)  :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__sage_lin_stats_kernel_eq_skeleton]; unfold cc4__sage_lin_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__sage_lin_stats_kernel_eq_skeleton]; unfold cc4__sage_lin_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__sage_lin_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__sage_lin_stats_kernel_eq_skeleton]; unfold cc4__sage_lin_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.KernelIdeal.Gen

end
-- ==== Proof.IdealStats4.lean ====
/- Region 4, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## What each case's run leaves: its pieces cover the buffer, and read back over anything -/

theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y
def out4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 arg10 harg10 hc0 hc1 x0 x1 x2 x3 x4).1)
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4).2.1)
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 hc0 hc1 x0 x1 x2 x3 x4).2.2.1)
theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).1)
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).1)
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def out4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The accumulators and the outputs after each point -/

/-- The two accumulators after point `n`. -/
def accAt4 (c : Dev nD) : (n : ℕ) → n < cfg4.N → Vec F S1x128 .f32 × Vec F S1x128 .f32
  | 0, hn =>
    have h0 : (⟨0, hn⟩ : Fin cfg4.N).val = 0 := rfl
    have h1 : ¬(⟨0, hn⟩ : Fin cfg4.N).val = 9 := fun h => absurd (show (0 : ℕ) = 9 from h) (by decide)
    (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    have h0 : ¬(⟨n + 1, hn⟩ : Fin cfg4.N).val = 0 := Nat.succ_ne_zero n
    if h1 : (⟨n + 1, hn⟩ : Fin cfg4.N).val = 9 then
      (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2)
    else
      (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2)

theorem accAt4_A (c : Dev nD) (t : Fin cfg4.N) (h0 : t.val = 0) (h1 : ¬t.val = 9) :
    accAt4 V c t.val t.isLt = (sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => rfl
  | succ n => exact absurd h0 (Nat.succ_ne_zero n)

theorem accAt4_B (c : Dev nD) (t : Fin cfg4.N) (h0 : ¬t.val = 0) (h1 : ¬t.val = 9) :
    accAt4 V c t.val t.isLt = (sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2) := by
  obtain ⟨n, hn⟩ := t
  cases n with
  | zero => exact absurd rfl h0
  | succ n => exact (dif_neg h1).trans rfl

theorem accAt4_C (c : Dev nD) (t : Fin cfg4.N) (h0 : ¬t.val = 0) (h1 : t.val = 9) :
    accAt4 V c t.val t.isLt = (sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt4 (c : Dev nD) (t : Fin cfg4.N) : Vec F S5000x128 .f32 :=
  if h0 : t.val = 0 then
    if h1 : t.val = 9 then iblk4 V c 5 t else out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)
  else
    if h1 : t.val = 9 then out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2
    else out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2

/-- The mean and the variance rows after point `t`: the last point's run's (elsewhere the windows are left alone, and
    what is written here is never consulted). -/
def meanAt4 (c : Dev nD) (t : Fin cfg4.N) : Vec F S1x128 .f32 :=
  if h0 : t.val = 0 then iblk4 V c 6 t else if h1 : t.val = 9 then out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2 else iblk4 V c 6 t
def varAt4 (c : Dev nD) (t : Fin cfg4.N) : Vec F S1x128 .f32 :=
  if h0 : t.val = 0 then iblk4 V c 7 t else if h1 : t.val = 9 then out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2 else iblk4 V c 7 t

/-! ## The invariant between points and the proof data -/

/-- Before point `n`: at the start the region's own buffers at anything; afterwards the two accumulators at what the point
    before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((accAt4 V c n hn).1) ∗ owns (c : Thread nD τ) scM4_1 fullShare ((accAt4 V c n hn).2))
      ∗ Pipeline.scopedRestBut (Ix := Unit) (Name := ℕ) (U := Pipeline.UD sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((accAt4 V c n hn).1) ∗ owns (c : Thread nD τ) scM4_1 fullShare ((accAt4 V c n hn).2))
      ∗ Pipeline.scopedRestBut (Ix := Unit) (Name := ℕ) (U := Pipeline.UD sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((accAt4 V c (n - 1) (by omega)).1) ∗ owns (c : Thread nD τ) scM4_1 fullShare ((accAt4 V c (n - 1) (by omega)).2))
      ∗ Pipeline.scopedRestBut (Ix := Unit) (Name := ℕ) (U := Pipeline.UD sig nD τ) (Lvl := ℕ) (Val := Elt F) spec4 c [cc4_scratch0, cc4_scratch1]) ∗ (∃ r, prngReg c r)) := by
  cases n with
  | zero => exact absurd rfl hz
  | succ n => rfl

/-- The proof data of this region on core `c`. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => tileAt4 V c t
    | ⟨6, _⟩ => meanAt4 V c t
    | ⟨7, _⟩ => varAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = tileAt4 V c t := by dsimp only [dat4]
theorem after4_6 (c : Dev nD) (t : Fin cfg4.N) : (dat4 V c).after 6 t = meanAt4 V c t := by dsimp only [dat4]
theorem after4_7 (c : Dev nD) (t : Fin cfg4.N) : (dat4 V c).after 7 t = varAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

end Cert.KernelIdeal.Gen

end
-- ==== Proof.IdealStats4Body.lean ====
/- Region 4, concluded: the body obligation at every grid point, by the three cases, and the invariant at the region's ends. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  have hN : t.val < 10 := lt_of_lt_of_eq t.isLt N_4
  by_cases h0 : t.val = 0
  · have h1 : ¬t.val = 9 := by omega
    rw [Dat.leavesExact_idle (dat4 V c) 6 t (idleAt4_6 t (fun h => h1 ((hcond4_1 t).mp h))) (noFlush4_6 t (fun h => h1 ((hcond4_1 t).mp h)))]
    rw [Dat.leavesExact_idle (dat4 V c) 7 t (idleAt4_7 t (fun h => h1 ((hcond4_1 t).mp h))) (noFlush4_7 t (fun h => h1 ((hcond4_1 t).mp h)))]
    rw [accAt4_A V c t h0 h1]
    simp only [tileAt4, dif_pos h0, dif_neg h1]
    unfold out4_A_5 sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _ _ _ _ _ _)
    isplitl [H6]; · iexists _; iexact H6
    iexists _; iexact H7
  · by_cases h1 : t.val = 9
    · rw [show (dat4 V c).leavesExact 6 t = owns (c : Thread nD τ) (ms4_6 t) fullShare ((dat4 V c).after 6 t) from by
        unfold Dat.leavesExact; rw [liveAt4_6_C t ((hcond4_1 t).mpr h1)], after4_6]
      rw [show (dat4 V c).leavesExact 7 t = owns (c : Thread nD τ) (ms4_7 t) fullShare ((dat4 V c).after 7 t) from by
        unfold Dat.leavesExact; rw [liveAt4_7_C t ((hcond4_1 t).mpr h1)], after4_7]
      rw [accAt4_C V c t h0 h1]
      simp only [tileAt4, meanAt4, varAt4, dif_neg h0, dif_pos h1]
      unfold out4_C_5 out4_C_6 out4_C_7 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _)
    · rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [accAt4_B V c t h0 h1]
      simp only [tileAt4, dif_neg h0, dif_neg h1]
      unfold out4_B_5 sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _ _ _ _ _ _ _ _)
      isplitl [H6]; · iexists _; iexact H6
      iexists _; iexact H7

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the region's own buffers back at some contents. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Gen

end
-- ==== Proof.IdealStats6Runs.lean ====
/- Region 6: the linear map x·Wᵀ + b with the running column statistics, one grid point at a time.

   At each of the ten points the body forms the tile x·Wᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-! ## The two branch conditions over the grid -/

/-- "This is the first point": the body clears the accumulators. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)
/-- "This is the last point": the body finalises the mean and the variance. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-! ## Where a window's buffer is left alone -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Before the last point the body stores nothing into window 4 and its block is not written back. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4_C : ∀ t : Fin cfg6.N, cond6_1 (grid6.coords t) → cfg6.idle 4 (grid6.coords t) = false := by decide +kernel
/-- Before the last point the body stores nothing into window 5 and its block is not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5_C : ∀ t : Fin cfg6.N, cond6_1 (grid6.coords t) → cfg6.idle 5 (grid6.coords t) = false := by decide +kernel

/-! ## The buffers the body is called on -/

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
/-- The two accumulators: whole scratch buffers of the kernel's own. -/
abbrev scM6_0 : Memref sig .tc .vmem S1x128 .f32 := Memref.whole cc6_scratch0
abbrev scM6_1 : Memref sig .tc .vmem S1x128 .f32 := Memref.whole cc6_scratch1
/-- Views through which the contents of the buffers the body stores into are stated. -/
abbrev VO6_3 : View sig .tc .vmem S5000x128 .f32 := (Memref.whole cc6_stg3_0 : Memref sig .tc .vmem S5000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
abbrev VS6_0 : View sig .tc .vmem S1x128 .f32 := scM6_0.view
abbrev VS6_1 : View sig .tc .vmem S1x128 .f32 := scM6_1.view

/-- What the region's own buffers and the generator register amount to: the two accumulators at some contents, the other
    scoped buffers unopened, the register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := Pipeline.UD sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun6_A (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S1x128 .f32)  :
    Σ' (L3 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__lin_bias_stats_kernel i arg1 harg1 arg2 harg2 arg3 harg3 arg4 harg4 arg5 harg5 arg6 harg6 arg7 harg7 arg8 harg8) K } := by
  refine ⟨?_, ?_, ?_, fun E K => ?run⟩
  case run =>
    simp only [cc6__lin_bias_stats_kernel_eq_skeleton]; unfold cc6__lin_bias_stats_kernel_skel
    simp only [k6_part1_eq_skeleton]; unfold k6_part1_skel
    unfold owns
    iintro ⟨⟨%f1, %hf1, H1⟩, ⟨%f2, %hf2, H2⟩, ⟨%f3, %hf3, H3⟩, ⟨%d4, %f4, -, H4⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H7]; · iexists _; iexact H7
    iexists _; iexact H8

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun6_B (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S1x128 .f32) (xs0 xs1 : Vec F S1x128 .f32) :
    Σ' (L3 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__lin_bias_stats_kernel i arg1 harg1 arg2 harg2 arg3 harg3 arg4 harg4 arg5 harg5 arg6 harg6 arg7 harg7 arg8 harg8) K } := by
  refine ⟨?_, ?_, ?_, fun E K => ?run⟩
  case run =>
    simp only [cc6__lin_bias_stats_kernel_eq_skeleton]; unfold cc6__lin_bias_stats_kernel_skel
    simp only [k6_part1_eq_skeleton]; unfold k6_part1_skel
    unfold owns
    iintro ⟨⟨%f1, %hf1, H1⟩, ⟨%f2, %hf2, H2⟩, ⟨%f3, %hf3, H3⟩, ⟨%d4, %f4, -, H4⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H7]; · iexists _; iexact H7
    iexists _; iexact H8

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun6_C (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__lin_bias_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__lin_bias_stats_kernel_eq_skeleton]; unfold cc6__lin_bias_stats_kernel_skel
    simp only [k6_part1_eq_skeleton]; unfold k6_part1_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.KernelIdeal.Gen

end
-- ==== Proof.IdealStats6.lean ====
/- Region 6, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## What each case's run leaves: its pieces cover the buffer, and read back over anything -/

theorem cover6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) (y : S5000x128.Idx) :
    ∃ pc ∈ (kernelRun6_A c i arg1 harg1 arg2 harg2 arg3 harg3 arg4 harg4 arg5 harg5 arg6 harg6 arg7 harg7 arg8 harg8 hc0 hc1 x0 x1 x2).1, y ∈ pc.1.set :=
  View.cover_of_tiledL (kernelRun6_A c i arg1 harg1 arg2 harg2 arg3 harg3 arg4 harg4 arg5 harg5 arg6 harg6 arg7 harg7 arg8 harg8 hc0 hc1 x0 x1 x2).1 S5000x128.size (by sl_kernel_rfl) y
def out6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) : Vec F S5000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc0 hc1 x0 x1 x2).1)
theorem scover6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.1, y ∈ pc.1.set :=
  View.cover_of_tiledL (kernelRun6_A c i arg1 harg1 arg2 harg2 arg3 harg3 arg4 harg4 arg5 harg5 arg6 harg6 arg7 harg7 arg8 harg8 hc0 hc1 x0 x1 x2).2.1 S1x128.size (by sl_kernel_rfl) y
def sout6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2).2.1)
theorem scover6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.2.1, y ∈ pc.1.set :=
  View.cover_of_tiledL (kernelRun6_A c i arg1 harg1 arg2 harg2 arg3 harg3 arg4 harg4 arg5 harg5 arg6 harg6 arg7 harg7 arg8 harg8 hc0 hc1 x0 x1 x2).2.2.1 S1x128.size (by sl_kernel_rfl) y
def sout6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2).2.2.1)
theorem cover6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) (y : S5000x128.Idx) :
    ∃ pc ∈ (kernelRun6_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).1 S5000x128.size (by sl_kernel_rfl) y
def out6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) : Vec F S5000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc0 hc1 x0 x1 x2 xs0 xs1).1)
theorem scover6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.1 S1x128.size (by sl_kernel_rfl) y
def sout6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 xs0 xs1).2.1)
theorem scover6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.2.1 S1x128.size (by sl_kernel_rfl) y
def sout6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 xs0 xs1).2.2.1)
theorem cover6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S5000x128.Idx) :
    ∃ pc ∈ (kernelRun6_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).1 S5000x128.size (by sl_kernel_rfl) y
def out6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S5000x128 .f32 :=
  VO6_3.read (Elt F) (VO6_3.writes (Elt F) VO6_3.junk (kernelRun6_C c i arg1 harg1 arg2 harg2 arg3 harg3 arg4 harg4 arg5 harg5 arg6 harg6 arg7 harg7 arg8 harg8 hc0 hc1 x0 x1 x2 xs0 xs1).1)
theorem cover6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.1 S1x128.size (by sl_kernel_rfl) y
def out6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VO6_4.read (Elt F) (VO6_4.writes (Elt F) VO6_4.junk (kernelRun6_C c i arg1 harg1 arg2 harg2 arg3 harg3 arg4 harg4 arg5 harg5 arg6 harg6 arg7 harg7 arg8 harg8 hc0 hc1 x0 x1 x2 xs0 xs1).2.1)
theorem cover6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.1 S1x128.size (by sl_kernel_rfl) y
def out6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 xs0 xs1).2.2.1)
theorem scover6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.1 S1x128.size (by sl_kernel_rfl) y
def sout6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 xs0 xs1).2.2.2.1)
theorem scover6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.2.1 S1x128.size (by sl_kernel_rfl) y
def sout6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 xs0 xs1).2.2.2.2.1)

/-! ## The accumulators and the outputs after each point -/

/-- The two accumulators after point `n`. -/
def accAt6 (c : Dev nD) : (n : ℕ) → n < cfg6.N → Vec F S1x128 .f32 × Vec F S1x128 .f32
  | 0, hn =>
    have h0 : (⟨0, hn⟩ : Fin cfg6.N).val = 0 := rfl
    have h1 : ¬(⟨0, hn⟩ : Fin cfg6.N).val = 9 := fun h => absurd (show (0 : ℕ) = 9 from h) (by decide)
    (sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩))
  | n + 1, hn =>
    have h0 : ¬(⟨n + 1, hn⟩ : Fin cfg6.N).val = 0 := Nat.succ_ne_zero n
    if h1 : (⟨n + 1, hn⟩ : Fin cfg6.N).val = 9 then
      (sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2)
    else
      (sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2)

theorem accAt6_A (c : Dev nD) (t : Fin cfg6.N) (h0 : t.val = 0) (h1 : ¬t.val = 9) :
    accAt6 V c t.val t.isLt = (sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => rfl
  | succ n => exact absurd h0 (Nat.succ_ne_zero n)

theorem accAt6_B (c : Dev nD) (t : Fin cfg6.N) (h0 : ¬t.val = 0) (h1 : ¬t.val = 9) :
    accAt6 V c t.val t.isLt = (sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2) := by
  obtain ⟨n, hn⟩ := t
  cases n with
  | zero => exact absurd rfl h0
  | succ n => exact (dif_neg h1).trans rfl

theorem accAt6_C (c : Dev nD) (t : Fin cfg6.N) (h0 : ¬t.val = 0) (h1 : t.val = 9) :
    accAt6 V c t.val t.isLt = (sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt6 (c : Dev nD) (t : Fin cfg6.N) : Vec F S5000x128 .f32 :=
  if h0 : t.val = 0 then
    if h1 : t.val = 9 then iblk6 V c 3 t else out6_A_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)
  else
    if h1 : t.val = 9 then out6_C_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2
    else out6_B_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2

/-- The mean and the variance rows after point `t`: the last point's run's (elsewhere the windows are left alone, and
    what is written here is never consulted). -/
def meanAt6 (c : Dev nD) (t : Fin cfg6.N) : Vec F S1x128 .f32 :=
  if h0 : t.val = 0 then iblk6 V c 4 t else if h1 : t.val = 9 then out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2 else iblk6 V c 4 t
def varAt6 (c : Dev nD) (t : Fin cfg6.N) : Vec F S1x128 .f32 :=
  if h0 : t.val = 0 then iblk6 V c 5 t else if h1 : t.val = 9 then out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2 else iblk6 V c 5 t

/-! ## The invariant between points and the proof data -/

/-- Before point `n`: at the start the region's own buffers at anything; afterwards the two accumulators at what the point
    before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((accAt6 V c n hn).1) ∗ owns (c : Thread nD τ) scM6_1 fullShare ((accAt6 V c n hn).2))
      ∗ Pipeline.scopedRestBut (Ix := Unit) (Name := ℕ) (U := Pipeline.UD sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((accAt6 V c n hn).1) ∗ owns (c : Thread nD τ) scM6_1 fullShare ((accAt6 V c n hn).2))
      ∗ Pipeline.scopedRestBut (Ix := Unit) (Name := ℕ) (U := Pipeline.UD sig nD τ) (Lvl := ℕ) (Val := Elt F) spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((accAt6 V c (n - 1) (by omega)).1) ∗ owns (c : Thread nD τ) scM6_1 fullShare ((accAt6 V c (n - 1) (by omega)).2))
      ∗ Pipeline.scopedRestBut (Ix := Unit) (Name := ℕ) (U := Pipeline.UD sig nD τ) (Lvl := ℕ) (Val := Elt F) spec6 c [cc6_scratch0, cc6_scratch1]) ∗ (∃ r, prngReg c r)) := by
  cases n with
  | zero => exact absurd rfl hz
  | succ n => rfl

/-- The proof data of this region on core `c`. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => tileAt6 V c t
    | ⟨4, _⟩ => meanAt6 V c t
    | ⟨5, _⟩ => varAt6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = tileAt6 V c t := by dsimp only [dat6]
theorem after6_4 (c : Dev nD) (t : Fin cfg6.N) : (dat6 V c).after 4 t = meanAt6 V c t := by dsimp only [dat6]
theorem after6_5 (c : Dev nD) (t : Fin cfg6.N) : (dat6 V c).after 5 t = varAt6 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

end Cert.KernelIdeal.Gen

end
-- ==== Proof.IdealStats6Body.lean ====
/- Region 6, concluded: the body obligation at every grid point, by the three cases, and the invariant at the region's ends. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  have hN : t.val < 10 := lt_of_lt_of_eq t.isLt N_6
  by_cases h0 : t.val = 0
  · have h1 : ¬t.val = 9 := by omega
    rw [Dat.leavesExact_idle (dat6 V c) 4 t (idleAt6_4 t (fun h => h1 ((hcond6_1 t).mp h))) (noFlush6_4 t (fun h => h1 ((hcond6_1 t).mp h)))]
    rw [Dat.leavesExact_idle (dat6 V c) 5 t (idleAt6_5 t (fun h => h1 ((hcond6_1 t).mp h))) (noFlush6_5 t (fun h => h1 ((hcond6_1 t).mp h)))]
    rw [accAt6_A V c t h0 h1]
    simp only [tileAt6, dif_pos h0, dif_neg h1]
    unfold out6_A_3 sout6_A_0 sout6_A_1; (try dsimp only)
    rw [PhiS6_castSucc V c t, PhiS6_zero V c _ _ h0, PhiA6_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t)).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _)
          · unfold owns; iexists _; isplitr
            swap; · iexact HS1
            ipureintro; exact View.read_writes_of_cover _ _ _ _ _ (scover6_A_1 c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_3 c _ _ _ _ _ _ _ _ _ _ _ _ _ _ _ _ _ _ _ _ _ _)
    isplitl [H4]; · iexists _; iexact H4
    iexists _; iexact H5
  · by_cases h1 : t.val = 9
    · rw [show (dat6 V c).leavesExact 4 t = owns (c : Thread nD τ) (ms6_4 t) fullShare ((dat6 V c).after 4 t) from by
        unfold Dat.leavesExact; rw [liveAt6_4_C t ((hcond6_1 t).mpr h1)], after6_4]
      rw [show (dat6 V c).leavesExact 5 t = owns (c : Thread nD τ) (ms6_5 t) fullShare ((dat6 V c).after 5 t) from by
        unfold Dat.leavesExact; rw [liveAt6_5_C t ((hcond6_1 t).mpr h1)], after6_5]
      rw [accAt6_C V c t h0 h1]
      simp only [tileAt6, meanAt6, varAt6, dif_neg h0, dif_pos h1]
      unfold out6_C_3 out6_C_4 out6_C_5 sout6_C_0 sout6_C_1; (try dsimp only)
      rw [PhiS6_castSucc V c t, PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _)
            · unfold owns; iexists _; isplitr
              swap; · iexact HS1
              ipureintro; exact View.read_writes_of_cover _ _ _ _ _ (scover6_C_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover6_C_4 c _ _ _ _ _ _ _ _ _ _ _ _ _ _ _ _ _ _ _ _ _ _ _ _)
      · unfold owns; iexists _; isplitr
        swap; · iexact H5
        ipureintro; exact View.read_writes_of_cover _ _ _ _ _ (cover6_C_5 c _ _ _ _ _ _ _ _ _ _ _ _ _ _ _ _ _ _ _ _ _ _ _ _)
    · rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [accAt6_B V c t h0 h1]
      simp only [tileAt6, dif_neg h0, dif_neg h1]
      unfold out6_B_3 sout6_B_0 sout6_B_1; (try dsimp only)
      rw [PhiS6_castSucc V c t, PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_B_3 c _ _ _ _ _ _ _ _ _ _ _ _ _ _ _ _ _ _ _ _ _ _ _ _)
      isplitl [H4]; · iexists _; iexact H4
      iexists _; iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the region's own buffers back at some contents. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.KernelIdeal.Gen

end
-- ==== Proof.IdealBn1.lean ====
/- Region 1 of the program: the normalising kernel, tile by tile.  At grid point t the body reads the tile's
   5000 rows of the pre-activation, the four rows [1,128] (column mean, column variance, scale, shift), and stores
   max((x − μ)·rsqrt(σ² + ε)·γ + β, 0) over the whole output tile.  Nothing is carried between points, so what each
   window's staging buffer holds after the body is a function of the point's input blocks alone. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or an
    earlier one did (the block's index has not moved since). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or an
    earlier one did (the block's index has not moved since). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or an
    earlier one did (the block's index has not moved since). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or an
    earlier one did (the block's index has not moved since). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetched it or an
    earlier one did (the block's index has not moved since). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole tile and the whole row, as the rectangles the body loads and stores through. -/
abbrev rT1 : Rect S5000x128 := Rect.unit (s := S5000x128) ![0, 0] S5000x128.size inb_S5000x128_S5000x128_0_0
abbrev rR1 : Rect S1x128 := Rect.unit (s := S1x128) ![0, 0] S1x128.size inb_S1x128_S1x128_0_0

/-- The output tile after the body: its one store, of the normalised tile, over the whole buffer. -/
def out1_5 (x0 : Vec F S5000x128 .f32) (x1 x2 x3 x4 : Vec F S1x128 .f32) : Vec F S5000x128 .f32 :=
  View.canon [⟨rT1, k1_pay1 (View.ld x0 rT1) (View.ld x1 rR1) (View.ld x2 rR1) (View.ld x3 rR1) (View.ld x4 rR1)⟩]

/-- The one store covers the output tile. -/
theorem cover1_5 (p0 : Vec F S5000x128 .f32) (y : S5000x128.Idx) :
    ∃ pc ∈ ([⟨rT1, p0⟩] : List (View.Piece (Elt F) S5000x128 .f32)), y ∈ pc.1.set :=
  View.cover_of_tiled [⟨rT1, p0⟩] S5000x128.size (by rfl) y

set_option maxHeartbeats 1000000 in
/-- The body on whole staging buffers, the five inputs' at their contents and the output's at anything, runs to the end
    leaving the inputs as they were and the output at `out1_5` of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this region on core `c`: the arrays as the region finds them; after the body at point `t` each
    input's buffer at its block and the output's at `out1_5` of the input blocks; nothing kept between points beyond
    the scoped rest and the generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Gen

end
-- ==== Proof.IdealBn3.lean ====
/- Region 3 of the program: the normalising kernel, tile by tile.  At grid point t the body reads the tile's
   5000 rows of the pre-activation, the four rows [1,128] (column mean, column variance, scale, shift), and stores
   max((x − μ)·rsqrt(σ² + ε)·γ + β, 0) over the whole output tile.  Nothing is carried between points, so what each
   window's staging buffer holds after the body is a function of the point's input blocks alone. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetched it or an
    earlier one did (the block's index has not moved since). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetched it or an
    earlier one did (the block's index has not moved since). -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetched it or an
    earlier one did (the block's index has not moved since). -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the point fetched it or an
    earlier one did (the block's index has not moved since). -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the point fetched it or an
    earlier one did (the block's index has not moved since). -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole tile and the whole row, as the rectangles the body loads and stores through. -/
abbrev rT3 : Rect S5000x128 := Rect.unit (s := S5000x128) ![0, 0] S5000x128.size inb_S5000x128_S5000x128_0_0
abbrev rR3 : Rect S1x128 := Rect.unit (s := S1x128) ![0, 0] S1x128.size inb_S1x128_S1x128_0_0

/-- The output tile after the body: its one store, of the normalised tile, over the whole buffer. -/
def out3_5 (x0 : Vec F S5000x128 .f32) (x1 x2 x3 x4 : Vec F S1x128 .f32) : Vec F S5000x128 .f32 :=
  View.canon [⟨rT3, k3_pay1 (View.ld x0 rT3) (View.ld x1 rR3) (View.ld x2 rR3) (View.ld x3 rR3) (View.ld x4 rR3)⟩]

/-- The one store covers the output tile. -/
theorem cover3_5 (p0 : Vec F S5000x128 .f32) (y : S5000x128.Idx) :
    ∃ pc ∈ ([⟨rT3, p0⟩] : List (View.Piece (Elt F) S5000x128 .f32)), y ∈ pc.1.set :=
  View.cover_of_tiled [⟨rT3, p0⟩] S5000x128.size (by rfl) y

set_option maxHeartbeats 1000000 in
/-- The body on whole staging buffers, the five inputs' at their contents and the output's at anything, runs to the end
    leaving the inputs as they were and the output at `out3_5` of them. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this region on core `c`: the arrays as the region finds them; after the body at point `t` each
    input's buffer at its block and the output's at `out3_5` of the input blocks; nothing kept between points beyond
    the scoped rest and the generator register; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Gen

end
-- ==== Proof.IdealBn5.lean ====
/- Region 5 of the program: the normalising kernel, tile by tile.  At grid point t the body reads the tile's
   5000 rows of the pre-activation, the four rows [1,128] (column mean, column variance, scale, shift), and stores
   max((x − μ)·rsqrt(σ² + ε)·γ + β, 0) over the whole output tile.  Nothing is carried between points, so what each
   window's staging buffer holds after the body is a function of the point's input blocks alone. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetched it or an
    earlier one did (the block's index has not moved since). -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetched it or an
    earlier one did (the block's index has not moved since). -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetched it or an
    earlier one did (the block's index has not moved since). -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetched it or an
    earlier one did (the block's index has not moved since). -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetched it or an
    earlier one did (the block's index has not moved since). -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole tile and the whole row, as the rectangles the body loads and stores through. -/
abbrev rT5 : Rect S5000x128 := Rect.unit (s := S5000x128) ![0, 0] S5000x128.size inb_S5000x128_S5000x128_0_0
abbrev rR5 : Rect S1x128 := Rect.unit (s := S1x128) ![0, 0] S1x128.size inb_S1x128_S1x128_0_0

/-- The output tile after the body: its one store, of the normalised tile, over the whole buffer. -/
def out5_5 (x0 : Vec F S5000x128 .f32) (x1 x2 x3 x4 : Vec F S1x128 .f32) : Vec F S5000x128 .f32 :=
  View.canon [⟨rT5, k5_pay1 (View.ld x0 rT5) (View.ld x1 rR5) (View.ld x2 rR5) (View.ld x3 rR5) (View.ld x4 rR5)⟩]

/-- The one store covers the output tile. -/
theorem cover5_5 (p0 : Vec F S5000x128 .f32) (y : S5000x128.Idx) :
    ∃ pc ∈ ([⟨rT5, p0⟩] : List (View.Piece (Elt F) S5000x128 .f32)), y ∈ pc.1.set :=
  View.cover_of_tiled [⟨rT5, p0⟩] S5000x128.size (by rfl) y

set_option maxHeartbeats 1000000 in
/-- The body on whole staging buffers, the five inputs' at their contents and the output's at anything, runs to the end
    leaving the inputs as they were and the output at `out5_5` of them. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this region on core `c`: the arrays as the region finds them; after the body at point `t` each
    input's buffer at its block and the output's at `out5_5` of the input blocks; nothing kept between points beyond
    the scoped rest and the generator register; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Gen

end
-- ==== Proof.IdealAtom7.lean ====
/- Region 7 of the program: the normalising kernel followed by the output projection, tile by tile.  At grid point t
   the body reads the tile's 5000 rows of the pre-activation, the four rows [1,128] (column mean, column variance, scale,
   shift), the [128,128] weight, the bias row [1,128] and the tile's [5000,1] row mask, and stores
   (bf16(max((x − μ)·rsqrt(σ² + ε)·γ + β, 0)) · bf16(W)ᵀ + b) · mask over the whole output tile.  Nothing is carried
   between points, so what each window's staging buffer holds after the body is a function of the point's input blocks
   alone. -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or an
    earlier one did (the block's index has not moved since). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or an
    earlier one did (the block's index has not moved since). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or an
    earlier one did (the block's index has not moved since). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or an
    earlier one did (the block's index has not moved since). -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether the point fetched it or an
    earlier one did (the block's index has not moved since). -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether the point fetched it or an
    earlier one did (the block's index has not moved since). -/
theorem before7_5_of {c : Dev nD} (dat : Dat τ (Elt F) Unit ℕ (Pipeline.UD sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, whether the point fetched it or an
    earlier one did (the block's index has not moved since). -/
theorem before7_6_of {c : Dev nD} (dat : Dat τ (Elt F) Unit ℕ (Pipeline.UD sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, whether the point fetched it or an
    earlier one did (the block's index has not moved since). -/
theorem before7_7_of {c : Dev nD} (dat : Dat τ (Elt F) Unit ℕ (Pipeline.UD sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- The whole tile, the whole row, the whole weight and the whole mask column, as the rectangles the body loads and
    stores through. -/
abbrev rT7 : Rect S5000x128 := Rect.unit (s := S5000x128) ![0, 0] S5000x128.size inb_S5000x128_S5000x128_0_0
abbrev rR7 : Rect S1x128 := Rect.unit (s := S1x128) ![0, 0] S1x128.size inb_S1x128_S1x128_0_0
abbrev rW7 : Rect S128x128 := Rect.unit (s := S128x128) ![0, 0] S128x128.size inb_S128x128_S128x128_0_0
abbrev rC7 : Rect S5000x1 := Rect.unit (s := S5000x1) ![0, 0] S5000x1.size inb_S5000x1_S5000x1_0_0

/-- The output tile after the body: its one store, of the projected and masked tile, over the whole buffer. -/
def out7_8 (x0 : Vec F S5000x128 .f32) (x1 x2 x3 x4 : Vec F S1x128 .f32) (x5 : Vec F S128x128 .f32) (x6 : Vec F S1x128 .f32) (x7 : Vec F S5000x1 .f32) : Vec F S5000x128 .f32 :=
  View.canon [⟨rT7, k7_pay1 (View.ld x0 rT7) (View.ld x1 rR7) (View.ld x2 rR7) (View.ld x3 rR7) (View.ld x4 rR7) (View.ld x5 rW7) (View.ld x6 rR7) (View.ld x7 rC7)⟩]

/-- The one store covers the output tile. -/
theorem cover7_8 (p0 : Vec F S5000x128 .f32) (y : S5000x128.Idx) :
    ∃ pc ∈ ([⟨rT7, p0⟩] : List (View.Piece (Elt F) S5000x128 .f32)), y ∈ pc.1.set :=
  View.cover_of_tiled [⟨rT7, p0⟩] S5000x128.size (by rfl) y

set_option maxHeartbeats 1000000 in
/-- The body on whole staging buffers, the eight inputs' at their contents and the output's at anything, runs to the end
    leaving the inputs as they were and the output at `out7_8` of them. -/
theorem sound_kernel7 (c : Dev nD) (E : Set ℕ) (i : grid7.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x1 .f32) (harg8 : arg8.IsWhole) (arg9 : Memref sig .tc .vmem S5000x128 .f32) (harg9 : arg9.IsWhole)
    (x0 : Vec F S5000x128 .f32) (x1 x2 x3 x4 : Vec F S1x128 .f32) (x5 : Vec F S128x128 .f32) (x6 : Vec F S1x128 .f32) (x7 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out7_8 x0 x1 x2 x3 x4 x5 x6 x7)) -∗ K ⟨⟩))
      ⊢ wp frame (wpE (defs₀ (F := F)) Variants.none c none) E (cc7__bn_relu_atom_kernel i arg1 harg1 arg2 harg2 arg3 harg3 arg4 harg4 arg5 harg5 arg6 harg6 arg7 harg7 arg8 harg8 arg9 harg9) K := by
  simp only [cc7__bn_relu_atom_kernel_eq_skeleton]; unfold cc7__bn_relu_atom_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7_8 _)

/-- The proof data of this region on core `c`: the arrays as the region finds them; after the body at point `t` each
    input's buffer at its block and the output's at `out7_8` of the input blocks; nothing kept between points beyond
    the scoped rest and the generator register; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t) (iblk7 V c 6 t) (iblk7 V c 7 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) (iblk7 V c 6 t) (iblk7 V c 7 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t))

/-- The body at any point: the inputs' buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ (grid7.coords t) _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Gen

end
-- ==== Proof.IdealFrame.lean ====
/- The frame of the program: the eight kernel regions as segments of @main between its host stretches.

   Between two items each core holds every unscoped buffer whole, at contents that start from the launch memory, change by
   a host stretch as its operations compute, and change by a region only at that region's output arrays.  The contents a
   region leaves there are what its pipeline leaves: every output's write-backs, tile by tile, folded over the array it
   was entered with.  A region is entered at contents that depend on the earlier regions' outputs only, so the choice is
   made region by region, in program order.  With it each region's record closes: its arrays are split out of the unscoped
   buffers at entry and rejoined at exit, an input array unchanged and an output array as chosen; the generator register
   and the core's dues (none) ride along.  No item writes an argument array, so each ends as launched. -/
import proofs.«180021_j37692632990117_2_alg».proof.Proof.Gen.KernelIdeal.Regions
import proofs.«180021_j37692632990117_2_alg».proof.Proof.IdealStats0Body
import proofs.«180021_j37692632990117_2_alg».proof.Proof.IdealStats2Body
import proofs.«180021_j37692632990117_2_alg».proof.Proof.IdealStats4Body
import proofs.«180021_j37692632990117_2_alg».proof.Proof.IdealStats6Body
import proofs.«180021_j37692632990117_2_alg».proof.Proof.IdealBn1
import proofs.«180021_j37692632990117_2_alg».proof.Proof.IdealBn3
import proofs.«180021_j37692632990117_2_alg».proof.Proof.IdealBn5
import proofs.«180021_j37692632990117_2_alg».proof.Proof.IdealAtom7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

/-! ## What the regions leave: the unknowns of the conditional frame, chosen region by region

Region K is entered at the contents the items before it leave, which read the unknowns only at earlier regions' exits;
so the choice is made in stages, stage K+1 extending stage K at region K's exit item with the arrays as region K's
pipeline leaves them (each output's write-backs folded, the inputs as entered). -/

/-- One more stage: at item `J₀` the contents `W`, elsewhere the stage before. -/
def outsExt (prev : Outs (F := F)) (J₀ : ℕ) (W : Dev nD → Valuation τ sig (Elt F)) : Outs (F := F) :=
  fun J r c => if J = J₀ then W c r else prev J r c
theorem outsExt_at (prev : Outs (F := F)) (J₀ : ℕ) (W : Dev nD → Valuation τ sig (Elt F)) (r : Ref sig .tc) (c : Dev nD) :
    outsExt prev J₀ W J₀ r c = W c r := if_pos rfl
theorem outsExt_of_ne (prev : Outs (F := F)) (J₀ : ℕ) (W : Dev nD → Valuation τ sig (Elt F)) {J : ℕ} (h : J ≠ J₀) (r : Ref sig .tc) (c : Dev nD) :
    outsExt prev J₀ W J r c = prev J r c := if_neg h

/-! ### The contents between items read the unknowns only at the exits before them -/

theorem V5_congr {o o' : Outs (F := F)} (h : ∀ J, J ≤ 4 → ∀ r c, o J r c = o' J r c) (c : Dev nD) : V5 m o c = V5 m o' c := by
  show StableHlo.after hostOps1 (Function.update (Function.update (Function.update (V3 m c) main_v34_0 (o 4 main_v34_0 c)) main_v34_1 (o 4 main_v34_1 c)) main_v34_2 (o 4 main_v34_2 c)) = StableHlo.after hostOps1 (Function.update (Function.update (Function.update (V3 m c) main_v34_0 (o' 4 main_v34_0 c)) main_v34_1 (o' 4 main_v34_1 c)) main_v34_2 (o' 4 main_v34_2 c))
  rw [h 4 le_rfl main_v34_0 c, h 4 le_rfl main_v34_1 c, h 4 le_rfl main_v34_2 c]
theorem V7_congr {o o' : Outs (F := F)} (h : ∀ J, J ≤ 6 → ∀ r c, o J r c = o' J r c) (c : Dev nD) : V7 m o c = V7 m o' c := by
  show StableHlo.after hostOps2 (Function.update (V5 m o c) main_v45 (o 6 main_v45 c)) = StableHlo.after hostOps2 (Function.update (V5 m o' c) main_v45 (o' 6 main_v45 c))
  rw [V5_congr m (fun J hJ => h J (by omega)) c, h 6 le_rfl main_v45 c]
theorem V9_congr {o o' : Outs (F := F)} (h : ∀ J, J ≤ 8 → ∀ r c, o J r c = o' J r c) (c : Dev nD) : V9 m o c = V9 m o' c := by
  show StableHlo.after hostOps3 (Function.update (Function.update (Function.update (V7 m o c) main_v65_0 (o 8 main_v65_0 c)) main_v65_1 (o 8 main_v65_1 c)) main_v65_2 (o 8 main_v65_2 c)) = StableHlo.after hostOps3 (Function.update (Function.update (Function.update (V7 m o' c) main_v65_0 (o' 8 main_v65_0 c)) main_v65_1 (o' 8 main_v65_1 c)) main_v65_2 (o' 8 main_v65_2 c))
  rw [V7_congr m (fun J hJ => h J (by omega)) c, h 8 le_rfl main_v65_0 c, h 8 le_rfl main_v65_1 c, h 8 le_rfl main_v65_2 c]
theorem V11_congr {o o' : Outs (F := F)} (h : ∀ J, J ≤ 10 → ∀ r c, o J r c = o' J r c) (c : Dev nD) : V11 m o c = V11 m o' c := by
  show StableHlo.after hostOps4 (Function.update (V9 m o c) main_v76 (o 10 main_v76 c)) = StableHlo.after hostOps4 (Function.update (V9 m o' c) main_v76 (o' 10 main_v76 c))
  rw [V9_congr m (fun J hJ => h J (by omega)) c, h 10 le_rfl main_v76 c]
theorem V13_congr {o o' : Outs (F := F)} (h : ∀ J, J ≤ 12 → ∀ r c, o J r c = o' J r c) (c : Dev nD) : V13 m o c = V13 m o' c := by
  show StableHlo.after hostOps5 (Function.update (Function.update (Function.update (V11 m o c) main_v96_0 (o 12 main_v96_0 c)) main_v96_1 (o 12 main_v96_1 c)) main_v96_2 (o 12 main_v96_2 c)) = StableHlo.after hostOps5 (Function.update (Function.update (Function.update (V11 m o' c) main_v96_0 (o' 12 main_v96_0 c)) main_v96_1 (o' 12 main_v96_1 c)) main_v96_2 (o' 12 main_v96_2 c))
  rw [V11_congr m (fun J hJ => h J (by omega)) c, h 12 le_rfl main_v96_0 c, h 12 le_rfl main_v96_1 c, h 12 le_rfl main_v96_2 c]
theorem V15_congr {o o' : Outs (F := F)} (h : ∀ J, J ≤ 14 → ∀ r c, o J r c = o' J r c) (c : Dev nD) : V15 m o c = V15 m o' c := by
  show StableHlo.after hostOps6 (Function.update (V13 m o c) main_v107 (o 14 main_v107 c)) = StableHlo.after hostOps6 (Function.update (V13 m o' c) main_v107 (o' 14 main_v107 c))
  rw [V13_congr m (fun J hJ => h J (by omega)) c, h 14 le_rfl main_v107 c]
theorem V17_congr {o o' : Outs (F := F)} (h : ∀ J, J ≤ 16 → ∀ r c, o J r c = o' J r c) (c : Dev nD) : V17 m o c = V17 m o' c := by
  show StableHlo.after hostOps7 (Function.update (Function.update (Function.update (V15 m o c) main_v116_0 (o 16 main_v116_0 c)) main_v116_1 (o 16 main_v116_1 c)) main_v116_2 (o 16 main_v116_2 c)) = StableHlo.after hostOps7 (Function.update (Function.update (Function.update (V15 m o' c) main_v116_0 (o' 16 main_v116_0 c)) main_v116_1 (o' 16 main_v116_1 c)) main_v116_2 (o' 16 main_v116_2 c))
  rw [V15_congr m (fun J hJ => h J (by omega)) c, h 16 le_rfl main_v116_0 c, h 16 le_rfl main_v116_1 c, h 16 le_rfl main_v116_2 c]

/-! ### The stages -/

/-- Before any region: nothing is read of it. -/
def outsUpTo0 : Outs (F := F) := fun _ r c => V0 m c r

/-- What region 0's pipeline leaves when entered at the contents `Ve`: its arrays at what the pipeline leaves (the inputs
    as entered, each output's write-backs folded), every other buffer as entered. -/
def exitOf0 (Ve : Dev nD → Valuation τ sig (Elt F)) (c : Dev nD) : Valuation τ sig (Elt F) :=
  Pipeline.withArrays spec0 c (Ve c) fun w => (dat0 (fun c b => Ve c b) c).arrAt w cfg0.N
def outsUpTo1 : Outs (F := F) := outsExt (outsUpTo0 m) 4 (exitOf0 (V3 m))

/-- What region 1's pipeline leaves when entered at the contents `Ve`: its arrays at what the pipeline leaves (the inputs
    as entered, each output's write-backs folded), every other buffer as entered. -/
def exitOf1 (Ve : Dev nD → Valuation τ sig (Elt F)) (c : Dev nD) : Valuation τ sig (Elt F) :=
  Pipeline.withArrays spec1 c (Ve c) fun w => (dat1 (fun c b => Ve c b) c).arrAt w cfg1.N
def outsUpTo2 : Outs (F := F) := outsExt (outsUpTo1 m) 6 (exitOf1 (V5 m (outsUpTo1 m)))

/-- What region 2's pipeline leaves when entered at the contents `Ve`: its arrays at what the pipeline leaves (the inputs
    as entered, each output's write-backs folded), every other buffer as entered. -/
def exitOf2 (Ve : Dev nD → Valuation τ sig (Elt F)) (c : Dev nD) : Valuation τ sig (Elt F) :=
  Pipeline.withArrays spec2 c (Ve c) fun w => (dat2 (fun c b => Ve c b) c).arrAt w cfg2.N
def outsUpTo3 : Outs (F := F) := outsExt (outsUpTo2 m) 8 (exitOf2 (V7 m (outsUpTo2 m)))

/-- What region 3's pipeline leaves when entered at the contents `Ve`: its arrays at what the pipeline leaves (the inputs
    as entered, each output's write-backs folded), every other buffer as entered. -/
def exitOf3 (Ve : Dev nD → Valuation τ sig (Elt F)) (c : Dev nD) : Valuation τ sig (Elt F) :=
  Pipeline.withArrays spec3 c (Ve c) fun w => (dat3 (fun c b => Ve c b) c).arrAt w cfg3.N
def outsUpTo4 : Outs (F := F) := outsExt (outsUpTo3 m) 10 (exitOf3 (V9 m (outsUpTo3 m)))

/-- What region 4's pipeline leaves when entered at the contents `Ve`: its arrays at what the pipeline leaves (the inputs
    as entered, each output's write-backs folded), every other buffer as entered. -/
def exitOf4 (Ve : Dev nD → Valuation τ sig (Elt F)) (c : Dev nD) : Valuation τ sig (Elt F) :=
  Pipeline.withArrays spec4 c (Ve c) fun w => (dat4 (fun c b => Ve c b) c).arrAt w cfg4.N
def outsUpTo5 : Outs (F := F) := outsExt (outsUpTo4 m) 12 (exitOf4 (V11 m (outsUpTo4 m)))

/-- What region 5's pipeline leaves when entered at the contents `Ve`: its arrays at what the pipeline leaves (the inputs
    as entered, each output's write-backs folded), every other buffer as entered. -/
def exitOf5 (Ve : Dev nD → Valuation τ sig (Elt F)) (c : Dev nD) : Valuation τ sig (Elt F) :=
  Pipeline.withArrays spec5 c (Ve c) fun w => (dat5 (fun c b => Ve c b) c).arrAt w cfg5.N
def outsUpTo6 : Outs (F := F) := outsExt (outsUpTo5 m) 14 (exitOf5 (V13 m (outsUpTo5 m)))

/-- What region 6's pipeline leaves when entered at the contents `Ve`: its arrays at what the pipeline leaves (the inputs
    as entered, each output's write-backs folded), every other buffer as entered. -/
def exitOf6 (Ve : Dev nD → Valuation τ sig (Elt F)) (c : Dev nD) : Valuation τ sig (Elt F) :=
  Pipeline.withArrays spec6 c (Ve c) fun w => (dat6 (fun c b => Ve c b) c).arrAt w cfg6.N
def outsUpTo7 : Outs (F := F) := outsExt (outsUpTo6 m) 16 (exitOf6 (V15 m (outsUpTo6 m)))

/-- What region 7's pipeline leaves when entered at the contents `Ve`: its arrays at what the pipeline leaves (the inputs
    as entered, each output's write-backs folded), every other buffer as entered. -/
def exitOf7 (Ve : Dev nD → Valuation τ sig (Elt F)) (c : Dev nD) : Valuation τ sig (Elt F) :=
  Pipeline.withArrays spec7 c (Ve c) fun w => (dat7 (fun c b => Ve c b) c).arrAt w cfg7.N
def outsUpTo8 : Outs (F := F) := outsExt (outsUpTo7 m) 18 (exitOf7 (V17 m (outsUpTo7 m)))

/-- The regions' exits, all stages. -/
def outsAll : Outs (F := F) := outsUpTo8 m

/-! ### The last stage agrees with stage K+1 up to region K's exit -/

theorem outsAll_le_4 {J : ℕ} (h : J ≤ 4) (r : Ref sig .tc) (c : Dev nD) : outsAll m J r c = outsUpTo1 m J r c := by
  unfold outsAll outsUpTo8 outsUpTo7 outsUpTo6 outsUpTo5 outsUpTo4 outsUpTo3 outsUpTo2
  rw [outsExt_of_ne _ _ _ (by omega), outsExt_of_ne _ _ _ (by omega), outsExt_of_ne _ _ _ (by omega), outsExt_of_ne _ _ _ (by omega), outsExt_of_ne _ _ _ (by omega), outsExt_of_ne _ _ _ (by omega), outsExt_of_ne _ _ _ (by omega)]
theorem outsAll_le_6 {J : ℕ} (h : J ≤ 6) (r : Ref sig .tc) (c : Dev nD) : outsAll m J r c = outsUpTo2 m J r c := by
  unfold outsAll outsUpTo8 outsUpTo7 outsUpTo6 outsUpTo5 outsUpTo4 outsUpTo3
  rw [outsExt_of_ne _ _ _ (by omega), outsExt_of_ne _ _ _ (by omega), outsExt_of_ne _ _ _ (by omega), outsExt_of_ne _ _ _ (by omega), outsExt_of_ne _ _ _ (by omega), outsExt_of_ne _ _ _ (by omega)]
theorem outsAll_le_8 {J : ℕ} (h : J ≤ 8) (r : Ref sig .tc) (c : Dev nD) : outsAll m J r c = outsUpTo3 m J r c := by
  unfold outsAll outsUpTo8 outsUpTo7 outsUpTo6 outsUpTo5 outsUpTo4
  rw [outsExt_of_ne _ _ _ (by omega), outsExt_of_ne _ _ _ (by omega), outsExt_of_ne _ _ _ (by omega), outsExt_of_ne _ _ _ (by omega), outsExt_of_ne _ _ _ (by omega)]
theorem outsAll_le_10 {J : ℕ} (h : J ≤ 10) (r : Ref sig .tc) (c : Dev nD) : outsAll m J r c = outsUpTo4 m J r c := by
  unfold outsAll outsUpTo8 outsUpTo7 outsUpTo6 outsUpTo5
  rw [outsExt_of_ne _ _ _ (by omega), outsExt_of_ne _ _ _ (by omega), outsExt_of_ne _ _ _ (by omega), outsExt_of_ne _ _ _ (by omega)]
theorem outsAll_le_12 {J : ℕ} (h : J ≤ 12) (r : Ref sig .tc) (c : Dev nD) : outsAll m J r c = outsUpTo5 m J r c := by
  unfold outsAll outsUpTo8 outsUpTo7 outsUpTo6
  rw [outsExt_of_ne _ _ _ (by omega), outsExt_of_ne _ _ _ (by omega), outsExt_of_ne _ _ _ (by omega)]
theorem outsAll_le_14 {J : ℕ} (h : J ≤ 14) (r : Ref sig .tc) (c : Dev nD) : outsAll m J r c = outsUpTo6 m J r c := by
  unfold outsAll outsUpTo8 outsUpTo7
  rw [outsExt_of_ne _ _ _ (by omega), outsExt_of_ne _ _ _ (by omega)]
theorem outsAll_le_16 {J : ℕ} (h : J ≤ 16) (r : Ref sig .tc) (c : Dev nD) : outsAll m J r c = outsUpTo7 m J r c := by
  unfold outsAll outsUpTo8
  rw [outsExt_of_ne _ _ _ (by omega)]

/-! ### At region K's exit item the choice is what region K's pipeline leaves from its entry contents -/

theorem outsAll_4 (r : Ref sig .tc) (c : Dev nD) : outsAll m 4 r c = exitOf0 (V3 m) c r := by
  rw [outsAll_le_4 m le_rfl]; unfold outsUpTo1; rw [outsExt_at]
theorem outsAll_6 (r : Ref sig .tc) (c : Dev nD) : outsAll m 6 r c = exitOf1 (V5 m (outsAll m)) c r := by
  rw [outsAll_le_6 m le_rfl]; unfold outsUpTo2; rw [outsExt_at]
  rw [show V5 m (outsUpTo1 m) = V5 m (outsAll m) from funext fun c => (V5_congr m (fun J hJ r c => outsAll_le_4 m hJ r c) c).symm]
theorem outsAll_8 (r : Ref sig .tc) (c : Dev nD) : outsAll m 8 r c = exitOf2 (V7 m (outsAll m)) c r := by
  rw [outsAll_le_8 m le_rfl]; unfold outsUpTo3; rw [outsExt_at]
  rw [show V7 m (outsUpTo2 m) = V7 m (outsAll m) from funext fun c => (V7_congr m (fun J hJ r c => outsAll_le_6 m hJ r c) c).symm]
theorem outsAll_10 (r : Ref sig .tc) (c : Dev nD) : outsAll m 10 r c = exitOf3 (V9 m (outsAll m)) c r := by
  rw [outsAll_le_10 m le_rfl]; unfold outsUpTo4; rw [outsExt_at]
  rw [show V9 m (outsUpTo3 m) = V9 m (outsAll m) from funext fun c => (V9_congr m (fun J hJ r c => outsAll_le_8 m hJ r c) c).symm]
theorem outsAll_12 (r : Ref sig .tc) (c : Dev nD) : outsAll m 12 r c = exitOf4 (V11 m (outsAll m)) c r := by
  rw [outsAll_le_12 m le_rfl]; unfold outsUpTo5; rw [outsExt_at]
  rw [show V11 m (outsUpTo4 m) = V11 m (outsAll m) from funext fun c => (V11_congr m (fun J hJ r c => outsAll_le_10 m hJ r c) c).symm]
theorem outsAll_14 (r : Ref sig .tc) (c : Dev nD) : outsAll m 14 r c = exitOf5 (V13 m (outsAll m)) c r := by
  rw [outsAll_le_14 m le_rfl]; unfold outsUpTo6; rw [outsExt_at]
  rw [show V13 m (outsUpTo5 m) = V13 m (outsAll m) from funext fun c => (V13_congr m (fun J hJ r c => outsAll_le_12 m hJ r c) c).symm]
theorem outsAll_16 (r : Ref sig .tc) (c : Dev nD) : outsAll m 16 r c = exitOf6 (V15 m (outsAll m)) c r := by
  rw [outsAll_le_16 m le_rfl]; unfold outsUpTo7; rw [outsExt_at]
  rw [show V15 m (outsUpTo6 m) = V15 m (outsAll m) from funext fun c => (V15_congr m (fun J hJ r c => outsAll_le_14 m hJ r c) c).symm]
theorem outsAll_18 (r : Ref sig .tc) (c : Dev nD) : outsAll m 18 r c = exitOf7 (V17 m (outsAll m)) c r := by
  have h : outsAll m 18 r c = exitOf7 (V17 m (outsUpTo7 m)) c r := by unfold outsAll outsUpTo8; rw [outsExt_at]
  rw [h, show V17 m (outsUpTo7 m) = V17 m (outsAll m) from funext fun c => (V17_congr m (fun J hJ r c => outsAll_le_16 m hJ r c) c).symm]

/-! ## The regions' entry and exit contents at the TensorCore's references, and the two facts the exit takes -/

/-- Region 0's entry contents and its exit contents. -/
abbrev ent0 : (c : Dev nD) → (b : Ref sig .tc) → Buf (Elt F) ((c : Thread nD τ).loc b) := fun c b => V3 m c b
abbrev ext0 : (c : Dev nD) → (b : Ref sig .tc) → Buf (Elt F) ((c : Thread nD τ).loc b) := fun c b => V4 m (outsAll m) c b
/-- An input window's array: held as entered through the pipeline, and no output of the region. -/
theorem ext0_in (c : Dev nD) (w : Fin cfg0.W) (hin : (cfg0.win w).isOut = false)
    (hne : Pipeline.arrRef spec0 w ∉ ([main_v34_0, main_v34_1, main_v34_2] : List (Ref sig .tc))) :
    (dat0 (ent0 m) c).arrAt w cfg0.N = ext0 m c (Pipeline.arrRef spec0 w) := by
  rw [(dat0 (ent0 m) c).arrAt_in w hin, A_eq0]
  exact (V4_of m (outsAll m) c _ hne).symm
/-- Output window 5's array: the choice made at this region's exit item. -/
theorem ext0_out_5 (c : Dev nD) : (dat0 (ent0 m) c).arrAt 5 cfg0.N = ext0 m c (Pipeline.arrRef spec0 5) := by
  have h1 : V4 m (outsAll m) c main_v34_0 = outsAll m 4 main_v34_0 c := (Function.update_of_ne (StableHlo.devRef_ne_of_ne (by decide : (main_v34_0 : Ref sig .tc) ≠ main_v34_2) : (Proc.devRef .tc main_v34_0 : DevRef τ sig) ≠ Proc.devRef .tc main_v34_2) _ _).trans ((Function.update_of_ne (StableHlo.devRef_ne_of_ne (by decide : (main_v34_0 : Ref sig .tc) ≠ main_v34_1) : (Proc.devRef .tc main_v34_0 : DevRef τ sig) ≠ Proc.devRef .tc main_v34_1) _ _).trans (Function.update_self _ _ _))
  have h2 : exitOf0 (V3 m) c (Proc.devRef .tc (Pipeline.arrRef spec0 5)) = (dat0 (ent0 m) c).arrAt 5 cfg0.N := by
    unfold exitOf0; exact Pipeline.withArrays_arr spec0 launch0.win.arr_inj c _ _ 5
  exact (h1.trans ((outsAll_4 m main_v34_0 c).trans h2)).symm
/-- Output window 6's array: the choice made at this region's exit item. -/
theorem ext0_out_6 (c : Dev nD) : (dat0 (ent0 m) c).arrAt 6 cfg0.N = ext0 m c (Pipeline.arrRef spec0 6) := by
  have h1 : V4 m (outsAll m) c main_v34_1 = outsAll m 4 main_v34_1 c := (Function.update_of_ne (StableHlo.devRef_ne_of_ne (by decide : (main_v34_1 : Ref sig .tc) ≠ main_v34_2) : (Proc.devRef .tc main_v34_1 : DevRef τ sig) ≠ Proc.devRef .tc main_v34_2) _ _).trans (Function.update_self _ _ _)
  have h2 : exitOf0 (V3 m) c (Proc.devRef .tc (Pipeline.arrRef spec0 6)) = (dat0 (ent0 m) c).arrAt 6 cfg0.N := by
    unfold exitOf0; exact Pipeline.withArrays_arr spec0 launch0.win.arr_inj c _ _ 6
  exact (h1.trans ((outsAll_4 m main_v34_1 c).trans h2)).symm
/-- Output window 7's array: the choice made at this region's exit item. -/
theorem ext0_out_7 (c : Dev nD) : (dat0 (ent0 m) c).arrAt 7 cfg0.N = ext0 m c (Pipeline.arrRef spec0 7) := by
  have h1 : V4 m (outsAll m) c main_v34_2 = outsAll m 4 main_v34_2 c := Function.update_self _ _ _
  have h2 : exitOf0 (V3 m) c (Proc.devRef .tc (Pipeline.arrRef spec0 7)) = (dat0 (ent0 m) c).arrAt 7 cfg0.N := by
    unfold exitOf0; exact Pipeline.withArrays_arr spec0 launch0.win.arr_inj c _ _ 7
  exact (h1.trans ((outsAll_4 m main_v34_2 c).trans h2)).symm
/-- At region 0's exit each of its arrays holds what the pipeline leaves, -/
theorem hF0 (c : Dev nD) (w : Fin cfg0.W) : (dat0 (ent0 m) c).arrAt w cfg0.N = ext0 m c (Pipeline.arrRef spec0 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact ext0_in m c 0 rfl (by decide)
  · exact ext0_in m c 1 rfl (by decide)
  · exact ext0_in m c 2 rfl (by decide)
  · exact ext0_in m c 3 rfl (by decide)
  · exact ext0_in m c 4 rfl (by decide)
  · exact ext0_out_5 m c
  · exact ext0_out_6 m c
  · exact ext0_out_7 m c
/-- and every buffer that is none of its arrays what it held at entry. -/
theorem hrest0 (c : Dev nD) : ∀ b, b ∉ Finset.univ.image (Pipeline.arrRef spec0) → ext0 m c b = ent0 m c b :=
  fun b hb => V4_of m (outsAll m) c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_singleton.mp hmem with rfl
    exact Finset.mem_image.mpr ⟨7, Finset.mem_univ _, rfl⟩)

/-- Region 1's entry contents and its exit contents. -/
abbrev ent1 : (c : Dev nD) → (b : Ref sig .tc) → Buf (Elt F) ((c : Thread nD τ).loc b) := fun c b => V5 m (outsAll m) c b
abbrev ext1 : (c : Dev nD) → (b : Ref sig .tc) → Buf (Elt F) ((c : Thread nD τ).loc b) := fun c b => V6 m (outsAll m) c b
/-- An input window's array: held as entered through the pipeline, and no output of the region. -/
theorem ext1_in (c : Dev nD) (w : Fin cfg1.W) (hin : (cfg1.win w).isOut = false)
    (hne : Pipeline.arrRef spec1 w ∉ ([main_v45] : List (Ref sig .tc))) :
    (dat1 (ent1 m) c).arrAt w cfg1.N = ext1 m c (Pipeline.arrRef spec1 w) := by
  rw [(dat1 (ent1 m) c).arrAt_in w hin, A_eq1]
  exact (V6_of m (outsAll m) c _ hne).symm
/-- Output window 5's array: the choice made at this region's exit item. -/
theorem ext1_out_5 (c : Dev nD) : (dat1 (ent1 m) c).arrAt 5 cfg1.N = ext1 m c (Pipeline.arrRef spec1 5) := by
  have h1 : V6 m (outsAll m) c main_v45 = outsAll m 6 main_v45 c := Function.update_self _ _ _
  have h2 : exitOf1 (V5 m (outsAll m)) c (Proc.devRef .tc (Pipeline.arrRef spec1 5)) = (dat1 (ent1 m) c).arrAt 5 cfg1.N := by
    unfold exitOf1; exact Pipeline.withArrays_arr spec1 launch1.win.arr_inj c _ _ 5
  exact (h1.trans ((outsAll_6 m main_v45 c).trans h2)).symm
/-- At region 1's exit each of its arrays holds what the pipeline leaves, -/
theorem hF1 (c : Dev nD) (w : Fin cfg1.W) : (dat1 (ent1 m) c).arrAt w cfg1.N = ext1 m c (Pipeline.arrRef spec1 w) := by
  have h : w = 0 ∨ w = 1 ∨ w = 2 ∨ w = 3 ∨ w = 4 ∨ w = 5 := by revert w; decide
  rcases h with rfl | rfl | rfl | rfl | rfl | rfl
  · exact ext1_in m c 0 rfl (by decide)
  · exact ext1_in m c 1 rfl (by decide)
  · exact ext1_in m c 2 rfl (by decide)
  · exact ext1_in m c 3 rfl (by decide)
  · exact ext1_in m c 4 rfl (by decide)
  · exact ext1_out_5 m c
/-- and every buffer that is none of its arrays what it held at entry. -/
theorem hrest1 (c : Dev nD) : ∀ b, b ∉ Finset.univ.image (Pipeline.arrRef spec1) → ext1 m c b = ent1 m c b :=
  fun b hb => V6_of m (outsAll m) c b fun hmem => hb (by
    rcases List.mem_singleton.mp hmem with rfl
    exact Finset.mem_image.mpr ⟨5, Finset.mem_univ _, rfl⟩)

/-- Region 2's entry contents and its exit contents. -/
abbrev ent2 : (c : Dev nD) → (b : Ref sig .tc) → Buf (Elt F) ((c : Thread nD τ).loc b) := fun c b => V7 m (outsAll m) c b
abbrev ext2 : (c : Dev nD) → (b : Ref sig .tc) → Buf (Elt F) ((c : Thread nD τ).loc b) := fun c b => V8 m (outsAll m) c b
/-- An input window's array: held as entered through the pipeline, and no output of the region. -/
theorem ext2_in (c : Dev nD) (w : Fin cfg2.W) (hin : (cfg2.win w).isOut = false)
    (hne : Pipeline.arrRef spec2 w ∉ ([main_v65_0, main_v65_1, main_v65_2] : List (Ref sig .tc))) :
    (dat2 (ent2 m) c).arrAt w cfg2.N = ext2 m c (Pipeline.arrRef spec2 w) := by
  rw [(dat2 (ent2 m) c).arrAt_in w hin, A_eq2]
  exact (V8_of m (outsAll m) c _ hne).symm
/-- Output window 5's array: the choice made at this region's exit item. -/
theorem ext2_out_5 (c : Dev nD) : (dat2 (ent2 m) c).arrAt 5 cfg2.N = ext2 m c (Pipeline.arrRef spec2 5) := by
  have h1 : V8 m (outsAll m) c main_v65_0 = outsAll m 8 main_v65_0 c := (Function.update_of_ne (StableHlo.devRef_ne_of_ne (by decide : (main_v65_0 : Ref sig .tc) ≠ main_v65_2) : (Proc.devRef .tc main_v65_0 : DevRef τ sig) ≠ Proc.devRef .tc main_v65_2) _ _).trans ((Function.update_of_ne (StableHlo.devRef_ne_of_ne (by decide : (main_v65_0 : Ref sig .tc) ≠ main_v65_1) : (Proc.devRef .tc main_v65_0 : DevRef τ sig) ≠ Proc.devRef .tc main_v65_1) _ _).trans (Function.update_self _ _ _))
  have h2 : exitOf2 (V7 m (outsAll m)) c (Proc.devRef .tc (Pipeline.arrRef spec2 5)) = (dat2 (ent2 m) c).arrAt 5 cfg2.N := by
    unfold exitOf2; exact Pipeline.withArrays_arr spec2 launch2.win.arr_inj c _ _ 5
  exact (h1.trans ((outsAll_8 m main_v65_0 c).trans h2)).symm
/-- Output window 6's array: the choice made at this region's exit item. -/
theorem ext2_out_6 (c : Dev nD) : (dat2 (ent2 m) c).arrAt 6 cfg2.N = ext2 m c (Pipeline.arrRef spec2 6) := by
  have h1 : V8 m (outsAll m) c main_v65_1 = outsAll m 8 main_v65_1 c := (Function.update_of_ne (StableHlo.devRef_ne_of_ne (by decide : (main_v65_1 : Ref sig .tc) ≠ main_v65_2) : (Proc.devRef .tc main_v65_1 : DevRef τ sig) ≠ Proc.devRef .tc main_v65_2) _ _).trans (Function.update_self _ _ _)
  have h2 : exitOf2 (V7 m (outsAll m)) c (Proc.devRef .tc (Pipeline.arrRef spec2 6)) = (dat2 (ent2 m) c).arrAt 6 cfg2.N := by
    unfold exitOf2; exact Pipeline.withArrays_arr spec2 launch2.win.arr_inj c _ _ 6
  exact (h1.trans ((outsAll_8 m main_v65_1 c).trans h2)).symm
/-- Output window 7's array: the choice made at this region's exit item. -/
theorem ext2_out_7 (c : Dev nD) : (dat2 (ent2 m) c).arrAt 7 cfg2.N = ext2 m c (Pipeline.arrRef spec2 7) := by
  have h1 : V8 m (outsAll m) c main_v65_2 = outsAll m 8 main_v65_2 c := Function.update_self _ _ _
  have h2 : exitOf2 (V7 m (outsAll m)) c (Proc.devRef .tc (Pipeline.arrRef spec2 7)) = (dat2 (ent2 m) c).arrAt 7 cfg2.N := by
    unfold exitOf2; exact Pipeline.withArrays_arr spec2 launch2.win.arr_inj c _ _ 7
  exact (h1.trans ((outsAll_8 m main_v65_2 c).trans h2)).symm
/-- At region 2's exit each of its arrays holds what the pipeline leaves, -/
theorem hF2 (c : Dev nD) (w : Fin cfg2.W) : (dat2 (ent2 m) c).arrAt w cfg2.N = ext2 m c (Pipeline.arrRef spec2 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact ext2_in m c 0 rfl (by decide)
  · exact ext2_in m c 1 rfl (by decide)
  · exact ext2_in m c 2 rfl (by decide)
  · exact ext2_in m c 3 rfl (by decide)
  · exact ext2_in m c 4 rfl (by decide)
  · exact ext2_out_5 m c
  · exact ext2_out_6 m c
  · exact ext2_out_7 m c
/-- and every buffer that is none of its arrays what it held at entry. -/
theorem hrest2 (c : Dev nD) : ∀ b, b ∉ Finset.univ.image (Pipeline.arrRef spec2) → ext2 m c b = ent2 m c b :=
  fun b hb => V8_of m (outsAll m) c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_singleton.mp hmem with rfl
    exact Finset.mem_image.mpr ⟨7, Finset.mem_univ _, rfl⟩)

/-- Region 3's entry contents and its exit contents. -/
abbrev ent3 : (c : Dev nD) → (b : Ref sig .tc) → Buf (Elt F) ((c : Thread nD τ).loc b) := fun c b => V9 m (outsAll m) c b
abbrev ext3 : (c : Dev nD) → (b : Ref sig .tc) → Buf (Elt F) ((c : Thread nD τ).loc b) := fun c b => V10 m (outsAll m) c b
/-- An input window's array: held as entered through the pipeline, and no output of the region. -/
theorem ext3_in (c : Dev nD) (w : Fin cfg3.W) (hin : (cfg3.win w).isOut = false)
    (hne : Pipeline.arrRef spec3 w ∉ ([main_v76] : List (Ref sig .tc))) :
    (dat3 (ent3 m) c).arrAt w cfg3.N = ext3 m c (Pipeline.arrRef spec3 w) := by
  rw [(dat3 (ent3 m) c).arrAt_in w hin, A_eq3]
  exact (V10_of m (outsAll m) c _ hne).symm
/-- Output window 5's array: the choice made at this region's exit item. -/
theorem ext3_out_5 (c : Dev nD) : (dat3 (ent3 m) c).arrAt 5 cfg3.N = ext3 m c (Pipeline.arrRef spec3 5) := by
  have h1 : V10 m (outsAll m) c main_v76 = outsAll m 10 main_v76 c := Function.update_self _ _ _
  have h2 : exitOf3 (V9 m (outsAll m)) c (Proc.devRef .tc (Pipeline.arrRef spec3 5)) = (dat3 (ent3 m) c).arrAt 5 cfg3.N := by
    unfold exitOf3; exact Pipeline.withArrays_arr spec3 launch3.win.arr_inj c _ _ 5
  exact (h1.trans ((outsAll_10 m main_v76 c).trans h2)).symm
/-- At region 3's exit each of its arrays holds what the pipeline leaves, -/
theorem hF3 (c : Dev nD) (w : Fin cfg3.W) : (dat3 (ent3 m) c).arrAt w cfg3.N = ext3 m c (Pipeline.arrRef spec3 w) := by
  have h : w = 0 ∨ w = 1 ∨ w = 2 ∨ w = 3 ∨ w = 4 ∨ w = 5 := by revert w; decide
  rcases h with rfl | rfl | rfl | rfl | rfl | rfl
  · exact ext3_in m c 0 rfl (by decide)
  · exact ext3_in m c 1 rfl (by decide)
  · exact ext3_in m c 2 rfl (by decide)
  · exact ext3_in m c 3 rfl (by decide)
  · exact ext3_in m c 4 rfl (by decide)
  · exact ext3_out_5 m c
/-- and every buffer that is none of its arrays what it held at entry. -/
theorem hrest3 (c : Dev nD) : ∀ b, b ∉ Finset.univ.image (Pipeline.arrRef spec3) → ext3 m c b = ent3 m c b :=
  fun b hb => V10_of m (outsAll m) c b fun hmem => hb (by
    rcases List.mem_singleton.mp hmem with rfl
    exact Finset.mem_image.mpr ⟨5, Finset.mem_univ _, rfl⟩)

/-- Region 4's entry contents and its exit contents. -/
abbrev ent4 : (c : Dev nD) → (b : Ref sig .tc) → Buf (Elt F) ((c : Thread nD τ).loc b) := fun c b => V11 m (outsAll m) c b
abbrev ext4 : (c : Dev nD) → (b : Ref sig .tc) → Buf (Elt F) ((c : Thread nD τ).loc b) := fun c b => V12 m (outsAll m) c b
/-- An input window's array: held as entered through the pipeline, and no output of the region. -/
theorem ext4_in (c : Dev nD) (w : Fin cfg4.W) (hin : (cfg4.win w).isOut = false)
    (hne : Pipeline.arrRef spec4 w ∉ ([main_v96_0, main_v96_1, main_v96_2] : List (Ref sig .tc))) :
    (dat4 (ent4 m) c).arrAt w cfg4.N = ext4 m c (Pipeline.arrRef spec4 w) := by
  rw [(dat4 (ent4 m) c).arrAt_in w hin, A_eq4]
  exact (V12_of m (outsAll m) c _ hne).symm
/-- Output window 5's array: the choice made at this region's exit item. -/
theorem ext4_out_5 (c : Dev nD) : (dat4 (ent4 m) c).arrAt 5 cfg4.N = ext4 m c (Pipeline.arrRef spec4 5) := by
  have h1 : V12 m (outsAll m) c main_v96_0 = outsAll m 12 main_v96_0 c := (Function.update_of_ne (StableHlo.devRef_ne_of_ne (by decide : (main_v96_0 : Ref sig .tc) ≠ main_v96_2) : (Proc.devRef .tc main_v96_0 : DevRef τ sig) ≠ Proc.devRef .tc main_v96_2) _ _).trans ((Function.update_of_ne (StableHlo.devRef_ne_of_ne (by decide : (main_v96_0 : Ref sig .tc) ≠ main_v96_1) : (Proc.devRef .tc main_v96_0 : DevRef τ sig) ≠ Proc.devRef .tc main_v96_1) _ _).trans (Function.update_self _ _ _))
  have h2 : exitOf4 (V11 m (outsAll m)) c (Proc.devRef .tc (Pipeline.arrRef spec4 5)) = (dat4 (ent4 m) c).arrAt 5 cfg4.N := by
    unfold exitOf4; exact Pipeline.withArrays_arr spec4 launch4.win.arr_inj c _ _ 5
  exact (h1.trans ((outsAll_12 m main_v96_0 c).trans h2)).symm
/-- Output window 6's array: the choice made at this region's exit item. -/
theorem ext4_out_6 (c : Dev nD) : (dat4 (ent4 m) c).arrAt 6 cfg4.N = ext4 m c (Pipeline.arrRef spec4 6) := by
  have h1 : V12 m (outsAll m) c main_v96_1 = outsAll m 12 main_v96_1 c := (Function.update_of_ne (StableHlo.devRef_ne_of_ne (by decide : (main_v96_1 : Ref sig .tc) ≠ main_v96_2) : (Proc.devRef .tc main_v96_1 : DevRef τ sig) ≠ Proc.devRef .tc main_v96_2) _ _).trans (Function.update_self _ _ _)
  have h2 : exitOf4 (V11 m (outsAll m)) c (Proc.devRef .tc (Pipeline.arrRef spec4 6)) = (dat4 (ent4 m) c).arrAt 6 cfg4.N := by
    unfold exitOf4; exact Pipeline.withArrays_arr spec4 launch4.win.arr_inj c _ _ 6
  exact (h1.trans ((outsAll_12 m main_v96_1 c).trans h2)).symm
/-- Output window 7's array: the choice made at this region's exit item. -/
theorem ext4_out_7 (c : Dev nD) : (dat4 (ent4 m) c).arrAt 7 cfg4.N = ext4 m c (Pipeline.arrRef spec4 7) := by
  have h1 : V12 m (outsAll m) c main_v96_2 = outsAll m 12 main_v96_2 c := Function.update_self _ _ _
  have h2 : exitOf4 (V11 m (outsAll m)) c (Proc.devRef .tc (Pipeline.arrRef spec4 7)) = (dat4 (ent4 m) c).arrAt 7 cfg4.N := by
    unfold exitOf4; exact Pipeline.withArrays_arr spec4 launch4.win.arr_inj c _ _ 7
  exact (h1.trans ((outsAll_12 m main_v96_2 c).trans h2)).symm
/-- At region 4's exit each of its arrays holds what the pipeline leaves, -/
theorem hF4 (c : Dev nD) (w : Fin cfg4.W) : (dat4 (ent4 m) c).arrAt w cfg4.N = ext4 m c (Pipeline.arrRef spec4 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact ext4_in m c 0 rfl (by decide)
  · exact ext4_in m c 1 rfl (by decide)
  · exact ext4_in m c 2 rfl (by decide)
  · exact ext4_in m c 3 rfl (by decide)
  · exact ext4_in m c 4 rfl (by decide)
  · exact ext4_out_5 m c
  · exact ext4_out_6 m c
  · exact ext4_out_7 m c
/-- and every buffer that is none of its arrays what it held at entry. -/
theorem hrest4 (c : Dev nD) : ∀ b, b ∉ Finset.univ.image (Pipeline.arrRef spec4) → ext4 m c b = ent4 m c b :=
  fun b hb => V12_of m (outsAll m) c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_singleton.mp hmem with rfl
    exact Finset.mem_image.mpr ⟨7, Finset.mem_univ _, rfl⟩)

/-- Region 5's entry contents and its exit contents. -/
abbrev ent5 : (c : Dev nD) → (b : Ref sig .tc) → Buf (Elt F) ((c : Thread nD τ).loc b) := fun c b => V13 m (outsAll m) c b
abbrev ext5 : (c : Dev nD) → (b : Ref sig .tc) → Buf (Elt F) ((c : Thread nD τ).loc b) := fun c b => V14 m (outsAll m) c b
/-- An input window's array: held as entered through the pipeline, and no output of the region. -/
theorem ext5_in (c : Dev nD) (w : Fin cfg5.W) (hin : (cfg5.win w).isOut = false)
    (hne : Pipeline.arrRef spec5 w ∉ ([main_v107] : List (Ref sig .tc))) :
    (dat5 (ent5 m) c).arrAt w cfg5.N = ext5 m c (Pipeline.arrRef spec5 w) := by
  rw [(dat5 (ent5 m) c).arrAt_in w hin, A_eq5]
  exact (V14_of m (outsAll m) c _ hne).symm
/-- Output window 5's array: the choice made at this region's exit item. -/
theorem ext5_out_5 (c : Dev nD) : (dat5 (ent5 m) c).arrAt 5 cfg5.N = ext5 m c (Pipeline.arrRef spec5 5) := by
  have h1 : V14 m (outsAll m) c main_v107 = outsAll m 14 main_v107 c := Function.update_self _ _ _
  have h2 : exitOf5 (V13 m (outsAll m)) c (Proc.devRef .tc (Pipeline.arrRef spec5 5)) = (dat5 (ent5 m) c).arrAt 5 cfg5.N := by
    unfold exitOf5; exact Pipeline.withArrays_arr spec5 launch5.win.arr_inj c _ _ 5
  exact (h1.trans ((outsAll_14 m main_v107 c).trans h2)).symm
/-- At region 5's exit each of its arrays holds what the pipeline leaves, -/
theorem hF5 (c : Dev nD) (w : Fin cfg5.W) : (dat5 (ent5 m) c).arrAt w cfg5.N = ext5 m c (Pipeline.arrRef spec5 w) := by
  have h : w = 0 ∨ w = 1 ∨ w = 2 ∨ w = 3 ∨ w = 4 ∨ w = 5 := by revert w; decide
  rcases h with rfl | rfl | rfl | rfl | rfl | rfl
  · exact ext5_in m c 0 rfl (by decide)
  · exact ext5_in m c 1 rfl (by decide)
  · exact ext5_in m c 2 rfl (by decide)
  · exact ext5_in m c 3 rfl (by decide)
  · exact ext5_in m c 4 rfl (by decide)
  · exact ext5_out_5 m c
/-- and every buffer that is none of its arrays what it held at entry. -/
theorem hrest5 (c : Dev nD) : ∀ b, b ∉ Finset.univ.image (Pipeline.arrRef spec5) → ext5 m c b = ent5 m c b :=
  fun b hb => V14_of m (outsAll m) c b fun hmem => hb (by
    rcases List.mem_singleton.mp hmem with rfl
    exact Finset.mem_image.mpr ⟨5, Finset.mem_univ _, rfl⟩)

/-- Region 6's entry contents and its exit contents. -/
abbrev ent6 : (c : Dev nD) → (b : Ref sig .tc) → Buf (Elt F) ((c : Thread nD τ).loc b) := fun c b => V15 m (outsAll m) c b
abbrev ext6 : (c : Dev nD) → (b : Ref sig .tc) → Buf (Elt F) ((c : Thread nD τ).loc b) := fun c b => V16 m (outsAll m) c b
/-- An input window's array: held as entered through the pipeline, and no output of the region. -/
theorem ext6_in (c : Dev nD) (w : Fin cfg6.W) (hin : (cfg6.win w).isOut = false)
    (hne : Pipeline.arrRef spec6 w ∉ ([main_v116_0, main_v116_1, main_v116_2] : List (Ref sig .tc))) :
    (dat6 (ent6 m) c).arrAt w cfg6.N = ext6 m c (Pipeline.arrRef spec6 w) := by
  rw [(dat6 (ent6 m) c).arrAt_in w hin, A_eq6]
  exact (V16_of m (outsAll m) c _ hne).symm
/-- Output window 3's array: the choice made at this region's exit item. -/
theorem ext6_out_3 (c : Dev nD) : (dat6 (ent6 m) c).arrAt 3 cfg6.N = ext6 m c (Pipeline.arrRef spec6 3) := by
  have h1 : V16 m (outsAll m) c main_v116_0 = outsAll m 16 main_v116_0 c := (Function.update_of_ne (StableHlo.devRef_ne_of_ne (by decide : (main_v116_0 : Ref sig .tc) ≠ main_v116_2) : (Proc.devRef .tc main_v116_0 : DevRef τ sig) ≠ Proc.devRef .tc main_v116_2) _ _).trans ((Function.update_of_ne (StableHlo.devRef_ne_of_ne (by decide : (main_v116_0 : Ref sig .tc) ≠ main_v116_1) : (Proc.devRef .tc main_v116_0 : DevRef τ sig) ≠ Proc.devRef .tc main_v116_1) _ _).trans (Function.update_self _ _ _))
  have h2 : exitOf6 (V15 m (outsAll m)) c (Proc.devRef .tc (Pipeline.arrRef spec6 3)) = (dat6 (ent6 m) c).arrAt 3 cfg6.N := by
    unfold exitOf6; exact Pipeline.withArrays_arr spec6 launch6.win.arr_inj c _ _ 3
  exact (h1.trans ((outsAll_16 m main_v116_0 c).trans h2)).symm
/-- Output window 4's array: the choice made at this region's exit item. -/
theorem ext6_out_4 (c : Dev nD) : (dat6 (ent6 m) c).arrAt 4 cfg6.N = ext6 m c (Pipeline.arrRef spec6 4) := by
  have h1 : V16 m (outsAll m) c main_v116_1 = outsAll m 16 main_v116_1 c := (Function.update_of_ne (StableHlo.devRef_ne_of_ne (by decide : (main_v116_1 : Ref sig .tc) ≠ main_v116_2) : (Proc.devRef .tc main_v116_1 : DevRef τ sig) ≠ Proc.devRef .tc main_v116_2) _ _).trans (Function.update_self _ _ _)
  have h2 : exitOf6 (V15 m (outsAll m)) c (Proc.devRef .tc (Pipeline.arrRef spec6 4)) = (dat6 (ent6 m) c).arrAt 4 cfg6.N := by
    unfold exitOf6; exact Pipeline.withArrays_arr spec6 launch6.win.arr_inj c _ _ 4
  exact (h1.trans ((outsAll_16 m main_v116_1 c).trans h2)).symm
/-- Output window 5's array: the choice made at this region's exit item. -/
theorem ext6_out_5 (c : Dev nD) : (dat6 (ent6 m) c).arrAt 5 cfg6.N = ext6 m c (Pipeline.arrRef spec6 5) := by
  have h1 : V16 m (outsAll m) c main_v116_2 = outsAll m 16 main_v116_2 c := Function.update_self _ _ _
  have h2 : exitOf6 (V15 m (outsAll m)) c (Proc.devRef .tc (Pipeline.arrRef spec6 5)) = (dat6 (ent6 m) c).arrAt 5 cfg6.N := by
    unfold exitOf6; exact Pipeline.withArrays_arr spec6 launch6.win.arr_inj c _ _ 5
  exact (h1.trans ((outsAll_16 m main_v116_2 c).trans h2)).symm
/-- At region 6's exit each of its arrays holds what the pipeline leaves, -/
theorem hF6 (c : Dev nD) (w : Fin cfg6.W) : (dat6 (ent6 m) c).arrAt w cfg6.N = ext6 m c (Pipeline.arrRef spec6 w) := by
  have h : w = 0 ∨ w = 1 ∨ w = 2 ∨ w = 3 ∨ w = 4 ∨ w = 5 := by revert w; decide
  rcases h with rfl | rfl | rfl | rfl | rfl | rfl
  · exact ext6_in m c 0 rfl (by decide)
  · exact ext6_in m c 1 rfl (by decide)
  · exact ext6_in m c 2 rfl (by decide)
  · exact ext6_out_3 m c
  · exact ext6_out_4 m c
  · exact ext6_out_5 m c
/-- and every buffer that is none of its arrays what it held at entry. -/
theorem hrest6 (c : Dev nD) : ∀ b, b ∉ Finset.univ.image (Pipeline.arrRef spec6) → ext6 m c b = ent6 m c b :=
  fun b hb => V16_of m (outsAll m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    rcases List.mem_singleton.mp hmem with rfl
    exact Finset.mem_image.mpr ⟨5, Finset.mem_univ _, rfl⟩)

/-- Region 7's entry contents and its exit contents. -/
abbrev ent7 : (c : Dev nD) → (b : Ref sig .tc) → Buf (Elt F) ((c : Thread nD τ).loc b) := fun c b => V17 m (outsAll m) c b
abbrev ext7 : (c : Dev nD) → (b : Ref sig .tc) → Buf (Elt F) ((c : Thread nD τ).loc b) := fun c b => V18 m (outsAll m) c b
/-- An input window's array: held as entered through the pipeline, and no output of the region. -/
theorem ext7_in (c : Dev nD) (w : Fin cfg7.W) (hin : (cfg7.win w).isOut = false)
    (hne : Pipeline.arrRef spec7 w ∉ ([main_v124] : List (Ref sig .tc))) :
    (dat7 (ent7 m) c).arrAt w cfg7.N = ext7 m c (Pipeline.arrRef spec7 w) := by
  rw [(dat7 (ent7 m) c).arrAt_in w hin, A_eq7]
  exact (V18_of m (outsAll m) c _ hne).symm
/-- Output window 8's array: the choice made at this region's exit item. -/
theorem ext7_out_8 (c : Dev nD) : (dat7 (ent7 m) c).arrAt 8 cfg7.N = ext7 m c (Pipeline.arrRef spec7 8) := by
  have h1 : V18 m (outsAll m) c main_v124 = outsAll m 18 main_v124 c := Function.update_self _ _ _
  have h2 : exitOf7 (V17 m (outsAll m)) c (Proc.devRef .tc (Pipeline.arrRef spec7 8)) = (dat7 (ent7 m) c).arrAt 8 cfg7.N := by
    unfold exitOf7; exact Pipeline.withArrays_arr spec7 launch7.win.arr_inj c _ _ 8
  exact (h1.trans ((outsAll_18 m main_v124 c).trans h2)).symm
/-- At region 7's exit each of its arrays holds what the pipeline leaves, -/
theorem hF7 (c : Dev nD) (w : Fin cfg7.W) : (dat7 (ent7 m) c).arrAt w cfg7.N = ext7 m c (Pipeline.arrRef spec7 w) := by
  have h : w = 0 ∨ w = 1 ∨ w = 2 ∨ w = 3 ∨ w = 4 ∨ w = 5 ∨ w = 6 ∨ w = 7 ∨ w = 8 := by revert w; decide
  rcases h with rfl | rfl | rfl | rfl | rfl | rfl | rfl | rfl | rfl
  · exact ext7_in m c 0 rfl (by decide)
  · exact ext7_in m c 1 rfl (by decide)
  · exact ext7_in m c 2 rfl (by decide)
  · exact ext7_in m c 3 rfl (by decide)
  · exact ext7_in m c 4 rfl (by decide)
  · exact ext7_in m c 5 rfl (by decide)
  · exact ext7_in m c 6 rfl (by decide)
  · exact ext7_in m c 7 rfl (by decide)
  · exact ext7_out_8 m c
/-- and every buffer that is none of its arrays what it held at entry. -/
theorem hrest7 (c : Dev nD) : ∀ b, b ∉ Finset.univ.image (Pipeline.arrRef spec7) → ext7 m c b = ent7 m c b :=
  fun b hb => V18_of m (outsAll m) c b fun hmem => hb (by
    rcases List.mem_singleton.mp hmem with rfl
    exact Finset.mem_image.mpr ⟨8, Finset.mem_univ _, rfl⟩)

/-! ## The proof data family and the thread state -/

/-- Every pipeline's proof data, each at its region's entry contents — a literal `match`, so that the family at a
    numeral reduces to that region's data. -/
def pdats : (p : Fin 8) → (c : Dev nD) → Dat τ (Elt F) Unit ℕ (Pipeline.UD sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the contents the items before it leave, left
    at those with its outputs' arrays as its pipeline leaves them. Its arrays split out of the unscoped buffers and put
    back at the exit contents; the generator register into the region's invariant and out; nothing owed; no semaphore
    of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V3 m c) ∗ Rest c)
  post c := iprop(StableHlo.held (c : Thread nD τ) (Pipeline.ucRefs τ sig) (V4 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (ent0 m) c)
    unfold Pipeline.ΦA
    iintro ⟨Hp, -, Hr⟩
    isplitl [Hr]; · iexact Hr
    iexact Hp
  hout c := by
    rw [Pipeline.ownSems0_none]
    refine (hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents the items before it leave, left
    at those with its outputs' arrays as its pipeline leaves them. Its arrays split out of the unscoped buffers and put
    back at the exit contents; the generator register into the region's invariant and out; nothing owed; no semaphore
    of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (V5 m (outsAll m) c) ∗ Rest c)
  post c := iprop(StableHlo.held (c : Thread nD τ) (Pipeline.ucRefs τ sig) (V6 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents the items before it leave, left
    at those with its outputs' arrays as its pipeline leaves them. Its arrays split out of the unscoped buffers and put
    back at the exit contents; the generator register into the region's invariant and out; nothing owed; no semaphore
    of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (V7 m (outsAll m) c) ∗ Rest c)
  post c := iprop(StableHlo.held (c : Thread nD τ) (Pipeline.ucRefs τ sig) (V8 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (ent2 m) c)
    unfold Pipeline.ΦA
    iintro ⟨Hp, -, Hr⟩
    isplitl [Hr]; · iexact Hr
    iexact Hp
  hout c := by
    rw [Pipeline.ownSems0_none]
    refine (hout2 (ent2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the contents the items before it leave, left
    at those with its outputs' arrays as its pipeline leaves them. Its arrays split out of the unscoped buffers and put
    back at the exit contents; the generator register into the region's invariant and out; nothing owed; no semaphore
    of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (V9 m (outsAll m) c) ∗ Rest c)
  post c := iprop(StableHlo.held (c : Thread nD τ) (Pipeline.ucRefs τ sig) (V10 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the contents the items before it leave, left
    at those with its outputs' arrays as its pipeline leaves them. Its arrays split out of the unscoped buffers and put
    back at the exit contents; the generator register into the region's invariant and out; nothing owed; no semaphore
    of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (V11 m (outsAll m) c) ∗ Rest c)
  post c := iprop(StableHlo.held (c : Thread nD τ) (Pipeline.ucRefs τ sig) (V12 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (ent4 m) c)
    unfold Pipeline.ΦA
    iintro ⟨Hp, -, Hr⟩
    isplitl [Hr]; · iexact Hr
    iexact Hp
  hout c := by
    rw [Pipeline.ownSems0_none]
    refine (hout4 (ent4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at the contents the items before it leave, left
    at those with its outputs' arrays as its pipeline leaves them. Its arrays split out of the unscoped buffers and put
    back at the exit contents; the generator register into the region's invariant and out; nothing owed; no semaphore
    of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (V13 m (outsAll m) c) ∗ Rest c)
  post c := iprop(StableHlo.held (c : Thread nD τ) (Pipeline.ucRefs τ sig) (V14 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at the contents the items before it leave, left
    at those with its outputs' arrays as its pipeline leaves them. Its arrays split out of the unscoped buffers and put
    back at the exit contents; the generator register into the region's invariant and out; nothing owed; no semaphore
    of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L lv 6 fun _ _ => rfl
  pre c := iprop(StableHlo.held (c : Thread nD τ) (Pipeline.ucRefs τ sig) (V15 m (outsAll m) c) ∗ Rest c)
  post c := iprop(StableHlo.held (c : Thread nD τ) (Pipeline.ucRefs τ sig) (V16 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec6 c : sProp 𝕄) from ?_).trans (hin6 (ent6 m) c)
    unfold Pipeline.ΦA
    iintro ⟨Hp, -, Hr⟩
    isplitl [Hr]; · iexact Hr
    iexact Hp
  hout c := by
    rw [Pipeline.ownSems0_none]
    refine (hout6 (ent6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at the contents the items before it leave, left
    at those with its outputs' arrays as its pipeline leaves them. Its arrays split out of the unscoped buffers and put
    back at the exit contents; the generator register into the region's invariant and out; nothing owed; no semaphore
    of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L lv 7 fun _ _ => rfl
  pre c := iprop(StableHlo.held (c : Thread nD τ) (Pipeline.ucRefs τ sig) (V17 m (outsAll m) c) ∗ Rest c)
  post c := iprop(StableHlo.held (c : Thread nD τ) (Pipeline.ucRefs τ sig) (V18 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME at any `F`: from any memory with zero counters and any generator registers, every weakly fair execution of
    @main on the TensorCores terminates and every final memory holds each argument as launched — the conditional frame at
    the contents chosen above, the eight records, and the rest state `Rest` between all items: the launch deals each
    core its register and its `owes` at nothing, and the last item leaves the `owes` at nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond (m := m) (EP := embL) (ι := ()) (𝒱₀ := 𝒱₀) (L := L) (lv := lv) (hL := fun _ _ => rfl) (ρ := ρ) (outs := outsAll m) (pdats := pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE8 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)

end Cert.KernelIdeal.Gen

end
-- ==== Proof.IdealRun.lean ====
/- The run of the program with its three results named: what @main returns sits, in every final memory, at the last
   contents between items — the launch memory, then each host stretch's operations, then what each region's pipeline
   leaves at its output arrays (the choice made region by region in the frame's module) — and each argument ends as
   launched.  The same eight records and the same rest state as the frame; only the post reads three more buffers. -/
import proofs.«180021_j37692632990117_2_alg».proof.Proof.IdealFrame
import proofs.«180021_j37692632990117_2_alg».proof.Proof.IdealRunCond

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ)

set_option backward.isDefEq.respectTransparency.types false in
/-- THE RUN at any `F`: from any memory with zero counters and any generator registers, every weakly fair execution of
    @main on the TensorCores terminates, and every final memory holds each of the three results at the last contents
    between items, read at the regions' exits chosen in the frame's module, and each argument as launched. -/
theorem run (ρ : Dev nD → PrngReg) : θ_run defs (onTc (τ := τ) (main (F := F))) ⟨m, fun _ => 0, ρ⟩ (fun r => ∀ c : Dev nD,
      r.2.mem ((c.tc : Thread nD τ).loc main_v107) = V18 m (outsAll m) c main_v107
      ∧ r.2.mem ((c.tc : Thread nD τ).loc main_v124) = V18 m (outsAll m) c main_v124
      ∧ r.2.mem ((c.tc : Thread nD τ).loc main_v114) = V18 m (outsAll m) c main_v114
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  run_cond (m := m) (EP := embL) (ι := ()) (𝒱₀ := 𝒱₀) (L := L) (lv := lv) (hL := fun _ _ => rfl) (ρ := ρ) (outs := outsAll m) (pdats := pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE8 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)

end Cert.KernelIdeal.Gen

end
-- ==== Proof.BitsStats0Runs.lean ====
/- Region 0: the linear map agg·Wlᵀ + h·Wrᵀ + b with the running column statistics, one grid point at a time.

   At each of the ten points the body forms the tile agg·Wlᵀ + h·Wrᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions over the grid -/

/-- "This is the first point": the body clears the accumulators. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
/-- "This is the last point": the body finalises the mean and the variance. -/
abbrev cond0_1 (i : grid0.Coords) : Prop := k0_cond2 i = 1#1
theorem hcond0_1 : ∀ t : Fin cfg0.N, cond0_1 (grid0.coords t) ↔ t.val = 9 :=
  (by decide +kernel : ∀ t : Fin grid0.N, cond0_1 (grid0.coords t) ↔ t.val = 9)

/-! ## Where a window's buffer is left alone -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Before the last point the body stores nothing into window 6 and its block is not written back. -/
theorem idleAt0_6 : ∀ t : Fin cfg0.N, ¬cond0_1 (grid0.coords t) → cfg0.idle 6 (grid0.coords t) = true := by decide +kernel
theorem noFlush0_6 : ∀ t : Fin cfg0.N, ¬cond0_1 (grid0.coords t) → (cfg0.win 6).flush t = false := by decide +kernel
theorem liveAt0_6_C : ∀ t : Fin cfg0.N, cond0_1 (grid0.coords t) → cfg0.idle 6 (grid0.coords t) = false := by decide +kernel
/-- Before the last point the body stores nothing into window 7 and its block is not written back. -/
theorem idleAt0_7 : ∀ t : Fin cfg0.N, ¬cond0_1 (grid0.coords t) → cfg0.idle 7 (grid0.coords t) = true := by decide +kernel
theorem noFlush0_7 : ∀ t : Fin cfg0.N, ¬cond0_1 (grid0.coords t) → (cfg0.win 7).flush t = false := by decide +kernel
theorem liveAt0_7_C : ∀ t : Fin cfg0.N, cond0_1 (grid0.coords t) → cfg0.idle 7 (grid0.coords t) = false := by decide +kernel

/-! ## The buffers the body is called on -/

abbrev ms0_0 (t : Fin cfg0.N) : Memref sig .tc .vmem S5000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S5000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S5000x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)
/-- The two accumulators: whole scratch buffers of the kernel's own. -/
abbrev scM0_0 : Memref sig .tc .vmem S1x128 .f32 := Memref.whole cc0_scratch0
abbrev scM0_1 : Memref sig .tc .vmem S1x128 .f32 := Memref.whole cc0_scratch1
/-- Views through which the contents of the buffers the body stores into are stated. -/
abbrev VO0_5 : View sig .tc .vmem S5000x128 .f32 := (Memref.whole cc0_stg5_0 : Memref sig .tc .vmem S5000x128 .f32).view
abbrev VO0_6 : View sig .tc .vmem S1x128 .f32 := (Memref.whole cc0_stg6_0 : Memref sig .tc .vmem S1x128 .f32).view
abbrev VO0_7 : View sig .tc .vmem S1x128 .f32 := (Memref.whole cc0_stg7_0 : Memref sig .tc .vmem S1x128 .f32).view
abbrev VS0_0 : View sig .tc .vmem S1x128 .f32 := scM0_0.view
abbrev VS0_1 : View sig .tc .vmem S1x128 .f32 := scM0_1.view

/-- What the region's own buffers and the generator register amount to: the two accumulators at some contents, the other
    scoped buffers unopened, the register at some state. -/
theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d))
          ∗ Pipeline.scopedRestBut (Ix := Unit) (Name := ℕ) (U := Pipeline.UD sig nD τ) (Lvl := ℕ) (Val := Elt F) spec0 c [cc0_scratch0, cc0_scratch1]) ∗ (∃ r, prngReg c r)) := by
  unfold Pipeline.ΦA; rw [scopedRest0_split]; simp only [scM0_0, scM0_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun0_A (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32)  :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_lin_stats_kernel_eq_skeleton]; unfold cc0__sage_lin_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun0_B (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__sage_lin_stats_kernel_eq_skeleton]; unfold cc0__sage_lin_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun0_C (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0__sage_lin_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__sage_lin_stats_kernel_eq_skeleton]; unfold cc0__sage_lin_stats_kernel_skel
    simp only [k0_part1_eq_skeleton]; unfold k0_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen

end
-- ==== Proof.BitsStats0.lean ====
/- Region 0, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats0Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (Pipeline.UD sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What each case's run leaves: its pieces cover the buffer, and read back over anything -/

theorem cover0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) (y : S5000x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y
def out0_A_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) : Vec F S5000x128 .f32 :=
  VO0_5.read (Elt F) (VO0_5.writes (Elt F) VO0_5.junk (kernelRun0_A c i arg1 harg1 arg2 harg2 arg3 harg3 arg4 harg4 arg5 harg5 arg6 harg6 arg7 harg7 arg8 harg8 arg9 harg9 arg10 harg10 hc0 hc1 x0 x1 x2 x3 x4).1)
theorem scover0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y
def sout0_A_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) : Vec F S1x128 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 hc0 hc1 x0 x1 x2 x3 x4).2.1)
theorem scover0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y
def sout0_A_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i) (x0 : Vec F S5000x128 .f32) (x1 : Vec F S5000x128 .f32) (x2 : Vec F S128x128 .f32) (x3 : Vec F S128x128 .f32) (x4 : Vec F S1x128 .f32) : Vec F S1x128 .f32 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 hc0 hc1 x0 x1 x2 x3 x4).2.2.1)
theorem cover0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out0_B_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).1)
theorem scover0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def sout0_B_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def sout0_B_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out0_C_5 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO0_5.read (Elt F) (VO0_5.writes (Elt F) VO0_5.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).1)
theorem cover0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def out0_C_6 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_6.read (Elt F) (VO0_6.writes (Elt F) VO0_6.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def out0_C_7 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO0_7.read (Elt F) (VO0_7.writes (Elt F) VO0_7.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y
def sout0_C_0 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y
def sout0_C_1 (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The accumulators and the outputs after each point -/

/-- The two accumulators after point `n`. -/
def accAt0 (c : Dev nD) : (n : ℕ) → n < cfg0.N → Vec F S1x128 .f32 × Vec F S1x128 .f32
  | 0, hn =>
    have h0 : (⟨0, hn⟩ : Fin cfg0.N).val = 0 := rfl
    have h1 : ¬(⟨0, hn⟩ : Fin cfg0.N).val = 9 := fun h => absurd (show (0 : ℕ) = 9 from h) (by decide)
    (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) ((hcond0_0 ⟨0, hn⟩).mpr h0) (fun h => h1 ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩))
  | n + 1, hn =>
    have h0 : ¬(⟨n + 1, hn⟩ : Fin cfg0.N).val = 0 := Nat.succ_ne_zero n
    if h1 : (⟨n + 1, hn⟩ : Fin cfg0.N).val = 9 then
      (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)
    else
      (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (accAt0 c n (Nat.lt_of_succ_lt hn)).1 (accAt0 c n (Nat.lt_of_succ_lt hn)).2)

theorem accAt0_A (c : Dev nD) (t : Fin cfg0.N) (h0 : t.val = 0) (h1 : ¬t.val = 9) :
    accAt0 V c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)) := by
  obtain ⟨n, hn⟩ := t
  cases n with
  | zero => rfl
  | succ n => exact absurd h0 (Nat.succ_ne_zero n)

theorem accAt0_B (c : Dev nD) (t : Fin cfg0.N) (h0 : ¬t.val = 0) (h1 : ¬t.val = 9) :
    accAt0 V c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_neg h1).trans rfl

theorem accAt0_C (c : Dev nD) (t : Fin cfg0.N) (h0 : ¬t.val = 0) (h1 : t.val = 9) :
    accAt0 V c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt0 (c : Dev nD) (t : Fin cfg0.N) : Vec F S5000x128 .f32 :=
  if h0 : t.val = 0 then
    if h1 : t.val = 9 then iblk0 V c 5 t else out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) ((hcond0_0 t).mpr h0) (fun h => h1 ((hcond0_1 t).mp h)) (iblk0 V c 0 t) (iblk0 V c 1 t) (iblk0 V c 2 t) (iblk0 V c 3 t) (iblk0 V c 4 t)
  else
    if h1 : t.val = 9 then out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2
    else out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2

/-- The mean and the variance rows after point `t`: the last point's run's (elsewhere the windows are left alone, and
    what is written here is never consulted). -/
def meanAt0 (c : Dev nD) (t : Fin cfg0.N) : Vec F S1x128 .f32 :=
  if h0 : t.val = 0 then iblk0 V c 6 t else if h1 : t.val = 9 then out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2 else iblk0 V c 6 t
def varAt0 (c : Dev nD) (t : Fin cfg0.N) : Vec F S1x128 .f32 :=
  if h0 : t.val = 0 then iblk0 V c 7 t else if h1 : t.val = 9 then out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (fun h => h0 ((hcond0_0 t).mp h)) ((hcond0_1 t).mpr h1) (iblk0 V c 0 t) (iblk0 V c 1 t) (iblk0 V c 2 t) (iblk0 V c 3 t) (iblk0 V c 4 t) (accAt0 V c (t.val - 1) (Nat.lt_of_le_of_lt (Nat.sub_le _ _) t.isLt)).1 (accAt0 V c (t.val - 1) (Nat.lt_of_le_of_lt (Nat.sub_le _ _) t.isLt)).2 else iblk0 V c 7 t

/-! ## The invariant between points and the proof data -/

/-- Before point `n`: at the start the region's own buffers at anything; afterwards the two accumulators at what the point
    before left, the other scoped buffers unopened, the generator register at some state. -/
def PhiS0 (c : Dev nD) : (n : ℕ) → n ≤ cfg0.N → sProp 𝕄
  | 0, _ => Pipeline.ΦA spec0 c
  | n + 1, hn => iprop(iprop(iprop(owns (c : Thread nD τ) scM0_0 fullShare ((accAt0 V c n hn).1) ∗ owns (c : Thread nD τ) scM0_1 fullShare ((accAt0 V c n hn).2))
      ∗ Pipeline.scopedRestBut (Ix := Unit) (Name := ℕ) (U := Pipeline.UD sig nD τ) (Lvl := ℕ) (Val := Elt F) spec0 c [cc0_scratch0, cc0_scratch1]) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(iprop(owns (c : Thread nD τ) scM0_0 fullShare ((accAt0 V c n hn).1) ∗ owns (c : Thread nD τ) scM0_1 fullShare ((accAt0 V c n hn).2))
      ∗ Pipeline.scopedRestBut (Ix := Unit) (Name := ℕ) (U := Pipeline.UD sig nD τ) (Lvl := ℕ) (Val := Elt F) spec0 c [cc0_scratch0, cc0_scratch1]) ∗ (∃ r, prngReg c r)) := rfl
theorem PhiS0_pos (c : Dev nD) (n : ℕ) (h : n ≤ cfg0.N) (hz : n ≠ 0) :
    PhiS0 V c n h = iprop(iprop(iprop(owns (c : Thread nD τ) scM0_0 fullShare ((accAt0 V c (n - 1) (by omega)).1) ∗ owns (c : Thread nD τ) scM0_1 fullShare ((accAt0 V c (n - 1) (by omega)).2))
      ∗ Pipeline.scopedRestBut (Ix := Unit) (Name := ℕ) (U := Pipeline.UD sig nD τ) (Lvl := ℕ) (Val := Elt F) spec0 c [cc0_scratch0, cc0_scratch1]) ∗ (∃ r, prngReg c r)) := by
  cases n with
  | zero => exact absurd rfl hz
  | succ n => rfl

/-- The proof data of this region on core `c`. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => tileAt0 V c t
    | ⟨6, _⟩ => meanAt0 V c t
    | ⟨7, _⟩ => varAt0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = tileAt0 V c t := by dsimp only [dat0]
theorem after0_6 (c : Dev nD) (t : Fin cfg0.N) : (dat0 V c).after 6 t = meanAt0 V c t := by dsimp only [dat0]
theorem after0_7 (c : Dev nD) (t : Fin cfg0.N) : (dat0 V c).after 7 t = varAt0 V c t := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Cert.Kernel.Gen

end
-- ==== Proof.BitsStats0Body.lean ====
/- Region 0, concluded: the body obligation at every grid point, by the three cases, and the invariant at the region's ends. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  rw [show (dat0 V c).leavesExact 3 t = owns (c : Thread nD τ) (ms0_3 t) fullShare ((dat0 V c).after 3 t) from by
    unfold Dat.leavesExact; rw [liveAt0_3 t], after0_3]
  rw [show (dat0 V c).leavesExact 4 t = owns (c : Thread nD τ) (ms0_4 t) fullShare ((dat0 V c).after 4 t) from by
    unfold Dat.leavesExact; rw [liveAt0_4 t], after0_4]
  rw [show (dat0 V c).leavesExact 5 t = owns (c : Thread nD τ) (ms0_5 t) fullShare ((dat0 V c).after 5 t) from by
    unfold Dat.leavesExact; rw [liveAt0_5 t], after0_5]
  have hN : t.val < 10 := lt_of_lt_of_eq t.isLt N_0
  by_cases h0 : t.val = 0
  · have h1 : ¬t.val = 9 := by omega
    rw [Dat.leavesExact_idle (dat0 V c) 6 t (idleAt0_6 t (fun h => h1 ((hcond0_1 t).mp h))) (noFlush0_6 t (fun h => h1 ((hcond0_1 t).mp h)))]
    rw [Dat.leavesExact_idle (dat0 V c) 7 t (idleAt0_7 t (fun h => h1 ((hcond0_1 t).mp h))) (noFlush0_7 t (fun h => h1 ((hcond0_1 t).mp h)))]
    rw [accAt0_A V c t h0 h1]
    simp only [tileAt0, dif_pos h0, dif_neg h1]
    unfold out0_A_5 sout0_A_0 sout0_A_1; (try dsimp only)
    rw [PhiS0_castSucc V c t, PhiS0_zero V c _ _ h0, PhiA0_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun0_A c (grid0.coords t) _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _)
    isplitl [H6]; · iexists _; iexact H6
    iexists _; iexact H7
  · by_cases h1 : t.val = 9
    · rw [show (dat0 V c).leavesExact 6 t = owns (c : Thread nD τ) (ms0_6 t) fullShare ((dat0 V c).after 6 t) from by
        unfold Dat.leavesExact; rw [liveAt0_6_C t ((hcond0_1 t).mpr h1)], after0_6]
      rw [show (dat0 V c).leavesExact 7 t = owns (c : Thread nD τ) (ms0_7 t) fullShare ((dat0 V c).after 7 t) from by
        unfold Dat.leavesExact; rw [liveAt0_7_C t ((hcond0_1 t).mpr h1)], after0_7]
      rw [accAt0_C V c t h0 h1]
      simp only [tileAt0, meanAt0, varAt0, dif_neg h0, dif_pos h1]
      unfold out0_C_5 out0_C_6 out0_C_7 sout0_C_0 sout0_C_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_C c (grid0.coords t) _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover0_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _)
    · rw [Dat.leavesExact_idle (dat0 V c) 6 t (idleAt0_6 t (fun h => h1 ((hcond0_1 t).mp h))) (noFlush0_6 t (fun h => h1 ((hcond0_1 t).mp h)))]
      rw [Dat.leavesExact_idle (dat0 V c) 7 t (idleAt0_7 t (fun h => h1 ((hcond0_1 t).mp h))) (noFlush0_7 t (fun h => h1 ((hcond0_1 t).mp h)))]
      rw [accAt0_B V c t h0 h1]
      simp only [tileAt0, dif_neg h0, dif_neg h1]
      unfold out0_B_5 sout0_B_0 sout0_B_1; (try dsimp only)
      rw [PhiS0_castSucc V c t, PhiS0_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun0_B c (grid0.coords t) _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _ _ _ _ _ _)
      isplitl [H6]; · iexists _; iexact H6
      iexists _; iexact H7

/-- The body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives the region's own buffers back at some contents. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 10 := N_0; omega), PhiA0_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Gen

end
-- ==== Proof.BitsStats2Runs.lean ====
/- Region 2: the linear map agg·Wlᵀ + h·Wrᵀ + b with the running column statistics, one grid point at a time.

   At each of the ten points the body forms the tile agg·Wlᵀ + h·Wrᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions over the grid -/

/-- "This is the first point": the body clears the accumulators. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val = 0 :=
  (by decide +kernel : ∀ t : Fin grid2.N, cond2_0 (grid2.coords t) ↔ t.val = 0)
/-- "This is the last point": the body finalises the mean and the variance. -/
abbrev cond2_1 (i : grid2.Coords) : Prop := k2_cond2 i = 1#1
theorem hcond2_1 : ∀ t : Fin cfg2.N, cond2_1 (grid2.coords t) ↔ t.val = 9 :=
  (by decide +kernel : ∀ t : Fin grid2.N, cond2_1 (grid2.coords t) ↔ t.val = 9)

/-! ## Where a window's buffer is left alone -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
theorem liveAt2_3 : ∀ t : Fin cfg2.N, cfg2.idle 3 (grid2.coords t) = false := by decide +kernel
theorem liveAt2_4 : ∀ t : Fin cfg2.N, cfg2.idle 4 (grid2.coords t) = false := by decide +kernel
theorem liveAt2_5 : ∀ t : Fin cfg2.N, cfg2.idle 5 (grid2.coords t) = false := by decide +kernel
/-- Before the last point the body stores nothing into window 6 and its block is not written back. -/
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6_C : ∀ t : Fin cfg2.N, cond2_1 (grid2.coords t) → cfg2.idle 6 (grid2.coords t) = false := by decide +kernel
/-- Before the last point the body stores nothing into window 7 and its block is not written back. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7_C : ∀ t : Fin cfg2.N, cond2_1 (grid2.coords t) → cfg2.idle 7 (grid2.coords t) = false := by decide +kernel

/-! ## The buffers the body is called on -/

abbrev ms2_0 (t : Fin cfg2.N) : Memref sig .tc .vmem S5000x128 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S5000x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x128 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S5000x128 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x128 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x128 .f32 := win2_7.stage (cfg2.slots t 7)
abbrev hs2_7 (t : Fin cfg2.N) : (ms2_7 t).IsWhole := hstage2_7 ((cfg2.slots t 7).cast nbuf2_7)
/-- The two accumulators: whole scratch buffers of the kernel's own. -/
abbrev scM2_0 : Memref sig .tc .vmem S1x128 .f32 := Memref.whole cc2_scratch0
abbrev scM2_1 : Memref sig .tc .vmem S1x128 .f32 := Memref.whole cc2_scratch1
/-- Views through which the contents of the buffers the body stores into are stated. -/
abbrev VO2_5 : View sig .tc .vmem S5000x128 .f32 := (Memref.whole cc2_stg5_0 : Memref sig .tc .vmem S5000x128 .f32).view
abbrev VO2_6 : View sig .tc .vmem S1x128 .f32 := (Memref.whole cc2_stg6_0 : Memref sig .tc .vmem S1x128 .f32).view
abbrev VO2_7 : View sig .tc .vmem S1x128 .f32 := (Memref.whole cc2_stg7_0 : Memref sig .tc .vmem S1x128 .f32).view
abbrev VS2_0 : View sig .tc .vmem S1x128 .f32 := scM2_0.view
abbrev VS2_1 : View sig .tc .vmem S1x128 .f32 := scM2_1.view

/-- What the region's own buffers and the generator register amount to: the two accumulators at some contents, the other
    scoped buffers unopened, the register at some state. -/
theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d))
          ∗ Pipeline.scopedRestBut (Ix := Unit) (Name := ℕ) (U := Pipeline.UD sig nD τ) (Lvl := ℕ) (Val := Elt F) spec2 c [cc2_scratch0, cc2_scratch1]) ∗ (∃ r, prngReg c r)) := by
  unfold Pipeline.ΦA; rw [scopedRest2_split]; simp only [scM2_0, scM2_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun2_A (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S5000x128 .f32) (x2 : Vec F S128x128 .f32) (x3 : Vec F S128x128 .f32) (x4 : Vec F S1x128 .f32)  :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__sage_lin_stats_kernel_eq_skeleton]; unfold cc2__sage_lin_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun2_B (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc2__sage_lin_stats_kernel_eq_skeleton]; unfold cc2__sage_lin_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun2_C (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc2__sage_lin_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc2__sage_lin_stats_kernel_eq_skeleton]; unfold cc2__sage_lin_stats_kernel_skel
    simp only [k2_part1_eq_skeleton]; unfold k2_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen

end
-- ==== Proof.BitsStats2.lean ====
/- Region 2, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats2Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (Pipeline.UD sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## What each case's run leaves: its pieces cover the buffer, and read back over anything -/

theorem cover2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) (y : S5000x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y
def out2_A_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) : Vec F S5000x128 .f32 :=
  VO2_5.read (Elt F) (VO2_5.writes (Elt F) VO2_5.junk (kernelRun2_A c i arg1 harg1 arg2 harg2 arg3 harg3 arg4 harg4 arg5 harg5 arg6 harg6 arg7 harg7 arg8 harg8 arg9 harg9 arg10 harg10 hc0 hc1 x0 x1 x2 x3 x4).1)
theorem scover2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y
def sout2_A_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) : Vec F S1x128 .f32 :=
  VS2_0.read (Elt F) (VS2_0.writes (Elt F) VS2_0.junk (kernelRun2_A c i arg1 harg1 arg2 harg2 arg3 harg3 arg4 harg4 arg5 harg5 arg6 harg6 arg7 harg7 arg8 harg8 arg9 harg9 arg10 harg10 hc0 hc1 x0 x1 x2 x3 x4).2.1)
theorem scover2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun2_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun2_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y
def sout2_A_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i) (x0 : Vec F S5000x128 .f32) (x1 : Vec F S5000x128 .f32) (x2 : Vec F S128x128 .f32) (x3 : Vec F S128x128 .f32) (x4 : Vec F S1x128 .f32) : Vec F S1x128 .f32 :=
  VS2_1.read (Elt F) (VS2_1.writes (Elt F) VS2_1.junk (kernelRun2_A c i arg1 harg1 arg2 harg2 arg3 harg3 arg4 harg4 arg5 harg5 arg6 harg6 arg7 harg7 arg8 harg8 arg9 harg9 arg10 harg10 hc0 hc1 x0 x1 x2 x3 x4).2.2.1)
theorem cover2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out2_B_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO2_5.read (Elt F) (VO2_5.writes (Elt F) VO2_5.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).1)
theorem scover2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def sout2_B_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_0.read (Elt F) (VS2_0.writes (Elt F) VS2_0.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def sout2_B_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_1.read (Elt F) (VS2_1.writes (Elt F) VS2_1.junk (kernelRun2_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out2_C_5 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO2_5.read (Elt F) (VO2_5.writes (Elt F) VO2_5.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).1)
theorem cover2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def out2_C_6 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO2_6.read (Elt F) (VO2_6.writes (Elt F) VO2_6.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def out2_C_7 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO2_7.read (Elt F) (VO2_7.writes (Elt F) VO2_7.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y
def sout2_C_0 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_0.read (Elt F) (VS2_0.writes (Elt F) VS2_0.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y
def sout2_C_1 (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS2_1.read (Elt F) (VS2_1.writes (Elt F) VS2_1.junk (kernelRun2_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The accumulators and the outputs after each point -/

/-- The two accumulators after point `n`. -/
def accAt2 (c : Dev nD) : (n : ℕ) → n < cfg2.N → Vec F S1x128 .f32 × Vec F S1x128 .f32
  | 0, hn =>
    have h0 : (⟨0, hn⟩ : Fin cfg2.N).val = 0 := rfl
    have h1 : ¬(⟨0, hn⟩ : Fin cfg2.N).val = 9 := fun h => absurd (show (0 : ℕ) = 9 from h) (by decide)
    (sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩), sout2_A_1 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) scM2_0 (Memref.isWhole_whole _) scM2_1 (Memref.isWhole_whole _) ((hcond2_0 ⟨0, hn⟩).mpr h0) (fun h => h1 ((hcond2_1 ⟨0, hn⟩).mp h)) (iblk2 V c 0 ⟨0, hn⟩) (iblk2 V c 1 ⟨0, hn⟩) (iblk2 V c 2 ⟨0, hn⟩) (iblk2 V c 3 ⟨0, hn⟩) (iblk2 V c 4 ⟨0, hn⟩))
  | n + 1, hn =>
    have h0 : ¬(⟨n + 1, hn⟩ : Fin cfg2.N).val = 0 := Nat.succ_ne_zero n
    if h1 : (⟨n + 1, hn⟩ : Fin cfg2.N).val = 9 then
      (sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2, sout2_C_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2)
    else
      (sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2, sout2_B_1 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) scM2_0 (Memref.isWhole_whole _) scM2_1 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (accAt2 c n (Nat.lt_of_succ_lt hn)).1 (accAt2 c n (Nat.lt_of_succ_lt hn)).2)

theorem accAt2_A (c : Dev nD) (t : Fin cfg2.N) (h0 : t.val = 0) (h1 : ¬t.val = 9) :
    accAt2 V c t.val t.isLt = (sout2_A_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t), sout2_A_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)) := by
  obtain ⟨n, hn⟩ := t
  cases n with
  | zero => rfl
  | succ n => exact absurd h0 (Nat.succ_ne_zero n)

theorem accAt2_B (c : Dev nD) (t : Fin cfg2.N) (h0 : ¬t.val = 0) (h1 : ¬t.val = 9) :
    accAt2 V c t.val t.isLt = (sout2_B_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2, sout2_B_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2) := by
  obtain ⟨n, hn⟩ := t
  cases n with
  | zero => exact absurd rfl h0
  | succ n => exact (dif_neg h1).trans rfl

theorem accAt2_C (c : Dev nD) (t : Fin cfg2.N) (h0 : ¬t.val = 0) (h1 : t.val = 9) :
    accAt2 V c t.val t.isLt = (sout2_C_0 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2, sout2_C_1 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt2 (c : Dev nD) (t : Fin cfg2.N) : Vec F S5000x128 .f32 :=
  if h0 : t.val = 0 then
    if h1 : t.val = 9 then iblk2 V c 5 t else out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) ((hcond2_0 t).mpr h0) (fun h => h1 ((hcond2_1 t).mp h)) (iblk2 V c 0 t) (iblk2 V c 1 t) (iblk2 V c 2 t) (iblk2 V c 3 t) (iblk2 V c 4 t)
  else
    if h1 : t.val = 9 then out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2
    else out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) (fun h => h1 ((hcond2_1 t).mp h)) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2

/-- The mean and the variance rows after point `t`: the last point's run's (elsewhere the windows are left alone, and
    what is written here is never consulted). -/
def meanAt2 (c : Dev nD) (t : Fin cfg2.N) : Vec F S1x128 .f32 :=
  if h0 : t.val = 0 then iblk2 V c 6 t else if h1 : t.val = 9 then out2_C_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2 else iblk2 V c 6 t
def varAt2 (c : Dev nD) (t : Fin cfg2.N) : Vec F S1x128 .f32 :=
  if h0 : t.val = 0 then iblk2 V c 7 t else if h1 : t.val = 9 then out2_C_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _) (fun h => h0 ((hcond2_0 t).mp h)) ((hcond2_1 t).mpr h1) (iblk2 V c 0 t) (iblk2 V c 1 t) (iblk2 V c 2 t) (iblk2 V c 3 t) (iblk2 V c 4 t) (accAt2 V c (t.val - 1) (Nat.lt_of_le_of_lt (Nat.sub_le _ _) t.isLt)).1 (accAt2 V c (t.val - 1) (Nat.lt_of_le_of_lt (Nat.sub_le _ _) t.isLt)).2 else iblk2 V c 7 t

/-! ## The invariant between points and the proof data -/

/-- Before point `n`: at the start the region's own buffers at anything; afterwards the two accumulators at what the point
    before left, the other scoped buffers unopened, the generator register at some state. -/
def PhiS2 (c : Dev nD) : (n : ℕ) → n ≤ cfg2.N → sProp 𝕄
  | 0, _ => Pipeline.ΦA spec2 c
  | n + 1, hn => iprop(iprop(iprop(owns (c : Thread nD τ) scM2_0 fullShare ((accAt2 V c n hn).1) ∗ owns (c : Thread nD τ) scM2_1 fullShare ((accAt2 V c n hn).2))
      ∗ Pipeline.scopedRestBut (Ix := Unit) (Name := ℕ) (U := Pipeline.UD sig nD τ) (Lvl := ℕ) (Val := Elt F) spec2 c [cc2_scratch0, cc2_scratch1]) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(iprop(owns (c : Thread nD τ) scM2_0 fullShare ((accAt2 V c n hn).1) ∗ owns (c : Thread nD τ) scM2_1 fullShare ((accAt2 V c n hn).2))
      ∗ Pipeline.scopedRestBut (Ix := Unit) (Name := ℕ) (U := Pipeline.UD sig nD τ) (Lvl := ℕ) (Val := Elt F) spec2 c [cc2_scratch0, cc2_scratch1]) ∗ (∃ r, prngReg c r)) := rfl
theorem PhiS2_pos (c : Dev nD) (n : ℕ) (h : n ≤ cfg2.N) (hz : n ≠ 0) :
    PhiS2 V c n h = iprop(iprop(iprop(owns (c : Thread nD τ) scM2_0 fullShare ((accAt2 V c (n - 1) (by omega)).1) ∗ owns (c : Thread nD τ) scM2_1 fullShare ((accAt2 V c (n - 1) (by omega)).2))
      ∗ Pipeline.scopedRestBut (Ix := Unit) (Name := ℕ) (U := Pipeline.UD sig nD τ) (Lvl := ℕ) (Val := Elt F) spec2 c [cc2_scratch0, cc2_scratch1]) ∗ (∃ r, prngReg c r)) := by
  cases n with
  | zero => exact absurd rfl hz
  | succ n => rfl

/-- The proof data of this region on core `c`. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => tileAt2 V c t
    | ⟨6, _⟩ => meanAt2 V c t
    | ⟨7, _⟩ => varAt2 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = tileAt2 V c t := by dsimp only [dat2]
theorem after2_6 (c : Dev nD) (t : Fin cfg2.N) : (dat2 V c).after 6 t = meanAt2 V c t := by dsimp only [dat2]
theorem after2_7 (c : Dev nD) (t : Fin cfg2.N) : (dat2 V c).after 7 t = varAt2 V c t := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

end Cert.Kernel.Gen

end
-- ==== Proof.BitsStats2Body.lean ====
/- Region 2, concluded: the body obligation at every grid point, by the three cases, and the invariant at the region's ends. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  have hN : t.val < 10 := lt_of_lt_of_eq t.isLt N_2
  by_cases h0 : t.val = 0
  · have h1 : ¬t.val = 9 := by omega
    rw [Dat.leavesExact_idle (dat2 V c) 6 t (idleAt2_6 t (fun h => h1 ((hcond2_1 t).mp h))) (noFlush2_6 t (fun h => h1 ((hcond2_1 t).mp h)))]
    rw [Dat.leavesExact_idle (dat2 V c) 7 t (idleAt2_7 t (fun h => h1 ((hcond2_1 t).mp h))) (noFlush2_7 t (fun h => h1 ((hcond2_1 t).mp h)))]
    rw [accAt2_A V c t h0 h1]
    simp only [tileAt2, dif_pos h0, dif_neg h1]
    unfold out2_A_5 sout2_A_0 sout2_A_1; (try dsimp only)
    rw [PhiS2_castSucc V c t, PhiS2_zero V c _ _ h0, PhiA2_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun2_A c (grid2.coords t) _ _ _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover2_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover2_A_1 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover2_A_5 c _ _ _ _ _ _ _ _ _ _ _ _ _ _ _ _ _ _ _ _ _ _ _ _ _ _ _ _)
    isplitl [H6]; · iexists _; iexact H6
    iexists _; iexact H7
  · by_cases h1 : t.val = 9
    · rw [show (dat2 V c).leavesExact 6 t = owns (c : Thread nD τ) (ms2_6 t) fullShare ((dat2 V c).after 6 t) from by
        unfold Dat.leavesExact; rw [liveAt2_6_C t ((hcond2_1 t).mpr h1)], after2_6]
      rw [show (dat2 V c).leavesExact 7 t = owns (c : Thread nD τ) (ms2_7 t) fullShare ((dat2 V c).after 7 t) from by
        unfold Dat.leavesExact; rw [liveAt2_7_C t ((hcond2_1 t).mpr h1)], after2_7]
      rw [accAt2_C V c t h0 h1]
      simp only [tileAt2, meanAt2, varAt2, dif_neg h0, dif_pos h1]
      unfold out2_C_5 out2_C_6 out2_C_7 sout2_C_0 sout2_C_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_C c (grid2.coords t) _ _ _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover2_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover2_C_7 c _ _ _ _ _ _ _ _ _ _ _ _ _ _ _ _ _ _ _ _ _ _ _ _ _ _ _ _ _ _)
    · rw [Dat.leavesExact_idle (dat2 V c) 6 t (idleAt2_6 t (fun h => h1 ((hcond2_1 t).mp h))) (noFlush2_6 t (fun h => h1 ((hcond2_1 t).mp h)))]
      rw [Dat.leavesExact_idle (dat2 V c) 7 t (idleAt2_7 t (fun h => h1 ((hcond2_1 t).mp h))) (noFlush2_7 t (fun h => h1 ((hcond2_1 t).mp h)))]
      rw [accAt2_B V c t h0 h1]
      simp only [tileAt2, dif_neg h0, dif_neg h1]
      unfold out2_B_5 sout2_B_0 sout2_B_1; (try dsimp only)
      rw [PhiS2_castSucc V c t, PhiS2_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun2_B c (grid2.coords t) _ _ _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover2_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover2_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover2_B_5 c _ _ _ _ _ _ _ _ _ _ _ _ _ _ _ _ _ _ _ _ _ _ _ _ _ _ _ _ _ _)
      isplitl [H6]; · iexists _; iexact H6
      iexists _; iexact H7

/-- The body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the region's own buffers back at some contents. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 10 := N_2; omega), PhiA2_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Gen

end
-- ==== Proof.BitsStats4Runs.lean ====
/- Region 4: the linear map agg·Wlᵀ + h·Wrᵀ + b with the running column statistics, one grid point at a time.

   At each of the ten points the body forms the tile agg·Wlᵀ + h·Wrᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions over the grid -/

/-- "This is the first point": the body clears the accumulators. -/
abbrev cond4_0 (i : grid4.Coords) : Prop := (Scalar.cmpi .ne (Scalar.extui (Scalar.cmpi .eq (BitVec.ofNat 32 (i 0).val) 0#32)) 0#32) = 1#1
theorem hcond4_0 : ∀ t : Fin cfg4.N, cond4_0 (grid4.coords t) ↔ t.val = 0 :=
  (by decide +kernel : ∀ t : Fin grid4.N, cond4_0 (grid4.coords t) ↔ t.val = 0)
/-- "This is the last point": the body finalises the mean and the variance. -/
abbrev cond4_1 (i : grid4.Coords) : Prop := k4_cond2 i = 1#1
theorem hcond4_1 : ∀ t : Fin cfg4.N, cond4_1 (grid4.coords t) ↔ t.val = 9 :=
  (by decide +kernel : ∀ t : Fin grid4.N, cond4_1 (grid4.coords t) ↔ t.val = 9)

/-! ## Where a window's buffer is left alone -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
theorem liveAt4_3 : ∀ t : Fin cfg4.N, cfg4.idle 3 (grid4.coords t) = false := by decide +kernel
theorem liveAt4_4 : ∀ t : Fin cfg4.N, cfg4.idle 4 (grid4.coords t) = false := by decide +kernel
theorem liveAt4_5 : ∀ t : Fin cfg4.N, cfg4.idle 5 (grid4.coords t) = false := by decide +kernel
/-- Before the last point the body stores nothing into window 6 and its block is not written back. -/
theorem idleAt4_6 : ∀ t : Fin cfg4.N, ¬cond4_1 (grid4.coords t) → cfg4.idle 6 (grid4.coords t) = true := by decide +kernel
theorem noFlush4_6 : ∀ t : Fin cfg4.N, ¬cond4_1 (grid4.coords t) → (cfg4.win 6).flush t = false := by decide +kernel
theorem liveAt4_6_C : ∀ t : Fin cfg4.N, cond4_1 (grid4.coords t) → cfg4.idle 6 (grid4.coords t) = false := by decide +kernel
/-- Before the last point the body stores nothing into window 7 and its block is not written back. -/
theorem idleAt4_7 : ∀ t : Fin cfg4.N, ¬cond4_1 (grid4.coords t) → cfg4.idle 7 (grid4.coords t) = true := by decide +kernel
theorem noFlush4_7 : ∀ t : Fin cfg4.N, ¬cond4_1 (grid4.coords t) → (cfg4.win 7).flush t = false := by decide +kernel
theorem liveAt4_7_C : ∀ t : Fin cfg4.N, cond4_1 (grid4.coords t) → cfg4.idle 7 (grid4.coords t) = false := by decide +kernel

/-! ## The buffers the body is called on -/

abbrev ms4_0 (t : Fin cfg4.N) : Memref sig .tc .vmem S5000x128 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S5000x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S128x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S128x128 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1x128 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S5000x128 .f32 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1x128 .f32 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .vmem S1x128 .f32 := win4_7.stage (cfg4.slots t 7)
abbrev hs4_7 (t : Fin cfg4.N) : (ms4_7 t).IsWhole := hstage4_7 ((cfg4.slots t 7).cast nbuf4_7)
/-- The two accumulators: whole scratch buffers of the kernel's own. -/
abbrev scM4_0 : Memref sig .tc .vmem S1x128 .f32 := Memref.whole cc4_scratch0
abbrev scM4_1 : Memref sig .tc .vmem S1x128 .f32 := Memref.whole cc4_scratch1
/-- Views through which the contents of the buffers the body stores into are stated. -/
abbrev VO4_5 : View sig .tc .vmem S5000x128 .f32 := (Memref.whole cc4_stg5_0 : Memref sig .tc .vmem S5000x128 .f32).view
abbrev VO4_6 : View sig .tc .vmem S1x128 .f32 := (Memref.whole cc4_stg6_0 : Memref sig .tc .vmem S1x128 .f32).view
abbrev VO4_7 : View sig .tc .vmem S1x128 .f32 := (Memref.whole cc4_stg7_0 : Memref sig .tc .vmem S1x128 .f32).view
abbrev VS4_0 : View sig .tc .vmem S1x128 .f32 := scM4_0.view
abbrev VS4_1 : View sig .tc .vmem S1x128 .f32 := scM4_1.view

/-- What the region's own buffers and the generator register amount to: the two accumulators at some contents, the other
    scoped buffers unopened, the register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := Pipeline.UD sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun4_A (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32)  :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__sage_lin_stats_kernel_eq_skeleton]; unfold cc4__sage_lin_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d9, %f9, -, H9⟩, ⟨%d10, %f10, -, H10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun4_B (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__sage_lin_stats_kernel i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc4__sage_lin_stats_kernel_eq_skeleton]; unfold cc4__sage_lin_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H9]; · iexists _; iexact H9
    iexists _; iexact H10

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun4_C (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    Σ' (L5 : List (View.Piece (Elt F) S5000x128 .f32)) (L6 : List (View.Piece (Elt F) S1x128 .f32)) (L7 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc4__sage_lin_stats_kernel i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc4__sage_lin_stats_kernel_eq_skeleton]; unfold cc4__sage_lin_stats_kernel_skel
    simp only [k4_part1_eq_skeleton]; unfold k4_part1_skel
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, Hk⟩
    obtain rfl := harg1.eq_unread hf1; obtain rfl := harg2.eq_unread hf2; obtain rfl := harg3.eq_unread hf3; obtain rfl := harg4.eq_unread hf4; obtain rfl := harg5.eq_unread hf5
    obtain rfl := harg9.eq_unread hf9; obtain rfl := harg10.eq_unread hf10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]; · iexists _; iexact H9
    iexists _; iexact H10

end Cert.Kernel.Gen

end
-- ==== Proof.BitsStats4.lean ====
/- Region 4, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats4Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (Pipeline.UD sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## What each case's run leaves: its pieces cover the buffer, and read back over anything -/

theorem cover4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) (y : S5000x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).1 S5000x128.size (by sl_kernel_rfl) y
def out4_A_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) : Vec F S5000x128 .f32 :=
  VO4_5.read (Elt F) (VO4_5.writes (Elt F) VO4_5.junk (kernelRun4_A c i arg1 harg1 arg2 harg2 arg3 harg3 arg4 harg4 arg5 harg5 arg6 harg6 arg7 harg7 arg8 harg8 arg9 harg9 arg10 harg10 hc0 hc1 x0 x1 x2 x3 x4).1)
theorem scover4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.1 S1x128.size (by sl_kernel_rfl) y
def sout4_A_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) : Vec F S1x128 .f32 :=
  VS4_0.read (Elt F) (VS4_0.writes (Elt F) VS4_0.junk (kernelRun4_A c i arg1 harg1 arg2 harg2 arg3 harg3 arg4 harg4 arg5 harg5 arg6 harg6 arg7 harg7 arg8 harg8 arg9 harg9 arg10 harg10 hc0 hc1 x0 x1 x2 x3 x4).2.1)
theorem scover4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) (y : S1x128.Idx) :
    ∃ pc ∈ (kernelRun4_A c i arg1 harg1 arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun4_A c i arg1 harg1 arg2 harg2 arg3 harg3 arg4 harg4 arg5 harg5 arg6 harg6 arg7 harg7 arg8 harg8 arg9 harg9 arg10 harg10 hc0 hc1 x0 x1 x2 x3 x4).2.2.1 S1x128.size (by sl_kernel_rfl) y
def sout4_A_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i) (x0 : Vec F S5000x128 .f32) (x1 : Vec F S5000x128 .f32) (x2 : Vec F S128x128 .f32) (x3 : Vec F S128x128 .f32) (x4 : Vec F S1x128 .f32) : Vec F S1x128 .f32 :=
  VS4_1.read (Elt F) (VS4_1.writes (Elt F) VS4_1.junk (kernelRun4_A c i arg1 harg1 arg2 harg2 arg3 harg3 arg4 harg4 arg5 harg5 arg6 harg6 arg7 harg7 arg8 harg8 arg9 harg9 arg10 harg10 hc0 hc1 x0 x1 x2 x3 x4).2.2.1)
theorem cover4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out4_B_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).1)
theorem scover4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def sout4_B_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.1)
theorem scover4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def sout4_B_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_B c i arg1 harg1 arg2 harg2 arg3 harg3 arg4 harg4 arg5 harg5 arg6 harg6 arg7 harg7 arg8 harg8 arg9 harg9 arg10 harg10 hc0 hc1 x0 x1 x2 x3 x4 xs0 xs1).2.2.1)
theorem cover4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S5000x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).1 S5000x128.size (by sl_kernel_rfl) y
def out4_C_5 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S5000x128 .f32 :=
  VO4_5.read (Elt F) (VO4_5.writes (Elt F) VO4_5.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).1)
theorem cover4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1 S1x128.size (by sl_kernel_rfl) y
def out4_C_6 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_6.read (Elt F) (VO4_6.writes (Elt F) VO4_6.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.1)
theorem cover4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1 S1x128.size (by sl_kernel_rfl) y
def out4_C_7 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VO4_7.read (Elt F) (VO4_7.writes (Elt F) VO4_7.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.1)
theorem scover4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1 S1x128.size (by sl_kernel_rfl) y
def sout4_C_0 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_0.read (Elt F) (VS4_0.writes (Elt F) VS4_0.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.1)
theorem scover4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) (y : S1x128.Idx) :
    ∃ pc ∈ (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1, y ∈ pc.1.set :=
  View.cover_of_tiledL (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1 S1x128.size (by sl_kernel_rfl) y
def sout4_C_1 (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i) (x0 : Vec F S5000x128 .f32) (x1 : Vec F S5000x128 .f32) (x2 : Vec F S128x128 .f32) (x3 : Vec F S128x128 .f32) (x4 : Vec F S1x128 .f32) (xs0 xs1 : Vec F S1x128 .f32) : Vec F S1x128 .f32 :=
  VS4_1.read (Elt F) (VS4_1.writes (Elt F) VS4_1.junk (kernelRun4_C c i arg1 harg1 arg2 harg2 arg3 harg3 arg4 harg4 arg5 harg5 arg6 harg6 arg7 harg7 arg8 harg8 arg9 harg9 arg10 harg10 hc0 hc1 x0 x1 x2 x3 x4 xs0 xs1).2.2.2.2.1)

/-! ## The accumulators and the outputs after each point -/

/-- The two accumulators after point `n`. -/
def accAt4 (c : Dev nD) : (n : ℕ) → n < cfg4.N → Vec F S1x128 .f32 × Vec F S1x128 .f32
  | 0, hn =>
    have h0 : (⟨0, hn⟩ : Fin cfg4.N).val = 0 := rfl
    have h1 : ¬(⟨0, hn⟩ : Fin cfg4.N).val = 9 := fun h => absurd (show (0 : ℕ) = 9 from h) (by decide)
    (sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) scM4_0 (Memref.isWhole_whole _) scM4_1 (Memref.isWhole_whole _) ((hcond4_0 ⟨0, hn⟩).mpr h0) (fun h => h1 ((hcond4_1 ⟨0, hn⟩).mp h)) (iblk4 V c 0 ⟨0, hn⟩) (iblk4 V c 1 ⟨0, hn⟩) (iblk4 V c 2 ⟨0, hn⟩) (iblk4 V c 3 ⟨0, hn⟩) (iblk4 V c 4 ⟨0, hn⟩))
  | n + 1, hn =>
    have h0 : ¬(⟨n + 1, hn⟩ : Fin cfg4.N).val = 0 := Nat.succ_ne_zero n
    if h1 : (⟨n + 1, hn⟩ : Fin cfg4.N).val = 9 then
      (sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2)
    else
      (sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) scM4_0 (Memref.isWhole_whole _) scM4_1 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (accAt4 c n (Nat.lt_of_succ_lt hn)).1 (accAt4 c n (Nat.lt_of_succ_lt hn)).2)

theorem accAt4_A (c : Dev nD) (t : Fin cfg4.N) (h0 : t.val = 0) (h1 : ¬t.val = 9) :
    accAt4 V c t.val t.isLt = (sout4_A_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t), sout4_A_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)) := by
  obtain ⟨n, hn⟩ := t
  cases n with
  | zero => rfl
  | succ n => exact absurd h0 (Nat.succ_ne_zero n)

theorem accAt4_B (c : Dev nD) (t : Fin cfg4.N) (h0 : ¬t.val = 0) (h1 : ¬t.val = 9) :
    accAt4 V c t.val t.isLt = (sout4_B_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2, sout4_B_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2) := by
  obtain ⟨n, hn⟩ := t
  cases n with
  | zero => exact absurd rfl h0
  | succ n => exact (dif_neg h1).trans rfl

theorem accAt4_C (c : Dev nD) (t : Fin cfg4.N) (h0 : ¬t.val = 0) (h1 : t.val = 9) :
    accAt4 V c t.val t.isLt = (sout4_C_0 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2, sout4_C_1 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt4 (c : Dev nD) (t : Fin cfg4.N) : Vec F S5000x128 .f32 :=
  if h0 : t.val = 0 then
    if h1 : t.val = 9 then iblk4 V c 5 t else out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) ((hcond4_0 t).mpr h0) (fun h => h1 ((hcond4_1 t).mp h)) (iblk4 V c 0 t) (iblk4 V c 1 t) (iblk4 V c 2 t) (iblk4 V c 3 t) (iblk4 V c 4 t)
  else
    if h1 : t.val = 9 then out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2
    else out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) (fun h => h1 ((hcond4_1 t).mp h)) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2

/-- The mean and the variance rows after point `t`: the last point's run's (elsewhere the windows are left alone, and
    what is written here is never consulted). -/
def meanAt4 (c : Dev nD) (t : Fin cfg4.N) : Vec F S1x128 .f32 :=
  if h0 : t.val = 0 then iblk4 V c 6 t else if h1 : t.val = 9 then out4_C_6 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2 else iblk4 V c 6 t
def varAt4 (c : Dev nD) (t : Fin cfg4.N) : Vec F S1x128 .f32 :=
  if h0 : t.val = 0 then iblk4 V c 7 t else if h1 : t.val = 9 then out4_C_7 c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) scM4_0 (Memref.isWhole_whole _) scM4_1 (Memref.isWhole_whole _) (fun h => h0 ((hcond4_0 t).mp h)) ((hcond4_1 t).mpr h1) (iblk4 V c 0 t) (iblk4 V c 1 t) (iblk4 V c 2 t) (iblk4 V c 3 t) (iblk4 V c 4 t) (accAt4 V c (t.val - 1) (Nat.lt_of_le_of_lt (Nat.sub_le _ _) t.isLt)).1 (accAt4 V c (t.val - 1) (Nat.lt_of_le_of_lt (Nat.sub_le _ _) t.isLt)).2 else iblk4 V c 7 t

/-! ## The invariant between points and the proof data -/

/-- Before point `n`: at the start the region's own buffers at anything; afterwards the two accumulators at what the point
    before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((accAt4 V c n hn).1) ∗ owns (c : Thread nD τ) scM4_1 fullShare ((accAt4 V c n hn).2))
      ∗ Pipeline.scopedRestBut (Ix := Unit) (Name := ℕ) (U := Pipeline.UD sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl
theorem PhiS4_succ (c : Dev nD) (n : ℕ) (hn : n < cfg4.N) :
    PhiS4 V c (n + 1) hn = iprop(iprop(iprop(owns (c : Thread nD τ) scM4_0 fullShare ((accAt4 V c n hn).1) ∗ owns (c : Thread nD τ) scM4_1 fullShare ((accAt4 V c n hn).2))
      ∗ Pipeline.scopedRestBut (Ix := Unit) (Name := ℕ) (U := Pipeline.UD sig nD τ) (Lvl := ℕ) (Val := Elt F) spec4 c [cc4_scratch0, cc4_scratch1]) ∗ (∃ r, prngReg c r)) := rfl
theorem PhiS4_pos (c : Dev nD) (n : ℕ) (h : n ≤ cfg4.N) (hz : n ≠ 0) :
    PhiS4 V c n h = iprop(iprop(iprop(owns (c : Thread nD τ) scM4_0 fullShare ((accAt4 V c (n - 1) (by omega)).1) ∗ owns (c : Thread nD τ) scM4_1 fullShare ((accAt4 V c (n - 1) (by omega)).2))
      ∗ Pipeline.scopedRestBut (Ix := Unit) (Name := ℕ) (U := Pipeline.UD sig nD τ) (Lvl := ℕ) (Val := Elt F) spec4 c [cc4_scratch0, cc4_scratch1]) ∗ (∃ r, prngReg c r)) := by
  cases n with
  | zero => exact absurd rfl hz
  | succ n => rfl

/-- The proof data of this region on core `c`. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => tileAt4 V c t
    | ⟨6, _⟩ => meanAt4 V c t
    | ⟨7, _⟩ => varAt4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem PhiS4_castSucc (c : Dev nD) (t : Fin cfg4.N) :
    (dat4 V c).Φ t.castSucc = PhiS4 V c t.val (Nat.le_of_lt t.isLt) := by
  dsimp only [dat4]; simp only [Fin.coe_castSucc]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = tileAt4 V c t := by dsimp only [dat4]
theorem after4_6 (c : Dev nD) (t : Fin cfg4.N) : (dat4 V c).after 6 t = meanAt4 V c t := by dsimp only [dat4]
theorem after4_7 (c : Dev nD) (t : Fin cfg4.N) : (dat4 V c).after 7 t = varAt4 V c t := by dsimp only [dat4]
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

end Cert.Kernel.Gen

end
-- ==== Proof.BitsStats4Body.lean ====
/- Region 4, concluded: the body obligation at every grid point, by the three cases, and the invariant at the region's ends. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  rw [show (dat4 V c).leavesExact 3 t = owns (c : Thread nD τ) (ms4_3 t) fullShare ((dat4 V c).after 3 t) from by
    unfold Dat.leavesExact; rw [liveAt4_3 t], after4_3]
  rw [show (dat4 V c).leavesExact 4 t = owns (c : Thread nD τ) (ms4_4 t) fullShare ((dat4 V c).after 4 t) from by
    unfold Dat.leavesExact; rw [liveAt4_4 t], after4_4]
  rw [show (dat4 V c).leavesExact 5 t = owns (c : Thread nD τ) (ms4_5 t) fullShare ((dat4 V c).after 5 t) from by
    unfold Dat.leavesExact; rw [liveAt4_5 t], after4_5]
  have hN : t.val < 10 := lt_of_lt_of_eq t.isLt N_4
  by_cases h0 : t.val = 0
  · have h1 : ¬t.val = 9 := by omega
    rw [Dat.leavesExact_idle (dat4 V c) 6 t (idleAt4_6 t (fun h => h1 ((hcond4_1 t).mp h))) (noFlush4_6 t (fun h => h1 ((hcond4_1 t).mp h)))]
    rw [Dat.leavesExact_idle (dat4 V c) 7 t (idleAt4_7 t (fun h => h1 ((hcond4_1 t).mp h))) (noFlush4_7 t (fun h => h1 ((hcond4_1 t).mp h)))]
    rw [accAt4_A V c t h0 h1]
    simp only [tileAt4, dif_pos h0, dif_neg h1]
    unfold out4_A_5 sout4_A_0 sout4_A_1; (try dsimp only)
    rw [PhiS4_castSucc V c t, PhiS4_zero V c _ _ h0, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((kernelRun4_A c (grid4.coords t) _ _ _ _ _ _ _ _ _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    iintro ⟨H0, H1, H2, H3, H4, ⟨%e5, H5⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_of_cover _ _ _ _ _ (cover4_A_5 c _ _ _ _ _ _ _ _ _ _ _ _ _ _ _ _ _ _ _ _ _ _ _ _ _ _ _ _)
    isplitl [H6]; · iexists _; iexact H6
    iexists _; iexact H7
  · by_cases h1 : t.val = 9
    · rw [show (dat4 V c).leavesExact 6 t = owns (c : Thread nD τ) (ms4_6 t) fullShare ((dat4 V c).after 6 t) from by
        unfold Dat.leavesExact; rw [liveAt4_6_C t ((hcond4_1 t).mpr h1)], after4_6]
      rw [show (dat4 V c).leavesExact 7 t = owns (c : Thread nD τ) (ms4_7 t) fullShare ((dat4 V c).after 7 t) from by
        unfold Dat.leavesExact; rw [liveAt4_7_C t ((hcond4_1 t).mpr h1)], after4_7]
      rw [accAt4_C V c t h0 h1]
      simp only [tileAt4, meanAt4, varAt4, dif_neg h0, dif_pos h1]
      unfold out4_C_5 out4_C_6 out4_C_7 sout4_C_0 sout4_C_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_C c (grid4.coords t) _ _ _ _ _ _ _ _ _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _ _).2.2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, ⟨%e5, H5⟩, ⟨%e6, H6⟩, ⟨%e7, H7⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_C_5 c _ _ _ _ _ _ _ _ _ _ _ _ _ _ _ _ _ _ _ _ _ _ _ _ _ _ _ _ _ _)
      isplitl [H6]
      · unfold owns; iexists _; isplitr
        swap; · iexact H6
        ipureintro; exact View.read_writes_of_cover _ _ _ _ _ (cover4_C_6 c _ _ _ _ _ _ _ _ _ _ _ _ _ _ _ _ _ _ _ _ _ _ _ _ _ _ _ _ _ _)
      · unfold owns; iexists _; isplitr
        swap; · iexact H7
        ipureintro; exact View.read_writes_of_cover _ _ _ _ _ (cover4_C_7 c _ _ _ _ _ _ _ _ _ _ _ _ _ _ _ _ _ _ _ _ _ _ _ _ _ _ _ _ _ _)
    · rw [Dat.leavesExact_idle (dat4 V c) 6 t (idleAt4_6 t (fun h => h1 ((hcond4_1 t).mp h))) (noFlush4_6 t (fun h => h1 ((hcond4_1 t).mp h)))]
      rw [Dat.leavesExact_idle (dat4 V c) 7 t (idleAt4_7 t (fun h => h1 ((hcond4_1 t).mp h))) (noFlush4_7 t (fun h => h1 ((hcond4_1 t).mp h)))]
      rw [accAt4_B V c t h0 h1]
      simp only [tileAt4, dif_neg h0, dif_neg h1]
      unfold out4_B_5 sout4_B_0 sout4_B_1; (try dsimp only)
      rw [PhiS4_castSucc V c t, PhiS4_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((kernelRun4_B c (grid4.coords t) _ _ _ _ _ _ _ _ _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _ _).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover4_B_5 c _ _ _ _ _ _ _ _ _ _ _ _ _ _ _ _ _ _ _ _ _ _ _ _ _ _ _ _ _ _)
      isplitl [H6]; · iexists _; iexact H6
      iexists _; iexact H7

/-- The body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After the last point the invariant gives the region's own buffers back at some contents. -/
theorem hout4 (c : Dev nD) : (dat4 V c).Φ (Fin.last cfg4.N) ⊢ Pipeline.ΦA spec4 c := by
  rw [show (dat4 V c).Φ (Fin.last cfg4.N) = PhiS4 V c (Fin.last cfg4.N).val (Nat.le_of_lt_succ (Fin.last cfg4.N).isLt) from rfl,
    PhiS4_pos V c _ _ (by rw [Fin.val_last]; have : cfg4.N = 10 := N_4; omega), PhiA4_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Gen

end
-- ==== Proof.BitsStats6Runs.lean ====
/- Region 6: the linear map x·Wᵀ + b with the running column statistics, one grid point at a time.

   At each of the ten points the body forms the tile x·Wᵀ + b and adds its column sums and the column sums of
   its squares into two [1,128] accumulators that live between points; the first point clears the accumulators before
   adding, and the last point also turns them into the column mean Σ/n and the column variance max(Σ²/n − mean², 0).
   Here: the two branch conditions in closed form over the grid, where the mean and variance windows are left alone,
   and the body's run in each of the three cases (first point, a middle point, last point). -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two branch conditions over the grid -/

/-- "This is the first point": the body clears the accumulators. -/
abbrev cond6_0 (i : grid6.Coords) : Prop := (Scalar.cmpi .ne (Scalar.extui (Scalar.cmpi .eq (BitVec.ofNat 32 (i 0).val) 0#32)) 0#32) = 1#1
theorem hcond6_0 : ∀ t : Fin cfg6.N, cond6_0 (grid6.coords t) ↔ t.val = 0 :=
  (by decide +kernel : ∀ t : Fin grid6.N, cond6_0 (grid6.coords t) ↔ t.val = 0)
/-- "This is the last point": the body finalises the mean and the variance. -/
abbrev cond6_1 (i : grid6.Coords) : Prop := k6_cond2 i = 1#1
theorem hcond6_1 : ∀ t : Fin cfg6.N, cond6_1 (grid6.coords t) ↔ t.val = 9 :=
  (by decide +kernel : ∀ t : Fin grid6.N, cond6_1 (grid6.coords t) ↔ t.val = 9)

/-! ## Where a window's buffer is left alone -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
theorem liveAt6_3 : ∀ t : Fin cfg6.N, cfg6.idle 3 (grid6.coords t) = false := by decide +kernel
/-- Before the last point the body stores nothing into window 4 and its block is not written back. -/
theorem idleAt6_4 : ∀ t : Fin cfg6.N, ¬cond6_1 (grid6.coords t) → cfg6.idle 4 (grid6.coords t) = true := by decide +kernel
theorem noFlush6_4 : ∀ t : Fin cfg6.N, ¬cond6_1 (grid6.coords t) → (cfg6.win 4).flush t = false := by decide +kernel
theorem liveAt6_4_C : ∀ t : Fin cfg6.N, cond6_1 (grid6.coords t) → cfg6.idle 4 (grid6.coords t) = false := by decide +kernel
/-- Before the last point the body stores nothing into window 5 and its block is not written back. -/
theorem idleAt6_5 : ∀ t : Fin cfg6.N, ¬cond6_1 (grid6.coords t) → cfg6.idle 5 (grid6.coords t) = true := by decide +kernel
theorem noFlush6_5 : ∀ t : Fin cfg6.N, ¬cond6_1 (grid6.coords t) → (cfg6.win 5).flush t = false := by decide +kernel
theorem liveAt6_5_C : ∀ t : Fin cfg6.N, cond6_1 (grid6.coords t) → cfg6.idle 5 (grid6.coords t) = false := by decide +kernel

/-! ## The buffers the body is called on -/

abbrev ms6_0 (t : Fin cfg6.N) : Memref sig .tc .vmem S5000x128 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S128x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S5000x128 .f32 := win6_3.stage (cfg6.slots t 3)
abbrev hs6_3 (t : Fin cfg6.N) : (ms6_3 t).IsWhole := hstage6_3 ((cfg6.slots t 3).cast nbuf6_3)
abbrev ms6_4 (t : Fin cfg6.N) : Memref sig .tc .vmem S1x128 .f32 := win6_4.stage (cfg6.slots t 4)
abbrev hs6_4 (t : Fin cfg6.N) : (ms6_4 t).IsWhole := hstage6_4 ((cfg6.slots t 4).cast nbuf6_4)
abbrev ms6_5 (t : Fin cfg6.N) : Memref sig .tc .vmem S1x128 .f32 := win6_5.stage (cfg6.slots t 5)
abbrev hs6_5 (t : Fin cfg6.N) : (ms6_5 t).IsWhole := hstage6_5 ((cfg6.slots t 5).cast nbuf6_5)
/-- The two accumulators: whole scratch buffers of the kernel's own. -/
abbrev scM6_0 : Memref sig .tc .vmem S1x128 .f32 := Memref.whole cc6_scratch0
abbrev scM6_1 : Memref sig .tc .vmem S1x128 .f32 := Memref.whole cc6_scratch1
/-- Views through which the contents of the buffers the body stores into are stated. -/
abbrev VO6_3 : View sig .tc .vmem S5000x128 .f32 := (Memref.whole cc6_stg3_0 : Memref sig .tc .vmem S5000x128 .f32).view
abbrev VO6_4 : View sig .tc .vmem S1x128 .f32 := (Memref.whole cc6_stg4_0 : Memref sig .tc .vmem S1x128 .f32).view
abbrev VO6_5 : View sig .tc .vmem S1x128 .f32 := (Memref.whole cc6_stg5_0 : Memref sig .tc .vmem S1x128 .f32).view
abbrev VS6_0 : View sig .tc .vmem S1x128 .f32 := scM6_0.view
abbrev VS6_1 : View sig .tc .vmem S1x128 .f32 := scM6_1.view

/-- What the region's own buffers and the generator register amount to: the two accumulators at some contents, the other
    scoped buffers unopened, the register at some state. -/
theorem PhiA6_eq (c : Dev nD) :
    (Pipeline.ΦA spec6 c : sProp 𝕄)
      = iprop(iprop(iprop((∃ d, owns (c : Thread nD τ) scM6_0 fullShare d) ∗ (∃ d, owns (c : Thread nD τ) scM6_1 fullShare d))
          ∗ Pipeline.scopedRestBut (Ix := Unit) (Name := ℕ) (U := Pipeline.UD sig nD τ) (Lvl := ℕ) (Val := Elt F) spec6 c [cc6_scratch0, cc6_scratch1]) ∗ (∃ r, prngReg c r)) := by
  unfold Pipeline.ΦA; rw [scopedRest6_split]; simp only [scM6_0, scM6_1, owns_whole]; try rfl

/-! ## The body's run, case by case -/

set_option maxHeartbeats 4000000 in
/-- The body's run at the FIRST point (the accumulators are cleared, then added to; nothing is finalised): on whole staging buffers, the inputs at their contents, the output tile at anything, the
    body runs to the end leaving the inputs as they were and each buffer it stores into with the pieces written that the
    run finds. -/
noncomputable def kernelRun6_A (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S1x128 .f32)  :
    Σ' (L3 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__lin_bias_stats_kernel i arg1 harg1 arg2 harg2 arg3 harg3 arg4 harg4 arg5 harg5 arg6 harg6 arg7 harg7 arg8 harg8) K } := by
  refine ⟨?_, ?_, ?_, fun E K => ?run⟩
  case run =>
    simp only [cc6__lin_bias_stats_kernel_eq_skeleton]; unfold cc6__lin_bias_stats_kernel_skel
    simp only [k6_part1_eq_skeleton]; unfold k6_part1_skel
    unfold owns
    iintro ⟨⟨%f1, %hf1, H1⟩, ⟨%f2, %hf2, H2⟩, ⟨%f3, %hf3, H3⟩, ⟨%d4, %f4, -, H4⟩, ⟨%d7, %f7, -, H7⟩, ⟨%d8, %f8, -, H8⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H7]; · iexists _; iexact H7
    iexists _; iexact H8

set_option maxHeartbeats 4000000 in
/-- The body's run at a MIDDLE point (the accumulators are added to): on whole staging buffers, the inputs at their contents, the output tile at anything, the
    body runs to the end leaving the inputs as they were and each buffer it stores into with the pieces written that the
    run finds. -/
noncomputable def kernelRun6_B (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S1x128 .f32) (xs0 xs1 : Vec F S1x128 .f32) :
    Σ' (L3 : List (View.Piece (Elt F) S5000x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__lin_bias_stats_kernel i arg1 harg1 arg2 harg2 arg3 harg3 arg4 harg4 arg5 harg5 arg6 harg6 arg7 harg7 arg8 harg8) K } := by
  refine ⟨?_, ?_, ?_, fun E K => ?run⟩
  case run =>
    simp only [cc6__lin_bias_stats_kernel_eq_skeleton]; unfold cc6__lin_bias_stats_kernel_skel
    simp only [k6_part1_eq_skeleton]; unfold k6_part1_skel
    unfold owns
    iintro ⟨⟨%f1, %hf1, H1⟩, ⟨%f2, %hf2, H2⟩, ⟨%f3, %hf3, H3⟩, ⟨%d4, %f4, -, H4⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H7]; · iexists _; iexact H7
    iexists _; iexact H8

set_option maxHeartbeats 4000000 in
/-- The body's run at the LAST point (the accumulators are added to, then the mean and the variance are stored): on whole staging buffers, the inputs at their contents, the output tile at anything, the
    body runs to the end leaving the inputs as they were and each buffer it stores into with the pieces written that the
    run finds. -/
noncomputable def kernelRun6_C (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    Σ' (L3 : List (View.Piece (Elt F) S5000x128 .f32)) (L4 : List (View.Piece (Elt F) S1x128 .f32)) (L5 : List (View.Piece (Elt F) S1x128 .f32)) (LS0 : List (View.Piece (Elt F) S1x128 .f32)), { LS1 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d) ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1)) -∗ K ⟨⟩))
          ⊢ wp frame (wpE (defs₀ (F := F)) Variants.none c none) E (cc6__lin_bias_stats_kernel i arg1 harg1 arg2 harg2 arg3 harg3 arg4 harg4 arg5 harg5 arg6 harg6 arg7 harg7 arg8 harg8) K } := by
  refine ⟨?_, ?_, ?_, ?_, ?_, fun E K => ?run⟩
  case run =>
    simp only [cc6__lin_bias_stats_kernel_eq_skeleton]; unfold cc6__lin_bias_stats_kernel_skel
    simp only [k6_part1_eq_skeleton]; unfold k6_part1_skel
    unfold owns
    iintro ⟨⟨%f1, %hf1, H1⟩, ⟨%f2, %hf2, H2⟩, ⟨%f3, %hf3, H3⟩, ⟨%d4, %f4, -, H4⟩, ⟨%d5, %f5, -, H5⟩, ⟨%d6, %f6, -, H6⟩, ⟨%f7, %hf7, H7⟩, ⟨%f8, %hf8, H8⟩, Hk⟩
    obtain rfl := harg1.eq_unread hf1; obtain rfl := harg2.eq_unread hf2; obtain rfl := harg3.eq_unread hf3
    obtain rfl := harg7.eq_unread hf7; obtain rfl := harg8.eq_unread hf8
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    isplitl [H7]; · iexists _; iexact H7
    iexists _; iexact H8

end Cert.Kernel.Gen

end
-- ==== Proof.BitsStats6.lean ====
/- Region 6, continued: what the region's buffers hold after each grid point, and the proof data.

   The two accumulators after point n are defined by recursion on n — the first point's run from cleared accumulators,
   every later point's run from what the point before left —; the output tile after a point is that point's run's;
   the mean and variance windows are written only by the last point's run. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats6Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## What each case's run leaves: its pieces cover the buffer, and read back over anything -/

theorem cover6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) (y : S5000x128.Idx) :
    ∃ pc ∈ (kernelRun6_A c i arg1 harg1 arg2 harg2 arg3 harg3 arg4 harg4 arg5 harg5 arg6 harg6 arg7 harg7 arg8 harg8 hc0 hc1 x0 x1 x2).1, y ∈ pc.1.set :=
  View.cover_of_tiledL (kernelRun6_A c i arg1 harg1 arg2 harg2 arg3 harg3 arg4 harg4 arg5 harg5 arg6 harg6 arg7 harg7 arg8 harg8 hc0 hc1 x0 x1 x2).1 S5000x128.size (by sl_kernel_rfl) y
def out6_A_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) : Vec F S5000x128 .f32 :=
  VO6_3.read (Elt F) (VO6_3.writes (Elt F) VO6_3.junk (kernelRun6_A c i arg1 harg1 arg2 harg2 arg3 harg3 arg4 harg4 arg5 harg5 arg6 harg6 arg7 harg7 arg8 harg8 hc0 hc1 x0 x1 x2).1)
theorem scover6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.1, y ∈ pc.1.set :=
  View.cover_of_tiledL (kernelRun6_A c i arg1 harg1 arg2 harg2 arg3 harg3 arg4 harg4 arg5 harg5 arg6 harg6 arg7 harg7 arg8 harg8 hc0 hc1 x0 x1 x2).2.1 S1x128.size (by sl_kernel_rfl) y
def sout6_A_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) : Vec F S1x128 .f32 :=
  VS6_0.read (Elt F) (VS6_0.writes (Elt F) VS6_0.junk (kernelRun6_A c i arg1 harg1 arg2 harg2 arg3 harg3 arg4 harg4 arg5 harg5 arg6 harg6 arg7 harg7 arg8 harg8 hc0 hc1 x0 x1 x2).2.1)
theorem scover6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) (y : S1x128.Idx) :
    ∃ pc ∈ (kernelRun6_A c i arg1 harg1 arg2 harg2 arg3 harg3 arg4 harg4 arg5 harg5 arg6 harg6 arg7 harg7 arg8 harg8 hc0 hc1 x0 x1 x2).2.2.1, y ∈ pc.1.set :=
  View.cover_of_tiledL (kernelRun6_A c i arg1 harg1 arg2 harg2 arg3 harg3 arg4 harg4 arg5 harg5 arg6 harg6 arg7 harg7 arg8 harg8 hc0 hc1 x0 x1 x2).2.2.1 S1x128.size (by sl_kernel_rfl) y
def sout6_A_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i) (x0 : Vec F S5000x128 .f32) (x1 : Vec F S128x128 .f32) (x2 : Vec F S1x128 .f32) : Vec F S1x128 .f32 :=
  VS6_1.read (Elt F) (VS6_1.writes (Elt F) VS6_1.junk (kernelRun6_A c i arg1 harg1 arg2 harg2 arg3 harg3 arg4 harg4 arg5 harg5 arg6 harg6 arg7 harg7 arg8 harg8 hc0 hc1 x0 x1 x2).2.2.1)
theorem cover6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) (y : S5000x128.Idx) :
    ∃ pc ∈ (kernelRun6_B c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).1 S5000x128.size (by sl_kernel_rfl) y
def out6_B_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) : Vec F S5000x128 .f32 :=
  VO6_3.read (Elt F) (VO6_3.writes (Elt F) VO6_3.junk (kernelRun6_B c i arg1 harg1 arg2 harg2 arg3 harg3 arg4 harg4 arg5 harg5 arg6 harg6 arg7 harg7 arg8 harg8 hc0 hc1 x0 x1 x2 xs0 xs1).1)
theorem scover6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.1 S1x128.size (by sl_kernel_rfl) y
def sout6_B_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_B c i arg1 harg1 arg2 harg2 arg3 harg3 arg4 harg4 arg5 harg5 arg6 harg6 arg7 harg7 arg8 harg8 hc0 hc1 x0 x1 x2 xs0 xs1).2.1)
theorem scover6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) (y : S1x128.Idx) :
    ∃ pc ∈ (kernelRun6_B c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_B c i arg1 harg1 arg2 harg2 arg3 harg3 arg4 harg4 arg5 harg5 arg6 harg6 arg7 harg7 arg8 harg8 hc0 hc1 x0 x1 x2 xs0 xs1).2.2.1 S1x128.size (by sl_kernel_rfl) y
def sout6_B_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i) (x0 : Vec F S5000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_B c i arg1 harg1 arg2 harg2 arg3 harg3 arg4 harg4 arg5 harg5 arg6 harg6 arg7 harg7 arg8 harg8 hc0 hc1 x0 x1 x2 xs0 xs1).2.2.1)
theorem cover6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S5000x128.Idx) :
    ∃ pc ∈ (kernelRun6_C c i arg1 harg1 arg2 harg2 arg3 harg3 arg4 harg4 arg5 harg5 arg6 harg6 arg7 harg7 arg8 harg8 hc0 hc1 x0 x1 x2 xs0 xs1).1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).1 S5000x128.size (by sl_kernel_rfl) y
def out6_C_3 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S5000x128 .f32 :=
  VO6_3.read (Elt F) (VO6_3.writes (Elt F) VO6_3.junk (kernelRun6_C c i arg1 harg1 arg2 harg2 arg3 harg3 arg4 harg4 arg5 harg5 arg6 harg6 arg7 harg7 arg8 harg8 hc0 hc1 x0 x1 x2 xs0 xs1).1)
theorem cover6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.1 S1x128.size (by sl_kernel_rfl) y
def out6_C_4 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VO6_4.read (Elt F) (VO6_4.writes (Elt F) VO6_4.junk (kernelRun6_C c i arg1 harg1 arg2 harg2 arg3 harg3 arg4 harg4 arg5 harg5 arg6 harg6 arg7 harg7 arg8 harg8 hc0 hc1 x0 x1 x2 xs0 xs1).2.1)
theorem cover6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.1 S1x128.size (by sl_kernel_rfl) y
def out6_C_5 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VO6_5.read (Elt F) (VO6_5.writes (Elt F) VO6_5.junk (kernelRun6_C c i arg1 harg1 arg2 harg2 arg3 harg3 arg4 harg4 arg5 harg5 arg6 harg6 arg7 harg7 arg8 harg8 hc0 hc1 x0 x1 x2 xs0 xs1).2.2.1)
theorem scover6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.1 S1x128.size (by sl_kernel_rfl) y
def sout6_C_0 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VS6_0.read (Elt F) (VS6_0.writes (Elt F) VS6_0.junk (kernelRun6_C c i arg1 harg1 arg2 harg2 arg3 harg3 arg4 harg4 arg5 harg5 arg6 harg6 arg7 harg7 arg8 harg8 hc0 hc1 x0 x1 x2 xs0 xs1).2.2.2.1)
theorem scover6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) (y : S1x128.Idx) :
    ∃ pc ∈ (kernelRun6_C c i arg1 harg1 arg2 harg2 arg3 harg3 arg4 harg4 arg5 harg5 arg6 harg6 arg7 harg7 arg8 harg8 hc0 hc1 x0 x1 x2 xs0 xs1).2.2.2.2.1, y ∈ pc.1.set :=
  View.cover_of_tiledL (kernelRun6_C c i arg1 harg1 arg2 harg2 arg3 harg3 arg4 harg4 arg5 harg5 arg6 harg6 arg7 harg7 arg8 harg8 hc0 hc1 x0 x1 x2 xs0 xs1).2.2.2.2.1 S1x128.size (by sl_kernel_rfl) y
def sout6_C_1 (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i) (x0 : Vec F S5000x128 .f32) (x1 : Vec F S128x128 .f32) (x2 : Vec F S1x128 .f32) (xs0 xs1 : Vec F S1x128 .f32) : Vec F S1x128 .f32 :=
  VS6_1.read (Elt F) (VS6_1.writes (Elt F) VS6_1.junk (kernelRun6_C c i arg1 harg1 arg2 harg2 arg3 harg3 arg4 harg4 arg5 harg5 arg6 harg6 arg7 harg7 arg8 harg8 hc0 hc1 x0 x1 x2 xs0 xs1).2.2.2.2.1)

/-! ## The accumulators and the outputs after each point -/

/-- The two accumulators after point `n`. -/
def accAt6 (c : Dev nD) : (n : ℕ) → n < cfg6.N → Vec F S1x128 .f32 × Vec F S1x128 .f32
  | 0, hn =>
    have h0 : (⟨0, hn⟩ : Fin cfg6.N).val = 0 := rfl
    have h1 : ¬(⟨0, hn⟩ : Fin cfg6.N).val = 9 := fun h => absurd (show (0 : ℕ) = 9 from h) (by decide)
    (sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩), sout6_A_1 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) (ms6_4 ⟨0, hn⟩) (hs6_4 ⟨0, hn⟩) (ms6_5 ⟨0, hn⟩) (hs6_5 ⟨0, hn⟩) scM6_0 (Memref.isWhole_whole _) scM6_1 (Memref.isWhole_whole _) ((hcond6_0 ⟨0, hn⟩).mpr h0) (fun h => h1 ((hcond6_1 ⟨0, hn⟩).mp h)) (iblk6 V c 0 ⟨0, hn⟩) (iblk6 V c 1 ⟨0, hn⟩) (iblk6 V c 2 ⟨0, hn⟩))
  | n + 1, hn =>
    have h0 : ¬(⟨n + 1, hn⟩ : Fin cfg6.N).val = 0 := Nat.succ_ne_zero n
    if h1 : (⟨n + 1, hn⟩ : Fin cfg6.N).val = 9 then
      (sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2, sout6_C_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2)
    else
      (sout6_B_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2, sout6_B_1 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) (ms6_4 ⟨n + 1, hn⟩) (hs6_4 ⟨n + 1, hn⟩) (ms6_5 ⟨n + 1, hn⟩) (hs6_5 ⟨n + 1, hn⟩) scM6_0 (Memref.isWhole_whole _) scM6_1 (Memref.isWhole_whole _) (fun h => h0 ((hcond6_0 ⟨n + 1, hn⟩).mp h)) (fun h => h1 ((hcond6_1 ⟨n + 1, hn⟩).mp h)) (iblk6 V c 0 ⟨n + 1, hn⟩) (iblk6 V c 1 ⟨n + 1, hn⟩) (iblk6 V c 2 ⟨n + 1, hn⟩) (accAt6 c n (Nat.lt_of_succ_lt hn)).1 (accAt6 c n (Nat.lt_of_succ_lt hn)).2)

theorem accAt6_A (c : Dev nD) (t : Fin cfg6.N) (h0 : t.val = 0) (h1 : ¬t.val = 9) :
    accAt6 V c t.val t.isLt = (sout6_A_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t), sout6_A_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => rfl
  | succ n => exact absurd h0 (Nat.succ_ne_zero n)

theorem accAt6_B (c : Dev nD) (t : Fin cfg6.N) (h0 : ¬t.val = 0) (h1 : ¬t.val = 9) :
    accAt6 V c t.val t.isLt = (sout6_B_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2, sout6_B_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2) := by
  obtain ⟨n, hn⟩ := t
  cases n with
  | zero => exact absurd rfl h0
  | succ n => exact (dif_neg h1).trans rfl

theorem accAt6_C (c : Dev nD) (t : Fin cfg6.N) (h0 : ¬t.val = 0) (h1 : t.val = 9) :
    accAt6 V c t.val t.isLt = (sout6_C_0 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2, sout6_C_1 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2) := by
  obtain ⟨n, hn⟩ := t
  cases n with
  | zero => exact absurd rfl h0
  | succ n => exact (dif_pos h1).trans rfl

/-- The output tile after point `t`: that point's run's. -/
def tileAt6 (c : Dev nD) (t : Fin cfg6.N) : Vec F S5000x128 .f32 :=
  if h0 : t.val = 0 then
    if h1 : t.val = 9 then iblk6 V c 3 t else out6_A_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) ((hcond6_0 t).mpr h0) (fun h => h1 ((hcond6_1 t).mp h)) (iblk6 V c 0 t) (iblk6 V c 1 t) (iblk6 V c 2 t)
  else
    if h1 : t.val = 9 then out6_C_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2
    else out6_B_3 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) (fun h => h1 ((hcond6_1 t).mp h)) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2

/-- The mean and the variance rows after point `t`: the last point's run's (elsewhere the windows are left alone, and
    what is written here is never consulted). -/
def meanAt6 (c : Dev nD) (t : Fin cfg6.N) : Vec F S1x128 .f32 :=
  if h0 : t.val = 0 then iblk6 V c 4 t else if h1 : t.val = 9 then out6_C_4 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2 else iblk6 V c 4 t
def varAt6 (c : Dev nD) (t : Fin cfg6.N) : Vec F S1x128 .f32 :=
  if h0 : t.val = 0 then iblk6 V c 5 t else if h1 : t.val = 9 then out6_C_5 c (grid6.coords t) (ms6_0 t) (hs6_0 t) (ms6_1 t) (hs6_1 t) (ms6_2 t) (hs6_2 t) (ms6_3 t) (hs6_3 t) (ms6_4 t) (hs6_4 t) (ms6_5 t) (hs6_5 t) scM6_0 (Memref.isWhole_whole _) scM6_1 (Memref.isWhole_whole _) (fun h => h0 ((hcond6_0 t).mp h)) ((hcond6_1 t).mpr h1) (iblk6 V c 0 t) (iblk6 V c 1 t) (iblk6 V c 2 t) (accAt6 V c (t.val - 1) (Nat.lt_of_le_of_lt (Nat.sub_le _ _) t.isLt)).1 (accAt6 V c (t.val - 1) (Nat.lt_of_le_of_lt (Nat.sub_le _ _) t.isLt)).2 else iblk6 V c 5 t

/-! ## The invariant between points and the proof data -/

/-- Before point `n`: at the start the region's own buffers at anything; afterwards the two accumulators at what the point
    before left, the other scoped buffers unopened, the generator register at some state. -/
def PhiS6 (c : Dev nD) : (n : ℕ) → n ≤ cfg6.N → sProp 𝕄
  | 0, _ => Pipeline.ΦA spec6 c
  | n + 1, hn => iprop(iprop(iprop(owns (c : Thread nD τ) scM6_0 fullShare ((accAt6 V c n hn).1) ∗ owns (c : Thread nD τ) scM6_1 fullShare ((accAt6 V c n hn).2))
      ∗ Pipeline.scopedRestBut (Ix := Unit) (Name := ℕ) (U := Pipeline.UD sig nD τ) (Lvl := ℕ) (Val := Elt F) spec6 c [cc6_scratch0, cc6_scratch1]) ∗ (∃ r, prngReg c r))

theorem PhiS6_zero (c : Dev nD) (n : ℕ) (h : n ≤ cfg6.N) (hz : n = 0) : PhiS6 V c n h = Pipeline.ΦA spec6 c := by
  subst hz; rfl
theorem PhiS6_succ (c : Dev nD) (n : ℕ) (hn : n < cfg6.N) :
    PhiS6 V c (n + 1) hn = iprop(iprop(iprop(owns (c : Thread nD τ) scM6_0 fullShare ((accAt6 V c n hn).1) ∗ owns (c : Thread nD τ) scM6_1 fullShare ((accAt6 V c n hn).2))
      ∗ Pipeline.scopedRestBut (Ix := Unit) (Name := ℕ) (U := Pipeline.UD sig nD τ) (Lvl := ℕ) (Val := Elt F) spec6 c [cc6_scratch0, cc6_scratch1]) ∗ (∃ r, prngReg c r)) := rfl
theorem PhiS6_pos (c : Dev nD) (n : ℕ) (h : n ≤ cfg6.N) (hz : n ≠ 0) :
    PhiS6 V c n h = iprop(iprop(iprop(owns (c : Thread nD τ) scM6_0 fullShare ((accAt6 V c (n - 1) (by omega)).1) ∗ owns (c : Thread nD τ) scM6_1 fullShare ((accAt6 V c (n - 1) (by omega)).2))
      ∗ Pipeline.scopedRestBut (Ix := Unit) (Name := ℕ) (U := Pipeline.UD sig nD τ) (Lvl := ℕ) (Val := Elt F) spec6 c [cc6_scratch0, cc6_scratch1]) ∗ (∃ r, prngReg c r)) := by
  cases n with
  | zero => exact absurd rfl hz
  | succ n => rfl

/-- The proof data of this region on core `c`. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => tileAt6 V c t
    | ⟨4, _⟩ => meanAt6 V c t
    | ⟨5, _⟩ => varAt6 V c t
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem PhiS6_castSucc (c : Dev nD) (t : Fin cfg6.N) :
    (dat6 V c).Φ t.castSucc = PhiS6 V c t.val (Nat.le_of_lt t.isLt) := by
  dsimp only [dat6]; simp only [Fin.coe_castSucc]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = tileAt6 V c t := by dsimp only [dat6]
theorem after6_4 (c : Dev nD) (t : Fin cfg6.N) : (dat6 V c).after 4 t = meanAt6 V c t := by dsimp only [dat6]
theorem after6_5 (c : Dev nD) (t : Fin cfg6.N) : (dat6 V c).after 5 t = varAt6 V c t := by dsimp only [dat6]
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

end Cert.Kernel.Gen

end
-- ==== Proof.BitsStats6Body.lean ====
/- Region 6, concluded: the body obligation at every grid point, by the three cases, and the invariant at the region's ends. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import proofs.«180021_j37692632990117_2_alg».proof.Proof.BitsStats6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d))
    ∗ (∃ d, owns (c : Thread nD τ) (ms6_4 t) fullShare ((dat6 V c).before 4 t d))
    ∗ (∃ d, owns (c : Thread nD τ) (ms6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t
    ∗ (dat6 V c).leavesExact 4 t
    ∗ (dat6 V c).leavesExact 5 t)

set_option maxHeartbeats 4800000 in
/-- The body at any point: the inputs' buffers hold their blocks; the point is the first, a middle or the last one, and that
    case's run applies, handed the accumulators at what the point before left (at anything, at the first point) and
    handing them back at this point's contents; the mean and variance windows are left alone before the last point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  rw [show (dat6 V c).leavesExact 3 t = owns (c : Thread nD τ) (ms6_3 t) fullShare ((dat6 V c).after 3 t) from by
    unfold Dat.leavesExact; rw [liveAt6_3 t], after6_3]
  have hN : t.val < 10 := lt_of_lt_of_eq t.isLt N_6
  by_cases h0 : t.val = 0
  · have h1 : ¬t.val = 9 := by omega
    rw [Dat.leavesExact_idle (dat6 V c) 4 t (idleAt6_4 t (fun h => h1 ((hcond6_1 t).mp h))) (noFlush6_4 t (fun h => h1 ((hcond6_1 t).mp h)))]
    rw [Dat.leavesExact_idle (dat6 V c) 5 t (idleAt6_5 t (fun h => h1 ((hcond6_1 t).mp h))) (noFlush6_5 t (fun h => h1 ((hcond6_1 t).mp h)))]
    rw [accAt6_A V c t h0 h1]
    simp only [tileAt6, dif_pos h0, dif_neg h1]
    unfold out6_A_3 sout6_A_0 sout6_A_1; (try dsimp only)
    rw [PhiS6_castSucc V c t, PhiS6_zero V c _ _ h0, PhiA6_eq]
    iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
    iapply ((kernelRun6_A c (grid6.coords t) _ _ _ _ _ _ _ _ _ _ _ _ _ _ _ _ ((hcond6_0 t).mpr h0) (fun h => h1 ((hcond6_1 t).mp h)) (iblk6 V c 0 t) (iblk6 V c 1 t) (iblk6 V c 2 t)).2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, ⟨%e3, H3⟩, ⟨%es0, HS0⟩, ⟨%es1, HS1⟩⟩
    isplitl [HS0 HS1 HR Hg]
    · isplitl [HS0 HS1 HR]
      · isplitl [HS0 HS1]
        · isplitl [HS0]
          · unfold owns; iexists _; isplitr
            swap; · iexact HS0
            ipureintro; exact View.read_writes_of_cover _ _ _ _ _ (scover6_A_0 c _ _ _ _ _ _ _ _ _ _ _ _ _ _ _ _ _ _ _ _ _ _)
          · unfold owns; iexists _; isplitr
            swap; · iexact HS1
            ipureintro; exact View.read_writes_of_cover _ _ _ _ _ (scover6_A_1 c _ _ _ _ _ _ _ _ _ _ _ _ _ _ _ _ _ _ _ _ _ _)
        iexact HR
      iexact Hg
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover6_A_3 c _ _ _ _ _ _ _ _ _ _ _ _ _ _ _ _ _ _ _ _ _ _)
    isplitl [H4]; · iexists _; iexact H4
    iexists _; iexact H5
  · by_cases h1 : t.val = 9
    · rw [show (dat6 V c).leavesExact 4 t = owns (c : Thread nD τ) (ms6_4 t) fullShare ((dat6 V c).after 4 t) from by
        unfold Dat.leavesExact; rw [liveAt6_4_C t ((hcond6_1 t).mpr h1)], after6_4]
      rw [show (dat6 V c).leavesExact 5 t = owns (c : Thread nD τ) (ms6_5 t) fullShare ((dat6 V c).after 5 t) from by
        unfold Dat.leavesExact; rw [liveAt6_5_C t ((hcond6_1 t).mpr h1)], after6_5]
      rw [accAt6_C V c t h0 h1]
      simp only [tileAt6, meanAt6, varAt6, dif_neg h0, dif_pos h1]
      unfold out6_C_3 out6_C_4 out6_C_5 sout6_C_0 sout6_C_1; (try dsimp only)
      rw [PhiS6_castSucc V c t, PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun6_C c (grid6.coords t) _ _ _ _ _ _ _ _ _ _ _ _ _ _ _ _ (fun h => h0 ((hcond6_0 t).mp h)) ((hcond6_1 t).mpr h1) (iblk6 V c 0 t) (iblk6 V c 1 t) (iblk6 V c 2 t) _ _).2.2.2.2.2 Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [HS0]; · iexact HS0
      isplitl [HS1]; · iexact HS1
      iintro ⟨H0, H1, H2, ⟨%e3, H3⟩, ⟨%e4, H4⟩, ⟨%e5, H5⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover6_C_0 c _ _ _ _ _ _ _ _ _ _ _ _ _ _ _ _ _ _ _ _ _ _ _ _)
            · unfold owns; iexists _; isplitr
              swap; · iexact HS1
              ipureintro; exact View.read_writes_of_cover _ _ _ _ _ (scover6_C_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_C_3 c _ _ _ _ _ _ _ _ _ _ _ _ _ _ _ _ _ _ _ _ _ _ _ _)
      isplitl [H4]
      · unfold owns; iexists _; isplitr
        swap; · iexact H4
        ipureintro; exact View.read_writes_of_cover _ _ _ _ _ (cover6_C_4 c _ _ _ _ _ _ _ _ _ _ _ _ _ _ _ _ _ _ _ _ _ _ _ _)
      · unfold owns; iexists _; isplitr
        swap; · iexact H5
        ipureintro; exact View.read_writes_of_cover _ _ _ _ _ (cover6_C_5 c _ _ _ _ _ _ _ _ _ _ _ _ _ _ _ _ _ _ _ _ _ _ _ _)
    · rw [Dat.leavesExact_idle (dat6 V c) 4 t (idleAt6_4 t (fun h => h1 ((hcond6_1 t).mp h))) (noFlush6_4 t (fun h => h1 ((hcond6_1 t).mp h)))]
      rw [Dat.leavesExact_idle (dat6 V c) 5 t (idleAt6_5 t (fun h => h1 ((hcond6_1 t).mp h))) (noFlush6_5 t (fun h => h1 ((hcond6_1 t).mp h)))]
      rw [accAt6_B V c t h0 h1]
      simp only [tileAt6, dif_neg h0, dif_neg h1]
      unfold out6_B_3 sout6_B_0 sout6_B_1; (try dsimp only)
      rw [PhiS6_castSucc V c t, PhiS6_pos V c _ _ h0]
      iintro ⟨⟨⟨⟨HS0, HS1⟩, HR⟩, Hg⟩, Ho, ⟨%d0, H0⟩, ⟨%d1, H1⟩, ⟨%d2, H2⟩, ⟨%d3, H3⟩, ⟨%d4, H4⟩, ⟨%d5, H5⟩⟩
      iapply ((kernelRun6_B c (grid6.coords t) _ _ _ _ _ _ _ _ _ _ _ _ _ _ _ _ (fun h => h0 ((hcond6_0 t).mp h)) (fun h => h1 ((hcond6_1 t).mp h)) (iblk6 V c 0 t) (iblk6 V c 1 t) (iblk6 V c 2 t) _ _).2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      iintro ⟨H0, H1, H2, ⟨%e3, H3⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (scover6_B_0 c _ _ _ _ _ _ _ _ _ _ _ _ _ _ _ _ _ _ _ _ _ _ _ _)
            · unfold owns; iexists _; isplitr
              swap; · iexact HS1
              ipureintro; exact View.read_writes_of_cover _ _ _ _ _ (scover6_B_1 c _ _ _ _ _ _ _ _ _ _ _ _ _ _ _ _ _ _ _ _ _ _ _ _)
          iexact HR
        iexact Hg
      isplitl [Ho]; · iexact Ho
      isplitl [H0]; · iexact H0
      isplitl [H1]; · iexact H1
      isplitl [H2]; · iexact H2
      isplitl [H3]
      · unfold owns; iexists _; isplitr
        swap; · iexact H3
        ipureintro; exact View.read_writes_of_cover _ _ _ _ _ (cover6_B_3 c _ _ _ _ _ _ _ _ _ _ _ _ _ _ _ _ _ _ _ _ _ _ _ _)
      isplitl [H4]; · iexists _; iexact H4
      iexists _; iexact H5

/-- The body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After the last point the invariant gives the region's own buffers back at some contents. -/
theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

end Cert.Kernel.Gen

end
-- ==== Proof.BitsBn1.lean ====
/- Region 1 of the program: the normalising kernel, tile by tile.  At grid point t the body reads the tile's
   5000 rows of the pre-activation, the four rows [1,128] (column mean, column variance, scale, shift), and stores
   max((x − μ)·rsqrt(σ² + ε)·γ + β, 0) over the whole output tile.  Nothing is carried between points, so what each
   window's staging buffer holds after the body is a function of the point's input blocks alone. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetched it or an
    earlier one did (the block's index has not moved since). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetched it or an
    earlier one did (the block's index has not moved since). -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetched it or an
    earlier one did (the block's index has not moved since). -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, whether the point fetched it or an
    earlier one did (the block's index has not moved since). -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, whether the point fetched it or an
    earlier one did (the block's index has not moved since). -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- The whole tile and the whole row, as the rectangles the body loads and stores through. -/
abbrev rT1 : Rect S5000x128 := Rect.unit (s := S5000x128) ![0, 0] S5000x128.size inb_S5000x128_S5000x128_0_0
abbrev rR1 : Rect S1x128 := Rect.unit (s := S1x128) ![0, 0] S1x128.size inb_S1x128_S1x128_0_0

/-- The output tile after the body: its one store, of the normalised tile, over the whole buffer. -/
def out1_5 (x0 : Vec F S5000x128 .f32) (x1 x2 x3 x4 : Vec F S1x128 .f32) : Vec F S5000x128 .f32 :=
  View.canon [⟨rT1, k1_pay1 (View.ld x0 rT1) (View.ld x1 rR1) (View.ld x2 rR1) (View.ld x3 rR1) (View.ld x4 rR1)⟩]

/-- The one store covers the output tile. -/
theorem cover1_5 (p0 : Vec F S5000x128 .f32) (y : S5000x128.Idx) :
    ∃ pc ∈ ([⟨rT1, p0⟩] : List (View.Piece (Elt F) S5000x128 .f32)), y ∈ pc.1.set :=
  View.cover_of_tiled [⟨rT1, p0⟩] S5000x128.size (by rfl) y

set_option maxHeartbeats 1000000 in
/-- The body on whole staging buffers, the five inputs' at their contents and the output's at anything, runs to the end
    leaving the inputs as they were and the output at `out1_5` of them. -/
theorem sound_kernel1 (c : Dev nD) (E : Set ℕ) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__bn_relu_kernel i arg1 harg1 arg2 harg2 arg3 harg3 arg4 harg4 arg5 harg5 arg6 harg6) K := by
  simp only [cc1__bn_relu_kernel_eq_skeleton]; unfold cc1__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of this region on core `c`: the arrays as the region finds them; after the body at point `t` each
    input's buffer at its block and the output's at `out1_5` of the input blocks; nothing kept between points beyond
    the scoped rest and the generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' buffers hold their blocks, so the body's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Gen

end
-- ==== Proof.BitsBn3.lean ====
/- Region 3 of the program: the normalising kernel, tile by tile.  At grid point t the body reads the tile's
   5000 rows of the pre-activation, the four rows [1,128] (column mean, column variance, scale, shift), and stores
   max((x − μ)·rsqrt(σ² + ε)·γ + β, 0) over the whole output tile.  Nothing is carried between points, so what each
   window's staging buffer holds after the body is a function of the point's input blocks alone. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetched it or an
    earlier one did (the block's index has not moved since). -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetched it or an
    earlier one did (the block's index has not moved since). -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, whether the point fetched it or an
    earlier one did (the block's index has not moved since). -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, whether the point fetched it or an
    earlier one did (the block's index has not moved since). -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, whether the point fetched it or an
    earlier one did (the block's index has not moved since). -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- The whole tile and the whole row, as the rectangles the body loads and stores through. -/
abbrev rT3 : Rect S5000x128 := Rect.unit (s := S5000x128) ![0, 0] S5000x128.size inb_S5000x128_S5000x128_0_0
abbrev rR3 : Rect S1x128 := Rect.unit (s := S1x128) ![0, 0] S1x128.size inb_S1x128_S1x128_0_0

/-- The output tile after the body: its one store, of the normalised tile, over the whole buffer. -/
def out3_5 (x0 : Vec F S5000x128 .f32) (x1 x2 x3 x4 : Vec F S1x128 .f32) : Vec F S5000x128 .f32 :=
  View.canon [⟨rT3, k3_pay1 (View.ld x0 rT3) (View.ld x1 rR3) (View.ld x2 rR3) (View.ld x3 rR3) (View.ld x4 rR3)⟩]

/-- The one store covers the output tile. -/
theorem cover3_5 (p0 : Vec F S5000x128 .f32) (y : S5000x128.Idx) :
    ∃ pc ∈ ([⟨rT3, p0⟩] : List (View.Piece (Elt F) S5000x128 .f32)), y ∈ pc.1.set :=
  View.cover_of_tiled [⟨rT3, p0⟩] S5000x128.size (by rfl) y

set_option maxHeartbeats 1000000 in
/-- The body on whole staging buffers, the five inputs' at their contents and the output's at anything, runs to the end
    leaving the inputs as they were and the output at `out3_5` of them. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__bn_relu_kernel i arg1 harg1 arg2 harg2 arg3 harg3 arg4 harg4 arg5 harg5 arg6 harg6) K := by
  simp only [cc3__bn_relu_kernel_eq_skeleton]; unfold cc3__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of this region on core `c`: the arrays as the region finds them; after the body at point `t` each
    input's buffer at its block and the output's at `out3_5` of the input blocks; nothing kept between points beyond
    the scoped rest and the generator register; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' buffers hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Gen

end
-- ==== Proof.BitsBn5.lean ====
/- Region 5 of the program: the normalising kernel, tile by tile.  At grid point t the body reads the tile's
   5000 rows of the pre-activation, the four rows [1,128] (column mean, column variance, scale, shift), and stores
   max((x − μ)·rsqrt(σ² + ε)·γ + β, 0) over the whole output tile.  Nothing is carried between points, so what each
   window's staging buffer holds after the body is a function of the point's input blocks alone. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, whether the point fetched it or an
    earlier one did (the block's index has not moved since). -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, whether the point fetched it or an
    earlier one did (the block's index has not moved since). -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, whether the point fetched it or an
    earlier one did (the block's index has not moved since). -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, whether the point fetched it or an
    earlier one did (the block's index has not moved since). -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, whether the point fetched it or an
    earlier one did (the block's index has not moved since). -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-- The whole tile and the whole row, as the rectangles the body loads and stores through. -/
abbrev rT5 : Rect S5000x128 := Rect.unit (s := S5000x128) ![0, 0] S5000x128.size inb_S5000x128_S5000x128_0_0
abbrev rR5 : Rect S1x128 := Rect.unit (s := S1x128) ![0, 0] S1x128.size inb_S1x128_S1x128_0_0

/-- The output tile after the body: its one store, of the normalised tile, over the whole buffer. -/
def out5_5 (x0 : Vec F S5000x128 .f32) (x1 x2 x3 x4 : Vec F S1x128 .f32) : Vec F S5000x128 .f32 :=
  View.canon [⟨rT5, k5_pay1 (View.ld x0 rT5) (View.ld x1 rR5) (View.ld x2 rR5) (View.ld x3 rR5) (View.ld x4 rR5)⟩]

/-- The one store covers the output tile. -/
theorem cover5_5 (p0 : Vec F S5000x128 .f32) (y : S5000x128.Idx) :
    ∃ pc ∈ ([⟨rT5, p0⟩] : List (View.Piece (Elt F) S5000x128 .f32)), y ∈ pc.1.set :=
  View.cover_of_tiled [⟨rT5, p0⟩] S5000x128.size (by rfl) y

set_option maxHeartbeats 1000000 in
/-- The body on whole staging buffers, the five inputs' at their contents and the output's at anything, runs to the end
    leaving the inputs as they were and the output at `out5_5` of them. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__bn_relu_kernel i arg1 harg1 arg2 harg2 arg3 harg3 arg4 harg4 arg5 harg5 arg6 harg6) K := by
  simp only [cc5__bn_relu_kernel_eq_skeleton]; unfold cc5__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of this region on core `c`: the arrays as the region finds them; after the body at point `t` each
    input's buffer at its block and the output's at `out5_5` of the input blocks; nothing kept between points beyond
    the scoped rest and the generator register; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' buffers hold their blocks, so the body's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Gen

end
-- ==== Proof.BitsAtom7.lean ====
/- Region 7 of the program: the normalising kernel followed by the output projection, tile by tile.  At grid point t
   the body reads the tile's 5000 rows of the pre-activation, the four rows [1,128] (column mean, column variance, scale,
   shift), the [128,128] weight, the bias row [1,128] and the tile's [5000,1] row mask, and stores
   (bf16(max((x − μ)·rsqrt(σ² + ε)·γ + β, 0)) · bf16(W)ᵀ + b) · mask over the whole output tile.  Nothing is carried
   between points, so what each window's staging buffer holds after the body is a function of the point's input blocks
   alone. -/
import proofs.«180021_j37692632990117_2_alg».proof.Proof.Gen.Kernel.Launch
import proofs.«180021_j37692632990117_2_alg».proof.Proof.Gen.Kernel.Skeleton
import proofs.«180021_j37692632990117_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

-- the TensorCore's buffer contents when the region is entered
variable (V : (c : Dev nD) → (b : Ref sig .tc) → Buf (Elt F) ((c : Thread nD τ).loc b))

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, whether the point fetched it or an
    earlier one did (the block's index has not moved since). -/
theorem before7_0_of {c : Dev nD} (dat : Dat τ (Elt F) Unit ℕ (Pipeline.UD sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, whether the point fetched it or an
    earlier one did (the block's index has not moved since). -/
theorem before7_1_of {c : Dev nD} (dat : Dat τ (Elt F) Unit ℕ (Pipeline.UD sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, whether the point fetched it or an
    earlier one did (the block's index has not moved since). -/
theorem before7_2_of {c : Dev nD} (dat : Dat τ (Elt F) Unit ℕ (Pipeline.UD sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, whether the point fetched it or an
    earlier one did (the block's index has not moved since). -/
theorem before7_3_of {c : Dev nD} (dat : Dat τ (Elt F) Unit ℕ (Pipeline.UD sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, whether the point fetched it or an
    earlier one did (the block's index has not moved since). -/
theorem before7_4_of {c : Dev nD} (dat : Dat τ (Elt F) Unit ℕ (Pipeline.UD sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

/-- Input window 5's current staging buffer holds its block at every point, whether the point fetched it or an
    earlier one did (the block's index has not moved since). -/
theorem before7_5_of {c : Dev nD} (dat : Dat τ (Elt F) Unit ℕ (Pipeline.UD sig nD τ) ℕ cfg7 c) (hA : dat.A 5 = V c (Pipeline.arrRef spec7 5))
    (hafter : ∀ t, dat.after 5 t = iblk7 V c 5 t) (t : Fin cfg7.N) (d) : dat.before 5 t d = iblk7 V c 5 t :=
  (dat.before_in_eq_fetched 5 rfl (fun _ => rfl) (fun _ _ _ => rfl) (fun t => by rw [hafter]; unfold Dat.blockOf iblk7; rw [hA]; try rfl) t d).trans
    (by unfold Dat.fetched Dat.blockOf iblk7; rw [hA]; try rfl)

/-- Input window 6's current staging buffer holds its block at every point, whether the point fetched it or an
    earlier one did (the block's index has not moved since). -/
theorem before7_6_of {c : Dev nD} (dat : Dat τ (Elt F) Unit ℕ (Pipeline.UD sig nD τ) ℕ cfg7 c) (hA : dat.A 6 = V c (Pipeline.arrRef spec7 6))
    (hafter : ∀ t, dat.after 6 t = iblk7 V c 6 t) (t : Fin cfg7.N) (d) : dat.before 6 t d = iblk7 V c 6 t :=
  (dat.before_in_eq_fetched 6 rfl (fun _ => rfl) (fun _ _ _ => rfl) (fun t => by rw [hafter]; unfold Dat.blockOf iblk7; rw [hA]; try rfl) t d).trans
    (by unfold Dat.fetched Dat.blockOf iblk7; rw [hA]; try rfl)

/-- Input window 7's current staging buffer holds its block at every point, whether the point fetched it or an
    earlier one did (the block's index has not moved since). -/
theorem before7_7_of {c : Dev nD} (dat : Dat τ (Elt F) Unit ℕ (Pipeline.UD sig nD τ) ℕ cfg7 c) (hA : dat.A 7 = V c (Pipeline.arrRef spec7 7))
    (hafter : ∀ t, dat.after 7 t = iblk7 V c 7 t) (t : Fin cfg7.N) (d) : dat.before 7 t d = iblk7 V c 7 t :=
  (dat.before_in_eq_fetched 7 rfl (fun _ => rfl) (fun _ _ _ => rfl) (fun t => by rw [hafter]; unfold Dat.blockOf iblk7; rw [hA]; try rfl) t d).trans
    (by unfold Dat.fetched Dat.blockOf iblk7; rw [hA]; try rfl)

/-- The whole tile, the whole row, the whole weight and the whole mask column, as the rectangles the body loads and
    stores through. -/
abbrev rT7 : Rect S5000x128 := Rect.unit (s := S5000x128) ![0, 0] S5000x128.size inb_S5000x128_S5000x128_0_0
abbrev rR7 : Rect S1x128 := Rect.unit (s := S1x128) ![0, 0] S1x128.size inb_S1x128_S1x128_0_0
abbrev rW7 : Rect S128x128 := Rect.unit (s := S128x128) ![0, 0] S128x128.size inb_S128x128_S128x128_0_0
abbrev rC7 : Rect S5000x1 := Rect.unit (s := S5000x1) ![0, 0] S5000x1.size inb_S5000x1_S5000x1_0_0

/-- The output tile after the body: its one store, of the projected and masked tile, over the whole buffer. -/
def out7_8 (x0 : Vec F S5000x128 .f32) (x1 x2 x3 x4 : Vec F S1x128 .f32) (x5 : Vec F S128x128 .f32) (x6 : Vec F S1x128 .f32) (x7 : Vec F S5000x1 .f32) : Vec F S5000x128 .f32 :=
  View.canon [⟨rT7, k7_pay1 (View.ld x0 rT7) (View.ld x1 rR7) (View.ld x2 rR7) (View.ld x3 rR7) (View.ld x4 rR7) (View.ld x5 rW7) (View.ld x6 rR7) (View.ld x7 rC7)⟩]

/-- The one store covers the output tile. -/
theorem cover7_8 (p0 : Vec F S5000x128 .f32) (y : S5000x128.Idx) :
    ∃ pc ∈ ([⟨rT7, p0⟩] : List (View.Piece (Elt F) S5000x128 .f32)), y ∈ pc.1.set :=
  View.cover_of_tiled [⟨rT7, p0⟩] S5000x128.size (by rfl) y

set_option maxHeartbeats 1000000 in
/-- The body on whole staging buffers, the eight inputs' at their contents and the output's at anything, runs to the end
    leaving the inputs as they were and the output at `out7_8` of them. -/
theorem sound_kernel7 (c : Dev nD) (E : Set ℕ) (i : grid7.Coords)
    (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole)
    (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole)
    (arg7 : Memref sig .tc .vmem S1x128 .f32) (harg7 : arg7.IsWhole) (arg8 : Memref sig .tc .vmem S5000x1 .f32) (harg8 : arg8.IsWhole) (arg9 : Memref sig .tc .vmem S5000x128 .f32) (harg9 : arg9.IsWhole)
    (x0 : Vec F S5000x128 .f32) (x1 x2 x3 x4 : Vec F S1x128 .f32) (x5 : Vec F S128x128 .f32) (x6 : Vec F S1x128 .f32) (x7 : Vec F S5000x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7
            ∗ owns (c : Thread nD τ) arg9 fullShare (out7_8 x0 x1 x2 x3 x4 x5 x6 x7)) -∗ K ⟨⟩))
      ⊢ wp frame (wpE (defs₀ (F := F)) Variants.none c none) E (cc7__bn_relu_atom_kernel i arg1 harg1 arg2 harg2 arg3 harg3 arg4 harg4 arg5 harg5 arg6 harg6 arg7 harg7 arg8 harg8 arg9 harg9) K := by
  simp only [cc7__bn_relu_atom_kernel_eq_skeleton]; unfold cc7__bn_relu_atom_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0; subst hf1; subst hf2; subst hf3; subst hf4; subst hf5; subst hf6; subst hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover7_8 _)

/-- The proof data of this region on core `c`: the arrays as the region finds them; after the body at point `t` each
    input's buffer at its block and the output's at `out7_8` of the input blocks; nothing kept between points beyond
    the scoped rest and the generator register; nothing owed; full shares. -/
def dat7 (c : Dev nD) : Dat τ (Elt F) Unit ℕ (Pipeline.UD sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => iblk7 V c 5 t
    | ⟨6, _⟩ => iblk7 V c 6 t
    | ⟨7, _⟩ => iblk7 V c 7 t
    | ⟨8, _⟩ => out7_8 (iblk7 V c 0 t) (iblk7 V c 1 t) (iblk7 V c 2 t) (iblk7 V c 3 t) (iblk7 V c 4 t) (iblk7 V c 5 t) (iblk7 V c 6 t) (iblk7 V c 7 t)
  Φ _ := Pipeline.ΦA spec7 c
  q _ := fullShare
  owed _ := 0

theorem A_eq7 (c : Dev nD) (w : Fin cfg7.W) : (dat7 V c).A w = V c (Pipeline.arrRef spec7 w) := by
  dsimp only [dat7]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = iblk7 V c 5 t := by dsimp only [dat7]
theorem after7_6 (c : Dev nD) (t : Fin cfg7.N) : (dat7 V c).after 6 t = iblk7 V c 6 t := by dsimp only [dat7]
theorem after7_7 (c : Dev nD) (t : Fin cfg7.N) : (dat7 V c).after 7 t = iblk7 V c 7 t := by dsimp only [dat7]
theorem after7_8 (c : Dev nD) (t : Fin cfg7.N) : (dat7 V c).after 8 t = out7_8 (iblk7 V c 0 t) (iblk7 V c 1 t) (iblk7 V c 2 t) (iblk7 V c 3 t) (iblk7 V c 4 t) (iblk7 V c 5 t) (iblk7 V c 6 t) (iblk7 V c 7 t) := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d
theorem before7_5 (c : Dev nD) (t : Fin cfg7.N) (d) : (dat7 V c).before 5 t d = iblk7 V c 5 t :=
  before7_5_of V (dat7 V c) (A_eq7 V c 5) (after7_5 V c) t d
theorem before7_6 (c : Dev nD) (t : Fin cfg7.N) (d) : (dat7 V c).before 6 t d = iblk7 V c 6 t :=
  before7_6_of V (dat7 V c) (A_eq7 V c 6) (after7_6 V c) t d
theorem before7_7 (c : Dev nD) (t : Fin cfg7.N) (d) : (dat7 V c).before 7 t d = iblk7 V c 7 t :=
  before7_7_of V (dat7 V c) (A_eq7 V c 7) (after7_7 V c) t d

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d))
    ∗ (∃ d, owns (c : Thread nD τ) (st7_4 t) fullShare ((dat7 V c).before 4 t d))
    ∗ (∃ d, owns (c : Thread nD τ) (st7_5 t) fullShare ((dat7 V c).before 5 t d))
    ∗ (∃ d, owns (c : Thread nD τ) (st7_6 t) fullShare ((dat7 V c).before 6 t d))
    ∗ (∃ d, owns (c : Thread nD τ) (st7_7 t) fullShare ((dat7 V c).before 7 t d))
    ∗ (∃ d, owns (c : Thread nD τ) (st7_8 t) fullShare ((dat7 V c).before 8 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t)
    ∗ owns (c : Thread nD τ) (st7_4 t) fullShare ((dat7 V c).after 4 t)
    ∗ owns (c : Thread nD τ) (st7_5 t) fullShare ((dat7 V c).after 5 t)
    ∗ owns (c : Thread nD τ) (st7_6 t) fullShare ((dat7 V c).after 6 t)
    ∗ owns (c : Thread nD τ) (st7_7 t) fullShare ((dat7 V c).after 7 t)
    ∗ owns (c : Thread nD τ) (st7_8 t) fullShare ((dat7 V c).after 8 t))

/-- The body at any point: the inputs' buffers hold their blocks, so the body's triple applies; the invariant and the
    core's dues pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4, before7_5, before7_6, before7_7]
  rw [show (dat7 V c).Φ t.succ = (dat7 V c).Φ t.castSucc from rfl,
    show (dat7 V c).owesAt () t.succ = (dat7 V c).owesAt () t.castSucc from rfl,
    after7_0, after7_1, after7_2, after7_3, after7_4, after7_5, after7_6, after7_7, after7_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel7 c Set.univ (grid7.coords t) _ _ _ _ _ _ _ _ _ _ _ _ _ _ _ _ _ _ (iblk7 V c 0 t) (iblk7 V c 1 t) (iblk7 V c 2 t) (iblk7 V c 3 t) (iblk7 V c 4 t) (iblk7 V c 5 t) (iblk7 V c 6 t) (iblk7 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Gen

end
-- ==== Proof.BitsFrame.lean ====
/- The frame of the program: the eight kernel regions as segments of @main between its host stretches.

   Between two items each core holds every unscoped buffer whole, at contents that start from the launch memory, change by
   a host stretch as its operations compute, and change by a region only at that region's output arrays.  The contents a
   region leaves there are what its pipeline leaves: every output's write-backs, tile by tile, folded over the array it
   was entered with.  A region is entered at contents that depend on the earlier regions' outputs only, so the choice is
   made region by region, in program order.  With it each region's record closes: its arrays are split out of the unscoped
   buffers at entry and rejoined at exit, an input array unchanged and an output array as chosen; the generator register
   and the core's dues (none) ride along.  No item writes an argument array, so each ends as launched. -/
import proofs.«180021_j37692632990117_2_alg».proof.Proof.Gen.Kernel.Regions
import proofs.«180021_j37692632990117_2_alg».proof.Proof.BitsStats0Body
import proofs.«180021_j37692632990117_2_alg».proof.Proof.BitsStats2Body
import proofs.«180021_j37692632990117_2_alg».proof.Proof.BitsStats4Body
import proofs.«180021_j37692632990117_2_alg».proof.Proof.BitsStats6Body
import proofs.«180021_j37692632990117_2_alg».proof.Proof.BitsBn1
import proofs.«180021_j37692632990117_2_alg».proof.Proof.BitsBn3
import proofs.«180021_j37692632990117_2_alg».proof.Proof.BitsBn5
import proofs.«180021_j37692632990117_2_alg».proof.Proof.BitsAtom7
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-! ## What the regions leave: the unknowns of the conditional frame, chosen region by region

Region K is entered at the contents the items before it leave, which read the unknowns only at earlier regions' exits;
so the choice is made in stages, stage K+1 extending stage K at region K's exit item with the arrays as region K's
pipeline leaves them (each output's write-backs folded, the inputs as entered). -/

/-- One more stage: at item `J₀` the contents `W`, elsewhere the stage before. -/
def outsExt (prev : Outs (F := F)) (J₀ : ℕ) (W : Dev nD → Valuation τ sig (Elt F)) : Outs (F := F) :=
  fun J r c => if J = J₀ then W c r else prev J r c
theorem outsExt_at (prev : Outs (F := F)) (J₀ : ℕ) (W : Dev nD → Valuation τ sig (Elt F)) (r : Ref sig .tc) (c : Dev nD) :
    outsExt prev J₀ W J₀ r c = W c r := if_pos rfl
theorem outsExt_of_ne (prev : Outs (F := F)) (J₀ : ℕ) (W : Dev nD → Valuation τ sig (Elt F)) {J : ℕ} (h : J ≠ J₀) (r : Ref sig .tc) (c : Dev nD) :
    outsExt prev J₀ W J r c = prev J r c := if_neg h

/-! ### The contents between items read the unknowns only at the exits before them -/

theorem V5_congr {o o' : Outs (F := F)} (h : ∀ J, J ≤ 4 → ∀ r c, o J r c = o' J r c) (c : Dev nD) : V5 m o c = V5 m o' c := by
  show StableHlo.after hostOps1 (Function.update (Function.update (Function.update (V3 m c) main_v34_0 (o 4 main_v34_0 c)) main_v34_1 (o 4 main_v34_1 c)) main_v34_2 (o 4 main_v34_2 c)) = StableHlo.after hostOps1 (Function.update (Function.update (Function.update (V3 m c) main_v34_0 (o' 4 main_v34_0 c)) main_v34_1 (o' 4 main_v34_1 c)) main_v34_2 (o' 4 main_v34_2 c))
  rw [h 4 le_rfl main_v34_0 c, h 4 le_rfl main_v34_1 c, h 4 le_rfl main_v34_2 c]
theorem V7_congr {o o' : Outs (F := F)} (h : ∀ J, J ≤ 6 → ∀ r c, o J r c = o' J r c) (c : Dev nD) : V7 m o c = V7 m o' c := by
  show StableHlo.after hostOps2 (Function.update (V5 m o c) main_v45 (o 6 main_v45 c)) = StableHlo.after hostOps2 (Function.update (V5 m o' c) main_v45 (o' 6 main_v45 c))
  rw [V5_congr m (fun J hJ => h J (by omega)) c, h 6 le_rfl main_v45 c]
theorem V9_congr {o o' : Outs (F := F)} (h : ∀ J, J ≤ 8 → ∀ r c, o J r c = o' J r c) (c : Dev nD) : V9 m o c = V9 m o' c := by
  show StableHlo.after hostOps3 (Function.update (Function.update (Function.update (V7 m o c) main_v65_0 (o 8 main_v65_0 c)) main_v65_1 (o 8 main_v65_1 c)) main_v65_2 (o 8 main_v65_2 c)) = StableHlo.after hostOps3 (Function.update (Function.update (Function.update (V7 m o' c) main_v65_0 (o' 8 main_v65_0 c)) main_v65_1 (o' 8 main_v65_1 c)) main_v65_2 (o' 8 main_v65_2 c))
  rw [V7_congr m (fun J hJ => h J (by omega)) c, h 8 le_rfl main_v65_0 c, h 8 le_rfl main_v65_1 c, h 8 le_rfl main_v65_2 c]
theorem V11_congr {o o' : Outs (F := F)} (h : ∀ J, J ≤ 10 → ∀ r c, o J r c = o' J r c) (c : Dev nD) : V11 m o c = V11 m o' c := by
  show StableHlo.after hostOps4 (Function.update (V9 m o c) main_v76 (o 10 main_v76 c)) = StableHlo.after hostOps4 (Function.update (V9 m o' c) main_v76 (o' 10 main_v76 c))
  rw [V9_congr m (fun J hJ => h J (by omega)) c, h 10 le_rfl main_v76 c]
theorem V13_congr {o o' : Outs (F := F)} (h : ∀ J, J ≤ 12 → ∀ r c, o J r c = o' J r c) (c : Dev nD) : V13 m o c = V13 m o' c := by
  show StableHlo.after hostOps5 (Function.update (Function.update (Function.update (V11 m o c) main_v96_0 (o 12 main_v96_0 c)) main_v96_1 (o 12 main_v96_1 c)) main_v96_2 (o 12 main_v96_2 c)) = StableHlo.after hostOps5 (Function.update (Function.update (Function.update (V11 m o' c) main_v96_0 (o' 12 main_v96_0 c)) main_v96_1 (o' 12 main_v96_1 c)) main_v96_2 (o' 12 main_v96_2 c))
  rw [V11_congr m (fun J hJ => h J (by omega)) c, h 12 le_rfl main_v96_0 c, h 12 le_rfl main_v96_1 c, h 12 le_rfl main_v96_2 c]
theorem V15_congr {o o' : Outs (F := F)} (h : ∀ J, J ≤ 14 → ∀ r c, o J r c = o' J r c) (c : Dev nD) : V15 m o c = V15 m o' c := by
  show StableHlo.after hostOps6 (Function.update (V13 m o c) main_v107 (o 14 main_v107 c)) = StableHlo.after hostOps6 (Function.update (V13 m o' c) main_v107 (o' 14 main_v107 c))
  rw [V13_congr m (fun J hJ => h J (by omega)) c, h 14 le_rfl main_v107 c]
theorem V17_congr {o o' : Outs (F := F)} (h : ∀ J, J ≤ 16 → ∀ r c, o J r c = o' J r c) (c : Dev nD) : V17 m o c = V17 m o' c := by
  show StableHlo.after hostOps7 (Function.update (Function.update (Function.update (V15 m o c) main_v116_0 (o 16 main_v116_0 c)) main_v116_1 (o 16 main_v116_1 c)) main_v116_2 (o 16 main_v116_2 c)) = StableHlo.after hostOps7 (Function.update (Function.update (Function.update (V15 m o' c) main_v116_0 (o' 16 main_v116_0 c)) main_v116_1 (o' 16 main_v116_1 c)) main_v116_2 (o' 16 main_v116_2 c))
  rw [V15_congr m (fun J hJ => h J (by omega)) c, h 16 le_rfl main_v116_0 c, h 16 le_rfl main_v116_1 c, h 16 le_rfl main_v116_2 c]

/-! ### The stages -/

/-- Before any region: nothing is read of it. -/
def outsUpTo0 : Outs (F := F) := fun _ r c => V0 m c r

/-- What region 0's pipeline leaves when entered at the contents `Ve`: its arrays at what the pipeline leaves (the inputs
    as entered, each output's write-backs folded), every other buffer as entered. -/
def exitOf0 (Ve : Dev nD → Valuation τ sig (Elt F)) (c : Dev nD) : Valuation τ sig (Elt F) :=
  Pipeline.withArrays spec0 c (Ve c) fun w => (dat0 (fun c b => Ve c b) c).arrAt w cfg0.N
def outsUpTo1 : Outs (F := F) := outsExt (outsUpTo0 m) 4 (exitOf0 (V3 m))

/-- What region 1's pipeline leaves when entered at the contents `Ve`: its arrays at what the pipeline leaves (the inputs
    as entered, each output's write-backs folded), every other buffer as entered. -/
def exitOf1 (Ve : Dev nD → Valuation τ sig (Elt F)) (c : Dev nD) : Valuation τ sig (Elt F) :=
  Pipeline.withArrays spec1 c (Ve c) fun w => (dat1 (fun c b => Ve c b) c).arrAt w cfg1.N
def outsUpTo2 : Outs (F := F) := outsExt (outsUpTo1 m) 6 (exitOf1 (V5 m (outsUpTo1 m)))

/-- What region 2's pipeline leaves when entered at the contents `Ve`: its arrays at what the pipeline leaves (the inputs
    as entered, each output's write-backs folded), every other buffer as entered. -/
def exitOf2 (Ve : Dev nD → Valuation τ sig (Elt F)) (c : Dev nD) : Valuation τ sig (Elt F) :=
  Pipeline.withArrays spec2 c (Ve c) fun w => (dat2 (fun c b => Ve c b) c).arrAt w cfg2.N
def outsUpTo3 : Outs (F := F) := outsExt (outsUpTo2 m) 8 (exitOf2 (V7 m (outsUpTo2 m)))

/-- What region 3's pipeline leaves when entered at the contents `Ve`: its arrays at what the pipeline leaves (the inputs
    as entered, each output's write-backs folded), every other buffer as entered. -/
def exitOf3 (Ve : Dev nD → Valuation τ sig (Elt F)) (c : Dev nD) : Valuation τ sig (Elt F) :=
  Pipeline.withArrays spec3 c (Ve c) fun w => (dat3 (fun c b => Ve c b) c).arrAt w cfg3.N
def outsUpTo4 : Outs (F := F) := outsExt (outsUpTo3 m) 10 (exitOf3 (V9 m (outsUpTo3 m)))

/-- What region 4's pipeline leaves when entered at the contents `Ve`: its arrays at what the pipeline leaves (the inputs
    as entered, each output's write-backs folded), every other buffer as entered. -/
def exitOf4 (Ve : Dev nD → Valuation τ sig (Elt F)) (c : Dev nD) : Valuation τ sig (Elt F) :=
  Pipeline.withArrays spec4 c (Ve c) fun w => (dat4 (fun c b => Ve c b) c).arrAt w cfg4.N
def outsUpTo5 : Outs (F := F) := outsExt (outsUpTo4 m) 12 (exitOf4 (V11 m (outsUpTo4 m)))

/-- What region 5's pipeline leaves when entered at the contents `Ve`: its arrays at what the pipeline leaves (the inputs
    as entered, each output's write-backs folded), every other buffer as entered. -/
def exitOf5 (Ve : Dev nD → Valuation τ sig (Elt F)) (c : Dev nD) : Valuation τ sig (Elt F) :=
  Pipeline.withArrays spec5 c (Ve c) fun w => (dat5 (fun c b => Ve c b) c).arrAt w cfg5.N
def outsUpTo6 : Outs (F := F) := outsExt (outsUpTo5 m) 14 (exitOf5 (V13 m (outsUpTo5 m)))

/-- What region 6's pipeline leaves when entered at the contents `Ve`: its arrays at what the pipeline leaves (the inputs
    as entered, each output's write-backs folded), every other buffer as entered. -/
def exitOf6 (Ve : Dev nD → Valuation τ sig (Elt F)) (c : Dev nD) : Valuation τ sig (Elt F) :=
  Pipeline.withArrays spec6 c (Ve c) fun w => (dat6 (fun c b => Ve c b) c).arrAt w cfg6.N
def outsUpTo7 : Outs (F := F) := outsExt (outsUpTo6 m) 16 (exitOf6 (V15 m (outsUpTo6 m)))

/-- What region 7's pipeline leaves when entered at the contents `Ve`: its arrays at what the pipeline leaves (the inputs
    as entered, each output's write-backs folded), every other buffer as entered. -/
def exitOf7 (Ve : Dev nD → Valuation τ sig (Elt F)) (c : Dev nD) : Valuation τ sig (Elt F) :=
  Pipeline.withArrays spec7 c (Ve c) fun w => (dat7 (fun c b => Ve c b) c).arrAt w cfg7.N
def outsUpTo8 : Outs (F := F) := outsExt (outsUpTo7 m) 18 (exitOf7 (V17 m (outsUpTo7 m)))

/-- The regions' exits, all stages. -/
def outsAll : Outs (F := F) := outsUpTo8 m

/-! ### The last stage agrees with stage K+1 up to region K's exit -/

theorem outsAll_le_4 {J : ℕ} (h : J ≤ 4) (r : Ref sig .tc) (c : Dev nD) : outsAll m J r c = outsUpTo1 m J r c := by
  unfold outsAll outsUpTo8 outsUpTo7 outsUpTo6 outsUpTo5 outsUpTo4 outsUpTo3 outsUpTo2
  rw [outsExt_of_ne _ _ _ (by omega), outsExt_of_ne _ _ _ (by omega), outsExt_of_ne _ _ _ (by omega), outsExt_of_ne _ _ _ (by omega), outsExt_of_ne _ _ _ (by omega), outsExt_of_ne _ _ _ (by omega), outsExt_of_ne _ _ _ (by omega)]
theorem outsAll_le_6 {J : ℕ} (h : J ≤ 6) (r : Ref sig .tc) (c : Dev nD) : outsAll m J r c = outsUpTo2 m J r c := by
  unfold outsAll outsUpTo8 outsUpTo7 outsUpTo6 outsUpTo5 outsUpTo4 outsUpTo3
  rw [outsExt_of_ne _ _ _ (by omega), outsExt_of_ne _ _ _ (by omega), outsExt_of_ne _ _ _ (by omega), outsExt_of_ne _ _ _ (by omega), outsExt_of_ne _ _ _ (by omega), outsExt_of_ne _ _ _ (by omega)]
theorem outsAll_le_8 {J : ℕ} (h : J ≤ 8) (r : Ref sig .tc) (c : Dev nD) : outsAll m J r c = outsUpTo3 m J r c := by
  unfold outsAll outsUpTo8 outsUpTo7 outsUpTo6 outsUpTo5 outsUpTo4
  rw [outsExt_of_ne _ _ _ (by omega), outsExt_of_ne _ _ _ (by omega), outsExt_of_ne _ _ _ (by omega), outsExt_of_ne _ _ _ (by omega), outsExt_of_ne _ _ _ (by omega)]
theorem outsAll_le_10 {J : ℕ} (h : J ≤ 10) (r : Ref sig .tc) (c : Dev nD) : outsAll m J r c = outsUpTo4 m J r c := by
  unfold outsAll outsUpTo8 outsUpTo7 outsUpTo6 outsUpTo5
  rw [outsExt_of_ne _ _ _ (by omega), outsExt_of_ne _ _ _ (by omega), outsExt_of_ne _ _ _ (by omega), outsExt_of_ne _ _ _ (by omega)]
theorem outsAll_le_12 {J : ℕ} (h : J ≤ 12) (r : Ref sig .tc) (c : Dev nD) : outsAll m J r c = outsUpTo5 m J r c := by
  unfold outsAll outsUpTo8 outsUpTo7 outsUpTo6
  rw [outsExt_of_ne _ _ _ (by omega), outsExt_of_ne _ _ _ (by omega), outsExt_of_ne _ _ _ (by omega)]
theorem outsAll_le_14 {J : ℕ} (h : J ≤ 14) (r : Ref sig .tc) (c : Dev nD) : outsAll m J r c = outsUpTo6 m J r c := by
  unfold outsAll outsUpTo8 outsUpTo7
  rw [outsExt_of_ne _ _ _ (by omega), outsExt_of_ne _ _ _ (by omega)]
theorem outsAll_le_16 {J : ℕ} (h : J ≤ 16) (r : Ref sig .tc) (c : Dev nD) : outsAll m J r c = outsUpTo7 m J r c := by
  unfold outsAll outsUpTo8
  rw [outsExt_of_ne _ _ _ (by omega)]

/-! ### At region K's exit item the choice is what region K's pipeline leaves from its entry contents -/

theorem outsAll_4 (r : Ref sig .tc) (c : Dev nD) : outsAll m 4 r c = exitOf0 (V3 m) c r := by
  rw [outsAll_le_4 m le_rfl]; unfold outsUpTo1; rw [outsExt_at]
theorem outsAll_6 (r : Ref sig .tc) (c : Dev nD) : outsAll m 6 r c = exitOf1 (V5 m (outsAll m)) c r := by
  rw [outsAll_le_6 m le_rfl]; unfold outsUpTo2; rw [outsExt_at]
  rw [show V5 m (outsUpTo1 m) = V5 m (outsAll m) from funext fun c => (V5_congr m (fun J hJ r c => outsAll_le_4 m hJ r c) c).symm]
theorem outsAll_8 (r : Ref sig .tc) (c : Dev nD) : outsAll m 8 r c = exitOf2 (V7 m (outsAll m)) c r := by
  rw [outsAll_le_8 m le_rfl]; unfold outsUpTo3; rw [outsExt_at]
  rw [show V7 m (outsUpTo2 m) = V7 m (outsAll m) from funext fun c => (V7_congr m (fun J hJ r c => outsAll_le_6 m hJ r c) c).symm]
theorem outsAll_10 (r : Ref sig .tc) (c : Dev nD) : outsAll m 10 r c = exitOf3 (V9 m (outsAll m)) c r := by
  rw [outsAll_le_10 m le_rfl]; unfold outsUpTo4; rw [outsExt_at]
  rw [show V9 m (outsUpTo3 m) = V9 m (outsAll m) from funext fun c => (V9_congr m (fun J hJ r c => outsAll_le_8 m hJ r c) c).symm]
theorem outsAll_12 (r : Ref sig .tc) (c : Dev nD) : outsAll m 12 r c = exitOf4 (V11 m (outsAll m)) c r := by
  rw [outsAll_le_12 m le_rfl]; unfold outsUpTo5; rw [outsExt_at]
  rw [show V11 m (outsUpTo4 m) = V11 m (outsAll m) from funext fun c => (V11_congr m (fun J hJ r c => outsAll_le_10 m hJ r c) c).symm]
theorem outsAll_14 (r : Ref sig .tc) (c : Dev nD) : outsAll m 14 r c = exitOf5 (V13 m (outsAll m)) c r := by
  rw [outsAll_le_14 m le_rfl]; unfold outsUpTo6; rw [outsExt_at]
  rw [show V13 m (outsUpTo5 m) = V13 m (outsAll m) from funext fun c => (V13_congr m (fun J hJ r c => outsAll_le_12 m hJ r c) c).symm]
theorem outsAll_16 (r : Ref sig .tc) (c : Dev nD) : outsAll m 16 r c = exitOf6 (V15 m (outsAll m)) c r := by
  rw [outsAll_le_16 m le_rfl]; unfold outsUpTo7; rw [outsExt_at]
  rw [show V15 m (outsUpTo6 m) = V15 m (outsAll m) from funext fun c => (V15_congr m (fun J hJ r c => outsAll_le_14 m hJ r c) c).symm]
theorem outsAll_18 (r : Ref sig .tc) (c : Dev nD) : outsAll m 18 r c = exitOf7 (V17 m (outsAll m)) c r := by
  have h : outsAll m 18 r c = exitOf7 (V17 m (outsUpTo7 m)) c r := by unfold outsAll outsUpTo8; rw [outsExt_at]
  rw [h, show V17 m (outsUpTo7 m) = V17 m (outsAll m) from funext fun c => (V17_congr m (fun J hJ r c => outsAll_le_16 m hJ r c) c).symm]

/-! ## The regions' entry and exit contents at the TensorCore's references, and the two facts the exit takes -/

/-- Region 0's entry contents and its exit contents. -/
abbrev ent0 : (c : Dev nD) → (b : Ref sig .tc) → Buf (Elt F) ((c : Thread nD τ).loc b) := fun c b => V3 m c b
abbrev ext0 : (c : Dev nD) → (b : Ref sig .tc) → Buf (Elt F) ((c : Thread nD τ).loc b) := fun c b => V4 m (outsAll m) c b
/-- An input window's array: held as entered through the pipeline, and no output of the region. -/
theorem ext0_in (c : Dev nD) (w : Fin cfg0.W) (hin : (cfg0.win w).isOut = false)
    (hne : Pipeline.arrRef spec0 w ∉ ([main_v34_0, main_v34_1, main_v34_2] : List (Ref sig .tc))) :
    (dat0 (ent0 m) c).arrAt w cfg0.N = ext0 m c (Pipeline.arrRef spec0 w) := by
  rw [(dat0 (ent0 m) c).arrAt_in w hin, A_eq0]
  exact (V4_of m (outsAll m) c _ hne).symm
/-- Output window 5's array: the choice made at this region's exit item. -/
theorem ext0_out_5 (c : Dev nD) : (dat0 (ent0 m) c).arrAt 5 cfg0.N = ext0 m c (Pipeline.arrRef spec0 5) := by
  have h1 : V4 m (outsAll m) c main_v34_0 = outsAll m 4 main_v34_0 c := (Function.update_of_ne (StableHlo.devRef_ne_of_ne (by decide : (main_v34_0 : Ref sig .tc) ≠ main_v34_2) : (Proc.devRef .tc main_v34_0 : DevRef τ sig) ≠ Proc.devRef .tc main_v34_2) _ _).trans ((Function.update_of_ne (StableHlo.devRef_ne_of_ne (by decide : (main_v34_0 : Ref sig .tc) ≠ main_v34_1) : (Proc.devRef .tc main_v34_0 : DevRef τ sig) ≠ Proc.devRef .tc main_v34_1) _ _).trans (Function.update_self _ _ _))
  have h2 : exitOf0 (V3 m) c (Proc.devRef .tc (Pipeline.arrRef spec0 5)) = (dat0 (ent0 m) c).arrAt 5 cfg0.N := by
    unfold exitOf0; exact Pipeline.withArrays_arr spec0 launch0.win.arr_inj c _ _ 5
  exact (h1.trans ((outsAll_4 m main_v34_0 c).trans h2)).symm
/-- Output window 6's array: the choice made at this region's exit item. -/
theorem ext0_out_6 (c : Dev nD) : (dat0 (ent0 m) c).arrAt 6 cfg0.N = ext0 m c (Pipeline.arrRef spec0 6) := by
  have h1 : V4 m (outsAll m) c main_v34_1 = outsAll m 4 main_v34_1 c := (Function.update_of_ne (StableHlo.devRef_ne_of_ne (by decide : (main_v34_1 : Ref sig .tc) ≠ main_v34_2) : (Proc.devRef .tc main_v34_1 : DevRef τ sig) ≠ Proc.devRef .tc main_v34_2) _ _).trans (Function.update_self _ _ _)
  have h2 : exitOf0 (V3 m) c (Proc.devRef .tc (Pipeline.arrRef spec0 6)) = (dat0 (ent0 m) c).arrAt 6 cfg0.N := by
    unfold exitOf0; exact Pipeline.withArrays_arr spec0 launch0.win.arr_inj c _ _ 6
  exact (h1.trans ((outsAll_4 m main_v34_1 c).trans h2)).symm
/-- Output window 7's array: the choice made at this region's exit item. -/
theorem ext0_out_7 (c : Dev nD) : (dat0 (ent0 m) c).arrAt 7 cfg0.N = ext0 m c (Pipeline.arrRef spec0 7) := by
  have h1 : V4 m (outsAll m) c main_v34_2 = outsAll m 4 main_v34_2 c := Function.update_self _ _ _
  have h2 : exitOf0 (V3 m) c (Proc.devRef .tc (Pipeline.arrRef spec0 7)) = (dat0 (ent0 m) c).arrAt 7 cfg0.N := by
    unfold exitOf0; exact Pipeline.withArrays_arr spec0 launch0.win.arr_inj c _ _ 7
  exact (h1.trans ((outsAll_4 m main_v34_2 c).trans h2)).symm
/-- At region 0's exit each of its arrays holds what the pipeline leaves, -/
theorem hF0 (c : Dev nD) (w : Fin cfg0.W) : (dat0 (ent0 m) c).arrAt w cfg0.N = ext0 m c (Pipeline.arrRef spec0 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact ext0_in m c 0 rfl (by decide)
  · exact ext0_in m c 1 rfl (by decide)
  · exact ext0_in m c 2 rfl (by decide)
  · exact ext0_in m c 3 rfl (by decide)
  · exact ext0_in m c 4 rfl (by decide)
  · exact ext0_out_5 m c
  · exact ext0_out_6 m c
  · exact ext0_out_7 m c
/-- and every buffer that is none of its arrays what it held at entry. -/
theorem hrest0 (c : Dev nD) : ∀ b, b ∉ Finset.univ.image (Pipeline.arrRef spec0) → ext0 m c b = ent0 m c b :=
  fun b hb => V4_of m (outsAll m) c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_singleton.mp hmem with rfl
    exact Finset.mem_image.mpr ⟨7, Finset.mem_univ _, rfl⟩)

/-- Region 1's entry contents and its exit contents. -/
abbrev ent1 : (c : Dev nD) → (b : Ref sig .tc) → Buf (Elt F) ((c : Thread nD τ).loc b) := fun c b => V5 m (outsAll m) c b
abbrev ext1 : (c : Dev nD) → (b : Ref sig .tc) → Buf (Elt F) ((c : Thread nD τ).loc b) := fun c b => V6 m (outsAll m) c b
/-- An input window's array: held as entered through the pipeline, and no output of the region. -/
theorem ext1_in (c : Dev nD) (w : Fin cfg1.W) (hin : (cfg1.win w).isOut = false)
    (hne : Pipeline.arrRef spec1 w ∉ ([main_v45] : List (Ref sig .tc))) :
    (dat1 (ent1 m) c).arrAt w cfg1.N = ext1 m c (Pipeline.arrRef spec1 w) := by
  rw [(dat1 (ent1 m) c).arrAt_in w hin, A_eq1]
  exact (V6_of m (outsAll m) c _ hne).symm
/-- Output window 5's array: the choice made at this region's exit item. -/
theorem ext1_out_5 (c : Dev nD) : (dat1 (ent1 m) c).arrAt 5 cfg1.N = ext1 m c (Pipeline.arrRef spec1 5) := by
  have h1 : V6 m (outsAll m) c main_v45 = outsAll m 6 main_v45 c := Function.update_self _ _ _
  have h2 : exitOf1 (V5 m (outsAll m)) c (Proc.devRef .tc (Pipeline.arrRef spec1 5)) = (dat1 (ent1 m) c).arrAt 5 cfg1.N := by
    unfold exitOf1; exact Pipeline.withArrays_arr spec1 launch1.win.arr_inj c _ _ 5
  exact (h1.trans ((outsAll_6 m main_v45 c).trans h2)).symm
/-- At region 1's exit each of its arrays holds what the pipeline leaves, -/
theorem hF1 (c : Dev nD) (w : Fin cfg1.W) : (dat1 (ent1 m) c).arrAt w cfg1.N = ext1 m c (Pipeline.arrRef spec1 w) := by
  have h : w = 0 ∨ w = 1 ∨ w = 2 ∨ w = 3 ∨ w = 4 ∨ w = 5 := by revert w; decide
  rcases h with rfl | rfl | rfl | rfl | rfl | rfl
  · exact ext1_in m c 0 rfl (by decide)
  · exact ext1_in m c 1 rfl (by decide)
  · exact ext1_in m c 2 rfl (by decide)
  · exact ext1_in m c 3 rfl (by decide)
  · exact ext1_in m c 4 rfl (by decide)
  · exact ext1_out_5 m c
/-- and every buffer that is none of its arrays what it held at entry. -/
theorem hrest1 (c : Dev nD) : ∀ b, b ∉ Finset.univ.image (Pipeline.arrRef spec1) → ext1 m c b = ent1 m c b :=
  fun b hb => V6_of m (outsAll m) c b fun hmem => hb (by
    rcases List.mem_singleton.mp hmem with rfl
    exact Finset.mem_image.mpr ⟨5, Finset.mem_univ _, rfl⟩)

/-- Region 2's entry contents and its exit contents. -/
abbrev ent2 : (c : Dev nD) → (b : Ref sig .tc) → Buf (Elt F) ((c : Thread nD τ).loc b) := fun c b => V7 m (outsAll m) c b
abbrev ext2 : (c : Dev nD) → (b : Ref sig .tc) → Buf (Elt F) ((c : Thread nD τ).loc b) := fun c b => V8 m (outsAll m) c b
/-- An input window's array: held as entered through the pipeline, and no output of the region. -/
theorem ext2_in (c : Dev nD) (w : Fin cfg2.W) (hin : (cfg2.win w).isOut = false)
    (hne : Pipeline.arrRef spec2 w ∉ ([main_v65_0, main_v65_1, main_v65_2] : List (Ref sig .tc))) :
    (dat2 (ent2 m) c).arrAt w cfg2.N = ext2 m c (Pipeline.arrRef spec2 w) := by
  rw [(dat2 (ent2 m) c).arrAt_in w hin, A_eq2]
  exact (V8_of m (outsAll m) c _ hne).symm
/-- Output window 5's array: the choice made at this region's exit item. -/
theorem ext2_out_5 (c : Dev nD) : (dat2 (ent2 m) c).arrAt 5 cfg2.N = ext2 m c (Pipeline.arrRef spec2 5) := by
  have h1 : V8 m (outsAll m) c main_v65_0 = outsAll m 8 main_v65_0 c := (Function.update_of_ne (StableHlo.devRef_ne_of_ne (by decide : (main_v65_0 : Ref sig .tc) ≠ main_v65_2) : (Proc.devRef .tc main_v65_0 : DevRef τ sig) ≠ Proc.devRef .tc main_v65_2) _ _).trans ((Function.update_of_ne (StableHlo.devRef_ne_of_ne (by decide : (main_v65_0 : Ref sig .tc) ≠ main_v65_1) : (Proc.devRef .tc main_v65_0 : DevRef τ sig) ≠ Proc.devRef .tc main_v65_1) _ _).trans (Function.update_self _ _ _))
  have h2 : exitOf2 (V7 m (outsAll m)) c (Proc.devRef .tc (Pipeline.arrRef spec2 5)) = (dat2 (ent2 m) c).arrAt 5 cfg2.N := by
    unfold exitOf2; exact Pipeline.withArrays_arr spec2 launch2.win.arr_inj c _ _ 5
  exact (h1.trans ((outsAll_8 m main_v65_0 c).trans h2)).symm
/-- Output window 6's array: the choice made at this region's exit item. -/
theorem ext2_out_6 (c : Dev nD) : (dat2 (ent2 m) c).arrAt 6 cfg2.N = ext2 m c (Pipeline.arrRef spec2 6) := by
  have h1 : V8 m (outsAll m) c main_v65_1 = outsAll m 8 main_v65_1 c := (Function.update_of_ne (StableHlo.devRef_ne_of_ne (by decide : (main_v65_1 : Ref sig .tc) ≠ main_v65_2) : (Proc.devRef .tc main_v65_1 : DevRef τ sig) ≠ Proc.devRef .tc main_v65_2) _ _).trans (Function.update_self _ _ _)
  have h2 : exitOf2 (V7 m (outsAll m)) c (Proc.devRef .tc (Pipeline.arrRef spec2 6)) = (dat2 (ent2 m) c).arrAt 6 cfg2.N := by
    unfold exitOf2; exact Pipeline.withArrays_arr spec2 launch2.win.arr_inj c _ _ 6
  exact (h1.trans ((outsAll_8 m main_v65_1 c).trans h2)).symm
/-- Output window 7's array: the choice made at this region's exit item. -/
theorem ext2_out_7 (c : Dev nD) : (dat2 (ent2 m) c).arrAt 7 cfg2.N = ext2 m c (Pipeline.arrRef spec2 7) := by
  have h1 : V8 m (outsAll m) c main_v65_2 = outsAll m 8 main_v65_2 c := Function.update_self _ _ _
  have h2 : exitOf2 (V7 m (outsAll m)) c (Proc.devRef .tc (Pipeline.arrRef spec2 7)) = (dat2 (ent2 m) c).arrAt 7 cfg2.N := by
    unfold exitOf2; exact Pipeline.withArrays_arr spec2 launch2.win.arr_inj c _ _ 7
  exact (h1.trans ((outsAll_8 m main_v65_2 c).trans h2)).symm
/-- At region 2's exit each of its arrays holds what the pipeline leaves, -/
theorem hF2 (c : Dev nD) (w : Fin cfg2.W) : (dat2 (ent2 m) c).arrAt w cfg2.N = ext2 m c (Pipeline.arrRef spec2 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact ext2_in m c 0 rfl (by decide)
  · exact ext2_in m c 1 rfl (by decide)
  · exact ext2_in m c 2 rfl (by decide)
  · exact ext2_in m c 3 rfl (by decide)
  · exact ext2_in m c 4 rfl (by decide)
  · exact ext2_out_5 m c
  · exact ext2_out_6 m c
  · exact ext2_out_7 m c
/-- and every buffer that is none of its arrays what it held at entry. -/
theorem hrest2 (c : Dev nD) : ∀ b, b ∉ Finset.univ.image (Pipeline.arrRef spec2) → ext2 m c b = ent2 m c b :=
  fun b hb => V8_of m (outsAll m) c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_singleton.mp hmem with rfl
    exact Finset.mem_image.mpr ⟨7, Finset.mem_univ _, rfl⟩)

/-- Region 3's entry contents and its exit contents. -/
abbrev ent3 : (c : Dev nD) → (b : Ref sig .tc) → Buf (Elt F) ((c : Thread nD τ).loc b) := fun c b => V9 m (outsAll m) c b
abbrev ext3 : (c : Dev nD) → (b : Ref sig .tc) → Buf (Elt F) ((c : Thread nD τ).loc b) := fun c b => V10 m (outsAll m) c b
/-- An input window's array: held as entered through the pipeline, and no output of the region. -/
theorem ext3_in (c : Dev nD) (w : Fin cfg3.W) (hin : (cfg3.win w).isOut = false)
    (hne : Pipeline.arrRef spec3 w ∉ ([main_v76] : List (Ref sig .tc))) :
    (dat3 (ent3 m) c).arrAt w cfg3.N = ext3 m c (Pipeline.arrRef spec3 w) := by
  rw [(dat3 (ent3 m) c).arrAt_in w hin, A_eq3]
  exact (V10_of m (outsAll m) c _ hne).symm
/-- Output window 5's array: the choice made at this region's exit item. -/
theorem ext3_out_5 (c : Dev nD) : (dat3 (ent3 m) c).arrAt 5 cfg3.N = ext3 m c (Pipeline.arrRef spec3 5) := by
  have h1 : V10 m (outsAll m) c main_v76 = outsAll m 10 main_v76 c := Function.update_self _ _ _
  have h2 : exitOf3 (V9 m (outsAll m)) c (Proc.devRef .tc (Pipeline.arrRef spec3 5)) = (dat3 (ent3 m) c).arrAt 5 cfg3.N := by
    unfold exitOf3; exact Pipeline.withArrays_arr spec3 launch3.win.arr_inj c _ _ 5
  exact (h1.trans ((outsAll_10 m main_v76 c).trans h2)).symm
/-- At region 3's exit each of its arrays holds what the pipeline leaves, -/
theorem hF3 (c : Dev nD) (w : Fin cfg3.W) : (dat3 (ent3 m) c).arrAt w cfg3.N = ext3 m c (Pipeline.arrRef spec3 w) := by
  have h : w = 0 ∨ w = 1 ∨ w = 2 ∨ w = 3 ∨ w = 4 ∨ w = 5 := by revert w; decide
  rcases h with rfl | rfl | rfl | rfl | rfl | rfl
  · exact ext3_in m c 0 rfl (by decide)
  · exact ext3_in m c 1 rfl (by decide)
  · exact ext3_in m c 2 rfl (by decide)
  · exact ext3_in m c 3 rfl (by decide)
  · exact ext3_in m c 4 rfl (by decide)
  · exact ext3_out_5 m c
/-- and every buffer that is none of its arrays what it held at entry. -/
theorem hrest3 (c : Dev nD) : ∀ b, b ∉ Finset.univ.image (Pipeline.arrRef spec3) → ext3 m c b = ent3 m c b :=
  fun b hb => V10_of m (outsAll m) c b fun hmem => hb (by
    rcases List.mem_singleton.mp hmem with rfl
    exact Finset.mem_image.mpr ⟨5, Finset.mem_univ _, rfl⟩)

/-- Region 4's entry contents and its exit contents. -/
abbrev ent4 : (c : Dev nD) → (b : Ref sig .tc) → Buf (Elt F) ((c : Thread nD τ).loc b) := fun c b => V11 m (outsAll m) c b
abbrev ext4 : (c : Dev nD) → (b : Ref sig .tc) → Buf (Elt F) ((c : Thread nD τ).loc b) := fun c b => V12 m (outsAll m) c b
/-- An input window's array: held as entered through the pipeline, and no output of the region. -/
theorem ext4_in (c : Dev nD) (w : Fin cfg4.W) (hin : (cfg4.win w).isOut = false)
    (hne : Pipeline.arrRef spec4 w ∉ ([main_v96_0, main_v96_1, main_v96_2] : List (Ref sig .tc))) :
    (dat4 (ent4 m) c).arrAt w cfg4.N = ext4 m c (Pipeline.arrRef spec4 w) := by
  rw [(dat4 (ent4 m) c).arrAt_in w hin, A_eq4]
  exact (V12_of m (outsAll m) c _ hne).symm
/-- Output window 5's array: the choice made at this region's exit item. -/
theorem ext4_out_5 (c : Dev nD) : (dat4 (ent4 m) c).arrAt 5 cfg4.N = ext4 m c (Pipeline.arrRef spec4 5) := by
  have h1 : V12 m (outsAll m) c main_v96_0 = outsAll m 12 main_v96_0 c := (Function.update_of_ne (StableHlo.devRef_ne_of_ne (by decide : (main_v96_0 : Ref sig .tc) ≠ main_v96_2) : (Proc.devRef .tc main_v96_0 : DevRef τ sig) ≠ Proc.devRef .tc main_v96_2) _ _).trans ((Function.update_of_ne (StableHlo.devRef_ne_of_ne (by decide : (main_v96_0 : Ref sig .tc) ≠ main_v96_1) : (Proc.devRef .tc main_v96_0 : DevRef τ sig) ≠ Proc.devRef .tc main_v96_1) _ _).trans (Function.update_self _ _ _))
  have h2 : exitOf4 (V11 m (outsAll m)) c (Proc.devRef .tc (Pipeline.arrRef spec4 5)) = (dat4 (ent4 m) c).arrAt 5 cfg4.N := by
    unfold exitOf4; exact Pipeline.withArrays_arr spec4 launch4.win.arr_inj c _ _ 5
  exact (h1.trans ((outsAll_12 m main_v96_0 c).trans h2)).symm
/-- Output window 6's array: the choice made at this region's exit item. -/
theorem ext4_out_6 (c : Dev nD) : (dat4 (ent4 m) c).arrAt 6 cfg4.N = ext4 m c (Pipeline.arrRef spec4 6) := by
  have h1 : V12 m (outsAll m) c main_v96_1 = outsAll m 12 main_v96_1 c := (Function.update_of_ne (StableHlo.devRef_ne_of_ne (by decide : (main_v96_1 : Ref sig .tc) ≠ main_v96_2) : (Proc.devRef .tc main_v96_1 : DevRef τ sig) ≠ Proc.devRef .tc main_v96_2) _ _).trans (Function.update_self _ _ _)
  have h2 : exitOf4 (V11 m (outsAll m)) c (Proc.devRef .tc (Pipeline.arrRef spec4 6)) = (dat4 (ent4 m) c).arrAt 6 cfg4.N := by
    unfold exitOf4; exact Pipeline.withArrays_arr spec4 launch4.win.arr_inj c _ _ 6
  exact (h1.trans ((outsAll_12 m main_v96_1 c).trans h2)).symm
/-- Output window 7's array: the choice made at this region's exit item. -/
theorem ext4_out_7 (c : Dev nD) : (dat4 (ent4 m) c).arrAt 7 cfg4.N = ext4 m c (Pipeline.arrRef spec4 7) := by
  have h1 : V12 m (outsAll m) c main_v96_2 = outsAll m 12 main_v96_2 c := Function.update_self _ _ _
  have h2 : exitOf4 (V11 m (outsAll m)) c (Proc.devRef .tc (Pipeline.arrRef spec4 7)) = (dat4 (ent4 m) c).arrAt 7 cfg4.N := by
    unfold exitOf4; exact Pipeline.withArrays_arr spec4 launch4.win.arr_inj c _ _ 7
  exact (h1.trans ((outsAll_12 m main_v96_2 c).trans h2)).symm
/-- At region 4's exit each of its arrays holds what the pipeline leaves, -/
theorem hF4 (c : Dev nD) (w : Fin cfg4.W) : (dat4 (ent4 m) c).arrAt w cfg4.N = ext4 m c (Pipeline.arrRef spec4 w) := by
  have h : w = 0 ∨ w = 1 ∨ w = 2 ∨ w = 3 ∨ w = 4 ∨ w = 5 ∨ w = 6 ∨ w = 7 := by revert w; decide
  rcases h with rfl | rfl | rfl | rfl | rfl | rfl | rfl | rfl
  · exact ext4_in m c 0 rfl (by decide)
  · exact ext4_in m c 1 rfl (by decide)
  · exact ext4_in m c 2 rfl (by decide)
  · exact ext4_in m c 3 rfl (by decide)
  · exact ext4_in m c 4 rfl (by decide)
  · exact ext4_out_5 m c
  · exact ext4_out_6 m c
  · exact ext4_out_7 m c
/-- and every buffer that is none of its arrays what it held at entry. -/
theorem hrest4 (c : Dev nD) : ∀ b, b ∉ Finset.univ.image (Pipeline.arrRef spec4) → ext4 m c b = ent4 m c b :=
  fun b hb => V12_of m (outsAll m) c b fun hmem => hb (by
    rcases List.mem_cons.mp hmem with rfl | hmem
    · exact Finset.mem_image.mpr ⟨5, Finset.mem_univ _, rfl⟩
    rcases List.mem_cons.mp hmem with rfl | hmem
    · exact Finset.mem_image.mpr ⟨6, Finset.mem_univ _, rfl⟩
    rcases List.mem_singleton.mp hmem with rfl
    exact Finset.mem_image.mpr ⟨7, Finset.mem_univ _, rfl⟩)

/-- Region 5's entry contents and its exit contents. -/
abbrev ent5 : (c : Dev nD) → (b : Ref sig .tc) → Buf (Elt F) ((c : Thread nD τ).loc b) := fun c b => V13 m (outsAll m) c b
abbrev ext5 : (c : Dev nD) → (b : Ref sig .tc) → Buf (Elt F) ((c : Thread nD τ).loc b) := fun c b => V14 m (outsAll m) c b
/-- An input window's array: held as entered through the pipeline, and no output of the region. -/
theorem ext5_in (c : Dev nD) (w : Fin cfg5.W) (hin : (cfg5.win w).isOut = false)
    (hne : Pipeline.arrRef spec5 w ∉ ([main_v107] : List (Ref sig .tc))) :
    (dat5 (ent5 m) c).arrAt w cfg5.N = ext5 m c (Pipeline.arrRef spec5 w) := by
  rw [(dat5 (ent5 m) c).arrAt_in w hin, A_eq5]
  exact (V14_of m (outsAll m) c _ hne).symm
/-- Output window 5's array: the choice made at this region's exit item. -/
theorem ext5_out_5 (c : Dev nD) : (dat5 (ent5 m) c).arrAt 5 cfg5.N = ext5 m c (Pipeline.arrRef spec5 5) := by
  have h1 : V14 m (outsAll m) c main_v107 = outsAll m 14 main_v107 c := Function.update_self _ _ _
  have h2 : exitOf5 (V13 m (outsAll m)) c (Proc.devRef .tc (Pipeline.arrRef spec5 5)) = (dat5 (ent5 m) c).arrAt 5 cfg5.N := by
    unfold exitOf5; exact Pipeline.withArrays_arr spec5 launch5.win.arr_inj c _ _ 5
  exact (h1.trans ((outsAll_14 m main_v107 c).trans h2)).symm
/-- At region 5's exit each of its arrays holds what the pipeline leaves, -/
theorem hF5 (c : Dev nD) (w : Fin cfg5.W) : (dat5 (ent5 m) c).arrAt w cfg5.N = ext5 m c (Pipeline.arrRef spec5 w) := by
  have h : w = 0 ∨ w = 1 ∨ w = 2 ∨ w = 3 ∨ w = 4 ∨ w = 5 := by revert w; decide
  rcases h with rfl | rfl | rfl | rfl | rfl | rfl
  · exact ext5_in m c 0 rfl (by decide)
  · exact ext5_in m c 1 rfl (by decide)
  · exact ext5_in m c 2 rfl (by decide)
  · exact ext5_in m c 3 rfl (by decide)
  · exact ext5_in m c 4 rfl (by decide)
  · exact ext5_out_5 m c
/-- and every buffer that is none of its arrays what it held at entry. -/
theorem hrest5 (c : Dev nD) : ∀ b, b ∉ Finset.univ.image (Pipeline.arrRef spec5) → ext5 m c b = ent5 m c b :=
  fun b hb => V14_of m (outsAll m) c b fun hmem => hb (by
    rcases List.mem_singleton.mp hmem with rfl
    exact Finset.mem_image.mpr ⟨5, Finset.mem_univ _, rfl⟩)

/-- Region 6's entry contents and its exit contents. -/
abbrev ent6 : (c : Dev nD) → (b : Ref sig .tc) → Buf (Elt F) ((c : Thread nD τ).loc b) := fun c b => V15 m (outsAll m) c b
abbrev ext6 : (c : Dev nD) → (b : Ref sig .tc) → Buf (Elt F) ((c : Thread nD τ).loc b) := fun c b => V16 m (outsAll m) c b
/-- An input window's array: held as entered through the pipeline, and no output of the region. -/
theorem ext6_in (c : Dev nD) (w : Fin cfg6.W) (hin : (cfg6.win w).isOut = false)
    (hne : Pipeline.arrRef spec6 w ∉ ([main_v116_0, main_v116_1, main_v116_2] : List (Ref sig .tc))) :
    (dat6 (ent6 m) c).arrAt w cfg6.N = ext6 m c (Pipeline.arrRef spec6 w) := by
  rw [(dat6 (ent6 m) c).arrAt_in w hin, A_eq6]
  exact (V16_of m (outsAll m) c _ hne).symm
/-- Output window 3's array: the choice made at this region's exit item. -/
theorem ext6_out_3 (c : Dev nD) : (dat6 (ent6 m) c).arrAt 3 cfg6.N = ext6 m c (Pipeline.arrRef spec6 3) := by
  have h1 : V16 m (outsAll m) c main_v116_0 = outsAll m 16 main_v116_0 c := (Function.update_of_ne (StableHlo.devRef_ne_of_ne (by decide : (main_v116_0 : Ref sig .tc) ≠ main_v116_2) : (Proc.devRef .tc main_v116_0 : DevRef τ sig) ≠ Proc.devRef .tc main_v116_2) _ _).trans ((Function.update_of_ne (StableHlo.devRef_ne_of_ne (by decide : (main_v116_0 : Ref sig .tc) ≠ main_v116_1) : (Proc.devRef .tc main_v116_0 : DevRef τ sig) ≠ Proc.devRef .tc main_v116_1) _ _).trans (Function.update_self _ _ _))
  have h2 : exitOf6 (V15 m (outsAll m)) c (Proc.devRef .tc (Pipeline.arrRef spec6 3)) = (dat6 (ent6 m) c).arrAt 3 cfg6.N := by
    unfold exitOf6; exact Pipeline.withArrays_arr spec6 launch6.win.arr_inj c _ _ 3
  exact (h1.trans ((outsAll_16 m main_v116_0 c).trans h2)).symm
/-- Output window 4's array: the choice made at this region's exit item. -/
theorem ext6_out_4 (c : Dev nD) : (dat6 (ent6 m) c).arrAt 4 cfg6.N = ext6 m c (Pipeline.arrRef spec6 4) := by
  have h1 : V16 m (outsAll m) c main_v116_1 = outsAll m 16 main_v116_1 c := (Function.update_of_ne (StableHlo.devRef_ne_of_ne (by decide : (main_v116_1 : Ref sig .tc) ≠ main_v116_2) : (Proc.devRef .tc main_v116_1 : DevRef τ sig) ≠ Proc.devRef .tc main_v116_2) _ _).trans (Function.update_self _ _ _)
  have h2 : exitOf6 (V15 m (outsAll m)) c (Proc.devRef .tc (Pipeline.arrRef spec6 4)) = (dat6 (ent6 m) c).arrAt 4 cfg6.N := by
    unfold exitOf6; exact Pipeline.withArrays_arr spec6 launch6.win.arr_inj c _ _ 4
  exact (h1.trans ((outsAll_16 m main_v116_1 c).trans h2)).symm
/-- Output window 5's array: the choice made at this region's exit item. -/
theorem ext6_out_5 (c : Dev nD) : (dat6 (ent6 m) c).arrAt 5 cfg6.N = ext6 m c (Pipeline.arrRef spec6 5) := by
  have h1 : V16 m (outsAll m) c main_v116_2 = outsAll m 16 main_v116_2 c := Function.update_self _ _ _
  have h2 : exitOf6 (V15 m (outsAll m)) c (Proc.devRef .tc (Pipeline.arrRef spec6 5)) = (dat6 (ent6 m) c).arrAt 5 cfg6.N := by
    unfold exitOf6; exact Pipeline.withArrays_arr spec6 launch6.win.arr_inj c _ _ 5
  exact (h1.trans ((outsAll_16 m main_v116_2 c).trans h2)).symm
/-- At region 6's exit each of its arrays holds what the pipeline leaves, -/
theorem hF6 (c : Dev nD) (w : Fin cfg6.W) : (dat6 (ent6 m) c).arrAt w cfg6.N = ext6 m c (Pipeline.arrRef spec6 w) := by
  have h : w = 0 ∨ w = 1 ∨ w = 2 ∨ w = 3 ∨ w = 4 ∨ w = 5 := by revert w; decide
  rcases h with rfl | rfl | rfl | rfl | rfl | rfl
  · exact ext6_in m c 0 rfl (by decide)
  · exact ext6_in m c 1 rfl (by decide)
  · exact ext6_in m c 2 rfl (by decide)
  · exact ext6_out_3 m c
  · exact ext6_out_4 m c
  · exact ext6_out_5 m c
/-- and every buffer that is none of its arrays what it held at entry. -/
theorem hrest6 (c : Dev nD) : ∀ b, b ∉ Finset.univ.image (Pipeline.arrRef spec6) → ext6 m c b = ent6 m c b :=
  fun b hb => V16_of m (outsAll m) c b fun hmem => hb (by
    rcases List.mem_cons.mp hmem with rfl | hmem
    · exact Finset.mem_image.mpr ⟨3, Finset.mem_univ _, rfl⟩
    rcases List.mem_cons.mp hmem with rfl | hmem
    · exact Finset.mem_image.mpr ⟨4, Finset.mem_univ _, rfl⟩
    rcases List.mem_singleton.mp hmem with rfl
    exact Finset.mem_image.mpr ⟨5, Finset.mem_univ _, rfl⟩)

/-- Region 7's entry contents and its exit contents. -/
abbrev ent7 : (c : Dev nD) → (b : Ref sig .tc) → Buf (Elt F) ((c : Thread nD τ).loc b) := fun c b => V17 m (outsAll m) c b
abbrev ext7 : (c : Dev nD) → (b : Ref sig .tc) → Buf (Elt F) ((c : Thread nD τ).loc b) := fun c b => V18 m (outsAll m) c b
/-- An input window's array: held as entered through the pipeline, and no output of the region. -/
theorem ext7_in (c : Dev nD) (w : Fin cfg7.W) (hin : (cfg7.win w).isOut = false)
    (hne : Pipeline.arrRef spec7 w ∉ ([main_v124] : List (Ref sig .tc))) :
    (dat7 (ent7 m) c).arrAt w cfg7.N = ext7 m c (Pipeline.arrRef spec7 w) := by
  rw [(dat7 (ent7 m) c).arrAt_in w hin, A_eq7]
  exact (V18_of m (outsAll m) c _ hne).symm
/-- Output window 8's array: the choice made at this region's exit item. -/
theorem ext7_out_8 (c : Dev nD) : (dat7 (ent7 m) c).arrAt 8 cfg7.N = ext7 m c (Pipeline.arrRef spec7 8) := by
  have h1 : V18 m (outsAll m) c main_v124 = outsAll m 18 main_v124 c := Function.update_self _ _ _
  have h2 : exitOf7 (V17 m (outsAll m)) c (Proc.devRef .tc (Pipeline.arrRef spec7 8)) = (dat7 (ent7 m) c).arrAt 8 cfg7.N := by
    unfold exitOf7; exact Pipeline.withArrays_arr spec7 launch7.win.arr_inj c _ _ 8
  exact (h1.trans ((outsAll_18 m main_v124 c).trans h2)).symm
/-- At region 7's exit each of its arrays holds what the pipeline leaves, -/
theorem hF7 (c : Dev nD) (w : Fin cfg7.W) : (dat7 (ent7 m) c).arrAt w cfg7.N = ext7 m c (Pipeline.arrRef spec7 w) := by
  have h : w = 0 ∨ w = 1 ∨ w = 2 ∨ w = 3 ∨ w = 4 ∨ w = 5 ∨ w = 6 ∨ w = 7 ∨ w = 8 := by revert w; decide
  rcases h with rfl | rfl | rfl | rfl | rfl | rfl | rfl | rfl | rfl
  · exact ext7_in m c 0 rfl (by decide)
  · exact ext7_in m c 1 rfl (by decide)
  · exact ext7_in m c 2 rfl (by decide)
  · exact ext7_in m c 3 rfl (by decide)
  · exact ext7_in m c 4 rfl (by decide)
  · exact ext7_in m c 5 rfl (by decide)
  · exact ext7_in m c 6 rfl (by decide)
  · exact ext7_in m c 7 rfl (by decide)
  · exact ext7_out_8 m c
/-- and every buffer that is none of its arrays what it held at entry. -/
theorem hrest7 (c : Dev nD) : ∀ b, b ∉ Finset.univ.image (Pipeline.arrRef spec7) → ext7 m c b = ent7 m c b :=
  fun b hb => V18_of m (outsAll m) c b fun hmem => hb (by
    rcases List.mem_singleton.mp hmem with rfl
    exact Finset.mem_image.mpr ⟨8, Finset.mem_univ _, rfl⟩)

/-! ## The proof data family and the thread state -/

/-- Every pipeline's proof data, each at its region's entry contents — a literal `match`, so that the family at a
    numeral reduces to that region's data. -/
def pdats : (p : Fin 8) → (c : Dev nD) → Dat τ (Elt F) Unit ℕ (Pipeline.UD sig nD τ) ℕ (cfgs p) c
  | ⟨0, _⟩ => fun c => dat0 (ent0 m) c
  | ⟨1, _⟩ => fun c => dat1 (ent1 m) c
  | ⟨2, _⟩ => fun c => dat2 (ent2 m) c
  | ⟨3, _⟩ => fun c => dat3 (ent3 m) c
  | ⟨4, _⟩ => fun c => dat4 (ent4 m) c
  | ⟨5, _⟩ => fun c => dat5 (ent5 m) c
  | ⟨6, _⟩ => fun c => dat6 (ent6 m) c
  | ⟨7, _⟩ => fun c => dat7 (ent7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state (a region's
    invariant takes it in and gives it back) and its `owes`, at nothing. -/
abbrev Rest (c : Dev nD) : sProp 𝕄 := iprop((∃ r, prngReg c r) ∗ ∃ W, owes (c : Thread nD τ) (0 : CellTallies nD τ sig Unit) W)

/-! ## The regions as segments -/

set_option backward.isDefEq.respectTransparency.types false in
/-- REGION 0 over the thread state: entered from every unscoped buffer at the contents the items before it leave, left
    at those with its outputs' arrays as its pipeline leaves them. Its arrays split out of the unscoped buffers and put
    back at the exit contents; the generator register into the region's invariant and out; nothing owed; no semaphore
    of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (ent0 m) c).loose
  hwaits := Pipeline.hwaits_of_owed_zero _ _ _ _ L lv 0 fun _ _ => rfl
  pre c := iprop(StableHlo.held (c : Thread nD τ) (Pipeline.ucRefs τ sig) (V3 m c) ∗ Rest c)
  post c := iprop(StableHlo.held (c : Thread nD τ) (Pipeline.ucRefs τ sig) (V4 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec0 c : sProp 𝕄) from ?_).trans (hin0 (ent0 m) c)
    unfold Pipeline.ΦA
    iintro ⟨Hp, -, Hr⟩
    isplitl [Hr]; · iexact Hr
    iexact Hp
  hout c := by
    rw [Pipeline.ownSems0_none]
    refine (hout0 (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (ent0 m c) (ext0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at the contents the items before it leave, left
    at those with its outputs' arrays as its pipeline leaves them. Its arrays split out of the unscoped buffers and put
    back at the exit contents; the generator register into the region's invariant and out; nothing owed; no semaphore
    of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (ent1 m) c).loose
  hwaits := Pipeline.hwaits_of_owed_zero _ _ _ _ L lv 1 fun _ _ => rfl
  pre c := iprop(StableHlo.held (c : Thread nD τ) (Pipeline.ucRefs τ sig) (V5 m (outsAll m) c) ∗ Rest c)
  post c := iprop(StableHlo.held (c : Thread nD τ) (Pipeline.ucRefs τ sig) (V6 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (ent1 m c) (ext1 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at the contents the items before it leave, left
    at those with its outputs' arrays as its pipeline leaves them. Its arrays split out of the unscoped buffers and put
    back at the exit contents; the generator register into the region's invariant and out; nothing owed; no semaphore
    of the kernel's own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (ent2 m) c).loose
  hwaits := Pipeline.hwaits_of_owed_zero _ _ _ _ L lv 2 fun _ _ => rfl
  pre c := iprop(StableHlo.held (c : Thread nD τ) (Pipeline.ucRefs τ sig) (V7 m (outsAll m) c) ∗ Rest c)
  post c := iprop(StableHlo.held (c : Thread nD τ) (Pipeline.ucRefs τ sig) (V8 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec2 c (ent2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (ent2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec2 c : sProp 𝕄) from ?_).trans (hin2 (ent2 m) c)
    unfold Pipeline.ΦA
    iintro ⟨Hp, -, Hr⟩
    isplitl [Hr]; · iexact Hr
    iexact Hp
  hout c := by
    rw [Pipeline.ownSems0_none]
    refine (hout2 (ent2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (ent2 m c) (ext2 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at the contents the items before it leave, left
    at those with its outputs' arrays as its pipeline leaves them. Its arrays split out of the unscoped buffers and put
    back at the exit contents; the generator register into the region's invariant and out; nothing owed; no semaphore
    of the kernel's own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (ent3 m) c).loose
  hwaits := Pipeline.hwaits_of_owed_zero _ _ _ _ L lv 3 fun _ _ => rfl
  pre c := iprop(StableHlo.held (c : Thread nD τ) (Pipeline.ucRefs τ sig) (V9 m (outsAll m) c) ∗ Rest c)
  post c := iprop(StableHlo.held (c : Thread nD τ) (Pipeline.ucRefs τ sig) (V10 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec3 c (ent3 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (ent3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := Pipeline.UD sig nD τ) (Lvl := ℕ)
      launch3.win launch3.arr_whole c (pdats m) ((pdats m 3 c).share_full fun _ => rfl)
      (ent3 m c) (ext3 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 4 over the thread state: entered from every unscoped buffer at the contents the items before it leave, left
    at those with its outputs' arrays as its pipeline leaves them. Its arrays split out of the unscoped buffers and put
    back at the exit contents; the generator register into the region's invariant and out; nothing owed; no semaphore
    of the kernel's own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (ent4 m) c).loose
  hwaits := Pipeline.hwaits_of_owed_zero _ _ _ _ L lv 4 fun _ _ => rfl
  pre c := iprop(StableHlo.held (c : Thread nD τ) (Pipeline.ucRefs τ sig) (V11 m (outsAll m) c) ∗ Rest c)
  post c := iprop(StableHlo.held (c : Thread nD τ) (Pipeline.ucRefs τ sig) (V12 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec4 c (ent4 m c)
  hentry c := by
    rw [Pipeline.ownSems0_none]
    have hsplit := Pipeline.arrays_of_unscopedBufs (p := 4) (pcfgs (F := F)) adm (pdats m) launch4.win launch4.arr_whole c
      ((pdats m 4 c).share_full fun _ => rfl) (ent4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec4 c : sProp 𝕄) from ?_).trans (hin4 (ent4 m) c)
    unfold Pipeline.ΦA
    iintro ⟨Hp, -, Hr⟩
    isplitl [Hr]; · iexact Hr
    iexact Hp
  hout c := by
    rw [Pipeline.ownSems0_none]
    refine (hout4 (ent4 m) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := Pipeline.UD sig nD τ) (Lvl := ℕ)
      launch4.win launch4.arr_whole c (pdats m) ((pdats m 4 c).share_full fun _ => rfl)
      (ent4 m c) (ext4 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 5 over the thread state: entered from every unscoped buffer at the contents the items before it leave, left
    at those with its outputs' arrays as its pipeline leaves them. Its arrays split out of the unscoped buffers and put
    back at the exit contents; the generator register into the region's invariant and out; nothing owed; no semaphore
    of the kernel's own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (ent5 m) c).loose
  hwaits := Pipeline.hwaits_of_owed_zero _ _ _ _ L lv 5 fun _ _ => rfl
  pre c := iprop(StableHlo.held (c : Thread nD τ) (Pipeline.ucRefs τ sig) (V13 m (outsAll m) c) ∗ Rest c)
  post c := iprop(StableHlo.held (c : Thread nD τ) (Pipeline.ucRefs τ sig) (V14 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec5 c (ent5 m c)
  hentry c := by
    rw [Pipeline.ownSems0_none]
    have hsplit := Pipeline.arrays_of_unscopedBufs (p := 5) (pcfgs (F := F)) adm (pdats m) launch5.win launch5.arr_whole c
      ((pdats m 5 c).share_full fun _ => rfl) (ent5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := Pipeline.UD sig nD τ) (Lvl := ℕ)
      launch5.win launch5.arr_whole c (pdats m) ((pdats m 5 c).share_full fun _ => rfl)
      (ent5 m c) (ext5 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 6 over the thread state: entered from every unscoped buffer at the contents the items before it leave, left
    at those with its outputs' arrays as its pipeline leaves them. Its arrays split out of the unscoped buffers and put
    back at the exit contents; the generator register into the region's invariant and out; nothing owed; no semaphore
    of the kernel's own. -/
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (ent6 m) c).loose
  hwaits := Pipeline.hwaits_of_owed_zero _ _ _ _ L lv 6 fun _ _ => rfl
  pre c := iprop(StableHlo.held (c : Thread nD τ) (Pipeline.ucRefs τ sig) (V15 m (outsAll m) c) ∗ Rest c)
  post c := iprop(StableHlo.held (c : Thread nD τ) (Pipeline.ucRefs τ sig) (V16 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec6 c (ent6 m c)
  hentry c := by
    rw [Pipeline.ownSems0_none]
    have hsplit := Pipeline.arrays_of_unscopedBufs (p := 6) (pcfgs (F := F)) adm (pdats m) launch6.win launch6.arr_whole c
      ((pdats m 6 c).share_full fun _ => rfl) (ent6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec6 c : sProp 𝕄) from ?_).trans (hin6 (ent6 m) c)
    unfold Pipeline.ΦA
    iintro ⟨Hp, -, Hr⟩
    isplitl [Hr]; · iexact Hr
    iexact Hp
  hout c := by
    rw [Pipeline.ownSems0_none]
    refine (hout6 (ent6 m) c).trans ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := Pipeline.UD sig nD τ) (Lvl := ℕ)
      launch6.win launch6.arr_whole c (pdats m) ((pdats m 6 c).share_full fun _ => rfl)
      (ent6 m c) (ext6 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 7 over the thread state: entered from every unscoped buffer at the contents the items before it leave, left
    at those with its outputs' arrays as its pipeline leaves them. Its arrays split out of the unscoped buffers and put
    back at the exit contents; the generator register into the region's invariant and out; nothing owed; no semaphore
    of the kernel's own. -/
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (ent7 m) c).loose
  hwaits := Pipeline.hwaits_of_owed_zero _ _ _ _ L lv 7 fun _ _ => rfl
  pre c := iprop(StableHlo.held (c : Thread nD τ) (Pipeline.ucRefs τ sig) (V17 m (outsAll m) c) ∗ Rest c)
  post c := iprop(StableHlo.held (c : Thread nD τ) (Pipeline.ucRefs τ sig) (V18 m (outsAll m) c) ∗ Rest c)
  X c := iprop(∃ r, prngReg c r)
  Y c := iprop(∃ r, prngReg c r)
  Z c := Pipeline.unscopedRest (Ix := Unit) (Name := ℕ) (U := Pipeline.UD sig nD τ) (Lvl := ℕ) spec7 c (ent7 m c)
  hentry c := by
    rw [Pipeline.ownSems0_none]
    have hsplit := Pipeline.arrays_of_unscopedBufs (p := 7) (pcfgs (F := F)) adm (pdats m) launch7.win launch7.arr_whole c
      ((pdats m 7 c).share_full fun _ => rfl) (ent7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := Pipeline.UD sig nD τ) (Lvl := ℕ)
      launch7.win launch7.arr_whole c (pdats m) ((pdats m 7 c).share_full fun _ => rfl)
      (ent7 m c) (ext7 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame -/

set_option backward.isDefEq.respectTransparency.types false in
/-- THE FRAME at any `F`: from any memory with zero counters and any generator registers, every weakly fair execution of
    @main on the TensorCores terminates and every final memory holds each argument as launched — the conditional frame at
    the contents chosen above, the eight records, and the rest state `Rest` between all items: the launch deals each
    core its register and its `owes` at nothing, and the last item leaves the `owes` at nothing. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_cond (m := m) (EP := embL) (ι := ()) (𝒱₀ := 𝒱₀) (L := L) (lv := lv) (hL := fun _ _ => rfl) (ρ := ρ) (outs := outsAll m) (pdats := pdats m)
    (O₀ := 0) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (E := fun _ c => Rest c)
    (hE0 := by
      refine Pipeline.initEach L lv fun c => ?_
      iintro ⟨⟨-, HO, -, Hp, -⟩, -⟩
      imodintro
      isplitl [Hp]; · iexists _; iexact Hp
      iexists ∅; iexact HO)
    (hE8 := fun c => by
      iintro ⟨-, HO⟩
      iexact HO)
    (R0 := reg0 m) (hpre0 := fun _ => .rfl) (hpost0 := fun _ => .rfl)
    (R1 := reg1 m) (hpre1 := fun _ => .rfl) (hpost1 := fun _ => .rfl)
    (R2 := reg2 m) (hpre2 := fun _ => .rfl) (hpost2 := fun _ => .rfl)
    (R3 := reg3 m) (hpre3 := fun _ => .rfl) (hpost3 := fun _ => .rfl)
    (R4 := reg4 m) (hpre4 := fun _ => .rfl) (hpost4 := fun _ => .rfl)
    (R5 := reg5 m) (hpre5 := fun _ => .rfl) (hpost5 := fun _ => .rfl)
    (R6 := reg6 m) (hpre6 := fun _ => .rfl) (hpost6 := fun _ => .rfl)
    (R7 := reg7 m) (hpre7 := fun _ => .rfl) (hpost7 := fun _ => .rfl)

end Cert.Kernel.Gen

end
-- ==== Proof.LibLineRun.lean ====
/-
  Reading a straight line of host operations one operation at a time.

  A line in which the operations write pairwise distinct buffers (single assignment), `Aligned l Wl`: operation `i`
  of `l` writes exactly buffer `Wl[i]`. Then

  * a buffer not written from position `k` on holds, after the whole line, what it held after the first `k`
    operations (`after_eq_take`);
  * the buffer the operation at position `k` writes holds, after the whole line, that operation's result over the
    contents after the first `k` operations (`after_eq_result`), because no later operation writes it.

  So when the operands of the operation at `k` are not written from `k` on — always, under single assignment —
  its result buffer ends at the operation's function of its operands' FINAL contents (`step_unary`, `step_binary`, …):
  the line's final contents satisfy the program's equations, one per operation.
-/
import Idealize.ShloMosaic.Lib.StableHlo.Run
import Idealize.ShloMosaic.Lib.Pipeline.Frame
import Mathlib.Data.List.Forall2

namespace Cert.RefRunLib

open Idealize.ShloMosaic Idealize.ShloMosaic.StableHlo

variable {τ : Topo} {sig : RefSig} {Val : EltTy → Type}

/-- Operation `i` of the line writes exactly the buffer `Wl[i]`. -/
abbrev Aligned (l : List (HloOp τ sig Val)) (Wl : List (Ref sig .tc)) : Prop :=
  List.Forall₂ (fun op r => op.writes = {Proc.devRef (τ := τ) .tc r}) l Wl

/-- A buffer outside the written ones keeps its contents through the line. -/
theorem after_keep {l : List (HloOp τ sig Val)} {Wl : List (Ref sig .tc)} (h : Aligned l Wl)
    (V : Valuation τ sig Val) {r : Ref sig .tc} (hr : r ∉ Wl) :
    after l V (Proc.devRef .tc r) = V (Proc.devRef .tc r) := by
  induction h generalizing V with
  | nil => rfl
  | @cons op w l Wl hw _ ih =>
    rw [after_cons, ih _ (List.not_mem_of_not_mem_cons hr), op.result_of_not_mem V]
    rw [hw, Finset.mem_singleton]
    exact devRef_ne_of_ne (List.ne_of_not_mem_cons hr)

/-- A buffer not written from position `k` on: its final contents are those after the first `k` operations. -/
theorem after_eq_take {l : List (HloOp τ sig Val)} {Wl : List (Ref sig .tc)} (h : Aligned l Wl)
    (V : Valuation τ sig Val) (k : Nat) {r : Ref sig .tc} (hr : r ∉ Wl.drop k) :
    after l V (Proc.devRef .tc r) = after (l.take k) V (Proc.devRef .tc r) := by
  conv_lhs => rw [← List.take_append_drop k l, StableHlo.after_append]
  exact after_keep (List.forall₂_drop k h) _ hr

/-- The buffer written at position `k`: its final contents are that operation's result. -/
theorem after_eq_result {l : List (HloOp τ sig Val)} {Wl : List (Ref sig .tc)} (h : Aligned l Wl)
    (V : Valuation τ sig Val) (k : Nat) {op : HloOp τ sig Val} (hk : l[k]? = some op) {y : Ref sig .tc} (hy : y ∉ Wl.drop (k + 1)) :
    after l V (Proc.devRef .tc y) = op.result (after (l.take k) V) (Proc.devRef .tc y) := by
  obtain ⟨hlt, rfl⟩ := List.getElem?_eq_some_iff.mp hk
  conv_lhs => rw [← List.take_append_drop k l, StableHlo.after_append, List.drop_eq_getElem_cons hlt, after_cons]
  exact after_keep (List.forall₂_drop (k + 1) h) _ hy

section Steps

variable {l : List (HloOp τ sig Val)} {Wl : List (Ref sig .tc)} (h : Aligned l Wl) (V : Valuation τ sig Val) (k : Nat)
include h

theorem step_nullary {y : Ref sig .tc} {v : y.ty.Contents Val} {hy}
    (hk : l[k]? = some (nullary y v hy)) (hy' : y ∉ Wl.drop (k + 1)) :
    after l V (Proc.devRef .tc y) = v := by
  rw [after_eq_result h V k hk hy', nullary_result]

theorem step_unary {x y : Ref sig .tc} {f : x.ty.Contents Val → y.ty.Contents Val} {hx hy}
    (hk : l[k]? = some (unary x y f hx hy)) (hy' : y ∉ Wl.drop (k + 1)) (hx' : x ∉ Wl.drop k) :
    after l V (Proc.devRef .tc y) = f (after l V (Proc.devRef .tc x)) := by
  rw [after_eq_result h V k hk hy', unary_result, after_eq_take h V k hx']

theorem step_binary {a b y : Ref sig .tc} {f : a.ty.Contents Val → b.ty.Contents Val → y.ty.Contents Val} {ha hb hy}
    (hk : l[k]? = some (binary a b y f ha hb hy)) (hy' : y ∉ Wl.drop (k + 1)) (ha' : a ∉ Wl.drop k) (hb' : b ∉ Wl.drop k) :
    after l V (Proc.devRef .tc y) = f (after l V (Proc.devRef .tc a)) (after l V (Proc.devRef .tc b)) := by
  rw [after_eq_result h V k hk hy', binary_result, after_eq_take h V k ha', after_eq_take h V k hb']

theorem step_ternary {c a b y : Ref sig .tc} {f : c.ty.Contents Val → a.ty.Contents Val → b.ty.Contents Val → y.ty.Contents Val}
    {hc ha hb hy} (hk : l[k]? = some (ternary c a b y f hc ha hb hy)) (hy' : y ∉ Wl.drop (k + 1))
    (hc' : c ∉ Wl.drop k) (ha' : a ∉ Wl.drop k) (hb' : b ∉ Wl.drop k) :
    after l V (Proc.devRef .tc y)
      = f (after l V (Proc.devRef .tc c)) (after l V (Proc.devRef .tc a)) (after l V (Proc.devRef .tc b)) := by
  rw [after_eq_result h V k hk hy', ternary_result, after_eq_take h V k hc', after_eq_take h V k ha', after_eq_take h V k hb']

theorem step_reshape {x y : Ref sig .tc} {he hn hx hy}
    (hk : l[k]? = some (reshape (Val := Val) x y he hn hx hy)) (hy' : y ∉ Wl.drop (k + 1)) (hx' : x ∉ Wl.drop k) :
    after l V (Proc.devRef .tc y) = fun i => he ▸ shapeCast y.ty.shape (after l V (Proc.devRef .tc x)) hn i := by
  rw [after_eq_result h V k hk hy', reshape_result, after_eq_take h V k hx']

end Steps

end Cert.RefRunLib
-- ==== Proof.SpecBn.lean ====
/- The normalising layer with its cut at zero, as ONE function of its five operands, index by index.

   For an array x of 50000 rows and 128 columns and four rows [1,128] — the column mean μ, the column variance σ², the
   scale γ and the shift β — the result at row r, column j is
       max((x(r,j) − μ(0,j)) · rsqrt(σ²(0,j) + ε) · γ(0,j) + β(0,j), 0)
   over the extended reals, the operations the ideal instance's (a product is taken left to right: the difference by the
   reciprocal root first, then by the scale). ε is the f32 word 0x3727C5AC and the zero the f32 word 0x00000000, both
   kept as words: the same word stands on every side of an equation and is never evaluated. -/
import Idealize.ShloMosaic.PureOps.Ideal
import Idealize.ShloMosaic.Lib.ValueIdx

noncomputable section

namespace Cert.Spec

open Idealize.ShloMosaic Idealize.ShloMosaic.ValueIdx

/-- One element of the result from the five elements it reads. -/
def bnAt (x mu var ga be : EReal) : EReal :=
  max ((x - mu) * Ideal.rsqrt (var + Ideal.ofBits .f32 0x3727C5AC#32) * ga + be) (Ideal.ofBits .f32 0x00000000#32)

/-- The result array: element (r, j) reads x at (r, j) and each row at (0, j). -/
def bnRelu (x : (⟨2, ![50000, 128]⟩ : Shape).Idx → EReal) (mu var ga be : (⟨2, ![1, 128]⟩ : Shape).Idx → EReal) :
    (⟨2, ![50000, 128]⟩ : Shape).Idx → EReal :=
  fun i => bnAt (x i) (mu (ix2 (0 : Fin 1) (i 1))) (var (ix2 (0 : Fin 1) (i 1))) (ga (ix2 (0 : Fin 1) (i 1))) (be (ix2 (0 : Fin 1) (i 1)))

/-- The result read at coordinates. -/
theorem bnRelu_apply (x : (⟨2, ![50000, 128]⟩ : Shape).Idx → EReal) (mu var ga be : (⟨2, ![1, 128]⟩ : Shape).Idx → EReal)
    (r : Fin 50000) (j : Fin 128) :
    bnRelu x mu var ga be (ix2 r j)
      = bnAt (x (ix2 r j)) (mu (ix2 (0 : Fin 1) j)) (var (ix2 (0 : Fin 1) j)) (ga (ix2 (0 : Fin 1) j)) (be (ix2 (0 : Fin 1) j)) := rfl

end Cert.Spec

end
-- ==== Proof.SpecAtom.lean ====
/- The read-out layer: the normalised, cut activations projected by a weight, shifted by a bias and masked by rows,
   as ONE function of its eight operands, index by index.

   For the pre-activation z of 50000 rows and 128 columns, its four rows [1,128] (column mean, column variance, scale,
   shift), a weight W of 128 rows and 128 columns, a bias row b [1,128] and a row mask [50000,1], the result at row r,
   column j is
       (Σ_k y(r,k) · W(j,k) + b(0,j)) · mask(r,0),
   y the normalising layer's result `bnRelu` of z and its rows: a product of y with the transpose of W (the sum runs
   over W's second coordinate), then the bias added, then the mask multiplied in — the order in which the result is
   computed. Over the extended reals; a change of float format is the identity there. -/
import proofs.«180021_j37692632990117_2_alg».proof.Proof.SpecBn

noncomputable section

open scoped BigOperators

namespace Cert.Spec

open Idealize.ShloMosaic Idealize.ShloMosaic.ValueIdx

/-- The result array: element (r, j) sums, over k, the normalised element (r, k) by the weight at (j, k), adds the bias
    at (0, j) and multiplies by the mask at (r, 0). -/
def atomOut (zpre : (⟨2, ![50000, 128]⟩ : Shape).Idx → EReal) (mu var ga be : (⟨2, ![1, 128]⟩ : Shape).Idx → EReal)
    (w2 : (⟨2, ![128, 128]⟩ : Shape).Idx → EReal) (b2 : (⟨2, ![1, 128]⟩ : Shape).Idx → EReal)
    (mask : (⟨2, ![50000, 1]⟩ : Shape).Idx → EReal) : (⟨2, ![50000, 128]⟩ : Shape).Idx → EReal :=
  fun i => (∑ k : Fin 128, bnRelu zpre mu var ga be (ix2 (i 0) k) * w2 (ix2 (i 1) k) + b2 (ix2 (0 : Fin 1) (i 1)))
    * mask (ix2 (i 0) (0 : Fin 1))

/-- The result read at coordinates, the normalised elements spelt out. -/
theorem atomOut_apply (zpre : (⟨2, ![50000, 128]⟩ : Shape).Idx → EReal) (mu var ga be : (⟨2, ![1, 128]⟩ : Shape).Idx → EReal)
    (w2 : (⟨2, ![128, 128]⟩ : Shape).Idx → EReal) (b2 : (⟨2, ![1, 128]⟩ : Shape).Idx → EReal)
    (mask : (⟨2, ![50000, 1]⟩ : Shape).Idx → EReal) (r : Fin 50000) (j : Fin 128) :
    atomOut zpre mu var ga be w2 b2 mask (ix2 r j)
      = (∑ k : Fin 128, bnAt (zpre (ix2 r k)) (mu (ix2 (0 : Fin 1) k)) (var (ix2 (0 : Fin 1) k)) (ga (ix2 (0 : Fin 1) k)) (be (ix2 (0 : Fin 1) k))
            * w2 (ix2 j k) + b2 (ix2 (0 : Fin 1) j)) * mask (ix2 r (0 : Fin 1)) := rfl

end Cert.Spec

end
-- ==== Proof.SpecNet.lean ====
/- The network's dense algebra on extended reals, index by index, in the kernel's order of operations.

   A layer's pre-activation is agg·Wlᵀ + h·Wrᵀ + b (two sums over the 128 input channels, then the bias row); the
   read-out's is x·Wᵀ + b.  The column mean of a [50000,128] array is its column sum times 1/50000, its column variance
   max((column sum of squares)/50000 − mean², 0).  A mean aggregate is the scatter-gather sum times one reciprocal
   degree per row. -/
import Idealize.ShloMosaic.PureOps.Ideal
import Idealize.ShloMosaic.Lib.ValueIdx
import proofs.«180021_j37692632990117_2_alg».proof.Proof.SpecBn
import proofs.«180021_j37692632990117_2_alg».proof.Proof.SpecAtom

noncomputable section

namespace Cert.Spec

open Idealize.ShloMosaic Idealize.ShloMosaic.ValueIdx

/-- agg·Wlᵀ + h·Wrᵀ + b at an entry. -/
def linPre2 (agg h : (⟨2, ![50000, 128]⟩ : Shape).Idx → EReal) (wl wr : (⟨2, ![128, 128]⟩ : Shape).Idx → EReal)
    (bl : (⟨2, ![1, 128]⟩ : Shape).Idx → EReal) : (⟨2, ![50000, 128]⟩ : Shape).Idx → EReal :=
  fun i => (∑ k : Fin 128, agg (ix2 (i 0) k) * wl (ix2 (i 1) k) + ∑ k : Fin 128, h (ix2 (i 0) k) * wr (ix2 (i 1) k)) + bl (ix2 (0 : Fin 1) (i 1))

/-- x·Wᵀ + b at an entry. -/
def linPre1 (x : (⟨2, ![50000, 128]⟩ : Shape).Idx → EReal) (w : (⟨2, ![128, 128]⟩ : Shape).Idx → EReal)
    (b : (⟨2, ![1, 128]⟩ : Shape).Idx → EReal) : (⟨2, ![50000, 128]⟩ : Shape).Idx → EReal :=
  fun i => ∑ k : Fin 128, x (ix2 (i 0) k) * w (ix2 (i 1) k) + b (ix2 (0 : Fin 1) (i 1))

/-- The sum of column j. -/
def colSum (x : (⟨2, ![50000, 128]⟩ : Shape).Idx → EReal) (j : Fin 128) : EReal := ∑ r : Fin 50000, x (ix2 r j)

/-- The column means as a row: column sum times 1/50000. -/
def meanRow (x : (⟨2, ![50000, 128]⟩ : Shape).Idx → EReal) : (⟨2, ![1, 128]⟩ : Shape).Idx → EReal :=
  fun i => colSum x (i 1) * ((1 / 50000 : ℝ) : EReal)

/-- The column variances as a row: max((column sum of squares)/50000 − mean², 0). -/
def varRow (x : (⟨2, ![50000, 128]⟩ : Shape).Idx → EReal) : (⟨2, ![1, 128]⟩ : Shape).Idx → EReal :=
  fun i => max (colSum (fun q => x q * x q) (i 1) * ((1 / 50000 : ℝ) : EReal) - meanRow x i * meanRow x i) (Ideal.ofBits .f32 0x00000000#32)

/-- The mean aggregate: the scatter-gather sum times one reciprocal degree per row. -/
def aggK (S : (⟨2, ![50000, 128]⟩ : Shape).Idx → EReal) (inv : (⟨2, ![50000, 1]⟩ : Shape).Idx → EReal) :
    (⟨2, ![50000, 128]⟩ : Shape).Idx → EReal := fun i => S i * inv (ix2 (i 0) (0 : Fin 1))

/-- One layer as the kernel program computes it: statistics of the pre-activation, then normalise, scale, shift, cut at zero. -/
def kerLayer (S : (⟨2, ![50000, 128]⟩ : Shape).Idx → EReal) (inv : (⟨2, ![50000, 1]⟩ : Shape).Idx → EReal)
    (h : (⟨2, ![50000, 128]⟩ : Shape).Idx → EReal) (wl wr : (⟨2, ![128, 128]⟩ : Shape).Idx → EReal)
    (bl ga be : (⟨2, ![1, 128]⟩ : Shape).Idx → EReal) : (⟨2, ![50000, 128]⟩ : Shape).Idx → EReal :=
  bnRelu (linPre2 (aggK S inv) h wl wr bl) (meanRow (linPre2 (aggK S inv) h wl wr bl)) (varRow (linPre2 (aggK S inv) h wl wr bl)) ga be

/-- The read-out as the kernel program computes it. -/
def kerReadout (h : (⟨2, ![50000, 128]⟩ : Shape).Idx → EReal) (w1 : (⟨2, ![128, 128]⟩ : Shape).Idx → EReal)
    (b1 ga be : (⟨2, ![1, 128]⟩ : Shape).Idx → EReal) (w2 : (⟨2, ![128, 128]⟩ : Shape).Idx → EReal)
    (b2 : (⟨2, ![1, 128]⟩ : Shape).Idx → EReal) (mask : (⟨2, ![50000, 1]⟩ : Shape).Idx → EReal) :
    (⟨2, ![50000, 128]⟩ : Shape).Idx → EReal :=
  atomOut (linPre1 h w1 b1) (meanRow (linPre1 h w1 b1)) (varRow (linPre1 h w1 b1)) ga be w2 b2 mask

end Cert.Spec

end
-- ==== Proof.IdealValueSteps.lean ====
/- The host stretches of the program, one operation at a time, read at the buffers' final contents.

   Each stretch of host operations between two kernel regions writes pairwise distinct buffers, and no buffer of @main is
   written twice; a region changes its output arrays only.  So a buffer holds, when @main returns, what it held at the
   boundary after the item that writes it, and the buffer an operation writes ends at the operation's function of its
   operands' final contents: one equation per operation, K y = f (K a) (K b) …, K b the final contents of b. -/
import proofs.«180021_j37692632990117_2_alg».proof.Proof.IdealRun
import proofs.«180021_j37692632990117_2_alg».proof.Proof.LibLineRun
import proofs.«180021_j37692632990117_2_alg».proof.Proof.SpecNet
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)
open Cert.Spec Cert.RefRunLib

variable {F : FTy → Type} [FloatOps F] [Named F]
variable (m : (ℓ : Loc nD τ sig) → Buf (Elt F) ℓ) (c : Dev nD)

/-! ## Each stretch writes the buffers its list names, in order -/

theorem aligned_hostOps0 : Aligned (hostOps0 : List (HloOp τ sig (Elt F))) hostOps0_W := by
  repeat' (first | exact List.Forall₂.nil | refine List.Forall₂.cons ?_ ?_)
  all_goals rfl
theorem aligned_hostOps0_1 : Aligned (hostOps0_1 : List (HloOp τ sig (Elt F))) hostOps0_1_W := by
  repeat' (first | exact List.Forall₂.nil | refine List.Forall₂.cons ?_ ?_)
  all_goals rfl
theorem aligned_hostOps0_2 : Aligned (hostOps0_2 : List (HloOp τ sig (Elt F))) hostOps0_2_W := by
  repeat' (first | exact List.Forall₂.nil | refine List.Forall₂.cons ?_ ?_)
  all_goals rfl
theorem aligned_hostOps1 : Aligned (hostOps1 : List (HloOp τ sig (Elt F))) hostOps1_W := by
  repeat' (first | exact List.Forall₂.nil | refine List.Forall₂.cons ?_ ?_)
  all_goals rfl
theorem aligned_hostOps2 : Aligned (hostOps2 : List (HloOp τ sig (Elt F))) hostOps2_W := by
  repeat' (first | exact List.Forall₂.nil | refine List.Forall₂.cons ?_ ?_)
  all_goals rfl
theorem aligned_hostOps3 : Aligned (hostOps3 : List (HloOp τ sig (Elt F))) hostOps3_W := by
  repeat' (first | exact List.Forall₂.nil | refine List.Forall₂.cons ?_ ?_)
  all_goals rfl
theorem aligned_hostOps4 : Aligned (hostOps4 : List (HloOp τ sig (Elt F))) hostOps4_W := by
  repeat' (first | exact List.Forall₂.nil | refine List.Forall₂.cons ?_ ?_)
  all_goals rfl
theorem aligned_hostOps5 : Aligned (hostOps5 : List (HloOp τ sig (Elt F))) hostOps5_W := by
  repeat' (first | exact List.Forall₂.nil | refine List.Forall₂.cons ?_ ?_)
  all_goals rfl
theorem aligned_hostOps6 : Aligned (hostOps6 : List (HloOp τ sig (Elt F))) hostOps6_W := by
  repeat' (first | exact List.Forall₂.nil | refine List.Forall₂.cons ?_ ?_)
  all_goals rfl
theorem aligned_hostOps7 : Aligned (hostOps7 : List (HloOp τ sig (Elt F))) hostOps7_W := by
  repeat' (first | exact List.Forall₂.nil | refine List.Forall₂.cons ?_ ?_)
  all_goals rfl

/-- Every buffer's contents when @main returns, on core `c`. -/
abbrev K (b : Ref sig .tc) : b.ty.Contents (Elt F) := V18 m (outsAll m) c b

/-! ### A buffer no later item writes ends at what it held at that boundary -/

abbrev Wfrom17 : List (Ref sig .tc) := ([main_v124] : List (Ref sig .tc))
theorem keep17 (b : Ref sig .tc) (h : b ∉ Wfrom17) : K m c b = V17 m (outsAll m) c b := V18_of m (outsAll m) c b h
abbrev Wfrom16 : List (Ref sig .tc) := hostOps7_W ++ Wfrom17
theorem keep16 (b : Ref sig .tc) (h : b ∉ Wfrom16) : K m c b = V16 m (outsAll m) c b :=
  (keep17 m c b fun h' => h (List.mem_append_right _ h')).trans (V17_of m (outsAll m) c b (fun h' => h (List.mem_append_left _ h')))
abbrev Wfrom15 : List (Ref sig .tc) := ([main_v116_0, main_v116_1, main_v116_2] : List (Ref sig .tc)) ++ Wfrom16
theorem keep15 (b : Ref sig .tc) (h : b ∉ Wfrom15) : K m c b = V15 m (outsAll m) c b :=
  (keep16 m c b fun h' => h (List.mem_append_right _ h')).trans (V16_of m (outsAll m) c b (fun h' => h (List.mem_append_left _ h')))
abbrev Wfrom14 : List (Ref sig .tc) := hostOps6_W ++ Wfrom15
theorem keep14 (b : Ref sig .tc) (h : b ∉ Wfrom14) : K m c b = V14 m (outsAll m) c b :=
  (keep15 m c b fun h' => h (List.mem_append_right _ h')).trans (V15_of m (outsAll m) c b (fun h' => h (List.mem_append_left _ h')))
abbrev Wfrom13 : List (Ref sig .tc) := ([main_v107] : List (Ref sig .tc)) ++ Wfrom14
theorem keep13 (b : Ref sig .tc) (h : b ∉ Wfrom13) : K m c b = V13 m (outsAll m) c b :=
  (keep14 m c b fun h' => h (List.mem_append_right _ h')).trans (V14_of m (outsAll m) c b (fun h' => h (List.mem_append_left _ h')))
abbrev Wfrom12 : List (Ref sig .tc) := hostOps5_W ++ Wfrom13
theorem keep12 (b : Ref sig .tc) (h : b ∉ Wfrom12) : K m c b = V12 m (outsAll m) c b :=
  (keep13 m c b fun h' => h (List.mem_append_right _ h')).trans (V13_of m (outsAll m) c b (fun h' => h (List.mem_append_left _ h')))
abbrev Wfrom11 : List (Ref sig .tc) := ([main_v96_0, main_v96_1, main_v96_2] : List (Ref sig .tc)) ++ Wfrom12
theorem keep11 (b : Ref sig .tc) (h : b ∉ Wfrom11) : K m c b = V11 m (outsAll m) c b :=
  (keep12 m c b fun h' => h (List.mem_append_right _ h')).trans (V12_of m (outsAll m) c b (fun h' => h (List.mem_append_left _ h')))
abbrev Wfrom10 : List (Ref sig .tc) := hostOps4_W ++ Wfrom11
theorem keep10 (b : Ref sig .tc) (h : b ∉ Wfrom10) : K m c b = V10 m (outsAll m) c b :=
  (keep11 m c b fun h' => h (List.mem_append_right _ h')).trans (V11_of m (outsAll m) c b (fun h' => h (List.mem_append_left _ h')))
abbrev Wfrom9 : List (Ref sig .tc) := ([main_v76] : List (Ref sig .tc)) ++ Wfrom10
theorem keep9 (b : Ref sig .tc) (h : b ∉ Wfrom9) : K m c b = V9 m (outsAll m) c b :=
  (keep10 m c b fun h' => h (List.mem_append_right _ h')).trans (V10_of m (outsAll m) c b (fun h' => h (List.mem_append_left _ h')))
abbrev Wfrom8 : List (Ref sig .tc) := hostOps3_W ++ Wfrom9
theorem keep8 (b : Ref sig .tc) (h : b ∉ Wfrom8) : K m c b = V8 m (outsAll m) c b :=
  (keep9 m c b fun h' => h (List.mem_append_right _ h')).trans (V9_of m (outsAll m) c b (fun h' => h (List.mem_append_left _ h')))
abbrev Wfrom7 : List (Ref sig .tc) := ([main_v65_0, main_v65_1, main_v65_2] : List (Ref sig .tc)) ++ Wfrom8
theorem keep7 (b : Ref sig .tc) (h : b ∉ Wfrom7) : K m c b = V7 m (outsAll m) c b :=
  (keep8 m c b fun h' => h (List.mem_append_right _ h')).trans (V8_of m (outsAll m) c b (fun h' => h (List.mem_append_left _ h')))
abbrev Wfrom6 : List (Ref sig .tc) := hostOps2_W ++ Wfrom7
theorem keep6 (b : Ref sig .tc) (h : b ∉ Wfrom6) : K m c b = V6 m (outsAll m) c b :=
  (keep7 m c b fun h' => h (List.mem_append_right _ h')).trans (V7_of m (outsAll m) c b (fun h' => h (List.mem_append_left _ h')))
abbrev Wfrom5 : List (Ref sig .tc) := ([main_v45] : List (Ref sig .tc)) ++ Wfrom6
theorem keep5 (b : Ref sig .tc) (h : b ∉ Wfrom5) : K m c b = V5 m (outsAll m) c b :=
  (keep6 m c b fun h' => h (List.mem_append_right _ h')).trans (V6_of m (outsAll m) c b (fun h' => h (List.mem_append_left _ h')))
abbrev Wfrom4 : List (Ref sig .tc) := hostOps1_W ++ Wfrom5
theorem keep4 (b : Ref sig .tc) (h : b ∉ Wfrom4) : K m c b = V4 m (outsAll m) c b :=
  (keep5 m c b fun h' => h (List.mem_append_right _ h')).trans (V5_of m (outsAll m) c b (fun h' => h (List.mem_append_left _ h')))
abbrev Wfrom3 : List (Ref sig .tc) := ([main_v34_0, main_v34_1, main_v34_2] : List (Ref sig .tc)) ++ Wfrom4
theorem keep3 (b : Ref sig .tc) (h : b ∉ Wfrom3) : K m c b = V3 m c b :=
  (keep4 m c b fun h' => h (List.mem_append_right _ h')).trans (V4_of m (outsAll m) c b (fun h' => h (List.mem_append_left _ h')))
abbrev Wfrom2 : List (Ref sig .tc) := hostOps0_2_W ++ Wfrom3
theorem keep2 (b : Ref sig .tc) (h : b ∉ Wfrom2) : K m c b = V2 m c b :=
  (keep3 m c b fun h' => h (List.mem_append_right _ h')).trans (V3_of m c b (fun h' => h (List.mem_append_left _ h')))
abbrev Wfrom1 : List (Ref sig .tc) := hostOps0_1_W ++ Wfrom2
theorem keep1 (b : Ref sig .tc) (h : b ∉ Wfrom1) : K m c b = V1 m c b :=
  (keep2 m c b fun h' => h (List.mem_append_right _ h')).trans (V2_of m c b (fun h' => h (List.mem_append_left _ h')))
abbrev Wfrom0 : List (Ref sig .tc) := hostOps0_W ++ Wfrom1
theorem keep0 (b : Ref sig .tc) (h : b ∉ Wfrom0) : K m c b = V0 m c b :=
  (keep1 m c b fun h' => h (List.mem_append_right _ h')).trans (V1_of m c b (fun h' => h (List.mem_append_left _ h')))

/-! ## One equation per host operation -/

/-! ### hostOps0 -/

theorem K_main_v0 : K m c main_v0 = extractStridedSlice S1x800000 ![0, 0] (K m c main_arg1) slices_S2x800000_S1x800000_0_0 := by
  rw [keep1 m c main_v0 (by decide), keep1 m c main_arg1 (by decide)]
  have h := step_unary aligned_hostOps0 (V0 m c) 0 rfl (by decide) (by decide)
  exact h
theorem K_main_v1 : K m c main_v1 = shapeCast S800000 (K m c main_v0) shapeCasts_S1x800000_S800000 := by
  rw [keep1 m c main_v1 (by decide), keep1 m c main_v0 (by decide)]
  have h := step_reshape (x := main_v0) (y := main_v1) (he := rfl) (hn := shapeCasts_S1x800000_S800000) aligned_hostOps0 (V0 m c) 1 rfl (by decide) (by decide)
  exact h
theorem K_main_v2 : K m c main_v2 = extractStridedSlice S1x800000 ![1, 0] (K m c main_arg1) slices_S2x800000_S1x800000_1_0 := by
  rw [keep1 m c main_v2 (by decide), keep1 m c main_arg1 (by decide)]
  have h := step_unary aligned_hostOps0 (V0 m c) 2 rfl (by decide) (by decide)
  exact h
theorem K_main_v3 : K m c main_v3 = shapeCast S800000 (K m c main_v2) shapeCasts_S1x800000_S800000 := by
  rw [keep1 m c main_v3 (by decide), keep1 m c main_v2 (by decide)]
  have h := step_reshape (x := main_v2) (y := main_v3) (he := rfl) (hn := shapeCasts_S1x800000_S800000) aligned_hostOps0 (V0 m c) 3 rfl (by decide) (by decide)
  exact h
theorem K_main_cst : K m c main_cst = constant S_ .f32 0x3F800000#32 := by
  rw [keep1 m c main_cst (by decide)]
  have h := step_nullary aligned_hostOps0 (V0 m c) 4 rfl (by decide)
  exact h
theorem K_main_v4 : K m c main_v4 = broadcastInDim S800000x1 ![] bcast_S_S800000x1 (K m c main_cst) := by
  rw [keep1 m c main_v4 (by decide), keep1 m c main_cst (by decide)]
  have h := step_unary aligned_hostOps0 (V0 m c) 5 rfl (by decide) (by decide)
  exact h
theorem K_main_cst_0 : K m c main_cst_0 = constant S_ .f32 0x00000000#32 := by
  rw [keep1 m c main_cst_0 (by decide)]
  have h := step_nullary aligned_hostOps0 (V0 m c) 6 rfl (by decide)
  exact h
theorem K_main_v5 : K m c main_v5 = broadcastInDim S50000x1 ![] bcast_S_S50000x1 (K m c main_cst_0) := by
  rw [keep1 m c main_v5 (by decide), keep1 m c main_cst_0 (by decide)]
  have h := step_unary aligned_hostOps0 (V0 m c) 7 rfl (by decide) (by decide)
  exact h
theorem K_main_v6 : K m c main_v6 = broadcastInDim S800000x1 ![0] bcast_S800000_S800000x1_0 (K m c main_v3) := by
  rw [keep1 m c main_v6 (by decide), keep1 m c main_v3 (by decide)]
  have h := step_unary aligned_hostOps0 (V0 m c) 8 rfl (by decide) (by decide)
  exact h
theorem K_main_v7 : K m c main_v7 = Host.scatterAdd scatter_S50000x1_S800000x1_S800000x1_1_0_0_1 (K m c main_v5) (K m c main_v6) (K m c main_v4) := by
  rw [keep1 m c main_v7 (by decide), keep1 m c main_v5 (by decide), keep1 m c main_v6 (by decide), keep1 m c main_v4 (by decide)]
  have h := step_ternary aligned_hostOps0 (V0 m c) 9 rfl (by decide) (by decide) (by decide) (by decide)
  exact h
theorem K_main_cst_1 : K m c main_cst_1 = constant S_ .f32 0x00000000#32 := by
  rw [keep1 m c main_cst_1 (by decide)]
  have h := step_nullary aligned_hostOps0 (V0 m c) 10 rfl (by decide)
  exact h
theorem K_main_v8 : K m c main_v8 = broadcastInDim S50000x1 ![] bcast_S_S50000x1 (K m c main_cst_1) := by
  rw [keep1 m c main_v8 (by decide), keep1 m c main_cst_1 (by decide)]
  have h := step_unary aligned_hostOps0 (V0 m c) 11 rfl (by decide) (by decide)
  exact h
theorem K_main_v9 : K m c main_v9 = cmpf .ogt (K m c main_v7) (K m c main_v8) := by
  rw [keep1 m c main_v9 (by decide), keep1 m c main_v7 (by decide), keep1 m c main_v8 (by decide)]
  have h := step_binary aligned_hostOps0 (V0 m c) 12 rfl (by decide) (by decide) (by decide)
  exact h
theorem K_main_cst_2 : K m c main_cst_2 = constant S_ .f32 0x3F800000#32 := by
  rw [keep1 m c main_cst_2 (by decide)]
  have h := step_nullary aligned_hostOps0 (V0 m c) 13 rfl (by decide)
  exact h
theorem K_main_v10 : K m c main_v10 = broadcastInDim S50000x1 ![] bcast_S_S50000x1 (K m c main_cst_2) := by
  rw [keep1 m c main_v10 (by decide), keep1 m c main_cst_2 (by decide)]
  have h := step_unary aligned_hostOps0 (V0 m c) 14 rfl (by decide) (by decide)
  exact h
theorem K_main_v11 : K m c main_v11 = maximumf (K m c main_v7) (K m c main_v10) := by
  rw [keep1 m c main_v11 (by decide), keep1 m c main_v7 (by decide), keep1 m c main_v10 (by decide)]
  have h := step_binary aligned_hostOps0 (V0 m c) 15 rfl (by decide) (by decide) (by decide)
  exact h
theorem K_main_cst_3 : K m c main_cst_3 = constant S_ .f32 0x3F800000#32 := by
  rw [keep1 m c main_cst_3 (by decide)]
  have h := step_nullary aligned_hostOps0 (V0 m c) 16 rfl (by decide)
  exact h
theorem K_main_v12 : K m c main_v12 = broadcastInDim S50000x1 ![] bcast_S_S50000x1 (K m c main_cst_3) := by
  rw [keep1 m c main_v12 (by decide), keep1 m c main_cst_3 (by decide)]
  have h := step_unary aligned_hostOps0 (V0 m c) 17 rfl (by decide) (by decide)
  exact h
theorem K_main_v13 : K m c main_v13 = Host.divf (K m c main_v12) (K m c main_v11) := by
  rw [keep1 m c main_v13 (by decide), keep1 m c main_v12 (by decide), keep1 m c main_v11 (by decide)]
  have h := step_binary aligned_hostOps0 (V0 m c) 18 rfl (by decide) (by decide) (by decide)
  exact h
theorem K_main_cst_4 : K m c main_cst_4 = constant S_ .f32 0x00000000#32 := by
  rw [keep1 m c main_cst_4 (by decide)]
  have h := step_nullary aligned_hostOps0 (V0 m c) 19 rfl (by decide)
  exact h

/-! ### hostOps0_1 -/

theorem K_main_call0_v0 : K m c main_call0_v0 = id (K m c main_cst_4) := by
  rw [keep2 m c main_call0_v0 (by decide), keep2 m c main_cst_4 (by decide)]
  have h := step_unary aligned_hostOps0_1 (V1 m c) 0 rfl (by decide) (by decide)
  exact h
theorem K_main_call0_v1 : K m c main_call0_v1 = broadcastInDim S50000x1 ![] bcast_S_S50000x1 (K m c main_call0_v0) := by
  rw [keep2 m c main_call0_v1 (by decide), keep2 m c main_call0_v0 (by decide)]
  have h := step_unary aligned_hostOps0_1 (V1 m c) 1 rfl (by decide) (by decide)
  exact h
theorem K_main_v14 : K m c main_v14 = select (K m c main_v9) (K m c main_v13) (K m c main_call0_v1) := by
  rw [keep2 m c main_v14 (by decide), keep2 m c main_v9 (by decide), keep2 m c main_v13 (by decide), keep2 m c main_call0_v1 (by decide)]
  have h := step_ternary aligned_hostOps0_1 (V1 m c) 2 rfl (by decide) (by decide) (by decide) (by decide)
  exact h

/-! ### hostOps0_2 -/

theorem K_main_c : K m c main_c = constantI S_ 32 0#32 := by
  rw [keep3 m c main_c (by decide)]
  have h := step_nullary aligned_hostOps0_2 (V2 m c) 0 rfl (by decide)
  exact h
theorem K_main_v15 : K m c main_v15 = broadcastInDim S800000 ![] bcast_S_S800000 (K m c main_c) := by
  rw [keep3 m c main_v15 (by decide), keep3 m c main_c (by decide)]
  have h := step_unary aligned_hostOps0_2 (V2 m c) 1 rfl (by decide) (by decide)
  exact h
theorem K_main_v16 : K m c main_v16 = cmpi .slt (K m c main_v1) (K m c main_v15) := by
  rw [keep3 m c main_v16 (by decide), keep3 m c main_v1 (by decide), keep3 m c main_v15 (by decide)]
  have h := step_binary aligned_hostOps0_2 (V2 m c) 2 rfl (by decide) (by decide) (by decide)
  exact h
theorem K_main_c_5 : K m c main_c_5 = constantI S_ 32 50000#32 := by
  rw [keep3 m c main_c_5 (by decide)]
  have h := step_nullary aligned_hostOps0_2 (V2 m c) 3 rfl (by decide)
  exact h
theorem K_main_v17 : K m c main_v17 = broadcastInDim S800000 ![] bcast_S_S800000 (K m c main_c_5) := by
  rw [keep3 m c main_v17 (by decide), keep3 m c main_c_5 (by decide)]
  have h := step_unary aligned_hostOps0_2 (V2 m c) 4 rfl (by decide) (by decide)
  exact h
theorem K_main_v18 : K m c main_v18 = addi (K m c main_v1) (K m c main_v17) := by
  rw [keep3 m c main_v18 (by decide), keep3 m c main_v1 (by decide), keep3 m c main_v17 (by decide)]
  have h := step_binary aligned_hostOps0_2 (V2 m c) 5 rfl (by decide) (by decide) (by decide)
  exact h
theorem K_main_v19 : K m c main_v19 = select (K m c main_v16) (K m c main_v18) (K m c main_v1) := by
  rw [keep3 m c main_v19 (by decide), keep3 m c main_v16 (by decide), keep3 m c main_v18 (by decide), keep3 m c main_v1 (by decide)]
  have h := step_ternary aligned_hostOps0_2 (V2 m c) 6 rfl (by decide) (by decide) (by decide) (by decide)
  exact h
theorem K_main_v20 : K m c main_v20 = broadcastInDim S800000x1 ![0] bcast_S800000_S800000x1_0 (K m c main_v19) := by
  rw [keep3 m c main_v20 (by decide), keep3 m c main_v19 (by decide)]
  have h := step_unary aligned_hostOps0_2 (V2 m c) 7 rfl (by decide) (by decide)
  exact h
theorem K_main_v21 : K m c main_v21 = Host.gather gather_S50000x128_S800000x1_S800000x128_1_0_n_n_0_1_1128 (K m c main_arg0) (K m c main_v20) := by
  rw [keep3 m c main_v21 (by decide), keep3 m c main_arg0 (by decide), keep3 m c main_v20 (by decide)]
  have h := step_binary aligned_hostOps0_2 (V2 m c) 8 rfl (by decide) (by decide) (by decide)
  exact h
theorem K_main_cst_6 : K m c main_cst_6 = constant S_ .f32 0x00000000#32 := by
  rw [keep3 m c main_cst_6 (by decide)]
  have h := step_nullary aligned_hostOps0_2 (V2 m c) 9 rfl (by decide)
  exact h
theorem K_main_v22 : K m c main_v22 = broadcastInDim S50000x128 ![] bcast_S_S50000x128 (K m c main_cst_6) := by
  rw [keep3 m c main_v22 (by decide), keep3 m c main_cst_6 (by decide)]
  have h := step_unary aligned_hostOps0_2 (V2 m c) 10 rfl (by decide) (by decide)
  exact h
theorem K_main_v23 : K m c main_v23 = broadcastInDim S800000x1 ![0] bcast_S800000_S800000x1_0 (K m c main_v3) := by
  rw [keep3 m c main_v23 (by decide), keep3 m c main_v3 (by decide)]
  have h := step_unary aligned_hostOps0_2 (V2 m c) 11 rfl (by decide) (by decide)
  exact h
theorem K_main_v24 : K m c main_v24 = Host.scatterAdd scatter_S50000x128_S800000x1_S800000x128_1_0_0_1 (K m c main_v22) (K m c main_v23) (K m c main_v21) := by
  rw [keep3 m c main_v24 (by decide), keep3 m c main_v22 (by decide), keep3 m c main_v23 (by decide), keep3 m c main_v21 (by decide)]
  have h := step_ternary aligned_hostOps0_2 (V2 m c) 12 rfl (by decide) (by decide) (by decide) (by decide)
  exact h
theorem K_main_v25 : K m c main_v25 = broadcastInDim S50000x128 ![0, 1] bcast_S50000x1_S50000x128_0_1 (K m c main_v14) := by
  rw [keep3 m c main_v25 (by decide), keep3 m c main_v14 (by decide)]
  have h := step_unary aligned_hostOps0_2 (V2 m c) 13 rfl (by decide) (by decide)
  exact h
theorem K_main_v26 : K m c main_v26 = mulf (K m c main_v24) (K m c main_v25) := by
  rw [keep3 m c main_v26 (by decide), keep3 m c main_v24 (by decide), keep3 m c main_v25 (by decide)]
  have h := step_binary aligned_hostOps0_2 (V2 m c) 14 rfl (by decide) (by decide) (by decide)
  exact h
theorem K_main_v27 : K m c main_v27 = extractStridedSlice S1x128x128 ![0, 0, 0] (K m c main_arg4) slices_S3x128x128_S1x128x128_0_0_0 := by
  rw [keep3 m c main_v27 (by decide), keep3 m c main_arg4 (by decide)]
  have h := step_unary aligned_hostOps0_2 (V2 m c) 15 rfl (by decide) (by decide)
  exact h
theorem K_main_v28 : K m c main_v28 = shapeCast S128x128 (K m c main_v27) shapeCasts_S1x128x128_S128x128 := by
  rw [keep3 m c main_v28 (by decide), keep3 m c main_v27 (by decide)]
  have h := step_reshape (x := main_v27) (y := main_v28) (he := rfl) (hn := shapeCasts_S1x128x128_S128x128) aligned_hostOps0_2 (V2 m c) 16 rfl (by decide) (by decide)
  exact h
theorem K_main_v29 : K m c main_v29 = extractStridedSlice S1x128 ![0, 0] (K m c main_arg5) slices_S3x128_S1x128_0_0 := by
  rw [keep3 m c main_v29 (by decide), keep3 m c main_arg5 (by decide)]
  have h := step_unary aligned_hostOps0_2 (V2 m c) 17 rfl (by decide) (by decide)
  exact h
theorem K_main_v30 : K m c main_v30 = shapeCast S128 (K m c main_v29) shapeCasts_S1x128_S128 := by
  rw [keep3 m c main_v30 (by decide), keep3 m c main_v29 (by decide)]
  have h := step_reshape (x := main_v29) (y := main_v30) (he := rfl) (hn := shapeCasts_S1x128_S128) aligned_hostOps0_2 (V2 m c) 18 rfl (by decide) (by decide)
  exact h
theorem K_main_v31 : K m c main_v31 = extractStridedSlice S1x128x128 ![0, 0, 0] (K m c main_arg6) slices_S3x128x128_S1x128x128_0_0_0 := by
  rw [keep3 m c main_v31 (by decide), keep3 m c main_arg6 (by decide)]
  have h := step_unary aligned_hostOps0_2 (V2 m c) 19 rfl (by decide) (by decide)
  exact h
theorem K_main_v32 : K m c main_v32 = shapeCast S128x128 (K m c main_v31) shapeCasts_S1x128x128_S128x128 := by
  rw [keep3 m c main_v32 (by decide), keep3 m c main_v31 (by decide)]
  have h := step_reshape (x := main_v31) (y := main_v32) (he := rfl) (hn := shapeCasts_S1x128x128_S128x128) aligned_hostOps0_2 (V2 m c) 20 rfl (by decide) (by decide)
  exact h
theorem K_main_v33 : K m c main_v33 = shapeCast S1x128 (K m c main_v30) shapeCasts_S128_S1x128 := by
  rw [keep3 m c main_v33 (by decide), keep3 m c main_v30 (by decide)]
  have h := step_reshape (x := main_v30) (y := main_v33) (he := rfl) (hn := shapeCasts_S128_S1x128) aligned_hostOps0_2 (V2 m c) 21 rfl (by decide) (by decide)
  exact h

/-! ### hostOps1 -/

theorem K_main_v35 : K m c main_v35 = shapeCast S128 (K m c main_v34_1) shapeCasts_S1x128_S128 := by
  rw [keep5 m c main_v35 (by decide), keep5 m c main_v34_1 (by decide)]
  have h := step_reshape (x := main_v34_1) (y := main_v35) (he := rfl) (hn := shapeCasts_S1x128_S128) aligned_hostOps1 (V4 m (outsAll m) c) 0 rfl (by decide) (by decide)
  exact h
theorem K_main_v36 : K m c main_v36 = shapeCast S128 (K m c main_v34_2) shapeCasts_S1x128_S128 := by
  rw [keep5 m c main_v36 (by decide), keep5 m c main_v34_2 (by decide)]
  have h := step_reshape (x := main_v34_2) (y := main_v36) (he := rfl) (hn := shapeCasts_S1x128_S128) aligned_hostOps1 (V4 m (outsAll m) c) 1 rfl (by decide) (by decide)
  exact h
theorem K_main_v37 : K m c main_v37 = extractStridedSlice S1x128 ![0, 0] (K m c main_arg7) slices_S3x128_S1x128_0_0 := by
  rw [keep5 m c main_v37 (by decide), keep5 m c main_arg7 (by decide)]
  have h := step_unary aligned_hostOps1 (V4 m (outsAll m) c) 2 rfl (by decide) (by decide)
  exact h
theorem K_main_v38 : K m c main_v38 = shapeCast S128 (K m c main_v37) shapeCasts_S1x128_S128 := by
  rw [keep5 m c main_v38 (by decide), keep5 m c main_v37 (by decide)]
  have h := step_reshape (x := main_v37) (y := main_v38) (he := rfl) (hn := shapeCasts_S1x128_S128) aligned_hostOps1 (V4 m (outsAll m) c) 3 rfl (by decide) (by decide)
  exact h
theorem K_main_v39 : K m c main_v39 = extractStridedSlice S1x128 ![0, 0] (K m c main_arg8) slices_S3x128_S1x128_0_0 := by
  rw [keep5 m c main_v39 (by decide), keep5 m c main_arg8 (by decide)]
  have h := step_unary aligned_hostOps1 (V4 m (outsAll m) c) 4 rfl (by decide) (by decide)
  exact h
theorem K_main_v40 : K m c main_v40 = shapeCast S128 (K m c main_v39) shapeCasts_S1x128_S128 := by
  rw [keep5 m c main_v40 (by decide), keep5 m c main_v39 (by decide)]
  have h := step_reshape (x := main_v39) (y := main_v40) (he := rfl) (hn := shapeCasts_S1x128_S128) aligned_hostOps1 (V4 m (outsAll m) c) 5 rfl (by decide) (by decide)
  exact h
theorem K_main_v41 : K m c main_v41 = shapeCast S1x128 (K m c main_v35) shapeCasts_S128_S1x128 := by
  rw [keep5 m c main_v41 (by decide), keep5 m c main_v35 (by decide)]
  have h := step_reshape (x := main_v35) (y := main_v41) (he := rfl) (hn := shapeCasts_S128_S1x128) aligned_hostOps1 (V4 m (outsAll m) c) 6 rfl (by decide) (by decide)
  exact h
theorem K_main_v42 : K m c main_v42 = shapeCast S1x128 (K m c main_v36) shapeCasts_S128_S1x128 := by
  rw [keep5 m c main_v42 (by decide), keep5 m c main_v36 (by decide)]
  have h := step_reshape (x := main_v36) (y := main_v42) (he := rfl) (hn := shapeCasts_S128_S1x128) aligned_hostOps1 (V4 m (outsAll m) c) 7 rfl (by decide) (by decide)
  exact h
theorem K_main_v43 : K m c main_v43 = shapeCast S1x128 (K m c main_v38) shapeCasts_S128_S1x128 := by
  rw [keep5 m c main_v43 (by decide), keep5 m c main_v38 (by decide)]
  have h := step_reshape (x := main_v38) (y := main_v43) (he := rfl) (hn := shapeCasts_S128_S1x128) aligned_hostOps1 (V4 m (outsAll m) c) 8 rfl (by decide) (by decide)
  exact h
theorem K_main_v44 : K m c main_v44 = shapeCast S1x128 (K m c main_v40) shapeCasts_S128_S1x128 := by
  rw [keep5 m c main_v44 (by decide), keep5 m c main_v40 (by decide)]
  have h := step_reshape (x := main_v40) (y := main_v44) (he := rfl) (hn := shapeCasts_S128_S1x128) aligned_hostOps1 (V4 m (outsAll m) c) 9 rfl (by decide) (by decide)
  exact h

/-! ### hostOps2 -/

theorem K_main_c_7 : K m c main_c_7 = constantI S_ 32 0#32 := by
  rw [keep7 m c main_c_7 (by decide)]
  have h := step_nullary aligned_hostOps2 (V6 m (outsAll m) c) 0 rfl (by decide)
  exact h
theorem K_main_v46 : K m c main_v46 = broadcastInDim S800000 ![] bcast_S_S800000 (K m c main_c_7) := by
  rw [keep7 m c main_v46 (by decide), keep7 m c main_c_7 (by decide)]
  have h := step_unary aligned_hostOps2 (V6 m (outsAll m) c) 1 rfl (by decide) (by decide)
  exact h
theorem K_main_v47 : K m c main_v47 = cmpi .slt (K m c main_v1) (K m c main_v46) := by
  rw [keep7 m c main_v47 (by decide), keep7 m c main_v1 (by decide), keep7 m c main_v46 (by decide)]
  have h := step_binary aligned_hostOps2 (V6 m (outsAll m) c) 2 rfl (by decide) (by decide) (by decide)
  exact h
theorem K_main_c_8 : K m c main_c_8 = constantI S_ 32 50000#32 := by
  rw [keep7 m c main_c_8 (by decide)]
  have h := step_nullary aligned_hostOps2 (V6 m (outsAll m) c) 3 rfl (by decide)
  exact h
theorem K_main_v48 : K m c main_v48 = broadcastInDim S800000 ![] bcast_S_S800000 (K m c main_c_8) := by
  rw [keep7 m c main_v48 (by decide), keep7 m c main_c_8 (by decide)]
  have h := step_unary aligned_hostOps2 (V6 m (outsAll m) c) 4 rfl (by decide) (by decide)
  exact h
theorem K_main_v49 : K m c main_v49 = addi (K m c main_v1) (K m c main_v48) := by
  rw [keep7 m c main_v49 (by decide), keep7 m c main_v1 (by decide), keep7 m c main_v48 (by decide)]
  have h := step_binary aligned_hostOps2 (V6 m (outsAll m) c) 5 rfl (by decide) (by decide) (by decide)
  exact h
theorem K_main_v50 : K m c main_v50 = select (K m c main_v47) (K m c main_v49) (K m c main_v1) := by
  rw [keep7 m c main_v50 (by decide), keep7 m c main_v47 (by decide), keep7 m c main_v49 (by decide), keep7 m c main_v1 (by decide)]
  have h := step_ternary aligned_hostOps2 (V6 m (outsAll m) c) 6 rfl (by decide) (by decide) (by decide) (by decide)
  exact h
theorem K_main_v51 : K m c main_v51 = broadcastInDim S800000x1 ![0] bcast_S800000_S800000x1_0 (K m c main_v50) := by
  rw [keep7 m c main_v51 (by decide), keep7 m c main_v50 (by decide)]
  have h := step_unary aligned_hostOps2 (V6 m (outsAll m) c) 7 rfl (by decide) (by decide)
  exact h
theorem K_main_v52 : K m c main_v52 = Host.gather gather_S50000x128_S800000x1_S800000x128_1_0_n_n_0_1_1128 (K m c main_v45) (K m c main_v51) := by
  rw [keep7 m c main_v52 (by decide), keep7 m c main_v45 (by decide), keep7 m c main_v51 (by decide)]
  have h := step_binary aligned_hostOps2 (V6 m (outsAll m) c) 8 rfl (by decide) (by decide) (by decide)
  exact h
theorem K_main_cst_9 : K m c main_cst_9 = constant S_ .f32 0x00000000#32 := by
  rw [keep7 m c main_cst_9 (by decide)]
  have h := step_nullary aligned_hostOps2 (V6 m (outsAll m) c) 9 rfl (by decide)
  exact h
theorem K_main_v53 : K m c main_v53 = broadcastInDim S50000x128 ![] bcast_S_S50000x128 (K m c main_cst_9) := by
  rw [keep7 m c main_v53 (by decide), keep7 m c main_cst_9 (by decide)]
  have h := step_unary aligned_hostOps2 (V6 m (outsAll m) c) 10 rfl (by decide) (by decide)
  exact h
theorem K_main_v54 : K m c main_v54 = broadcastInDim S800000x1 ![0] bcast_S800000_S800000x1_0 (K m c main_v3) := by
  rw [keep7 m c main_v54 (by decide), keep7 m c main_v3 (by decide)]
  have h := step_unary aligned_hostOps2 (V6 m (outsAll m) c) 11 rfl (by decide) (by decide)
  exact h
theorem K_main_v55 : K m c main_v55 = Host.scatterAdd scatter_S50000x128_S800000x1_S800000x128_1_0_0_1 (K m c main_v53) (K m c main_v54) (K m c main_v52) := by
  rw [keep7 m c main_v55 (by decide), keep7 m c main_v53 (by decide), keep7 m c main_v54 (by decide), keep7 m c main_v52 (by decide)]
  have h := step_ternary aligned_hostOps2 (V6 m (outsAll m) c) 12 rfl (by decide) (by decide) (by decide) (by decide)
  exact h
theorem K_main_v56 : K m c main_v56 = broadcastInDim S50000x128 ![0, 1] bcast_S50000x1_S50000x128_0_1 (K m c main_v14) := by
  rw [keep7 m c main_v56 (by decide), keep7 m c main_v14 (by decide)]
  have h := step_unary aligned_hostOps2 (V6 m (outsAll m) c) 13 rfl (by decide) (by decide)
  exact h
theorem K_main_v57 : K m c main_v57 = mulf (K m c main_v55) (K m c main_v56) := by
  rw [keep7 m c main_v57 (by decide), keep7 m c main_v55 (by decide), keep7 m c main_v56 (by decide)]
  have h := step_binary aligned_hostOps2 (V6 m (outsAll m) c) 14 rfl (by decide) (by decide) (by decide)
  exact h
theorem K_main_v58 : K m c main_v58 = extractStridedSlice S1x128x128 ![1, 0, 0] (K m c main_arg4) slices_S3x128x128_S1x128x128_1_0_0 := by
  rw [keep7 m c main_v58 (by decide), keep7 m c main_arg4 (by decide)]
  have h := step_unary aligned_hostOps2 (V6 m (outsAll m) c) 15 rfl (by decide) (by decide)
  exact h
theorem K_main_v59 : K m c main_v59 = shapeCast S128x128 (K m c main_v58) shapeCasts_S1x128x128_S128x128 := by
  rw [keep7 m c main_v59 (by decide), keep7 m c main_v58 (by decide)]
  have h := step_reshape (x := main_v58) (y := main_v59) (he := rfl) (hn := shapeCasts_S1x128x128_S128x128) aligned_hostOps2 (V6 m (outsAll m) c) 16 rfl (by decide) (by decide)
  exact h
theorem K_main_v60 : K m c main_v60 = extractStridedSlice S1x128 ![1, 0] (K m c main_arg5) slices_S3x128_S1x128_1_0 := by
  rw [keep7 m c main_v60 (by decide), keep7 m c main_arg5 (by decide)]
  have h := step_unary aligned_hostOps2 (V6 m (outsAll m) c) 17 rfl (by decide) (by decide)
  exact h
theorem K_main_v61 : K m c main_v61 = shapeCast S128 (K m c main_v60) shapeCasts_S1x128_S128 := by
  rw [keep7 m c main_v61 (by decide), keep7 m c main_v60 (by decide)]
  have h := step_reshape (x := main_v60) (y := main_v61) (he := rfl) (hn := shapeCasts_S1x128_S128) aligned_hostOps2 (V6 m (outsAll m) c) 18 rfl (by decide) (by decide)
  exact h
theorem K_main_v62 : K m c main_v62 = extractStridedSlice S1x128x128 ![1, 0, 0] (K m c main_arg6) slices_S3x128x128_S1x128x128_1_0_0 := by
  rw [keep7 m c main_v62 (by decide), keep7 m c main_arg6 (by decide)]
  have h := step_unary aligned_hostOps2 (V6 m (outsAll m) c) 19 rfl (by decide) (by decide)
  exact h
theorem K_main_v63 : K m c main_v63 = shapeCast S128x128 (K m c main_v62) shapeCasts_S1x128x128_S128x128 := by
  rw [keep7 m c main_v63 (by decide), keep7 m c main_v62 (by decide)]
  have h := step_reshape (x := main_v62) (y := main_v63) (he := rfl) (hn := shapeCasts_S1x128x128_S128x128) aligned_hostOps2 (V6 m (outsAll m) c) 20 rfl (by decide) (by decide)
  exact h
theorem K_main_v64 : K m c main_v64 = shapeCast S1x128 (K m c main_v61) shapeCasts_S128_S1x128 := by
  rw [keep7 m c main_v64 (by decide), keep7 m c main_v61 (by decide)]
  have h := step_reshape (x := main_v61) (y := main_v64) (he := rfl) (hn := shapeCasts_S128_S1x128) aligned_hostOps2 (V6 m (outsAll m) c) 21 rfl (by decide) (by decide)
  exact h

/-! ### hostOps3 -/

theorem K_main_v66 : K m c main_v66 = shapeCast S128 (K m c main_v65_1) shapeCasts_S1x128_S128 := by
  rw [keep9 m c main_v66 (by decide), keep9 m c main_v65_1 (by decide)]
  have h := step_reshape (x := main_v65_1) (y := main_v66) (he := rfl) (hn := shapeCasts_S1x128_S128) aligned_hostOps3 (V8 m (outsAll m) c) 0 rfl (by decide) (by decide)
  exact h
theorem K_main_v67 : K m c main_v67 = shapeCast S128 (K m c main_v65_2) shapeCasts_S1x128_S128 := by
  rw [keep9 m c main_v67 (by decide), keep9 m c main_v65_2 (by decide)]
  have h := step_reshape (x := main_v65_2) (y := main_v67) (he := rfl) (hn := shapeCasts_S1x128_S128) aligned_hostOps3 (V8 m (outsAll m) c) 1 rfl (by decide) (by decide)
  exact h
theorem K_main_v68 : K m c main_v68 = extractStridedSlice S1x128 ![1, 0] (K m c main_arg7) slices_S3x128_S1x128_1_0 := by
  rw [keep9 m c main_v68 (by decide), keep9 m c main_arg7 (by decide)]
  have h := step_unary aligned_hostOps3 (V8 m (outsAll m) c) 2 rfl (by decide) (by decide)
  exact h
theorem K_main_v69 : K m c main_v69 = shapeCast S128 (K m c main_v68) shapeCasts_S1x128_S128 := by
  rw [keep9 m c main_v69 (by decide), keep9 m c main_v68 (by decide)]
  have h := step_reshape (x := main_v68) (y := main_v69) (he := rfl) (hn := shapeCasts_S1x128_S128) aligned_hostOps3 (V8 m (outsAll m) c) 3 rfl (by decide) (by decide)
  exact h
theorem K_main_v70 : K m c main_v70 = extractStridedSlice S1x128 ![1, 0] (K m c main_arg8) slices_S3x128_S1x128_1_0 := by
  rw [keep9 m c main_v70 (by decide), keep9 m c main_arg8 (by decide)]
  have h := step_unary aligned_hostOps3 (V8 m (outsAll m) c) 4 rfl (by decide) (by decide)
  exact h
theorem K_main_v71 : K m c main_v71 = shapeCast S128 (K m c main_v70) shapeCasts_S1x128_S128 := by
  rw [keep9 m c main_v71 (by decide), keep9 m c main_v70 (by decide)]
  have h := step_reshape (x := main_v70) (y := main_v71) (he := rfl) (hn := shapeCasts_S1x128_S128) aligned_hostOps3 (V8 m (outsAll m) c) 5 rfl (by decide) (by decide)
  exact h
theorem K_main_v72 : K m c main_v72 = shapeCast S1x128 (K m c main_v66) shapeCasts_S128_S1x128 := by
  rw [keep9 m c main_v72 (by decide), keep9 m c main_v66 (by decide)]
  have h := step_reshape (x := main_v66) (y := main_v72) (he := rfl) (hn := shapeCasts_S128_S1x128) aligned_hostOps3 (V8 m (outsAll m) c) 6 rfl (by decide) (by decide)
  exact h
theorem K_main_v73 : K m c main_v73 = shapeCast S1x128 (K m c main_v67) shapeCasts_S128_S1x128 := by
  rw [keep9 m c main_v73 (by decide), keep9 m c main_v67 (by decide)]
  have h := step_reshape (x := main_v67) (y := main_v73) (he := rfl) (hn := shapeCasts_S128_S1x128) aligned_hostOps3 (V8 m (outsAll m) c) 7 rfl (by decide) (by decide)
  exact h
theorem K_main_v74 : K m c main_v74 = shapeCast S1x128 (K m c main_v69) shapeCasts_S128_S1x128 := by
  rw [keep9 m c main_v74 (by decide), keep9 m c main_v69 (by decide)]
  have h := step_reshape (x := main_v69) (y := main_v74) (he := rfl) (hn := shapeCasts_S128_S1x128) aligned_hostOps3 (V8 m (outsAll m) c) 8 rfl (by decide) (by decide)
  exact h
theorem K_main_v75 : K m c main_v75 = shapeCast S1x128 (K m c main_v71) shapeCasts_S128_S1x128 := by
  rw [keep9 m c main_v75 (by decide), keep9 m c main_v71 (by decide)]
  have h := step_reshape (x := main_v71) (y := main_v75) (he := rfl) (hn := shapeCasts_S128_S1x128) aligned_hostOps3 (V8 m (outsAll m) c) 9 rfl (by decide) (by decide)
  exact h

/-! ### hostOps4 -/

theorem K_main_c_10 : K m c main_c_10 = constantI S_ 32 0#32 := by
  rw [keep11 m c main_c_10 (by decide)]
  have h := step_nullary aligned_hostOps4 (V10 m (outsAll m) c) 0 rfl (by decide)
  exact h
theorem K_main_v77 : K m c main_v77 = broadcastInDim S800000 ![] bcast_S_S800000 (K m c main_c_10) := by
  rw [keep11 m c main_v77 (by decide), keep11 m c main_c_10 (by decide)]
  have h := step_unary aligned_hostOps4 (V10 m (outsAll m) c) 1 rfl (by decide) (by decide)
  exact h
theorem K_main_v78 : K m c main_v78 = cmpi .slt (K m c main_v1) (K m c main_v77) := by
  rw [keep11 m c main_v78 (by decide), keep11 m c main_v1 (by decide), keep11 m c main_v77 (by decide)]
  have h := step_binary aligned_hostOps4 (V10 m (outsAll m) c) 2 rfl (by decide) (by decide) (by decide)
  exact h
theorem K_main_c_11 : K m c main_c_11 = constantI S_ 32 50000#32 := by
  rw [keep11 m c main_c_11 (by decide)]
  have h := step_nullary aligned_hostOps4 (V10 m (outsAll m) c) 3 rfl (by decide)
  exact h
theorem K_main_v79 : K m c main_v79 = broadcastInDim S800000 ![] bcast_S_S800000 (K m c main_c_11) := by
  rw [keep11 m c main_v79 (by decide), keep11 m c main_c_11 (by decide)]
  have h := step_unary aligned_hostOps4 (V10 m (outsAll m) c) 4 rfl (by decide) (by decide)
  exact h
theorem K_main_v80 : K m c main_v80 = addi (K m c main_v1) (K m c main_v79) := by
  rw [keep11 m c main_v80 (by decide), keep11 m c main_v1 (by decide), keep11 m c main_v79 (by decide)]
  have h := step_binary aligned_hostOps4 (V10 m (outsAll m) c) 5 rfl (by decide) (by decide) (by decide)
  exact h
theorem K_main_v81 : K m c main_v81 = select (K m c main_v78) (K m c main_v80) (K m c main_v1) := by
  rw [keep11 m c main_v81 (by decide), keep11 m c main_v78 (by decide), keep11 m c main_v80 (by decide), keep11 m c main_v1 (by decide)]
  have h := step_ternary aligned_hostOps4 (V10 m (outsAll m) c) 6 rfl (by decide) (by decide) (by decide) (by decide)
  exact h
theorem K_main_v82 : K m c main_v82 = broadcastInDim S800000x1 ![0] bcast_S800000_S800000x1_0 (K m c main_v81) := by
  rw [keep11 m c main_v82 (by decide), keep11 m c main_v81 (by decide)]
  have h := step_unary aligned_hostOps4 (V10 m (outsAll m) c) 7 rfl (by decide) (by decide)
  exact h
theorem K_main_v83 : K m c main_v83 = Host.gather gather_S50000x128_S800000x1_S800000x128_1_0_n_n_0_1_1128 (K m c main_v76) (K m c main_v82) := by
  rw [keep11 m c main_v83 (by decide), keep11 m c main_v76 (by decide), keep11 m c main_v82 (by decide)]
  have h := step_binary aligned_hostOps4 (V10 m (outsAll m) c) 8 rfl (by decide) (by decide) (by decide)
  exact h
theorem K_main_cst_12 : K m c main_cst_12 = constant S_ .f32 0x00000000#32 := by
  rw [keep11 m c main_cst_12 (by decide)]
  have h := step_nullary aligned_hostOps4 (V10 m (outsAll m) c) 9 rfl (by decide)
  exact h
theorem K_main_v84 : K m c main_v84 = broadcastInDim S50000x128 ![] bcast_S_S50000x128 (K m c main_cst_12) := by
  rw [keep11 m c main_v84 (by decide), keep11 m c main_cst_12 (by decide)]
  have h := step_unary aligned_hostOps4 (V10 m (outsAll m) c) 10 rfl (by decide) (by decide)
  exact h
theorem K_main_v85 : K m c main_v85 = broadcastInDim S800000x1 ![0] bcast_S800000_S800000x1_0 (K m c main_v3) := by
  rw [keep11 m c main_v85 (by decide), keep11 m c main_v3 (by decide)]
  have h := step_unary aligned_hostOps4 (V10 m (outsAll m) c) 11 rfl (by decide) (by decide)
  exact h
theorem K_main_v86 : K m c main_v86 = Host.scatterAdd scatter_S50000x128_S800000x1_S800000x128_1_0_0_1 (K m c main_v84) (K m c main_v85) (K m c main_v83) := by
  rw [keep11 m c main_v86 (by decide), keep11 m c main_v84 (by decide), keep11 m c main_v85 (by decide), keep11 m c main_v83 (by decide)]
  have h := step_ternary aligned_hostOps4 (V10 m (outsAll m) c) 12 rfl (by decide) (by decide) (by decide) (by decide)
  exact h
theorem K_main_v87 : K m c main_v87 = broadcastInDim S50000x128 ![0, 1] bcast_S50000x1_S50000x128_0_1 (K m c main_v14) := by
  rw [keep11 m c main_v87 (by decide), keep11 m c main_v14 (by decide)]
  have h := step_unary aligned_hostOps4 (V10 m (outsAll m) c) 13 rfl (by decide) (by decide)
  exact h
theorem K_main_v88 : K m c main_v88 = mulf (K m c main_v86) (K m c main_v87) := by
  rw [keep11 m c main_v88 (by decide), keep11 m c main_v86 (by decide), keep11 m c main_v87 (by decide)]
  have h := step_binary aligned_hostOps4 (V10 m (outsAll m) c) 14 rfl (by decide) (by decide) (by decide)
  exact h
theorem K_main_v89 : K m c main_v89 = extractStridedSlice S1x128x128 ![2, 0, 0] (K m c main_arg4) slices_S3x128x128_S1x128x128_2_0_0 := by
  rw [keep11 m c main_v89 (by decide), keep11 m c main_arg4 (by decide)]
  have h := step_unary aligned_hostOps4 (V10 m (outsAll m) c) 15 rfl (by decide) (by decide)
  exact h
theorem K_main_v90 : K m c main_v90 = shapeCast S128x128 (K m c main_v89) shapeCasts_S1x128x128_S128x128 := by
  rw [keep11 m c main_v90 (by decide), keep11 m c main_v89 (by decide)]
  have h := step_reshape (x := main_v89) (y := main_v90) (he := rfl) (hn := shapeCasts_S1x128x128_S128x128) aligned_hostOps4 (V10 m (outsAll m) c) 16 rfl (by decide) (by decide)
  exact h
theorem K_main_v91 : K m c main_v91 = extractStridedSlice S1x128 ![2, 0] (K m c main_arg5) slices_S3x128_S1x128_2_0 := by
  rw [keep11 m c main_v91 (by decide), keep11 m c main_arg5 (by decide)]
  have h := step_unary aligned_hostOps4 (V10 m (outsAll m) c) 17 rfl (by decide) (by decide)
  exact h
theorem K_main_v92 : K m c main_v92 = shapeCast S128 (K m c main_v91) shapeCasts_S1x128_S128 := by
  rw [keep11 m c main_v92 (by decide), keep11 m c main_v91 (by decide)]
  have h := step_reshape (x := main_v91) (y := main_v92) (he := rfl) (hn := shapeCasts_S1x128_S128) aligned_hostOps4 (V10 m (outsAll m) c) 18 rfl (by decide) (by decide)
  exact h
theorem K_main_v93 : K m c main_v93 = extractStridedSlice S1x128x128 ![2, 0, 0] (K m c main_arg6) slices_S3x128x128_S1x128x128_2_0_0 := by
  rw [keep11 m c main_v93 (by decide), keep11 m c main_arg6 (by decide)]
  have h := step_unary aligned_hostOps4 (V10 m (outsAll m) c) 19 rfl (by decide) (by decide)
  exact h
theorem K_main_v94 : K m c main_v94 = shapeCast S128x128 (K m c main_v93) shapeCasts_S1x128x128_S128x128 := by
  rw [keep11 m c main_v94 (by decide), keep11 m c main_v93 (by decide)]
  have h := step_reshape (x := main_v93) (y := main_v94) (he := rfl) (hn := shapeCasts_S1x128x128_S128x128) aligned_hostOps4 (V10 m (outsAll m) c) 20 rfl (by decide) (by decide)
  exact h
theorem K_main_v95 : K m c main_v95 = shapeCast S1x128 (K m c main_v92) shapeCasts_S128_S1x128 := by
  rw [keep11 m c main_v95 (by decide), keep11 m c main_v92 (by decide)]
  have h := step_reshape (x := main_v92) (y := main_v95) (he := rfl) (hn := shapeCasts_S128_S1x128) aligned_hostOps4 (V10 m (outsAll m) c) 21 rfl (by decide) (by decide)
  exact h

/-! ### hostOps5 -/

theorem K_main_v97 : K m c main_v97 = shapeCast S128 (K m c main_v96_1) shapeCasts_S1x128_S128 := by
  rw [keep13 m c main_v97 (by decide), keep13 m c main_v96_1 (by decide)]
  have h := step_reshape (x := main_v96_1) (y := main_v97) (he := rfl) (hn := shapeCasts_S1x128_S128) aligned_hostOps5 (V12 m (outsAll m) c) 0 rfl (by decide) (by decide)
  exact h
theorem K_main_v98 : K m c main_v98 = shapeCast S128 (K m c main_v96_2) shapeCasts_S1x128_S128 := by
  rw [keep13 m c main_v98 (by decide), keep13 m c main_v96_2 (by decide)]
  have h := step_reshape (x := main_v96_2) (y := main_v98) (he := rfl) (hn := shapeCasts_S1x128_S128) aligned_hostOps5 (V12 m (outsAll m) c) 1 rfl (by decide) (by decide)
  exact h
theorem K_main_v99 : K m c main_v99 = extractStridedSlice S1x128 ![2, 0] (K m c main_arg7) slices_S3x128_S1x128_2_0 := by
  rw [keep13 m c main_v99 (by decide), keep13 m c main_arg7 (by decide)]
  have h := step_unary aligned_hostOps5 (V12 m (outsAll m) c) 2 rfl (by decide) (by decide)
  exact h
theorem K_main_v100 : K m c main_v100 = shapeCast S128 (K m c main_v99) shapeCasts_S1x128_S128 := by
  rw [keep13 m c main_v100 (by decide), keep13 m c main_v99 (by decide)]
  have h := step_reshape (x := main_v99) (y := main_v100) (he := rfl) (hn := shapeCasts_S1x128_S128) aligned_hostOps5 (V12 m (outsAll m) c) 3 rfl (by decide) (by decide)
  exact h
theorem K_main_v101 : K m c main_v101 = extractStridedSlice S1x128 ![2, 0] (K m c main_arg8) slices_S3x128_S1x128_2_0 := by
  rw [keep13 m c main_v101 (by decide), keep13 m c main_arg8 (by decide)]
  have h := step_unary aligned_hostOps5 (V12 m (outsAll m) c) 4 rfl (by decide) (by decide)
  exact h
theorem K_main_v102 : K m c main_v102 = shapeCast S128 (K m c main_v101) shapeCasts_S1x128_S128 := by
  rw [keep13 m c main_v102 (by decide), keep13 m c main_v101 (by decide)]
  have h := step_reshape (x := main_v101) (y := main_v102) (he := rfl) (hn := shapeCasts_S1x128_S128) aligned_hostOps5 (V12 m (outsAll m) c) 5 rfl (by decide) (by decide)
  exact h
theorem K_main_v103 : K m c main_v103 = shapeCast S1x128 (K m c main_v97) shapeCasts_S128_S1x128 := by
  rw [keep13 m c main_v103 (by decide), keep13 m c main_v97 (by decide)]
  have h := step_reshape (x := main_v97) (y := main_v103) (he := rfl) (hn := shapeCasts_S128_S1x128) aligned_hostOps5 (V12 m (outsAll m) c) 6 rfl (by decide) (by decide)
  exact h
theorem K_main_v104 : K m c main_v104 = shapeCast S1x128 (K m c main_v98) shapeCasts_S128_S1x128 := by
  rw [keep13 m c main_v104 (by decide), keep13 m c main_v98 (by decide)]
  have h := step_reshape (x := main_v98) (y := main_v104) (he := rfl) (hn := shapeCasts_S128_S1x128) aligned_hostOps5 (V12 m (outsAll m) c) 7 rfl (by decide) (by decide)
  exact h
theorem K_main_v105 : K m c main_v105 = shapeCast S1x128 (K m c main_v100) shapeCasts_S128_S1x128 := by
  rw [keep13 m c main_v105 (by decide), keep13 m c main_v100 (by decide)]
  have h := step_reshape (x := main_v100) (y := main_v105) (he := rfl) (hn := shapeCasts_S128_S1x128) aligned_hostOps5 (V12 m (outsAll m) c) 8 rfl (by decide) (by decide)
  exact h
theorem K_main_v106 : K m c main_v106 = shapeCast S1x128 (K m c main_v102) shapeCasts_S128_S1x128 := by
  rw [keep13 m c main_v106 (by decide), keep13 m c main_v102 (by decide)]
  have h := step_reshape (x := main_v102) (y := main_v106) (he := rfl) (hn := shapeCasts_S128_S1x128) aligned_hostOps5 (V12 m (outsAll m) c) 9 rfl (by decide) (by decide)
  exact h

/-! ### hostOps6 -/

theorem K_main_c_13 : K m c main_c_13 = constantI S_ 32 0#32 := by
  rw [keep15 m c main_c_13 (by decide)]
  have h := step_nullary aligned_hostOps6 (V14 m (outsAll m) c) 0 rfl (by decide)
  exact h
theorem K_main_v108 : K m c main_v108 = broadcastInDim S256 ![] bcast_S_S256 (K m c main_c_13) := by
  rw [keep15 m c main_v108 (by decide), keep15 m c main_c_13 (by decide)]
  have h := step_unary aligned_hostOps6 (V14 m (outsAll m) c) 1 rfl (by decide) (by decide)
  exact h
theorem K_main_v109 : K m c main_v109 = cmpi .slt (K m c main_arg3) (K m c main_v108) := by
  rw [keep15 m c main_v109 (by decide), keep15 m c main_arg3 (by decide), keep15 m c main_v108 (by decide)]
  have h := step_binary aligned_hostOps6 (V14 m (outsAll m) c) 2 rfl (by decide) (by decide) (by decide)
  exact h
theorem K_main_c_14 : K m c main_c_14 = constantI S_ 32 50000#32 := by
  rw [keep15 m c main_c_14 (by decide)]
  have h := step_nullary aligned_hostOps6 (V14 m (outsAll m) c) 3 rfl (by decide)
  exact h
theorem K_main_v110 : K m c main_v110 = broadcastInDim S256 ![] bcast_S_S256 (K m c main_c_14) := by
  rw [keep15 m c main_v110 (by decide), keep15 m c main_c_14 (by decide)]
  have h := step_unary aligned_hostOps6 (V14 m (outsAll m) c) 4 rfl (by decide) (by decide)
  exact h
theorem K_main_v111 : K m c main_v111 = addi (K m c main_arg3) (K m c main_v110) := by
  rw [keep15 m c main_v111 (by decide), keep15 m c main_arg3 (by decide), keep15 m c main_v110 (by decide)]
  have h := step_binary aligned_hostOps6 (V14 m (outsAll m) c) 5 rfl (by decide) (by decide) (by decide)
  exact h
theorem K_main_v112 : K m c main_v112 = select (K m c main_v109) (K m c main_v111) (K m c main_arg3) := by
  rw [keep15 m c main_v112 (by decide), keep15 m c main_v109 (by decide), keep15 m c main_v111 (by decide), keep15 m c main_arg3 (by decide)]
  have h := step_ternary aligned_hostOps6 (V14 m (outsAll m) c) 6 rfl (by decide) (by decide) (by decide) (by decide)
  exact h
theorem K_main_v113 : K m c main_v113 = broadcastInDim S256x1 ![0] bcast_S256_S256x1_0 (K m c main_v112) := by
  rw [keep15 m c main_v113 (by decide), keep15 m c main_v112 (by decide)]
  have h := step_unary aligned_hostOps6 (V14 m (outsAll m) c) 7 rfl (by decide) (by decide)
  exact h
theorem K_main_v114 : K m c main_v114 = Host.gather gather_S50000x128_S256x1_S256x128_1_0_n_n_0_1_1128 (K m c main_v107) (K m c main_v113) := by
  rw [keep15 m c main_v114 (by decide), keep15 m c main_v107 (by decide), keep15 m c main_v113 (by decide)]
  have h := step_binary aligned_hostOps6 (V14 m (outsAll m) c) 8 rfl (by decide) (by decide) (by decide)
  exact h
theorem K_main_v115 : K m c main_v115 = shapeCast S1x128 (K m c main_arg10) shapeCasts_S128_S1x128 := by
  rw [keep15 m c main_v115 (by decide), keep15 m c main_arg10 (by decide)]
  have h := step_reshape (x := main_arg10) (y := main_v115) (he := rfl) (hn := shapeCasts_S128_S1x128) aligned_hostOps6 (V14 m (outsAll m) c) 9 rfl (by decide) (by decide)
  exact h

/-! ### hostOps7 -/

theorem K_main_v117 : K m c main_v117 = shapeCast S128 (K m c main_v116_1) shapeCasts_S1x128_S128 := by
  rw [keep17 m c main_v117 (by decide), keep17 m c main_v116_1 (by decide)]
  have h := step_reshape (x := main_v116_1) (y := main_v117) (he := rfl) (hn := shapeCasts_S1x128_S128) aligned_hostOps7 (V16 m (outsAll m) c) 0 rfl (by decide) (by decide)
  exact h
theorem K_main_v118 : K m c main_v118 = shapeCast S128 (K m c main_v116_2) shapeCasts_S1x128_S128 := by
  rw [keep17 m c main_v118 (by decide), keep17 m c main_v116_2 (by decide)]
  have h := step_reshape (x := main_v116_2) (y := main_v118) (he := rfl) (hn := shapeCasts_S1x128_S128) aligned_hostOps7 (V16 m (outsAll m) c) 1 rfl (by decide) (by decide)
  exact h
theorem K_main_v119 : K m c main_v119 = shapeCast S1x128 (K m c main_v117) shapeCasts_S128_S1x128 := by
  rw [keep17 m c main_v119 (by decide), keep17 m c main_v117 (by decide)]
  have h := step_reshape (x := main_v117) (y := main_v119) (he := rfl) (hn := shapeCasts_S128_S1x128) aligned_hostOps7 (V16 m (outsAll m) c) 2 rfl (by decide) (by decide)
  exact h
theorem K_main_v120 : K m c main_v120 = shapeCast S1x128 (K m c main_v118) shapeCasts_S128_S1x128 := by
  rw [keep17 m c main_v120 (by decide), keep17 m c main_v118 (by decide)]
  have h := step_reshape (x := main_v118) (y := main_v120) (he := rfl) (hn := shapeCasts_S128_S1x128) aligned_hostOps7 (V16 m (outsAll m) c) 3 rfl (by decide) (by decide)
  exact h
theorem K_main_v121 : K m c main_v121 = shapeCast S1x128 (K m c main_arg11) shapeCasts_S128_S1x128 := by
  rw [keep17 m c main_v121 (by decide), keep17 m c main_arg11 (by decide)]
  have h := step_reshape (x := main_arg11) (y := main_v121) (he := rfl) (hn := shapeCasts_S128_S1x128) aligned_hostOps7 (V16 m (outsAll m) c) 4 rfl (by decide) (by decide)
  exact h
theorem K_main_v122 : K m c main_v122 = shapeCast S1x128 (K m c main_arg12) shapeCasts_S128_S1x128 := by
  rw [keep17 m c main_v122 (by decide), keep17 m c main_arg12 (by decide)]
  have h := step_reshape (x := main_arg12) (y := main_v122) (he := rfl) (hn := shapeCasts_S128_S1x128) aligned_hostOps7 (V16 m (outsAll m) c) 5 rfl (by decide) (by decide)
  exact h
theorem K_main_v123 : K m c main_v123 = shapeCast S1x128 (K m c main_arg14) shapeCasts_S128_S1x128 := by
  rw [keep17 m c main_v123 (by decide), keep17 m c main_arg14 (by decide)]
  have h := step_reshape (x := main_arg14) (y := main_v123) (he := rfl) (hn := shapeCasts_S128_S1x128) aligned_hostOps7 (V16 m (outsAll m) c) 6 rfl (by decide) (by decide)
  exact h

end Cert.KernelIdeal.Gen

end
-- ==== Proof.IdealBn1Value.lean ====
/- Region 1's output array after the region, as one function of the five arrays the region reads.

   The region is a grid of ten points. At point t the body reads rows 5000·t … 5000·t + 4999 of the pre-activation
   (window 0, block (t, 0)) and the whole of each row [1,128] — mean, variance, scale, shift (windows 1 to 4, block (0, 0)
   at every point) —, and writes back the output's tile t (window 5, block (t, 0)): its one store, of the payload
   `k1_pay1` of the five loaded blocks, over the whole tile. Element (p, q) of the payload is
   max((x(p,q) − μ(0,q))·rsqrt(σ²(0,q) + ε)·γ(0,q) + β(0,q), 0) of the blocks (`pay1_apply`: every operation is
   pointwise but the four broadcasts of a row over the tile's rows, each read at (p, q) as the row at (0, q)). Element
   (p, q) of tile t sits at row 5000·t + p, column q of the array, where the pre-activation's block reads the same
   element of its array and each row's block reads (0, q) of its (`point1_eq`, over any arrays and blocks so related):
   so what point t writes back is tile t of `bnRelu` of the arrays (`flushed1_eq`, at a symbolic point; the printed
   index maps are decided once over the ten points). Row r of the array lies in tile r / 5000, so the ten tiles cover it
   (`cover1`), and the array ends holding `bnRelu` of the arrays as the region finds them (`final1`). -/
import proofs.«180021_j37692632990117_2_alg».proof.Proof.IdealBn1
import proofs.«180021_j37692632990117_2_alg».proof.Proof.SpecBn
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

-- the TensorCore's buffer contents when the region is entered
variable (V : (c : Dev nD) → (b : Ref sig .tc) → Buf (Elt Ideal) ((c : Thread nD τ).loc b))

/-- The whole tile's and the whole row's rectangle start at the origin. -/
theorem zero_off1 : (![0, 0] : Fin 2 → Nat) = fun _ => 0 := funext fun a => by fin_cases a <;> rfl

/-- THE PAYLOAD AT AN INDEX: the same-shape casts are the identity, a row broadcast over the tile reads the row at the
    column, and the arithmetic is pointwise. -/
theorem pay1_apply (x0 : Vec Ideal S5000x128 .f32) (x1 x2 x3 x4 : Vec Ideal S1x128 .f32) (p : Fin 5000) (q : Fin 128) :
    k1_pay1 x0 x1 x2 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold k1_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- ONE ELEMENT of what a point writes back, over any arrays and blocks: when the tile's element (p, q) sits at (r, q)
    of the array (`hi`), the pre-activation's block reads its array there (`h0`) and each row's block reads (0, q) of its
    array (`h1` … `h4`), the payload at (p, q) is `bnRelu` of the arrays at that index. -/
theorem point1_eq (a0 : S50000x128.Idx → EReal) (a1 a2 a3 a4 : S1x128.Idx → EReal)
    (x0 : Vec Ideal S5000x128 .f32) (x1 x2 x3 x4 : Vec Ideal S1x128 .f32) (p : Fin 5000) (q : Fin 128) (r : Fin 50000)
    (i : S50000x128.Idx) (hi : i = ix2 r q) (h0 : x0 (ix2 p q) = a0 (ix2 r q))
    (h1 : x1 (ix2 (0 : Fin 1) q) = a1 (ix2 (0 : Fin 1) q)) (h2 : x2 (ix2 (0 : Fin 1) q) = a2 (ix2 (0 : Fin 1) q))
    (h3 : x3 (ix2 (0 : Fin 1) q) = a3 (ix2 (0 : Fin 1) q)) (h4 : x4 (ix2 (0 : Fin 1) q) = a4 (ix2 (0 : Fin 1) q)) :
    k1_pay1 x0 x1 x2 x3 x4 (ix2 p q) = bnRelu a0 a1 a2 a3 a4 i := by
  rw [pay1_apply, h0, h1, h2, h3, h4, hi, bnRelu_apply]

/-- The printed index maps, decided over the ten points: the pre-activation's block and the output's are block (t, 0),
    each row's is block (0, 0). -/
theorem idx_facts1 : ∀ t : Fin cfg1.N,
      win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

-- each mention of an array at its literal index type looks its buffer type up in the signature's tables
set_option maxHeartbeats 1000000 in
/-- WHAT POINT `t` WRITES BACK is tile `t` of `bnRelu` of the arrays as the region finds them. -/
theorem flushed1_eq (c : Dev nD) (t : Fin cfg1.N) :
    (dat1 (F := Ideal) V c).flushed 5 t = ((cfg1.win 5).blk t).view.read (Elt Ideal) (bnRelu (V c (Pipeline.arrRef spec1 0)) (V c (Pipeline.arrRef spec1 1)) (V c (Pipeline.arrRef spec1 2)) (V c (Pipeline.arrRef spec1 3)) (V c (Pipeline.arrRef spec1 4))) := by
  show (cfg1.win 5).cut (grid1.coords t) ((dat1 (F := Ideal) V c).after 5 t) = _
  rw [after1_5]
  unfold out1_5
  rw [View.canon_unit_zero zero_off1]
  simp only [View.ld_unit_zero (S := S5000x128) zero_off1, View.ld_unit_zero (S := S1x128) zero_off1]
  obtain ⟨e00, e01, e10, e11, e20, e21, e30, e31, e40, e41, e50, e51⟩ := idx_facts1 t
  have ht : t.val < 10 := lt_of_lt_of_eq t.isLt N_1
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h0 : (((cfg1.win 0).blk t).view.emb (ix2 p q)) = ix2 (⟨t.val * 5000 + p.val, hr⟩ : Fin 50000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have h1 : (((cfg1.win 1).blk t).view.emb (ix2 (0 : Fin 1) q)) = ix2 (0 : Fin 1) q := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h2 : (((cfg1.win 2).blk t).view.emb (ix2 (0 : Fin 1) q)) = ix2 (0 : Fin 1) q := by
    funext a; apply Fin.ext
    match a with
    | ⟨0, _⟩ => show win1_2.index t (0 : Fin 2) * 1 + 1 * 0 = 0; omega
    | ⟨1, _⟩ => show win1_2.index t (1 : Fin 2) * 128 + 1 * q.val = q.val; omega
  have h3 : (((cfg1.win 3).blk t).view.emb (ix2 (0 : Fin 1) q)) = ix2 (0 : Fin 1) q := by
    funext a; apply Fin.ext
    match a with
    | ⟨0, _⟩ => show win1_3.index t (0 : Fin 2) * 1 + 1 * 0 = 0; omega
    | ⟨1, _⟩ => show win1_3.index t (1 : Fin 2) * 128 + 1 * q.val = q.val; omega
  have h4 : (((cfg1.win 4).blk t).view.emb (ix2 (0 : Fin 1) q)) = ix2 (0 : Fin 1) q := by
    funext a; apply Fin.ext
    match a with
    | ⟨0, _⟩ => show win1_4.index t (0 : Fin 2) * 1 + 1 * 0 = 0; omega
    | ⟨1, _⟩ => show win1_4.index t (1 : Fin 2) * 128 + 1 * q.val = q.val; omega
  have h5 : (((cfg1.win 5).blk t).view.emb (ix2 p q)) = ix2 (⟨t.val * 5000 + p.val, hr⟩ : Fin 50000) q := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  exact point1_eq _ _ _ _ _ (iblk1 V c 0 t) (iblk1 V c 1 t) (iblk1 V c 2 t) (iblk1 V c 3 t) (iblk1 V c 4 t)
    p q (⟨t.val * 5000 + p.val, hr⟩ : Fin 50000) _ h5 (congrArg (V c (Pipeline.arrRef spec1 0)) h0) (congrArg (V c (Pipeline.arrRef spec1 1)) h1) (congrArg (V c (Pipeline.arrRef spec1 2)) h2) (congrArg (V c (Pipeline.arrRef spec1 3)) h3) (congrArg (V c (Pipeline.arrRef spec1 4)) h4)

/-- An index of the array is in point `t`'s tile iff each coordinate is in the tile's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v45).slice (win1_5.rect t)).set ↔ _
  rw [View.set_slice_whole, Rect.mem_set_unit]
  exact Iff.rfl

/-- THE COVER: row `r` of the array lies in tile `r / 5000`, and every point writes its tile back. -/
theorem cover1 (i : S50000x128.Idx) : ∃ t : Fin cfg1.N, (cfg1.win 5).flush t = true ∧ i ∈ ((cfg1.win 5).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  have htv : t.val = (i 0).val / 5000 := rfl
  obtain ⟨e00, e01, e10, e11, e20, e21, e30, e31, e40, e41, e50, e51⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 128 ≤ (i 1).val ∧ (i 1).val < win1_5.index t (1 : Fin 2) * 128 + 128; omega

/-- THE ARRAY after the region: `bnRelu` of the five arrays as the region finds them. -/
theorem final1 (c : Dev nD) :
    (dat1 (F := Ideal) V c).arrAt 5 cfg1.N = bnRelu (V c (Pipeline.arrRef spec1 0)) (V c (Pipeline.arrRef spec1 1)) (V c (Pipeline.arrRef spec1 2)) (V c (Pipeline.arrRef spec1 3)) (V c (Pipeline.arrRef spec1 4)) :=
  (dat1 (F := Ideal) V c).arrAt_eq_of_cover 5 _ (fun t _ => flushed1_eq V c t) (cover1)

end Cert.KernelIdeal.Gen

end
-- ==== Proof.IdealBn3Value.lean ====
/- Region 3's output array after the region, as one function of the five arrays the region reads.

   The region is a grid of ten points. At point t the body reads rows 5000·t … 5000·t + 4999 of the pre-activation
   (window 0, block (t, 0)) and the whole of each row [1,128] — mean, variance, scale, shift (windows 1 to 4, block (0, 0)
   at every point) —, and writes back the output's tile t (window 5, block (t, 0)): its one store, of the payload
   `k3_pay1` of the five loaded blocks, over the whole tile. Element (p, q) of the payload is
   max((x(p,q) − μ(0,q))·rsqrt(σ²(0,q) + ε)·γ(0,q) + β(0,q), 0) of the blocks (`pay3_apply`: every operation is
   pointwise but the four broadcasts of a row over the tile's rows, each read at (p, q) as the row at (0, q)). Element
   (p, q) of tile t sits at row 5000·t + p, column q of the array, where the pre-activation's block reads the same
   element of its array and each row's block reads (0, q) of its (`point3_eq`, over any arrays and blocks so related):
   so what point t writes back is tile t of `bnRelu` of the arrays (`flushed3_eq`, at a symbolic point; the printed
   index maps are decided once over the ten points). Row r of the array lies in tile r / 5000, so the ten tiles cover it
   (`cover3`), and the array ends holding `bnRelu` of the arrays as the region finds them (`final3`). -/
import proofs.«180021_j37692632990117_2_alg».proof.Proof.IdealBn3
import proofs.«180021_j37692632990117_2_alg».proof.Proof.SpecBn
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

-- the TensorCore's buffer contents when the region is entered
variable (V : (c : Dev nD) → (b : Ref sig .tc) → Buf (Elt Ideal) ((c : Thread nD τ).loc b))

/-- The whole tile's and the whole row's rectangle start at the origin. -/
theorem zero_off3 : (![0, 0] : Fin 2 → Nat) = fun _ => 0 := funext fun a => by fin_cases a <;> rfl

/-- THE PAYLOAD AT AN INDEX: the same-shape casts are the identity, a row broadcast over the tile reads the row at the
    column, and the arithmetic is pointwise. -/
theorem pay3_apply (x0 : Vec Ideal S5000x128 .f32) (x1 x2 x3 x4 : Vec Ideal S1x128 .f32) (p : Fin 5000) (q : Fin 128) :
    k3_pay1 x0 x1 x2 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold k3_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- ONE ELEMENT of what a point writes back, over any arrays and blocks: when the tile's element (p, q) sits at (r, q)
    of the array (`hi`), the pre-activation's block reads its array there (`h0`) and each row's block reads (0, q) of its
    array (`h1` … `h4`), the payload at (p, q) is `bnRelu` of the arrays at that index. -/
theorem point3_eq (a0 : S50000x128.Idx → EReal) (a1 a2 a3 a4 : S1x128.Idx → EReal)
    (x0 : Vec Ideal S5000x128 .f32) (x1 x2 x3 x4 : Vec Ideal S1x128 .f32) (p : Fin 5000) (q : Fin 128) (r : Fin 50000)
    (i : S50000x128.Idx) (hi : i = ix2 r q) (h0 : x0 (ix2 p q) = a0 (ix2 r q))
    (h1 : x1 (ix2 (0 : Fin 1) q) = a1 (ix2 (0 : Fin 1) q)) (h2 : x2 (ix2 (0 : Fin 1) q) = a2 (ix2 (0 : Fin 1) q))
    (h3 : x3 (ix2 (0 : Fin 1) q) = a3 (ix2 (0 : Fin 1) q)) (h4 : x4 (ix2 (0 : Fin 1) q) = a4 (ix2 (0 : Fin 1) q)) :
    k3_pay1 x0 x1 x2 x3 x4 (ix2 p q) = bnRelu a0 a1 a2 a3 a4 i := by
  rw [pay3_apply, h0, h1, h2, h3, h4, hi, bnRelu_apply]

/-- The printed index maps, decided over the ten points: the pre-activation's block and the output's are block (t, 0),
    each row's is block (0, 0). -/
theorem idx_facts3 : ∀ t : Fin cfg3.N,
      win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

-- each mention of an array at its literal index type looks its buffer type up in the signature's tables
set_option maxHeartbeats 1000000 in
/-- WHAT POINT `t` WRITES BACK is tile `t` of `bnRelu` of the arrays as the region finds them. -/
theorem flushed3_eq (c : Dev nD) (t : Fin cfg3.N) :
    (dat3 (F := Ideal) V c).flushed 5 t = ((cfg3.win 5).blk t).view.read (Elt Ideal) (bnRelu (V c (Pipeline.arrRef spec3 0)) (V c (Pipeline.arrRef spec3 1)) (V c (Pipeline.arrRef spec3 2)) (V c (Pipeline.arrRef spec3 3)) (V c (Pipeline.arrRef spec3 4))) := by
  show (cfg3.win 5).cut (grid3.coords t) ((dat3 (F := Ideal) V c).after 5 t) = _
  rw [after3_5]
  unfold out3_5
  rw [View.canon_unit_zero zero_off3]
  simp only [View.ld_unit_zero (S := S5000x128) zero_off3, View.ld_unit_zero (S := S1x128) zero_off3]
  obtain ⟨e00, e01, e10, e11, e20, e21, e30, e31, e40, e41, e50, e51⟩ := idx_facts3 t
  have ht : t.val < 10 := lt_of_lt_of_eq t.isLt N_3
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h0 : (((cfg3.win 0).blk t).view.emb (ix2 p q)) = ix2 (⟨t.val * 5000 + p.val, hr⟩ : Fin 50000) q := by
    funext a; apply Fin.ext
    match a with
    | ⟨0, _⟩ => show win3_0.index t (0 : Fin 2) * 5000 + 1 * p.val = t.val * 5000 + p.val; omega
    | ⟨1, _⟩ => show win3_0.index t (1 : Fin 2) * 128 + 1 * q.val = q.val; omega
  have h1 : (((cfg3.win 1).blk t).view.emb (ix2 (0 : Fin 1) q)) = ix2 (0 : Fin 1) q := by
    funext a; apply Fin.ext
    match a with
    | ⟨0, _⟩ => show win3_1.index t (0 : Fin 2) * 1 + 1 * 0 = 0; omega
    | ⟨1, _⟩ => show win3_1.index t (1 : Fin 2) * 128 + 1 * q.val = q.val; omega
  have h2 : (((cfg3.win 2).blk t).view.emb (ix2 (0 : Fin 1) q)) = ix2 (0 : Fin 1) q := by
    funext a; apply Fin.ext
    match a with
    | ⟨0, _⟩ => show win3_2.index t (0 : Fin 2) * 1 + 1 * 0 = 0; omega
    | ⟨1, _⟩ => show win3_2.index t (1 : Fin 2) * 128 + 1 * q.val = q.val; omega
  have h3 : (((cfg3.win 3).blk t).view.emb (ix2 (0 : Fin 1) q)) = ix2 (0 : Fin 1) q := by
    funext a; apply Fin.ext
    match a with
    | ⟨0, _⟩ => show win3_3.index t (0 : Fin 2) * 1 + 1 * 0 = 0; omega
    | ⟨1, _⟩ => show win3_3.index t (1 : Fin 2) * 128 + 1 * q.val = q.val; omega
  have h4 : (((cfg3.win 4).blk t).view.emb (ix2 (0 : Fin 1) q)) = ix2 (0 : Fin 1) q := by
    funext a; apply Fin.ext
    match a with
    | ⟨0, _⟩ => show win3_4.index t (0 : Fin 2) * 1 + 1 * 0 = 0; omega
    | ⟨1, _⟩ => show win3_4.index t (1 : Fin 2) * 128 + 1 * q.val = q.val; omega
  have h5 : (((cfg3.win 5).blk t).view.emb (ix2 p q)) = ix2 (⟨t.val * 5000 + p.val, hr⟩ : Fin 50000) q := by
    funext a; apply Fin.ext
    match a with
    | ⟨0, _⟩ => show win3_5.index t (0 : Fin 2) * 5000 + 1 * p.val = t.val * 5000 + p.val; omega
    | ⟨1, _⟩ => show win3_5.index t (1 : Fin 2) * 128 + 1 * q.val = q.val; omega
  exact point3_eq _ _ _ _ _ (iblk3 V c 0 t) (iblk3 V c 1 t) (iblk3 V c 2 t) (iblk3 V c 3 t) (iblk3 V c 4 t)
    p q (⟨t.val * 5000 + p.val, hr⟩ : Fin 50000) _ h5 (congrArg (V c (Pipeline.arrRef spec3 0)) h0) (congrArg (V c (Pipeline.arrRef spec3 1)) h1) (congrArg (V c (Pipeline.arrRef spec3 2)) h2) (congrArg (V c (Pipeline.arrRef spec3 3)) h3) (congrArg (V c (Pipeline.arrRef spec3 4)) h4)

/-- An index of the array is in point `t`'s tile iff each coordinate is in the tile's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v76).slice (win3_5.rect t)).set ↔ _
  rw [View.set_slice_whole, Rect.mem_set_unit]
  exact Iff.rfl

/-- THE COVER: row `r` of the array lies in tile `r / 5000`, and every point writes its tile back. -/
theorem cover3 (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  have htv : t.val = (i 0).val / 5000 := rfl
  obtain ⟨e00, e01, e10, e11, e20, e21, e30, e31, e40, e41, e50, e51⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- THE ARRAY after the region: `bnRelu` of the five arrays as the region finds them. -/
theorem final3 (c : Dev nD) :
    (dat3 (F := Ideal) V c).arrAt 5 cfg3.N = bnRelu (V c (Pipeline.arrRef spec3 0)) (V c (Pipeline.arrRef spec3 1)) (V c (Pipeline.arrRef spec3 2)) (V c (Pipeline.arrRef spec3 3)) (V c (Pipeline.arrRef spec3 4)) :=
  (dat3 (F := Ideal) V c).arrAt_eq_of_cover 5 _ (fun t _ => flushed3_eq V c t) (cover3)

end Cert.KernelIdeal.Gen

end
-- ==== Proof.IdealBn5Value.lean ====
/- Region 5's output array after the region, as one function of the five arrays the region reads.

   The region is a grid of ten points. At point t the body reads rows 5000·t … 5000·t + 4999 of the pre-activation
   (window 0, block (t, 0)) and the whole of each row [1,128] — mean, variance, scale, shift (windows 1 to 4, block (0, 0)
   at every point) —, and writes back the output's tile t (window 5, block (t, 0)): its one store, of the payload
   `k5_pay1` of the five loaded blocks, over the whole tile. Element (p, q) of the payload is
   max((x(p,q) − μ(0,q))·rsqrt(σ²(0,q) + ε)·γ(0,q) + β(0,q), 0) of the blocks (`pay5_apply`: every operation is
   pointwise but the four broadcasts of a row over the tile's rows, each read at (p, q) as the row at (0, q)). Element
   (p, q) of tile t sits at row 5000·t + p, column q of the array, where the pre-activation's block reads the same
   element of its array and each row's block reads (0, q) of its (`point5_eq`, over any arrays and blocks so related):
   so what point t writes back is tile t of `bnRelu` of the arrays (`flushed5_eq`, at a symbolic point; the printed
   index maps are decided once over the ten points). Row r of the array lies in tile r / 5000, so the ten tiles cover it
   (`cover5`), and the array ends holding `bnRelu` of the arrays as the region finds them (`final5`). -/
import proofs.«180021_j37692632990117_2_alg».proof.Proof.IdealBn5
import proofs.«180021_j37692632990117_2_alg».proof.Proof.SpecBn
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

-- the TensorCore's buffer contents when the region is entered
variable (V : (c : Dev nD) → (b : Ref sig .tc) → Buf (Elt Ideal) ((c : Thread nD τ).loc b))

/-- The whole tile's and the whole row's rectangle start at the origin. -/
theorem zero_off5 : (![0, 0] : Fin 2 → Nat) = fun _ => 0 := funext fun a => by fin_cases a <;> rfl

/-- THE PAYLOAD AT AN INDEX: the same-shape casts are the identity, a row broadcast over the tile reads the row at the
    column, and the arithmetic is pointwise. -/
theorem pay5_apply (x0 : Vec Ideal S5000x128 .f32) (x1 x2 x3 x4 : Vec Ideal S1x128 .f32) (p : Fin 5000) (q : Fin 128) :
    k5_pay1 x0 x1 x2 x3 x4 (ix2 p q)
      = bnAt (x0 (ix2 p q)) (x1 (ix2 (0 : Fin 1) q)) (x2 (ix2 (0 : Fin 1) q)) (x3 (ix2 (0 : Fin 1) q)) (x4 (ix2 (0 : Fin 1) q)) := by
  unfold k5_pay1
  simp only [shapeCast_self]
  rw [maximumf_apply, addf_apply, mulf_apply, mulf_apply, subf_apply,
    broadcastTo_1b_ab_apply, broadcastTo_1b_ab_apply, broadcastTo_1b_ab_apply, broadcastTo_1b_ab_apply]
  rfl

/-- ONE ELEMENT of what a point writes back, over any arrays and blocks: when the tile's element (p, q) sits at (r, q)
    of the array (`hi`), the pre-activation's block reads its array there (`h0`) and each row's block reads (0, q) of its
    array (`h1` … `h4`), the payload at (p, q) is `bnRelu` of the arrays at that index. -/
theorem point5_eq (a0 : S50000x128.Idx → EReal) (a1 a2 a3 a4 : S1x128.Idx → EReal)
    (x0 : Vec Ideal S5000x128 .f32) (x1 x2 x3 x4 : Vec Ideal S1x128 .f32) (p : Fin 5000) (q : Fin 128) (r : Fin 50000)
    (i : S50000x128.Idx) (hi : i = ix2 r q) (h0 : x0 (ix2 p q) = a0 (ix2 r q))
    (h1 : x1 (ix2 (0 : Fin 1) q) = a1 (ix2 (0 : Fin 1) q)) (h2 : x2 (ix2 (0 : Fin 1) q) = a2 (ix2 (0 : Fin 1) q))
    (h3 : x3 (ix2 (0 : Fin 1) q) = a3 (ix2 (0 : Fin 1) q)) (h4 : x4 (ix2 (0 : Fin 1) q) = a4 (ix2 (0 : Fin 1) q)) :
    k5_pay1 x0 x1 x2 x3 x4 (ix2 p q) = bnRelu a0 a1 a2 a3 a4 i := by
  rw [pay5_apply, h0, h1, h2, h3, h4, hi, bnRelu_apply]

/-- The printed index maps, decided over the ten points: the pre-activation's block and the output's are block (t, 0),
    each row's is block (0, 0). -/
theorem idx_facts5 : ∀ t : Fin cfg5.N,
      win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

-- each mention of an array at its literal index type looks its buffer type up in the signature's tables
set_option maxHeartbeats 1000000 in
/-- WHAT POINT `t` WRITES BACK is tile `t` of `bnRelu` of the arrays as the region finds them. -/
theorem flushed5_eq (c : Dev nD) (t : Fin cfg5.N) :
    (dat5 (F := Ideal) V c).flushed 5 t = ((cfg5.win 5).blk t).view.read (Elt Ideal) (bnRelu (V c (Pipeline.arrRef spec5 0)) (V c (Pipeline.arrRef spec5 1)) (V c (Pipeline.arrRef spec5 2)) (V c (Pipeline.arrRef spec5 3)) (V c (Pipeline.arrRef spec5 4))) := by
  show (cfg5.win 5).cut (grid5.coords t) ((dat5 (F := Ideal) V c).after 5 t) = _
  rw [after5_5]
  unfold out5_5
  rw [View.canon_unit_zero zero_off5]
  simp only [View.ld_unit_zero (S := S5000x128) zero_off5, View.ld_unit_zero (S := S1x128) zero_off5]
  obtain ⟨e00, e01, e10, e11, e20, e21, e30, e31, e40, e41, e50, e51⟩ := idx_facts5 t
  have ht : t.val < 10 := lt_of_lt_of_eq t.isLt N_5
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h0 : (((cfg5.win 0).blk t).view.emb (ix2 p q)) = ix2 (⟨t.val * 5000 + p.val, hr⟩ : Fin 50000) q := by
    funext a; apply Fin.ext
    match a with
    | ⟨0, _⟩ => show win5_0.index t (0 : Fin 2) * 5000 + 1 * p.val = t.val * 5000 + p.val; omega
    | ⟨1, _⟩ => show win5_0.index t (1 : Fin 2) * 128 + 1 * q.val = q.val; omega
  have h1 : (((cfg5.win 1).blk t).view.emb (ix2 (0 : Fin 1) q)) = ix2 (0 : Fin 1) q := by
    funext a; apply Fin.ext
    match a with
    | ⟨0, _⟩ => show win5_1.index t (0 : Fin 2) * 1 + 1 * 0 = 0; omega
    | ⟨1, _⟩ => show win5_1.index t (1 : Fin 2) * 128 + 1 * q.val = q.val; omega
  have h2 : (((cfg5.win 2).blk t).view.emb (ix2 (0 : Fin 1) q)) = ix2 (0 : Fin 1) q := by
    funext a; apply Fin.ext
    match a with
    | ⟨0, _⟩ => show win5_2.index t (0 : Fin 2) * 1 + 1 * 0 = 0; omega
    | ⟨1, _⟩ => show win5_2.index t (1 : Fin 2) * 128 + 1 * q.val = q.val; omega
  have h3 : (((cfg5.win 3).blk t).view.emb (ix2 (0 : Fin 1) q)) = ix2 (0 : Fin 1) q := by
    funext a; apply Fin.ext
    match a with
    | ⟨0, _⟩ => show win5_3.index t (0 : Fin 2) * 1 + 1 * 0 = 0; omega
    | ⟨1, _⟩ => show win5_3.index t (1 : Fin 2) * 128 + 1 * q.val = q.val; omega
  have h4 : (((cfg5.win 4).blk t).view.emb (ix2 (0 : Fin 1) q)) = ix2 (0 : Fin 1) q := by
    funext a; apply Fin.ext
    match a with
    | ⟨0, _⟩ => show win5_4.index t (0 : Fin 2) * 1 + 1 * 0 = 0; omega
    | ⟨1, _⟩ => show win5_4.index t (1 : Fin 2) * 128 + 1 * q.val = q.val; omega
  have h5 : (((cfg5.win 5).blk t).view.emb (ix2 p q)) = ix2 (⟨t.val * 5000 + p.val, hr⟩ : Fin 50000) q := by
    funext a; apply Fin.ext
    match a with
    | ⟨0, _⟩ => show win5_5.index t (0 : Fin 2) * 5000 + 1 * p.val = t.val * 5000 + p.val; omega
    | ⟨1, _⟩ => show win5_5.index t (1 : Fin 2) * 128 + 1 * q.val = q.val; omega
  exact point5_eq _ _ _ _ _ (iblk5 V c 0 t) (iblk5 V c 1 t) (iblk5 V c 2 t) (iblk5 V c 3 t) (iblk5 V c 4 t)
    p q (⟨t.val * 5000 + p.val, hr⟩ : Fin 50000) _ h5 (congrArg (V c (Pipeline.arrRef spec5 0)) h0) (congrArg (V c (Pipeline.arrRef spec5 1)) h1) (congrArg (V c (Pipeline.arrRef spec5 2)) h2) (congrArg (V c (Pipeline.arrRef spec5 3)) h3) (congrArg (V c (Pipeline.arrRef spec5 4)) h4)

/-- An index of the array is in point `t`'s tile iff each coordinate is in the tile's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v107).slice (win5_5.rect t)).set ↔ _
  rw [View.set_slice_whole, Rect.mem_set_unit]
  exact Iff.rfl

/-- THE COVER: row `r` of the array lies in tile `r / 5000`, and every point writes its tile back. -/
theorem cover5 (i : S50000x128.Idx) : ∃ t : Fin cfg5.N, (cfg5.win 5).flush t = true ∧ i ∈ ((cfg5.win 5).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  have htv : t.val = (i 0).val / 5000 := rfl
  obtain ⟨e00, e01, e10, e11, e20, e21, e30, e31, e40, e41, e50, e51⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- THE ARRAY after the region: `bnRelu` of the five arrays as the region finds them. -/
theorem final5 (c : Dev nD) :
    (dat5 (F := Ideal) V c).arrAt 5 cfg5.N = bnRelu (V c (Pipeline.arrRef spec5 0)) (V c (Pipeline.arrRef spec5 1)) (V c (Pipeline.arrRef spec5 2)) (V c (Pipeline.arrRef spec5 3)) (V c (Pipeline.arrRef spec5 4)) :=
  (dat5 (F := Ideal) V c).arrAt_eq_of_cover 5 _ (fun t _ => flushed5_eq V c t) (cover5)

end Cert.KernelIdeal.Gen

end
-- ==== Proof.IdealAtom7Value.lean ====
/- Region 7's output array after the region, as one function of the eight arrays the region reads.

   The region is a grid of ten points. At point t the body reads rows 5000·t … 5000·t + 4999 of the read-out's
   pre-activation (window 0, block (t, 0)) and of the row mask [50000,1] (window 7, block (t, 0)), and the whole of the four
   rows [1,128] — mean, variance, scale, shift (windows 1 to 4) —, of the weight [128,128] (window 5) and of the bias row
   (window 6), each block (0, 0) at every point; it writes back the output's tile t (window 8, block (t, 0)): its one
   store, of the payload `k7_pay1` of the eight loaded blocks, over the whole tile. Element (p, j) of the payload is
       (Σ_k y(p,k)·W(j,k) + b(0,j))·mask(p,0),   y(p,k) = max((z(p,k) − μ(0,k))·rsqrt(σ²(0,k) + ε)·γ(0,k) + β(0,k), 0)
   of the blocks (`pay7_apply`): the product is into a zero accumulator, so it is the sum over its one contracted
   coordinate (`matmul7_apply`, the contraction's index set re-indexed by that coordinate), its right operand the weight
   transposed; the two changes of float format are the identity on extended reals; the bias row and the mask column are
   broadcast over the tile. Element (p, j) of tile t sits at row 5000·t + p, column j of the array, where the
   pre-activation's and the mask's blocks read the same row of their arrays and every other block is its whole array
   (`point7_eq`, over any arrays and blocks so related): so what point t writes back is tile t of `atomOut` of the arrays
   (`flushed7_eq`, at a symbolic point; the printed index maps are decided once over the ten points). Row r lies in tile
   r / 5000, so the ten tiles cover the array (`cover7`), which ends holding `atomOut` of the arrays as the region finds
   them (`final7`). -/
import proofs.«180021_j37692632990117_2_alg».proof.Proof.IdealAtom7
import proofs.«180021_j37692632990117_2_alg».proof.Proof.SpecAtom
import Idealize.ShloMosaic.PureOps.Ideal.Laws
import Idealize.ShloMosaic.Lib.Pipeline.Value
import Idealize.ShloMosaic.Lib.ValueLayout

set_option maxRecDepth 16384

noncomputable section

open scoped BigOperators

namespace Cert.KernelIdeal.Gen

open Idealize.ShloMosaic Idealize.ShloMosaic.TcCoe Idealize.ShloMosaic.ValueIdx Idealize.SL.Sem
open Idealize.ShloMosaic.Pipeline (Dat Cfg Window)
open Cert.Spec

-- the TensorCore's buffer contents when the region is entered
variable (V : (c : Dev nD) → (b : Ref sig .tc) → Buf (Elt Ideal) ((c : Thread nD τ).loc b))

/-- The whole tile's, row's, weight's and mask column's rectangle start at the origin. -/
theorem zero_off7 : (![0, 0] : Fin 2 → Nat) = fun _ => 0 := funext fun a => by fin_cases a <;> rfl

/-- A column `[a, 1]` broadcast to `[a, b]` reads, at `(p, c)`, the operand's row `p` at its one column. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The contraction's operand indices, axis by axis: the left operand's row is the result's row and its column the
    contracted coordinate; the right operand's row is the contracted coordinate and its column the result's column. -/

theorem lhs7_0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs7_1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs7_0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs7_1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- THE PRODUCT AT AN INDEX: into the zero accumulator, element (p, j) is the sum over the one contracted coordinate k of
    the left operand at (p, k) by the right operand at (k, j) — the contraction's index set re-indexed by its one
    coordinate. -/
theorem matmul7_apply (l : FVec Ideal S5000x128 .bf16) (r : FVec Ideal S128x128 .bf16) (p : Fin 5000) (j : Fin 128) :
    matmul dot_S5000x128_S128x128_S5000x128_1_0_0_1_n_n none l r (constant (F := Ideal) S5000x128 .f32 0x00000000#32) (ix2 p j)
      = ∑ k : Fin 128, l (ix2 p k) * r (ix2 k j) := by
  refine (Ideal.matmul_constant_zero_apply dot_S5000x128_S128x128_S5000x128_1_0_0_1_n_n none l r (ix2 p j)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p j) ((contrEquiv1 dot_S5000x128_S128x128_S5000x128_1_0_0_1_n_n 128 rfl rfl).symm k) = ix2 p k := funext fun a => Fin.ext (by
    match a with
    | ⟨0, _⟩ => exact lhs7_0 _ _
    | ⟨1, _⟩ => exact (lhs7_1 _ _).trans hk)
  have er : dot_S5000x128_S128x128_S5000x128_1_0_0_1_n_n.rhsIdx (ix2 p j) ((contrEquiv1 dot_S5000x128_S128x128_S5000x128_1_0_0_1_n_n 128 rfl rfl).symm k) = ix2 k j := funext fun a => Fin.ext (by
    match a with
    | ⟨0, _⟩ => exact (rhs7_0 _ _).trans hk
    | ⟨1, _⟩ => exact rhs7_1 _ _)
  rw [el, er]

/-- THE PAYLOAD AT AN INDEX: the same-shape casts and the changes of float format are the identity, a row broadcast over
    the tile reads the row at the column, the mask column broadcast over the tile reads the column at the row, the
    transposed weight at (k, j) is the weight at (j, k), and the rest is pointwise. -/
theorem pay7_apply (x0 : Vec Ideal S5000x128 .f32) (x1 x2 x3 x4 : Vec Ideal S1x128 .f32) (x5 : Vec Ideal S128x128 .f32)
    (x6 : Vec Ideal S1x128 .f32) (x7 : Vec Ideal S5000x1 .f32) (p : Fin 5000) (j : Fin 128) :
    k7_pay1 x0 x1 x2 x3 x4 x5 x6 x7 (ix2 p j)
      = (∑ k : Fin 128, bnAt (x0 (ix2 p k)) (x1 (ix2 (0 : Fin 1) k)) (x2 (ix2 (0 : Fin 1) k)) (x3 (ix2 (0 : Fin 1) k)) (x4 (ix2 (0 : Fin 1) k))
            * x5 (ix2 j k) + x6 (ix2 (0 : Fin 1) j)) * x7 (ix2 p (0 : Fin 1)) := by
  unfold k7_pay1
  simp only [shapeCast_self]
  rw [mulf_apply, addf_apply, matmul7_apply, broadcastTo_1b_ab_apply, broadcastTo_a1_ab_apply]
  refine congrArg₂ (· * ·) (congrArg₂ (· + ·) (Finset.sum_congr rfl fun k _ => ?_) rfl) rfl
  rw [truncf_apply, transpose_ix2_apply, truncf_apply, maximumf_apply, addf_apply, mulf_apply, mulf_apply, subf_apply,
    broadcastTo_1b_ab_apply, broadcastTo_1b_ab_apply, broadcastTo_1b_ab_apply, broadcastTo_1b_ab_apply]
  rfl

/-- ONE ELEMENT of what a point writes back, over any arrays and blocks: when the tile's element (p, j) sits at (r, j)
    of the array (`hi`), the pre-activation's block reads row r of its array along row p (`h0`), the mask's block reads
    (r, 0) at (p, 0) (`h7`) and every other block reads its array at the same index (`h1` … `h6`), the payload at (p, j) is
    `atomOut` of the arrays at that index. -/
theorem point7_eq (a0 : S50000x128.Idx → EReal) (a1 a2 a3 a4 : S1x128.Idx → EReal) (a5 : S128x128.Idx → EReal)
    (a6 : S1x128.Idx → EReal) (a7 : S50000x1.Idx → EReal)
    (x0 : Vec Ideal S5000x128 .f32) (x1 x2 x3 x4 : Vec Ideal S1x128 .f32) (x5 : Vec Ideal S128x128 .f32)
    (x6 : Vec Ideal S1x128 .f32) (x7 : Vec Ideal S5000x1 .f32) (p : Fin 5000) (j : Fin 128) (r : Fin 50000)
    (i : S50000x128.Idx) (hi : i = ix2 r j)
    (h0 : ∀ k : Fin 128, x0 (ix2 p k) = a0 (ix2 r k))
    (h1 : ∀ k : Fin 128, x1 (ix2 (0 : Fin 1) k) = a1 (ix2 (0 : Fin 1) k)) (h2 : ∀ k : Fin 128, x2 (ix2 (0 : Fin 1) k) = a2 (ix2 (0 : Fin 1) k))
    (h3 : ∀ k : Fin 128, x3 (ix2 (0 : Fin 1) k) = a3 (ix2 (0 : Fin 1) k)) (h4 : ∀ k : Fin 128, x4 (ix2 (0 : Fin 1) k) = a4 (ix2 (0 : Fin 1) k))
    (h5 : ∀ k : Fin 128, x5 (ix2 j k) = a5 (ix2 j k))
    (h6 : x6 (ix2 (0 : Fin 1) j) = a6 (ix2 (0 : Fin 1) j)) (h7 : x7 (ix2 p (0 : Fin 1)) = a7 (ix2 r (0 : Fin 1))) :
    k7_pay1 x0 x1 x2 x3 x4 x5 x6 x7 (ix2 p j) = atomOut a0 a1 a2 a3 a4 a5 a6 a7 i := by
  rw [pay7_apply, hi, atomOut_apply, h6, h7]
  refine congrArg₂ (· * ·) (congrArg₂ (· + ·) (Finset.sum_congr rfl fun k _ => ?_) rfl) rfl
  rw [h0 k, h1 k, h2 k, h3 k, h4 k, h5 k]

/-- The printed index maps, decided over the ten points: the pre-activation's, the mask's and the output's block are
    block (t, 0); each row's and the weight's is block (0, 0). -/
theorem idx_facts7 : ∀ t : Fin cfg7.N,
      win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0
    ∧ win7_8.index t (0 : Fin 2) = t.val ∧ win7_8.index t (1 : Fin 2) = 0 :=
  (by decide +kernel : ∀ t : Fin grid7.N, _)

-- each mention of an array at its literal index type looks its buffer type up in the signature's tables
set_option maxHeartbeats 2000000 in
/-- WHAT POINT `t` WRITES BACK is tile `t` of `atomOut` of the arrays as the region finds them. -/
theorem flushed7_eq (c : Dev nD) (t : Fin cfg7.N) :
    (dat7 (F := Ideal) V c).flushed 8 t = ((cfg7.win 8).blk t).view.read (Elt Ideal) (atomOut (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7))) := by
  show (cfg7.win 8).cut (grid7.coords t) ((dat7 (F := Ideal) V c).after 8 t) = _
  rw [after7_8]
  unfold out7_8
  rw [View.canon_unit_zero zero_off7]
  simp only [View.ld_unit_zero (S := S5000x128) zero_off7, View.ld_unit_zero (S := S1x128) zero_off7,
    View.ld_unit_zero (S := S128x128) zero_off7, View.ld_unit_zero (S := S5000x1) zero_off7]
  obtain ⟨e00, e01, e10, e11, e20, e21, e30, e31, e40, e41, e50, e51, e60, e61, e70, e71, e80, e81⟩ := idx_facts7 t
  have ht : t.val < 10 := lt_of_lt_of_eq t.isLt N_7
  funext y
  obtain ⟨p, j, rfl⟩ : ∃ (p : Fin 5000) (j : Fin 128), y = ix2 p j := ⟨y 0, y 1, eq_ix2 y⟩
  have hp : p.val < 5000 := p.isLt
  have hr : t.val * 5000 + p.val < 50000 := by omega
  have h0 : ∀ k : Fin 128, (((cfg7.win 0).blk t).view.emb (ix2 p k)) = ix2 (⟨t.val * 5000 + p.val, hr⟩ : Fin 50000) k := fun k => by
    funext a; apply Fin.ext
    match a with
    | ⟨0, _⟩ => show win7_0.index t (0 : Fin 2) * 5000 + 1 * p.val = t.val * 5000 + p.val; omega
    | ⟨1, _⟩ => show win7_0.index t (1 : Fin 2) * 128 + 1 * k.val = k.val; omega
  have h1 : ∀ k : Fin 128, (((cfg7.win 1).blk t).view.emb (ix2 (0 : Fin 1) k)) = ix2 (0 : Fin 1) k := fun k => by
    funext a; apply Fin.ext
    match a with
    | ⟨0, _⟩ => show win7_1.index t (0 : Fin 2) * 1 + 1 * 0 = 0; omega
    | ⟨1, _⟩ => show win7_1.index t (1 : Fin 2) * 128 + 1 * k.val = k.val; omega
  have h2 : ∀ k : Fin 128, (((cfg7.win 2).blk t).view.emb (ix2 (0 : Fin 1) k)) = ix2 (0 : Fin 1) k := fun k => by
    funext a; apply Fin.ext
    match a with
    | ⟨0, _⟩ => show win7_2.index t (0 : Fin 2) * 1 + 1 * 0 = 0; omega
    | ⟨1, _⟩ => show win7_2.index t (1 : Fin 2) * 128 + 1 * k.val = k.val; omega
  have h3 : ∀ k : Fin 128, (((cfg7.win 3).blk t).view.emb (ix2 (0 : Fin 1) k)) = ix2 (0 : Fin 1) k := fun k => by
    funext a; apply Fin.ext
    match a with
    | ⟨0, _⟩ => show win7_3.index t (0 : Fin 2) * 1 + 1 * 0 = 0; omega
    | ⟨1, _⟩ => show win7_3.index t (1 : Fin 2) * 128 + 1 * k.val = k.val; omega
  have h4 : ∀ k : Fin 128, (((cfg7.win 4).blk t).view.emb (ix2 (0 : Fin 1) k)) = ix2 (0 : Fin 1) k := fun k => by
    funext a; apply Fin.ext
    match a with
    | ⟨0, _⟩ => show win7_4.index t (0 : Fin 2) * 1 + 1 * 0 = 0; omega
    | ⟨1, _⟩ => show win7_4.index t (1 : Fin 2) * 128 + 1 * k.val = k.val; omega
  have h5 : ∀ k : Fin 128, (((cfg7.win 5).blk t).view.emb (ix2 j k)) = ix2 j k := fun k => by
    funext a; apply Fin.ext
    match a with
    | ⟨0, _⟩ => show win7_5.index t (0 : Fin 2) * 128 + 1 * j.val = j.val; omega
    | ⟨1, _⟩ => show win7_5.index t (1 : Fin 2) * 128 + 1 * k.val = k.val; omega
  have h6 : ∀ k : Fin 128, (((cfg7.win 6).blk t).view.emb (ix2 (0 : Fin 1) k)) = ix2 (0 : Fin 1) k := fun k => by
    funext a; apply Fin.ext
    match a with
    | ⟨0, _⟩ => show win7_6.index t (0 : Fin 2) * 1 + 1 * 0 = 0; omega
    | ⟨1, _⟩ => show win7_6.index t (1 : Fin 2) * 128 + 1 * k.val = k.val; omega
  have h7 : (((cfg7.win 7).blk t).view.emb (ix2 p (0 : Fin 1))) = ix2 (⟨t.val * 5000 + p.val, hr⟩ : Fin 50000) (0 : Fin 1) := by
    funext a; apply Fin.ext
    match a with
    | ⟨0, _⟩ => show win7_7.index t (0 : Fin 2) * 5000 + 1 * p.val = t.val * 5000 + p.val; omega
    | ⟨1, _⟩ => show win7_7.index t (1 : Fin 2) * 1 + 1 * 0 = 0; omega
  have h8 : (((cfg7.win 8).blk t).view.emb (ix2 p j)) = ix2 (⟨t.val * 5000 + p.val, hr⟩ : Fin 50000) j := by
    funext a; apply Fin.ext
    match a with
    | ⟨0, _⟩ => show win7_8.index t (0 : Fin 2) * 5000 + 1 * p.val = t.val * 5000 + p.val; omega
    | ⟨1, _⟩ => show win7_8.index t (1 : Fin 2) * 128 + 1 * j.val = j.val; omega
  exact point7_eq _ _ _ _ _ _ _ _ (iblk7 V c 0 t) (iblk7 V c 1 t) (iblk7 V c 2 t) (iblk7 V c 3 t) (iblk7 V c 4 t)
    (iblk7 V c 5 t) (iblk7 V c 6 t) (iblk7 V c 7 t) p j (⟨t.val * 5000 + p.val, hr⟩ : Fin 50000) _ h8
    (fun k => congrArg (V c (Pipeline.arrRef spec7 0)) (h0 k)) (fun k => congrArg (V c (Pipeline.arrRef spec7 1)) (h1 k)) (fun k => congrArg (V c (Pipeline.arrRef spec7 2)) (h2 k))
    (fun k => congrArg (V c (Pipeline.arrRef spec7 3)) (h3 k)) (fun k => congrArg (V c (Pipeline.arrRef spec7 4)) (h4 k)) (fun k => congrArg (V c (Pipeline.arrRef spec7 5)) (h5 k))
    (congrArg (V c (Pipeline.arrRef spec7 6)) (h6 j)) (congrArg (V c (Pipeline.arrRef spec7 7)) h7)

/-- An index of the array is in point `t`'s tile iff each coordinate is in the tile's range on its axis. -/
theorem mem_blk7 (t : Fin cfg7.N) (i : S50000x128.Idx) :
    i ∈ ((cfg7.win 8).blk t).view.set ↔ ∀ a : Fin 2, win7_8.index t a * S5000x128.size a ≤ (i a).val ∧ (i a).val < win7_8.index t a * S5000x128.size a + S5000x128.size a := by
  show i ∈ ((View.whole main_v124).slice (win7_8.rect t)).set ↔ _
  rw [View.set_slice_whole, Rect.mem_set_unit]
  exact Iff.rfl

/-- THE COVER: row `r` of the array lies in tile `r / 5000`, and every point writes its tile back. -/
theorem cover7 (i : S50000x128.Idx) : ∃ t : Fin cfg7.N, (cfg7.win 8).flush t = true ∧ i ∈ ((cfg7.win 8).blk t).view.set := by
  have hi0 : (i 0).val < 50000 := (i 0).isLt
  have hi1 : (i 1).val < 128 := (i 1).isLt
  have hN : cfg7.N = 10 := N_7
  let t : Fin cfg7.N := ⟨(i 0).val / 5000, by rw [hN]; omega⟩
  have htv : t.val = (i 0).val / 5000 := rfl
  obtain ⟨e00, e01, e10, e11, e20, e21, e30, e31, e40, e41, e50, e51, e60, e61, e70, e71, e80, e81⟩ := idx_facts7 t
  refine ⟨t, flush7_8 t, ?_⟩
  rw [mem_blk7]
  intro a
  match a with
  | ⟨0, _⟩ => show win7_8.index t (0 : Fin 2) * 5000 ≤ (i 0).val ∧ (i 0).val < win7_8.index t (0 : Fin 2) * 5000 + 5000; omega
  | ⟨1, _⟩ => show win7_8.index t (1 : Fin 2) * 128 ≤ (i 1).val ∧ (i 1).val < win7_8.index t (1 : Fin 2) * 128 + 128; omega

/-- THE ARRAY after the region: `atomOut` of the eight arrays as the region finds them. -/
theorem final7 (c : Dev nD) :
    (dat7 (F := Ideal) V c).arrAt 8 cfg7.N = atomOut (V c (Pipeline.arrRef spec7 0)) (V c (Pipeline.arrRef spec7 1)) (V c (Pipeline.arrRef spec7 2)) (V c (Pipeline.arrRef spec7 3)) (V c (Pipeline.arrRef spec7 4)) (V c (Pipeline.arrRef spec7 5)) (V c (Pipeline.arrRef spec7 6)) (V c (Pipeline.arrRef spec7 7)) :=
  (dat7 (F := Ideal) V c).arrAt_eq_of_cover 8 _ (fun t _ => flushed7_eq V c t) (cover7)

end Cert.KernelIdeal.Gen

end
-- ==== Proof.IdealStats0Pieces.lean ====
/- Region 0: what each case's run leaves, in the body's own arithmetic.

   The run's pieces read back are: the output tile, the tile agg·Wlᵀ + h·Wrᵀ + b itself; the first accumulator, the one before
   plus the tile's column sums (from zero at the first point); the second, the one before plus the column sums of the
   tile's squares; and at the last point the mean row, the first accumulator times 1/n, and the variance row,
   max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats0
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hzR0 : (![0, 0] : Fin 2 → Nat) = fun _ => 0 := funext fun a => by fin_cases a <;> rfl

set_option maxHeartbeats 2000000 in
theorem out0_A_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    out0_A_5 c i arg1 harg1 arg2 harg2 arg3 harg3 arg4 harg4 arg5 harg5 arg6 harg6 arg7 harg7 arg8 harg8 arg9 harg9 arg10 harg10 hc0 hc1 x0 x1 x2 x3 x4 = k0_pay6 x0 x1 x2 x3 x4 := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    sout0_A_0 c i arg1 harg1 arg2 harg2 arg3 harg3 arg4 harg4 arg5 harg5 arg6 harg6 arg7 harg7 arg8 harg8 arg9 harg9 arg10 harg10 hc0 hc1 x0 x1 x2 x3 x4 = k0_pay7 x0 x1 x2 x3 x4 k0_pay4 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x0 : Vec F S5000x128 .f32) (x1 : Vec F S5000x128 .f32) (x2 : Vec F S128x128 .f32) (x3 : Vec F S128x128 .f32) (x4 : Vec F S1x128 .f32) :
    sout0_A_1 c i arg1 harg1 arg2 harg2 arg3 harg3 arg4 harg4 arg5 harg5 arg6 harg6 arg7 harg7 arg8 harg8 arg9 harg9 arg10 harg10 hc0 hc1 x0 x1 x2 x3 x4 = k0_pay1 k0_pay5 (k0_pay8 x0 x1 x2 x3 x4) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 hc0 hc1 x0 x1 x2 x3 x4)]
  unfold kernelRun0_A
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem out0_B_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out0_B_5 c i arg1 harg1 arg2 harg2 arg3 harg3 arg4 harg4 arg5 harg5 arg6 harg6 arg7 harg7 arg8 harg8 arg9 harg9 arg10 harg10 hc0 hc1 x0 x1 x2 x3 x4 xs0 xs1 = k0_pay6 x0 x1 x2 x3 x4 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_B_0 c i arg1 harg1 arg2 harg2 arg3 harg3 arg4 harg4 arg5 harg5 arg6 harg6 arg7 harg7 arg8 harg8 arg9 harg9 arg10 harg10 hc0 hc1 x0 x1 x2 x3 x4 xs0 xs1 = k0_pay7 x0 x1 x2 x3 x4 xs0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_B_1 c i arg1 harg1 arg2 harg2 arg3 harg3 arg4 harg4 arg5 harg5 arg6 harg6 arg7 harg7 arg8 harg8 arg9 harg9 arg10 harg10 hc0 hc1 x0 x1 x2 x3 x4 xs0 xs1 = k0_pay1 xs1 (k0_pay8 x0 x1 x2 x3 x4) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem out0_C_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out0_C_5 c i arg1 harg1 arg2 harg2 arg3 harg3 arg4 harg4 arg5 harg5 arg6 harg6 arg7 harg7 arg8 harg8 arg9 harg9 arg10 harg10 hc0 hc1 x0 x1 x2 x3 x4 xs0 xs1 = k0_pay6 x0 x1 x2 x3 x4 := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_C_0 c i arg1 harg1 arg2 harg2 arg3 harg3 arg4 harg4 arg5 harg5 arg6 harg6 arg7 harg7 arg8 harg8 arg9 harg9 arg10 harg10 hc0 hc1 x0 x1 x2 x3 x4 xs0 xs1 = k0_pay7 x0 x1 x2 x3 x4 xs0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout0_C_1 c i arg1 harg1 arg2 harg2 arg3 harg3 arg4 harg4 arg5 harg5 arg6 harg6 arg7 harg7 arg8 harg8 arg9 harg9 arg10 harg10 hc0 hc1 x0 x1 x2 x3 x4 xs0 xs1 = k0_pay1 xs1 (k0_pay8 x0 x1 x2 x3 x4) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem out0_C_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out0_C_6 c i arg1 harg1 arg2 harg2 arg3 harg3 arg4 harg4 arg5 harg5 arg6 harg6 arg7 harg7 arg8 harg8 arg9 harg9 arg10 harg10 hc0 hc1 x0 x1 x2 x3 x4 xs0 xs1 = k0_pay2 (k0_pay7 x0 x1 x2 x3 x4 xs0) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

set_option maxHeartbeats 2000000 in
theorem out0_C_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out0_C_7 c i arg1 harg1 arg2 harg2 arg3 harg3 arg4 harg4 arg5 harg5 arg6 harg6 arg7 harg7 arg8 harg8 arg9 harg9 arg10 harg10 hc0 hc1 x0 x1 x2 x3 x4 xs0 xs1 = k0_pay3 (k0_pay7 x0 x1 x2 x3 x4 xs0) (k0_pay1 xs1 (k0_pay8 x0 x1 x2 x3 x4)) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  simp only [View.canon_cons_unit_zero (S := S5000x128) hzR0, View.canon_unit_zero (S := S5000x128) hzR0, View.canon_cons_unit_zero (S := S128x128) hzR0, View.canon_unit_zero (S := S128x128) hzR0, View.canon_cons_unit_zero (S := S1x128) hzR0, View.canon_unit_zero (S := S1x128) hzR0, View.readCov_unit_zero (S := S1x128) _ hzR0, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR0, View.ld_unit_zero (S := S128x128) hzR0, View.ld_unit_zero (S := S1x128) hzR0]

end Cert.KernelIdeal.Gen

end
-- ==== Proof.IdealStats0Fold.lean ====
/- Region 0: the region's outputs point by point, in the body's own arithmetic.

   The output tile after point t is the tile agg·Wlᵀ + h·Wrᵀ + b of that point's blocks.  The two accumulators after the first
   point are the tile's column sums, and the column sums of its squares, added to zero; after each later point, what
   they were plus that point's.  The last point stores the mean row, the first accumulator times 1/n, and the variance
   row, max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats0Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

theorem tileAt0_eq (c : Dev nD) (t : Fin cfg0.N) : tileAt0 V c t = k0_pay6 (iblk0 V c 0 t) (iblk0 V c 1 t) (iblk0 V c 2 t) (iblk0 V c 3 t) (iblk0 V c 4 t) := by
  have hN : t.val < 10 := lt_of_lt_of_eq t.isLt N_0
  unfold tileAt0
  split_ifs with h0 h1 h1
  · omega
  · exact out0_A_5_eq c _ _ _ _ _ _ _ _ _ _ _ _ _ _ _ _ _ _ _ _ _ _ _ _ _ _ _ _
  · exact out0_C_5_eq c _ _ _ _ _ _ _ _ _ _ _ _ _ _ _ _ _ _ _ _ _ _ _ _ _ _ _ _ _ _
  · exact out0_B_5_eq c _ _ _ _ _ _ _ _ _ _ _ _ _ _ _ _ _ _ _ _ _ _ _ _ _ _ _ _ _ _

theorem accAt0_first (c : Dev nD) (t : Fin cfg0.N) (h0 : t.val = 0) :
    accAt0 V c t.val t.isLt = (k0_pay7 (iblk0 V c 0 t) (iblk0 V c 1 t) (iblk0 V c 2 t) (iblk0 V c 3 t) (iblk0 V c 4 t) k0_pay4, k0_pay1 k0_pay5 (k0_pay8 (iblk0 V c 0 t) (iblk0 V c 1 t) (iblk0 V c 2 t) (iblk0 V c 3 t) (iblk0 V c 4 t))) := by
  rw [accAt0_A V c t h0 (by omega)]
  exact congrArg₂ Prod.mk (sout0_A_0_eq c _ _ _ _ _ _ _ _ _ _ _ _ _ _ _ _ _ _ _ _ _ _ _ _ _ _ _ _) (sout0_A_1_eq c _ _ _ _ _ _ _ _ _ _ _ _ _ _ _ _ _ _ _ _ _ _ _ _ _ _ _ _)

theorem accAt0_next (c : Dev nD) (t : Fin cfg0.N) (h0 : ¬t.val = 0) :
    accAt0 V c t.val t.isLt = (k0_pay7 (iblk0 V c 0 t) (iblk0 V c 1 t) (iblk0 V c 2 t) (iblk0 V c 3 t) (iblk0 V c 4 t) (accAt0 V c (t.val - 1) (Nat.lt_of_le_of_lt (Nat.sub_le _ _) t.isLt)).1, k0_pay1 (accAt0 V c (t.val - 1) (Nat.lt_of_le_of_lt (Nat.sub_le _ _) t.isLt)).2 (k0_pay8 (iblk0 V c 0 t) (iblk0 V c 1 t) (iblk0 V c 2 t) (iblk0 V c 3 t) (iblk0 V c 4 t))) := by
  by_cases h1 : t.val = 9
  · rw [accAt0_C V c t h0 h1]
    exact congrArg₂ Prod.mk (sout0_C_0_eq c _ _ _ _ _ _ _ _ _ _ _ _ _ _ _ _ _ _ _ _ _ _ _ _ _ _ _ _ _ _) (sout0_C_1_eq c _ _ _ _ _ _ _ _ _ _ _ _ _ _ _ _ _ _ _ _ _ _ _ _ _ _ _ _ _ _)
  · rw [accAt0_B V c t h0 h1]
    exact congrArg₂ Prod.mk (sout0_B_0_eq c _ _ _ _ _ _ _ _ _ _ _ _ _ _ _ _ _ _ _ _ _ _ _ _ _ _ _ _ _ _) (sout0_B_1_eq c _ _ _ _ _ _ _ _ _ _ _ _ _ _ _ _ _ _ _ _ _ _ _ _ _ _ _ _ _ _)

theorem meanAt0_last (c : Dev nD) (t : Fin cfg0.N) (h1 : t.val = 9) :
    meanAt0 V c t = k0_pay2 (accAt0 V c t.val t.isLt).1 := by
  have h0 : ¬t.val = 0 := by omega
  simp only [meanAt0, dif_neg h0, dif_pos h1]
  rw [out0_C_6_eq, accAt0_next V c t h0]

theorem varAt0_last (c : Dev nD) (t : Fin cfg0.N) (h1 : t.val = 9) :
    varAt0 V c t = k0_pay3 (accAt0 V c t.val t.isLt).1 (accAt0 V c t.val t.isLt).2 := by
  have h0 : ¬t.val = 0 := by omega
  simp only [varAt0, dif_neg h0, dif_pos h1]
  rw [out0_C_7_eq, accAt0_next V c t h0]

end Cert.KernelIdeal.Gen

end
-- ==== Proof.LibRealSums.lean ====
/-
  Finite sums of extended reals that are in fact real.

  An extended real is called real here when it is the image of a real number. Sums, products, maxima, quotients by a
  nonzero real and conditional terms of real extended reals are real, and on them the laws that fail at the
  infinities hold: a factor distributes over a sum, and a weighted aggregate commutes with a linear map.
-/
import Idealize.ShloMosaic.PureOps.Ideal

noncomputable section

namespace Cert.LibRealSums

open Idealize.ShloMosaic

/-- An extended real that is (the image of) a real number. -/
def IsReal (x : EReal) : Prop := ∃ r : ℝ, x = (r : EReal)

theorem isReal_coe (r : ℝ) : IsReal (r : EReal) := ⟨r, rfl⟩
theorem isReal_zero : IsReal (0 : EReal) := ⟨0, rfl⟩
theorem isReal_one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.ite {P : Prop} [Decidable P] {x y : EReal} (hx : IsReal x) (hy : IsReal y) : IsReal (if P then x else y) := by
  split_ifs
  · exact hx
  · exact hy

theorem isReal_sum {ι : Type} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The coercion of a finite real sum is the sum of the coercions. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_ite (P : Prop) [Decidable P] (a : ℝ) : (if P then (a : EReal) else 0) = ((if P then a else 0 : ℝ) : EReal) := by
  split_ifs <;> simp

/-- The quotient of a real by a real that is at least one, as the quotient is read on the extended reals. -/
theorem IsReal.div_of_one_le {x y : EReal} (hx : IsReal x) (hy : IsReal y) (h1 : (1 : EReal) ≤ y) : IsReal (Ideal.div x y) := by
  obtain ⟨a, rfl⟩ := hx; obtain ⟨b, rfl⟩ := hy
  have hb : b ≠ 0 := by
    have : (1 : ℝ) ≤ b := by exact_mod_cast h1
    intro h0; rw [h0] at this; norm_num at this
  rw [Ideal.div_coe hb]
  exact (isReal_coe a).mul (isReal_coe _)

/-- Dividing by a real that is at least one is multiplying by its reciprocal, the reciprocal being one divided by it. -/
theorem div_eq_mul_one_div {x y : EReal} (hy : IsReal y) (h1 : (1 : EReal) ≤ y) :
    Ideal.div x y = x * Ideal.div 1 y := by
  obtain ⟨b, rfl⟩ := hy
  have hb : b ≠ 0 := by
    have : (1 : ℝ) ≤ b := by exact_mod_cast h1
    intro h0; rw [h0] at this; norm_num at this
  rw [Ideal.div_coe hb, Ideal.div_coe hb, one_mul]

/-- On reals a factor distributes over a sum of two. -/
theorem mul_add_of_isReal {x a b : EReal} (hx : IsReal x) (ha : IsReal a) (hb : IsReal b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A row times the sum of two weight columns is the sum of the two products, all entries real. -/
theorem sum_mul_add {J : Type} [Fintype J] (x a b : J → EReal) (hx : ∀ j, IsReal (x j)) (ha : ∀ j, IsReal (a j)) (hb : ∀ j, IsReal (b j)) :
    (∑ j, x j * (a j + b j)) = (∑ j, x j * a j) + ∑ j, x j * b j := by
  rw [← Finset.sum_add_distrib]
  exact Finset.sum_congr rfl fun j _ => mul_add_of_isReal (hx j) (ha j) (hb j)

theorem sum_mul_coe {J : Type} (s : Finset J) (a b : J → ℝ) :
    (∑ j ∈ s, (a j : EReal) * (b j : EReal)) = ((∑ j ∈ s, a j * b j : ℝ) : EReal) :=
  (Finset.sum_congr rfl fun j _ => (EReal.coe_mul (a j) (b j)).symm).trans (coe_sum s _)

/-- The real form of `aggregate_project` below. -/
theorem aggregate_project_real {E J : Type} [Fintype E] [Fintype J] (P : E → Prop) [DecidablePred P]
    (Hr : E → J → ℝ) (wr : J → ℝ) (r : ℝ) :
    (0 + ∑ e, if P e then (∑ j, (Hr e j : EReal) * (wr j : EReal)) else 0) * (r : EReal)
      = ∑ j, ((0 + ∑ e, if P e then (Hr e j : EReal) else 0) * (r : EReal)) * (wr j : EReal) := by
  have hite : ∀ (e : E) (x : ℝ), (if P e then (x : EReal) else 0) = (((if P e then (1 : ℝ) else 0) * x : ℝ) : EReal) := by
    intro e x; split_ifs <;> simp
  have L : (0 + ∑ e, if P e then (∑ j, (Hr e j : EReal) * (wr j : EReal)) else 0) * (r : EReal)
      = (((∑ e, (if P e then (1 : ℝ) else 0) * ∑ j, Hr e j * wr j) * r : ℝ) : EReal) := by
    rw [zero_add]
    have h : ∀ e, (if P e then (∑ j, (Hr e j : EReal) * (wr j : EReal)) else (0 : EReal))
        = (((if P e then (1 : ℝ) else 0) * ∑ j, Hr e j * wr j : ℝ) : EReal) := fun e => by
      rw [sum_mul_coe]; exact hite e _
    rw [Finset.sum_congr rfl fun e _ => h e, coe_sum, ← EReal.coe_mul]
  have R : (∑ j, ((0 + ∑ e, if P e then (Hr e j : EReal) else 0) * (r : EReal)) * (wr j : EReal))
      = ((∑ j, ((∑ e, (if P e then (1 : ℝ) else 0) * Hr e j) * r) * wr j : ℝ) : EReal) := by
    have h : ∀ j, ((0 + ∑ e, if P e then (Hr e j : EReal) else 0) * (r : EReal)) * (wr j : EReal)
        = ((((∑ e, (if P e then (1 : ℝ) else 0) * Hr e j) * r) * wr j : ℝ) : EReal) := fun j => by
      rw [zero_add, Finset.sum_congr rfl fun e _ => hite e (Hr e j), coe_sum, ← EReal.coe_mul, ← EReal.coe_mul]
    rw [Finset.sum_congr rfl fun j _ => h j, coe_sum]
  rw [L, R, EReal.coe_eq_coe_iff]
  simp only [Finset.mul_sum, Finset.sum_mul]
  rw [Finset.sum_comm]
  exact Finset.sum_congr rfl fun j _ => Finset.sum_congr rfl fun e _ => by ring

/-- Aggregating projected rows and then averaging is averaging the aggregated rows and then projecting: with `P e` saying
    that edge `e` lands at the destination, `H e j` the source row of edge `e`, `w` a weight column and `d ≥ 1` the
    (clamped) degree, `(∑_e [P e] ∑_j H e j · w j) · (1 / d) = ∑_j ((∑_e [P e] H e j) / d) · w j`, all entries real. -/
theorem aggregate_project {E J : Type} [Fintype E] [Fintype J] (P : E → Prop) [DecidablePred P]
    (H : E → J → EReal) (w : J → EReal) (d : EReal)
    (hH : ∀ e j, IsReal (H e j)) (hw : ∀ j, IsReal (w j)) (hd : IsReal d) (h1 : (1 : EReal) ≤ d) :
    (0 + ∑ e, if P e then (∑ j, H e j * w j) else 0) * Ideal.div 1 d
      = ∑ j, Ideal.div (0 + ∑ e, if P e then H e j else 0) d * w j := by
  choose Hr hHr using hH
  choose wr hwr using hw
  obtain ⟨b, rfl⟩ := hd
  have hb : b ≠ 0 := by
    have : (1 : ℝ) ≤ b := by exact_mod_cast h1
    intro h0; rw [h0] at this; norm_num at this
  have hH' : H = fun e j => (Hr e j : EReal) := funext fun e => funext fun j => hHr e j
  have hw' : w = fun j => (wr j : EReal) := funext hwr
  subst hH' hw'
  have hdiv : ∀ x : EReal, Ideal.div x (b : EReal) = x * ((1 / b : ℝ) : EReal) := fun x => Ideal.div_coe hb x
  simp only [hdiv, one_mul]
  exact aggregate_project_real P Hr wr (1 / b)

end Cert.LibRealSums

end
-- ==== Proof.LibGraphMath.lean ====
/-
  Finite real sums on the extended reals: the identities the value argument needs.

  (A) Aggregating projected rows, each edge carrying a weight, is projecting the aggregated rows.
  (B) The two forms of the biased variance: the mean of the squares minus the square of the mean is the mean of the
      squared deviations.
  (C) A sum over `a * b` consecutive rows is the sum over `a` blocks of `b` rows, and a running total over the blocks
      is the initial value plus that sum.
  (D) The reciprocal square root of a positive real is real, and a count of edges is a real, positive when some edge
      is counted.

  All statements are about extended reals that are in fact real (`IsReal`), where the ring laws hold.
-/
import Idealize.ShloMosaic.PureOps.Ideal
import proofs.«180021_j37692632990117_2_alg».proof.Proof.LibRealSums

noncomputable section

namespace Cert.KMath

open Idealize.ShloMosaic
open Cert.LibRealSums

/-! ### (A) Weighted aggregation commutes with a projection -/

/-- A conditional real term is the product of the real with the indicator of the condition. -/
theorem ite_coe_eq (P : Prop) [Decidable P] (x : ℝ) :
    (if P then (x : EReal) else 0) = (((if P then (1 : ℝ) else 0) * x : ℝ) : EReal) := by
  split_ifs <;> simp

/-- The real form of `agg_project` below. -/
theorem agg_project_real {E J : Type} [Fintype E] [Fintype J] (P : E → Prop) [DecidablePred P]
    (Mr : E → J → ℝ) (wr : J → ℝ) (nr : E → ℝ) :
    (0 + ∑ e, if P e then (∑ j, (Mr e j : EReal) * (wr j : EReal)) * (nr e : EReal) else 0)
      = ∑ j, (0 + ∑ e, if P e then (Mr e j : EReal) * (nr e : EReal) else 0) * (wr j : EReal) := by
  have L : (0 + ∑ e, if P e then (∑ j, (Mr e j : EReal) * (wr j : EReal)) * (nr e : EReal) else 0)
      = ((∑ e, (if P e then (1 : ℝ) else 0) * ((∑ j, Mr e j * wr j) * nr e) : ℝ) : EReal) := by
    rw [zero_add]
    have h : ∀ e, (if P e then (∑ j, (Mr e j : EReal) * (wr j : EReal)) * (nr e : EReal) else (0 : EReal))
        = (((if P e then (1 : ℝ) else 0) * ((∑ j, Mr e j * wr j) * nr e) : ℝ) : EReal) := fun e => by
      rw [sum_mul_coe, ← EReal.coe_mul]; exact ite_coe_eq (P e) _
    rw [Finset.sum_congr rfl fun e _ => h e, coe_sum]
  have R : (∑ j, (0 + ∑ e, if P e then (Mr e j : EReal) * (nr e : EReal) else 0) * (wr j : EReal))
      = ((∑ j, (∑ e, (if P e then (1 : ℝ) else 0) * (Mr e j * nr e)) * wr j : ℝ) : EReal) := by
    have h : ∀ j, (0 + ∑ e, if P e then (Mr e j : EReal) * (nr e : EReal) else 0) * (wr j : EReal)
        = (((∑ e, (if P e then (1 : ℝ) else 0) * (Mr e j * nr e)) * wr j : ℝ) : EReal) := fun j => by
      have g : ∀ e, (if P e then (Mr e j : EReal) * (nr e : EReal) else (0 : EReal))
          = (((if P e then (1 : ℝ) else 0) * (Mr e j * nr e) : ℝ) : EReal) := fun e => by
        rw [← EReal.coe_mul]; exact ite_coe_eq (P e) _
      rw [zero_add, Finset.sum_congr rfl fun e _ => g e, coe_sum, ← EReal.coe_mul]
    rw [Finset.sum_congr rfl fun j _ => h j, coe_sum]
  rw [L, R, EReal.coe_eq_coe_iff]
  simp only [Finset.mul_sum, Finset.sum_mul]
  rw [Finset.sum_comm]
  exact Finset.sum_congr rfl fun j _ => Finset.sum_congr rfl fun e _ => by ring

/-- Aggregating projected rows is projecting aggregated rows, each edge carrying its own weight: with `P e` saying
    that edge `e` lands at the destination, `M e j` the source row of edge `e`, `w` a weight column and `n e` the
    weight of the edge, `∑_e [P e] (∑_j M e j · w j) · n e = ∑_j (∑_e [P e] M e j · n e) · w j`, all entries real. -/
theorem agg_project {E J : Type} [Fintype E] [Fintype J] (P : E → Prop) [DecidablePred P]
    (M : E → J → EReal) (w : J → EReal) (n : E → EReal)
    (hM : ∀ e j, IsReal (M e j)) (hw : ∀ j, IsReal (w j)) (hn : ∀ e, IsReal (n e)) :
    (0 + ∑ e, if P e then (∑ j, M e j * w j) * n e else 0)
      = ∑ j, (0 + ∑ e, if P e then M e j * n e else 0) * w j := by
  choose Mr hMr using hM
  choose wr hwr using hw
  choose nr hnr using hn
  have hM' : M = fun e j => (Mr e j : EReal) := funext fun e => funext fun j => hMr e j
  have hw' : w = fun j => (wr j : EReal) := funext hwr
  have hn' : n = fun e => (nr e : EReal) := funext hnr
  subst hM' hw' hn'
  exact agg_project_real P Mr wr nr

/-- An aggregate of real rows with real edge weights is real. -/
theorem agg_isReal {E J : Type} [Fintype E] (P : E → Prop) [DecidablePred P]
    (M : E → J → EReal) (n : E → EReal) (hM : ∀ e j, IsReal (M e j)) (hn : ∀ e, IsReal (n e)) (j : J) :
    IsReal (0 + ∑ e, if P e then M e j * n e else 0) :=
  isReal_zero.add (isReal_sum _ _ fun e _ => IsReal.ite ((hM e j).mul (hn e)) isReal_zero)

/-- An aggregate of projected real rows with real edge weights is real. -/
theorem agg_dense_isReal {E J : Type} [Fintype E] [Fintype J] (P : E → Prop) [DecidablePred P]
    (M : E → J → EReal) (w : J → EReal) (n : E → EReal)
    (hM : ∀ e j, IsReal (M e j)) (hw : ∀ j, IsReal (w j)) (hn : ∀ e, IsReal (n e)) :
    IsReal (0 + ∑ e, if P e then (∑ j, M e j * w j) * n e else 0) :=
  isReal_zero.add (isReal_sum _ _ fun e _ =>
    IsReal.ite ((isReal_sum _ _ fun j _ => (hM e j).mul (hw j)).mul (hn e)) isReal_zero)

/-- A row of reals against a column of reals, plus a real bias, is real. -/
theorem dense_isReal {J : Type} [Fintype J] (a w : J → EReal) (b : EReal)
    (ha : ∀ j, IsReal (a j)) (hw : ∀ j, IsReal (w j)) (hb : IsReal b) :
    IsReal ((∑ j, a j * w j) + b) :=
  (isReal_sum _ _ fun j _ => (ha j).mul (hw j)).add hb

/-- The same after the maximum with zero. -/
theorem dense_relu_isReal {J : Type} [Fintype J] (a w : J → EReal) (b : EReal)
    (ha : ∀ j, IsReal (a j)) (hw : ∀ j, IsReal (w j)) (hb : IsReal b) :
    IsReal (max ((∑ j, a j * w j) + b) 0) :=
  (dense_isReal a w b ha hw hb).max isReal_zero

/-- The same with zero as the first argument of the maximum. -/
theorem dense_relu_isReal' {J : Type} [Fintype J] (a w : J → EReal) (b : EReal)
    (ha : ∀ j, IsReal (a j)) (hw : ∀ j, IsReal (w j)) (hb : IsReal b) :
    IsReal (max 0 ((∑ j, a j * w j) + b)) :=
  isReal_zero.max (dense_isReal a w b ha hw hb)

/-! ### (B) The two forms of the biased variance -/

/-- In the reals: the mean of the squares minus the square of the mean is the mean of the squared deviations. -/
theorem var_forms_real {I : Type} [Fintype I] (x : I → ℝ) (N : ℝ) (hN : (Fintype.card I : ℝ) = N) (hN0 : N ≠ 0) :
    (∑ i, x i * x i) / N - ((∑ i, x i) / N) * ((∑ i, x i) / N)
      = (∑ i, (x i - (∑ i, x i) / N) * (x i - (∑ i, x i) / N)) / N := by
  generalize hS : (∑ i, x i) = S
  have h : (∑ i, (x i - S / N) * (x i - S / N)) = (∑ i, x i * x i) - 2 * (S / N) * S + N * ((S / N) * (S / N)) := by
    have e : ∀ i, (x i - S / N) * (x i - S / N) = x i * x i - 2 * (S / N) * x i + (S / N) * (S / N) := fun i => by ring
    rw [Finset.sum_congr rfl fun i _ => e i, Finset.sum_add_distrib, Finset.sum_sub_distrib, ← Finset.mul_sum, hS,
      Finset.sum_const, Finset.card_univ, nsmul_eq_mul, hN]
  rw [h]
  field_simp
  ring

/-- The biased variance of reals is not negative. -/
theorem var_nonneg_real {I : Type} [Fintype I] (x : I → ℝ) (N : ℝ) (hN : (Fintype.card I : ℝ) = N) (hN0 : N ≠ 0) :
    0 ≤ (∑ i, x i * x i) / N - ((∑ i, x i) / N) * ((∑ i, x i) / N) := by
  rw [var_forms_real x N hN hN0]
  have hpos : 0 ≤ N := by rw [← hN]; exact Nat.cast_nonneg _
  exact div_nonneg (Finset.sum_nonneg fun i _ => mul_self_nonneg _) hpos

/-- The quotient of a real by a nonzero real, as the quotient is read on the extended reals. -/
theorem div_coe_coe (a : ℝ) {N : ℝ} (hN0 : N ≠ 0) : Ideal.div (a : EReal) (N : EReal) = ((a / N : ℝ) : EReal) := by
  rw [Ideal.div_coe hN0, ← EReal.coe_mul, mul_one_div]

/-- The mean of reals is real. -/
theorem mean_isReal {I : Type} [Fintype I] (x : I → EReal) (hx : ∀ i, IsReal (x i)) (N : ℝ) (hN0 : N ≠ 0) :
    IsReal (Ideal.div (0 + ∑ i, x i) (N : EReal)) := by
  obtain ⟨s, hs⟩ := isReal_zero.add (isReal_sum Finset.univ x fun i _ => hx i)
  rw [hs, div_coe_coe s hN0]; exact isReal_coe _

/-- The value of the mean of reals. -/
theorem mean_coe {I : Type} [Fintype I] (xr : I → ℝ) (N : ℝ) (hN0 : N ≠ 0) :
    Ideal.div (0 + ∑ i, (xr i : EReal)) (N : EReal) = (((∑ i, xr i) / N : ℝ) : EReal) := by
  rw [zero_add, coe_sum, div_coe_coe _ hN0]

/-- The two forms of the biased variance on the extended reals, with `S = ∑ x`, `Q = ∑ x²`, `μ = S / N`:
    `Q / N - μ² = (∑ (x - μ)²) / N`, all entries real and `N` the number of entries. -/
theorem var_forms {I : Type} [Fintype I] (x : I → EReal) (hx : ∀ i, IsReal (x i)) (N : ℝ)
    (hN : (Fintype.card I : ℝ) = N) (hN0 : N ≠ 0) :
    Ideal.div (0 + ∑ i, x i * x i) (N : EReal)
        - Ideal.div (0 + ∑ i, x i) (N : EReal) * Ideal.div (0 + ∑ i, x i) (N : EReal)
      = Ideal.div (0 + ∑ i, (x i - Ideal.div (0 + ∑ i, x i) (N : EReal)) * (x i - Ideal.div (0 + ∑ i, x i) (N : EReal)))
          (N : EReal) := by
  choose xr hxr using hx
  have hx' : x = fun i => (xr i : EReal) := funext hxr
  subst hx'
  rw [mean_coe xr N hN0]
  have hQ : (0 + ∑ i, (xr i : EReal) * (xr i : EReal)) = ((∑ i, xr i * xr i : ℝ) : EReal) := by
    rw [zero_add, sum_mul_coe]
  have hD : (0 + ∑ i, ((xr i : EReal) - (((∑ i, xr i) / N : ℝ) : EReal)) * ((xr i : EReal) - (((∑ i, xr i) / N : ℝ) : EReal)))
      = ((∑ i, (xr i - (∑ i, xr i) / N) * (xr i - (∑ i, xr i) / N) : ℝ) : EReal) := by
    rw [zero_add, ← coe_sum]
    exact Finset.sum_congr rfl fun i _ => by rw [← EReal.coe_sub, ← EReal.coe_mul]
  rw [hQ, hD, div_coe_coe _ hN0, div_coe_coe _ hN0, ← EReal.coe_mul, ← EReal.coe_sub, EReal.coe_eq_coe_iff]
  exact var_forms_real xr N hN hN0

/-- The same with the mean given by name. -/
theorem var_forms' {I : Type} [Fintype I] (x : I → EReal) (hx : ∀ i, IsReal (x i)) (N : ℝ)
    (hN : (Fintype.card I : ℝ) = N) (hN0 : N ≠ 0) (μ : EReal) (hμ : μ = Ideal.div (0 + ∑ i, x i) (N : EReal)) :
    Ideal.div (0 + ∑ i, x i * x i) (N : EReal) - μ * μ
      = Ideal.div (0 + ∑ i, (x i - μ) * (x i - μ)) (N : EReal) := by
  subst hμ; exact var_forms x hx N hN hN0

/-- The first form of the variance (mean of squares minus squared mean) is real. -/
theorem var_isReal {I : Type} [Fintype I] (x : I → EReal) (hx : ∀ i, IsReal (x i)) (N : ℝ) (hN0 : N ≠ 0) :
    IsReal (Ideal.div (0 + ∑ i, x i * x i) (N : EReal)
        - Ideal.div (0 + ∑ i, x i) (N : EReal) * Ideal.div (0 + ∑ i, x i) (N : EReal)) := by
  obtain ⟨q, hq⟩ := isReal_zero.add (isReal_sum Finset.univ (fun i => x i * x i) fun i _ => (hx i).mul (hx i))
  obtain ⟨m, hm⟩ := mean_isReal x hx N hN0
  rw [hq, hm, div_coe_coe q hN0, ← EReal.coe_mul, ← EReal.coe_sub]; exact isReal_coe _

/-- The second form of the variance (mean of squared deviations) is real. -/
theorem var_isReal' {I : Type} [Fintype I] (x : I → EReal) (hx : ∀ i, IsReal (x i)) (N : ℝ) (hN0 : N ≠ 0) :
    IsReal (Ideal.div (0 + ∑ i, (x i - Ideal.div (0 + ∑ i, x i) (N : EReal)) * (x i - Ideal.div (0 + ∑ i, x i) (N : EReal)))
      (N : EReal)) := by
  obtain ⟨m, hm⟩ := mean_isReal x hx N hN0
  rw [hm]
  have hd : ∀ i, IsReal ((x i - (m : EReal)) * (x i - (m : EReal))) := fun i => by
    obtain ⟨a, ha⟩ := hx i
    rw [ha, ← EReal.coe_sub, ← EReal.coe_mul]; exact isReal_coe _
  obtain ⟨d, hd'⟩ := isReal_zero.add (isReal_sum Finset.univ (fun i => (x i - (m : EReal)) * (x i - (m : EReal))) fun i _ => hd i)
  rw [hd', div_coe_coe d hN0]; exact isReal_coe _

/-- The variance of reals, in its first form, is a real that is not negative: there is `v ≥ 0` with the variance `↑v`. -/
theorem var_eq_coe_nonneg {I : Type} [Fintype I] (x : I → EReal) (hx : ∀ i, IsReal (x i)) (N : ℝ)
    (hN : (Fintype.card I : ℝ) = N) (hN0 : N ≠ 0) :
    ∃ v : ℝ, 0 ≤ v ∧ Ideal.div (0 + ∑ i, x i * x i) (N : EReal)
        - Ideal.div (0 + ∑ i, x i) (N : EReal) * Ideal.div (0 + ∑ i, x i) (N : EReal) = (v : EReal) := by
  choose xr hxr using hx
  have hx' : x = fun i => (xr i : EReal) := funext hxr
  subst hx'
  refine ⟨_, var_nonneg_real xr N hN hN0, ?_⟩
  rw [mean_coe xr N hN0]
  have hQ : (0 + ∑ i, (xr i : EReal) * (xr i : EReal)) = ((∑ i, xr i * xr i : ℝ) : EReal) := by
    rw [zero_add, sum_mul_coe]
  rw [hQ, div_coe_coe _ hN0, ← EReal.coe_mul, ← EReal.coe_sub]

/-! ### (C) Sums by blocks -/

/-- A sum over `a * b` consecutive indices is the sum over `a` blocks of `b`. -/
theorem sum_blocks_gen {M : Type} [AddCommMonoid M] (a b n : ℕ) (h : a * b = n) (f : ℕ → M) :
    (∑ t : Fin a, ∑ r : Fin b, f (b * t.val + r.val)) = ∑ i : Fin n, f i.val := by
  subst h
  rw [← (finProdFinEquiv (m := a) (n := b)).sum_comp (fun i => f i.val), Fintype.sum_prod_type]
  refine Finset.sum_congr rfl fun t _ => Finset.sum_congr rfl fun r _ => ?_
  simp [finProdFinEquiv, add_comm]

/-- A sum over 100000 rows is the sum over 20 blocks of 5000 rows. -/
theorem sum_blocks {M : Type} [AddCommMonoid M] (f : ℕ → M) :
    (∑ t : Fin 20, ∑ r : Fin 5000, f (5000 * t.val + r.val)) = ∑ i : Fin 100000, f i.val :=
  sum_blocks_gen 20 5000 100000 (by norm_num) f

/-- A running total: starting from `z + s 0` and adding `s (t+1)` at step `t+1`, the total after step `n` is
    `z` plus the sum of the first `n+1` terms. -/
theorem acc_eq_sum {M : Type} [AddCommMonoid M] (acc s : ℕ → M) (z : M) (n : ℕ) (h0 : acc 0 = z + s 0)
    (hstep : ∀ t, t < n → acc (t + 1) = acc t + s (t + 1)) :
    acc n = z + ∑ t : Fin (n + 1), s t.val := by
  induction n with
  | zero => simpa using h0
  | succ k ih =>
    rw [hstep k (Nat.lt_succ_self k), ih fun t ht => hstep t (Nat.lt_succ_of_lt ht), Fin.sum_univ_castSucc (n := k + 1)]
    simp [add_assoc]

/-- The running total over 20 blocks. -/
theorem acc19_eq_sum {M : Type} [AddCommMonoid M] (acc s : ℕ → M) (z : M) (h0 : acc 0 = z + s 0)
    (hstep : ∀ t, t < 19 → acc (t + 1) = acc t + s (t + 1)) :
    acc 19 = z + ∑ t : Fin 20, s t.val :=
  acc_eq_sum acc s z 19 h0 hstep

/-! ### (D) Reals from the degree -/

/-- The reciprocal square root of a positive real, as it is read on the extended reals. -/
theorem rsqrt_coe_of_pos (r : ℝ) (h : 0 < r) : Ideal.rsqrt (r : EReal) = (((Real.sqrt r)⁻¹ : ℝ) : EReal) := by
  rw [Ideal.rsqrt_coe, if_neg (not_lt.mpr h.le), if_neg h.ne']

/-- The reciprocal square root of a positive real is real. -/
theorem isReal_rsqrt_of_pos (r : ℝ) (h : 0 < r) : IsReal (Ideal.rsqrt (r : EReal)) := by
  rw [rsqrt_coe_of_pos r h]; exact isReal_coe _

/-- A count of the edges with a property is the real number of them. -/
theorem count_eq_coe {E : Type} [Fintype E] (P : E → Prop) [DecidablePred P] :
    (0 + ∑ e, if P e then (1 : EReal) else 0) = (((Finset.univ.filter P).card : ℝ) : EReal) := by
  have h : ∀ e, (if P e then (1 : EReal) else 0) = ((if P e then (1 : ℝ) else 0 : ℝ) : EReal) := fun e => by
    split_ifs <;> simp
  rw [zero_add, Finset.sum_congr rfl fun e _ => h e, coe_sum, Finset.sum_boole]

/-- A count of edges is real. -/
theorem count_isReal {E : Type} [Fintype E] (P : E → Prop) [DecidablePred P] :
    IsReal (0 + ∑ e, if P e then (1 : EReal) else 0) := by
  rw [count_eq_coe]; exact isReal_coe _

/-- The count is positive, as a real, when some edge has the property. -/
theorem count_pos {E : Type} [Fintype E] (P : E → Prop) [DecidablePred P] (e : E) (he : P e) :
    (0 : ℝ) < ((Finset.univ.filter P).card : ℝ) := by
  have : 0 < (Finset.univ.filter P).card :=
    Finset.card_pos.mpr ⟨e, Finset.mem_filter.mpr ⟨Finset.mem_univ e, he⟩⟩
  exact_mod_cast this

/-- The reciprocal square root of a count of edges is real when some edge is counted. -/
theorem isReal_rsqrt_count {E : Type} [Fintype E] (P : E → Prop) [DecidablePred P] (e : E) (he : P e) :
    IsReal (Ideal.rsqrt (0 + ∑ e, if P e then (1 : EReal) else 0)) := by
  rw [count_eq_coe]; exact isReal_rsqrt_of_pos _ (count_pos P e he)

end Cert.KMath

end
-- ==== Proof.IdealStats0Value.lean ====
/- Region 0 at the extended reals: its three arrays after the region as functions of the five arrays it reads.

   Entry (p, q) of the tile the body forms at point t is Σ_k agg(5000t+p, k)·Wl(q, k) + Σ_k h(5000t+p, k)·Wr(q, k) + b(0, q)
   (the casts to bf16 and back are the identity, the transpose moves the weight's index, a matrix product into a zero
   accumulator is its sum, the bias row is spread over the tile's rows): entry (5000t+p, q) of the whole pre-activation.
   The ten tiles cover the output array.  The first accumulator after point n holds, in column q, zero plus the sums of
   column q over the tiles 0 … n, so after the last point the column sum of the whole pre-activation; the second the
   same for the squares.  The last point stores the mean row, that column sum times 1/50000, and the variance row,
   max(sum of squares/50000 − mean², 0). -/
import proofs.«180021_j37692632990117_2_alg».proof.Proof.IdealStats0Fold
import proofs.«180021_j37692632990117_2_alg».proof.Proof.SpecNet
import proofs.«180021_j37692632990117_2_alg».proof.Proof.LibGraphMath
import Idealize.ShloMosaic.PureOps.Ideal.Laws
import Idealize.ShloMosaic.PureOps.IdealRules
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

/-! ## The body's arithmetic at an entry -/

theorem inv_n0 : Named.named (F := Ideal) κ "inv_50000" (φ := .f32) 0x37A7C5AC#32 = ((1 / 50000 : ℝ) : EReal) :=
  IdealRules.named_const.ideal_named_scalar _ _ _ _ rfl

/-- The tile's entry: two products with the transposed weights, then the bias row. -/
theorem pay0_tile_apply (x0 x1 : Vec Ideal S5000x128 .f32) (x2 x3 : Vec Ideal S128x128 .f32) (x4 : Vec Ideal S1x128 .f32) (p : Fin 5000) (j : Fin 128) :
    k0_pay6 (F := Ideal) x0 x1 x2 x3 x4 (ix2 p j) = (∑ k : Fin 128, x0 (ix2 p k) * x2 (ix2 j k) + ∑ k : Fin 128, x1 (ix2 p k) * x3 (ix2 j k)) + x4 (ix2 (0 : Fin 1) j) := by
  unfold k0_pay6
  dsimp only
  refine congrArg₂ (· + ·) (congrArg₂ (· + ·) ?_ ?_) ?_
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine (congrFun (shapeCast_self x0 _) _).trans (congrArg x0 ?_)
      funext a; apply Fin.ext
      match a with
      | ⟨0, _⟩ => exact hl0
      | ⟨1, _⟩ => exact hl.trans hk0
    · refine (transpose_apply _ _ _ _ (ix2 j k) (fun b => ?_)).trans (congrFun (shapeCast_self x2 _) _)
      match b with
      | ⟨0, _⟩ => exact (hr.trans hk0).symm
      | ⟨1, _⟩ => exact hr1.symm
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine congrArg x1 ?_
      funext a; apply Fin.ext
      match a with
      | ⟨0, _⟩ => exact hl0
      | ⟨1, _⟩ => exact hl.trans hk0
    · refine (transpose_apply _ _ _ _ (ix2 j k) (fun b => ?_)).trans (congrFun (shapeCast_self x3 _) _)
      match b with
      | ⟨0, _⟩ => exact (hr.trans hk0).symm
      | ⟨1, _⟩ => exact hr1.symm
  · refine (broadcastTo_apply _ _ _ (ix2 (0 : Fin 1) j) (fun a => ?_)).trans (congrFun (shapeCast_self x4 _) _)
    match a with
    | ⟨0, _⟩ => rfl
    | ⟨1, _⟩ => rfl

/-- A column sum of a tile, kept as a row. -/
theorem colsum0_apply (y : FVec Ideal S5000x128 .f32) (h2 : FKind.Formats FTy.f32) (h3) (q : Fin 128) :
    shapeCast S1x128 (multiReduction FKind.add [0] S128 y (0#32) reduces_S5000x128_S128 h2 h3) shapeCasts_S128_S1x128 (ix2 (0 : Fin 1) q)
      = ∑ p : Fin 5000, y (ix2 p q) := by
  refine (shapeCast_apply _ _ _ (ix1 q) ?_).trans ?_
  · rw [Shape.rowMajor_val_one, Shape.rowMajor_val_two]
    show (q : ℕ) = (0 : ℕ) * 128 + (q : ℕ)
    omega
  · refine (Ideal.multiReduction_add_single _ _ _ _ _ _).trans ?_
    refine Finset.sum_congr rfl fun p _ => congrArg y (funext fun a => Fin.ext ?_)
    match a with
    | ⟨0, _⟩ => rfl
    | ⟨1, _⟩ => rfl

theorem pay0_sum_apply (x0 x1 : Vec Ideal S5000x128 .f32) (x2 x3 : Vec Ideal S128x128 .f32) (x4 s : Vec Ideal S1x128 .f32) (q : Fin 128) :
    k0_pay7 (F := Ideal) x0 x1 x2 x3 x4 s (ix2 (0 : Fin 1) q) = s (ix2 (0 : Fin 1) q) + ∑ p : Fin 5000, k0_pay6 (F := Ideal) x0 x1 x2 x3 x4 (ix2 p q) := by
  unfold k0_pay7
  dsimp only
  refine (congrFun (shapeCast_self _ _) _).trans ?_
  exact congrArg₂ (· + ·) rfl (colsum0_apply _ _ _ q)

theorem pay0_sq_apply (x0 x1 : Vec Ideal S5000x128 .f32) (x2 x3 : Vec Ideal S128x128 .f32) (x4 s : Vec Ideal S1x128 .f32) (q : Fin 128) :
    k0_pay1 (F := Ideal) s (k0_pay8 x0 x1 x2 x3 x4) (ix2 (0 : Fin 1) q) = s (ix2 (0 : Fin 1) q) + ∑ p : Fin 5000, k0_pay6 (F := Ideal) x0 x1 x2 x3 x4 (ix2 p q) * k0_pay6 (F := Ideal) x0 x1 x2 x3 x4 (ix2 p q) := by
  unfold k0_pay1 k0_pay8
  dsimp only
  refine (congrFun (shapeCast_self _ _) _).trans ?_
  exact congrArg₂ (· + ·) rfl (colsum0_apply _ _ _ q)

theorem pay0_mean_apply (s : Vec Ideal S1x128 .f32) (q : Fin 128) :
    k0_pay2 (F := Ideal) s (ix2 (0 : Fin 1) q) = s (ix2 (0 : Fin 1) q) * ((1 / 50000 : ℝ) : EReal) := by
  unfold k0_pay2
  show s (ix2 (0 : Fin 1) q) * Named.named (F := Ideal) κ "inv_50000" (φ := .f32) 0x37A7C5AC#32 = _
  rw [inv_n0]

theorem pay0_var_apply (s0 s1 : Vec Ideal S1x128 .f32) (q : Fin 128) :
    k0_pay3 (F := Ideal) s0 s1 (ix2 (0 : Fin 1) q) = max (s1 (ix2 (0 : Fin 1) q) * ((1 / 50000 : ℝ) : EReal) - k0_pay2 (F := Ideal) s0 (ix2 (0 : Fin 1) q) * k0_pay2 (F := Ideal) s0 (ix2 (0 : Fin 1) q)) (Ideal.ofBits .f32 0x00000000#32) := by
  unfold k0_pay3
  show max (s1 (ix2 (0 : Fin 1) q) * Named.named (F := Ideal) κ "inv_50000" (φ := .f32) 0x37A7C5AC#32 - _) _ = _
  rw [inv_n0]
  rfl

theorem pay0_zero0 (q : Fin 128) : k0_pay4 (F := Ideal) (ix2 (0 : Fin 1) q) = 0 := by
  unfold k0_pay4
  show Ideal.ofBits .f32 0x00000000#32 = 0
  exact Ideal.ofBits_zero_f32
theorem pay0_zero1 (q : Fin 128) : k0_pay5 (F := Ideal) (ix2 (0 : Fin 1) q) = 0 := by
  unfold k0_pay5
  show Ideal.ofBits .f32 0x00000000#32 = 0
  exact Ideal.ofBits_zero_f32

/-- ONE ENTRY of a tile over any arrays and blocks: when the two row blocks read row r of their arrays and the weight and
    bias blocks are their whole arrays, the tile's entry (p, q) is the pre-activation's entry (r, q). -/
theorem point0_tile (a0 a1 : S50000x128.Idx → EReal) (a2 a3 : S128x128.Idx → EReal) (a4 : S1x128.Idx → EReal)
    (x0 x1 : Vec Ideal S5000x128 .f32) (x2 x3 : Vec Ideal S128x128 .f32) (x4 : Vec Ideal S1x128 .f32) (p : Fin 5000) (q : Fin 128) (r : Fin 50000)
    (h0 : ∀ k : Fin 128, x0 (ix2 p k) = a0 (ix2 r k)) (h1 : ∀ k : Fin 128, x1 (ix2 p k) = a1 (ix2 r k))
    (h2 : ∀ k : Fin 128, x2 (ix2 q k) = a2 (ix2 q k)) (h3 : ∀ k : Fin 128, x3 (ix2 q k) = a3 (ix2 q k))
    (h4 : x4 (ix2 (0 : Fin 1) q) = a4 (ix2 (0 : Fin 1) q)) :
    k0_pay6 (F := Ideal) x0 x1 x2 x3 x4 (ix2 p q) = linPre2 a0 a1 a2 a3 a4 (ix2 r q) := by
  rw [pay0_tile_apply]
  show _ = (∑ k : Fin 128, a0 (ix2 r k) * a2 (ix2 q k) + ∑ k : Fin 128, a1 (ix2 r k) * a3 (ix2 q k)) + a4 (ix2 (0 : Fin 1) q)
  simp only [h0, h1, h2, h3, h4]

-- the TensorCore's buffer contents when the region is entered
variable (V : (c : Dev nD) → (b : Ref sig .tc) → Buf (Elt Ideal) ((c : Thread nD τ).loc b))

/-- The printed index maps over the ten points: the two row windows and the output tile are block (t, 0), the weights, the
    bias, the mean and the variance block (0, 0). -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

set_option maxHeartbeats 2000000 in
/-- Entry (p, q) of the tile formed at point t is entry (5000 t + p, q) of the whole pre-activation. -/
theorem tile0_entry (c : Dev nD) (t : Fin cfg0.N) (p : Fin 5000) (q : Fin 128) (hr : t.val * 5000 + p.val < 50000) :
    k0_pay6 (F := Ideal) (iblk0 V c 0 t) (iblk0 V c 1 t) (iblk0 V c 2 t) (iblk0 V c 3 t) (iblk0 V c 4 t) (ix2 p q) = (linPre2 (V c (Pipeline.arrRef spec0 0)) (V c (Pipeline.arrRef spec0 1)) (V c (Pipeline.arrRef spec0 2)) (V c (Pipeline.arrRef spec0 3)) (V c (Pipeline.arrRef spec0 4))) (ix2 (⟨t.val * 5000 + p.val, hr⟩ : Fin 50000) q) := by
  obtain ⟨e00, e01, e10, e11, e20, e21, e30, e31, e40, e41, e50, e51, e60, e61, e70, e71⟩ := idx_facts0 t
  have h0 : ∀ k : Fin 128, (((cfg0.win 0).blk t).view.emb (ix2 p k)) = ix2 (⟨t.val * 5000 + p.val, hr⟩ : Fin 50000) k := fun k => by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have h1 : ∀ k : Fin 128, (((cfg0.win 1).blk t).view.emb (ix2 p k)) = ix2 (⟨t.val * 5000 + p.val, hr⟩ : Fin 50000) k := fun k => by
    funext a; apply Fin.ext
    match a with
    | ⟨0, _⟩ => show win0_1.index t (0 : Fin 2) * 5000 + 1 * p.val = t.val * 5000 + p.val; omega
    | ⟨1, _⟩ => show win0_1.index t (1 : Fin 2) * 128 + 1 * k.val = k.val; omega
  have h2 : ∀ k : Fin 128, (((cfg0.win 2).blk t).view.emb (ix2 q k)) = ix2 q k := fun k => by
    funext a; apply Fin.ext
    match a with
    | ⟨0, _⟩ => show win0_2.index t (0 : Fin 2) * 128 + 1 * q.val = q.val; omega
    | ⟨1, _⟩ => show win0_2.index t (1 : Fin 2) * 128 + 1 * k.val = k.val; omega
  have h3 : ∀ k : Fin 128, (((cfg0.win 3).blk t).view.emb (ix2 q k)) = ix2 q k := fun k => by
    funext a; apply Fin.ext
    match a with
    | ⟨0, _⟩ => show win0_3.index t (0 : Fin 2) * 128 + 1 * q.val = q.val; omega
    | ⟨1, _⟩ => show win0_3.index t (1 : Fin 2) * 128 + 1 * k.val = k.val; omega
  have h4 : (((cfg0.win 4).blk t).view.emb (ix2 (0 : Fin 1) q)) = ix2 (0 : Fin 1) q := by
    funext a; apply Fin.ext
    match a with
    | ⟨0, _⟩ => show win0_4.index t (0 : Fin 2) * 1 + 1 * 0 = 0; omega
    | ⟨1, _⟩ => show win0_4.index t (1 : Fin 2) * 128 + 1 * q.val = q.val; omega
  exact point0_tile _ _ _ _ _ (iblk0 V c 0 t) (iblk0 V c 1 t) (iblk0 V c 2 t) (iblk0 V c 3 t) (iblk0 V c 4 t) p q (⟨t.val * 5000 + p.val, hr⟩ : Fin 50000)
    (fun k => congrArg (V c (Pipeline.arrRef spec0 0)) (h0 k)) (fun k => congrArg (V c (Pipeline.arrRef spec0 1)) (h1 k)) (fun k => congrArg (V c (Pipeline.arrRef spec0 2)) (h2 k)) (fun k => congrArg (V c (Pipeline.arrRef spec0 3)) (h3 k)) (congrArg (V c (Pipeline.arrRef spec0 4)) h4)

/-! ## The output tile array -/

set_option maxHeartbeats 2000000 in
theorem flushed0_5_eq (c : Dev nD) (t : Fin cfg0.N) :
    (dat0 (F := Ideal) V c).flushed 5 t = ((cfg0.win 5).blk t).view.read (Elt Ideal) (linPre2 (V c (Pipeline.arrRef spec0 0)) (V c (Pipeline.arrRef spec0 1)) (V c (Pipeline.arrRef spec0 2)) (V c (Pipeline.arrRef spec0 3)) (V c (Pipeline.arrRef spec0 4))) := by
  show (cfg0.win 5).cut (grid0.coords t) ((dat0 (F := Ideal) V c).after 5 t) = _
  rw [after0_5, tileAt0_eq]
  obtain ⟨e00, e01, e10, e11, e20, e21, e30, e31, e40, e41, e50, e51, e60, e61, e70, e71⟩ := idx_facts0 t
  have ht : t.val < 10 := lt_of_lt_of_eq t.isLt N_0
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h5 : (((cfg0.win 5).blk t).view.emb (ix2 p q)) = ix2 (⟨t.val * 5000 + p.val, hr⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 128 + 1 * q.val = q.val; omega
  exact (tile0_entry V c t p q hr).trans (congrArg (linPre2 (V c (Pipeline.arrRef spec0 0)) (V c (Pipeline.arrRef spec0 1)) (V c (Pipeline.arrRef spec0 2)) (V c (Pipeline.arrRef spec0 3)) (V c (Pipeline.arrRef spec0 4))) h5.symm)

theorem mem_blk0_5 (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34_0).slice (win0_5.rect t)).set ↔ _
  rw [View.set_slice_whole, Rect.mem_set_unit]
  exact Iff.rfl

theorem cover0_5 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  have htv : t.val = (i 0).val / 5000 := rfl
  obtain ⟨e00, e01, e10, e11, e20, e21, e30, e31, e40, e41, e50, e51, e60, e61, e70, e71⟩ := idx_facts0 t
  refine ⟨t, flush0_5 t, ?_⟩
  rw [mem_blk0_5]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE PRE-ACTIVATION ARRAY after the region. -/
theorem final0_pre (c : Dev nD) : (dat0 (F := Ideal) V c).arrAt 5 cfg0.N = (linPre2 (V c (Pipeline.arrRef spec0 0)) (V c (Pipeline.arrRef spec0 1)) (V c (Pipeline.arrRef spec0 2)) (V c (Pipeline.arrRef spec0 3)) (V c (Pipeline.arrRef spec0 4))) :=
  (dat0 (F := Ideal) V c).arrAt_eq_of_cover 5 _ (fun t _ => flushed0_5_eq V c t) (cover0_5)

end Cert.KernelIdeal.Gen

end
-- ==== Proof.IdealStats0Stat.lean ====
/- Region 0 at the extended reals, continued: the column statistics.

   After point n the first accumulator holds, in column q, zero plus the column sums of the tiles 0 … n — by the tile's
   entries, sums of entries of the whole pre-activation over the rows 5000·t … 5000·t + 4999 —, so after the last point
   the column sum over all 50000 rows; the second accumulator the same for the squares.  The last point's mean row is the
   column sum times 1/50000, its variance row max(sum of squares/50000 − mean², 0): the two rows the windows write back. -/
import proofs.«180021_j37692632990117_2_alg».proof.Proof.IdealStats0Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

/-- The pre-activation's entry at a natural row number, zero beyond the array. -/
def preN0 (c : Dev nD) (r : ℕ) (q : Fin 128) : EReal := if h : r < 50000 then (linPre2 (V c (Pipeline.arrRef spec0 0)) (V c (Pipeline.arrRef spec0 1)) (V c (Pipeline.arrRef spec0 2)) (V c (Pipeline.arrRef spec0 3)) (V c (Pipeline.arrRef spec0 4))) (ix2 (⟨r, h⟩ : Fin 50000) q) else 0

theorem accAt0_congr (c : Dev nD) (a b : ℕ) (h : a = b) (ha : a < cfg0.N) (hb : b < cfg0.N) : accAt0 V c a ha = accAt0 V c b hb := by
  subst h; rfl

/-- A tile's entries are the pre-activation's, row by row. -/
theorem tile0_row (c : Dev nD) (t : Fin cfg0.N) (p : Fin 5000) (q : Fin 128) :
    k0_pay6 (F := Ideal) (iblk0 V c 0 t) (iblk0 V c 1 t) (iblk0 V c 2 t) (iblk0 V c 3 t) (iblk0 V c 4 t) (ix2 p q) = preN0 V c (5000 * t.val + p.val) q := by
  have ht : t.val < 10 := lt_of_lt_of_eq t.isLt N_0
  have hp : p.val < 5000 := p.isLt
  have hr : t.val * 5000 + p.val < 50000 := by omega
  have hr' : 5000 * t.val + p.val < 50000 := by omega
  rw [tile0_entry V c t p q hr]
  unfold preN0
  rw [dif_pos hr']
  exact congrArg (fun r => (linPre2 (V c (Pipeline.arrRef spec0 0)) (V c (Pipeline.arrRef spec0 1)) (V c (Pipeline.arrRef spec0 2)) (V c (Pipeline.arrRef spec0 3)) (V c (Pipeline.arrRef spec0 4))) (ix2 r q)) (Fin.ext (by show t.val * 5000 + p.val = 5000 * t.val + p.val; omega))

/-- The first accumulator after point n: zero plus the column sums of the tiles up to n. -/
theorem acc0_sum (c : Dev nD) (q : Fin 128) (n : ℕ) (hn : n < cfg0.N) :
    (accAt0 V c n hn).1 (ix2 (0 : Fin 1) q) = 0 + ∑ t : Fin (n + 1), ∑ p : Fin 5000, preN0 V c (5000 * t.val + p.val) q := by
  have key := Cert.KMath.acc_eq_sum (fun k => if hk : k < cfg0.N then (accAt0 V c k hk).1 (ix2 (0 : Fin 1) q) else 0)
    (fun k => ∑ p : Fin 5000, preN0 V c (5000 * k + p.val) q) 0 n ?h0 ?hstep
  · simpa only [dif_pos hn] using key
  case h0 =>
    have h0N : 0 < cfg0.N := Nat.lt_of_le_of_lt (Nat.zero_le _) hn
    show (if hk : 0 < cfg0.N then (accAt0 V c 0 hk).1 (ix2 (0 : Fin 1) q) else 0) = 0 + _
    rw [dif_pos h0N, accAt0_first V c ⟨0, h0N⟩ rfl]
    show k0_pay7 (F := Ideal) _ _ _ _ _ _ (ix2 (0 : Fin 1) q) = _
    rw [pay0_sum_apply, pay0_zero0]
    exact congrArg (0 + ·) (Finset.sum_congr rfl fun p _ => tile0_row V c ⟨0, h0N⟩ p q)
  case hstep =>
    intro t ht
    have h1 : t + 1 < cfg0.N := Nat.lt_of_le_of_lt (Nat.succ_le_of_lt ht) hn
    have h2 : t < cfg0.N := Nat.lt_of_succ_lt h1
    show (if hk : t + 1 < cfg0.N then (accAt0 V c (t + 1) hk).1 (ix2 (0 : Fin 1) q) else 0) = (if hk : t < cfg0.N then (accAt0 V c t hk).1 (ix2 (0 : Fin 1) q) else 0) + _
    rw [dif_pos h1, dif_pos h2, accAt0_next V c ⟨t + 1, h1⟩ (Nat.succ_ne_zero t)]
    show k0_pay7 (F := Ideal) _ _ _ _ _ _ (ix2 (0 : Fin 1) q) = _
    rw [pay0_sum_apply]
    refine congrArg₂ (· + ·) ?_ (Finset.sum_congr rfl fun p _ => tile0_row V c ⟨t + 1, h1⟩ p q)
    exact congrArg (fun z => z.1 (ix2 (0 : Fin 1) q)) (accAt0_congr V c _ _ (Nat.add_sub_cancel t 1) _ h2)

/-- The second accumulator after point n: zero plus the column sums of the tiles' squares. -/
theorem acc0_sq (c : Dev nD) (q : Fin 128) (n : ℕ) (hn : n < cfg0.N) :
    (accAt0 V c n hn).2 (ix2 (0 : Fin 1) q) = 0 + ∑ t : Fin (n + 1), ∑ p : Fin 5000, preN0 V c (5000 * t.val + p.val) q * preN0 V c (5000 * t.val + p.val) q := by
  have key := Cert.KMath.acc_eq_sum (fun k => if hk : k < cfg0.N then (accAt0 V c k hk).2 (ix2 (0 : Fin 1) q) else 0)
    (fun k => ∑ p : Fin 5000, preN0 V c (5000 * k + p.val) q * preN0 V c (5000 * k + p.val) q) 0 n ?h0 ?hstep
  · simpa only [dif_pos hn] using key
  case h0 =>
    have h0N : 0 < cfg0.N := Nat.lt_of_le_of_lt (Nat.zero_le _) hn
    show (if hk : 0 < cfg0.N then (accAt0 V c 0 hk).2 (ix2 (0 : Fin 1) q) else 0) = 0 + _
    rw [dif_pos h0N, accAt0_first V c ⟨0, h0N⟩ rfl]
    show k0_pay1 (F := Ideal) _ (k0_pay8 _ _ _ _ _) (ix2 (0 : Fin 1) q) = _
    rw [pay0_sq_apply, pay0_zero1]
    exact congrArg (0 + ·) (Finset.sum_congr rfl fun p _ => by rw [tile0_row V c ⟨0, h0N⟩ p q])
  case hstep =>
    intro t ht
    have h1 : t + 1 < cfg0.N := Nat.lt_of_le_of_lt (Nat.succ_le_of_lt ht) hn
    have h2 : t < cfg0.N := Nat.lt_of_succ_lt h1
    show (if hk : t + 1 < cfg0.N then (accAt0 V c (t + 1) hk).2 (ix2 (0 : Fin 1) q) else 0) = (if hk : t < cfg0.N then (accAt0 V c t hk).2 (ix2 (0 : Fin 1) q) else 0) + _
    rw [dif_pos h1, dif_pos h2, accAt0_next V c ⟨t + 1, h1⟩ (Nat.succ_ne_zero t)]
    show k0_pay1 (F := Ideal) _ (k0_pay8 _ _ _ _ _) (ix2 (0 : Fin 1) q) = _
    rw [pay0_sq_apply]
    refine congrArg₂ (· + ·) ?_ (Finset.sum_congr rfl fun p _ => by rw [tile0_row V c ⟨t + 1, h1⟩ p q])
    exact congrArg (fun z => z.2 (ix2 (0 : Fin 1) q)) (accAt0_congr V c _ _ (Nat.add_sub_cancel t 1) _ h2)

/-- A column sum over the 50000 rows is the sum over the ten tiles of 5000 rows. -/
theorem colsum0_blocks (c : Dev nD) (f : EReal → EReal) (hf : f 0 = 0 ∨ True) (q : Fin 128) :
    (∑ r : Fin 50000, f ((linPre2 (V c (Pipeline.arrRef spec0 0)) (V c (Pipeline.arrRef spec0 1)) (V c (Pipeline.arrRef spec0 2)) (V c (Pipeline.arrRef spec0 3)) (V c (Pipeline.arrRef spec0 4))) (ix2 r q))) = ∑ t : Fin 10, ∑ p : Fin 5000, f (preN0 V c (5000 * t.val + p.val) q) := by
  rw [Cert.KMath.sum_blocks_gen 10 5000 50000 (by norm_num) (fun r => f (preN0 V c r q))]
  refine Finset.sum_congr rfl fun r _ => ?_
  unfold preN0
  rw [dif_pos r.isLt]

theorem acc0_last_sum (c : Dev nD) (q : Fin 128) (h9 : 9 < cfg0.N) :
    (accAt0 V c 9 h9).1 (ix2 (0 : Fin 1) q) = colSum (linPre2 (V c (Pipeline.arrRef spec0 0)) (V c (Pipeline.arrRef spec0 1)) (V c (Pipeline.arrRef spec0 2)) (V c (Pipeline.arrRef spec0 3)) (V c (Pipeline.arrRef spec0 4))) q := by
  rw [acc0_sum V c q 9 h9, zero_add]
  exact (colsum0_blocks V c (fun x => x) (Or.inr trivial) q).symm

theorem acc0_last_sq (c : Dev nD) (q : Fin 128) (h9 : 9 < cfg0.N) :
    (accAt0 V c 9 h9).2 (ix2 (0 : Fin 1) q) = colSum (fun i => (linPre2 (V c (Pipeline.arrRef spec0 0)) (V c (Pipeline.arrRef spec0 1)) (V c (Pipeline.arrRef spec0 2)) (V c (Pipeline.arrRef spec0 3)) (V c (Pipeline.arrRef spec0 4))) i * (linPre2 (V c (Pipeline.arrRef spec0 0)) (V c (Pipeline.arrRef spec0 1)) (V c (Pipeline.arrRef spec0 2)) (V c (Pipeline.arrRef spec0 3)) (V c (Pipeline.arrRef spec0 4))) i) q := by
  rw [acc0_sq V c q 9 h9, zero_add]
  exact (colsum0_blocks V c (fun x => x * x) (Or.inr trivial) q).symm

/-! ## The mean and the variance rows -/

theorem mem_blk0_6 (t : Fin cfg0.N) (i : S1x128.Idx) :
    i ∈ ((cfg0.win 6).blk t).view.set ↔ ∀ a : Fin 2, win0_6.index t a * S1x128.size a ≤ (i a).val ∧ (i a).val < win0_6.index t a * S1x128.size a + S1x128.size a := by
  show i ∈ ((View.whole main_v34_1).slice (win0_6.rect t)).set ↔ _
  rw [View.set_slice_whole, Rect.mem_set_unit]
  exact Iff.rfl

theorem cover0_6 (i : S1x128.Idx) : ∃ t : Fin cfg0.N, (cfg0.win 6).flush t = true ∧ i ∈ ((cfg0.win 6).blk t).view.set := by
  have hi0 : (i 0).val < 1 := (i 0).isLt
  have hi1 : (i 1).val < 128 := (i 1).isLt
  have hN : cfg0.N = 10 := N_0
  let t : Fin cfg0.N := ⟨9, by rw [hN]; omega⟩
  obtain ⟨e00, e01, e10, e11, e20, e21, e30, e31, e40, e41, e50, e51, e60, e61, e70, e71⟩ := idx_facts0 t
  refine ⟨t, (flush0_6 t).mpr rfl, ?_⟩
  rw [mem_blk0_6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 128 ≤ (i 1).val ∧ (i 1).val < win0_6.index t (1 : Fin 2) * 128 + 128; omega

theorem mem_blk0_7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v34_2).slice (win0_7.rect t)).set ↔ _
  rw [View.set_slice_whole, Rect.mem_set_unit]
  exact Iff.rfl

theorem cover0_7 (i : S1x128.Idx) : ∃ t : Fin cfg0.N, (cfg0.win 7).flush t = true ∧ i ∈ ((cfg0.win 7).blk t).view.set := by
  have hi0 : (i 0).val < 1 := (i 0).isLt
  have hi1 : (i 1).val < 128 := (i 1).isLt
  have hN : cfg0.N = 10 := N_0
  let t : Fin cfg0.N := ⟨9, by rw [hN]; omega⟩
  obtain ⟨e00, e01, e10, e11, e20, e21, e30, e31, e40, e41, e50, e51, e60, e61, e70, e71⟩ := idx_facts0 t
  refine ⟨t, (flush0_7 t).mpr rfl, ?_⟩
  rw [mem_blk0_7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 128 ≤ (i 1).val ∧ (i 1).val < win0_7.index t (1 : Fin 2) * 128 + 128; omega

set_option maxHeartbeats 2000000 in
theorem flushed0_6_eq (c : Dev nD) (t : Fin cfg0.N) (hf : (cfg0.win 6).flush t = true) :
    (dat0 (F := Ideal) V c).flushed 6 t = ((cfg0.win 6).blk t).view.read (Elt Ideal) (meanRow (linPre2 (V c (Pipeline.arrRef spec0 0)) (V c (Pipeline.arrRef spec0 1)) (V c (Pipeline.arrRef spec0 2)) (V c (Pipeline.arrRef spec0 3)) (V c (Pipeline.arrRef spec0 4)))) := by
  have hN : t.val < 10 := lt_of_lt_of_eq t.isLt N_0
  have h9 : t.val = 9 := by have := (flush0_6 t).mp hf; omega
  show (cfg0.win 6).cut (grid0.coords t) ((dat0 (F := Ideal) V c).after 6 t) = _
  rw [after0_6, meanAt0_last V c t h9]
  obtain ⟨e00, e01, e10, e11, e20, e21, e30, e31, e40, e41, e50, e51, e60, e61, e70, e71⟩ := idx_facts0 t
  funext j
  obtain ⟨z, q, rfl⟩ : ∃ (z : Fin 1) (q : Fin 128), j = ix2 z q := ⟨j 0, j 1, eq_ix2 j⟩
  obtain rfl : z = 0 := Subsingleton.elim _ _
  have h6 : (((cfg0.win 6).blk t).view.emb (ix2 (0 : Fin 1) q)) = ix2 (0 : Fin 1) q := by
    funext a; apply Fin.ext
    match a with
    | ⟨0, _⟩ => show win0_6.index t (0 : Fin 2) * 1 + 1 * 0 = 0; omega
    | ⟨1, _⟩ => show win0_6.index t (1 : Fin 2) * 128 + 1 * q.val = q.val; omega
  refine (pay0_mean_apply _ q).trans ?_
  have hacc : (accAt0 V c t.val t.isLt).1 (ix2 (0 : Fin 1) q) = colSum (linPre2 (V c (Pipeline.arrRef spec0 0)) (V c (Pipeline.arrRef spec0 1)) (V c (Pipeline.arrRef spec0 2)) (V c (Pipeline.arrRef spec0 3)) (V c (Pipeline.arrRef spec0 4))) q := by
    have e := accAt0_congr V c t.val 9 h9 t.isLt (lt_of_eq_of_lt h9.symm t.isLt)
    rw [e]; exact acc0_last_sum V c q _
  rw [hacc]
  exact (congrArg (meanRow (linPre2 (V c (Pipeline.arrRef spec0 0)) (V c (Pipeline.arrRef spec0 1)) (V c (Pipeline.arrRef spec0 2)) (V c (Pipeline.arrRef spec0 3)) (V c (Pipeline.arrRef spec0 4)))) h6).symm

set_option maxHeartbeats 2000000 in
theorem flushed0_7_eq (c : Dev nD) (t : Fin cfg0.N) (hf : (cfg0.win 7).flush t = true) :
    (dat0 (F := Ideal) V c).flushed 7 t = ((cfg0.win 7).blk t).view.read (Elt Ideal) (varRow (linPre2 (V c (Pipeline.arrRef spec0 0)) (V c (Pipeline.arrRef spec0 1)) (V c (Pipeline.arrRef spec0 2)) (V c (Pipeline.arrRef spec0 3)) (V c (Pipeline.arrRef spec0 4)))) := by
  have hN : t.val < 10 := lt_of_lt_of_eq t.isLt N_0
  have h9 : t.val = 9 := by have := (flush0_7 t).mp hf; omega
  show (cfg0.win 7).cut (grid0.coords t) ((dat0 (F := Ideal) V c).after 7 t) = _
  rw [after0_7, varAt0_last V c t h9]
  obtain ⟨e00, e01, e10, e11, e20, e21, e30, e31, e40, e41, e50, e51, e60, e61, e70, e71⟩ := idx_facts0 t
  funext j
  obtain ⟨z, q, rfl⟩ : ∃ (z : Fin 1) (q : Fin 128), j = ix2 z q := ⟨j 0, j 1, eq_ix2 j⟩
  obtain rfl : z = 0 := Subsingleton.elim _ _
  have h7 : (((cfg0.win 7).blk t).view.emb (ix2 (0 : Fin 1) q)) = ix2 (0 : Fin 1) q := by
    funext a; apply Fin.ext
    match a with
    | ⟨0, _⟩ => show win0_7.index t (0 : Fin 2) * 1 + 1 * 0 = 0; omega
    | ⟨1, _⟩ => show win0_7.index t (1 : Fin 2) * 128 + 1 * q.val = q.val; omega
  refine (pay0_var_apply _ _ q).trans ?_
  have e := accAt0_congr V c t.val 9 h9 t.isLt (lt_of_eq_of_lt h9.symm t.isLt)
  have hacc1 : (accAt0 V c t.val t.isLt).1 (ix2 (0 : Fin 1) q) = colSum (linPre2 (V c (Pipeline.arrRef spec0 0)) (V c (Pipeline.arrRef spec0 1)) (V c (Pipeline.arrRef spec0 2)) (V c (Pipeline.arrRef spec0 3)) (V c (Pipeline.arrRef spec0 4))) q := by rw [e]; exact acc0_last_sum V c q _
  have hacc2 : (accAt0 V c t.val t.isLt).2 (ix2 (0 : Fin 1) q) = colSum (fun i => (linPre2 (V c (Pipeline.arrRef spec0 0)) (V c (Pipeline.arrRef spec0 1)) (V c (Pipeline.arrRef spec0 2)) (V c (Pipeline.arrRef spec0 3)) (V c (Pipeline.arrRef spec0 4))) i * (linPre2 (V c (Pipeline.arrRef spec0 0)) (V c (Pipeline.arrRef spec0 1)) (V c (Pipeline.arrRef spec0 2)) (V c (Pipeline.arrRef spec0 3)) (V c (Pipeline.arrRef spec0 4))) i) q := by rw [e]; exact acc0_last_sq V c q _
  rw [pay0_mean_apply, hacc1, hacc2]
  exact (congrArg (varRow (linPre2 (V c (Pipeline.arrRef spec0 0)) (V c (Pipeline.arrRef spec0 1)) (V c (Pipeline.arrRef spec0 2)) (V c (Pipeline.arrRef spec0 3)) (V c (Pipeline.arrRef spec0 4)))) h7).symm

/-- THE MEAN ROW after the region. -/
theorem final0_mean (c : Dev nD) : (dat0 (F := Ideal) V c).arrAt 6 cfg0.N = meanRow (linPre2 (V c (Pipeline.arrRef spec0 0)) (V c (Pipeline.arrRef spec0 1)) (V c (Pipeline.arrRef spec0 2)) (V c (Pipeline.arrRef spec0 3)) (V c (Pipeline.arrRef spec0 4))) :=
  (dat0 (F := Ideal) V c).arrAt_eq_of_cover 6 _ (fun t hf => flushed0_6_eq V c t hf) (cover0_6)

/-- THE VARIANCE ROW after the region. -/
theorem final0_var (c : Dev nD) : (dat0 (F := Ideal) V c).arrAt 7 cfg0.N = varRow (linPre2 (V c (Pipeline.arrRef spec0 0)) (V c (Pipeline.arrRef spec0 1)) (V c (Pipeline.arrRef spec0 2)) (V c (Pipeline.arrRef spec0 3)) (V c (Pipeline.arrRef spec0 4))) :=
  (dat0 (F := Ideal) V c).arrAt_eq_of_cover 7 _ (fun t hf => flushed0_7_eq V c t hf) (cover0_7)

end Cert.KernelIdeal.Gen

end
-- ==== Proof.IdealStats2Pieces.lean ====
/- Region 2: what each case's run leaves, in the body's own arithmetic.

   The run's pieces read back are: the output tile, the tile agg·Wlᵀ + h·Wrᵀ + b itself; the first accumulator, the one before
   plus the tile's column sums (from zero at the first point); the second, the one before plus the column sums of the
   tile's squares; and at the last point the mean row, the first accumulator times 1/n, and the variance row,
   max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats2
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hzR2 : (![0, 0] : Fin 2 → Nat) = fun _ => 0 := funext fun a => by fin_cases a <;> rfl

set_option maxHeartbeats 2000000 in
theorem out2_A_5_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S5000x128 .f32) (x2 : Vec F S128x128 .f32) (x3 : Vec F S128x128 .f32) (x4 : Vec F S1x128 .f32) :
    out2_A_5 c i arg1 harg1 arg2 harg2 arg3 harg3 arg4 harg4 arg5 harg5 arg6 harg6 arg7 harg7 arg8 harg8 arg9 harg9 arg10 harg10 hc0 hc1 x0 x1 x2 x3 x4 = k2_pay6 x0 x1 x2 x3 x4 := by
  unfold out2_A_5
  rw [View.read_writes_eq_canon _ _ _ (cover2_A_5 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem sout2_A_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S5000x128 .f32) (x2 : Vec F S128x128 .f32) (x3 : Vec F S128x128 .f32) (x4 : Vec F S1x128 .f32) :
    sout2_A_0 c i arg1 harg1 arg2 harg2 arg3 harg3 arg4 harg4 arg5 harg5 arg6 harg6 arg7 harg7 arg8 harg8 arg9 harg9 arg10 harg10 hc0 hc1 x0 x1 x2 x3 x4 = k2_pay7 x0 x1 x2 x3 x4 k2_pay4 := by
  unfold sout2_A_0
  rw [View.read_writes_eq_canon _ _ _ (scover2_A_0 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem sout2_A_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond2_0 i) (hc1 : ¬cond2_1 i)
    (x0 : Vec F S5000x128 .f32) (x1 : Vec F S5000x128 .f32) (x2 : Vec F S128x128 .f32) (x3 : Vec F S128x128 .f32) (x4 : Vec F S1x128 .f32) :
    sout2_A_1 c i arg1 harg1 arg2 harg2 arg3 harg3 arg4 harg4 arg5 harg5 arg6 harg6 arg7 harg7 arg8 harg8 arg9 harg9 arg10 harg10 hc0 hc1 x0 x1 x2 x3 x4 = k2_pay1 (k2_pay6 x0 x1 x2 x3 x4) k2_pay5 := by
  unfold sout2_A_1
  rw [View.read_writes_eq_canon _ _ _ (scover2_A_1 c i arg1 harg1 arg2 harg2 arg3 harg3 arg4 harg4 arg5 harg5 arg6 harg6 arg7 harg7 arg8 harg8 arg9 harg9 arg10 harg10 hc0 hc1 x0 x1 x2 x3 x4)]
  unfold kernelRun2_A
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem out2_B_5_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out2_B_5 c i arg1 harg1 arg2 harg2 arg3 harg3 arg4 harg4 arg5 harg5 arg6 harg6 arg7 harg7 arg8 harg8 arg9 harg9 arg10 harg10 hc0 hc1 x0 x1 x2 x3 x4 xs0 xs1 = k2_pay6 x0 x1 x2 x3 x4 := by
  unfold out2_B_5
  rw [View.read_writes_eq_canon _ _ _ (cover2_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem sout2_B_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout2_B_0 c i arg1 harg1 arg2 harg2 arg3 harg3 arg4 harg4 arg5 harg5 arg6 harg6 arg7 harg7 arg8 harg8 arg9 harg9 arg10 harg10 hc0 hc1 x0 x1 x2 x3 x4 xs0 xs1 = k2_pay7 x0 x1 x2 x3 x4 xs0 := by
  unfold sout2_B_0
  rw [View.read_writes_eq_canon _ _ _ (scover2_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem sout2_B_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : ¬cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout2_B_1 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay6 x0 x1 x2 x3 x4) xs1 := by
  unfold sout2_B_1
  rw [View.read_writes_eq_canon _ _ _ (scover2_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_B
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem out2_C_5_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out2_C_5 c i arg1 harg1 arg2 harg2 arg3 harg3 arg4 harg4 arg5 harg5 arg6 harg6 arg7 harg7 arg8 harg8 arg9 harg9 arg10 harg10 hc0 hc1 x0 x1 x2 x3 x4 xs0 xs1 = k2_pay6 x0 x1 x2 x3 x4 := by
  unfold out2_C_5
  rw [View.read_writes_eq_canon _ _ _ (cover2_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem sout2_C_0_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout2_C_0 c i arg1 harg1 arg2 harg2 arg3 harg3 arg4 harg4 arg5 harg5 arg6 harg6 arg7 harg7 arg8 harg8 arg9 harg9 arg10 harg10 hc0 hc1 x0 x1 x2 x3 x4 xs0 xs1 = k2_pay7 x0 x1 x2 x3 x4 xs0 := by
  unfold sout2_C_0
  rw [View.read_writes_eq_canon _ _ _ (scover2_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem sout2_C_1_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout2_C_1 c i arg1 harg1 arg2 harg2 arg3 harg3 arg4 harg4 arg5 harg5 arg6 harg6 arg7 harg7 arg8 harg8 arg9 harg9 arg10 harg10 hc0 hc1 x0 x1 x2 x3 x4 xs0 xs1 = k2_pay1 (k2_pay6 x0 x1 x2 x3 x4) xs1 := by
  unfold sout2_C_1
  rw [View.read_writes_eq_canon _ _ _ (scover2_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem out2_C_6_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out2_C_6 c i arg1 harg1 arg2 harg2 arg3 harg3 arg4 harg4 arg5 harg5 arg6 harg6 arg7 harg7 arg8 harg8 arg9 harg9 arg10 harg10 hc0 hc1 x0 x1 x2 x3 x4 xs0 xs1 = k2_pay2 (k2_pay7 x0 x1 x2 x3 x4 xs0) := by
  unfold out2_C_6
  rw [View.read_writes_eq_canon _ _ _ (cover2_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

set_option maxHeartbeats 2000000 in
theorem out2_C_7_eq (c : Dev nD) (i : grid2.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond2_0 i) (hc1 : cond2_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out2_C_7 c i arg1 harg1 arg2 harg2 arg3 harg3 arg4 harg4 arg5 harg5 arg6 harg6 arg7 harg7 arg8 harg8 arg9 harg9 arg10 harg10 hc0 hc1 x0 x1 x2 x3 x4 xs0 xs1 = k2_pay3 (k2_pay7 x0 x1 x2 x3 x4 xs0) (k2_pay1 (k2_pay6 x0 x1 x2 x3 x4) xs1) := by
  unfold out2_C_7
  rw [View.read_writes_eq_canon _ _ _ (cover2_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun2_C
  dsimp only
  sl_unfold_words
  simp only [View.canon_cons_unit_zero (S := S5000x128) hzR2, View.canon_unit_zero (S := S5000x128) hzR2, View.canon_cons_unit_zero (S := S128x128) hzR2, View.canon_unit_zero (S := S128x128) hzR2, View.canon_cons_unit_zero (S := S1x128) hzR2, View.canon_unit_zero (S := S1x128) hzR2, View.readCov_unit_zero (S := S1x128) _ hzR2, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR2, View.ld_unit_zero (S := S128x128) hzR2, View.ld_unit_zero (S := S1x128) hzR2]

end Cert.KernelIdeal.Gen

end
-- ==== Proof.IdealStats2Fold.lean ====
/- Region 2: the region's outputs point by point, in the body's own arithmetic.

   The output tile after point t is the tile agg·Wlᵀ + h·Wrᵀ + b of that point's blocks.  The two accumulators after the first
   point are the tile's column sums, and the column sums of its squares, added to zero; after each later point, what
   they were plus that point's.  The last point stores the mean row, the first accumulator times 1/n, and the variance
   row, max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats2Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

theorem tileAt2_eq (c : Dev nD) (t : Fin cfg2.N) : tileAt2 V c t = k2_pay6 (iblk2 V c 0 t) (iblk2 V c 1 t) (iblk2 V c 2 t) (iblk2 V c 3 t) (iblk2 V c 4 t) := by
  have hN : t.val < 10 := lt_of_lt_of_eq t.isLt N_2
  unfold tileAt2
  split_ifs with h0 h1 h1
  · omega
  · exact out2_A_5_eq c _ _ _ _ _ _ _ _ _ _ _ _ _ _ _ _ _ _ _ _ _ _ _ _ _ _ _ _
  · exact out2_C_5_eq c _ _ _ _ _ _ _ _ _ _ _ _ _ _ _ _ _ _ _ _ _ _ _ _ _ _ _ _ _ _
  · exact out2_B_5_eq c _ _ _ _ _ _ _ _ _ _ _ _ _ _ _ _ _ _ _ _ _ _ _ _ _ _ _ _ _ _

theorem accAt2_first (c : Dev nD) (t : Fin cfg2.N) (h0 : t.val = 0) :
    accAt2 V c t.val t.isLt = (k2_pay7 (iblk2 V c 0 t) (iblk2 V c 1 t) (iblk2 V c 2 t) (iblk2 V c 3 t) (iblk2 V c 4 t) k2_pay4, k2_pay1 (k2_pay6 (iblk2 V c 0 t) (iblk2 V c 1 t) (iblk2 V c 2 t) (iblk2 V c 3 t) (iblk2 V c 4 t)) k2_pay5) := by
  rw [accAt2_A V c t h0 (by omega)]
  exact congrArg₂ Prod.mk (sout2_A_0_eq c _ _ _ _ _ _ _ _ _ _ _ _ _ _ _ _ _ _ _ _ _ _ _ _ _ _ _ _) (sout2_A_1_eq c _ _ _ _ _ _ _ _ _ _ _ _ _ _ _ _ _ _ _ _ _ _ _ _ _ _ _ _)

theorem accAt2_next (c : Dev nD) (t : Fin cfg2.N) (h0 : ¬t.val = 0) :
    accAt2 V c t.val t.isLt = (k2_pay7 (iblk2 V c 0 t) (iblk2 V c 1 t) (iblk2 V c 2 t) (iblk2 V c 3 t) (iblk2 V c 4 t) (accAt2 V c (t.val - 1) (Nat.lt_of_le_of_lt (Nat.sub_le _ _) t.isLt)).1, k2_pay1 (k2_pay6 (iblk2 V c 0 t) (iblk2 V c 1 t) (iblk2 V c 2 t) (iblk2 V c 3 t) (iblk2 V c 4 t)) (accAt2 V c (t.val - 1) (Nat.lt_of_le_of_lt (Nat.sub_le _ _) t.isLt)).2) := by
  by_cases h1 : t.val = 9
  · rw [accAt2_C V c t h0 h1]
    exact congrArg₂ Prod.mk (sout2_C_0_eq c _ _ _ _ _ _ _ _ _ _ _ _ _ _ _ _ _ _ _ _ _ _ _ _ _ _ _ _ _ _) (sout2_C_1_eq c _ _ _ _ _ _ _ _ _ _ _ _ _ _ _ _ _ _ _ _ _ _ _ _ _ _ _ _ _ _)
  · rw [accAt2_B V c t h0 h1]
    exact congrArg₂ Prod.mk (sout2_B_0_eq c _ _ _ _ _ _ _ _ _ _ _ _ _ _ _ _ _ _ _ _ _ _ _ _ _ _ _ _ _ _) (sout2_B_1_eq c _ _ _ _ _ _ _ _ _ _ _ _ _ _ _ _ _ _ _ _ _ _ _ _ _ _ _ _ _ _)

theorem meanAt2_last (c : Dev nD) (t : Fin cfg2.N) (h1 : t.val = 9) :
    meanAt2 V c t = k2_pay2 ((accAt2 V c t.val t.isLt).1) := by
  have h0 : ¬t.val = 0 := by omega
  simp only [meanAt2, dif_neg h0, dif_pos h1]
  rw [out2_C_6_eq, accAt2_next V c t h0]

theorem varAt2_last (c : Dev nD) (t : Fin cfg2.N) (h1 : t.val = 9) :
    varAt2 V c t = k2_pay3 ((accAt2 V c t.val t.isLt).1) ((accAt2 V c t.val t.isLt).2) := by
  have h0 : ¬t.val = 0 := by omega
  simp only [varAt2, dif_neg h0, dif_pos h1]
  rw [out2_C_7_eq, accAt2_next V c t h0]

end Cert.KernelIdeal.Gen

end
-- ==== Proof.IdealStats2Value.lean ====
/- Region 2 at the extended reals: its three arrays after the region as functions of the five arrays it reads.

   Entry (p, q) of the tile the body forms at point t is Σ_k agg(5000t+p, k)·Wl(q, k) + Σ_k h(5000t+p, k)·Wr(q, k) + b(0, q)
   (the casts to bf16 and back are the identity, the transpose moves the weight's index, a matrix product into a zero
   accumulator is its sum, the bias row is spread over the tile's rows): entry (5000t+p, q) of the whole pre-activation.
   The ten tiles cover the output array.  The first accumulator after point n holds, in column q, zero plus the sums of
   column q over the tiles 0 … n, so after the last point the column sum of the whole pre-activation; the second the
   same for the squares.  The last point stores the mean row, that column sum times 1/50000, and the variance row,
   max(sum of squares/50000 − mean², 0). -/
import proofs.«180021_j37692632990117_2_alg».proof.Proof.IdealStats2Fold
import proofs.«180021_j37692632990117_2_alg».proof.Proof.SpecNet
import proofs.«180021_j37692632990117_2_alg».proof.Proof.LibGraphMath
import Idealize.ShloMosaic.PureOps.Ideal.Laws
import Idealize.ShloMosaic.PureOps.IdealRules
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

/-! ## The body's arithmetic at an entry -/

theorem inv_n2 : Named.named (F := Ideal) κ "inv_50000" (φ := .f32) 0x37A7C5AC#32 = ((1 / 50000 : ℝ) : EReal) :=
  IdealRules.named_const.ideal_named_scalar _ _ _ _ rfl

/-- The tile's entry: two products with the transposed weights, then the bias row. -/
theorem pay2_tile_apply (x0 x1 : Vec Ideal S5000x128 .f32) (x2 x3 : Vec Ideal S128x128 .f32) (x4 : Vec Ideal S1x128 .f32) (p : Fin 5000) (j : Fin 128) :
    k2_pay6 (F := Ideal) x0 x1 x2 x3 x4 (ix2 p j) = (∑ k : Fin 128, x0 (ix2 p k) * x2 (ix2 j k) + ∑ k : Fin 128, x1 (ix2 p k) * x3 (ix2 j k)) + x4 (ix2 (0 : Fin 1) j) := by
  unfold k2_pay6
  dsimp only
  refine congrArg₂ (· + ·) (congrArg₂ (· + ·) ?_ ?_) ?_
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine (congrFun (shapeCast_self x0 _) _).trans (congrArg x0 ?_)
      funext a; apply Fin.ext
      match a with
      | ⟨0, _⟩ => exact hl0
      | ⟨1, _⟩ => exact hl.trans hk0
    · refine (transpose_apply _ _ _ _ (ix2 j k) (fun b => ?_)).trans (congrFun (shapeCast_self x2 _) _)
      match b with
      | ⟨0, _⟩ => exact (hr.trans hk0).symm
      | ⟨1, _⟩ => exact hr1.symm
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine (congrFun (shapeCast_self x1 _) _).trans (congrArg x1 ?_)
      funext a; apply Fin.ext
      match a with
      | ⟨0, _⟩ => exact hl0
      | ⟨1, _⟩ => exact hl.trans hk0
    · refine (transpose_apply _ _ _ _ (ix2 j k) (fun b => ?_)).trans (congrFun (shapeCast_self x3 _) _)
      match b with
      | ⟨0, _⟩ => exact (hr.trans hk0).symm
      | ⟨1, _⟩ => exact hr1.symm
  · refine (broadcastTo_apply _ _ _ (ix2 (0 : Fin 1) j) (fun a => ?_)).trans (congrFun (shapeCast_self x4 _) _)
    match a with
    | ⟨0, _⟩ => rfl
    | ⟨1, _⟩ => rfl

/-- A column sum of a tile, kept as a row. -/
theorem colsum2_apply (y : FVec Ideal S5000x128 .f32) (h2 : FKind.Formats FTy.f32) (h3) (q : Fin 128) :
    shapeCast S1x128 (multiReduction FKind.add [0] S128 y (0#32) reduces_S5000x128_S128 h2 h3) shapeCasts_S128_S1x128 (ix2 (0 : Fin 1) q)
      = ∑ p : Fin 5000, y (ix2 p q) := by
  refine (shapeCast_apply _ _ _ (ix1 q) ?_).trans ?_
  · rw [Shape.rowMajor_val_one, Shape.rowMajor_val_two]
    show (q : ℕ) = (0 : ℕ) * 128 + (q : ℕ)
    omega
  · refine (Ideal.multiReduction_add_single _ _ _ _ _ _).trans ?_
    refine Finset.sum_congr rfl fun p _ => congrArg y (funext fun a => Fin.ext ?_)
    match a with
    | ⟨0, _⟩ => rfl
    | ⟨1, _⟩ => rfl

theorem pay2_sum_apply (x0 x1 : Vec Ideal S5000x128 .f32) (x2 x3 : Vec Ideal S128x128 .f32) (x4 s : Vec Ideal S1x128 .f32) (q : Fin 128) :
    k2_pay7 (F := Ideal) x0 x1 x2 x3 x4 s (ix2 (0 : Fin 1) q) = s (ix2 (0 : Fin 1) q) + ∑ p : Fin 5000, k2_pay6 (F := Ideal) x0 x1 x2 x3 x4 (ix2 p q) := by
  unfold k2_pay7
  dsimp only
  refine (congrFun (shapeCast_self _ _) _).trans ?_
  exact congrArg₂ (· + ·) rfl (colsum2_apply _ _ _ q)

theorem pay2_sq_apply (x0 x1 : Vec Ideal S5000x128 .f32) (x2 x3 : Vec Ideal S128x128 .f32) (x4 s : Vec Ideal S1x128 .f32) (q : Fin 128) :
    k2_pay1 (F := Ideal) (k2_pay6 x0 x1 x2 x3 x4) s (ix2 (0 : Fin 1) q) = s (ix2 (0 : Fin 1) q) + ∑ p : Fin 5000, k2_pay6 (F := Ideal) x0 x1 x2 x3 x4 (ix2 p q) * k2_pay6 (F := Ideal) x0 x1 x2 x3 x4 (ix2 p q) := by
  unfold k2_pay1
  dsimp only
  refine (congrFun (shapeCast_self _ _) _).trans ?_
  exact congrArg₂ (· + ·) rfl (colsum2_apply _ _ _ q)

theorem pay2_mean_apply (s : Vec Ideal S1x128 .f32) (q : Fin 128) :
    k2_pay2 (F := Ideal) s (ix2 (0 : Fin 1) q) = s (ix2 (0 : Fin 1) q) * ((1 / 50000 : ℝ) : EReal) := by
  unfold k2_pay2
  show s (ix2 (0 : Fin 1) q) * Named.named (F := Ideal) κ "inv_50000" (φ := .f32) 0x37A7C5AC#32 = _
  rw [inv_n2]

theorem pay2_var_apply (s0 s1 : Vec Ideal S1x128 .f32) (q : Fin 128) :
    k2_pay3 (F := Ideal) s0 s1 (ix2 (0 : Fin 1) q) = max (s1 (ix2 (0 : Fin 1) q) * ((1 / 50000 : ℝ) : EReal) - k2_pay2 (F := Ideal) s0 (ix2 (0 : Fin 1) q) * k2_pay2 (F := Ideal) s0 (ix2 (0 : Fin 1) q)) (Ideal.ofBits .f32 0x00000000#32) := by
  unfold k2_pay3
  show max (s1 (ix2 (0 : Fin 1) q) * Named.named (F := Ideal) κ "inv_50000" (φ := .f32) 0x37A7C5AC#32 - _) _ = _
  rw [inv_n2]
  rfl

theorem pay2_zero0 (q : Fin 128) : k2_pay4 (F := Ideal) (ix2 (0 : Fin 1) q) = 0 := by
  unfold k2_pay4
  show Ideal.ofBits .f32 0x00000000#32 = 0
  exact Ideal.ofBits_zero_f32
theorem pay2_zero1 (q : Fin 128) : k2_pay5 (F := Ideal) (ix2 (0 : Fin 1) q) = 0 := by
  unfold k2_pay5
  show Ideal.ofBits .f32 0x00000000#32 = 0
  exact Ideal.ofBits_zero_f32

/-- ONE ENTRY of a tile over any arrays and blocks: when the two row blocks read row r of their arrays and the weight and
    bias blocks are their whole arrays, the tile's entry (p, q) is the pre-activation's entry (r, q). -/
theorem point2_tile (a0 a1 : S50000x128.Idx → EReal) (a2 a3 : S128x128.Idx → EReal) (a4 : S1x128.Idx → EReal)
    (x0 x1 : Vec Ideal S5000x128 .f32) (x2 x3 : Vec Ideal S128x128 .f32) (x4 : Vec Ideal S1x128 .f32) (p : Fin 5000) (q : Fin 128) (r : Fin 50000)
    (h0 : ∀ k : Fin 128, x0 (ix2 p k) = a0 (ix2 r k)) (h1 : ∀ k : Fin 128, x1 (ix2 p k) = a1 (ix2 r k))
    (h2 : ∀ k : Fin 128, x2 (ix2 q k) = a2 (ix2 q k)) (h3 : ∀ k : Fin 128, x3 (ix2 q k) = a3 (ix2 q k))
    (h4 : x4 (ix2 (0 : Fin 1) q) = a4 (ix2 (0 : Fin 1) q)) :
    k2_pay6 (F := Ideal) x0 x1 x2 x3 x4 (ix2 p q) = linPre2 a0 a1 a2 a3 a4 (ix2 r q) := by
  rw [pay2_tile_apply]
  show _ = (∑ k : Fin 128, a0 (ix2 r k) * a2 (ix2 q k) + ∑ k : Fin 128, a1 (ix2 r k) * a3 (ix2 q k)) + a4 (ix2 (0 : Fin 1) q)
  simp only [h0, h1, h2, h3, h4]

-- the TensorCore's buffer contents when the region is entered
variable (V : (c : Dev nD) → (b : Ref sig .tc) → Buf (Elt Ideal) ((c : Thread nD τ).loc b))

/-- The printed index maps over the ten points: the two row windows and the output tile are block (t, 0), the weights, the
    bias, the mean and the variance block (0, 0). -/
theorem idx_facts2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0 :=
  (by decide +kernel : ∀ t : Fin grid2.N, _)

set_option maxHeartbeats 2000000 in
/-- Entry (p, q) of the tile formed at point t is entry (5000 t + p, q) of the whole pre-activation. -/
theorem tile2_entry (c : Dev nD) (t : Fin cfg2.N) (p : Fin 5000) (q : Fin 128) (hr : t.val * 5000 + p.val < 50000) :
    k2_pay6 (F := Ideal) (iblk2 V c 0 t) (iblk2 V c 1 t) (iblk2 V c 2 t) (iblk2 V c 3 t) (iblk2 V c 4 t) (ix2 p q) = (linPre2 (V c (Pipeline.arrRef spec2 0)) (V c (Pipeline.arrRef spec2 1)) (V c (Pipeline.arrRef spec2 2)) (V c (Pipeline.arrRef spec2 3)) (V c (Pipeline.arrRef spec2 4))) (ix2 (⟨t.val * 5000 + p.val, hr⟩ : Fin 50000) q) := by
  obtain ⟨e00, e01, e10, e11, e20, e21, e30, e31, e40, e41, e50, e51, e60, e61, e70, e71⟩ := idx_facts2 t
  have h0 : ∀ k : Fin 128, (((cfg2.win 0).blk t).view.emb (ix2 p k)) = ix2 (⟨t.val * 5000 + p.val, hr⟩ : Fin 50000) k := fun k => by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ k : Fin 128, (((cfg2.win 1).blk t).view.emb (ix2 p k)) = ix2 (⟨t.val * 5000 + p.val, hr⟩ : Fin 50000) k := fun k => by
    funext a; apply Fin.ext
    match a with
    | ⟨0, _⟩ => show win2_1.index t (0 : Fin 2) * 5000 + 1 * p.val = t.val * 5000 + p.val; omega
    | ⟨1, _⟩ => show win2_1.index t (1 : Fin 2) * 128 + 1 * k.val = k.val; omega
  have h2 : ∀ k : Fin 128, (((cfg2.win 2).blk t).view.emb (ix2 q k)) = ix2 q k := fun k => by
    funext a; apply Fin.ext
    match a with
    | ⟨0, _⟩ => show win2_2.index t (0 : Fin 2) * 128 + 1 * q.val = q.val; omega
    | ⟨1, _⟩ => show win2_2.index t (1 : Fin 2) * 128 + 1 * k.val = k.val; omega
  have h3 : ∀ k : Fin 128, (((cfg2.win 3).blk t).view.emb (ix2 q k)) = ix2 q k := fun k => by
    funext a; apply Fin.ext
    match a with
    | ⟨0, _⟩ => show win2_3.index t (0 : Fin 2) * 128 + 1 * q.val = q.val; omega
    | ⟨1, _⟩ => show win2_3.index t (1 : Fin 2) * 128 + 1 * k.val = k.val; omega
  have h4 : (((cfg2.win 4).blk t).view.emb (ix2 (0 : Fin 1) q)) = ix2 (0 : Fin 1) q := by
    funext a; apply Fin.ext
    match a with
    | ⟨0, _⟩ => show win2_4.index t (0 : Fin 2) * 1 + 1 * 0 = 0; omega
    | ⟨1, _⟩ => show win2_4.index t (1 : Fin 2) * 128 + 1 * q.val = q.val; omega
  exact point2_tile _ _ _ _ _ (iblk2 V c 0 t) (iblk2 V c 1 t) (iblk2 V c 2 t) (iblk2 V c 3 t) (iblk2 V c 4 t) p q (⟨t.val * 5000 + p.val, hr⟩ : Fin 50000)
    (fun k => congrArg (V c (Pipeline.arrRef spec2 0)) (h0 k)) (fun k => congrArg (V c (Pipeline.arrRef spec2 1)) (h1 k)) (fun k => congrArg (V c (Pipeline.arrRef spec2 2)) (h2 k)) (fun k => congrArg (V c (Pipeline.arrRef spec2 3)) (h3 k)) (congrArg (V c (Pipeline.arrRef spec2 4)) h4)

/-! ## The output tile array -/

set_option maxHeartbeats 2000000 in
theorem flushed2_5_eq (c : Dev nD) (t : Fin cfg2.N) :
    (dat2 (F := Ideal) V c).flushed 5 t = ((cfg2.win 5).blk t).view.read (Elt Ideal) (linPre2 (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 (F := Ideal) V c).after 5 t) = _
  rw [after2_5, tileAt2_eq]
  obtain ⟨e00, e01, e10, e11, e20, e21, e30, e31, e40, e41, e50, e51, e60, e61, e70, e71⟩ := idx_facts2 t
  have ht : t.val < 10 := lt_of_lt_of_eq t.isLt N_2
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h5 : (((cfg2.win 5).blk t).view.emb (ix2 p q)) = ix2 (⟨t.val * 5000 + p.val, hr⟩ : Fin 50000) q := by
    funext a; apply Fin.ext
    match a with
    | ⟨0, _⟩ => show win2_5.index t (0 : Fin 2) * 5000 + 1 * p.val = t.val * 5000 + p.val; omega
    | ⟨1, _⟩ => show win2_5.index t (1 : Fin 2) * 128 + 1 * q.val = q.val; omega
  exact (tile2_entry V c t p q hr).trans (congrArg (linPre2 (V c (Pipeline.arrRef spec2 0)) (V c (Pipeline.arrRef spec2 1)) (V c (Pipeline.arrRef spec2 2)) (V c (Pipeline.arrRef spec2 3)) (V c (Pipeline.arrRef spec2 4))) h5.symm)

theorem mem_blk2_5 (t : Fin cfg2.N) (i : S50000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v65_0).slice (win2_5.rect t)).set ↔ _
  rw [View.set_slice_whole, Rect.mem_set_unit]
  exact Iff.rfl

theorem cover2_5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  have htv : t.val = (i 0).val / 5000 := rfl
  obtain ⟨e00, e01, e10, e11, e20, e21, e30, e31, e40, e41, e50, e51, e60, e61, e70, e71⟩ := idx_facts2 t
  refine ⟨t, flush2_5 t, ?_⟩
  rw [mem_blk2_5]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE PRE-ACTIVATION ARRAY after the region. -/
theorem final2_pre (c : Dev nD) : (dat2 (F := Ideal) V c).arrAt 5 cfg2.N = (linPre2 (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 5 _ (fun t _ => flushed2_5_eq V c t) (cover2_5)

end Cert.KernelIdeal.Gen

end
-- ==== Proof.IdealStats2Stat.lean ====
/- Region 2 at the extended reals, continued: the column statistics.

   After point n the first accumulator holds, in column q, zero plus the column sums of the tiles 0 … n — by the tile's
   entries, sums of entries of the whole pre-activation over the rows 5000·t … 5000·t + 4999 —, so after the last point
   the column sum over all 50000 rows; the second accumulator the same for the squares.  The last point's mean row is the
   column sum times 1/50000, its variance row max(sum of squares/50000 − mean², 0): the two rows the windows write back. -/
import proofs.«180021_j37692632990117_2_alg».proof.Proof.IdealStats2Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

/-- The pre-activation's entry at a natural row number, zero beyond the array. -/
def preN2 (c : Dev nD) (r : ℕ) (q : Fin 128) : EReal := if h : r < 50000 then (linPre2 (V c (Pipeline.arrRef spec2 0)) (V c (Pipeline.arrRef spec2 1)) (V c (Pipeline.arrRef spec2 2)) (V c (Pipeline.arrRef spec2 3)) (V c (Pipeline.arrRef spec2 4))) (ix2 (⟨r, h⟩ : Fin 50000) q) else 0

theorem accAt2_congr (c : Dev nD) (a b : ℕ) (h : a = b) (ha : a < cfg2.N) (hb : b < cfg2.N) : accAt2 V c a ha = accAt2 V c b hb := by
  subst h; rfl

/-- A tile's entries are the pre-activation's, row by row. -/
theorem tile2_row (c : Dev nD) (t : Fin cfg2.N) (p : Fin 5000) (q : Fin 128) :
    k2_pay6 (F := Ideal) (iblk2 V c 0 t) (iblk2 V c 1 t) (iblk2 V c 2 t) (iblk2 V c 3 t) (iblk2 V c 4 t) (ix2 p q) = preN2 V c (5000 * t.val + p.val) q := by
  have ht : t.val < 10 := lt_of_lt_of_eq t.isLt N_2
  have hp : p.val < 5000 := p.isLt
  have hr : t.val * 5000 + p.val < 50000 := by omega
  have hr' : 5000 * t.val + p.val < 50000 := by omega
  rw [tile2_entry V c t p q hr]
  unfold preN2
  rw [dif_pos hr']
  exact congrArg (fun r => (linPre2 (V c (Pipeline.arrRef spec2 0)) (V c (Pipeline.arrRef spec2 1)) (V c (Pipeline.arrRef spec2 2)) (V c (Pipeline.arrRef spec2 3)) (V c (Pipeline.arrRef spec2 4))) (ix2 r q)) (Fin.ext (by show t.val * 5000 + p.val = 5000 * t.val + p.val; omega))

/-- The first accumulator after point n: zero plus the column sums of the tiles up to n. -/
theorem acc2_sum (c : Dev nD) (q : Fin 128) (n : ℕ) (hn : n < cfg2.N) :
    (accAt2 V c n hn).1 (ix2 (0 : Fin 1) q) = 0 + ∑ t : Fin (n + 1), ∑ p : Fin 5000, preN2 V c (5000 * t.val + p.val) q := by
  have key := Cert.KMath.acc_eq_sum (fun k => if hk : k < cfg2.N then (accAt2 V c k hk).1 (ix2 (0 : Fin 1) q) else 0)
    (fun k => ∑ p : Fin 5000, preN2 V c (5000 * k + p.val) q) 0 n ?h0 ?hstep
  · simpa only [dif_pos hn] using key
  case h0 =>
    have h0N : 0 < cfg2.N := Nat.lt_of_le_of_lt (Nat.zero_le _) hn
    show (if hk : 0 < cfg2.N then (accAt2 V c 0 hk).1 (ix2 (0 : Fin 1) q) else 0) = 0 + _
    rw [dif_pos h0N, accAt2_first V c ⟨0, h0N⟩ rfl]
    show k2_pay7 (F := Ideal) _ _ _ _ _ _ (ix2 (0 : Fin 1) q) = _
    rw [pay2_sum_apply, pay2_zero0]
    exact congrArg (0 + ·) (Finset.sum_congr rfl fun p _ => tile2_row V c ⟨0, h0N⟩ p q)
  case hstep =>
    intro t ht
    have h1 : t + 1 < cfg2.N := Nat.lt_of_le_of_lt (Nat.succ_le_of_lt ht) hn
    have h2 : t < cfg2.N := Nat.lt_of_succ_lt h1
    show (if hk : t + 1 < cfg2.N then (accAt2 V c (t + 1) hk).1 (ix2 (0 : Fin 1) q) else 0) = (if hk : t < cfg2.N then (accAt2 V c t hk).1 (ix2 (0 : Fin 1) q) else 0) + _
    rw [dif_pos h1, dif_pos h2, accAt2_next V c ⟨t + 1, h1⟩ (Nat.succ_ne_zero t)]
    show k2_pay7 (F := Ideal) _ _ _ _ _ _ (ix2 (0 : Fin 1) q) = _
    rw [pay2_sum_apply]
    refine congrArg₂ (· + ·) ?_ (Finset.sum_congr rfl fun p _ => tile2_row V c ⟨t + 1, h1⟩ p q)
    exact congrArg (fun z => z.1 (ix2 (0 : Fin 1) q)) (accAt2_congr V c _ _ (Nat.add_sub_cancel t 1) _ h2)

/-- The second accumulator after point n: zero plus the column sums of the tiles' squares. -/
theorem acc2_sq (c : Dev nD) (q : Fin 128) (n : ℕ) (hn : n < cfg2.N) :
    (accAt2 V c n hn).2 (ix2 (0 : Fin 1) q) = 0 + ∑ t : Fin (n + 1), ∑ p : Fin 5000, preN2 V c (5000 * t.val + p.val) q * preN2 V c (5000 * t.val + p.val) q := by
  have key := Cert.KMath.acc_eq_sum (fun k => if hk : k < cfg2.N then (accAt2 V c k hk).2 (ix2 (0 : Fin 1) q) else 0)
    (fun k => ∑ p : Fin 5000, preN2 V c (5000 * k + p.val) q * preN2 V c (5000 * k + p.val) q) 0 n ?h0 ?hstep
  · simpa only [dif_pos hn] using key
  case h0 =>
    have h0N : 0 < cfg2.N := Nat.lt_of_le_of_lt (Nat.zero_le _) hn
    show (if hk : 0 < cfg2.N then (accAt2 V c 0 hk).2 (ix2 (0 : Fin 1) q) else 0) = 0 + _
    rw [dif_pos h0N, accAt2_first V c ⟨0, h0N⟩ rfl]
    show k2_pay1 (F := Ideal) (k2_pay6 _ _ _ _ _) _ (ix2 (0 : Fin 1) q) = _
    rw [pay2_sq_apply, pay2_zero1]
    exact congrArg (0 + ·) (Finset.sum_congr rfl fun p _ => by rw [tile2_row V c ⟨0, h0N⟩ p q])
  case hstep =>
    intro t ht
    have h1 : t + 1 < cfg2.N := Nat.lt_of_le_of_lt (Nat.succ_le_of_lt ht) hn
    have h2 : t < cfg2.N := Nat.lt_of_succ_lt h1
    show (if hk : t + 1 < cfg2.N then (accAt2 V c (t + 1) hk).2 (ix2 (0 : Fin 1) q) else 0) = (if hk : t < cfg2.N then (accAt2 V c t hk).2 (ix2 (0 : Fin 1) q) else 0) + _
    rw [dif_pos h1, dif_pos h2, accAt2_next V c ⟨t + 1, h1⟩ (Nat.succ_ne_zero t)]
    show k2_pay1 (F := Ideal) (k2_pay6 _ _ _ _ _) _ (ix2 (0 : Fin 1) q) = _
    rw [pay2_sq_apply]
    refine congrArg₂ (· + ·) ?_ (Finset.sum_congr rfl fun p _ => by rw [tile2_row V c ⟨t + 1, h1⟩ p q])
    exact congrArg (fun z => z.2 (ix2 (0 : Fin 1) q)) (accAt2_congr V c _ _ (Nat.add_sub_cancel t 1) _ h2)

/-- A column sum over the 50000 rows is the sum over the ten tiles of 5000 rows. -/
theorem colsum2_blocks (c : Dev nD) (f : EReal → EReal) (hf : f 0 = 0 ∨ True) (q : Fin 128) :
    (∑ r : Fin 50000, f ((linPre2 (V c (Pipeline.arrRef spec2 0)) (V c (Pipeline.arrRef spec2 1)) (V c (Pipeline.arrRef spec2 2)) (V c (Pipeline.arrRef spec2 3)) (V c (Pipeline.arrRef spec2 4))) (ix2 r q))) = ∑ t : Fin 10, ∑ p : Fin 5000, f (preN2 V c (5000 * t.val + p.val) q) := by
  rw [Cert.KMath.sum_blocks_gen 10 5000 50000 (by norm_num) (fun r => f (preN2 V c r q))]
  refine Finset.sum_congr rfl fun r _ => ?_
  unfold preN2
  rw [dif_pos r.isLt]

theorem acc2_last_sum (c : Dev nD) (q : Fin 128) (h9 : 9 < cfg2.N) :
    (accAt2 V c 9 h9).1 (ix2 (0 : Fin 1) q) = colSum (linPre2 (V c (Pipeline.arrRef spec2 0)) (V c (Pipeline.arrRef spec2 1)) (V c (Pipeline.arrRef spec2 2)) (V c (Pipeline.arrRef spec2 3)) (V c (Pipeline.arrRef spec2 4))) q := by
  rw [acc2_sum V c q 9 h9, zero_add]
  exact (colsum2_blocks V c (fun x => x) (Or.inr trivial) q).symm

theorem acc2_last_sq (c : Dev nD) (q : Fin 128) (h9 : 9 < cfg2.N) :
    (accAt2 V c 9 h9).2 (ix2 (0 : Fin 1) q) = colSum (fun i => (linPre2 (V c (Pipeline.arrRef spec2 0)) (V c (Pipeline.arrRef spec2 1)) (V c (Pipeline.arrRef spec2 2)) (V c (Pipeline.arrRef spec2 3)) (V c (Pipeline.arrRef spec2 4))) i * (linPre2 (V c (Pipeline.arrRef spec2 0)) (V c (Pipeline.arrRef spec2 1)) (V c (Pipeline.arrRef spec2 2)) (V c (Pipeline.arrRef spec2 3)) (V c (Pipeline.arrRef spec2 4))) i) q := by
  rw [acc2_sq V c q 9 h9, zero_add]
  exact (colsum2_blocks V c (fun x => x * x) (Or.inr trivial) q).symm

/-! ## The mean and the variance rows -/

theorem mem_blk2_6 (t : Fin cfg2.N) (i : S1x128.Idx) :
    i ∈ ((cfg2.win 6).blk t).view.set ↔ ∀ a : Fin 2, win2_6.index t a * S1x128.size a ≤ (i a).val ∧ (i a).val < win2_6.index t a * S1x128.size a + S1x128.size a := by
  show i ∈ ((View.whole main_v65_1).slice (win2_6.rect t)).set ↔ _
  rw [View.set_slice_whole, Rect.mem_set_unit]
  exact Iff.rfl

theorem cover2_6 (i : S1x128.Idx) : ∃ t : Fin cfg2.N, (cfg2.win 6).flush t = true ∧ i ∈ ((cfg2.win 6).blk t).view.set := by
  have hi0 : (i 0).val < 1 := (i 0).isLt
  have hi1 : (i 1).val < 128 := (i 1).isLt
  have hN : cfg2.N = 10 := N_2
  let t : Fin cfg2.N := ⟨9, by rw [hN]; omega⟩
  obtain ⟨e00, e01, e10, e11, e20, e21, e30, e31, e40, e41, e50, e51, e60, e61, e70, e71⟩ := idx_facts2 t
  refine ⟨t, (flush2_6 t).mpr rfl, ?_⟩
  rw [mem_blk2_6]
  intro a
  match a with
  | ⟨0, _⟩ => show win2_6.index t (0 : Fin 2) * 1 ≤ (i 0).val ∧ (i 0).val < win2_6.index t (0 : Fin 2) * 1 + 1; omega
  | ⟨1, _⟩ => show win2_6.index t (1 : Fin 2) * 128 ≤ (i 1).val ∧ (i 1).val < win2_6.index t (1 : Fin 2) * 128 + 128; omega

theorem mem_blk2_7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v65_2).slice (win2_7.rect t)).set ↔ _
  rw [View.set_slice_whole, Rect.mem_set_unit]
  exact Iff.rfl

theorem cover2_7 (i : S1x128.Idx) : ∃ t : Fin cfg2.N, (cfg2.win 7).flush t = true ∧ i ∈ ((cfg2.win 7).blk t).view.set := by
  have hi0 : (i 0).val < 1 := (i 0).isLt
  have hi1 : (i 1).val < 128 := (i 1).isLt
  have hN : cfg2.N = 10 := N_2
  let t : Fin cfg2.N := ⟨9, by rw [hN]; omega⟩
  obtain ⟨e00, e01, e10, e11, e20, e21, e30, e31, e40, e41, e50, e51, e60, e61, e70, e71⟩ := idx_facts2 t
  refine ⟨t, (flush2_7 t).mpr rfl, ?_⟩
  rw [mem_blk2_7]
  intro a
  match a with
  | ⟨0, _⟩ => show win2_7.index t (0 : Fin 2) * 1 ≤ (i 0).val ∧ (i 0).val < win2_7.index t (0 : Fin 2) * 1 + 1; omega
  | ⟨1, _⟩ => show win2_7.index t (1 : Fin 2) * 128 ≤ (i 1).val ∧ (i 1).val < win2_7.index t (1 : Fin 2) * 128 + 128; omega

set_option maxHeartbeats 2000000 in
theorem flushed2_6_eq (c : Dev nD) (t : Fin cfg2.N) (hf : (cfg2.win 6).flush t = true) :
    (dat2 (F := Ideal) V c).flushed 6 t = ((cfg2.win 6).blk t).view.read (Elt Ideal) (meanRow (linPre2 (V c (Pipeline.arrRef spec2 0)) (V c (Pipeline.arrRef spec2 1)) (V c (Pipeline.arrRef spec2 2)) (V c (Pipeline.arrRef spec2 3)) (V c (Pipeline.arrRef spec2 4)))) := by
  have hN : t.val < 10 := lt_of_lt_of_eq t.isLt N_2
  have h9 : t.val = 9 := by have := (flush2_6 t).mp hf; omega
  show (cfg2.win 6).cut (grid2.coords t) ((dat2 (F := Ideal) V c).after 6 t) = _
  rw [after2_6, meanAt2_last V c t h9]
  obtain ⟨e00, e01, e10, e11, e20, e21, e30, e31, e40, e41, e50, e51, e60, e61, e70, e71⟩ := idx_facts2 t
  funext j
  obtain ⟨z, q, rfl⟩ : ∃ (z : Fin 1) (q : Fin 128), j = ix2 z q := ⟨j 0, j 1, eq_ix2 j⟩
  obtain rfl : z = 0 := Subsingleton.elim _ _
  have h6 : (((cfg2.win 6).blk t).view.emb (ix2 (0 : Fin 1) q)) = ix2 (0 : Fin 1) q := by
    funext a; apply Fin.ext
    match a with
    | ⟨0, _⟩ => show win2_6.index t (0 : Fin 2) * 1 + 1 * 0 = 0; omega
    | ⟨1, _⟩ => show win2_6.index t (1 : Fin 2) * 128 + 1 * q.val = q.val; omega
  refine (pay2_mean_apply _ q).trans ?_
  have hacc : (accAt2 V c t.val t.isLt).1 (ix2 (0 : Fin 1) q) = colSum (linPre2 (V c (Pipeline.arrRef spec2 0)) (V c (Pipeline.arrRef spec2 1)) (V c (Pipeline.arrRef spec2 2)) (V c (Pipeline.arrRef spec2 3)) (V c (Pipeline.arrRef spec2 4))) q := by
    have e := accAt2_congr V c t.val 9 h9 t.isLt (lt_of_eq_of_lt h9.symm t.isLt)
    rw [e]; exact acc2_last_sum V c q _
  rw [hacc]
  exact (congrArg (meanRow (linPre2 (V c (Pipeline.arrRef spec2 0)) (V c (Pipeline.arrRef spec2 1)) (V c (Pipeline.arrRef spec2 2)) (V c (Pipeline.arrRef spec2 3)) (V c (Pipeline.arrRef spec2 4)))) h6).symm

set_option maxHeartbeats 2000000 in
theorem flushed2_7_eq (c : Dev nD) (t : Fin cfg2.N) (hf : (cfg2.win 7).flush t = true) :
    (dat2 (F := Ideal) V c).flushed 7 t = ((cfg2.win 7).blk t).view.read (Elt Ideal) (varRow (linPre2 (V c (Pipeline.arrRef spec2 0)) (V c (Pipeline.arrRef spec2 1)) (V c (Pipeline.arrRef spec2 2)) (V c (Pipeline.arrRef spec2 3)) (V c (Pipeline.arrRef spec2 4)))) := by
  have hN : t.val < 10 := lt_of_lt_of_eq t.isLt N_2
  have h9 : t.val = 9 := by have := (flush2_7 t).mp hf; omega
  show (cfg2.win 7).cut (grid2.coords t) ((dat2 (F := Ideal) V c).after 7 t) = _
  rw [after2_7, varAt2_last V c t h9]
  obtain ⟨e00, e01, e10, e11, e20, e21, e30, e31, e40, e41, e50, e51, e60, e61, e70, e71⟩ := idx_facts2 t
  funext j
  obtain ⟨z, q, rfl⟩ : ∃ (z : Fin 1) (q : Fin 128), j = ix2 z q := ⟨j 0, j 1, eq_ix2 j⟩
  obtain rfl : z = 0 := Subsingleton.elim _ _
  have h7 : (((cfg2.win 7).blk t).view.emb (ix2 (0 : Fin 1) q)) = ix2 (0 : Fin 1) q := by
    funext a; apply Fin.ext
    match a with
    | ⟨0, _⟩ => show win2_7.index t (0 : Fin 2) * 1 + 1 * 0 = 0; omega
    | ⟨1, _⟩ => show win2_7.index t (1 : Fin 2) * 128 + 1 * q.val = q.val; omega
  refine (pay2_var_apply _ _ q).trans ?_
  have e := accAt2_congr V c t.val 9 h9 t.isLt (lt_of_eq_of_lt h9.symm t.isLt)
  have hacc1 : (accAt2 V c t.val t.isLt).1 (ix2 (0 : Fin 1) q) = colSum (linPre2 (V c (Pipeline.arrRef spec2 0)) (V c (Pipeline.arrRef spec2 1)) (V c (Pipeline.arrRef spec2 2)) (V c (Pipeline.arrRef spec2 3)) (V c (Pipeline.arrRef spec2 4))) q := by rw [e]; exact acc2_last_sum V c q _
  have hacc2 : (accAt2 V c t.val t.isLt).2 (ix2 (0 : Fin 1) q) = colSum (fun i => (linPre2 (V c (Pipeline.arrRef spec2 0)) (V c (Pipeline.arrRef spec2 1)) (V c (Pipeline.arrRef spec2 2)) (V c (Pipeline.arrRef spec2 3)) (V c (Pipeline.arrRef spec2 4))) i * (linPre2 (V c (Pipeline.arrRef spec2 0)) (V c (Pipeline.arrRef spec2 1)) (V c (Pipeline.arrRef spec2 2)) (V c (Pipeline.arrRef spec2 3)) (V c (Pipeline.arrRef spec2 4))) i) q := by rw [e]; exact acc2_last_sq V c q _
  rw [pay2_mean_apply, hacc1, hacc2]
  exact (congrArg (varRow (linPre2 (V c (Pipeline.arrRef spec2 0)) (V c (Pipeline.arrRef spec2 1)) (V c (Pipeline.arrRef spec2 2)) (V c (Pipeline.arrRef spec2 3)) (V c (Pipeline.arrRef spec2 4)))) h7).symm

/-- THE MEAN ROW after the region. -/
theorem final2_mean (c : Dev nD) : (dat2 (F := Ideal) V c).arrAt 6 cfg2.N = meanRow (linPre2 (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 6 _ (fun t hf => flushed2_6_eq V c t hf) (cover2_6)

/-- THE VARIANCE ROW after the region. -/
theorem final2_var (c : Dev nD) : (dat2 (F := Ideal) V c).arrAt 7 cfg2.N = varRow (linPre2 (V c (Pipeline.arrRef spec2 0)) (V c (Pipeline.arrRef spec2 1)) (V c (Pipeline.arrRef spec2 2)) (V c (Pipeline.arrRef spec2 3)) (V c (Pipeline.arrRef spec2 4))) :=
  (dat2 (F := Ideal) V c).arrAt_eq_of_cover 7 _ (fun t hf => flushed2_7_eq V c t hf) (cover2_7)

end Cert.KernelIdeal.Gen

end
-- ==== Proof.IdealStats4Pieces.lean ====
/- Region 4: what each case's run leaves, in the body's own arithmetic.

   The run's pieces read back are: the output tile, the tile agg·Wlᵀ + h·Wrᵀ + b itself; the first accumulator, the one before
   plus the tile's column sums (from zero at the first point); the second, the one before plus the column sums of the
   tile's squares; and at the last point the mean row, the first accumulator times 1/n, and the variance row,
   max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats4
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hzR4 : (![0, 0] : Fin 2 → Nat) = fun _ => 0 := funext fun a => by fin_cases a <;> rfl

set_option maxHeartbeats 2000000 in
theorem out4_A_5_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    out4_A_5 c i arg1 harg1 arg2 harg2 arg3 harg3 arg4 harg4 arg5 harg5 arg6 harg6 arg7 harg7 arg8 harg8 arg9 harg9 arg10 harg10 hc0 hc1 x0 x1 x2 x3 x4 = k4_pay6 x0 x1 x2 x3 x4 := by
  unfold out4_A_5
  rw [View.read_writes_eq_canon _ _ _ (cover4_A_5 c i arg1 harg1 arg2 harg2 arg3 harg3 arg4 harg4 arg5 harg5 arg6 harg6 arg7 harg7 arg8 harg8 arg9 harg9 arg10 harg10 hc0 hc1 x0 x1 x2 x3 x4)]
  unfold kernelRun4_A
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem sout4_A_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    sout4_A_0 c i arg1 harg1 arg2 harg2 arg3 harg3 arg4 harg4 arg5 harg5 arg6 harg6 arg7 harg7 arg8 harg8 arg9 harg9 arg10 harg10 hc0 hc1 x0 x1 x2 x3 x4 = k4_pay7 x0 x1 x2 x3 x4 k4_pay4 := by
  unfold sout4_A_0
  rw [View.read_writes_eq_canon _ _ _ (scover4_A_0 c i arg1 harg1 arg2 harg2 arg3 harg3 arg4 harg4 arg5 harg5 arg6 harg6 arg7 harg7 arg8 harg8 arg9 harg9 arg10 harg10 hc0 hc1 x0 x1 x2 x3 x4)]
  unfold kernelRun4_A
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem sout4_A_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond4_0 i) (hc1 : ¬cond4_1 i)
    (x0 : Vec F S5000x128 .f32) (x1 : Vec F S5000x128 .f32) (x2 : Vec F S128x128 .f32) (x3 : Vec F S128x128 .f32) (x4 : Vec F S1x128 .f32) :
    sout4_A_1 c i arg1 harg1 arg2 harg2 arg3 harg3 arg4 harg4 arg5 harg5 arg6 harg6 arg7 harg7 arg8 harg8 arg9 harg9 arg10 harg10 hc0 hc1 x0 x1 x2 x3 x4 = k4_pay1 (k4_pay6 x0 x1 x2 x3 x4) k4_pay5 := by
  unfold sout4_A_1
  rw [View.read_writes_eq_canon _ _ _ (scover4_A_1 c i arg1 harg1 arg2 harg2 arg3 harg3 arg4 harg4 arg5 harg5 arg6 harg6 arg7 harg7 arg8 harg8 arg9 harg9 arg10 harg10 hc0 hc1 x0 x1 x2 x3 x4)]
  unfold kernelRun4_A
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem out4_B_5_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out4_B_5 c i arg1 harg1 arg2 harg2 arg3 harg3 arg4 harg4 arg5 harg5 arg6 harg6 arg7 harg7 arg8 harg8 arg9 harg9 arg10 harg10 hc0 hc1 x0 x1 x2 x3 x4 xs0 xs1 = k4_pay6 x0 x1 x2 x3 x4 := by
  unfold out4_B_5
  rw [View.read_writes_eq_canon _ _ _ (cover4_B_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_B
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem sout4_B_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_B_0 c i arg1 harg1 arg2 harg2 arg3 harg3 arg4 harg4 arg5 harg5 arg6 harg6 arg7 harg7 arg8 harg8 arg9 harg9 arg10 harg10 hc0 hc1 x0 x1 x2 x3 x4 xs0 xs1 = k4_pay7 x0 x1 x2 x3 x4 xs0 := by
  unfold sout4_B_0
  rw [View.read_writes_eq_canon _ _ _ (scover4_B_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_B
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem sout4_B_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : ¬cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_B_1 c i arg1 harg1 arg2 harg2 arg3 harg3 arg4 harg4 arg5 harg5 arg6 harg6 arg7 harg7 arg8 harg8 arg9 harg9 arg10 harg10 hc0 hc1 x0 x1 x2 x3 x4 xs0 xs1 = k4_pay1 (k4_pay6 x0 x1 x2 x3 x4) xs1 := by
  unfold sout4_B_1
  rw [View.read_writes_eq_canon _ _ _ (scover4_B_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_B
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem out4_C_5_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out4_C_5 c i arg1 harg1 arg2 harg2 arg3 harg3 arg4 harg4 arg5 harg5 arg6 harg6 arg7 harg7 arg8 harg8 arg9 harg9 arg10 harg10 hc0 hc1 x0 x1 x2 x3 x4 xs0 xs1 = k4_pay6 x0 x1 x2 x3 x4 := by
  unfold out4_C_5
  rw [View.read_writes_eq_canon _ _ _ (cover4_C_5 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_C
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem sout4_C_0_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_C_0 c i arg1 harg1 arg2 harg2 arg3 harg3 arg4 harg4 arg5 harg5 arg6 harg6 arg7 harg7 arg8 harg8 arg9 harg9 arg10 harg10 hc0 hc1 x0 x1 x2 x3 x4 xs0 xs1 = k4_pay7 x0 x1 x2 x3 x4 xs0 := by
  unfold sout4_C_0
  rw [View.read_writes_eq_canon _ _ _ (scover4_C_0 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_C
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem sout4_C_1_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    sout4_C_1 c i arg1 harg1 arg2 harg2 arg3 harg3 arg4 harg4 arg5 harg5 arg6 harg6 arg7 harg7 arg8 harg8 arg9 harg9 arg10 harg10 hc0 hc1 x0 x1 x2 x3 x4 xs0 xs1 = k4_pay1 (k4_pay6 x0 x1 x2 x3 x4) xs1 := by
  unfold sout4_C_1
  rw [View.read_writes_eq_canon _ _ _ (scover4_C_1 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_C
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem out4_C_6_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out4_C_6 c i arg1 harg1 arg2 harg2 arg3 harg3 arg4 harg4 arg5 harg5 arg6 harg6 arg7 harg7 arg8 harg8 arg9 harg9 arg10 harg10 hc0 hc1 x0 x1 x2 x3 x4 xs0 xs1 = k4_pay2 (k4_pay7 x0 x1 x2 x3 x4 xs0) := by
  unfold out4_C_6
  rw [View.read_writes_eq_canon _ _ _ (cover4_C_6 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_C
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

set_option maxHeartbeats 2000000 in
theorem out4_C_7_eq (c : Dev nD) (i : grid4.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond4_0 i) (hc1 : cond4_1 i)
    (x0 : Vec F S5000x128 .f32) (x1 : Vec F S5000x128 .f32) (x2 : Vec F S128x128 .f32) (x3 : Vec F S128x128 .f32) (x4 : Vec F S1x128 .f32) (xs0 xs1 : Vec F S1x128 .f32) :
    out4_C_7 c i arg1 harg1 arg2 harg2 arg3 harg3 arg4 harg4 arg5 harg5 arg6 harg6 arg7 harg7 arg8 harg8 arg9 harg9 arg10 harg10 hc0 hc1 x0 x1 x2 x3 x4 xs0 xs1 = k4_pay3 (k4_pay7 x0 x1 x2 x3 x4 xs0) (k4_pay1 (k4_pay6 x0 x1 x2 x3 x4) xs1) := by
  unfold out4_C_7
  rw [View.read_writes_eq_canon _ _ _ (cover4_C_7 c i arg1 harg1 arg2 harg2 arg3 harg3 arg4 harg4 arg5 harg5 arg6 harg6 arg7 harg7 arg8 harg8 arg9 harg9 arg10 harg10 hc0 hc1 x0 x1 x2 x3 x4 xs0 xs1)]
  unfold kernelRun4_C
  dsimp only
  sl_unfold_words
  simp only [View.canon_cons_unit_zero (S := S5000x128) hzR4, View.canon_unit_zero (S := S5000x128) hzR4, View.canon_cons_unit_zero (S := S128x128) hzR4, View.canon_unit_zero (S := S128x128) hzR4, View.canon_cons_unit_zero (S := S1x128) hzR4, View.canon_unit_zero (S := S1x128) hzR4, View.readCov_unit_zero (S := S1x128) _ hzR4, View.readAt_eq_ld, harg1.read_unread, harg2.read_unread, harg3.read_unread, harg4.read_unread, harg5.read_unread, harg6.read_unread, harg7.read_unread, harg8.read_unread, harg9.read_unread, harg10.read_unread,
    View.ld_unit_zero (S := S5000x128) hzR4, View.ld_unit_zero (S := S128x128) hzR4, View.ld_unit_zero (S := S1x128) hzR4]

end Cert.KernelIdeal.Gen

end
-- ==== Proof.IdealStats4Fold.lean ====
/- Region 4: the region's outputs point by point, in the body's own arithmetic.

   The output tile after point t is the tile agg·Wlᵀ + h·Wrᵀ + b of that point's blocks.  The two accumulators after the first
   point are the tile's column sums, and the column sums of its squares, added to zero; after each later point, what
   they were plus that point's.  The last point stores the mean row, the first accumulator times 1/n, and the variance
   row, max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats4Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

theorem tileAt4_eq (c : Dev nD) (t : Fin cfg4.N) : tileAt4 V c t = k4_pay6 (iblk4 V c 0 t) (iblk4 V c 1 t) (iblk4 V c 2 t) (iblk4 V c 3 t) (iblk4 V c 4 t) := by
  have hN : t.val < 10 := lt_of_lt_of_eq t.isLt N_4
  unfold tileAt4
  split_ifs with h0 h1 h1
  · omega
  · exact out4_A_5_eq c _ _ _ _ _ _ _ _ _ _ _ _ _ _ _ _ _ _ _ _ _ _ _ _ _ _ _ _
  · exact out4_C_5_eq c _ _ _ _ _ _ _ _ _ _ _ _ _ _ _ _ _ _ _ _ _ _ _ _ _ _ _ _ _ _
  · exact out4_B_5_eq c _ _ _ _ _ _ _ _ _ _ _ _ _ _ _ _ _ _ _ _ _ _ _ _ _ _ _ _ _ _

theorem accAt4_first (c : Dev nD) (t : Fin cfg4.N) (h0 : t.val = 0) :
    accAt4 V c t.val t.isLt = (k4_pay7 (iblk4 V c 0 t) (iblk4 V c 1 t) (iblk4 V c 2 t) (iblk4 V c 3 t) (iblk4 V c 4 t) k4_pay4, k4_pay1 (k4_pay6 (iblk4 V c 0 t) (iblk4 V c 1 t) (iblk4 V c 2 t) (iblk4 V c 3 t) (iblk4 V c 4 t)) k4_pay5) := by
  rw [accAt4_A V c t h0 (by omega)]
  exact congrArg₂ Prod.mk (sout4_A_0_eq c _ _ _ _ _ _ _ _ _ _ _ _ _ _ _ _ _ _ _ _ _ _ _ _ _ _ _ _) (sout4_A_1_eq c _ _ _ _ _ _ _ _ _ _ _ _ _ _ _ _ _ _ _ _ _ _ _ _ _ _ _ _)

theorem accAt4_next (c : Dev nD) (t : Fin cfg4.N) (h0 : ¬t.val = 0) :
    accAt4 V c t.val t.isLt = (k4_pay7 (iblk4 V c 0 t) (iblk4 V c 1 t) (iblk4 V c 2 t) (iblk4 V c 3 t) (iblk4 V c 4 t) (accAt4 V c (t.val - 1) (Nat.lt_of_le_of_lt (Nat.sub_le _ _) t.isLt)).1, k4_pay1 (k4_pay6 (iblk4 V c 0 t) (iblk4 V c 1 t) (iblk4 V c 2 t) (iblk4 V c 3 t) (iblk4 V c 4 t)) (accAt4 V c (t.val - 1) (Nat.lt_of_le_of_lt (Nat.sub_le _ _) t.isLt)).2) := by
  by_cases h1 : t.val = 9
  · rw [accAt4_C V c t h0 h1]
    exact congrArg₂ Prod.mk (sout4_C_0_eq c _ _ _ _ _ _ _ _ _ _ _ _ _ _ _ _ _ _ _ _ _ _ _ _ _ _ _ _ _ _) (sout4_C_1_eq c _ _ _ _ _ _ _ _ _ _ _ _ _ _ _ _ _ _ _ _ _ _ _ _ _ _ _ _ _ _)
  · rw [accAt4_B V c t h0 h1]
    exact congrArg₂ Prod.mk (sout4_B_0_eq c _ _ _ _ _ _ _ _ _ _ _ _ _ _ _ _ _ _ _ _ _ _ _ _ _ _ _ _ _ _) (sout4_B_1_eq c _ _ _ _ _ _ _ _ _ _ _ _ _ _ _ _ _ _ _ _ _ _ _ _ _ _ _ _ _ _)

theorem meanAt4_last (c : Dev nD) (t : Fin cfg4.N) (h1 : t.val = 9) :
    meanAt4 V c t = k4_pay2 ((accAt4 V c t.val t.isLt).1) := by
  have h0 : ¬t.val = 0 := by omega
  simp only [meanAt4, dif_neg h0, dif_pos h1]
  rw [out4_C_6_eq, accAt4_next V c t h0]

theorem varAt4_last (c : Dev nD) (t : Fin cfg4.N) (h1 : t.val = 9) :
    varAt4 V c t = k4_pay3 ((accAt4 V c t.val t.isLt).1) ((accAt4 V c t.val t.isLt).2) := by
  have h0 : ¬t.val = 0 := by omega
  simp only [varAt4, dif_neg h0, dif_pos h1]
  rw [out4_C_7_eq, accAt4_next V c t h0]

end Cert.KernelIdeal.Gen

end
-- ==== Proof.IdealStats4Value.lean ====
/- Region 4 at the extended reals: its three arrays after the region as functions of the five arrays it reads.

   Entry (p, q) of the tile the body forms at point t is Σ_k agg(5000t+p, k)·Wl(q, k) + Σ_k h(5000t+p, k)·Wr(q, k) + b(0, q)
   (the casts to bf16 and back are the identity, the transpose moves the weight's index, a matrix product into a zero
   accumulator is its sum, the bias row is spread over the tile's rows): entry (5000t+p, q) of the whole pre-activation.
   The ten tiles cover the output array.  The first accumulator after point n holds, in column q, zero plus the sums of
   column q over the tiles 0 … n, so after the last point the column sum of the whole pre-activation; the second the
   same for the squares.  The last point stores the mean row, that column sum times 1/50000, and the variance row,
   max(sum of squares/50000 − mean², 0). -/
import proofs.«180021_j37692632990117_2_alg».proof.Proof.IdealStats4Fold
import proofs.«180021_j37692632990117_2_alg».proof.Proof.SpecNet
import proofs.«180021_j37692632990117_2_alg».proof.Proof.LibGraphMath
import Idealize.ShloMosaic.PureOps.Ideal.Laws
import Idealize.ShloMosaic.PureOps.IdealRules
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

/-! ## The body's arithmetic at an entry -/

theorem inv_n4 : Named.named (F := Ideal) κ "inv_50000" (φ := .f32) 0x37A7C5AC#32 = ((1 / 50000 : ℝ) : EReal) :=
  IdealRules.named_const.ideal_named_scalar _ _ _ _ rfl

/-- The tile's entry: two products with the transposed weights, then the bias row. -/
theorem pay4_tile_apply (x0 x1 : Vec Ideal S5000x128 .f32) (x2 x3 : Vec Ideal S128x128 .f32) (x4 : Vec Ideal S1x128 .f32) (p : Fin 5000) (j : Fin 128) :
    k4_pay6 (F := Ideal) x0 x1 x2 x3 x4 (ix2 p j) = (∑ k : Fin 128, x0 (ix2 p k) * x2 (ix2 j k) + ∑ k : Fin 128, x1 (ix2 p k) * x3 (ix2 j k)) + x4 (ix2 (0 : Fin 1) j) := by
  unfold k4_pay6
  dsimp only
  refine congrArg₂ (· + ·) (congrArg₂ (· + ·) ?_ ?_) ?_
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine (congrFun (shapeCast_self x0 _) _).trans (congrArg x0 ?_)
      funext a; apply Fin.ext
      match a with
      | ⟨0, _⟩ => exact hl0
      | ⟨1, _⟩ => exact hl.trans hk0
    · refine (transpose_apply _ _ _ _ (ix2 j k) (fun b => ?_)).trans (congrFun (shapeCast_self x2 _) _)
      match b with
      | ⟨0, _⟩ => exact (hr.trans hk0).symm
      | ⟨1, _⟩ => exact hr1.symm
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine (congrFun (shapeCast_self x1 _) _).trans (congrArg x1 ?_)
      funext a; apply Fin.ext
      match a with
      | ⟨0, _⟩ => exact hl0
      | ⟨1, _⟩ => exact hl.trans hk0
    · refine (transpose_apply _ _ _ _ (ix2 j k) (fun b => ?_)).trans (congrFun (shapeCast_self x3 _) _)
      match b with
      | ⟨0, _⟩ => exact (hr.trans hk0).symm
      | ⟨1, _⟩ => exact hr1.symm
  · refine (broadcastTo_apply _ _ _ (ix2 (0 : Fin 1) j) (fun a => ?_)).trans (congrFun (shapeCast_self x4 _) _)
    match a with
    | ⟨0, _⟩ => rfl
    | ⟨1, _⟩ => rfl

/-- A column sum of a tile, kept as a row. -/
theorem colsum4_apply (y : FVec Ideal S5000x128 .f32) (h2 : FKind.Formats FTy.f32) (h3) (q : Fin 128) :
    shapeCast S1x128 (multiReduction FKind.add [0] S128 y (0#32) reduces_S5000x128_S128 h2 h3) shapeCasts_S128_S1x128 (ix2 (0 : Fin 1) q)
      = ∑ p : Fin 5000, y (ix2 p q) := by
  refine (shapeCast_apply _ _ _ (ix1 q) ?_).trans ?_
  · rw [Shape.rowMajor_val_one, Shape.rowMajor_val_two]
    show (q : ℕ) = (0 : ℕ) * 128 + (q : ℕ)
    omega
  · refine (Ideal.multiReduction_add_single _ _ _ _ _ _).trans ?_
    refine Finset.sum_congr rfl fun p _ => congrArg y (funext fun a => Fin.ext ?_)
    match a with
    | ⟨0, _⟩ => rfl
    | ⟨1, _⟩ => rfl

theorem pay4_sum_apply (x0 x1 : Vec Ideal S5000x128 .f32) (x2 x3 : Vec Ideal S128x128 .f32) (x4 s : Vec Ideal S1x128 .f32) (q : Fin 128) :
    k4_pay7 (F := Ideal) x0 x1 x2 x3 x4 s (ix2 (0 : Fin 1) q) = s (ix2 (0 : Fin 1) q) + ∑ p : Fin 5000, k4_pay6 (F := Ideal) x0 x1 x2 x3 x4 (ix2 p q) := by
  unfold k4_pay7
  dsimp only
  refine (congrFun (shapeCast_self _ _) _).trans ?_
  exact congrArg₂ (· + ·) rfl (colsum4_apply _ _ _ q)

theorem pay4_sq_apply (x0 x1 : Vec Ideal S5000x128 .f32) (x2 x3 : Vec Ideal S128x128 .f32) (x4 s : Vec Ideal S1x128 .f32) (q : Fin 128) :
    k4_pay1 (F := Ideal) (k4_pay6 x0 x1 x2 x3 x4) s (ix2 (0 : Fin 1) q) = s (ix2 (0 : Fin 1) q) + ∑ p : Fin 5000, k4_pay6 (F := Ideal) x0 x1 x2 x3 x4 (ix2 p q) * k4_pay6 (F := Ideal) x0 x1 x2 x3 x4 (ix2 p q) := by
  unfold k4_pay1
  dsimp only
  refine (congrFun (shapeCast_self _ _) _).trans ?_
  exact congrArg₂ (· + ·) rfl (colsum4_apply _ _ _ q)

theorem pay4_mean_apply (s : Vec Ideal S1x128 .f32) (q : Fin 128) :
    k4_pay2 (F := Ideal) s (ix2 (0 : Fin 1) q) = s (ix2 (0 : Fin 1) q) * ((1 / 50000 : ℝ) : EReal) := by
  unfold k4_pay2
  show s (ix2 (0 : Fin 1) q) * Named.named (F := Ideal) κ "inv_50000" (φ := .f32) 0x37A7C5AC#32 = _
  rw [inv_n4]

theorem pay4_var_apply (s0 s1 : Vec Ideal S1x128 .f32) (q : Fin 128) :
    k4_pay3 (F := Ideal) s0 s1 (ix2 (0 : Fin 1) q) = max (s1 (ix2 (0 : Fin 1) q) * ((1 / 50000 : ℝ) : EReal) - k4_pay2 (F := Ideal) s0 (ix2 (0 : Fin 1) q) * k4_pay2 (F := Ideal) s0 (ix2 (0 : Fin 1) q)) (Ideal.ofBits .f32 0x00000000#32) := by
  unfold k4_pay3
  show max (s1 (ix2 (0 : Fin 1) q) * Named.named (F := Ideal) κ "inv_50000" (φ := .f32) 0x37A7C5AC#32 - _) _ = _
  rw [inv_n4]
  rfl

theorem pay4_zero0 (q : Fin 128) : k4_pay4 (F := Ideal) (ix2 (0 : Fin 1) q) = 0 := by
  unfold k4_pay4
  show Ideal.ofBits .f32 0x00000000#32 = 0
  exact Ideal.ofBits_zero_f32
theorem pay4_zero1 (q : Fin 128) : k4_pay5 (F := Ideal) (ix2 (0 : Fin 1) q) = 0 := by
  unfold k4_pay5
  show Ideal.ofBits .f32 0x00000000#32 = 0
  exact Ideal.ofBits_zero_f32

/-- ONE ENTRY of a tile over any arrays and blocks: when the two row blocks read row r of their arrays and the weight and
    bias blocks are their whole arrays, the tile's entry (p, q) is the pre-activation's entry (r, q). -/
theorem point4_tile (a0 a1 : S50000x128.Idx → EReal) (a2 a3 : S128x128.Idx → EReal) (a4 : S1x128.Idx → EReal)
    (x0 x1 : Vec Ideal S5000x128 .f32) (x2 x3 : Vec Ideal S128x128 .f32) (x4 : Vec Ideal S1x128 .f32) (p : Fin 5000) (q : Fin 128) (r : Fin 50000)
    (h0 : ∀ k : Fin 128, x0 (ix2 p k) = a0 (ix2 r k)) (h1 : ∀ k : Fin 128, x1 (ix2 p k) = a1 (ix2 r k))
    (h2 : ∀ k : Fin 128, x2 (ix2 q k) = a2 (ix2 q k)) (h3 : ∀ k : Fin 128, x3 (ix2 q k) = a3 (ix2 q k))
    (h4 : x4 (ix2 (0 : Fin 1) q) = a4 (ix2 (0 : Fin 1) q)) :
    k4_pay6 (F := Ideal) x0 x1 x2 x3 x4 (ix2 p q) = linPre2 a0 a1 a2 a3 a4 (ix2 r q) := by
  rw [pay4_tile_apply]
  show _ = (∑ k : Fin 128, a0 (ix2 r k) * a2 (ix2 q k) + ∑ k : Fin 128, a1 (ix2 r k) * a3 (ix2 q k)) + a4 (ix2 (0 : Fin 1) q)
  simp only [h0, h1, h2, h3, h4]

-- the TensorCore's buffer contents when the region is entered
variable (V : (c : Dev nD) → (b : Ref sig .tc) → Buf (Elt Ideal) ((c : Thread nD τ).loc b))

/-- The printed index maps over the ten points: the two row windows and the output tile are block (t, 0), the weights, the
    bias, the mean and the variance block (0, 0). -/
theorem idx_facts4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = 0 ∧ win4_6.index t (1 : Fin 2) = 0
    ∧ win4_7.index t (0 : Fin 2) = 0 ∧ win4_7.index t (1 : Fin 2) = 0 :=
  (by decide +kernel : ∀ t : Fin grid4.N, _)

set_option maxHeartbeats 2000000 in
/-- Entry (p, q) of the tile formed at point t is entry (5000 t + p, q) of the whole pre-activation. -/
theorem tile4_entry (c : Dev nD) (t : Fin cfg4.N) (p : Fin 5000) (q : Fin 128) (hr : t.val * 5000 + p.val < 50000) :
    k4_pay6 (F := Ideal) (iblk4 V c 0 t) (iblk4 V c 1 t) (iblk4 V c 2 t) (iblk4 V c 3 t) (iblk4 V c 4 t) (ix2 p q) = (linPre2 (V c (Pipeline.arrRef spec4 0)) (V c (Pipeline.arrRef spec4 1)) (V c (Pipeline.arrRef spec4 2)) (V c (Pipeline.arrRef spec4 3)) (V c (Pipeline.arrRef spec4 4))) (ix2 (⟨t.val * 5000 + p.val, hr⟩ : Fin 50000) q) := by
  obtain ⟨e00, e01, e10, e11, e20, e21, e30, e31, e40, e41, e50, e51, e60, e61, e70, e71⟩ := idx_facts4 t
  have h0 : ∀ k : Fin 128, (((cfg4.win 0).blk t).view.emb (ix2 p k)) = ix2 (⟨t.val * 5000 + p.val, hr⟩ : Fin 50000) k := fun k => by
    funext a; apply Fin.ext
    match a with
    | ⟨0, _⟩ => show win4_0.index t (0 : Fin 2) * 5000 + 1 * p.val = t.val * 5000 + p.val; omega
    | ⟨1, _⟩ => show win4_0.index t (1 : Fin 2) * 128 + 1 * k.val = k.val; omega
  have h1 : ∀ k : Fin 128, (((cfg4.win 1).blk t).view.emb (ix2 p k)) = ix2 (⟨t.val * 5000 + p.val, hr⟩ : Fin 50000) k := fun k => by
    funext a; apply Fin.ext
    match a with
    | ⟨0, _⟩ => show win4_1.index t (0 : Fin 2) * 5000 + 1 * p.val = t.val * 5000 + p.val; omega
    | ⟨1, _⟩ => show win4_1.index t (1 : Fin 2) * 128 + 1 * k.val = k.val; omega
  have h2 : ∀ k : Fin 128, (((cfg4.win 2).blk t).view.emb (ix2 q k)) = ix2 q k := fun k => by
    funext a; apply Fin.ext
    match a with
    | ⟨0, _⟩ => show win4_2.index t (0 : Fin 2) * 128 + 1 * q.val = q.val; omega
    | ⟨1, _⟩ => show win4_2.index t (1 : Fin 2) * 128 + 1 * k.val = k.val; omega
  have h3 : ∀ k : Fin 128, (((cfg4.win 3).blk t).view.emb (ix2 q k)) = ix2 q k := fun k => by
    funext a; apply Fin.ext
    match a with
    | ⟨0, _⟩ => show win4_3.index t (0 : Fin 2) * 128 + 1 * q.val = q.val; omega
    | ⟨1, _⟩ => show win4_3.index t (1 : Fin 2) * 128 + 1 * k.val = k.val; omega
  have h4 : (((cfg4.win 4).blk t).view.emb (ix2 (0 : Fin 1) q)) = ix2 (0 : Fin 1) q := by
    funext a; apply Fin.ext
    match a with
    | ⟨0, _⟩ => show win4_4.index t (0 : Fin 2) * 1 + 1 * 0 = 0; omega
    | ⟨1, _⟩ => show win4_4.index t (1 : Fin 2) * 128 + 1 * q.val = q.val; omega
  exact point4_tile _ _ _ _ _ (iblk4 V c 0 t) (iblk4 V c 1 t) (iblk4 V c 2 t) (iblk4 V c 3 t) (iblk4 V c 4 t) p q (⟨t.val * 5000 + p.val, hr⟩ : Fin 50000)
    (fun k => congrArg (V c (Pipeline.arrRef spec4 0)) (h0 k)) (fun k => congrArg (V c (Pipeline.arrRef spec4 1)) (h1 k)) (fun k => congrArg (V c (Pipeline.arrRef spec4 2)) (h2 k)) (fun k => congrArg (V c (Pipeline.arrRef spec4 3)) (h3 k)) (congrArg (V c (Pipeline.arrRef spec4 4)) h4)

/-! ## The output tile array -/

set_option maxHeartbeats 2000000 in
theorem flushed4_5_eq (c : Dev nD) (t : Fin cfg4.N) :
    (dat4 (F := Ideal) V c).flushed 5 t = ((cfg4.win 5).blk t).view.read (Elt Ideal) (linPre2 (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 (F := Ideal) V c).after 5 t) = _
  rw [after4_5, tileAt4_eq]
  obtain ⟨e00, e01, e10, e11, e20, e21, e30, e31, e40, e41, e50, e51, e60, e61, e70, e71⟩ := idx_facts4 t
  have ht : t.val < 10 := lt_of_lt_of_eq t.isLt N_4
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h5 : (((cfg4.win 5).blk t).view.emb (ix2 p q)) = ix2 (⟨t.val * 5000 + p.val, hr⟩ : Fin 50000) q := by
    funext a; apply Fin.ext
    match a with
    | ⟨0, _⟩ => show win4_5.index t (0 : Fin 2) * 5000 + 1 * p.val = t.val * 5000 + p.val; omega
    | ⟨1, _⟩ => show win4_5.index t (1 : Fin 2) * 128 + 1 * q.val = q.val; omega
  exact (tile4_entry V c t p q hr).trans (congrArg (linPre2 (V c (Pipeline.arrRef spec4 0)) (V c (Pipeline.arrRef spec4 1)) (V c (Pipeline.arrRef spec4 2)) (V c (Pipeline.arrRef spec4 3)) (V c (Pipeline.arrRef spec4 4))) h5.symm)

theorem mem_blk4_5 (t : Fin cfg4.N) (i : S50000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v96_0).slice (win4_5.rect t)).set ↔ _
  rw [View.set_slice_whole, Rect.mem_set_unit]
  exact Iff.rfl

theorem cover4_5 (i : S50000x128.Idx) : ∃ t : Fin cfg4.N, (cfg4.win 5).flush t = true ∧ i ∈ ((cfg4.win 5).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  have htv : t.val = (i 0).val / 5000 := rfl
  obtain ⟨e00, e01, e10, e11, e20, e21, e30, e31, e40, e41, e50, e51, e60, e61, e70, e71⟩ := idx_facts4 t
  refine ⟨t, flush4_5 t, ?_⟩
  rw [mem_blk4_5]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE PRE-ACTIVATION ARRAY after the region. -/
theorem final4_pre (c : Dev nD) : (dat4 (F := Ideal) V c).arrAt 5 cfg4.N = (linPre2 (V c (Pipeline.arrRef spec4 0)) (V c (Pipeline.arrRef spec4 1)) (V c (Pipeline.arrRef spec4 2)) (V c (Pipeline.arrRef spec4 3)) (V c (Pipeline.arrRef spec4 4))) :=
  (dat4 (F := Ideal) V c).arrAt_eq_of_cover 5 _ (fun t _ => flushed4_5_eq V c t) (cover4_5)

end Cert.KernelIdeal.Gen

end
-- ==== Proof.IdealStats4Stat.lean ====
/- Region 4 at the extended reals, continued: the column statistics.

   After point n the first accumulator holds, in column q, zero plus the column sums of the tiles 0 … n — by the tile's
   entries, sums of entries of the whole pre-activation over the rows 5000·t … 5000·t + 4999 —, so after the last point
   the column sum over all 50000 rows; the second accumulator the same for the squares.  The last point's mean row is the
   column sum times 1/50000, its variance row max(sum of squares/50000 − mean², 0): the two rows the windows write back. -/
import proofs.«180021_j37692632990117_2_alg».proof.Proof.IdealStats4Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

/-- The pre-activation's entry at a natural row number, zero beyond the array. -/
def preN4 (c : Dev nD) (r : ℕ) (q : Fin 128) : EReal := if h : r < 50000 then (linPre2 (V c (Pipeline.arrRef spec4 0)) (V c (Pipeline.arrRef spec4 1)) (V c (Pipeline.arrRef spec4 2)) (V c (Pipeline.arrRef spec4 3)) (V c (Pipeline.arrRef spec4 4))) (ix2 (⟨r, h⟩ : Fin 50000) q) else 0

theorem accAt4_congr (c : Dev nD) (a b : ℕ) (h : a = b) (ha : a < cfg4.N) (hb : b < cfg4.N) : accAt4 V c a ha = accAt4 V c b hb := by
  subst h; rfl

/-- A tile's entries are the pre-activation's, row by row. -/
theorem tile4_row (c : Dev nD) (t : Fin cfg4.N) (p : Fin 5000) (q : Fin 128) :
    k4_pay6 (F := Ideal) (iblk4 V c 0 t) (iblk4 V c 1 t) (iblk4 V c 2 t) (iblk4 V c 3 t) (iblk4 V c 4 t) (ix2 p q) = preN4 V c (5000 * t.val + p.val) q := by
  have ht : t.val < 10 := lt_of_lt_of_eq t.isLt N_4
  have hp : p.val < 5000 := p.isLt
  have hr : t.val * 5000 + p.val < 50000 := by omega
  have hr' : 5000 * t.val + p.val < 50000 := by omega
  rw [tile4_entry V c t p q hr]
  unfold preN4
  rw [dif_pos hr']
  exact congrArg (fun r => (linPre2 (V c (Pipeline.arrRef spec4 0)) (V c (Pipeline.arrRef spec4 1)) (V c (Pipeline.arrRef spec4 2)) (V c (Pipeline.arrRef spec4 3)) (V c (Pipeline.arrRef spec4 4))) (ix2 r q)) (Fin.ext (by show t.val * 5000 + p.val = 5000 * t.val + p.val; omega))

/-- The first accumulator after point n: zero plus the column sums of the tiles up to n. -/
theorem acc4_sum (c : Dev nD) (q : Fin 128) (n : ℕ) (hn : n < cfg4.N) :
    (accAt4 V c n hn).1 (ix2 (0 : Fin 1) q) = 0 + ∑ t : Fin (n + 1), ∑ p : Fin 5000, preN4 V c (5000 * t.val + p.val) q := by
  have key := Cert.KMath.acc_eq_sum (fun k => if hk : k < cfg4.N then (accAt4 V c k hk).1 (ix2 (0 : Fin 1) q) else 0)
    (fun k => ∑ p : Fin 5000, preN4 V c (5000 * k + p.val) q) 0 n ?h0 ?hstep
  · simpa only [dif_pos hn] using key
  case h0 =>
    have h0N : 0 < cfg4.N := Nat.lt_of_le_of_lt (Nat.zero_le _) hn
    show (if hk : 0 < cfg4.N then (accAt4 V c 0 hk).1 (ix2 (0 : Fin 1) q) else 0) = 0 + _
    rw [dif_pos h0N, accAt4_first V c ⟨0, h0N⟩ rfl]
    show k4_pay7 (F := Ideal) _ _ _ _ _ _ (ix2 (0 : Fin 1) q) = _
    rw [pay4_sum_apply, pay4_zero0]
    exact congrArg (0 + ·) (Finset.sum_congr rfl fun p _ => tile4_row V c ⟨0, h0N⟩ p q)
  case hstep =>
    intro t ht
    have h1 : t + 1 < cfg4.N := Nat.lt_of_le_of_lt (Nat.succ_le_of_lt ht) hn
    have h2 : t < cfg4.N := Nat.lt_of_succ_lt h1
    show (if hk : t + 1 < cfg4.N then (accAt4 V c (t + 1) hk).1 (ix2 (0 : Fin 1) q) else 0) = (if hk : t < cfg4.N then (accAt4 V c t hk).1 (ix2 (0 : Fin 1) q) else 0) + _
    rw [dif_pos h1, dif_pos h2, accAt4_next V c ⟨t + 1, h1⟩ (Nat.succ_ne_zero t)]
    show k4_pay7 (F := Ideal) _ _ _ _ _ _ (ix2 (0 : Fin 1) q) = _
    rw [pay4_sum_apply]
    refine congrArg₂ (· + ·) ?_ (Finset.sum_congr rfl fun p _ => tile4_row V c ⟨t + 1, h1⟩ p q)
    exact congrArg (fun z => z.1 (ix2 (0 : Fin 1) q)) (accAt4_congr V c _ _ (Nat.add_sub_cancel t 1) _ h2)

/-- The second accumulator after point n: zero plus the column sums of the tiles' squares. -/
theorem acc4_sq (c : Dev nD) (q : Fin 128) (n : ℕ) (hn : n < cfg4.N) :
    (accAt4 V c n hn).2 (ix2 (0 : Fin 1) q) = 0 + ∑ t : Fin (n + 1), ∑ p : Fin 5000, preN4 V c (5000 * t.val + p.val) q * preN4 V c (5000 * t.val + p.val) q := by
  have key := Cert.KMath.acc_eq_sum (fun k => if hk : k < cfg4.N then (accAt4 V c k hk).2 (ix2 (0 : Fin 1) q) else 0)
    (fun k => ∑ p : Fin 5000, preN4 V c (5000 * k + p.val) q * preN4 V c (5000 * k + p.val) q) 0 n ?h0 ?hstep
  · simpa only [dif_pos hn] using key
  case h0 =>
    have h0N : 0 < cfg4.N := Nat.lt_of_le_of_lt (Nat.zero_le _) hn
    show (if hk : 0 < cfg4.N then (accAt4 V c 0 hk).2 (ix2 (0 : Fin 1) q) else 0) = 0 + _
    rw [dif_pos h0N, accAt4_first V c ⟨0, h0N⟩ rfl]
    show k4_pay1 (F := Ideal) (k4_pay6 _ _ _ _ _) _ (ix2 (0 : Fin 1) q) = _
    rw [pay4_sq_apply, pay4_zero1]
    exact congrArg (0 + ·) (Finset.sum_congr rfl fun p _ => by rw [tile4_row V c ⟨0, h0N⟩ p q])
  case hstep =>
    intro t ht
    have h1 : t + 1 < cfg4.N := Nat.lt_of_le_of_lt (Nat.succ_le_of_lt ht) hn
    have h2 : t < cfg4.N := Nat.lt_of_succ_lt h1
    show (if hk : t + 1 < cfg4.N then (accAt4 V c (t + 1) hk).2 (ix2 (0 : Fin 1) q) else 0) = (if hk : t < cfg4.N then (accAt4 V c t hk).2 (ix2 (0 : Fin 1) q) else 0) + _
    rw [dif_pos h1, dif_pos h2, accAt4_next V c ⟨t + 1, h1⟩ (Nat.succ_ne_zero t)]
    show k4_pay1 (F := Ideal) (k4_pay6 _ _ _ _ _) _ (ix2 (0 : Fin 1) q) = _
    rw [pay4_sq_apply]
    refine congrArg₂ (· + ·) ?_ (Finset.sum_congr rfl fun p _ => by rw [tile4_row V c ⟨t + 1, h1⟩ p q])
    exact congrArg (fun z => z.2 (ix2 (0 : Fin 1) q)) (accAt4_congr V c _ _ (Nat.add_sub_cancel t 1) _ h2)

/-- A column sum over the 50000 rows is the sum over the ten tiles of 5000 rows. -/
theorem colsum4_blocks (c : Dev nD) (f : EReal → EReal) (hf : f 0 = 0 ∨ True) (q : Fin 128) :
    (∑ r : Fin 50000, f ((linPre2 (V c (Pipeline.arrRef spec4 0)) (V c (Pipeline.arrRef spec4 1)) (V c (Pipeline.arrRef spec4 2)) (V c (Pipeline.arrRef spec4 3)) (V c (Pipeline.arrRef spec4 4))) (ix2 r q))) = ∑ t : Fin 10, ∑ p : Fin 5000, f (preN4 V c (5000 * t.val + p.val) q) := by
  rw [Cert.KMath.sum_blocks_gen 10 5000 50000 (by norm_num) (fun r => f (preN4 V c r q))]
  refine Finset.sum_congr rfl fun r _ => ?_
  unfold preN4
  rw [dif_pos r.isLt]

theorem acc4_last_sum (c : Dev nD) (q : Fin 128) (h9 : 9 < cfg4.N) :
    (accAt4 V c 9 h9).1 (ix2 (0 : Fin 1) q) = colSum (linPre2 (V c (Pipeline.arrRef spec4 0)) (V c (Pipeline.arrRef spec4 1)) (V c (Pipeline.arrRef spec4 2)) (V c (Pipeline.arrRef spec4 3)) (V c (Pipeline.arrRef spec4 4))) q := by
  rw [acc4_sum V c q 9 h9, zero_add]
  exact (colsum4_blocks V c (fun x => x) (Or.inr trivial) q).symm

theorem acc4_last_sq (c : Dev nD) (q : Fin 128) (h9 : 9 < cfg4.N) :
    (accAt4 V c 9 h9).2 (ix2 (0 : Fin 1) q) = colSum (fun i => (linPre2 (V c (Pipeline.arrRef spec4 0)) (V c (Pipeline.arrRef spec4 1)) (V c (Pipeline.arrRef spec4 2)) (V c (Pipeline.arrRef spec4 3)) (V c (Pipeline.arrRef spec4 4))) i * (linPre2 (V c (Pipeline.arrRef spec4 0)) (V c (Pipeline.arrRef spec4 1)) (V c (Pipeline.arrRef spec4 2)) (V c (Pipeline.arrRef spec4 3)) (V c (Pipeline.arrRef spec4 4))) i) q := by
  rw [acc4_sq V c q 9 h9, zero_add]
  exact (colsum4_blocks V c (fun x => x * x) (Or.inr trivial) q).symm

/-! ## The mean and the variance rows -/

theorem mem_blk4_6 (t : Fin cfg4.N) (i : S1x128.Idx) :
    i ∈ ((cfg4.win 6).blk t).view.set ↔ ∀ a : Fin 2, win4_6.index t a * S1x128.size a ≤ (i a).val ∧ (i a).val < win4_6.index t a * S1x128.size a + S1x128.size a := by
  show i ∈ ((View.whole main_v96_1).slice (win4_6.rect t)).set ↔ _
  rw [View.set_slice_whole, Rect.mem_set_unit]
  exact Iff.rfl

theorem cover4_6 (i : S1x128.Idx) : ∃ t : Fin cfg4.N, (cfg4.win 6).flush t = true ∧ i ∈ ((cfg4.win 6).blk t).view.set := by
  have hi0 : (i 0).val < 1 := (i 0).isLt
  have hi1 : (i 1).val < 128 := (i 1).isLt
  have hN : cfg4.N = 10 := N_4
  let t : Fin cfg4.N := ⟨9, by rw [hN]; omega⟩
  obtain ⟨e00, e01, e10, e11, e20, e21, e30, e31, e40, e41, e50, e51, e60, e61, e70, e71⟩ := idx_facts4 t
  refine ⟨t, (flush4_6 t).mpr rfl, ?_⟩
  rw [mem_blk4_6]
  intro a
  match a with
  | ⟨0, _⟩ => show win4_6.index t (0 : Fin 2) * 1 ≤ (i 0).val ∧ (i 0).val < win4_6.index t (0 : Fin 2) * 1 + 1; omega
  | ⟨1, _⟩ => show win4_6.index t (1 : Fin 2) * 128 ≤ (i 1).val ∧ (i 1).val < win4_6.index t (1 : Fin 2) * 128 + 128; omega

theorem mem_blk4_7 (t : Fin cfg4.N) (i : S1x128.Idx) :
    i ∈ ((cfg4.win 7).blk t).view.set ↔ ∀ a : Fin 2, win4_7.index t a * S1x128.size a ≤ (i a).val ∧ (i a).val < win4_7.index t a * S1x128.size a + S1x128.size a := by
  show i ∈ ((View.whole main_v96_2).slice (win4_7.rect t)).set ↔ _
  rw [View.set_slice_whole, Rect.mem_set_unit]
  exact Iff.rfl

theorem cover4_7 (i : S1x128.Idx) : ∃ t : Fin cfg4.N, (cfg4.win 7).flush t = true ∧ i ∈ ((cfg4.win 7).blk t).view.set := by
  have hi0 : (i 0).val < 1 := (i 0).isLt
  have hi1 : (i 1).val < 128 := (i 1).isLt
  have hN : cfg4.N = 10 := N_4
  let t : Fin cfg4.N := ⟨9, by rw [hN]; omega⟩
  obtain ⟨e00, e01, e10, e11, e20, e21, e30, e31, e40, e41, e50, e51, e60, e61, e70, e71⟩ := idx_facts4 t
  refine ⟨t, (flush4_7 t).mpr rfl, ?_⟩
  rw [mem_blk4_7]
  intro a
  match a with
  | ⟨0, _⟩ => show win4_7.index t (0 : Fin 2) * 1 ≤ (i 0).val ∧ (i 0).val < win4_7.index t (0 : Fin 2) * 1 + 1; omega
  | ⟨1, _⟩ => show win4_7.index t (1 : Fin 2) * 128 ≤ (i 1).val ∧ (i 1).val < win4_7.index t (1 : Fin 2) * 128 + 128; omega

set_option maxHeartbeats 2000000 in
theorem flushed4_6_eq (c : Dev nD) (t : Fin cfg4.N) (hf : (cfg4.win 6).flush t = true) :
    (dat4 (F := Ideal) V c).flushed 6 t = ((cfg4.win 6).blk t).view.read (Elt Ideal) (meanRow (linPre2 (V c (Pipeline.arrRef spec4 0)) (V c (Pipeline.arrRef spec4 1)) (V c (Pipeline.arrRef spec4 2)) (V c (Pipeline.arrRef spec4 3)) (V c (Pipeline.arrRef spec4 4)))) := by
  have hN : t.val < 10 := lt_of_lt_of_eq t.isLt N_4
  have h9 : t.val = 9 := by have := (flush4_6 t).mp hf; omega
  show (cfg4.win 6).cut (grid4.coords t) ((dat4 (F := Ideal) V c).after 6 t) = _
  rw [after4_6, meanAt4_last V c t h9]
  obtain ⟨e00, e01, e10, e11, e20, e21, e30, e31, e40, e41, e50, e51, e60, e61, e70, e71⟩ := idx_facts4 t
  funext j
  obtain ⟨z, q, rfl⟩ : ∃ (z : Fin 1) (q : Fin 128), j = ix2 z q := ⟨j 0, j 1, eq_ix2 j⟩
  obtain rfl : z = 0 := Subsingleton.elim _ _
  have h6 : (((cfg4.win 6).blk t).view.emb (ix2 (0 : Fin 1) q)) = ix2 (0 : Fin 1) q := by
    funext a; apply Fin.ext
    match a with
    | ⟨0, _⟩ => show win4_6.index t (0 : Fin 2) * 1 + 1 * 0 = 0; omega
    | ⟨1, _⟩ => show win4_6.index t (1 : Fin 2) * 128 + 1 * q.val = q.val; omega
  refine (pay4_mean_apply _ q).trans ?_
  have hacc : (accAt4 V c t.val t.isLt).1 (ix2 (0 : Fin 1) q) = colSum (linPre2 (V c (Pipeline.arrRef spec4 0)) (V c (Pipeline.arrRef spec4 1)) (V c (Pipeline.arrRef spec4 2)) (V c (Pipeline.arrRef spec4 3)) (V c (Pipeline.arrRef spec4 4))) q := by
    have e := accAt4_congr V c t.val 9 h9 t.isLt (lt_of_eq_of_lt h9.symm t.isLt)
    rw [e]; exact acc4_last_sum V c q _
  rw [hacc]
  exact (congrArg (meanRow (linPre2 (V c (Pipeline.arrRef spec4 0)) (V c (Pipeline.arrRef spec4 1)) (V c (Pipeline.arrRef spec4 2)) (V c (Pipeline.arrRef spec4 3)) (V c (Pipeline.arrRef spec4 4)))) h6).symm

set_option maxHeartbeats 2000000 in
theorem flushed4_7_eq (c : Dev nD) (t : Fin cfg4.N) (hf : (cfg4.win 7).flush t = true) :
    (dat4 (F := Ideal) V c).flushed 7 t = ((cfg4.win 7).blk t).view.read (Elt Ideal) (varRow (linPre2 (V c (Pipeline.arrRef spec4 0)) (V c (Pipeline.arrRef spec4 1)) (V c (Pipeline.arrRef spec4 2)) (V c (Pipeline.arrRef spec4 3)) (V c (Pipeline.arrRef spec4 4)))) := by
  have hN : t.val < 10 := lt_of_lt_of_eq t.isLt N_4
  have h9 : t.val = 9 := by have := (flush4_7 t).mp hf; omega
  show (cfg4.win 7).cut (grid4.coords t) ((dat4 (F := Ideal) V c).after 7 t) = _
  rw [after4_7, varAt4_last V c t h9]
  obtain ⟨e00, e01, e10, e11, e20, e21, e30, e31, e40, e41, e50, e51, e60, e61, e70, e71⟩ := idx_facts4 t
  funext j
  obtain ⟨z, q, rfl⟩ : ∃ (z : Fin 1) (q : Fin 128), j = ix2 z q := ⟨j 0, j 1, eq_ix2 j⟩
  obtain rfl : z = 0 := Subsingleton.elim _ _
  have h7 : (((cfg4.win 7).blk t).view.emb (ix2 (0 : Fin 1) q)) = ix2 (0 : Fin 1) q := by
    funext a; apply Fin.ext
    match a with
    | ⟨0, _⟩ => show win4_7.index t (0 : Fin 2) * 1 + 1 * 0 = 0; omega
    | ⟨1, _⟩ => show win4_7.index t (1 : Fin 2) * 128 + 1 * q.val = q.val; omega
  refine (pay4_var_apply _ _ q).trans ?_
  have e := accAt4_congr V c t.val 9 h9 t.isLt (lt_of_eq_of_lt h9.symm t.isLt)
  have hacc1 : (accAt4 V c t.val t.isLt).1 (ix2 (0 : Fin 1) q) = colSum (linPre2 (V c (Pipeline.arrRef spec4 0)) (V c (Pipeline.arrRef spec4 1)) (V c (Pipeline.arrRef spec4 2)) (V c (Pipeline.arrRef spec4 3)) (V c (Pipeline.arrRef spec4 4))) q := by rw [e]; exact acc4_last_sum V c q _
  have hacc2 : (accAt4 V c t.val t.isLt).2 (ix2 (0 : Fin 1) q) = colSum (fun i => (linPre2 (V c (Pipeline.arrRef spec4 0)) (V c (Pipeline.arrRef spec4 1)) (V c (Pipeline.arrRef spec4 2)) (V c (Pipeline.arrRef spec4 3)) (V c (Pipeline.arrRef spec4 4))) i * (linPre2 (V c (Pipeline.arrRef spec4 0)) (V c (Pipeline.arrRef spec4 1)) (V c (Pipeline.arrRef spec4 2)) (V c (Pipeline.arrRef spec4 3)) (V c (Pipeline.arrRef spec4 4))) i) q := by rw [e]; exact acc4_last_sq V c q _
  rw [pay4_mean_apply, hacc1, hacc2]
  exact (congrArg (varRow (linPre2 (V c (Pipeline.arrRef spec4 0)) (V c (Pipeline.arrRef spec4 1)) (V c (Pipeline.arrRef spec4 2)) (V c (Pipeline.arrRef spec4 3)) (V c (Pipeline.arrRef spec4 4)))) h7).symm

/-- THE MEAN ROW after the region. -/
theorem final4_mean (c : Dev nD) : (dat4 (F := Ideal) V c).arrAt 6 cfg4.N = meanRow (linPre2 (V c (Pipeline.arrRef spec4 0)) (V c (Pipeline.arrRef spec4 1)) (V c (Pipeline.arrRef spec4 2)) (V c (Pipeline.arrRef spec4 3)) (V c (Pipeline.arrRef spec4 4))) :=
  (dat4 (F := Ideal) V c).arrAt_eq_of_cover 6 _ (fun t hf => flushed4_6_eq V c t hf) (cover4_6)

/-- THE VARIANCE ROW after the region. -/
theorem final4_var (c : Dev nD) : (dat4 (F := Ideal) V c).arrAt 7 cfg4.N = varRow (linPre2 (V c (Pipeline.arrRef spec4 0)) (V c (Pipeline.arrRef spec4 1)) (V c (Pipeline.arrRef spec4 2)) (V c (Pipeline.arrRef spec4 3)) (V c (Pipeline.arrRef spec4 4))) :=
  (dat4 (F := Ideal) V c).arrAt_eq_of_cover 7 _ (fun t hf => flushed4_7_eq V c t hf) (cover4_7)

end Cert.KernelIdeal.Gen

end
-- ==== Proof.IdealStats6Pieces.lean ====
/- Region 6: what each case's run leaves, in the body's own arithmetic.

   The run's pieces read back are: the output tile, the tile x·Wᵀ + b itself; the first accumulator, the one before
   plus the tile's column sums (from zero at the first point); the second, the one before plus the column sums of the
   tile's squares; and at the last point the mean row, the first accumulator times 1/n, and the variance row,
   max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats6
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem hzR6 : (![0, 0] : Fin 2 → Nat) = fun _ => 0 := funext fun a => by fin_cases a <;> rfl

set_option maxHeartbeats 2000000 in
theorem out6_A_3_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S1x128 .f32) :
    out6_A_3 c i arg1 harg1 arg2 harg2 arg3 harg3 arg4 harg4 arg5 harg5 arg6 harg6 arg7 harg7 arg8 harg8 hc0 hc1 x0 x1 x2 = k6_pay5 x0 x1 x2 := by
  unfold out6_A_3
  rw [View.read_writes_eq_canon _ _ _ (cover6_A_3 c i arg1 harg1 arg2 harg2 arg3 harg3 arg4 harg4 arg5 harg5 arg6 harg6 arg7 harg7 arg8 harg8 hc0 hc1 x0 x1 x2)]
  unfold kernelRun6_A
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem sout6_A_0_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S1x128 .f32) :
    sout6_A_0 c i arg1 harg1 arg2 harg2 arg3 harg3 arg4 harg4 arg5 harg5 arg6 harg6 arg7 harg7 arg8 harg8 hc0 hc1 x0 x1 x2 = k6_pay6 x0 x1 x2 k6_pay3 := by
  unfold sout6_A_0
  rw [View.read_writes_eq_canon _ _ _ (scover6_A_0 c i arg1 harg1 arg2 harg2 arg3 harg3 arg4 harg4 arg5 harg5 arg6 harg6 arg7 harg7 arg8 harg8 hc0 hc1 x0 x1 x2)]
  unfold kernelRun6_A
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem sout6_A_1_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : cond6_0 i) (hc1 : ¬cond6_1 i)
    (x0 : Vec F S5000x128 .f32) (x1 : Vec F S128x128 .f32) (x2 : Vec F S1x128 .f32) :
    sout6_A_1 c i arg1 harg1 arg2 harg2 arg3 harg3 arg4 harg4 arg5 harg5 arg6 harg6 arg7 harg7 arg8 harg8 hc0 hc1 x0 x1 x2 = k6_pay7 x0 x1 x2 k6_pay4 := by
  unfold sout6_A_1
  rw [View.read_writes_eq_canon _ _ _ (scover6_A_1 c i arg1 harg1 arg2 harg2 arg3 harg3 arg4 harg4 arg5 harg5 arg6 harg6 arg7 harg7 arg8 harg8 hc0 hc1 x0 x1 x2)]
  unfold kernelRun6_A
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem out6_B_3_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S1x128 .f32) (xs0 xs1 : Vec F S1x128 .f32) :
    out6_B_3 c i arg1 harg1 arg2 harg2 arg3 harg3 arg4 harg4 arg5 harg5 arg6 harg6 arg7 harg7 arg8 harg8 hc0 hc1 x0 x1 x2 xs0 xs1 = k6_pay5 x0 x1 x2 := by
  unfold out6_B_3
  rw [View.read_writes_eq_canon _ _ _ (cover6_B_3 c i arg1 harg1 arg2 harg2 arg3 harg3 arg4 harg4 arg5 harg5 arg6 harg6 arg7 harg7 arg8 harg8 hc0 hc1 x0 x1 x2 xs0 xs1)]
  unfold kernelRun6_B
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem sout6_B_0_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S1x128 .f32) (xs0 xs1 : Vec F S1x128 .f32) :
    sout6_B_0 c i arg1 harg1 arg2 harg2 arg3 harg3 arg4 harg4 arg5 harg5 arg6 harg6 arg7 harg7 arg8 harg8 hc0 hc1 x0 x1 x2 xs0 xs1 = k6_pay6 x0 x1 x2 xs0 := by
  unfold sout6_B_0
  rw [View.read_writes_eq_canon _ _ _ (scover6_B_0 c i arg1 harg1 arg2 harg2 arg3 harg3 arg4 harg4 arg5 harg5 arg6 harg6 arg7 harg7 arg8 harg8 hc0 hc1 x0 x1 x2 xs0 xs1)]
  unfold kernelRun6_B
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem sout6_B_1_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : ¬cond6_1 i)
    (x0 : Vec F S5000x128 .f32) (x1 : Vec F S128x128 .f32) (x2 : Vec F S1x128 .f32) (xs0 xs1 : Vec F S1x128 .f32) :
    sout6_B_1 c i arg1 harg1 arg2 harg2 arg3 harg3 arg4 harg4 arg5 harg5 arg6 harg6 arg7 harg7 arg8 harg8 hc0 hc1 x0 x1 x2 xs0 xs1 = k6_pay7 x0 x1 x2 xs1 := by
  unfold sout6_B_1
  rw [View.read_writes_eq_canon _ _ _ (scover6_B_1 c i arg1 harg1 arg2 harg2 arg3 harg3 arg4 harg4 arg5 harg5 arg6 harg6 arg7 harg7 arg8 harg8 hc0 hc1 x0 x1 x2 xs0 xs1)]
  unfold kernelRun6_B
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem out6_C_3_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    out6_C_3 c i arg1 harg1 arg2 harg2 arg3 harg3 arg4 harg4 arg5 harg5 arg6 harg6 arg7 harg7 arg8 harg8 hc0 hc1 x0 x1 x2 xs0 xs1 = k6_pay5 x0 x1 x2 := by
  unfold out6_C_3
  rw [View.read_writes_eq_canon _ _ _ (cover6_C_3 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem sout6_C_0_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    sout6_C_0 c i arg1 harg1 arg2 harg2 arg3 harg3 arg4 harg4 arg5 harg5 arg6 harg6 arg7 harg7 arg8 harg8 hc0 hc1 x0 x1 x2 xs0 xs1 = k6_pay6 x0 x1 x2 xs0 := by
  unfold sout6_C_0
  rw [View.read_writes_eq_canon _ _ _ (scover6_C_0 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem sout6_C_1_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    sout6_C_1 c i arg1 harg1 arg2 harg2 arg3 harg3 arg4 harg4 arg5 harg5 arg6 harg6 arg7 harg7 arg8 harg8 hc0 hc1 x0 x1 x2 xs0 xs1 = k6_pay7 x0 x1 x2 xs1 := by
  unfold sout6_C_1
  rw [View.read_writes_eq_canon _ _ _ (scover6_C_1 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem out6_C_4_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    out6_C_4 c i arg1 harg1 arg2 harg2 arg3 harg3 arg4 harg4 arg5 harg5 arg6 harg6 arg7 harg7 arg8 harg8 hc0 hc1 x0 x1 x2 xs0 xs1 = k6_pay1 (k6_pay6 x0 x1 x2 xs0) := by
  unfold out6_C_4
  rw [View.read_writes_eq_canon _ _ _ (cover6_C_4 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

set_option maxHeartbeats 2000000 in
theorem out6_C_5_eq (c : Dev nD) (i : grid6.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (hc0 : ¬cond6_0 i) (hc1 : cond6_1 i)
    (x0 : Vec F S5000x128 .f32) (x1 : Vec F S128x128 .f32) (x2 : Vec F S1x128 .f32) (xs0 xs1 : Vec F S1x128 .f32) :
    out6_C_5 c i arg1 harg1 arg2 harg2 arg3 harg3 arg4 harg4 arg5 harg5 arg6 harg6 arg7 harg7 arg8 harg8 hc0 hc1 x0 x1 x2 xs0 xs1 = k6_pay2 (k6_pay6 x0 x1 x2 xs0) (k6_pay7 x0 x1 x2 xs1) := by
  unfold out6_C_5
  rw [View.read_writes_eq_canon _ _ _ (cover6_C_5 c i arg1 harg1 arg2 harg2 arg3 harg3 arg4 harg4 arg5 harg5 arg6 harg6 arg7 harg7 arg8 harg8 hc0 hc1 x0 x1 x2 xs0 xs1)]
  unfold kernelRun6_C
  dsimp only
  sl_unfold_words
  simp only [View.canon_cons_unit_zero (S := S5000x128) hzR6, View.canon_unit_zero (S := S5000x128) hzR6, View.canon_cons_unit_zero (S := S128x128) hzR6, View.canon_unit_zero (S := S128x128) hzR6, View.canon_cons_unit_zero (S := S1x128) hzR6, View.canon_unit_zero (S := S1x128) hzR6, View.readCov_unit_zero (S := S1x128) _ hzR6, View.readAt_eq_ld, harg1.read_unread, harg2.read_unread, harg3.read_unread, harg4.read_unread, harg5.read_unread, harg6.read_unread, harg7.read_unread, harg8.read_unread,
    View.ld_unit_zero (S := S5000x128) hzR6, View.ld_unit_zero (S := S128x128) hzR6, View.ld_unit_zero (S := S1x128) hzR6]

end Cert.KernelIdeal.Gen

end
-- ==== Proof.IdealStats6Fold.lean ====
/- Region 6: the region's outputs point by point, in the body's own arithmetic.

   The output tile after point t is the tile x·Wᵀ + b of that point's blocks.  The two accumulators after the first
   point are the tile's column sums, and the column sums of its squares, added to zero; after each later point, what
   they were plus that point's.  The last point stores the mean row, the first accumulator times 1/n, and the variance
   row, max(second accumulator times 1/n − mean², 0). -/
import proofs.«180021_j37692632990117_2_alg».proof.Proof.Gen.KernelIdeal.Launch
import proofs.«180021_j37692632990117_2_alg».proof.Proof.Gen.KernelIdeal.Skeleton
import proofs.«180021_j37692632990117_2_alg».proof.Proof.Gen.KernelIdeal.Points
import proofs.«180021_j37692632990117_2_alg».proof.Proof.IdealStats6Pieces
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (V : (c : Dev nD) → (b : Ref sig .tc) → Buf (Elt F) ((c : Thread nD τ).loc b))

theorem tileAt6_eq (c : Dev nD) (t : Fin cfg6.N) : tileAt6 V c t = k6_pay5 (iblk6 V c 0 t) (iblk6 V c 1 t) (iblk6 V c 2 t) := by
  have hN : t.val < 10 := lt_of_lt_of_eq t.isLt N_6
  unfold tileAt6
  split_ifs with h0 h1 h1
  · omega
  · exact out6_A_3_eq c _ _ _ _ _ _ _ _ _ _ _ _ _ _ _ _ _ _ _ _ _ _
  · exact out6_C_3_eq c _ _ _ _ _ _ _ _ _ _ _ _ _ _ _ _ _ _ _ _ _ _ _ _
  · exact out6_B_3_eq c _ _ _ _ _ _ _ _ _ _ _ _ _ _ _ _ _ _ _ _ _ _ _ _

theorem accAt6_first (c : Dev nD) (t : Fin cfg6.N) (h0 : t.val = 0) :
    accAt6 V c t.val t.isLt = (k6_pay6 (iblk6 V c 0 t) (iblk6 V c 1 t) (iblk6 V c 2 t) k6_pay3, k6_pay7 (iblk6 V c 0 t) (iblk6 V c 1 t) (iblk6 V c 2 t) k6_pay4) := by
  rw [accAt6_A V c t h0 (by omega)]
  exact congrArg₂ Prod.mk (sout6_A_0_eq c _ _ _ _ _ _ _ _ _ _ _ _ _ _ _ _ _ _ _ _ _ _) (sout6_A_1_eq c _ _ _ _ _ _ _ _ _ _ _ _ _ _ _ _ _ _ _ _ _ _)

theorem accAt6_next (c : Dev nD) (t : Fin cfg6.N) (h0 : ¬t.val = 0) :
    accAt6 V c t.val t.isLt = (k6_pay6 (iblk6 V c 0 t) (iblk6 V c 1 t) (iblk6 V c 2 t) (accAt6 V c (t.val - 1) (Nat.lt_of_le_of_lt (Nat.sub_le _ _) t.isLt)).1, k6_pay7 (iblk6 V c 0 t) (iblk6 V c 1 t) (iblk6 V c 2 t) (accAt6 V c (t.val - 1) (Nat.lt_of_le_of_lt (Nat.sub_le _ _) t.isLt)).2) := by
  by_cases h1 : t.val = 9
  · rw [accAt6_C V c t h0 h1]
    exact congrArg₂ Prod.mk (sout6_C_0_eq c _ _ _ _ _ _ _ _ _ _ _ _ _ _ _ _ _ _ _ _ _ _ _ _) (sout6_C_1_eq c _ _ _ _ _ _ _ _ _ _ _ _ _ _ _ _ _ _ _ _ _ _ _ _)
  · rw [accAt6_B V c t h0 h1]
    exact congrArg₂ Prod.mk (sout6_B_0_eq c _ _ _ _ _ _ _ _ _ _ _ _ _ _ _ _ _ _ _ _ _ _ _ _) (sout6_B_1_eq c _ _ _ _ _ _ _ _ _ _ _ _ _ _ _ _ _ _ _ _ _ _ _ _)

theorem meanAt6_last (c : Dev nD) (t : Fin cfg6.N) (h1 : t.val = 9) :
    meanAt6 V c t = k6_pay1 ((accAt6 V c t.val t.isLt).1) := by
  have h0 : ¬t.val = 0 := by omega
  simp only [meanAt6, dif_neg h0, dif_pos h1]
  rw [out6_C_4_eq, accAt6_next V c t h0]

theorem varAt6_last (c : Dev nD) (t : Fin cfg6.N) (h1 : t.val = 9) :
    varAt6 V c t = k6_pay2 ((accAt6 V c t.val t.isLt).1) ((accAt6 V c t.val t.isLt).2) := by
  have h0 : ¬t.val = 0 := by omega
  simp only [varAt6, dif_neg h0, dif_pos h1]
  rw [out6_C_5_eq, accAt6_next V c t h0]

end Cert.KernelIdeal.Gen

end
-- ==== Proof.IdealStats6Value.lean ====
/- Region 6 at the extended reals: the read-out's first linear map and its column statistics.

   Entry (p, q) of the tile the body forms at point t is Σ_k x(5000t+p, k)·W(q, k) + b(0, q): entry (5000t+p, q) of the
   whole pre-activation.  The ten tiles cover the output array; the two accumulators gather the column sums and the column
   sums of squares tile by tile; the last point stores the mean row and the variance row. -/
import proofs.«180021_j37692632990117_2_alg».proof.Proof.IdealStats6Fold
import proofs.«180021_j37692632990117_2_alg».proof.Proof.SpecNet
import proofs.«180021_j37692632990117_2_alg».proof.Proof.LibGraphMath
import Idealize.ShloMosaic.PureOps.Ideal.Laws
import Idealize.ShloMosaic.PureOps.IdealRules
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

theorem inv_n6 : Named.named (F := Ideal) κ "inv_50000" (φ := .f32) 0x37A7C5AC#32 = ((1 / 50000 : ℝ) : EReal) :=
  IdealRules.named_const.ideal_named_scalar _ _ _ _ rfl

/-- The tile's entry: the product with the transposed weight, then the bias row. -/
theorem pay6_tile_apply (x0 : Vec Ideal S5000x128 .f32) (x1 : Vec Ideal S128x128 .f32) (x2 : Vec Ideal S1x128 .f32) (p : Fin 5000) (j : Fin 128) :
    k6_pay5 (F := Ideal) x0 x1 x2 (ix2 p j) = ∑ k : Fin 128, x0 (ix2 p k) * x1 (ix2 j k) + x2 (ix2 (0 : Fin 1) j) := by
  unfold k6_pay5
  dsimp only
  refine congrArg₂ (· + ·) ?_ ?_
  · refine (Ideal.matmul_constant_zero_apply dot_S5000x128_S128x128_S5000x128_1_0_0_1_n_n none _ _ _).trans ?_
    refine (Equiv.sum_comp (contrEquiv1 dot_S5000x128_S128x128_S5000x128_1_0_0_1_n_n 128 rfl rfl).symm _).symm.trans ?_
    refine Finset.sum_congr rfl fun k _ => ?_
    have hk0 := contrEquiv1_symm_val dot_S5000x128_S128x128_S5000x128_1_0_0_1_n_n 128 rfl rfl k
    have hl := DotDims.lhsIdx_val_of_single (d := dot_S5000x128_S128x128_S5000x128_1_0_0_1_n_n) (cl := (1 : Fin 2)) rfl (ix2 p j) ((contrEquiv1 dot_S5000x128_S128x128_S5000x128_1_0_0_1_n_n 128 rfl rfl).symm k)
    have hr := DotDims.rhsIdx_val_of_single (d := dot_S5000x128_S128x128_S5000x128_1_0_0_1_n_n) (cr := (0 : Fin 2)) rfl (ix2 p j) ((contrEquiv1 dot_S5000x128_S128x128_S5000x128_1_0_0_1_n_n 128 rfl rfl).symm k)
    have hl0 : (dot_S5000x128_S128x128_S5000x128_1_0_0_1_n_n.lhsIdx (ix2 p j) ((contrEquiv1 dot_S5000x128_S128x128_S5000x128_1_0_0_1_n_n 128 rfl rfl).symm k) (0 : Fin 2)).val = p.val := rfl
    have hr1 : (dot_S5000x128_S128x128_S5000x128_1_0_0_1_n_n.rhsIdx (ix2 p j) ((contrEquiv1 dot_S5000x128_S128x128_S5000x128_1_0_0_1_n_n 128 rfl rfl).symm k) (1 : Fin 2)).val = j.val := rfl
    refine congrArg₂ (· * ·) ?_ ?_
    · refine (congrFun (shapeCast_self x0 _) _).trans (congrArg x0 ?_)
      funext a; apply Fin.ext
      match a with
      | ⟨0, _⟩ => exact hl0
      | ⟨1, _⟩ => exact hl.trans hk0
    · refine (transpose_apply _ _ _ _ (ix2 j k) (fun b => ?_)).trans rfl
      match b with
      | ⟨0, _⟩ => exact (hr.trans hk0).symm
      | ⟨1, _⟩ => exact hr1.symm
  · refine (broadcastTo_apply _ _ _ (ix2 (0 : Fin 1) j) (fun a => ?_)).trans (congrFun (shapeCast_self x2 _) _)
    match a with
    | ⟨0, _⟩ => rfl
    | ⟨1, _⟩ => rfl

theorem colsum6_apply (y : FVec Ideal S5000x128 .f32) (h2 : FKind.Formats FTy.f32) (h3) (q : Fin 128) :
    shapeCast S1x128 (multiReduction FKind.add [0] S128 y (0#32) reduces_S5000x128_S128 h2 h3) shapeCasts_S128_S1x128 (ix2 (0 : Fin 1) q)
      = ∑ p : Fin 5000, y (ix2 p q) := by
  refine (shapeCast_apply _ _ _ (ix1 q) ?_).trans ?_
  · rw [Shape.rowMajor_val_one, Shape.rowMajor_val_two]
    show (q : ℕ) = (0 : ℕ) * 128 + (q : ℕ)
    omega
  · refine (Ideal.multiReduction_add_single _ _ _ _ _ _).trans ?_
    refine Finset.sum_congr rfl fun p _ => congrArg y (funext fun a => Fin.ext ?_)
    match a with
    | ⟨0, _⟩ => rfl
    | ⟨1, _⟩ => rfl

theorem pay6_sum_apply (x0 : Vec Ideal S5000x128 .f32) (x1 : Vec Ideal S128x128 .f32) (x2 s : Vec Ideal S1x128 .f32) (q : Fin 128) :
    k6_pay6 (F := Ideal) x0 x1 x2 s (ix2 (0 : Fin 1) q) = s (ix2 (0 : Fin 1) q) + ∑ p : Fin 5000, k6_pay5 (F := Ideal) x0 x1 x2 (ix2 p q) := by
  unfold k6_pay6
  dsimp only
  refine (congrFun (shapeCast_self _ _) _).trans ?_
  exact congrArg₂ (· + ·) rfl (colsum6_apply _ _ _ q)

theorem pay6_sq_apply (x0 : Vec Ideal S5000x128 .f32) (x1 : Vec Ideal S128x128 .f32) (x2 s : Vec Ideal S1x128 .f32) (q : Fin 128) :
    k6_pay7 (F := Ideal) x0 x1 x2 s (ix2 (0 : Fin 1) q) = s (ix2 (0 : Fin 1) q) + ∑ p : Fin 5000, k6_pay5 (F := Ideal) x0 x1 x2 (ix2 p q) * k6_pay5 (F := Ideal) x0 x1 x2 (ix2 p q) := by
  unfold k6_pay7
  dsimp only
  refine (congrFun (shapeCast_self _ _) _).trans ?_
  exact congrArg₂ (· + ·) rfl (colsum6_apply _ _ _ q)

theorem pay6_mean_apply (s : Vec Ideal S1x128 .f32) (q : Fin 128) :
    k6_pay1 (F := Ideal) s (ix2 (0 : Fin 1) q) = s (ix2 (0 : Fin 1) q) * ((1 / 50000 : ℝ) : EReal) := by
  unfold k6_pay1
  show s (ix2 (0 : Fin 1) q) * Named.named (F := Ideal) κ "inv_50000" (φ := .f32) 0x37A7C5AC#32 = _
  rw [inv_n6]

theorem pay6_var_apply (s0 s1 : Vec Ideal S1x128 .f32) (q : Fin 128) :
    k6_pay2 (F := Ideal) s0 s1 (ix2 (0 : Fin 1) q) = max (s1 (ix2 (0 : Fin 1) q) * ((1 / 50000 : ℝ) : EReal) - k6_pay1 (F := Ideal) s0 (ix2 (0 : Fin 1) q) * k6_pay1 (F := Ideal) s0 (ix2 (0 : Fin 1) q)) (Ideal.ofBits .f32 0x00000000#32) := by
  unfold k6_pay2
  show max (s1 (ix2 (0 : Fin 1) q) * Named.named (F := Ideal) κ "inv_50000" (φ := .f32) 0x37A7C5AC#32 - _) _ = _
  rw [inv_n6]
  rfl

theorem pay6_zero0 (q : Fin 128) : k6_pay3 (F := Ideal) (ix2 (0 : Fin 1) q) = 0 := by
  unfold k6_pay3
  show Ideal.ofBits .f32 0x00000000#32 = 0
  exact Ideal.ofBits_zero_f32
theorem pay6_zero1 (q : Fin 128) : k6_pay4 (F := Ideal) (ix2 (0 : Fin 1) q) = 0 := by
  unfold k6_pay4
  show Ideal.ofBits .f32 0x00000000#32 = 0
  exact Ideal.ofBits_zero_f32

theorem point6_tile (a0 : S50000x128.Idx → EReal) (a1 : S128x128.Idx → EReal) (a2 : S1x128.Idx → EReal)
    (x0 : Vec Ideal S5000x128 .f32) (x1 : Vec Ideal S128x128 .f32) (x2 : Vec Ideal S1x128 .f32) (p : Fin 5000) (q : Fin 128) (r : Fin 50000)
    (h0 : ∀ k : Fin 128, x0 (ix2 p k) = a0 (ix2 r k)) (h1 : ∀ k : Fin 128, x1 (ix2 q k) = a1 (ix2 q k))
    (h2 : x2 (ix2 (0 : Fin 1) q) = a2 (ix2 (0 : Fin 1) q)) :
    k6_pay5 (F := Ideal) x0 x1 x2 (ix2 p q) = linPre1 a0 a1 a2 (ix2 r q) := by
  rw [pay6_tile_apply]
  show _ = ∑ k : Fin 128, a0 (ix2 r k) * a1 (ix2 q k) + a2 (ix2 (0 : Fin 1) q)
  simp only [h0, h1, h2]

variable (V : (c : Dev nD) → (b : Ref sig .tc) → Buf (Elt Ideal) ((c : Thread nD τ).loc b))

theorem idx_facts6 : ∀ t : Fin cfg6.N,
      win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

set_option maxHeartbeats 2000000 in
theorem tile6_entry (c : Dev nD) (t : Fin cfg6.N) (p : Fin 5000) (q : Fin 128) (hr : t.val * 5000 + p.val < 50000) :
    k6_pay5 (F := Ideal) (iblk6 V c 0 t) (iblk6 V c 1 t) (iblk6 V c 2 t) (ix2 p q) = (linPre1 (V c (Pipeline.arrRef spec6 0)) (V c (Pipeline.arrRef spec6 1)) (V c (Pipeline.arrRef spec6 2))) (ix2 (⟨t.val * 5000 + p.val, hr⟩ : Fin 50000) q) := by
  obtain ⟨e00, e01, e10, e11, e20, e21, e30, e31, e40, e41, e50, e51⟩ := idx_facts6 t
  have h0 : ∀ k : Fin 128, (((cfg6.win 0).blk t).view.emb (ix2 p k)) = ix2 (⟨t.val * 5000 + p.val, hr⟩ : Fin 50000) k := fun k => by
    funext a; apply Fin.ext
    match a with
    | ⟨0, _⟩ => show win6_0.index t (0 : Fin 2) * 5000 + 1 * p.val = t.val * 5000 + p.val; omega
    | ⟨1, _⟩ => show win6_0.index t (1 : Fin 2) * 128 + 1 * k.val = k.val; omega
  have h1 : ∀ k : Fin 128, (((cfg6.win 1).blk t).view.emb (ix2 q k)) = ix2 q k := fun k => by
    funext a; apply Fin.ext
    match a with
    | ⟨0, _⟩ => show win6_1.index t (0 : Fin 2) * 128 + 1 * q.val = q.val; omega
    | ⟨1, _⟩ => show win6_1.index t (1 : Fin 2) * 128 + 1 * k.val = k.val; omega
  have h2 : (((cfg6.win 2).blk t).view.emb (ix2 (0 : Fin 1) q)) = ix2 (0 : Fin 1) q := by
    funext a; apply Fin.ext
    match a with
    | ⟨0, _⟩ => show win6_2.index t (0 : Fin 2) * 1 + 1 * 0 = 0; omega
    | ⟨1, _⟩ => show win6_2.index t (1 : Fin 2) * 128 + 1 * q.val = q.val; omega
  exact point6_tile _ _ _ (iblk6 V c 0 t) (iblk6 V c 1 t) (iblk6 V c 2 t) p q (⟨t.val * 5000 + p.val, hr⟩ : Fin 50000)
    (fun k => congrArg (V c (Pipeline.arrRef spec6 0)) (h0 k)) (fun k => congrArg (V c (Pipeline.arrRef spec6 1)) (h1 k)) (congrArg (V c (Pipeline.arrRef spec6 2)) h2)

set_option maxHeartbeats 2000000 in
theorem flushed6_3_eq (c : Dev nD) (t : Fin cfg6.N) :
    (dat6 (F := Ideal) V c).flushed 3 t = ((cfg6.win 3).blk t).view.read (Elt Ideal) (linPre1 (V c (Pipeline.arrRef spec6 0)) (V c (Pipeline.arrRef spec6 1)) (V c (Pipeline.arrRef spec6 2))) := by
  show (cfg6.win 3).cut (grid6.coords t) ((dat6 (F := Ideal) V c).after 3 t) = _
  rw [after6_3, tileAt6_eq]
  obtain ⟨e00, e01, e10, e11, e20, e21, e30, e31, e40, e41, e50, e51⟩ := idx_facts6 t
  have ht : t.val < 10 := lt_of_lt_of_eq t.isLt N_6
  funext j
  obtain ⟨p, q, rfl⟩ : ∃ (p : Fin 5000) (q : Fin 128), j = ix2 p q := ⟨j 0, j 1, eq_ix2 j⟩
  have hp : p.val < 5000 := p.isLt
  have hr : t.val * 5000 + p.val < 50000 := by omega
  have h5 : (((cfg6.win 3).blk t).view.emb (ix2 p q)) = ix2 (⟨t.val * 5000 + p.val, hr⟩ : Fin 50000) q := by
    funext a; apply Fin.ext
    match a with
    | ⟨0, _⟩ => show win6_3.index t (0 : Fin 2) * 5000 + 1 * p.val = t.val * 5000 + p.val; omega
    | ⟨1, _⟩ => show win6_3.index t (1 : Fin 2) * 128 + 1 * q.val = q.val; omega
  exact (tile6_entry V c t p q hr).trans (congrArg (linPre1 (V c (Pipeline.arrRef spec6 0)) (V c (Pipeline.arrRef spec6 1)) (V c (Pipeline.arrRef spec6 2))) h5.symm)

theorem mem_blk6_3 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v116_0).slice (win6_3.rect t)).set ↔ _
  rw [View.set_slice_whole, Rect.mem_set_unit]
  exact Iff.rfl

theorem cover6_3 (i : S50000x128.Idx) : ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  have htv : t.val = (i 0).val / 5000 := rfl
  obtain ⟨e00, e01, e10, e11, e20, e21, e30, e31, e40, e41, e50, e51⟩ := idx_facts6 t
  refine ⟨t, flush6_3 t, ?_⟩
  rw [mem_blk6_3]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 128 ≤ (i 1).val ∧ (i 1).val < win6_3.index t (1 : Fin 2) * 128 + 128; omega

/-- THE PRE-ACTIVATION ARRAY after the region. -/
theorem final6_pre (c : Dev nD) : (dat6 (F := Ideal) V c).arrAt 3 cfg6.N = (linPre1 (V c (Pipeline.arrRef spec6 0)) (V c (Pipeline.arrRef spec6 1)) (V c (Pipeline.arrRef spec6 2))) :=
  (dat6 (F := Ideal) V c).arrAt_eq_of_cover 3 _ (fun t _ => flushed6_3_eq V c t) (cover6_3)

end Cert.KernelIdeal.Gen

end
-- ==== Proof.IdealStats6Stat.lean ====
/- Region 6 at the extended reals, continued: the column statistics.

   After point n the first accumulator holds, in column q, zero plus the column sums of the tiles 0 … n — by the tile's
   entries, sums of entries of the whole pre-activation over the rows 5000·t … 5000·t + 4999 —, so after the last point
   the column sum over all 50000 rows; the second accumulator the same for the squares.  The last point's mean row is the
   column sum times 1/50000, its variance row max(sum of squares/50000 − mean², 0): the two rows the windows write back. -/
import proofs.«180021_j37692632990117_2_alg».proof.Proof.IdealStats6Value

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat Cfg Window)
open Cert.Spec

variable (V : (c : Dev nD) → (b : Ref sig .tc) → Buf (Elt Ideal) ((c : Thread nD τ).loc b))

/-- The pre-activation's entry at a natural row number, zero beyond the array. -/
def preN6 (c : Dev nD) (r : ℕ) (q : Fin 128) : EReal := if h : r < 50000 then (linPre1 (V c (Pipeline.arrRef spec6 0)) (V c (Pipeline.arrRef spec6 1)) (V c (Pipeline.arrRef spec6 2))) (ix2 (⟨r, h⟩ : Fin 50000) q) else 0

theorem accAt6_congr (c : Dev nD) (a b : ℕ) (h : a = b) (ha : a < cfg6.N) (hb : b < cfg6.N) : accAt6 V c a ha = accAt6 V c b hb := by
  subst h; rfl

/-- A tile's entries are the pre-activation's, row by row. -/
theorem tile6_row (c : Dev nD) (t : Fin cfg6.N) (p : Fin 5000) (q : Fin 128) :
    k6_pay5 (F := Ideal) (iblk6 V c 0 t) (iblk6 V c 1 t) (iblk6 V c 2 t) (ix2 p q) = preN6 V c (5000 * t.val + p.val) q := by
  have ht : t.val < 10 := lt_of_lt_of_eq t.isLt N_6
  have hp : p.val < 5000 := p.isLt
  have hr : t.val * 5000 + p.val < 50000 := by omega
  have hr' : 5000 * t.val + p.val < 50000 := by omega
  rw [tile6_entry V c t p q hr]
  unfold preN6
  rw [dif_pos hr']
  exact congrArg (fun r => (linPre1 (V c (Pipeline.arrRef spec6 0)) (V c (Pipeline.arrRef spec6 1)) (V c (Pipeline.arrRef spec6 2))) (ix2 r q)) (Fin.ext (by show t.val * 5000 + p.val = 5000 * t.val + p.val; omega))

/-- The first accumulator after point n: zero plus the column sums of the tiles up to n. -/
theorem acc6_sum (c : Dev nD) (q : Fin 128) (n : ℕ) (hn : n < cfg6.N) :
    (accAt6 V c n hn).1 (ix2 (0 : Fin 1) q) = 0 + ∑ t : Fin (n + 1), ∑ p : Fin 5000, preN6 V c (5000 * t.val + p.val) q := by
  have key := Cert.KMath.acc_eq_sum (fun k => if hk : k < cfg6.N then (accAt6 V c k hk).1 (ix2 (0 : Fin 1) q) else 0)
    (fun k => ∑ p : Fin 5000, preN6 V c (5000 * k + p.val) q) 0 n ?h0 ?hstep
  · simpa only [dif_pos hn] using key
  case h0 =>
    have h0N : 0 < cfg6.N := Nat.lt_of_le_of_lt (Nat.zero_le _) hn
    show (if hk : 0 < cfg6.N then (accAt6 V c 0 hk).1 (ix2 (0 : Fin 1) q) else 0) = 0 + _
    rw [dif_pos h0N, accAt6_first V c ⟨0, h0N⟩ rfl]
    show k6_pay6 (F := Ideal) _ _ _ _ (ix2 (0 : Fin 1) q) = _
    rw [pay6_sum_apply, pay6_zero0]
    exact congrArg (0 + ·) (Finset.sum_congr rfl fun p _ => tile6_row V c ⟨0, h0N⟩ p q)
  case hstep =>
    intro t ht
    have h1 : t + 1 < cfg6.N := Nat.lt_of_le_of_lt (Nat.succ_le_of_lt ht) hn
    have h2 : t < cfg6.N := Nat.lt_of_succ_lt h1
    show (if hk : t + 1 < cfg6.N then (accAt6 V c (t + 1) hk).1 (ix2 (0 : Fin 1) q) else 0) = (if hk : t < cfg6.N then (accAt6 V c t hk).1 (ix2 (0 : Fin 1) q) else 0) + _
    rw [dif_pos h1, dif_pos h2, accAt6_next V c ⟨t + 1, h1⟩ (Nat.succ_ne_zero t)]
    show k6_pay6 (F := Ideal) _ _ _ _ (ix2 (0 : Fin 1) q) = _
    rw [pay6_sum_apply]
    refine congrArg₂ (· + ·) ?_ (Finset.sum_congr rfl fun p _ => tile6_row V c ⟨t + 1, h1⟩ p q)
    exact congrArg (fun z => z.1 (ix2 (0 : Fin 1) q)) (accAt6_congr V c _ _ (Nat.add_sub_cancel t 1) _ h2)

/-- The second accumulator after point n: zero plus the column sums of the tiles' squares. -/
theorem acc6_sq (c : Dev nD) (q : Fin 128) (n : ℕ) (hn : n < cfg6.N) :
    (accAt6 V c n hn).2 (ix2 (0 : Fin 1) q) = 0 + ∑ t : Fin (n + 1), ∑ p : Fin 5000, preN6 V c (5000 * t.val + p.val) q * preN6 V c (5000 * t.val + p.val) q := by
  have key := Cert.KMath.acc_eq_sum (fun k => if hk : k < cfg6.N then (accAt6 V c k hk).2 (ix2 (0 : Fin 1) q) else 0)
    (fun k => ∑ p : Fin 5000, preN6 V c (5000 * k + p.val) q * preN6 V c (5000 * k + p.val) q) 0 n ?h0 ?hstep
  · simpa only [dif_pos hn] using key
  case h0 =>
    have h0N : 0 < cfg6.N := Nat.lt_of_le_of_lt (Nat.zero_le _) hn
    show (if hk : 0 < cfg6.N then (accAt6 V c 0 hk).2 (ix2 (0 : Fin 1) q) else 0) = 0 + _
    rw [dif_pos h0N, accAt6_first V c ⟨0, h0N⟩ rfl]
    show k6_pay7 (F := Ideal) _ _ _ _ (ix2 (0 : Fin 1) q) = _
    rw [pay6_sq_apply, pay6_zero1]
    exact congrArg (0 + ·) (Finset.sum_congr rfl fun p _ => by rw [tile6_row V c ⟨0, h0N⟩ p q])
  case hstep =>
    intro t ht
    have h1 : t + 1 < cfg6.N := Nat.lt_of_le_of_lt (Nat.succ_le_of_lt ht) hn
    have h2 : t < cfg6.N := Nat.lt_of_succ_lt h1
    show (if hk : t + 1 < cfg6.N then (accAt6 V c (t + 1) hk).2 (ix2 (0 : Fin 1) q) else 0) = (if hk : t < cfg6.N then (accAt6 V c t hk).2 (ix2 (0 : Fin 1) q) else 0) + _
    rw [dif_pos h1, dif_pos h2, accAt6_next V c ⟨t + 1, h1⟩ (Nat.succ_ne_zero t)]
    show k6_pay7 (F := Ideal) _ _ _ _ (ix2 (0 : Fin 1) q) = _
    rw [pay6_sq_apply]
    refine congrArg₂ (· + ·) ?_ (Finset.sum_congr rfl fun p _ => by rw [tile6_row V c ⟨t + 1, h1⟩ p q])
    exact congrArg (fun z => z.2 (ix2 (0 : Fin 1) q)) (accAt6_congr V c _ _ (Nat.add_sub_cancel t 1) _ h2)

/-- A column sum over the 50000 rows is the sum over the ten tiles of 5000 rows. -/
theorem colsum6_blocks (c : Dev nD) (f : EReal → EReal) (hf : f 0 = 0 ∨ True) (q : Fin 128) :
    (∑ r : Fin 50000, f ((linPre1 (V c (Pipeline.arrRef spec6 0)) (V c (Pipeline.arrRef spec6 1)) (V c (Pipeline.arrRef spec6 2))) (ix2 r q))) = ∑ t : Fin 10, ∑ p : Fin 5000, f (preN6 V c (5000 * t.val + p.val) q) := by
  rw [Cert.KMath.sum_blocks_gen 10 5000 50000 (by norm_num) (fun r => f (preN6 V c r q))]
  refine Finset.sum_congr rfl fun r _ => ?_
  unfold preN6
  rw [dif_pos r.isLt]

theorem acc6_last_sum (c : Dev nD) (q : Fin 128) (h9 : 9 < cfg6.N) :
    (accAt6 V c 9 h9).1 (ix2 (0 : Fin 1) q) = colSum (linPre1 (V c (Pipeline.arrRef spec6 0)) (V c (Pipeline.arrRef spec6 1)) (V c (Pipeline.arrRef spec6 2))) q := by
  rw [acc6_sum V c q 9 h9, zero_add]
  exact (colsum6_blocks V c (fun x => x) (Or.inr trivial) q).symm

theorem acc6_last_sq (c : Dev nD) (q : Fin 128) (h9 : 9 < cfg6.N) :
    (accAt6 V c 9 h9).2 (ix2 (0 : Fin 1) q) = colSum (fun i => (linPre1 (V c (Pipeline.arrRef spec6 0)) (V c (Pipeline.arrRef spec6 1)) (V c (Pipeline.arrRef spec6 2))) i * (linPre1 (V c (Pipeline.arrRef spec6 0)) (V c (Pipeline.arrRef spec6 1)) (V c (Pipeline.arrRef spec6 2))) i) q := by
  rw [acc6_sq V c q 9 h9, zero_add]
  exact (colsum6_blocks V c (fun x => x * x) (Or.inr trivial) q).symm

/-! ## The mean and the variance rows -/

theorem mem_blk6_4 (t : Fin cfg6.N) (i : S1x128.Idx) :
    i ∈ ((cfg6.win 4).blk t).view.set ↔ ∀ a : Fin 2, win6_4.index t a * S1x128.size a ≤ (i a).val ∧ (i a).val < win6_4.index t a * S1x128.size a + S1x128.size a := by
  show i ∈ ((View.whole main_v116_1).slice (win6_4.rect t)).set ↔ _
  rw [View.set_slice_whole, Rect.mem_set_unit]
  exact Iff.rfl

theorem cover6_4 (i : S1x128.Idx) : ∃ t : Fin cfg6.N, (cfg6.win 4).flush t = true ∧ i ∈ ((cfg6.win 4).blk t).view.set := by
  have hi0 : (i 0).val < 1 := (i 0).isLt
  have hi1 : (i 1).val < 128 := (i 1).isLt
  have hN : cfg6.N = 10 := N_6
  let t : Fin cfg6.N := ⟨9, by rw [hN]; omega⟩
  obtain ⟨e00, e01, e10, e11, e20, e21, e30, e31, e40, e41, e50, e51⟩ := idx_facts6 t
  refine ⟨t, (flush6_4 t).mpr rfl, ?_⟩
  rw [mem_blk6_4]
  intro a
  match a with
  | ⟨0, _⟩ => show win6_4.index t (0 : Fin 2) * 1 ≤ (i 0).val ∧ (i 0).val < win6_4.index t (0 : Fin 2) * 1 + 1; omega
  | ⟨1, _⟩ => show win6_4.index t (1 : Fin 2) * 128 ≤ (i 1).val ∧ (i 1).val < win6_4.index t (1 : Fin 2) * 128 + 128; omega

theorem mem_blk6_5 (t : Fin cfg6.N) (i : S1x128.Idx) :
    i ∈ ((cfg6.win 5).blk t).view.set ↔ ∀ a : Fin 2, win6_5.index t a * S1x128.size a ≤ (i a).val ∧ (i a).val < win6_5.index t a * S1x128.size a + S1x128.size a := by
  show i ∈ ((View.whole main_v116_2).slice (win6_5.rect t)).set ↔ _
  rw [View.set_slice_whole, Rect.mem_set_unit]
  exact Iff.rfl

theorem cover6_5 (i : S1x128.Idx) : ∃ t : Fin cfg6.N, (cfg6.win 5).flush t = true ∧ i ∈ ((cfg6.win 5).blk t).view.set := by
  have hi0 : (i 0).val < 1 := (i 0).isLt
  have hi1 : (i 1).val < 128 := (i 1).isLt
  have hN : cfg6.N = 10 := N_6
  let t : Fin cfg6.N := ⟨9, by rw [hN]; omega⟩
  obtain ⟨e00, e01, e10, e11, e20, e21, e30, e31, e40, e41, e50, e51⟩ := idx_facts6 t
  refine ⟨t, (flush6_5 t).mpr rfl, ?_⟩
  rw [mem_blk6_5]
  intro a
  match a with
  | ⟨0, _⟩ => show win6_5.index t (0 : Fin 2) * 1 ≤ (i 0).val ∧ (i 0).val < win6_5.index t (0 : Fin 2) * 1 + 1; omega
  | ⟨1, _⟩ => show win6_5.index t (1 : Fin 2) * 128 ≤ (i 1).val ∧ (i 1).val < win6_5.index t (1 : Fin 2) * 128 + 128; omega

set_option maxHeartbeats 2000000 in
theorem flushed6_4_eq (c : Dev nD) (t : Fin cfg6.N) (hf : (cfg6.win 4).flush t = true) :
    (dat6 (F := Ideal) V c).flushed 4 t = ((cfg6.win 4).blk t).view.read (Elt Ideal) (meanRow (linPre1 (V c (Pipeline.arrRef spec6 0)) (V c (Pipeline.arrRef spec6 1)) (V c (Pipeline.arrRef spec6 2)))) := by
  have hN : t.val < 10 := lt_of_lt_of_eq t.isLt N_6
  have h9 : t.val = 9 := by have := (flush6_4 t).mp hf; omega
  show (cfg6.win 4).cut (grid6.coords t) ((dat6 (F := Ideal) V c).after 4 t) = _
  rw [after6_4, meanAt6_last V c t h9]
  obtain ⟨e00, e01, e10, e11, e20, e21, e30, e31, e40, e41, e50, e51⟩ := idx_facts6 t
  funext j
  obtain ⟨z, q, rfl⟩ : ∃ (z : Fin 1) (q : Fin 128), j = ix2 z q := ⟨j 0, j 1, eq_ix2 j⟩
  obtain rfl : z = 0 := Subsingleton.elim _ _
  have h4 : (((cfg6.win 4).blk t).view.emb (ix2 (0 : Fin 1) q)) = ix2 (0 : Fin 1) q := by
    funext a; apply Fin.ext
    match a with
    | ⟨0, _⟩ => show win6_4.index t (0 : Fin 2) * 1 + 1 * 0 = 0; omega
    | ⟨1, _⟩ => show win6_4.index t (1 : Fin 2) * 128 + 1 * q.val = q.val; omega
  refine (pay6_mean_apply _ q).trans ?_
  have hacc : (accAt6 V c t.val t.isLt).1 (ix2 (0 : Fin 1) q) = colSum (linPre1 (V c (Pipeline.arrRef spec6 0)) (V c (Pipeline.arrRef spec6 1)) (V c (Pipeline.arrRef spec6 2))) q := by
    have e := accAt6_congr V c t.val 9 h9 t.isLt (lt_of_eq_of_lt h9.symm t.isLt)
    rw [e]; exact acc6_last_sum V c q _
  rw [hacc]
  exact (congrArg (meanRow (linPre1 (V c (Pipeline.arrRef spec6 0)) (V c (Pipeline.arrRef spec6 1)) (V c (Pipeline.arrRef spec6 2)))) h4).symm

set_option maxHeartbeats 2000000 in
theorem flushed6_5_eq (c : Dev nD) (t : Fin cfg6.N) (hf : (cfg6.win 5).flush t = true) :
    (dat6 (F := Ideal) V c).flushed 5 t = ((cfg6.win 5).blk t).view.read (Elt Ideal) (varRow (linPre1 (V c (Pipeline.arrRef spec6 0)) (V c (Pipeline.arrRef spec6 1)) (V c (Pipeline.arrRef spec6 2)))) := by
  have hN : t.val < 10 := lt_of_lt_of_eq t.isLt N_6
  have h9 : t.val = 9 := by have := (flush6_5 t).mp hf; omega
  show (cfg6.win 5).cut (grid6.coords t) ((dat6 (F := Ideal) V c).after 5 t) = _
  rw [after6_5, varAt6_last V c t h9]
  obtain ⟨e00, e01, e10, e11, e20, e21, e30, e31, e40, e41, e50, e51⟩ := idx_facts6 t
  funext j
  obtain ⟨z, q, rfl⟩ : ∃ (z : Fin 1) (q : Fin 128), j = ix2 z q := ⟨j 0, j 1, eq_ix2 j⟩
  obtain rfl : z = 0 := Subsingleton.elim _ _
  have h5 : (((cfg6.win 5).blk t).view.emb (ix2 (0 : Fin 1) q)) = ix2 (0 : Fin 1) q := by
    funext a; apply Fin.ext
    match a with
    | ⟨0, _⟩ => show win6_5.index t (0 : Fin 2) * 1 + 1 * 0 = 0; omega
    | ⟨1, _⟩ => show win6_5.index t (1 : Fin 2) * 128 + 1 * q.val = q.val; omega
  refine (pay6_var_apply _ _ q).trans ?_
  have e := accAt6_congr V c t.val 9 h9 t.isLt (lt_of_eq_of_lt h9.symm t.isLt)
  have hacc1 : (accAt6 V c t.val t.isLt).1 (ix2 (0 : Fin 1) q) = colSum (linPre1 (V c (Pipeline.arrRef spec6 0)) (V c (Pipeline.arrRef spec6 1)) (V c (Pipeline.arrRef spec6 2))) q := by rw [e]; exact acc6_last_sum V c q _
  have hacc2 : (accAt6 V c t.val t.isLt).2 (ix2 (0 : Fin 1) q) = colSum (fun i => (linPre1 (V c (Pipeline.arrRef spec6 0)) (V c (Pipeline.arrRef spec6 1)) (V c (Pipeline.arrRef spec6 2))) i * (linPre1 (V c (Pipeline.arrRef spec6 0)) (V c (Pipeline.arrRef spec6 1)) (V c (Pipeline.arrRef spec6 2))) i) q := by rw [e]; exact acc6_last_sq V c q _
  rw [pay6_mean_apply, hacc1, hacc2]
  exact (congrArg (varRow (linPre1 (V c (Pipeline.arrRef spec6 0)) (V c (Pipeline.arrRef spec6 1)) (V c (Pipeline.arrRef spec6 2)))) h5).symm

/-- THE MEAN ROW after the region. -/
theorem final6_mean (c : Dev nD) : (dat6 (F := Ideal) V c).arrAt 4 cfg6.N = meanRow (linPre1 (V c (Pipeline.arrRef spec6 0)) (V c (Pipeline.arrRef spec6 1)) (V c (Pipeline.arrRef spec6 2))) :=
  (dat6 (F := Ideal) V c).arrAt_eq_of_cover 4 _ (fun t hf => flushed6_4_eq V c t hf) (cover6_4)

/-- THE VARIANCE ROW after the region. -/
theorem final6_var (c : Dev nD) : (dat6 (F := Ideal) V c).arrAt 5 cfg6.N = varRow (linPre1 (V c (Pipeline.arrRef spec6 0)) (V c (Pipeline.arrRef spec6 1)) (V c (Pipeline.arrRef spec6 2))) :=
  (dat6 (F := Ideal) V c).arrAt_eq_of_cover 5 _ (fun t hf => flushed6_5_eq V c t hf) (cover6_5)

end Cert.KernelIdeal.Gen

end
-- ==== Proof.IdealValue.lean ====
/- The kernel program's three layers and its read-out as functions of the buffers' final contents, at the extended reals.

   A layer's normalising region leaves bnRelu of its five arrays; its first array is the statistics region's first output,
   the pre-activation agg·Wlᵀ + h·Wrᵀ + b of that region's five arrays, and its mean and variance rows are that region's
   other two outputs, the column mean and the column variance of the same pre-activation, each passed through a cast to a
   vector and back (the identity).  The statistics region's first array is the scatter-gather sum times the reciprocal
   degree broadcast along the rows' entries: the aggregate.  No later item writes any of these buffers, so each equation
   holds of the final contents.  The read-out is the same with one linear map and the fused second map and mask. -/
import proofs.«180021_j37692632990117_2_alg».proof.Proof.IdealValueSteps
import proofs.«180021_j37692632990117_2_alg».proof.Proof.SpecNet
import proofs.«180021_j37692632990117_2_alg».proof.Proof.IdealBn1Value
import proofs.«180021_j37692632990117_2_alg».proof.Proof.IdealBn3Value
import proofs.«180021_j37692632990117_2_alg».proof.Proof.IdealBn5Value
import proofs.«180021_j37692632990117_2_alg».proof.Proof.IdealAtom7Value
import proofs.«180021_j37692632990117_2_alg».proof.Proof.IdealStats0Stat
import proofs.«180021_j37692632990117_2_alg».proof.Proof.IdealStats2Stat
import proofs.«180021_j37692632990117_2_alg».proof.Proof.IdealStats4Stat
import proofs.«180021_j37692632990117_2_alg».proof.Proof.IdealStats6Stat
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)
open Cert.Spec Cert.RefRunLib

/-- One column broadcast along the rows' entries, read at an entry, is the column at the entry's row. -/
theorem bcastCol_apply {α : Type} {a b : Nat} (hbc : (⟨2, ![a, 1]⟩ : Shape).BroadcastsInDim ⟨2, ![a, b]⟩ ![0, 1])
    (y : (⟨2, ![a, 1]⟩ : Shape).Idx → α) (i : (⟨2, ![a, b]⟩ : Shape).Idx) :
    broadcastInDim ⟨2, ![a, b]⟩ ![0, 1] hbc y i = y (ix2 (i 0) (0 : Fin 1)) := by
  refine broadcastInDim_apply ![0, 1] hbc y i (ix2 (i 0) (0 : Fin 1)) ?_
  intro d
  fin_cases d
  · show (i 0).val = if a = 1 then 0 else (i 0).val
    split_ifs with h
    · have h0 : (i 0).val < a := (i 0).isLt
      omega
    · rfl
  · show (0 : ℕ) = if (1 : ℕ) = 1 then 0 else _
    simp

/-- A row cast to a vector and back is the row. -/
theorem row_cast_cast {α : Type} {a : ℕ} (x : (⟨2, ![1, a]⟩ : Shape).Idx → α) (h1 : (⟨2, ![1, a]⟩ : Shape).ShapeCasts ⟨1, ![a]⟩)
    (h2 : (⟨1, ![a]⟩ : Shape).ShapeCasts ⟨2, ![1, a]⟩) : shapeCast ⟨2, ![1, a]⟩ (shapeCast ⟨1, ![a]⟩ x h1) h2 = x := by
  funext i
  obtain ⟨u, j, rfl⟩ : ∃ (u : Fin 1) (j : Fin a), i = ix2 u j := ⟨i 0, i 1, eq_ix2 i⟩
  rw [shapeCast_a_1a_apply, shapeCast_1a_a_apply]
  have hu : u = 0 := Subsingleton.elim _ _
  rw [hu]

-- each buffer's contents is typed by its reference's entry in the program's table of buffers; reading the eight or nine
-- entries a statement names takes more than the default budget
set_option maxHeartbeats 4000000

/-! ## The three layers and the read-out as functions of the buffers' final contents (at the extended reals) -/

section Layers

variable (m : (ℓ : Loc nD τ sig) → Buf (Elt Ideal) ℓ) (c : Dev nD)

/-- LAYER 1: the mean aggregate times the left weight plus the features times the right weight plus the bias, its
    column statistics, then the normalising layer — all read at the buffers' final contents. -/
theorem layer1 : K m c main_v45 = kerLayer (K m c main_v24) (K m c main_v14) (K m c main_arg0) (K m c main_v28) (K m c main_v32) (K m c main_v33) (K m c main_v43) (K m c main_v44) := by
  -- the aggregate: the scatter-gather sum times the reciprocal degree of the row
  have hagg : K m c main_v26 = aggK (K m c main_v24) (K m c main_v14) := by
    rw [K_main_v26, K_main_v25]
    funext i
    rw [mulf_apply, bcastCol_apply (α := EReal) (a := 50000) (b := 128)]
    rfl
  -- the statistics region's three outputs
  have hP : K m c main_v34_0 = linPre2 (K m c main_v26) (K m c main_arg0) (K m c main_v28) (K m c main_v32) (K m c main_v33) := by
    rw [keep4 m c main_v34_0 (by decide), keep3 m c main_v26 (by decide), keep3 m c main_arg0 (by decide), keep3 m c main_v28 (by decide), keep3 m c main_v32 (by decide), keep3 m c main_v33 (by decide)]
    exact (ext0_out_5 m c).symm.trans (final0_pre (ent0 m) c)
  have hmean : K m c main_v34_1 = meanRow (linPre2 (K m c main_v26) (K m c main_arg0) (K m c main_v28) (K m c main_v32) (K m c main_v33)) := by
    rw [keep4 m c main_v34_1 (by decide), keep3 m c main_v26 (by decide), keep3 m c main_arg0 (by decide), keep3 m c main_v28 (by decide), keep3 m c main_v32 (by decide), keep3 m c main_v33 (by decide)]
    exact (ext0_out_6 m c).symm.trans (final0_mean (ent0 m) c)
  have hvar : K m c main_v34_2 = varRow (linPre2 (K m c main_v26) (K m c main_arg0) (K m c main_v28) (K m c main_v32) (K m c main_v33)) := by
    rw [keep4 m c main_v34_2 (by decide), keep3 m c main_v26 (by decide), keep3 m c main_arg0 (by decide), keep3 m c main_v28 (by decide), keep3 m c main_v32 (by decide), keep3 m c main_v33 (by decide)]
    exact (ext0_out_7 m c).symm.trans (final0_var (ent0 m) c)
  -- the two rows reach the normalising region through a cast to a vector and back
  have hmu : K m c main_v41 = K m c main_v34_1 := by
    rw [K_main_v41, K_main_v35]; exact row_cast_cast _ _ _
  have hsig : K m c main_v42 = K m c main_v34_2 := by
    rw [K_main_v42, K_main_v36]; exact row_cast_cast _ _ _
  -- the normalising region
  have hout : K m c main_v45 = bnRelu (K m c main_v34_0) (K m c main_v41) (K m c main_v42) (K m c main_v43) (K m c main_v44) := by
    rw [keep6 m c main_v45 (by decide), keep5 m c main_v34_0 (by decide), keep5 m c main_v41 (by decide), keep5 m c main_v42 (by decide), keep5 m c main_v43 (by decide), keep5 m c main_v44 (by decide)]
    exact (ext1_out_5 m c).symm.trans (final1 (ent1 m) c)
  rw [hout, hmu, hsig, hmean, hvar, hP, hagg]
  rfl

/-- LAYER 2: the mean aggregate times the left weight plus the features times the right weight plus the bias, its
    column statistics, then the normalising layer — all read at the buffers' final contents. -/
theorem layer2 : K m c main_v76 = kerLayer (K m c main_v55) (K m c main_v14) (K m c main_v45) (K m c main_v59) (K m c main_v63) (K m c main_v64) (K m c main_v74) (K m c main_v75) := by
  -- the aggregate: the scatter-gather sum times the reciprocal degree of the row
  have hagg : K m c main_v57 = aggK (K m c main_v55) (K m c main_v14) := by
    rw [K_main_v57, K_main_v56]
    funext i
    rw [mulf_apply, bcastCol_apply (α := EReal) (a := 50000) (b := 128)]
    rfl
  -- the statistics region's three outputs
  have hP : K m c main_v65_0 = linPre2 (K m c main_v57) (K m c main_v45) (K m c main_v59) (K m c main_v63) (K m c main_v64) := by
    rw [keep8 m c main_v65_0 (by decide), keep7 m c main_v57 (by decide), keep7 m c main_v45 (by decide), keep7 m c main_v59 (by decide), keep7 m c main_v63 (by decide), keep7 m c main_v64 (by decide)]
    exact (ext2_out_5 m c).symm.trans (final2_pre (ent2 m) c)
  have hmean : K m c main_v65_1 = meanRow (linPre2 (K m c main_v57) (K m c main_v45) (K m c main_v59) (K m c main_v63) (K m c main_v64)) := by
    rw [keep8 m c main_v65_1 (by decide), keep7 m c main_v57 (by decide), keep7 m c main_v45 (by decide), keep7 m c main_v59 (by decide), keep7 m c main_v63 (by decide), keep7 m c main_v64 (by decide)]
    exact (ext2_out_6 m c).symm.trans (final2_mean (ent2 m) c)
  have hvar : K m c main_v65_2 = varRow (linPre2 (K m c main_v57) (K m c main_v45) (K m c main_v59) (K m c main_v63) (K m c main_v64)) := by
    rw [keep8 m c main_v65_2 (by decide), keep7 m c main_v57 (by decide), keep7 m c main_v45 (by decide), keep7 m c main_v59 (by decide), keep7 m c main_v63 (by decide), keep7 m c main_v64 (by decide)]
    exact (ext2_out_7 m c).symm.trans (final2_var (ent2 m) c)
  -- the two rows reach the normalising region through a cast to a vector and back
  have hmu : K m c main_v72 = K m c main_v65_1 := by
    rw [K_main_v72, K_main_v66]; exact row_cast_cast _ _ _
  have hsig : K m c main_v73 = K m c main_v65_2 := by
    rw [K_main_v73, K_main_v67]; exact row_cast_cast _ _ _
  -- the normalising region
  have hout : K m c main_v76 = bnRelu (K m c main_v65_0) (K m c main_v72) (K m c main_v73) (K m c main_v74) (K m c main_v75) := by
    rw [keep10 m c main_v76 (by decide), keep9 m c main_v65_0 (by decide), keep9 m c main_v72 (by decide), keep9 m c main_v73 (by decide), keep9 m c main_v74 (by decide), keep9 m c main_v75 (by decide)]
    exact (ext3_out_5 m c).symm.trans (final3 (ent3 m) c)
  rw [hout, hmu, hsig, hmean, hvar, hP, hagg]
  rfl

/-- LAYER 3: the mean aggregate times the left weight plus the features times the right weight plus the bias, its
    column statistics, then the normalising layer — all read at the buffers' final contents. -/
theorem layer3 : K m c main_v107 = kerLayer (K m c main_v86) (K m c main_v14) (K m c main_v76) (K m c main_v90) (K m c main_v94) (K m c main_v95) (K m c main_v105) (K m c main_v106) := by
  -- the aggregate: the scatter-gather sum times the reciprocal degree of the row
  have hagg : K m c main_v88 = aggK (K m c main_v86) (K m c main_v14) := by
    rw [K_main_v88, K_main_v87]
    funext i
    rw [mulf_apply, bcastCol_apply (α := EReal) (a := 50000) (b := 128)]
    rfl
  -- the statistics region's three outputs
  have hP : K m c main_v96_0 = linPre2 (K m c main_v88) (K m c main_v76) (K m c main_v90) (K m c main_v94) (K m c main_v95) := by
    rw [keep12 m c main_v96_0 (by decide), keep11 m c main_v88 (by decide), keep11 m c main_v76 (by decide), keep11 m c main_v90 (by decide), keep11 m c main_v94 (by decide), keep11 m c main_v95 (by decide)]
    exact (ext4_out_5 m c).symm.trans (final4_pre (ent4 m) c)
  have hmean : K m c main_v96_1 = meanRow (linPre2 (K m c main_v88) (K m c main_v76) (K m c main_v90) (K m c main_v94) (K m c main_v95)) := by
    rw [keep12 m c main_v96_1 (by decide), keep11 m c main_v88 (by decide), keep11 m c main_v76 (by decide), keep11 m c main_v90 (by decide), keep11 m c main_v94 (by decide), keep11 m c main_v95 (by decide)]
    exact (ext4_out_6 m c).symm.trans (final4_mean (ent4 m) c)
  have hvar : K m c main_v96_2 = varRow (linPre2 (K m c main_v88) (K m c main_v76) (K m c main_v90) (K m c main_v94) (K m c main_v95)) := by
    rw [keep12 m c main_v96_2 (by decide), keep11 m c main_v88 (by decide), keep11 m c main_v76 (by decide), keep11 m c main_v90 (by decide), keep11 m c main_v94 (by decide), keep11 m c main_v95 (by decide)]
    exact (ext4_out_7 m c).symm.trans (final4_var (ent4 m) c)
  -- the two rows reach the normalising region through a cast to a vector and back
  have hmu : K m c main_v103 = K m c main_v96_1 := by
    rw [K_main_v103, K_main_v97]; exact row_cast_cast _ _ _
  have hsig : K m c main_v104 = K m c main_v96_2 := by
    rw [K_main_v104, K_main_v98]; exact row_cast_cast _ _ _
  -- the normalising region
  have hout : K m c main_v107 = bnRelu (K m c main_v96_0) (K m c main_v103) (K m c main_v104) (K m c main_v105) (K m c main_v106) := by
    rw [keep14 m c main_v107 (by decide), keep13 m c main_v96_0 (by decide), keep13 m c main_v103 (by decide), keep13 m c main_v104 (by decide), keep13 m c main_v105 (by decide), keep13 m c main_v106 (by decide)]
    exact (ext5_out_5 m c).symm.trans (final5 (ent5 m) c)
  rw [hout, hmu, hsig, hmean, hvar, hP, hagg]
  rfl

/-- THE READ-OUT: the third layer's result times the first read-out weight plus its bias, its column statistics, then the
    normalising layer fused with the second weight, its bias and the row mask. -/
theorem readout : K m c main_v124 = kerReadout (K m c main_v107) (K m c main_arg9) (K m c main_v115) (K m c main_v121) (K m c main_v122) (K m c main_arg13) (K m c main_v123) (K m c main_arg2) := by
  have hQ : K m c main_v116_0 = linPre1 (K m c main_v107) (K m c main_arg9) (K m c main_v115) := by
    rw [keep16 m c main_v116_0 (by decide), keep15 m c main_v107 (by decide), keep15 m c main_arg9 (by decide), keep15 m c main_v115 (by decide)]
    exact (ext6_out_3 m c).symm.trans (final6_pre (ent6 m) c)
  have hmean : K m c main_v116_1 = meanRow (linPre1 (K m c main_v107) (K m c main_arg9) (K m c main_v115)) := by
    rw [keep16 m c main_v116_1 (by decide), keep15 m c main_v107 (by decide), keep15 m c main_arg9 (by decide), keep15 m c main_v115 (by decide)]
    exact (ext6_out_4 m c).symm.trans (final6_mean (ent6 m) c)
  have hvar : K m c main_v116_2 = varRow (linPre1 (K m c main_v107) (K m c main_arg9) (K m c main_v115)) := by
    rw [keep16 m c main_v116_2 (by decide), keep15 m c main_v107 (by decide), keep15 m c main_arg9 (by decide), keep15 m c main_v115 (by decide)]
    exact (ext6_out_5 m c).symm.trans (final6_var (ent6 m) c)
  have hmu : K m c main_v119 = K m c main_v116_1 := by
    rw [K_main_v119, K_main_v117]; exact row_cast_cast _ _ _
  have hsig : K m c main_v120 = K m c main_v116_2 := by
    rw [K_main_v120, K_main_v118]; exact row_cast_cast _ _ _
  have hout : K m c main_v124 = atomOut (K m c main_v116_0) (K m c main_v119) (K m c main_v120) (K m c main_v121) (K m c main_v122) (K m c main_arg13) (K m c main_v123) (K m c main_arg2) := by
    rw [keep17 m c main_v116_0 (by decide), keep17 m c main_v119 (by decide), keep17 m c main_v120 (by decide), keep17 m c main_v121 (by decide), keep17 m c main_v122 (by decide), keep17 m c main_arg13 (by decide), keep17 m c main_v123 (by decide), keep17 m c main_arg2 (by decide)]
    exact (ext7_out_8 m c).symm.trans (final7 (ent7 m) c)
  rw [hout, hmu, hsig, hmean, hvar, hQ]
  rfl

end Layers

end Cert.KernelIdeal.Gen

end
-- ==== Proof.IdealChains.lean ====
/- The host chains of the program, closed: each mean aggregate's scatter-gather sum, the in-degree column, the layers'
   weights and rows and the gathered rows of the result, as plain functions of the argument arrays (and, for the sums and the
   gathered rows, of the layer's feature array), and the buffers' final contents as those functions of the arguments' final
   contents — the step equations composed from the buffer back to the arguments. -/
import proofs.«180021_j37692632990117_2_alg».proof.Proof.IdealValueSteps
import proofs.«180021_j37692632990117_2_alg».proof.Proof.SpecNet
import Idealize.ShloMosaic.Lib.Pipeline.Value
import Idealize.ShloMosaic.Lib.ValueLayout

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)
open Cert.Spec Cert.RefRunLib

variable {F : FTy → Type} [FloatOps F] [Named F]
variable (m : (ℓ : Loc nD τ sig) → Buf (Elt F) ℓ) (c : Dev nD)

/-- The scatter-gather sum of a feature array over the edges: the rows gathered at the edges' source nodes (a negative index wrapped by the node count), added up at the edges' destination nodes, from zero. -/
def SG (h : (⟨S50000x128, .f32⟩ : BufTy).Contents (Elt F)) (ei : (⟨S2x800000, .i32⟩ : BufTy).Contents (Elt F)) : (⟨S50000x128, .f32⟩ : BufTy).Contents (Elt F) :=
  Host.scatterAdd scatter_S50000x128_S800000x1_S800000x128_1_0_0_1 (broadcastInDim S50000x128 ![] bcast_S_S50000x128 (constant (F := F) S_ .f32 0x00000000#32)) (broadcastInDim S800000x1 ![0] bcast_S800000_S800000x1_0 (shapeCast S800000 (extractStridedSlice S1x800000 ![1, 0] (ei) slices_S2x800000_S1x800000_1_0) shapeCasts_S1x800000_S800000)) (Host.gather gather_S50000x128_S800000x1_S800000x128_1_0_n_n_0_1_1128 (h) (broadcastInDim S800000x1 ![0] bcast_S800000_S800000x1_0 (select (cmpi .slt (shapeCast S800000 (extractStridedSlice S1x800000 ![0, 0] (ei) slices_S2x800000_S1x800000_0_0) shapeCasts_S1x800000_S800000) (broadcastInDim S800000 ![] bcast_S_S800000 (constantI S_ 32 0#32))) (addi (shapeCast S800000 (extractStridedSlice S1x800000 ![0, 0] (ei) slices_S2x800000_S1x800000_0_0) shapeCasts_S1x800000_S800000) (broadcastInDim S800000 ![] bcast_S_S800000 (constantI S_ 32 50000#32))) (shapeCast S800000 (extractStridedSlice S1x800000 ![0, 0] (ei) slices_S2x800000_S1x800000_0_0) shapeCasts_S1x800000_S800000))))
theorem K_S1 : K m c main_v24 = SG (K m c main_arg0) (K m c main_arg1) := by
  rw [K_main_v24, K_main_v23, K_main_v22, K_main_cst_6, K_main_v21, K_main_v20, K_main_v19, K_main_v18, K_main_v17, K_main_c_5, K_main_v16, K_main_v15, K_main_c, K_main_v3, K_main_v2, K_main_v1, K_main_v0]
  rfl
theorem K_S2 : K m c main_v55 = SG (K m c main_v45) (K m c main_arg1) := by
  rw [K_main_v55, K_main_v54, K_main_v53, K_main_cst_9, K_main_v52, K_main_v51, K_main_v50, K_main_v49, K_main_v48, K_main_c_8, K_main_v47, K_main_v46, K_main_c_7, K_main_v3, K_main_v2, K_main_v1, K_main_v0]
  rfl
theorem K_S3 : K m c main_v86 = SG (K m c main_v76) (K m c main_arg1) := by
  rw [K_main_v86, K_main_v85, K_main_v84, K_main_cst_12, K_main_v83, K_main_v82, K_main_v81, K_main_v80, K_main_v79, K_main_c_11, K_main_v78, K_main_v77, K_main_c_10, K_main_v3, K_main_v2, K_main_v1, K_main_v0]
  rfl

/-- The in-degree column: one added up at every edge's destination node, from zero. -/
def CNT (ei : (⟨S2x800000, .i32⟩ : BufTy).Contents (Elt F)) : (⟨S50000x1, .f32⟩ : BufTy).Contents (Elt F) :=
  Host.scatterAdd scatter_S50000x1_S800000x1_S800000x1_1_0_0_1 (broadcastInDim S50000x1 ![] bcast_S_S50000x1 (constant (F := F) S_ .f32 0x00000000#32)) (broadcastInDim S800000x1 ![0] bcast_S800000_S800000x1_0 (shapeCast S800000 (extractStridedSlice S1x800000 ![1, 0] (ei) slices_S2x800000_S1x800000_1_0) shapeCasts_S1x800000_S800000)) (broadcastInDim S800000x1 ![] bcast_S_S800000x1 (constant (F := F) S_ .f32 0x3F800000#32))
theorem K_cnt : K m c main_v7 = CNT (K m c main_arg1) := by
  rw [K_main_v7, K_main_v6, K_main_v5, K_main_cst_0, K_main_v4, K_main_cst, K_main_v3, K_main_v2]
  rfl

/-- The rows of the third layer's result at the 256 given nodes (a negative index wrapped by the node count). -/
def ST (h3 : (⟨S50000x128, .f32⟩ : BufTy).Contents (Elt F)) (a3 : (⟨S256, .i32⟩ : BufTy).Contents (Elt F)) : (⟨S256x128, .f32⟩ : BufTy).Contents (Elt F) :=
  Host.gather gather_S50000x128_S256x1_S256x128_1_0_n_n_0_1_1128 (h3) (broadcastInDim S256x1 ![0] bcast_S256_S256x1_0 (select (cmpi .slt (a3) (broadcastInDim S256 ![] bcast_S_S256 (constantI S_ 32 0#32))) (addi (a3) (broadcastInDim S256 ![] bcast_S_S256 (constantI S_ 32 50000#32))) (a3)))
theorem K_state : K m c main_v114 = ST (K m c main_v107) (K m c main_arg3) := by
  rw [K_main_v114, K_main_v113, K_main_v112, K_main_v111, K_main_v110, K_main_c_14, K_main_v109, K_main_v108, K_main_c_13]
  rfl

/-- Layer 1's left weight: slice %l of the stacked weights, as a [128,128] array. -/
def WL1 (a : (⟨S3x128x128, .f32⟩ : BufTy).Contents (Elt F)) : (⟨S128x128, .f32⟩ : BufTy).Contents (Elt F) :=
  shapeCast S128x128 (extractStridedSlice S1x128x128 ![0, 0, 0] (a) slices_S3x128x128_S1x128x128_0_0_0) shapeCasts_S1x128x128_S128x128
theorem K_WL1 : K m c main_v28 = WL1 (K m c main_arg4) := by
  rw [K_main_v28, K_main_v27]
  rfl

/-- Layer 2's left weight: slice %l of the stacked weights, as a [128,128] array. -/
def WL2 (a : (⟨S3x128x128, .f32⟩ : BufTy).Contents (Elt F)) : (⟨S128x128, .f32⟩ : BufTy).Contents (Elt F) :=
  shapeCast S128x128 (extractStridedSlice S1x128x128 ![1, 0, 0] (a) slices_S3x128x128_S1x128x128_1_0_0) shapeCasts_S1x128x128_S128x128
theorem K_WL2 : K m c main_v59 = WL2 (K m c main_arg4) := by
  rw [K_main_v59, K_main_v58]
  rfl

/-- Layer 3's left weight: slice %l of the stacked weights, as a [128,128] array. -/
def WL3 (a : (⟨S3x128x128, .f32⟩ : BufTy).Contents (Elt F)) : (⟨S128x128, .f32⟩ : BufTy).Contents (Elt F) :=
  shapeCast S128x128 (extractStridedSlice S1x128x128 ![2, 0, 0] (a) slices_S3x128x128_S1x128x128_2_0_0) shapeCasts_S1x128x128_S128x128
theorem K_WL3 : K m c main_v90 = WL3 (K m c main_arg4) := by
  rw [K_main_v90, K_main_v89]
  rfl

/-- Layer 1's right weight: slice %l of the stacked weights, as a [128,128] array. -/
def WR1 (a : (⟨S3x128x128, .f32⟩ : BufTy).Contents (Elt F)) : (⟨S128x128, .f32⟩ : BufTy).Contents (Elt F) :=
  shapeCast S128x128 (extractStridedSlice S1x128x128 ![0, 0, 0] (a) slices_S3x128x128_S1x128x128_0_0_0) shapeCasts_S1x128x128_S128x128
theorem K_WR1 : K m c main_v32 = WR1 (K m c main_arg6) := by
  rw [K_main_v32, K_main_v31]
  rfl

/-- Layer 2's right weight: slice %l of the stacked weights, as a [128,128] array. -/
def WR2 (a : (⟨S3x128x128, .f32⟩ : BufTy).Contents (Elt F)) : (⟨S128x128, .f32⟩ : BufTy).Contents (Elt F) :=
  shapeCast S128x128 (extractStridedSlice S1x128x128 ![1, 0, 0] (a) slices_S3x128x128_S1x128x128_1_0_0) shapeCasts_S1x128x128_S128x128
theorem K_WR2 : K m c main_v63 = WR2 (K m c main_arg6) := by
  rw [K_main_v63, K_main_v62]
  rfl

/-- Layer 3's right weight: slice %l of the stacked weights, as a [128,128] array. -/
def WR3 (a : (⟨S3x128x128, .f32⟩ : BufTy).Contents (Elt F)) : (⟨S128x128, .f32⟩ : BufTy).Contents (Elt F) :=
  shapeCast S128x128 (extractStridedSlice S1x128x128 ![2, 0, 0] (a) slices_S3x128x128_S1x128x128_2_0_0) shapeCasts_S1x128x128_S128x128
theorem K_WR3 : K m c main_v94 = WR3 (K m c main_arg6) := by
  rw [K_main_v94, K_main_v93]
  rfl

/-- Layer 1's bias: row %l of the stacked biases, as a [1,128] row. -/
def BLrow1 (a : (⟨S3x128, .f32⟩ : BufTy).Contents (Elt F)) : (⟨S1x128, .f32⟩ : BufTy).Contents (Elt F) :=
  shapeCast S1x128 (shapeCast S128 (extractStridedSlice S1x128 ![0, 0] (a) slices_S3x128_S1x128_0_0) shapeCasts_S1x128_S128) shapeCasts_S128_S1x128
theorem K_BLrow1 : K m c main_v33 = BLrow1 (K m c main_arg5) := by
  rw [K_main_v33, K_main_v30, K_main_v29]
  rfl

/-- Layer 2's bias: row %l of the stacked biases, as a [1,128] row. -/
def BLrow2 (a : (⟨S3x128, .f32⟩ : BufTy).Contents (Elt F)) : (⟨S1x128, .f32⟩ : BufTy).Contents (Elt F) :=
  shapeCast S1x128 (shapeCast S128 (extractStridedSlice S1x128 ![1, 0] (a) slices_S3x128_S1x128_1_0) shapeCasts_S1x128_S128) shapeCasts_S128_S1x128
theorem K_BLrow2 : K m c main_v64 = BLrow2 (K m c main_arg5) := by
  rw [K_main_v64, K_main_v61, K_main_v60]
  rfl

/-- Layer 3's bias: row %l of the stacked biases, as a [1,128] row. -/
def BLrow3 (a : (⟨S3x128, .f32⟩ : BufTy).Contents (Elt F)) : (⟨S1x128, .f32⟩ : BufTy).Contents (Elt F) :=
  shapeCast S1x128 (shapeCast S128 (extractStridedSlice S1x128 ![2, 0] (a) slices_S3x128_S1x128_2_0) shapeCasts_S1x128_S128) shapeCasts_S128_S1x128
theorem K_BLrow3 : K m c main_v95 = BLrow3 (K m c main_arg5) := by
  rw [K_main_v95, K_main_v92, K_main_v91]
  rfl

/-- Layer 1's scale: row %l of the stacked scales, as a [1,128] row. -/
def GArow1 (a : (⟨S3x128, .f32⟩ : BufTy).Contents (Elt F)) : (⟨S1x128, .f32⟩ : BufTy).Contents (Elt F) :=
  shapeCast S1x128 (shapeCast S128 (extractStridedSlice S1x128 ![0, 0] (a) slices_S3x128_S1x128_0_0) shapeCasts_S1x128_S128) shapeCasts_S128_S1x128
theorem K_GArow1 : K m c main_v43 = GArow1 (K m c main_arg7) := by
  rw [K_main_v43, K_main_v38, K_main_v37]
  rfl

/-- Layer 2's scale: row %l of the stacked scales, as a [1,128] row. -/
def GArow2 (a : (⟨S3x128, .f32⟩ : BufTy).Contents (Elt F)) : (⟨S1x128, .f32⟩ : BufTy).Contents (Elt F) :=
  shapeCast S1x128 (shapeCast S128 (extractStridedSlice S1x128 ![1, 0] (a) slices_S3x128_S1x128_1_0) shapeCasts_S1x128_S128) shapeCasts_S128_S1x128
theorem K_GArow2 : K m c main_v74 = GArow2 (K m c main_arg7) := by
  rw [K_main_v74, K_main_v69, K_main_v68]
  rfl

/-- Layer 3's scale: row %l of the stacked scales, as a [1,128] row. -/
def GArow3 (a : (⟨S3x128, .f32⟩ : BufTy).Contents (Elt F)) : (⟨S1x128, .f32⟩ : BufTy).Contents (Elt F) :=
  shapeCast S1x128 (shapeCast S128 (extractStridedSlice S1x128 ![2, 0] (a) slices_S3x128_S1x128_2_0) shapeCasts_S1x128_S128) shapeCasts_S128_S1x128
theorem K_GArow3 : K m c main_v105 = GArow3 (K m c main_arg7) := by
  rw [K_main_v105, K_main_v100, K_main_v99]
  rfl

/-- Layer 1's shift: row %l of the stacked shifts, as a [1,128] row. -/
def BErow1 (a : (⟨S3x128, .f32⟩ : BufTy).Contents (Elt F)) : (⟨S1x128, .f32⟩ : BufTy).Contents (Elt F) :=
  shapeCast S1x128 (shapeCast S128 (extractStridedSlice S1x128 ![0, 0] (a) slices_S3x128_S1x128_0_0) shapeCasts_S1x128_S128) shapeCasts_S128_S1x128
theorem K_BErow1 : K m c main_v44 = BErow1 (K m c main_arg8) := by
  rw [K_main_v44, K_main_v40, K_main_v39]
  rfl

/-- Layer 2's shift: row %l of the stacked shifts, as a [1,128] row. -/
def BErow2 (a : (⟨S3x128, .f32⟩ : BufTy).Contents (Elt F)) : (⟨S1x128, .f32⟩ : BufTy).Contents (Elt F) :=
  shapeCast S1x128 (shapeCast S128 (extractStridedSlice S1x128 ![1, 0] (a) slices_S3x128_S1x128_1_0) shapeCasts_S1x128_S128) shapeCasts_S128_S1x128
theorem K_BErow2 : K m c main_v75 = BErow2 (K m c main_arg8) := by
  rw [K_main_v75, K_main_v71, K_main_v70]
  rfl

/-- Layer 3's shift: row %l of the stacked shifts, as a [1,128] row. -/
def BErow3 (a : (⟨S3x128, .f32⟩ : BufTy).Contents (Elt F)) : (⟨S1x128, .f32⟩ : BufTy).Contents (Elt F) :=
  shapeCast S1x128 (shapeCast S128 (extractStridedSlice S1x128 ![2, 0] (a) slices_S3x128_S1x128_2_0) shapeCasts_S1x128_S128) shapeCasts_S128_S1x128
theorem K_BErow3 : K m c main_v106 = BErow3 (K m c main_arg8) := by
  rw [K_main_v106, K_main_v102, K_main_v101]
  rfl

/-- The read-out's first bias as a [1,128] row. -/
def B1row (a : (⟨S128, .f32⟩ : BufTy).Contents (Elt F)) : (⟨S1x128, .f32⟩ : BufTy).Contents (Elt F) :=
  shapeCast S1x128 (a) shapeCasts_S128_S1x128
theorem K_B1row : K m c main_v115 = B1row (K m c main_arg10) := by
  rw [K_main_v115]
  rfl

/-- The read-out's scale as a [1,128] row. -/
def GRrow (a : (⟨S128, .f32⟩ : BufTy).Contents (Elt F)) : (⟨S1x128, .f32⟩ : BufTy).Contents (Elt F) :=
  shapeCast S1x128 (a) shapeCasts_S128_S1x128
theorem K_GRrow : K m c main_v121 = GRrow (K m c main_arg11) := by
  rw [K_main_v121]
  rfl

/-- The read-out's shift as a [1,128] row. -/
def BRrow (a : (⟨S128, .f32⟩ : BufTy).Contents (Elt F)) : (⟨S1x128, .f32⟩ : BufTy).Contents (Elt F) :=
  shapeCast S1x128 (a) shapeCasts_S128_S1x128
theorem K_BRrow : K m c main_v122 = BRrow (K m c main_arg12) := by
  rw [K_main_v122]
  rfl

/-- The read-out's second bias as a [1,128] row. -/
def B2row (a : (⟨S128, .f32⟩ : BufTy).Contents (Elt F)) : (⟨S1x128, .f32⟩ : BufTy).Contents (Elt F) :=
  shapeCast S1x128 (a) shapeCasts_S128_S1x128
theorem K_B2row : K m c main_v123 = B2row (K m c main_arg14) := by
  rw [K_main_v123]
  rfl

end Cert.KernelIdeal.Gen

end
-- ==== Proof.IdealFacts.lean ====
/- Facts about the buffers' final contents at the extended reals that the comparison with the reference needs.

   The reciprocal-degree column at a row is 1 / max(count, 1) where the count is positive and 0 elsewhere: the column is a
   choice between a quotient and a constant, each a pointwise operation over columns broadcast from scalars.  The
   precondition says, array by array, that every entry's absolute value is below +∞; an extended real with that property is
   a real.  A layer's weights and rows are slices and casts of the arguments, so their entries are entries of the
   arguments. -/
import proofs.«180021_j37692632990117_2_alg».proof.Proof.IdealChains
import proofs.«180021_j37692632990117_2_alg».proof.Proof.SpecNet
import proofs.«180021_j37692632990117_2_alg».proof.Proof.LibRealSums
import proofs.«180021_j37692632990117_2_alg».proof.Defs
import proofs.«180021_j37692632990117_2_alg».proof.Proof.Gen.Pre_finite_inputs
import Idealize.ShloMosaic.Lib.Pipeline.Value
import Idealize.ShloMosaic.Lib.ValueLayout
import Idealize.ShloMosaic.Lib.IdealHost
import Idealize.ShloMosaic.Lib.ReduceAll

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)
open Cert.Spec Cert.RefRunLib Cert.LibRealSums

-- each buffer's contents is typed by its reference's entry in the program's table of buffers; reading the entries a
-- statement names takes more than the default budget
set_option maxHeartbeats 4000000

/-! ## The reciprocal degree at a row -/

section Inv

variable (m : (ℓ : Loc nD τ sig) → Buf (Elt Ideal) ℓ) (c : Dev nD)

/-- A scalar constant broadcast to any shape reads the constant everywhere. -/
theorem bcast_const_apply {T : Shape} (h : (⟨0, ![]⟩ : Shape).BroadcastsInDim T ![]) (w : BitVec 32) (j : T.Idx) :
    broadcastInDim T ![] h (constant (F := Ideal) ⟨0, ![]⟩ .f32 w) j = Ideal.ofBits .f32 w := by
  rw [broadcastInDim_scalar_apply]; rfl

/-- The choice between a quotient and a constant over columns broadcast from scalars, read at a row: for ANY count column. -/
theorem hinv_of (cnt : (⟨S50000x1, .f32⟩ : BufTy).Contents (Elt Ideal)) (r : Fin 50000) :
    select (cmpf .ogt cnt (broadcastInDim S50000x1 ![] bcast_S_S50000x1 (constant (F := Ideal) S_ .f32 0x00000000#32)))
        (Host.divf (broadcastInDim S50000x1 ![] bcast_S_S50000x1 (constant (F := Ideal) S_ .f32 0x3F800000#32))
          (maximumf cnt (broadcastInDim S50000x1 ![] bcast_S_S50000x1 (constant (F := Ideal) S_ .f32 0x3F800000#32))))
        (broadcastInDim S50000x1 ![] bcast_S_S50000x1 (id (constant (F := Ideal) S_ .f32 0x00000000#32))) (ix2 r (0 : Fin 1))
      = Scalar.select (Ideal.cmp .ogt (cnt (ix2 r (0 : Fin 1))) (Ideal.ofBits .f32 0x00000000#32))
          (Ideal.div (Ideal.ofBits .f32 0x3F800000#32) (max (cnt (ix2 r (0 : Fin 1))) (Ideal.ofBits .f32 0x3F800000#32)))
          (Ideal.ofBits .f32 0x00000000#32) := by
  have e0 : ∀ w : BitVec 32, broadcastInDim S50000x1 ![] bcast_S_S50000x1 (constant (F := Ideal) S_ .f32 w) (ix2 r (0 : Fin 1)) = Ideal.ofBits .f32 w :=
    fun w => bcast_const_apply _ _ _
  show Scalar.select (Ideal.cmp .ogt (cnt (ix2 r (0 : Fin 1))) (broadcastInDim S50000x1 ![] bcast_S_S50000x1 (constant (F := Ideal) S_ .f32 0x00000000#32) (ix2 r (0 : Fin 1))))
      (Ideal.div (broadcastInDim S50000x1 ![] bcast_S_S50000x1 (constant (F := Ideal) S_ .f32 0x3F800000#32) (ix2 r (0 : Fin 1)))
        (max (cnt (ix2 r (0 : Fin 1))) (broadcastInDim S50000x1 ![] bcast_S_S50000x1 (constant (F := Ideal) S_ .f32 0x3F800000#32) (ix2 r (0 : Fin 1)))))
      (broadcastInDim S50000x1 ![] bcast_S_S50000x1 (constant (F := Ideal) S_ .f32 0x00000000#32) (ix2 r (0 : Fin 1))) = _
  rw [e0 0x00000000#32, e0 0x3F800000#32]

/-- THE RECIPROCAL DEGREE at a row: 1 / max(count, 1) where the count is positive, 0 elsewhere — the count column compared
    with 0, the quotient of 1 by the count cut below at 1, and the choice between the quotient and 0, each read at the row. -/
theorem K_hinv : ∀ r : Fin 50000,
    (K m c main_v14) (ix2 r (0 : Fin 1))
      = Scalar.select (Ideal.cmp .ogt ((K m c main_v7) (ix2 r (0 : Fin 1))) (Ideal.ofBits .f32 0x00000000#32))
          (Ideal.div (Ideal.ofBits .f32 0x3F800000#32) (max ((K m c main_v7) (ix2 r (0 : Fin 1))) (Ideal.ofBits .f32 0x3F800000#32)))
          (Ideal.ofBits .f32 0x00000000#32) := by
  intro r
  rw [K_main_v14, K_main_v9, K_main_v8, K_main_cst_1, K_main_v13, K_main_v12, K_main_cst_3, K_main_v11, K_main_v10, K_main_cst_2,
    K_main_call0_v1, K_main_call0_v0, K_main_cst_4]
  exact hinv_of (K m c main_v7) r

end Inv

/-! ## The layers' weights and rows are entries of the arguments -/

/-- An entry of a cast array is an entry of the array; so is an entry of a slice. -/
theorem real_shapeCast {s t : Shape} (x : s.Idx → EReal) (h : s.ShapeCasts t) (hx : ∀ j, IsReal (x j)) (i : t.Idx) :
    IsReal (shapeCast t x h i) := hx _
theorem real_slice {s t : Shape} (off : Fin s.rank → Nat) (x : s.Idx → EReal) (h : s.Slices off t) (hx : ∀ j, IsReal (x j)) (i : t.Idx) :
    IsReal (extractStridedSlice t off x h i) := hx _

theorem WL1_real (a : (⟨S3x128x128, .f32⟩ : BufTy).Contents (Elt Ideal)) (ha : ∀ i, IsReal (a i)) : ∀ i, IsReal (WL1 (F := Ideal) a i) :=
  (fun j => real_shapeCast _ _ (fun j => real_slice _ _ _ ha j) j)
theorem WL2_real (a : (⟨S3x128x128, .f32⟩ : BufTy).Contents (Elt Ideal)) (ha : ∀ i, IsReal (a i)) : ∀ i, IsReal (WL2 (F := Ideal) a i) :=
  (fun j => real_shapeCast _ _ (fun j => real_slice _ _ _ ha j) j)
theorem WL3_real (a : (⟨S3x128x128, .f32⟩ : BufTy).Contents (Elt Ideal)) (ha : ∀ i, IsReal (a i)) : ∀ i, IsReal (WL3 (F := Ideal) a i) :=
  (fun j => real_shapeCast _ _ (fun j => real_slice _ _ _ ha j) j)
theorem WR1_real (a : (⟨S3x128x128, .f32⟩ : BufTy).Contents (Elt Ideal)) (ha : ∀ i, IsReal (a i)) : ∀ i, IsReal (WR1 (F := Ideal) a i) :=
  (fun j => real_shapeCast _ _ (fun j => real_slice _ _ _ ha j) j)
theorem WR2_real (a : (⟨S3x128x128, .f32⟩ : BufTy).Contents (Elt Ideal)) (ha : ∀ i, IsReal (a i)) : ∀ i, IsReal (WR2 (F := Ideal) a i) :=
  (fun j => real_shapeCast _ _ (fun j => real_slice _ _ _ ha j) j)
theorem WR3_real (a : (⟨S3x128x128, .f32⟩ : BufTy).Contents (Elt Ideal)) (ha : ∀ i, IsReal (a i)) : ∀ i, IsReal (WR3 (F := Ideal) a i) :=
  (fun j => real_shapeCast _ _ (fun j => real_slice _ _ _ ha j) j)
theorem BLrow1_real (a : (⟨S3x128, .f32⟩ : BufTy).Contents (Elt Ideal)) (ha : ∀ i, IsReal (a i)) : ∀ i, IsReal (BLrow1 (F := Ideal) a i) :=
  (fun j => real_shapeCast _ _ (fun j => real_shapeCast _ _ (fun j => real_slice _ _ _ ha j) j) j)
theorem BLrow2_real (a : (⟨S3x128, .f32⟩ : BufTy).Contents (Elt Ideal)) (ha : ∀ i, IsReal (a i)) : ∀ i, IsReal (BLrow2 (F := Ideal) a i) :=
  (fun j => real_shapeCast _ _ (fun j => real_shapeCast _ _ (fun j => real_slice _ _ _ ha j) j) j)
theorem BLrow3_real (a : (⟨S3x128, .f32⟩ : BufTy).Contents (Elt Ideal)) (ha : ∀ i, IsReal (a i)) : ∀ i, IsReal (BLrow3 (F := Ideal) a i) :=
  (fun j => real_shapeCast _ _ (fun j => real_shapeCast _ _ (fun j => real_slice _ _ _ ha j) j) j)
theorem GArow1_real (a : (⟨S3x128, .f32⟩ : BufTy).Contents (Elt Ideal)) (ha : ∀ i, IsReal (a i)) : ∀ i, IsReal (GArow1 (F := Ideal) a i) :=
  (fun j => real_shapeCast _ _ (fun j => real_shapeCast _ _ (fun j => real_slice _ _ _ ha j) j) j)
theorem GArow2_real (a : (⟨S3x128, .f32⟩ : BufTy).Contents (Elt Ideal)) (ha : ∀ i, IsReal (a i)) : ∀ i, IsReal (GArow2 (F := Ideal) a i) :=
  (fun j => real_shapeCast _ _ (fun j => real_shapeCast _ _ (fun j => real_slice _ _ _ ha j) j) j)
theorem GArow3_real (a : (⟨S3x128, .f32⟩ : BufTy).Contents (Elt Ideal)) (ha : ∀ i, IsReal (a i)) : ∀ i, IsReal (GArow3 (F := Ideal) a i) :=
  (fun j => real_shapeCast _ _ (fun j => real_shapeCast _ _ (fun j => real_slice _ _ _ ha j) j) j)
theorem BErow1_real (a : (⟨S3x128, .f32⟩ : BufTy).Contents (Elt Ideal)) (ha : ∀ i, IsReal (a i)) : ∀ i, IsReal (BErow1 (F := Ideal) a i) :=
  (fun j => real_shapeCast _ _ (fun j => real_shapeCast _ _ (fun j => real_slice _ _ _ ha j) j) j)
theorem BErow2_real (a : (⟨S3x128, .f32⟩ : BufTy).Contents (Elt Ideal)) (ha : ∀ i, IsReal (a i)) : ∀ i, IsReal (BErow2 (F := Ideal) a i) :=
  (fun j => real_shapeCast _ _ (fun j => real_shapeCast _ _ (fun j => real_slice _ _ _ ha j) j) j)
theorem BErow3_real (a : (⟨S3x128, .f32⟩ : BufTy).Contents (Elt Ideal)) (ha : ∀ i, IsReal (a i)) : ∀ i, IsReal (BErow3 (F := Ideal) a i) :=
  (fun j => real_shapeCast _ _ (fun j => real_shapeCast _ _ (fun j => real_slice _ _ _ ha j) j) j)
theorem B1row_real (a : (⟨S128, .f32⟩ : BufTy).Contents (Elt Ideal)) (ha : ∀ i, IsReal (a i)) : ∀ i, IsReal (B1row (F := Ideal) a i) :=
  fun i => real_shapeCast _ _ ha i

/-! ## The float arguments are real: the precondition, read back -/

instance : Subsingleton (⟨0, ![]⟩ : Shape).Idx := ⟨fun a b => funext fun d => d.elim0⟩

/-- An extended real whose absolute value is below +∞ is a real. -/
theorem isReal_of_abs_lt_top (x : EReal) (h : Ideal.cmp .olt (max x (-x)) (Ideal.ofBits .f32 0x7F800000#32) = 1#1) : IsReal x := by
  have htop : Ideal.ofBits .f32 0x7F800000#32 = (⊤ : EReal) := by simp [Ideal.ofBits, Ideal.ieee]
  rw [htop] at h
  have hlt : max x (-x) < ⊤ := by
    by_contra hn
    simp [Ideal.cmp, hn] at h
  induction x using EReal.rec with
  | bot => simp at hlt
  | coe r => exact ⟨r, rfl⟩
  | top => simp at hlt

/-- An array all of whose entries have absolute value below +∞ — the conjunction over all entries came out one — has
    only real entries. -/
theorem real_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h := Host.reduce_andi_all _ _ hr hu ix0 e i
  rw [cmpf_apply, bcast_const_apply] at h
  exact isReal_of_abs_lt_top (x i) h

section Pre

variable [Cert.Pre_finite_inputs.Facts] (m : (ℓ : Loc nD τ sig) → Buf (Elt Ideal) ℓ)

/-- THE PRECONDITION READ BACK: on every core, every entry of the feature array, of the three stacked weight and row
    arguments of the layers and of the read-out's first weight and bias is a real. -/
theorem finite_args (hpre : Cert.Pre_KernelIdeal m) (c : Dev nD) :
    (∀ i : S50000x128.Idx, IsReal (m ((c.tc : Thread nD τ).loc main_arg0) i))
    ∧ (∀ i : S3x128x128.Idx, IsReal (m ((c.tc : Thread nD τ).loc main_arg4) i))
    ∧ (∀ i : S3x128.Idx, IsReal (m ((c.tc : Thread nD τ).loc main_arg5) i))
    ∧ (∀ i : S3x128x128.Idx, IsReal (m ((c.tc : Thread nD τ).loc main_arg6) i))
    ∧ (∀ i : S3x128.Idx, IsReal (m ((c.tc : Thread nD τ).loc main_arg7) i))
    ∧ (∀ i : S3x128.Idx, IsReal (m ((c.tc : Thread nD τ).loc main_arg8) i))
    ∧ (∀ i : S128x128.Idx, IsReal (m ((c.tc : Thread nD τ).loc main_arg9) i))
    ∧ (∀ i : S128.Idx, IsReal (m ((c.tc : Thread nD τ).loc main_arg10) i)) := by
  have h := congrFun (hpre c) ValueIdx.ix0
  dsimp only [Cert.Pre_finite_inputs.fn, Cert.Pre_finite_inputs.fn_part1, Cert.Pre_finite_inputs.fn_part2, Cert.Pre_finite_inputs.fn_part3] at h
  obtain ⟨h, h_arg14⟩ := IntOp.andi_eq_one.1 h
  obtain ⟨h, h_arg13⟩ := IntOp.andi_eq_one.1 h
  obtain ⟨h, h_arg12⟩ := IntOp.andi_eq_one.1 h
  obtain ⟨h, h_arg11⟩ := IntOp.andi_eq_one.1 h
  obtain ⟨h, h_arg10⟩ := IntOp.andi_eq_one.1 h
  obtain ⟨h, h_arg9⟩ := IntOp.andi_eq_one.1 h
  obtain ⟨h, h_arg8⟩ := IntOp.andi_eq_one.1 h
  obtain ⟨h, h_arg7⟩ := IntOp.andi_eq_one.1 h
  obtain ⟨h, h_arg6⟩ := IntOp.andi_eq_one.1 h
  obtain ⟨h, h_arg5⟩ := IntOp.andi_eq_one.1 h
  obtain ⟨h, h_arg4⟩ := IntOp.andi_eq_one.1 h
  obtain ⟨h_arg0, h_arg2⟩ := IntOp.andi_eq_one.1 h
  exact ⟨real_of_all _ _ _ _ h_arg0, real_of_all _ _ _ _ h_arg4, real_of_all _ _ _ _ h_arg5, real_of_all _ _ _ _ h_arg6, real_of_all _ _ _ _ h_arg7, real_of_all _ _ _ _ h_arg8, real_of_all _ _ _ _ h_arg9, real_of_all _ _ _ _ h_arg10⟩

theorem arg0_real (hpre : Cert.Pre_KernelIdeal m) (c : Dev nD) : ∀ i, IsReal (m ((c.tc : Thread nD τ).loc main_arg0) i) := (finite_args m hpre c).1
theorem arg4_real (hpre : Cert.Pre_KernelIdeal m) (c : Dev nD) : ∀ i, IsReal (m ((c.tc : Thread nD τ).loc main_arg4) i) := (finite_args m hpre c).2.1
theorem arg5_real (hpre : Cert.Pre_KernelIdeal m) (c : Dev nD) : ∀ i, IsReal (m ((c.tc : Thread nD τ).loc main_arg5) i) := (finite_args m hpre c).2.2.1
theorem arg6_real (hpre : Cert.Pre_KernelIdeal m) (c : Dev nD) : ∀ i, IsReal (m ((c.tc : Thread nD τ).loc main_arg6) i) := (finite_args m hpre c).2.2.2.1
theorem arg7_real (hpre : Cert.Pre_KernelIdeal m) (c : Dev nD) : ∀ i, IsReal (m ((c.tc : Thread nD τ).loc main_arg7) i) := (finite_args m hpre c).2.2.2.2.1
theorem arg8_real (hpre : Cert.Pre_KernelIdeal m) (c : Dev nD) : ∀ i, IsReal (m ((c.tc : Thread nD τ).loc main_arg8) i) := (finite_args m hpre c).2.2.2.2.2.1
theorem arg9_real (hpre : Cert.Pre_KernelIdeal m) (c : Dev nD) : ∀ i, IsReal (m ((c.tc : Thread nD τ).loc main_arg9) i) := (finite_args m hpre c).2.2.2.2.2.2.1
theorem arg10_real (hpre : Cert.Pre_KernelIdeal m) (c : Dev nD) : ∀ i, IsReal (m ((c.tc : Thread nD τ).loc main_arg10) i) := (finite_args m hpre c).2.2.2.2.2.2.2

end Pre

end Cert.KernelIdeal.Gen

end
-- ==== Proof.LibSlotTake.lean ====
/-
  Indexing by a column of slots: `x[idx]`, `x[idx, :]` and `.at[idx, :].add` with the integer index as an `[N, 1]` array.

  jnp lowers `x[idx]` of a flat `x : [M]` and `x[idx]` of a matrix `x : [A, B]` (whole rows) at an integer vector
  `idx : [N]` to a gather whose start indices are the column `[N, 1]`: result slot `s` (row `s`) is the operand at the
  start index `idx[s, 0]`, read signed and clamped into the axis. It lowers `y.at[idx].add(u)` of `y : [A, B]`, `u : [N, B]`
  to a scatter over the same column: update element `(s, b)` lands at `(idx[s, 0], b)`, the start read signed and NOT
  clamped, and is dropped when that is outside the operand.
-/
import Idealize.ShloMosaic.PureOps
import Idealize.ShloMosaic.Lib.ValueIdx

noncomputable section

namespace Idealize.ShloMosaic.SlotTake

open Idealize.ShloMosaic Idealize.ShloMosaic.ValueIdx

/-- Where slot `s`'s start index sits in the column of indices: `(s, 0)`. -/
abbrev colIdx {N : Nat} (s : Fin N) : (⟨2, ![N, 1]⟩ : Shape).Idx := ix2 s (0 : Fin 1)

section Gather
variable {α : Type}

/-- The dimension numbers of `x[idx]` for a flat operand `[M]`, start indices `[N, 1]`, result `[N]`. -/
abbrev flatDims (M N : Nat) (wf : GatherDims.WF ⟨1, ![M]⟩ ⟨2, ![N, 1]⟩ ⟨1, ![N]⟩ [] [0] [] [0] [] 1 ![1]) :
    GatherDims ⟨1, ![M]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- The flat gather at slot `j`: the operand at the slot's start index, read signed and clamped into `[0, M − 1]`. -/
theorem gather_flat_apply {M N w : Nat} (hM : 0 < M)
    (wf : GatherDims.WF ⟨1, ![M]⟩ ⟨2, ![N, 1]⟩ ⟨1, ![N]⟩ [] [0] [] [0] [] 1 ![1])
    (x : (⟨1, ![M]⟩ : Shape).Idx → α) (idx : IVec ⟨2, ![N, 1]⟩ w) (j : (⟨1, ![N]⟩ : Shape).Idx) :
    Host.gather (flatDims M N wf) x idx j
      = x (ix1 ⟨min (idx (colIdx (j 0))).toInt.toNat (M - 1), by omega⟩) := by
  unfold Host.gather
  congr 1
  funext a
  obtain rfl : a = 0 := Subsingleton.elim _ _
  refine Fin.ext ?_
  show (flatDims M N wf).start j idx 0 + (flatDims M N wf).batchCoord j 0 + (flatDims M N wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims M N wf).startIndexMap from List.mem_singleton.mpr rfl)]
  have hsi : (flatDims M N wf).siIdx j ⟨List.idxOf (0 : Fin 1) (flatDims M N wf).startIndexMap,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

/-- The dimension numbers of `x[idx]` (whole rows) for an operand `[A, B]`, start indices `[N, 1]`, result `[N, B]`. -/
abbrev rowDims (A B N : Nat) (wf : GatherDims.WF ⟨2, ![A, B]⟩ ⟨2, ![N, 1]⟩ ⟨2, ![N, B]⟩ [1] [0] [] [0] [] 1 ![1, B]) :
    GatherDims ⟨2, ![A, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- The row gather at `(s, b)`: the operand at row "slot `s`'s start index, read signed and clamped into `[0, A − 1]`",
    column `b`. -/
theorem gather_row_apply {A B N w : Nat} (hA : 0 < A)
    (wf : GatherDims.WF ⟨2, ![A, B]⟩ ⟨2, ![N, 1]⟩ ⟨2, ![N, B]⟩ [1] [0] [] [0] [] 1 ![1, B])
    (x : (⟨2, ![A, B]⟩ : Shape).Idx → α) (idx : IVec ⟨2, ![N, 1]⟩ w) (j : (⟨2, ![N, B]⟩ : Shape).Idx) :
    Host.gather (rowDims A B N wf) x idx j
      = x (ix2 (⟨min (idx (colIdx (j 0))).toInt.toNat (A - 1), by omega⟩ : Fin A) (⟨(j 1).val, idx2_lt1 j⟩ : Fin B)) := by
  unfold Host.gather
  congr 1
  funext a
  refine Fin.ext ?_
  match a with
  | ⟨0, _⟩ =>
    show (rowDims A B N wf).start j idx 0 + (rowDims A B N wf).batchCoord j 0 + (rowDims A B N wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims A B N wf).startIndexMap from List.mem_singleton.mpr rfl)]
    have hsi : (rowDims A B N wf).siIdx j ⟨List.idxOf (0 : Fin 2) (rowDims A B N wf).startIndexMap,
        List.idxOf_lt_length_iff.2 (List.mem_singleton.mpr rfl)⟩ = colIdx (j 0) := by
      funext b; refine Fin.ext ?_
      match b with
      | ⟨0, _⟩ => rfl
      | ⟨1, _⟩ => rfl
    rw [hsi]
    rfl
  | ⟨1, _⟩ =>
    show (rowDims A B N wf).start j idx 1 + (rowDims A B N wf).batchCoord j 1 + (rowDims A B N wf).offCoord j 1 = (j 1).val
    rw [GatherDims.batchCoord_eq_zero _ _ _ List.not_mem_nil]
    have hs : (rowDims A B N wf).start j idx 1 = 0 := by
      unfold GatherDims.start
      rw [dif_neg (show (1 : Fin 2) ∉ ([0] : List (Fin 2)) by decide)]
    have ho : (rowDims A B N wf).offCoord j 1 = (j 1).val := by
      unfold GatherDims.offCoord
      rw [dif_pos ((GatherDims.mem_sKept _ _).mpr ⟨(show (1 : Fin 2) ∉ ([0] : List (Fin 2)) by decide), List.not_mem_nil⟩)]
      rfl
    rw [hs, ho]; omega

end Gather

section Scatter

/-- The dimension numbers of `y.at[idx].add(u)` (whole rows) for an operand `[A, B]`, scatter indices `[N, 1]`, updates
    `[N, B]`. -/
abbrev rowScatterDims (A B N : Nat) (wf : ScatterDims.WF ⟨2, ![A, B]⟩ ⟨2, ![N, 1]⟩ ⟨2, ![N, B]⟩ [1] [0] [0] 1) :
    ScatterDims ⟨2, ![A, B]⟩ ⟨2, ![N, 1]⟩ ⟨2, ![N, B]⟩ where
  updateWindowDims := [1]
  insertedWindowDims := [0]
  scatterDimsToOperandDims := [0]
  indexVectorDim := 1
  wf := wf

variable {A B N w : Nat} (wf : ScatterDims.WF ⟨2, ![A, B]⟩ ⟨2, ![N, 1]⟩ ⟨2, ![N, B]⟩ [1] [0] [0] 1)
  (idx : IVec ⟨2, ![N, 1]⟩ w) (j : (⟨2, ![N, B]⟩ : Shape).Idx)

theorem start_row : (rowScatterDims A B N wf).start j idx 0 = (idx (colIdx (j 0))).toInt := by
  unfold ScatterDims.start
  rw [dif_pos (show (0 : Fin 2) ∈ (rowScatterDims A B N wf).scatterDimsToOperandDims from List.mem_singleton.mpr rfl)]
  have hsi : (rowScatterDims A B N wf).siIdx j ⟨List.idxOf (0 : Fin 2) (rowScatterDims A B N wf).scatterDimsToOperandDims,
      List.idxOf_lt_length_iff.2 (List.mem_singleton.mpr rfl)⟩ = colIdx (j 0) := by
    funext b; refine Fin.ext ?_
    match b with
    | ⟨0, _⟩ => rfl
    | ⟨1, _⟩ => rfl
  rw [hsi]
  rfl

theorem start_col : (rowScatterDims A B N wf).start j idx 1 = 0 := by
  unfold ScatterDims.start
  rw [dif_neg (show (1 : Fin 2) ∉ ([0] : List (Fin 2)) by decide)]

/-- The operand's axes that take a window coordinate: the column axis only (the row axis is inserted). -/
theorem mem_sKept_row (a : Fin 2) : a ∈ (rowScatterDims A B N wf).sKept ↔ a ∉ ([0] : List (Fin 2)) := by
  simp [ScatterDims.sKept, Shape.kept, List.mem_filter, List.mem_finRange]

theorem window_row : (rowScatterDims A B N wf).window j 0 = 0 := by
  unfold ScatterDims.window
  rw [dif_neg (fun h => ((mem_sKept_row wf 0).mp h) (List.mem_singleton.mpr rfl))]

theorem window_col : (rowScatterDims A B N wf).window j 1 = (j 1).val := by
  unfold ScatterDims.window
  rw [dif_pos ((mem_sKept_row wf 1).mpr (by decide))]
  rfl

/-- Update element `(s, b)` lands at `i` exactly when slot `s`'s index, read signed, is `i`'s row, and `b` is `i`'s column. -/
theorem resultIdx?_row_eq_some_iff (i : (⟨2, ![A, B]⟩ : Shape).Idx) :
    (rowScatterDims A B N wf).resultIdx? j idx = some i
      ↔ (idx (colIdx (j 0))).toInt = ((i 0).val : Int) ∧ (j 1).val = (i 1).val := by
  have hi0 : (i 0).val < A := idx2_lt0 i
  have hj1 : (j 1).val < B := idx2_lt1 j
  unfold ScatterDims.resultIdx?
  split
  · rename_i h
    rw [Option.some.injEq]
    constructor
    · intro e
      have e0 := congrArg (fun f => (f 0).val) e
      have e1 := congrArg (fun f => (f 1).val) e
      simp only [start_row, start_col, window_row, window_col] at e0 e1
      have h0 := h 0
      simp only [start_row, window_row] at h0
      constructor
      · omega
      · omega
    · rintro ⟨e0, e1⟩
      funext a
      refine Fin.ext ?_
      match a with
      | ⟨0, _⟩ =>
        show ((rowScatterDims A B N wf).start j idx 0 + ((rowScatterDims A B N wf).window j 0 : Int)).toNat = (i 0).val
        rw [start_row, window_row]; omega
      | ⟨1, _⟩ =>
        show ((rowScatterDims A B N wf).start j idx 1 + ((rowScatterDims A B N wf).window j 1 : Int)).toNat = (i 1).val
        rw [start_col, window_col]; omega
  · rename_i h
    constructor
    · intro e; exact absurd e (by simp)
    · rintro ⟨e0, e1⟩
      refine absurd (fun a => ?_) h
      match a with
      | ⟨0, _⟩ =>
        show 0 ≤ (rowScatterDims A B N wf).start j idx 0 + ((rowScatterDims A B N wf).window j 0 : Int)
          ∧ (rowScatterDims A B N wf).start j idx 0 + ((rowScatterDims A B N wf).window j 0 : Int) < (A : Int)
        rw [start_row, window_row]; omega
      | ⟨1, _⟩ =>
        show 0 ≤ (rowScatterDims A B N wf).start j idx 1 + ((rowScatterDims A B N wf).window j 1 : Int)
          ∧ (rowScatterDims A B N wf).start j idx 1 + ((rowScatterDims A B N wf).window j 1 : Int) < (B : Int)
        rw [start_col, window_col]; omega

end Scatter

end Idealize.ShloMosaic.SlotTake

end
-- ==== Proof.LibRowAgg.lean ====
/-
  A row scatter-add read at an entry as a sum over the update rows.

  `y.at[idx].add(u)` with `y : [A, B]`, `u : [N, B]` and the index a column `[N, 1]`: entry `(p, k)` of the result is
  `y (p, k)` plus the sum, over the update rows `e` whose index (read signed) is `p`, of `u (e, k)`. Rows whose index
  is outside `[0, A)` match no `p` and are dropped.
-/
import proofs.«180021_j37692632990117_2_alg».proof.Proof.LibSlotTake
import Idealize.ShloMosaic.PureOps.Ideal
import Idealize.ShloMosaic.Lib.ValueIdx

noncomputable section

namespace Cert.LibRowAgg

open Idealize.ShloMosaic Idealize.ShloMosaic.ValueIdx Idealize.ShloMosaic.SlotTake

/-- Entry `(p, k)` of a row scatter-add: the operand's entry plus the updates of the rows that land at row `p`. -/
theorem scatterAdd_row_apply {A B N : Nat} (wf : ScatterDims.WF ⟨2, ![A, B]⟩ ⟨2, ![N, 1]⟩ ⟨2, ![N, B]⟩ [1] [0] [0] 1)
    (x : (⟨2, ![A, B]⟩ : Shape).Idx → EReal) (si : IVec ⟨2, ![N, 1]⟩ 32) (u : (⟨2, ![N, B]⟩ : Shape).Idx → EReal)
    (p : Fin A) (k : Fin B) :
    Ideal.hostScatterAdd (rowScatterDims A B N wf) x si u (ix2 p k)
      = x (ix2 p k) + ∑ e : Fin N, if (si (colIdx e)).toInt = (p.val : Int) then u (ix2 e k) else 0 := by
  unfold Ideal.hostScatterAdd
  congr 1
  rw [Finset.sum_filter, sum_idx2]
  refine Finset.sum_congr rfl fun e _ => ?_
  have hiff : ∀ k' : Fin B, ((rowScatterDims A B N wf).resultIdx? (ix2 e k') si = some (ix2 p k))
      ↔ ((si (colIdx e)).toInt = (p.val : Int) ∧ k' = k) := by
    intro k'
    rw [resultIdx?_row_eq_some_iff wf si (ix2 e k') (ix2 p k)]
    constructor
    · rintro ⟨h0, h1⟩; exact ⟨h0, Fin.ext h1⟩
    · rintro ⟨h0, h1⟩; exact ⟨h0, congrArg Fin.val h1⟩
  by_cases h : (si (colIdx e)).toInt = (p.val : Int)
  · rw [if_pos h]
    rw [Finset.sum_eq_single k]
    · rw [if_pos ((hiff k).mpr ⟨h, rfl⟩)]
    · intro k' _ hk'
      rw [if_neg (fun hh => hk' ((hiff k').mp hh).2)]
    · intro hk; exact absurd (Finset.mem_univ k) hk
  · rw [if_neg h]
    refine Finset.sum_eq_zero fun k' _ => ?_
    rw [if_neg (fun hh => h ((hiff k').mp hh).1)]

end Cert.LibRowAgg

end
-- ==== Proof.HostReal.lean ====
/- Real arrays stay real through a row gather and a row scatter-add: a gathered row's entries are entries of the operand;
   a scatter-add's entry is the operand's entry plus a finite sum of update entries. -/
import proofs.«180021_j37692632990117_2_alg».proof.Proof.LibRowAgg
import proofs.«180021_j37692632990117_2_alg».proof.Proof.LibRealSums
import proofs.«180021_j37692632990117_2_alg».proof.Proof.Gen.KernelIdeal

set_option maxRecDepth 16384

noncomputable section

namespace Cert.Spec

open Idealize.ShloMosaic Idealize.ShloMosaic.ValueIdx Idealize.ShloMosaic.SlotTake Cert.LibRealSums

theorem gather_rows_real {A B N w : Nat} (hA : 0 < A)
    (wf : GatherDims.WF ⟨2, ![A, B]⟩ ⟨2, ![N, 1]⟩ ⟨2, ![N, B]⟩ [1] [0] [] [0] [] 1 ![1, B])
    (x : (⟨2, ![A, B]⟩ : Shape).Idx → EReal) (idx : IVec ⟨2, ![N, 1]⟩ w) (hx : ∀ i, IsReal (x i)) :
    ∀ j, IsReal (Host.gather (rowDims A B N wf) x idx j) := fun j => by
  rw [gather_row_apply hA wf]; exact hx _

theorem scatter_rows_real {A B N : Nat} (wf : ScatterDims.WF ⟨2, ![A, B]⟩ ⟨2, ![N, 1]⟩ ⟨2, ![N, B]⟩ [1] [0] [0] 1)
    (x : (⟨2, ![A, B]⟩ : Shape).Idx → EReal) (si : IVec ⟨2, ![N, 1]⟩ 32) (u : (⟨2, ![N, B]⟩ : Shape).Idx → EReal)
    (hx : ∀ i, IsReal (x i)) (hu : ∀ i, IsReal (u i)) :
    ∀ i, IsReal (Ideal.hostScatterAdd (rowScatterDims A B N wf) x si u i) := fun i => by
  obtain ⟨p, k, rfl⟩ : ∃ (p : Fin A) (k : Fin B), i = ix2 p k := ⟨i 0, i 1, eq_ix2 i⟩
  rw [Cert.LibRowAgg.scatterAdd_row_apply]
  exact (hx _).add (isReal_sum _ _ fun e _ => IsReal.ite (hu _) isReal_zero)

open Cert.KernelIdeal Cert.KernelIdeal.Gen in
theorem gather800_real (x : (⟨2, ![50000, 128]⟩ : Shape).Idx → EReal) (idx : IVec ⟨2, ![800000, 1]⟩ 32) (hx : ∀ i, IsReal (x i)) :
    ∀ j, IsReal (Host.gather gather_S50000x128_S800000x1_S800000x128_1_0_n_n_0_1_1128 x idx j) :=
  gather_rows_real (by norm_num) _ x idx hx

open Cert.KernelIdeal Cert.KernelIdeal.Gen in
theorem gather256_real (x : (⟨2, ![50000, 128]⟩ : Shape).Idx → EReal) (idx : IVec ⟨2, ![256, 1]⟩ 32) (hx : ∀ i, IsReal (x i)) :
    ∀ j, IsReal (Host.gather gather_S50000x128_S256x1_S256x128_1_0_n_n_0_1_1128 x idx j) :=
  gather_rows_real (by norm_num) _ x idx hx

open Cert.KernelIdeal Cert.KernelIdeal.Gen in
theorem scatter128_real (x : (⟨2, ![50000, 128]⟩ : Shape).Idx → EReal) (si : IVec ⟨2, ![800000, 1]⟩ 32) (u : (⟨2, ![800000, 128]⟩ : Shape).Idx → EReal)
    (hx : ∀ i, IsReal (x i)) (hu : ∀ i, IsReal (u i)) :
    ∀ i, IsReal (Host.scatterAdd (F := Ideal) (φ := .f32) scatter_S50000x128_S800000x1_S800000x128_1_0_0_1 x si u i) :=
  scatter_rows_real _ x si u hx hu

open Cert.KernelIdeal Cert.KernelIdeal.Gen in
theorem scatter1_real (x : (⟨2, ![50000, 1]⟩ : Shape).Idx → EReal) (si : IVec ⟨2, ![800000, 1]⟩ 32) (u : (⟨2, ![800000, 1]⟩ : Shape).Idx → EReal)
    (hx : ∀ i, IsReal (x i)) (hu : ∀ i, IsReal (u i)) :
    ∀ i, IsReal (Host.scatterAdd (F := Ideal) (φ := .f32) scatter_S50000x1_S800000x1_S800000x1_1_0_0_1 x si u i) :=
  scatter_rows_real _ x si u hx hu

end Cert.Spec

end
-- ==== Proof.SpecRef.lean ====
/- The reference network's layer and read-out on extended reals, index by index, in the reference's own order of
   operations.

   The mean aggregate of row r is the scatter-gather sum S(r,·) divided by max(cnt(r), 1) where cnt(r) > 0, and 0
   elsewhere (`refAgg`). A layer's pre-activation is (agg·Wlᵀ + b) + h·Wrᵀ (`refPre2`: the bias is added to the first
   product, then the second product). The column mean is the column sum, taken from a zero initial value, divided by
   50000 (`refMean`); the column variance is the sum, from a zero initial value, of the squared deviations from that
   mean, divided by 50000 − 0 (`refVar`: the divisor is 50000 minus the zero correction converted to a float). The layer
   is the normalising map `bnRelu` of the pre-activation with these two rows (`refLayer`); the read-out projects that
   map's result by a second weight, adds a bias and masks the rows (`refReadout`). 50000, 1 and 0 are kept as the f32
   words 0x47435000, 0x3F800000 and 0x00000000. -/
import proofs.«180021_j37692632990117_2_alg».proof.Proof.SpecNet

noncomputable section

open scoped BigOperators

namespace Cert.Spec

open Idealize.ShloMosaic Idealize.ShloMosaic.ValueIdx

/-- The mean aggregate: S / max(cnt, 1) on the rows with cnt > 0, and 0 on the others. -/
def refAgg (S : (⟨2, ![50000, 128]⟩ : Shape).Idx → EReal) (cnt : (⟨2, ![50000, 1]⟩ : Shape).Idx → EReal) :
    (⟨2, ![50000, 128]⟩ : Shape).Idx → EReal :=
  fun i => Scalar.select (Ideal.cmp .ogt (cnt (ix2 (i 0) (0 : Fin 1))) (Ideal.ofBits .f32 0x00000000#32))
    (Ideal.div (S i) (max (cnt (ix2 (i 0) (0 : Fin 1))) (Ideal.ofBits .f32 0x3F800000#32))) (Ideal.ofBits .f32 0x00000000#32)

/-- (agg·Wlᵀ + b) + h·Wrᵀ at an entry. -/
def refPre2 (agg h : (⟨2, ![50000, 128]⟩ : Shape).Idx → EReal) (wl wr : (⟨2, ![128, 128]⟩ : Shape).Idx → EReal)
    (bl : (⟨2, ![1, 128]⟩ : Shape).Idx → EReal) : (⟨2, ![50000, 128]⟩ : Shape).Idx → EReal :=
  fun i => (∑ k : Fin 128, agg (ix2 (i 0) k) * wl (ix2 (i 1) k) + bl (ix2 (0 : Fin 1) (i 1))) + ∑ k : Fin 128, h (ix2 (i 0) k) * wr (ix2 (i 1) k)

/-- The column means as a row: (0 + column sum) / 50000. -/
def refMean (x : (⟨2, ![50000, 128]⟩ : Shape).Idx → EReal) : (⟨2, ![1, 128]⟩ : Shape).Idx → EReal :=
  fun i => Ideal.div (Ideal.ofBits .f32 0x00000000#32 + ∑ r : Fin 50000, x (ix2 r (i 1))) (Ideal.ofBits .f32 0x47435000#32)

/-- The column variances as a row: (0 + column sum of the squared deviations from the mean) / (50000 − 0). -/
def refVar (x : (⟨2, ![50000, 128]⟩ : Shape).Idx → EReal) : (⟨2, ![1, 128]⟩ : Shape).Idx → EReal :=
  fun i => Ideal.div
    (Ideal.ofBits .f32 0x00000000#32
      + ∑ r : Fin 50000, (x (ix2 r (i 1)) - refMean x (ix2 (0 : Fin 1) (i 1))) * (x (ix2 r (i 1)) - refMean x (ix2 (0 : Fin 1) (i 1))))
    (Ideal.ofBits .f32 0x47435000#32 - FloatOps.sitofp (F := Ideal) .f32 (0#32 : BitVec 32))

/-- One layer as the reference computes it. -/
def refLayer (S : (⟨2, ![50000, 128]⟩ : Shape).Idx → EReal) (cnt : (⟨2, ![50000, 1]⟩ : Shape).Idx → EReal)
    (h : (⟨2, ![50000, 128]⟩ : Shape).Idx → EReal) (wl wr : (⟨2, ![128, 128]⟩ : Shape).Idx → EReal)
    (bl ga be : (⟨2, ![1, 128]⟩ : Shape).Idx → EReal) : (⟨2, ![50000, 128]⟩ : Shape).Idx → EReal :=
  bnRelu (refPre2 (refAgg S cnt) h wl wr bl) (refMean (refPre2 (refAgg S cnt) h wl wr bl)) (refVar (refPre2 (refAgg S cnt) h wl wr bl)) ga be

/-- The read-out as the reference computes it. -/
def refReadout (h : (⟨2, ![50000, 128]⟩ : Shape).Idx → EReal) (w1 : (⟨2, ![128, 128]⟩ : Shape).Idx → EReal)
    (b1 ga be : (⟨2, ![1, 128]⟩ : Shape).Idx → EReal) (w2 : (⟨2, ![128, 128]⟩ : Shape).Idx → EReal)
    (b2 : (⟨2, ![1, 128]⟩ : Shape).Idx → EReal) (mask : (⟨2, ![50000, 1]⟩ : Shape).Idx → EReal) :
    (⟨2, ![50000, 128]⟩ : Shape).Idx → EReal :=
  atomOut (linPre1 h w1 b1) (refMean (linPre1 h w1 b1)) (refVar (linPre1 h w1 b1)) ga be w2 b2 mask

end Cert.Spec

end
-- ==== Proof.Glue.lean ====
/- The kernel's layer and the reference's layer are one function.

   The column mean: a column sum taken from zero and divided by 50000 is the column sum times 1/50000, on every extended
   real.  The column variance: for real entries the mean of the squared deviations is the mean of the squares minus the
   squared mean, and is not negative, so cutting it below at zero changes nothing.  The mean aggregate: on a row with
   positive degree, dividing the sum by max(degree, 1) is multiplying it by 1/max(degree, 1) (the degree is a real, at
   least one after the max); on a row of degree zero both are zero.  The pre-activation: the bias row may be added before
   or after the second product. -/
import proofs.«180021_j37692632990117_2_alg».proof.Proof.SpecRef
import proofs.«180021_j37692632990117_2_alg».proof.Proof.LibGraphMath
import Idealize.ShloMosaic.PureOps.Ideal.Laws

noncomputable section

namespace Cert.Spec

open Idealize.ShloMosaic Idealize.ShloMosaic.ValueIdx Cert.LibRealSums Cert.KMath

theorem ofBits_one_f32 : Ideal.ofBits .f32 0x3F800000#32 = 1 := by
  simp [Ideal.ofBits, Ideal.ieee, -EReal.coe_mul]; norm_num

theorem ofBits_50000_f32 : Ideal.ofBits .f32 0x47435000#32 = ((50000 : ℝ) : EReal) := by
  simp [Ideal.ofBits, Ideal.ieee, -EReal.coe_mul]; norm_num

/-- The column mean, both ways. -/
theorem refMean_eq (x : (⟨2, ![50000, 128]⟩ : Shape).Idx → EReal) : refMean x = meanRow x := by
  funext i
  unfold refMean meanRow colSum
  rw [Ideal.ofBits_zero_f32, zero_add, ofBits_50000_f32, Ideal.div_coe (by norm_num : (50000 : ℝ) ≠ 0)]

/-- The column variance, both ways, for real entries. -/
theorem refVar_eq (x : (⟨2, ![50000, 128]⟩ : Shape).Idx → EReal) (hx : ∀ i, IsReal (x i)) : refVar x = varRow x := by
  funext i
  have hs : FloatOps.sitofp (F := Ideal) .f32 (0#32 : BitVec 32) = (0 : EReal) := by
    show (((0#32 : BitVec 32).toInt : ℝ) : EReal) = 0
    simp
  have hN0 : (50000 : ℝ) ≠ 0 := by norm_num
  have hcard : (Fintype.card (Fin 50000) : ℝ) = 50000 := by simp
  have hxq : ∀ r : Fin 50000, IsReal (x (ix2 r (i 1))) := fun r => hx _
  have hmean : refMean x (ix2 (0 : Fin 1) (i 1)) = Ideal.div (0 + ∑ r : Fin 50000, x (ix2 r (i 1))) ((50000 : ℝ) : EReal) := by
    unfold refMean; rw [Ideal.ofBits_zero_f32, ofBits_50000_f32]
  have hmr : meanRow x i = Ideal.div (0 + ∑ r : Fin 50000, x (ix2 r (i 1))) ((50000 : ℝ) : EReal) := by
    rw [← refMean_eq]; unfold refMean; rw [Ideal.ofBits_zero_f32, ofBits_50000_f32]
  have hsq : colSum (fun q => x q * x q) (i 1) * ((1 / 50000 : ℝ) : EReal) = Ideal.div (0 + ∑ r : Fin 50000, x (ix2 r (i 1)) * x (ix2 r (i 1))) ((50000 : ℝ) : EReal) := by
    unfold colSum; rw [zero_add, Ideal.div_coe hN0]
  unfold refVar varRow
  rw [hs, ofBits_50000_f32, sub_zero, Ideal.ofBits_zero_f32, hmean, hmr, hsq,
    ← var_forms (fun r : Fin 50000 => x (ix2 r (i 1))) hxq 50000 hcard hN0]
  obtain ⟨v, hv0, hv⟩ := var_eq_coe_nonneg (fun r : Fin 50000 => x (ix2 r (i 1))) hxq 50000 hcard hN0
  rw [hv]
  exact (max_eq_left (by exact_mod_cast hv0)).symm

/-- The mean aggregate, both ways: the reciprocal degree column is select(cnt > 0, 1 / max(cnt, 1), 0) and the degree is real. -/
theorem refAgg_eq (S : (⟨2, ![50000, 128]⟩ : Shape).Idx → EReal) (cnt inv : (⟨2, ![50000, 1]⟩ : Shape).Idx → EReal)
    (hinv : ∀ r : Fin 50000, inv (ix2 r (0 : Fin 1)) = Scalar.select (Ideal.cmp .ogt (cnt (ix2 r (0 : Fin 1))) (Ideal.ofBits .f32 0x00000000#32))
      (Ideal.div (Ideal.ofBits .f32 0x3F800000#32) (max (cnt (ix2 r (0 : Fin 1))) (Ideal.ofBits .f32 0x3F800000#32))) (Ideal.ofBits .f32 0x00000000#32))
    (hcnt : ∀ r : Fin 50000, IsReal (cnt (ix2 r (0 : Fin 1)))) :
    refAgg S cnt = aggK S inv := by
  funext i
  unfold refAgg aggK
  rw [hinv (i 0)]
  unfold Scalar.select
  have hm : IsReal (max (cnt (ix2 (i 0) (0 : Fin 1))) (Ideal.ofBits .f32 0x3F800000#32)) := by
    rw [ofBits_one_f32]; exact (hcnt (i 0)).max isReal_one
  have h1 : (1 : EReal) ≤ max (cnt (ix2 (i 0) (0 : Fin 1))) (Ideal.ofBits .f32 0x3F800000#32) := by
    rw [ofBits_one_f32]; exact le_max_right _ _
  by_cases hc : Ideal.cmp .ogt (cnt (ix2 (i 0) (0 : Fin 1))) (Ideal.ofBits .f32 0x00000000#32) = 1
  · rw [if_pos hc, if_pos hc, div_eq_mul_one_div hm h1, ofBits_one_f32]
  · rw [if_neg hc, if_neg hc, Ideal.ofBits_zero_f32, mul_zero]

/-- The pre-activation, both ways. -/
theorem refPre2_eq (agg h : (⟨2, ![50000, 128]⟩ : Shape).Idx → EReal) (wl wr : (⟨2, ![128, 128]⟩ : Shape).Idx → EReal)
    (bl : (⟨2, ![1, 128]⟩ : Shape).Idx → EReal) : refPre2 agg h wl wr bl = linPre2 agg h wl wr bl := by
  funext i
  unfold refPre2 linPre2
  exact add_right_comm _ _ _

/-- THE LAYER, both ways: given the reciprocal degree column, a real degree and a real pre-activation. -/
theorem refLayer_eq (S : (⟨2, ![50000, 128]⟩ : Shape).Idx → EReal) (cnt inv : (⟨2, ![50000, 1]⟩ : Shape).Idx → EReal)
    (h : (⟨2, ![50000, 128]⟩ : Shape).Idx → EReal) (wl wr : (⟨2, ![128, 128]⟩ : Shape).Idx → EReal)
    (bl ga be : (⟨2, ![1, 128]⟩ : Shape).Idx → EReal)
    (hinv : ∀ r : Fin 50000, inv (ix2 r (0 : Fin 1)) = Scalar.select (Ideal.cmp .ogt (cnt (ix2 r (0 : Fin 1))) (Ideal.ofBits .f32 0x00000000#32))
      (Ideal.div (Ideal.ofBits .f32 0x3F800000#32) (max (cnt (ix2 r (0 : Fin 1))) (Ideal.ofBits .f32 0x3F800000#32))) (Ideal.ofBits .f32 0x00000000#32))
    (hcnt : ∀ r : Fin 50000, IsReal (cnt (ix2 r (0 : Fin 1))))
    (hP : ∀ i, IsReal (linPre2 (aggK S inv) h wl wr bl i)) :
    refLayer S cnt h wl wr bl ga be = kerLayer S inv h wl wr bl ga be := by
  unfold refLayer kerLayer
  rw [refAgg_eq S cnt inv hinv hcnt, refPre2_eq, refMean_eq, refVar_eq _ hP]

/-- THE READ-OUT, both ways, for a real pre-activation. -/
theorem refReadout_eq (h : (⟨2, ![50000, 128]⟩ : Shape).Idx → EReal) (w1 : (⟨2, ![128, 128]⟩ : Shape).Idx → EReal)
    (b1 ga be : (⟨2, ![1, 128]⟩ : Shape).Idx → EReal) (w2 : (⟨2, ![128, 128]⟩ : Shape).Idx → EReal)
    (b2 : (⟨2, ![1, 128]⟩ : Shape).Idx → EReal) (mask : (⟨2, ![50000, 1]⟩ : Shape).Idx → EReal)
    (hQ : ∀ i, IsReal (linPre1 h w1 b1 i)) :
    refReadout h w1 b1 ga be w2 b2 mask = kerReadout h w1 b1 ga be w2 b2 mask := by
  unfold refReadout kerReadout
  rw [refMean_eq, refVar_eq _ hQ]

end Cert.Spec

end
-- ==== Proof.GlueReal.lean ====
/- Realness through a layer: real inputs give a real pre-activation, a real column mean, a column variance that is a
   nonnegative real, and — the variance plus a positive ε being positive, so its reciprocal root real — a real output. -/
import proofs.«180021_j37692632990117_2_alg».proof.Proof.Glue

noncomputable section

namespace Cert.Spec

open Idealize.ShloMosaic Idealize.ShloMosaic.ValueIdx Cert.LibRealSums Cert.KMath

/-- ε is a positive real. -/
theorem eps_form : ∃ e : ℝ, 0 < e ∧ Ideal.ofBits .f32 0x3727C5AC#32 = (e : EReal) := by
  refine ⟨10995116 * (2 ^ 40)⁻¹, by positivity, ?_⟩
  simp [Ideal.ofBits, Ideal.ieee, -EReal.coe_mul]

theorem isReal_sub {x y : EReal} (hx : IsReal x) (hy : IsReal y) : IsReal (x - y) := by
  obtain ⟨a, rfl⟩ := hx; obtain ⟨b, rfl⟩ := hy; exact ⟨a - b, (EReal.coe_sub a b).symm⟩

theorem bnAt_real {x mu var ga be : EReal} (hx : IsReal x) (hmu : IsReal mu) (hv : ∃ v : ℝ, 0 ≤ v ∧ var = (v : EReal))
    (hga : IsReal ga) (hbe : IsReal be) : IsReal (bnAt x mu var ga be) := by
  obtain ⟨e, he, hee⟩ := eps_form
  obtain ⟨v, hv0, rfl⟩ := hv
  unfold bnAt
  rw [hee, Ideal.ofBits_zero_f32, ← EReal.coe_add, rsqrt_coe_of_pos (v + e) (by positivity)]
  exact ((((isReal_sub hx hmu).mul (isReal_coe _)).mul hga).add hbe).max isReal_zero

theorem bnRelu_real (x : (⟨2, ![50000, 128]⟩ : Shape).Idx → EReal) (mu var ga be : (⟨2, ![1, 128]⟩ : Shape).Idx → EReal)
    (hx : ∀ i, IsReal (x i)) (hmu : ∀ i, IsReal (mu i)) (hvar : ∀ i, ∃ v : ℝ, 0 ≤ v ∧ var i = (v : EReal))
    (hga : ∀ i, IsReal (ga i)) (hbe : ∀ i, IsReal (be i)) : ∀ i, IsReal (bnRelu x mu var ga be i) :=
  fun i => bnAt_real (hx _) (hmu _) (hvar _) (hga _) (hbe _)

theorem meanRow_real (x : (⟨2, ![50000, 128]⟩ : Shape).Idx → EReal) (hx : ∀ i, IsReal (x i)) : ∀ i, IsReal (meanRow x i) := fun i => by
  unfold meanRow colSum
  exact (isReal_sum _ _ fun r _ => hx _).mul (isReal_coe _)

/-- The column variance of a real array is a nonnegative real. -/
theorem varRow_coe (x : (⟨2, ![50000, 128]⟩ : Shape).Idx → EReal) (hx : ∀ i, IsReal (x i)) :
    ∀ i, ∃ v : ℝ, 0 ≤ v ∧ varRow x i = (v : EReal) := fun i => by
  have hN0 : (50000 : ℝ) ≠ 0 := by norm_num
  have hcard : (Fintype.card (Fin 50000) : ℝ) = 50000 := by simp
  have hxq : ∀ r : Fin 50000, IsReal (x (ix2 r (i 1))) := fun r => hx _
  have hmr : meanRow x i = Ideal.div (0 + ∑ r : Fin 50000, x (ix2 r (i 1))) ((50000 : ℝ) : EReal) := by
    unfold meanRow colSum; rw [zero_add, Ideal.div_coe hN0]
  have hsq : colSum (fun q => x q * x q) (i 1) * ((1 / 50000 : ℝ) : EReal) = Ideal.div (0 + ∑ r : Fin 50000, x (ix2 r (i 1)) * x (ix2 r (i 1))) ((50000 : ℝ) : EReal) := by
    unfold colSum; rw [zero_add, Ideal.div_coe hN0]
  obtain ⟨v, hv0, hv⟩ := var_eq_coe_nonneg (fun r : Fin 50000 => x (ix2 r (i 1))) hxq 50000 hcard hN0
  refine ⟨v, hv0, ?_⟩
  unfold varRow
  rw [Ideal.ofBits_zero_f32, hmr, hsq, hv]
  exact max_eq_left (by exact_mod_cast hv0)

theorem aggK_real (S : (⟨2, ![50000, 128]⟩ : Shape).Idx → EReal) (inv : (⟨2, ![50000, 1]⟩ : Shape).Idx → EReal)
    (hS : ∀ i, IsReal (S i)) (hinv : ∀ i, IsReal (inv i)) : ∀ i, IsReal (aggK S inv i) := fun i => (hS _).mul (hinv _)

theorem linPre2_real (agg h : (⟨2, ![50000, 128]⟩ : Shape).Idx → EReal) (wl wr : (⟨2, ![128, 128]⟩ : Shape).Idx → EReal)
    (bl : (⟨2, ![1, 128]⟩ : Shape).Idx → EReal) (ha : ∀ i, IsReal (agg i)) (hh : ∀ i, IsReal (h i)) (hwl : ∀ i, IsReal (wl i))
    (hwr : ∀ i, IsReal (wr i)) (hbl : ∀ i, IsReal (bl i)) : ∀ i, IsReal (linPre2 agg h wl wr bl i) := fun i => by
  unfold linPre2
  exact ((isReal_sum _ _ fun k _ => (ha _).mul (hwl _)).add (isReal_sum _ _ fun k _ => (hh _).mul (hwr _))).add (hbl _)

theorem linPre1_real (x : (⟨2, ![50000, 128]⟩ : Shape).Idx → EReal) (w : (⟨2, ![128, 128]⟩ : Shape).Idx → EReal)
    (b : (⟨2, ![1, 128]⟩ : Shape).Idx → EReal) (hx : ∀ i, IsReal (x i)) (hw : ∀ i, IsReal (w i)) (hb : ∀ i, IsReal (b i)) :
    ∀ i, IsReal (linPre1 x w b i) := fun i => by
  unfold linPre1
  exact (isReal_sum _ _ fun k _ => (hx _).mul (hw _)).add (hb _)

/-- The reciprocal degree column is real when the degree is. -/
theorem inv_real (cnt inv : (⟨2, ![50000, 1]⟩ : Shape).Idx → EReal)
    (hinv : ∀ r : Fin 50000, inv (ix2 r (0 : Fin 1)) = Scalar.select (Ideal.cmp .ogt (cnt (ix2 r (0 : Fin 1))) (Ideal.ofBits .f32 0x00000000#32))
      (Ideal.div (Ideal.ofBits .f32 0x3F800000#32) (max (cnt (ix2 r (0 : Fin 1))) (Ideal.ofBits .f32 0x3F800000#32))) (Ideal.ofBits .f32 0x00000000#32))
    (hcnt : ∀ r : Fin 50000, IsReal (cnt (ix2 r (0 : Fin 1)))) : ∀ i, IsReal (inv i) := fun i => by
  obtain ⟨r, z, rfl⟩ : ∃ (r : Fin 50000) (z : Fin 1), i = ix2 r z := ⟨i 0, i 1, eq_ix2 i⟩
  obtain rfl : z = 0 := Subsingleton.elim _ _
  rw [hinv r]
  unfold Scalar.select
  split_ifs
  · rw [ofBits_one_f32]
    exact isReal_one.div_of_one_le ((hcnt r).max isReal_one) (le_max_right _ _)
  · rw [Ideal.ofBits_zero_f32]; exact isReal_zero

/-- A layer keeps realness. -/
theorem kerLayer_real (S : (⟨2, ![50000, 128]⟩ : Shape).Idx → EReal) (inv : (⟨2, ![50000, 1]⟩ : Shape).Idx → EReal)
    (h : (⟨2, ![50000, 128]⟩ : Shape).Idx → EReal) (wl wr : (⟨2, ![128, 128]⟩ : Shape).Idx → EReal)
    (bl ga be : (⟨2, ![1, 128]⟩ : Shape).Idx → EReal)
    (hP : ∀ i, IsReal (linPre2 (aggK S inv) h wl wr bl i)) (hga : ∀ i, IsReal (ga i)) (hbe : ∀ i, IsReal (be i)) :
    ∀ i, IsReal (kerLayer S inv h wl wr bl ga be i) :=
  bnRelu_real _ _ _ _ _ hP (meanRow_real _ hP) (varRow_coe _ hP) hga hbe

end Cert.Spec

end
-- ==== Proof.IdealReal.lean ====
/- The scatter-gather sum of a real array, and the degree column, are real. -/
import proofs.«180021_j37692632990117_2_alg».proof.Proof.IdealChains
import proofs.«180021_j37692632990117_2_alg».proof.Proof.HostReal
import proofs.«180021_j37692632990117_2_alg».proof.Proof.GlueReal

set_option maxRecDepth 16384

noncomputable section

namespace Cert.KernelIdeal.Gen

open Idealize.ShloMosaic Idealize.ShloMosaic.ValueIdx Cert.Spec Cert.LibRealSums

theorem SG_real (h : (⟨S50000x128, .f32⟩ : BufTy).Contents (Elt Ideal)) (ei : (⟨S2x800000, .i32⟩ : BufTy).Contents (Elt Ideal))
    (hh : ∀ i, IsReal (h i)) : ∀ i, IsReal (SG (F := Ideal) h ei i) := by
  unfold SG
  refine scatter128_real _ _ _ (fun i => ?_) (gather800_real _ _ hh)
  show IsReal (Ideal.ofBits .f32 0x00000000#32)
  rw [Ideal.ofBits_zero_f32]; exact isReal_zero

theorem CNT_real (ei : (⟨S2x800000, .i32⟩ : BufTy).Contents (Elt Ideal)) : ∀ i, IsReal (CNT (F := Ideal) ei i) := by
  unfold CNT
  refine scatter1_real _ _ _ (fun i => ?_) (fun i => ?_)
  · show IsReal (Ideal.ofBits .f32 0x00000000#32)
    rw [Ideal.ofBits_zero_f32]; exact isReal_zero
  · show IsReal (Ideal.ofBits .f32 0x3F800000#32)
    rw [ofBits_one_f32]; exact isReal_one

end Cert.KernelIdeal.Gen

end
-- ==== Proof.RefVec.lean ====
/- The reference's layer, from whole-array host operations to entries.

   Each group of the reference's operations is one whole-array term of a few arrays; read at an entry it is the
   corresponding function of `SpecRef`. A broadcast reads its operand at the entry's coordinates on the operand's axes
   (at 0 on an axis of extent one), a product with a transposed weight is the sum over the one contracted coordinate
   of the left entry by the weight's entry with its coordinates exchanged, a sum along the rows from an initial value
   is that value plus the column's sum, and everything else is entrywise. The variance's guard compares 50000 − 0 with
   0 and is true, the word 0x47435000 being 50000. -/
import proofs.«180021_j37692632990117_2_alg».proof.Proof.Gen.ReferenceIdeal
import proofs.«180021_j37692632990117_2_alg».proof.Proof.SpecRef
import Idealize.ShloMosaic.PureOps.Ideal.Laws
import Idealize.ShloMosaic.Lib.Pipeline.Value
import Idealize.ShloMosaic.Lib.ValueLayout

set_option maxRecDepth 16384

noncomputable section

open scoped BigOperators

namespace Cert.ReferenceIdeal.RefRun

open Cert.ReferenceIdeal Cert.ReferenceIdeal.Gen Idealize.ShloMosaic Idealize.ShloMosaic.ValueIdx Cert.Spec

/-! ## Broadcasts read at an entry -/

section Layout
variable {α : Type}

/-- A scalar broadcast to any shape reads the scalar. -/
theorem bid_scalar {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 (fun a => a.elim0)

/-- A column `[a, 1]` broadcast to `[a, b]` reads, at `(p, c)`, row `p` of the column. -/
theorem bid_a1_ab {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast to `[a, b]` reads, at `(p, c)`, the row at `c`. -/
theorem bid_1b_ab {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` made a row `[1, b]` reads, at `(0, c)`, the vector at `c`. -/
theorem bid_b_1b {b : ℕ} (h : (⟨1, ![b]⟩ : Shape).BroadcastsInDim ⟨2, ![1, b]⟩ (![1] : Fin 1 → Fin 2))
    (x : (⟨1, ![b]⟩ : Shape).Idx → α) (c : Fin b) :
    broadcastInDim ⟨2, ![1, b]⟩ ![1] h x (ix2 (0 : Fin 1) c) = x (ix1 c) := by
  refine broadcastInDim_apply _ h x (ix2 (0 : Fin 1) c) (ix1 c) fun ax => ?_
  match ax with
  | ⟨0, _⟩ =>
    show c.val = if b = 1 then 0 else c.val
    split
    · have := c.isLt; omega
    · rfl

end Layout

/-! ## The host's entrywise operations, the product and the column sum at an entry -/

theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl
theorem const_apply {s : Shape} (w : BitVec 32) (i : s.Idx) : constant (F := Ideal) s .f32 w i = Ideal.ofBits .f32 w := rfl

theorem lhsR_0 (i : S50000x128.Idx) (q : dot_S50000x128_S128x128_S50000x128_1_0_0_1_n_n.contr.Idx) : (dot_S50000x128_S128x128_S50000x128_1_0_0_1_n_n.lhsIdx i q 0).val = (i 0).val := by
  unfold DotDims.lhsIdx
  rw [dif_neg (show ¬(0 : Fin S50000x128.rank) ∈ dot_S50000x128_S128x128_S50000x128_1_0_0_1_n_n.lhsBatch by decide), dif_pos (show (0 : Fin S50000x128.rank) ∈ dot_S50000x128_S128x128_S50000x128_1_0_0_1_n_n.lhsNonContracting by decide)]
  rfl
theorem lhsR_1 (i : S50000x128.Idx) (q : dot_S50000x128_S128x128_S50000x128_1_0_0_1_n_n.contr.Idx) : (dot_S50000x128_S128x128_S50000x128_1_0_0_1_n_n.lhsIdx i q 1).val = (q ⟨0, by decide⟩).val :=
  dot_S50000x128_S128x128_S50000x128_1_0_0_1_n_n.lhsIdx_val_of_single rfl i q
theorem rhsR_0 (i : S50000x128.Idx) (q : dot_S50000x128_S128x128_S50000x128_1_0_0_1_n_n.contr.Idx) : (dot_S50000x128_S128x128_S50000x128_1_0_0_1_n_n.rhsIdx i q 0).val = (q ⟨0, by decide⟩).val :=
  dot_S50000x128_S128x128_S50000x128_1_0_0_1_n_n.rhsIdx_val_of_single rfl i q
theorem rhsR_1 (i : S50000x128.Idx) (q : dot_S50000x128_S128x128_S50000x128_1_0_0_1_n_n.contr.Idx) : (dot_S50000x128_S128x128_S50000x128_1_0_0_1_n_n.rhsIdx i q 1).val = (i 1).val := by
  unfold DotDims.rhsIdx
  rw [dif_neg (show ¬(1 : Fin S128x128.rank) ∈ dot_S50000x128_S128x128_S50000x128_1_0_0_1_n_n.rhsBatch by decide), dif_pos (show (1 : Fin S128x128.rank) ∈ dot_S50000x128_S128x128_S50000x128_1_0_0_1_n_n.rhsNonContracting by decide)]
  rfl

/-- A product with a transposed weight at an entry: the sum over the contracted coordinate k of the left operand at
    (r, k) by the weight at (j, k). -/
theorem dotT_apply (l : FVec Ideal S50000x128 .f32) (w : FVec Ideal S128x128 .f32) (r : Fin 50000) (j : Fin 128) :
    Host.dotGeneral dot_S50000x128_S128x128_S50000x128_1_0_0_1_n_n none l (transpose S128x128 [1, 0] w transposes_S128x128_S128x128_1_0) (ix2 r j)
      = ∑ k : Fin 128, l (ix2 r k) * w (ix2 j k) := by
  refine (Ideal.dotGeneral_apply dot_S50000x128_S128x128_S50000x128_1_0_0_1_n_n none .single l _ (ix2 r j)).trans ?_
  rw [← Equiv.sum_comp (contrEquiv1 dot_S50000x128_S128x128_S50000x128_1_0_0_1_n_n 128 rfl rfl).symm]
  refine Finset.sum_congr rfl fun k _ => ?_
  have hk := contrEquiv1_symm_val dot_S50000x128_S128x128_S50000x128_1_0_0_1_n_n 128 rfl rfl k
  have el : dot_S50000x128_S128x128_S50000x128_1_0_0_1_n_n.lhsIdx (ix2 r j) ((contrEquiv1 dot_S50000x128_S128x128_S50000x128_1_0_0_1_n_n 128 rfl rfl).symm k) = ix2 r k := funext fun a => Fin.ext (by
    match a with
    | ⟨0, _⟩ => exact lhsR_0 _ _
    | ⟨1, _⟩ => exact (lhsR_1 _ _).trans hk)
  have er : dot_S50000x128_S128x128_S50000x128_1_0_0_1_n_n.rhsIdx (ix2 r j) ((contrEquiv1 dot_S50000x128_S128x128_S50000x128_1_0_0_1_n_n 128 rfl rfl).symm k) = ix2 k j := funext fun a => Fin.ext (by
    match a with
    | ⟨0, _⟩ => exact (rhsR_0 _ _).trans hk
    | ⟨1, _⟩ => exact rhsR_1 _ _)
  rw [el, er, transpose_ix2_apply]

/-- A sum along the rows from an initial value, at column j: the value plus the column's sum. -/
theorem colsum_apply (x : FVec Ideal S50000x128 .f32) (c : FVec Ideal S_ .f32) (j : Fin 128) :
    Host.reduceAdd x c reducesTo_S50000x128_S128_d0 h_S_ (ix1 j) = c ix0 + ∑ r : Fin 50000, x (ix2 r j) := by
  simp only [Host.reduceAdd, Ideal.hostReduceAdd_def]
  rw [Ideal.hostReduceAdd_single reducesTo_S50000x128_S128_d0 (by decide)]
  refine congrArg₂ (· + ·) (congrArg c (eq_ix0 _)) (Finset.sum_congr rfl fun k _ => ?_)
  exact congrArg x (funext fun a => Fin.ext (by match a with | ⟨0, _⟩ => rfl | ⟨1, _⟩ => rfl))

/-! ### The same for `simp`: the entry's index (an index built from coordinates unfolds, and the rewriting index keys
on it) and the broadcast's axis map left out of the key -/

section ForSimp
variable {α : Type}

theorem bid_scalar' {t : Shape} (h : (⟨0, ![]⟩ : Shape).BroadcastsInDim t (![] : Fin 0 → Fin t.rank))
    (x : (⟨0, ![]⟩ : Shape).Idx → α) (j : t.Idx) : broadcastInDim t (no_index ![]) h x (no_index j) = x ix0 := bid_scalar h x j
theorem bid_a1_ab' {a b : ℕ} (h : (⟨2, ![a, 1]⟩ : Shape).BroadcastsInDim ⟨2, ![a, b]⟩ (![0, 1] : Fin 2 → Fin 2))
    (x : (⟨2, ![a, 1]⟩ : Shape).Idx → α) (p : Fin a) (c : Fin b) :
    broadcastInDim ⟨2, ![a, b]⟩ (no_index ![0, 1]) h x (no_index (ix2 p c)) = x (ix2 p (0 : Fin 1)) := bid_a1_ab h x p c
theorem bid_1b_ab' {a b : ℕ} (h : (⟨2, ![1, b]⟩ : Shape).BroadcastsInDim ⟨2, ![a, b]⟩ (![0, 1] : Fin 2 → Fin 2))
    (x : (⟨2, ![1, b]⟩ : Shape).Idx → α) (p : Fin a) (c : Fin b) :
    broadcastInDim ⟨2, ![a, b]⟩ (no_index ![0, 1]) h x (no_index (ix2 p c)) = x (ix2 (0 : Fin 1) c) := bid_1b_ab h x p c
theorem bid_b_1b' {b : ℕ} (h : (⟨1, ![b]⟩ : Shape).BroadcastsInDim ⟨2, ![1, b]⟩ (![1] : Fin 1 → Fin 2))
    (x : (⟨1, ![b]⟩ : Shape).Idx → α) (c : Fin b) :
    broadcastInDim ⟨2, ![1, b]⟩ (no_index ![1]) h x (no_index (ix2 (0 : Fin 1) c)) = x (ix1 c) := bid_b_1b h x c

end ForSimp

theorem dotT_apply' (l : FVec Ideal S50000x128 .f32) (w : FVec Ideal S128x128 .f32) (r : Fin 50000) (j : Fin 128) :
    Host.dotGeneral dot_S50000x128_S128x128_S50000x128_1_0_0_1_n_n none l (transpose S128x128 (no_index [1, 0]) w transposes_S128x128_S128x128_1_0) (no_index (ix2 r j))
      = ∑ k : Fin 128, l (ix2 r k) * w (ix2 j k) := dotT_apply l w r j
theorem colsum_apply' (x : FVec Ideal S50000x128 .f32) (c : FVec Ideal S_ .f32) (j : Fin 128) :
    Host.reduceAdd x c reducesTo_S50000x128_S128_d0 h_S_ (no_index (ix1 j)) = c ix0 + ∑ r : Fin 50000, x (ix2 r j) := colsum_apply x c j

/-! ## The variance's guard -/

/-- The word 0x47435000 is 50000. -/
theorem w50000 : Ideal.ofBits .f32 0x47435000#32 = ((50000 : ℝ) : EReal) := by
  simp [Ideal.ofBits, Ideal.ieee, -EReal.coe_mul]; norm_num

/-- 50000 − 0 > 0. -/
theorem guard_true : Ideal.cmp .ogt (Ideal.ofBits .f32 0x47435000#32 - FloatOps.sitofp (F := Ideal) .f32 (0#32 : BitVec 32))
    (Ideal.ofBits .f32 0x00000000#32) = 1#1 := by
  have h0 : FloatOps.sitofp (F := Ideal) .f32 (0#32 : BitVec 32) = 0 := by
    show (((0#32 : BitVec 32).toInt : ℝ) : EReal) = 0
    simp
  rw [w50000, h0, Ideal.ofBits_zero_f32, sub_zero]
  show BitVec.ofBool (decide ((0 : EReal) < ((50000 : ℝ) : EReal))) = 1#1
  have hp : (0 : EReal) < ((50000 : ℝ) : EReal) := by exact_mod_cast (by norm_num : (0 : ℝ) < 50000)
  rw [decide_eq_true hp]; rfl

/-! ## The groups of operations: the reference's whole-array terms -/

section Terms
variable {F : FTy → Type} [FloatOps F]

/-- The mean aggregate as the reference's whole-array term of the scatter-gather sum and the degree array. -/
def aggVec (S : (⟨S50000x128, .f32⟩ : BufTy).Contents (Elt F)) (cnt : (⟨S50000x1, .f32⟩ : BufTy).Contents (Elt F)) : (⟨S50000x128, .f32⟩ : BufTy).Contents (Elt F) :=
  (select (broadcastInDim S50000x128 ![0, 1] bcast_S50000x1_S50000x128_0_1 (cmpf .ogt cnt (broadcastInDim S50000x1 ![] bcast_S_S50000x1 (constant S_ .f32 0x00000000#32 : (⟨S_, .f32⟩ : BufTy).Contents (Elt F)) : (⟨S50000x1, .f32⟩ : BufTy).Contents (Elt F)) : (⟨S50000x1, .i1⟩ : BufTy).Contents (Elt F)) : (⟨S50000x128, .i1⟩ : BufTy).Contents (Elt F)) (Host.divf S (broadcastInDim S50000x128 ![0, 1] bcast_S50000x1_S50000x128_0_1 (maximumf cnt (broadcastInDim S50000x1 ![] bcast_S_S50000x1 (constant S_ .f32 0x3F800000#32 : (⟨S_, .f32⟩ : BufTy).Contents (Elt F)) : (⟨S50000x1, .f32⟩ : BufTy).Contents (Elt F)) : (⟨S50000x1, .f32⟩ : BufTy).Contents (Elt F)) : (⟨S50000x128, .f32⟩ : BufTy).Contents (Elt F)) : (⟨S50000x128, .f32⟩ : BufTy).Contents (Elt F)) (broadcastInDim S50000x128 ![] bcast_S_S50000x128 ((constant S_ .f32 0x00000000#32 : (⟨S_, .f32⟩ : BufTy).Contents (Elt F)) : (⟨S_, .f32⟩ : BufTy).Contents (Elt F)) : (⟨S50000x128, .f32⟩ : BufTy).Contents (Elt F)) : (⟨S50000x128, .f32⟩ : BufTy).Contents (Elt F))

/-- The pre-activation as the reference's whole-array term. -/
def preVec (agg h : (⟨S50000x128, .f32⟩ : BufTy).Contents (Elt F)) (wl wr : (⟨S128x128, .f32⟩ : BufTy).Contents (Elt F)) (bl : (⟨S1x128, .f32⟩ : BufTy).Contents (Elt F)) : (⟨S50000x128, .f32⟩ : BufTy).Contents (Elt F) :=
  (addf (addf (Host.dotGeneral dot_S50000x128_S128x128_S50000x128_1_0_0_1_n_n none agg (transpose S128x128 [1, 0] wl transposes_S128x128_S128x128_1_0 : (⟨S128x128, .f32⟩ : BufTy).Contents (Elt F)) : (⟨S50000x128, .f32⟩ : BufTy).Contents (Elt F)) (broadcastInDim S50000x128 ![0, 1] bcast_S1x128_S50000x128_0_1 bl : (⟨S50000x128, .f32⟩ : BufTy).Contents (Elt F)) : (⟨S50000x128, .f32⟩ : BufTy).Contents (Elt F)) (Host.dotGeneral dot_S50000x128_S128x128_S50000x128_1_0_0_1_n_n none h (transpose S128x128 [1, 0] wr transposes_S128x128_S128x128_1_0 : (⟨S128x128, .f32⟩ : BufTy).Contents (Elt F)) : (⟨S50000x128, .f32⟩ : BufTy).Contents (Elt F)) : (⟨S50000x128, .f32⟩ : BufTy).Contents (Elt F))

/-- The column means as the reference's whole-array term (a vector). -/
def meanVec (P : (⟨S50000x128, .f32⟩ : BufTy).Contents (Elt F)) : (⟨S128, .f32⟩ : BufTy).Contents (Elt F) :=
  (Host.divf (Host.reduceAdd P (constant S_ .f32 0x00000000#32 : (⟨S_, .f32⟩ : BufTy).Contents (Elt F)) reducesTo_S50000x128_S128_d0 h_S_ : (⟨S128, .f32⟩ : BufTy).Contents (Elt F)) (broadcastInDim S128 ![] bcast_S_S128 (constant S_ .f32 0x47435000#32 : (⟨S_, .f32⟩ : BufTy).Contents (Elt F)) : (⟨S128, .f32⟩ : BufTy).Contents (Elt F)) : (⟨S128, .f32⟩ : BufTy).Contents (Elt F))

/-- The column variances as the reference's whole-array term (a vector). -/
def varVec (P : (⟨S50000x128, .f32⟩ : BufTy).Contents (Elt F)) : (⟨S128, .f32⟩ : BufTy).Contents (Elt F) :=
  (select (broadcastInDim S128 ![] bcast_S_S128 (cmpf .ogt (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) (constant S_ .f32 0x00000000#32 : (⟨S_, .f32⟩ : BufTy).Contents (Elt F)) : (⟨S_, .i1⟩ : BufTy).Contents (Elt F))) (Host.divf (Host.reduceAdd (mulf (subf P (broadcastInDim S50000x128 ![0, 1] bcast_S1x128_S50000x128_0_1 (Host.divf (broadcastInDim S1x128 ![1] bcast_S128_S1x128_1 (Host.reduceAdd P (constant S_ .f32 0x00000000#32 : (⟨S_, .f32⟩ : BufTy).Contents (Elt F)) reducesTo_S50000x128_S128_d0 h_S_ : (⟨S128, .f32⟩ : BufTy).Contents (Elt F)) : (⟨S1x128, .f32⟩ : BufTy).Contents (Elt F)) (broadcastInDim S1x128 ![] bcast_S_S1x128 (constant S_ .f32 0x47435000#32 : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) (subf P (broadcastInDim S50000x128 ![0, 1] bcast_S1x128_S50000x128_0_1 (Host.divf (broadcastInDim S1x128 ![1] bcast_S128_S1x128_1 (Host.reduceAdd P (constant S_ .f32 0x00000000#32 : (⟨S_, .f32⟩ : BufTy).Contents (Elt F)) reducesTo_S50000x128_S128_d0 h_S_ : (⟨S128, .f32⟩ : BufTy).Contents (Elt F)) : (⟨S1x128, .f32⟩ : BufTy).Contents (Elt F)) (broadcastInDim S1x128 ![] bcast_S_S1x128 (constant S_ .f32 0x47435000#32 : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) : (⟨S50000x128, .f32⟩ : BufTy).Contents (Elt F)) (constant S_ .f32 0x00000000#32 : (⟨S_, .f32⟩ : BufTy).Contents (Elt F)) reducesTo_S50000x128_S128_d0 h_S_ : (⟨S128, .f32⟩ : BufTy).Contents (Elt F)) (broadcastInDim S128 ![] bcast_S_S128 (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F)) : (⟨S128, .f32⟩ : BufTy).Contents (Elt F)) : (⟨S128, .f32⟩ : BufTy).Contents (Elt F)) (broadcastInDim S128 ![] bcast_S_S128 ((constant S_ .f32 0x7FC00000#32 : (⟨S_, .f32⟩ : BufTy).Contents (Elt F)) : (⟨S_, .f32⟩ : BufTy).Contents (Elt F)) : (⟨S128, .f32⟩ : BufTy).Contents (Elt F)) : (⟨S128, .f32⟩ : BufTy).Contents (Elt F))

/-- Normalise, scale, shift, cut at zero, as the reference's whole-array term. -/
def tailVec (P : (⟨S50000x128, .f32⟩ : BufTy).Contents (Elt F)) (m v : (⟨S128, .f32⟩ : BufTy).Contents (Elt F)) (ga be : (⟨S1x128, .f32⟩ : BufTy).Contents (Elt F)) : (⟨S50000x128, .f32⟩ : BufTy).Contents (Elt F) :=
  (maximumf (addf (mulf (mulf (subf P (broadcastInDim S50000x128 ![0, 1] bcast_S1x128_S50000x128_0_1 (broadcastInDim S1x128 ![1] bcast_S128_S1x128_1 m : (⟨S1x128, .f32⟩ : BufTy).Contents (Elt F)) : (⟨S50000x128, .f32⟩ : BufTy).Contents (Elt F)) : (⟨S50000x128, .f32⟩ : BufTy).Contents (Elt F)) (broadcastInDim S50000x128 ![0, 1] bcast_S1x128_S50000x128_0_1 (broadcastInDim S1x128 ![1] bcast_S128_S1x128_1 (Host.rsqrt (addf v (broadcastInDim S128 ![] bcast_S_S128 (constant S_ .f32 0x3727C5AC#32 : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) (broadcastInDim S50000x128 ![0, 1] bcast_S1x128_S50000x128_0_1 ga : (⟨S50000x128, .f32⟩ : BufTy).Contents (Elt F)) : (⟨S50000x128, .f32⟩ : BufTy).Contents (Elt F)) (broadcastInDim S50000x128 ![0, 1] bcast_S1x128_S50000x128_0_1 be : (⟨S50000x128, .f32⟩ : BufTy).Contents (Elt F)) : (⟨S50000x128, .f32⟩ : BufTy).Contents (Elt F)) (broadcastInDim S50000x128 ![] bcast_S_S50000x128 (constant S_ .f32 0x00000000#32 : (⟨S_, .f32⟩ : BufTy).Contents (Elt F)) : (⟨S50000x128, .f32⟩ : BufTy).Contents (Elt F)) : (⟨S50000x128, .f32⟩ : BufTy).Contents (Elt F))

/-- The read-out's first linear map as the reference's whole-array term. -/
def linVec (h : (⟨S50000x128, .f32⟩ : BufTy).Contents (Elt F)) (w1 : (⟨S128x128, .f32⟩ : BufTy).Contents (Elt F)) (b1 : (⟨S1x128, .f32⟩ : BufTy).Contents (Elt F)) : (⟨S50000x128, .f32⟩ : BufTy).Contents (Elt F) :=
  (addf (Host.dotGeneral dot_S50000x128_S128x128_S50000x128_1_0_0_1_n_n none h (transpose S128x128 [1, 0] w1 transposes_S128x128_S128x128_1_0 : (⟨S128x128, .f32⟩ : BufTy).Contents (Elt F)) : (⟨S50000x128, .f32⟩ : BufTy).Contents (Elt F)) (broadcastInDim S50000x128 ![0, 1] bcast_S1x128_S50000x128_0_1 b1 : (⟨S50000x128, .f32⟩ : BufTy).Contents (Elt F)) : (⟨S50000x128, .f32⟩ : BufTy).Contents (Elt F))

/-- The read-out's second linear map and the row mask as the reference's whole-array term. -/
def atomVec (y : (⟨S50000x128, .f32⟩ : BufTy).Contents (Elt F)) (w2 : (⟨S128x128, .f32⟩ : BufTy).Contents (Elt F)) (b2 : (⟨S1x128, .f32⟩ : BufTy).Contents (Elt F)) (mask : (⟨S50000x1, .f32⟩ : BufTy).Contents (Elt F)) : (⟨S50000x128, .f32⟩ : BufTy).Contents (Elt F) :=
  (mulf (addf (Host.dotGeneral dot_S50000x128_S128x128_S50000x128_1_0_0_1_n_n none y (transpose S128x128 [1, 0] w2 transposes_S128x128_S128x128_1_0 : (⟨S128x128, .f32⟩ : BufTy).Contents (Elt F)) : (⟨S50000x128, .f32⟩ : BufTy).Contents (Elt F)) (broadcastInDim S50000x128 ![0, 1] bcast_S1x128_S50000x128_0_1 b2 : (⟨S50000x128, .f32⟩ : BufTy).Contents (Elt F)) : (⟨S50000x128, .f32⟩ : BufTy).Contents (Elt F)) (broadcastInDim S50000x128 ![0, 1] bcast_S50000x1_S50000x128_0_1 mask : (⟨S50000x128, .f32⟩ : BufTy).Contents (Elt F)) : (⟨S50000x128, .f32⟩ : BufTy).Contents (Elt F))

end Terms

/-! ## … read at an entry: the functions of `SpecRef` -/

/-- The mean aggregate. -/
theorem aggVec_eq (S : S50000x128.Idx → EReal) (cnt : S50000x1.Idx → EReal) : aggVec (F := Ideal) S cnt = refAgg S cnt := by
  unfold aggVec
  funext i
  obtain ⟨r, k, rfl⟩ : ∃ (r : Fin 50000) (k : Fin 128), i = ix2 r k := ⟨i 0, i 1, eq_ix2 i⟩
  simp only [select_apply, cmpf_apply, maximumf_apply, hdivf_apply, bid_a1_ab', bid_scalar', const_apply]
  rfl

/-- The pre-activation. -/
theorem preVec_eq (agg h : S50000x128.Idx → EReal) (wl wr : S128x128.Idx → EReal) (bl : S1x128.Idx → EReal) : preVec (F := Ideal) agg h wl wr bl = refPre2 agg h wl wr bl := by
  unfold preVec
  funext i
  obtain ⟨r, j, rfl⟩ : ∃ (r : Fin 50000) (j : Fin 128), i = ix2 r j := ⟨i 0, i 1, eq_ix2 i⟩
  simp only [addf_apply, dotT_apply', bid_1b_ab']
  rfl

/-- The column means, as the vector the reference holds them in. -/
theorem meanVec_eq (P : S50000x128.Idx → EReal) : meanVec (F := Ideal) P = fun i : S128.Idx => refMean P (ix2 (0 : Fin 1) (i 0)) := by
  unfold meanVec
  funext i
  obtain ⟨j, rfl⟩ : ∃ j : Fin 128, i = ix1 j := ⟨i 0, eq_ix1 i⟩
  simp only [hdivf_apply, colsum_apply', bid_scalar', const_apply]
  rfl

/-- The column variances, as the vector the reference holds them in: the guard is true, so the quotient is taken. -/
theorem varVec_eq (P : S50000x128.Idx → EReal) : varVec (F := Ideal) P = fun i : S128.Idx => refVar P (ix2 (0 : Fin 1) (i 0)) := by
  unfold varVec
  funext i
  obtain ⟨j, rfl⟩ : ∃ j : Fin 128, i = ix1 j := ⟨i 0, eq_ix1 i⟩
  simp only [select_apply, cmpf_apply, subf_apply, mulf_apply, sitofp_apply, hdivf_apply, colsum_apply', bid_scalar', bid_1b_ab', bid_b_1b',
    const_apply, constantI_apply]
  rw [show FloatOps.cmpf (F := Ideal) .ogt (Ideal.ofBits .f32 0x47435000#32 - FloatOps.sitofp (F := Ideal) .f32 (0#32 : BitVec 32)) (Ideal.ofBits .f32 0x00000000#32) = 1#1 from guard_true, select_one]
  rfl

/-- Normalise, scale, shift, cut at zero: `bnRelu` with the mean and variance vectors read as rows. -/
theorem tailVec_eq (P : S50000x128.Idx → EReal) (m v : S128.Idx → EReal) (ga be : S1x128.Idx → EReal) :
    tailVec (F := Ideal) P m v ga be = bnRelu P (fun i => m (ix1 (i 1))) (fun i => v (ix1 (i 1))) ga be := by
  unfold tailVec
  funext i
  obtain ⟨r, j, rfl⟩ : ∃ (r : Fin 50000) (j : Fin 128), i = ix2 r j := ⟨i 0, i 1, eq_ix2 i⟩
  simp only [maximumf_apply, addf_apply, mulf_apply, subf_apply, hrsqrt_apply, bid_1b_ab', bid_b_1b', bid_scalar', const_apply]
  rfl

/-- `bnRelu` reads its two rows at (0, j) only. -/
theorem bnRelu_rows (P : S50000x128.Idx → EReal) (mu mu' var var' ga be : S1x128.Idx → EReal)
    (hm : ∀ j : Fin 128, mu (ix2 (0 : Fin 1) j) = mu' (ix2 (0 : Fin 1) j)) (hv : ∀ j : Fin 128, var (ix2 (0 : Fin 1) j) = var' (ix2 (0 : Fin 1) j)) :
    bnRelu P mu var ga be = bnRelu P mu' var' ga be := by
  funext i
  obtain ⟨r, j, rfl⟩ : ∃ (r : Fin 50000) (j : Fin 128), i = ix2 r j := ⟨i 0, i 1, eq_ix2 i⟩
  rw [bnRelu_apply, bnRelu_apply, hm j, hv j]

/-- ONE LAYER from its whole-array terms: with the aggregate, the pre-activation, the mean and variance vectors and
    the result given by the reference's terms, the result is `refLayer`. -/
theorem layer_of_terms (S : S50000x128.Idx → EReal) (cnt : S50000x1.Idx → EReal) (h : S50000x128.Idx → EReal) (wl wr : S128x128.Idx → EReal) (bl ga be : S1x128.Idx → EReal)
    (agg P : S50000x128.Idx → EReal) (m v : S128.Idx → EReal) (out : S50000x128.Idx → EReal)
    (hagg : agg = aggVec (F := Ideal) S cnt) (hP : P = preVec (F := Ideal) agg h wl wr bl)
    (hm : m = meanVec (F := Ideal) P) (hv : v = varVec (F := Ideal) P) (hout : out = tailVec (F := Ideal) P m v ga be) :
    out = refLayer S cnt h wl wr bl ga be := by
  rw [hout, tailVec_eq, hm, hv, meanVec_eq, varVec_eq, hP, preVec_eq, hagg, aggVec_eq]
  exact bnRelu_rows _ _ _ _ _ _ _ (fun j => rfl) (fun j => rfl)

/-! ## The read-out -/

/-- The read-out's first linear map. -/
theorem linVec_eq (h : S50000x128.Idx → EReal) (w1 : S128x128.Idx → EReal) (b1 : S1x128.Idx → EReal) : linVec (F := Ideal) h w1 b1 = linPre1 h w1 b1 := by
  unfold linVec
  funext i
  obtain ⟨r, j, rfl⟩ : ∃ (r : Fin 50000) (j : Fin 128), i = ix2 r j := ⟨i 0, i 1, eq_ix2 i⟩
  simp only [addf_apply, dotT_apply', bid_1b_ab']
  rfl

/-- The read-out's second linear map and the row mask. -/
theorem atomVec_eq (y : S50000x128.Idx → EReal) (w2 : S128x128.Idx → EReal) (b2 : S1x128.Idx → EReal) (mask : S50000x1.Idx → EReal) :
    atomVec (F := Ideal) y w2 b2 mask = fun i => linPre1 y w2 b2 i * mask (ix2 (i 0) (0 : Fin 1)) := by
  unfold atomVec
  funext i
  obtain ⟨r, j, rfl⟩ : ∃ (r : Fin 50000) (j : Fin 128), i = ix2 r j := ⟨i 0, i 1, eq_ix2 i⟩
  simp only [mulf_apply, addf_apply, dotT_apply', bid_1b_ab', bid_a1_ab']
  rfl

/-- THE READ-OUT from its whole-array terms. -/
theorem readout_of_terms (h : S50000x128.Idx → EReal) (w1 : S128x128.Idx → EReal) (b1 ga be : S1x128.Idx → EReal) (w2 : S128x128.Idx → EReal) (b2 : S1x128.Idx → EReal) (mask : S50000x1.Idx → EReal)
    (P : S50000x128.Idx → EReal) (m v : S128.Idx → EReal) (y out : S50000x128.Idx → EReal)
    (hP : P = linVec (F := Ideal) h w1 b1) (hm : m = meanVec (F := Ideal) P) (hv : v = varVec (F := Ideal) P)
    (hy : y = tailVec (F := Ideal) P m v ga be) (hout : out = atomVec (F := Ideal) y w2 b2 mask) :
    out = refReadout h w1 b1 ga be w2 b2 mask := by
  rw [hout, atomVec_eq, hy, tailVec_eq, hm, hv, meanVec_eq, varVec_eq, hP, linVec_eq]
  exact congrArg (fun y : S50000x128.Idx → EReal => fun i => linPre1 y w2 b2 i * mask (ix2 (i 0) (0 : Fin 1)))
    (bnRelu_rows (linPre1 h w1 b1) _ (refMean (linPre1 h w1 b1)) _ (refVar (linPre1 h w1 b1)) ga be (fun j => rfl) (fun j => rfl))

end Cert.ReferenceIdeal.RefRun

end
-- ==== Proof.RefStepsBase.lean ====
/- Reading the reference's @main one operation at a time: the set-up.

   @main's 363 operations write pairwise distinct buffers (single assignment): operation i writes exactly the i-th
   buffer of `Wall` (`aligned`). So a buffer keeps, from the operation that writes it to the end, what that operation
   stored, and the contents after the whole line satisfy the program's equations, one an operation: with
   `R L b` what buffer b holds after @main run from contents L, an operation y = f(a, b) gives R L y = f (R L a) (R L b).
   The modules RefSteps0 … RefSteps4 state that equation for every operation, window by window. -/
import proofs.«180021_j37692632990117_2_alg».proof.Proof.RefOps
import proofs.«180021_j37692632990117_2_alg».proof.Proof.LibLineRun

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefRunLib

variable {F : FTy → Type} [FloatOps F]

/-- The buffers @main's operations write, in the operations' order: the five windows' lists one after the other. -/
abbrev Wall : List (Ref sig .tc) := W0 ++ (W1 ++ (W2 ++ (W3 ++ W4)))

/-- Operation i of window 0 writes exactly the i-th buffer of `W0`. -/
theorem aligned0 : Aligned (ops0 (F := F)) W0 := by
  repeat' first | exact List.Forall₂.nil | refine List.Forall₂.cons rfl ?_
/-- Operation i of window 1 writes exactly the i-th buffer of `W1`. -/
theorem aligned1 : Aligned (ops1 (F := F)) W1 := by
  repeat' first | exact List.Forall₂.nil | refine List.Forall₂.cons rfl ?_
/-- Operation i of window 2 writes exactly the i-th buffer of `W2`. -/
theorem aligned2 : Aligned (ops2 (F := F)) W2 := by
  repeat' first | exact List.Forall₂.nil | refine List.Forall₂.cons rfl ?_
/-- Operation i of window 3 writes exactly the i-th buffer of `W3`. -/
theorem aligned3 : Aligned (ops3 (F := F)) W3 := by
  repeat' first | exact List.Forall₂.nil | refine List.Forall₂.cons rfl ?_
/-- Operation i of window 4 writes exactly the i-th buffer of `W4`. -/
theorem aligned4 : Aligned (ops4 (F := F)) W4 := by
  repeat' first | exact List.Forall₂.nil | refine List.Forall₂.cons rfl ?_

/-- Operation i of @main writes exactly the i-th buffer of `Wall`; the buffers are pairwise distinct (single assignment),
    which is what the reading of one operation at a time below decides, position by position. -/
theorem aligned : Aligned (ops (F := F)) Wall :=
  List.rel_append aligned0 (List.rel_append aligned1 (List.rel_append aligned2 (List.rel_append aligned3 aligned4)))

/-- What buffer `b` holds after the whole of @main run from contents `L`. -/
abbrev R (L : Valuation τ sig (Elt F)) (b : Ref sig .tc) := after (ops (F := F)) L (Proc.devRef .tc b)

end Cert.ReferenceIdeal.RefRun

end
-- ==== Proof.RefSteps0.lean ====
/- The reference's @main one operation at a time, window 0 (operations 1 … 84 of 363).

   For each operation, the equation its result buffer satisfies after the whole of @main: the operation's function of
   what its operand buffers hold then (no later operation writes an operand or the result: decided on the list of
   written buffers from the operation's position on). An operation of a called function is stated at the tensor
   types the function's values carry; the operation itself moves contents between those types and the buffers' along
   equations that are identities at these buffers, and the heavy functions are kept folded while that is checked. -/
import proofs.«180021_j37692632990117_2_alg».proof.Proof.RefStepsBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefRunLib

variable {F : FTy → Type} [FloatOps F]

theorem R_main_v0 (L : Valuation τ sig (Elt F)) : R L main_v0 = (extractStridedSlice S1x800000 ![0, 0] (R L main_arg1 : (⟨S2x800000, .i32⟩ : BufTy).Contents (Elt F)) slices_S2x800000_S1x800000_0_0 : (⟨S1x800000, .i32⟩ : BufTy).Contents (Elt F)) := by
  have h := step_unary aligned L 0 rfl (by decide +kernel) (by decide +kernel)
  exact h

theorem R_main_v1 (L : Valuation τ sig (Elt F)) : R L main_v1 = (shapeCast S800000 (R L main_v0 : (⟨S1x800000, .i32⟩ : BufTy).Contents (Elt F)) shapeCasts_S1x800000_S800000 : (⟨S800000, .i32⟩ : BufTy).Contents (Elt F)) := by
  have h := step_reshape aligned L 1 rfl (by decide +kernel) (by decide +kernel)
  exact h

theorem R_main_v2 (L : Valuation τ sig (Elt F)) : R L main_v2 = (extractStridedSlice S1x800000 ![1, 0] (R L main_arg1 : (⟨S2x800000, .i32⟩ : BufTy).Contents (Elt F)) slices_S2x800000_S1x800000_1_0 : (⟨S1x800000, .i32⟩ : BufTy).Contents (Elt F)) := by
  have h := step_unary aligned L 2 rfl (by decide +kernel) (by decide +kernel)
  exact h

theorem R_main_v3 (L : Valuation τ sig (Elt F)) : R L main_v3 = (shapeCast S800000 (R L main_v2 : (⟨S1x800000, .i32⟩ : BufTy).Contents (Elt F)) shapeCasts_S1x800000_S800000 : (⟨S800000, .i32⟩ : BufTy).Contents (Elt F)) := by
  have h := step_reshape aligned L 3 rfl (by decide +kernel) (by decide +kernel)
  exact h

theorem R_main_v4 (L : Valuation τ sig (Elt F)) : R L main_v4 = (extractStridedSlice S1x128x128 ![0, 0, 0] (R L main_arg4 : (⟨S3x128x128, .f32⟩ : BufTy).Contents (Elt F)) slices_S3x128x128_S1x128x128_0_0_0 : (⟨S1x128x128, .f32⟩ : BufTy).Contents (Elt F)) := by
  have h := step_unary aligned L 4 rfl (by decide +kernel) (by decide +kernel)
  exact h

theorem R_main_v5 (L : Valuation τ sig (Elt F)) : R L main_v5 = (shapeCast S128x128 (R L main_v4 : (⟨S1x128x128, .f32⟩ : BufTy).Contents (Elt F)) shapeCasts_S1x128x128_S128x128 : (⟨S128x128, .f32⟩ : BufTy).Contents (Elt F)) := by
  have h := step_reshape aligned L 5 rfl (by decide +kernel) (by decide +kernel)
  exact h

theorem R_main_v6 (L : Valuation τ sig (Elt F)) : R L main_v6 = (extractStridedSlice S1x128 ![0, 0] (R L main_arg5 : (⟨S3x128, .f32⟩ : BufTy).Contents (Elt F)) slices_S3x128_S1x128_0_0 : (⟨S1x128, .f32⟩ : BufTy).Contents (Elt F)) := by
  have h := step_unary aligned L 6 rfl (by decide +kernel) (by decide +kernel)
  exact h

theorem R_main_v7 (L : Valuation τ sig (Elt F)) : R L main_v7 = (shapeCast S128 (R L main_v6 : (⟨S1x128, .f32⟩ : BufTy).Contents (Elt F)) shapeCasts_S1x128_S128 : (⟨S128, .f32⟩ : BufTy).Contents (Elt F)) := by
  have h := step_reshape aligned L 7 rfl (by decide +kernel) (by decide +kernel)
  exact h

theorem R_main_v8 (L : Valuation τ sig (Elt F)) : R L main_v8 = (extractStridedSlice S1x128x128 ![0, 0, 0] (R L main_arg6 : (⟨S3x128x128, .f32⟩ : BufTy).Contents (Elt F)) slices_S3x128x128_S1x128x128_0_0_0 : (⟨S1x128x128, .f32⟩ : BufTy).Contents (Elt F)) := by
  have h := step_unary aligned L 8 rfl (by decide +kernel) (by decide +kernel)
  exact h

theorem R_main_v9 (L : Valuation τ sig (Elt F)) : R L main_v9 = (shapeCast S128x128 (R L main_v8 : (⟨S1x128x128, .f32⟩ : BufTy).Contents (Elt F)) shapeCasts_S1x128x128_S128x128 : (⟨S128x128, .f32⟩ : BufTy).Contents (Elt F)) := by
  have h := step_reshape aligned L 9 rfl (by decide +kernel) (by decide +kernel)
  exact h

theorem R_main_v10 (L : Valuation τ sig (Elt F)) : R L main_v10 = (extractStridedSlice S1x128 ![0, 0] (R L main_arg7 : (⟨S3x128, .f32⟩ : BufTy).Contents (Elt F)) slices_S3x128_S1x128_0_0 : (⟨S1x128, .f32⟩ : BufTy).Contents (Elt F)) := by
  have h := step_unary aligned L 10 rfl (by decide +kernel) (by decide +kernel)
  exact h

theorem R_main_v11 (L : Valuation τ sig (Elt F)) : R L main_v11 = (shapeCast S128 (R L main_v10 : (⟨S1x128, .f32⟩ : BufTy).Contents (Elt F)) shapeCasts_S1x128_S128 : (⟨S128, .f32⟩ : BufTy).Contents (Elt F)) := by
  have h := step_reshape aligned L 11 rfl (by decide +kernel) (by decide +kernel)
  exact h

theorem R_main_v12 (L : Valuation τ sig (Elt F)) : R L main_v12 = (extractStridedSlice S1x128 ![0, 0] (R L main_arg8 : (⟨S3x128, .f32⟩ : BufTy).Contents (Elt F)) slices_S3x128_S1x128_0_0 : (⟨S1x128, .f32⟩ : BufTy).Contents (Elt F)) := by
  have h := step_unary aligned L 12 rfl (by decide +kernel) (by decide +kernel)
  exact h

theorem R_main_v13 (L : Valuation τ sig (Elt F)) : R L main_v13 = (shapeCast S128 (R L main_v12 : (⟨S1x128, .f32⟩ : BufTy).Contents (Elt F)) shapeCasts_S1x128_S128 : (⟨S128, .f32⟩ : BufTy).Contents (Elt F)) := by
  have h := step_reshape aligned L 13 rfl (by decide +kernel) (by decide +kernel)
  exact h

theorem R_main_c (L : Valuation τ sig (Elt F)) : R L main_c = (constantI S_ 32 0#32 : (⟨S_, .i32⟩ : BufTy).Contents (Elt F)) := by
  have h := step_nullary aligned L 14 rfl (by decide +kernel)
  exact h

theorem R_main_v14 (L : Valuation τ sig (Elt F)) : R L main_v14 = (broadcastInDim S800000 ![] bcast_S_S800000 (R L main_c : (⟨S_, .i32⟩ : BufTy).Contents (Elt F)) : (⟨S800000, .i32⟩ : BufTy).Contents (Elt F)) := by
  have h := step_unary aligned L 15 rfl (by decide +kernel) (by decide +kernel)
  exact h

theorem R_main_v15 (L : Valuation τ sig (Elt F)) : R L main_v15 = (cmpi .slt (R L main_v1 : (⟨S800000, .i32⟩ : BufTy).Contents (Elt F)) (R L main_v14 : (⟨S800000, .i32⟩ : BufTy).Contents (Elt F)) : (⟨S800000, .i1⟩ : BufTy).Contents (Elt F)) := by
  have h := step_binary aligned L 16 rfl (by decide +kernel) (by decide +kernel) (by decide +kernel)
  exact h

theorem R_main_c_0 (L : Valuation τ sig (Elt F)) : R L main_c_0 = (constantI S_ 32 50000#32 : (⟨S_, .i32⟩ : BufTy).Contents (Elt F)) := by
  have h := step_nullary aligned L 17 rfl (by decide +kernel)
  exact h

theorem R_main_v16 (L : Valuation τ sig (Elt F)) : R L main_v16 = (broadcastInDim S800000 ![] bcast_S_S800000 (R L main_c_0 : (⟨S_, .i32⟩ : BufTy).Contents (Elt F)) : (⟨S800000, .i32⟩ : BufTy).Contents (Elt F)) := by
  have h := step_unary aligned L 18 rfl (by decide +kernel) (by decide +kernel)
  exact h

theorem R_main_v17 (L : Valuation τ sig (Elt F)) : R L main_v17 = (addi (R L main_v1 : (⟨S800000, .i32⟩ : BufTy).Contents (Elt F)) (R L main_v16 : (⟨S800000, .i32⟩ : BufTy).Contents (Elt F)) : (⟨S800000, .i32⟩ : BufTy).Contents (Elt F)) := by
  have h := step_binary aligned L 19 rfl (by decide +kernel) (by decide +kernel) (by decide +kernel)
  exact h

theorem R_main_v18 (L : Valuation τ sig (Elt F)) : R L main_v18 = (select (R L main_v15 : (⟨S800000, .i1⟩ : BufTy).Contents (Elt F)) (R L main_v17 : (⟨S800000, .i32⟩ : BufTy).Contents (Elt F)) (R L main_v1 : (⟨S800000, .i32⟩ : BufTy).Contents (Elt F)) : (⟨S800000, .i32⟩ : BufTy).Contents (Elt F)) := by
  have h := step_ternary aligned L 20 rfl (by decide +kernel) (by decide +kernel) (by decide +kernel) (by decide +kernel)
  exact h

theorem R_main_v19 (L : Valuation τ sig (Elt F)) : R L main_v19 = (broadcastInDim S800000x1 ![0] bcast_S800000_S800000x1_0 (R L main_v18 : (⟨S800000, .i32⟩ : BufTy).Contents (Elt F)) : (⟨S800000x1, .i32⟩ : BufTy).Contents (Elt F)) := by
  have h := step_unary aligned L 21 rfl (by decide +kernel) (by decide +kernel)
  exact h

theorem R_main_v20 (L : Valuation τ sig (Elt F)) : R L main_v20 = (Host.gather gather_S50000x128_S800000x1_S800000x128_1_0_n_n_0_1_1128 (R L main_arg0 : (⟨S50000x128, .f32⟩ : BufTy).Contents (Elt F)) (R L main_v19 : (⟨S800000x1, .i32⟩ : BufTy).Contents (Elt F)) : (⟨S800000x128, .f32⟩ : BufTy).Contents (Elt F)) := by
  have h := step_binary aligned L 22 rfl (by decide +kernel) (by decide +kernel) (by decide +kernel)
  exact h

theorem R_main_cst (L : Valuation τ sig (Elt F)) : R L main_cst = (constant S_ .f32 0x00000000#32 : (⟨S_, .f32⟩ : BufTy).Contents (Elt F)) := by
  have h := step_nullary aligned L 23 rfl (by decide +kernel)
  exact h

theorem R_main_v21 (L : Valuation τ sig (Elt F)) : R L main_v21 = (broadcastInDim S50000x128 ![] bcast_S_S50000x128 (R L main_cst : (⟨S_, .f32⟩ : BufTy).Contents (Elt F)) : (⟨S50000x128, .f32⟩ : BufTy).Contents (Elt F)) := by
  have h := step_unary aligned L 24 rfl (by decide +kernel) (by decide +kernel)
  exact h

theorem R_main_v22 (L : Valuation τ sig (Elt F)) : R L main_v22 = (broadcastInDim S800000x1 ![0] bcast_S800000_S800000x1_0 (R L main_v3 : (⟨S800000, .i32⟩ : BufTy).Contents (Elt F)) : (⟨S800000x1, .i32⟩ : BufTy).Contents (Elt F)) := by
  have h := step_unary aligned L 25 rfl (by decide +kernel) (by decide +kernel)
  exact h

theorem R_main_v23 (L : Valuation τ sig (Elt F)) : R L main_v23 = (Host.scatterAdd scatter_S50000x128_S800000x1_S800000x128_1_0_0_1 (R L main_v21 : (⟨S50000x128, .f32⟩ : BufTy).Contents (Elt F)) (R L main_v22 : (⟨S800000x1, .i32⟩ : BufTy).Contents (Elt F)) (R L main_v20 : (⟨S800000x128, .f32⟩ : BufTy).Contents (Elt F)) : (⟨S50000x128, .f32⟩ : BufTy).Contents (Elt F)) := by
  have h := step_ternary aligned L 26 rfl (by decide +kernel) (by decide +kernel) (by decide +kernel) (by decide +kernel)
  exact h

theorem R_main_cst_1 (L : Valuation τ sig (Elt F)) : R L main_cst_1 = (constant S_ .f32 0x3F800000#32 : (⟨S_, .f32⟩ : BufTy).Contents (Elt F)) := by
  have h := step_nullary aligned L 27 rfl (by decide +kernel)
  exact h

theorem R_main_v24 (L : Valuation τ sig (Elt F)) : R L main_v24 = (broadcastInDim S800000x1 ![] bcast_S_S800000x1 (R L main_cst_1 : (⟨S_, .f32⟩ : BufTy).Contents (Elt F)) : (⟨S800000x1, .f32⟩ : BufTy).Contents (Elt F)) := by
  have h := step_unary aligned L 28 rfl (by decide +kernel) (by decide +kernel)
  exact h

theorem R_main_cst_2 (L : Valuation τ sig (Elt F)) : R L main_cst_2 = (constant S_ .f32 0x00000000#32 : (⟨S_, .f32⟩ : BufTy).Contents (Elt F)) := by
  have h := step_nullary aligned L 29 rfl (by decide +kernel)
  exact h

theorem R_main_v25 (L : Valuation τ sig (Elt F)) : R L main_v25 = (broadcastInDim S50000x1 ![] bcast_S_S50000x1 (R L main_cst_2 : (⟨S_, .f32⟩ : BufTy).Contents (Elt F)) : (⟨S50000x1, .f32⟩ : BufTy).Contents (Elt F)) := by
  have h := step_unary aligned L 30 rfl (by decide +kernel) (by decide +kernel)
  exact h

theorem R_main_v26 (L : Valuation τ sig (Elt F)) : R L main_v26 = (broadcastInDim S800000x1 ![0] bcast_S800000_S800000x1_0 (R L main_v3 : (⟨S800000, .i32⟩ : BufTy).Contents (Elt F)) : (⟨S800000x1, .i32⟩ : BufTy).Contents (Elt F)) := by
  have h := step_unary aligned L 31 rfl (by decide +kernel) (by decide +kernel)
  exact h

theorem R_main_v27 (L : Valuation τ sig (Elt F)) : R L main_v27 = (Host.scatterAdd scatter_S50000x1_S800000x1_S800000x1_1_0_0_1 (R L main_v25 : (⟨S50000x1, .f32⟩ : BufTy).Contents (Elt F)) (R L main_v26 : (⟨S800000x1, .i32⟩ : BufTy).Contents (Elt F)) (R L main_v24 : (⟨S800000x1, .f32⟩ : BufTy).Contents (Elt F)) : (⟨S50000x1, .f32⟩ : BufTy).Contents (Elt F)) := by
  have h := step_ternary aligned L 32 rfl (by decide +kernel) (by decide +kernel) (by decide +kernel) (by decide +kernel)
  exact h

theorem R_main_cst_3 (L : Valuation τ sig (Elt F)) : R L main_cst_3 = (constant S_ .f32 0x00000000#32 : (⟨S_, .f32⟩ : BufTy).Contents (Elt F)) := by
  have h := step_nullary aligned L 33 rfl (by decide +kernel)
  exact h

theorem R_main_v28 (L : Valuation τ sig (Elt F)) : R L main_v28 = (broadcastInDim S50000x1 ![] bcast_S_S50000x1 (R L main_cst_3 : (⟨S_, .f32⟩ : BufTy).Contents (Elt F)) : (⟨S50000x1, .f32⟩ : BufTy).Contents (Elt F)) := by
  have h := step_unary aligned L 34 rfl (by decide +kernel) (by decide +kernel)
  exact h

theorem R_main_v29 (L : Valuation τ sig (Elt F)) : R L main_v29 = (cmpf .ogt (R L main_v27 : (⟨S50000x1, .f32⟩ : BufTy).Contents (Elt F)) (R L main_v28 : (⟨S50000x1, .f32⟩ : BufTy).Contents (Elt F)) : (⟨S50000x1, .i1⟩ : BufTy).Contents (Elt F)) := by
  have h := step_binary aligned L 35 rfl (by decide +kernel) (by decide +kernel) (by decide +kernel)
  exact h

theorem R_main_cst_4 (L : Valuation τ sig (Elt F)) : R L main_cst_4 = (constant S_ .f32 0x3F800000#32 : (⟨S_, .f32⟩ : BufTy).Contents (Elt F)) := by
  have h := step_nullary aligned L 36 rfl (by decide +kernel)
  exact h

theorem R_main_v30 (L : Valuation τ sig (Elt F)) : R L main_v30 = (broadcastInDim S50000x1 ![] bcast_S_S50000x1 (R L main_cst_4 : (⟨S_, .f32⟩ : BufTy).Contents (Elt F)) : (⟨S50000x1, .f32⟩ : BufTy).Contents (Elt F)) := by
  have h := step_unary aligned L 37 rfl (by decide +kernel) (by decide +kernel)
  exact h

theorem R_main_v31 (L : Valuation τ sig (Elt F)) : R L main_v31 = (maximumf (R L main_v27 : (⟨S50000x1, .f32⟩ : BufTy).Contents (Elt F)) (R L main_v30 : (⟨S50000x1, .f32⟩ : BufTy).Contents (Elt F)) : (⟨S50000x1, .f32⟩ : BufTy).Contents (Elt F)) := by
  have h := step_binary aligned L 38 rfl (by decide +kernel) (by decide +kernel) (by decide +kernel)
  exact h

theorem R_main_v32 (L : Valuation τ sig (Elt F)) : R L main_v32 = (broadcastInDim S50000x128 ![0, 1] bcast_S50000x1_S50000x128_0_1 (R L main_v31 : (⟨S50000x1, .f32⟩ : BufTy).Contents (Elt F)) : (⟨S50000x128, .f32⟩ : BufTy).Contents (Elt F)) := by
  have h := step_unary aligned L 39 rfl (by decide +kernel) (by decide +kernel)
  exact h

theorem R_main_v33 (L : Valuation τ sig (Elt F)) : R L main_v33 = (Host.divf (R L main_v23 : (⟨S50000x128, .f32⟩ : BufTy).Contents (Elt F)) (R L main_v32 : (⟨S50000x128, .f32⟩ : BufTy).Contents (Elt F)) : (⟨S50000x128, .f32⟩ : BufTy).Contents (Elt F)) := by
  have h := step_binary aligned L 40 rfl (by decide +kernel) (by decide +kernel) (by decide +kernel)
  exact h

theorem R_main_cst_5 (L : Valuation τ sig (Elt F)) : R L main_cst_5 = (constant S_ .f32 0x00000000#32 : (⟨S_, .f32⟩ : BufTy).Contents (Elt F)) := by
  have h := step_nullary aligned L 41 rfl (by decide +kernel)
  exact h

theorem R_main_v35 (L : Valuation τ sig (Elt F)) : R L main_v35 = (transpose S128x128 [1, 0] (R L main_v5 : (⟨S128x128, .f32⟩ : BufTy).Contents (Elt F)) transposes_S128x128_S128x128_1_0 : (⟨S128x128, .f32⟩ : BufTy).Contents (Elt F)) := by
  have h := step_unary aligned L 46 rfl (by decide +kernel) (by decide +kernel)
  exact h

theorem R_main_v36 (L : Valuation τ sig (Elt F)) : R L main_v36 = (Host.dotGeneral dot_S50000x128_S128x128_S50000x128_1_0_0_1_n_n none (R L main_v34 : (⟨S50000x128, .f32⟩ : BufTy).Contents (Elt F)) (R L main_v35 : (⟨S128x128, .f32⟩ : BufTy).Contents (Elt F)) : (⟨S50000x128, .f32⟩ : BufTy).Contents (Elt F)) := by
  have h := step_binary aligned L 47 rfl (by decide +kernel) (by decide +kernel) (by decide +kernel)
  exact h

theorem R_main_v37 (L : Valuation τ sig (Elt F)) : R L main_v37 = (broadcastInDim S1x128 ![1] bcast_S128_S1x128_1 (R L main_v7 : (⟨S128, .f32⟩ : BufTy).Contents (Elt F)) : (⟨S1x128, .f32⟩ : BufTy).Contents (Elt F)) := by
  have h := step_unary aligned L 48 rfl (by decide +kernel) (by decide +kernel)
  exact h

theorem R_main_v38 (L : Valuation τ sig (Elt F)) : R L main_v38 = (broadcastInDim S50000x128 ![0, 1] bcast_S1x128_S50000x128_0_1 (R L main_v37 : (⟨S1x128, .f32⟩ : BufTy).Contents (Elt F)) : (⟨S50000x128, .f32⟩ : BufTy).Contents (Elt F)) := by
  have h := step_unary aligned L 49 rfl (by decide +kernel) (by decide +kernel)
  exact h

theorem R_main_v39 (L : Valuation τ sig (Elt F)) : R L main_v39 = (addf (R L main_v36 : (⟨S50000x128, .f32⟩ : BufTy).Contents (Elt F)) (R L main_v38 : (⟨S50000x128, .f32⟩ : BufTy).Contents (Elt F)) : (⟨S50000x128, .f32⟩ : BufTy).Contents (Elt F)) := by
  have h := step_binary aligned L 50 rfl (by decide +kernel) (by decide +kernel) (by decide +kernel)
  exact h

theorem R_main_v40 (L : Valuation τ sig (Elt F)) : R L main_v40 = (transpose S128x128 [1, 0] (R L main_v9 : (⟨S128x128, .f32⟩ : BufTy).Contents (Elt F)) transposes_S128x128_S128x128_1_0 : (⟨S128x128, .f32⟩ : BufTy).Contents (Elt F)) := by
  have h := step_unary aligned L 51 rfl (by decide +kernel) (by decide +kernel)
  exact h

theorem R_main_v41 (L : Valuation τ sig (Elt F)) : R L main_v41 = (Host.dotGeneral dot_S50000x128_S128x128_S50000x128_1_0_0_1_n_n none (R L main_arg0 : (⟨S50000x128, .f32⟩ : BufTy).Contents (Elt F)) (R L main_v40 : (⟨S128x128, .f32⟩ : BufTy).Contents (Elt F)) : (⟨S50000x128, .f32⟩ : BufTy).Contents (Elt F)) := by
  have h := step_binary aligned L 52 rfl (by decide +kernel) (by decide +kernel) (by decide +kernel)
  exact h

theorem R_main_v42 (L : Valuation τ sig (Elt F)) : R L main_v42 = (addf (R L main_v39 : (⟨S50000x128, .f32⟩ : BufTy).Contents (Elt F)) (R L main_v41 : (⟨S50000x128, .f32⟩ : BufTy).Contents (Elt F)) : (⟨S50000x128, .f32⟩ : BufTy).Contents (Elt F)) := by
  have h := step_binary aligned L 53 rfl (by decide +kernel) (by decide +kernel) (by decide +kernel)
  exact h

theorem R_main_cst_6 (L : Valuation τ sig (Elt F)) : R L main_cst_6 = (constant S_ .f32 0x00000000#32 : (⟨S_, .f32⟩ : BufTy).Contents (Elt F)) := by
  have h := step_nullary aligned L 54 rfl (by decide +kernel)
  exact h

theorem R_main_v43 (L : Valuation τ sig (Elt F)) : R L main_v43 = (Host.reduceAdd (R L main_v42 : (⟨S50000x128, .f32⟩ : BufTy).Contents (Elt F)) (R L main_cst_6 : (⟨S_, .f32⟩ : BufTy).Contents (Elt F)) reducesTo_S50000x128_S128_d0 h_S_ : (⟨S128, .f32⟩ : BufTy).Contents (Elt F)) := by
  have h := step_binary aligned L 55 rfl (by decide +kernel) (by decide +kernel) (by decide +kernel)
  exact h

theorem R_main_cst_7 (L : Valuation τ sig (Elt F)) : R L main_cst_7 = (constant S_ .f32 0x47435000#32 : (⟨S_, .f32⟩ : BufTy).Contents (Elt F)) := by
  have h := step_nullary aligned L 56 rfl (by decide +kernel)
  exact h

theorem R_main_v44 (L : Valuation τ sig (Elt F)) : R L main_v44 = (broadcastInDim S128 ![] bcast_S_S128 (R L main_cst_7 : (⟨S_, .f32⟩ : BufTy).Contents (Elt F)) : (⟨S128, .f32⟩ : BufTy).Contents (Elt F)) := by
  have h := step_unary aligned L 57 rfl (by decide +kernel) (by decide +kernel)
  exact h

theorem R_main_v45 (L : Valuation τ sig (Elt F)) : R L main_v45 = (Host.divf (R L main_v43 : (⟨S128, .f32⟩ : BufTy).Contents (Elt F)) (R L main_v44 : (⟨S128, .f32⟩ : BufTy).Contents (Elt F)) : (⟨S128, .f32⟩ : BufTy).Contents (Elt F)) := by
  have h := step_binary aligned L 58 rfl (by decide +kernel) (by decide +kernel) (by decide +kernel)
  exact h

theorem R_main_c_8 (L : Valuation τ sig (Elt F)) : R L main_c_8 = (constantI S_ 32 0#32 : (⟨S_, .i32⟩ : BufTy).Contents (Elt F)) := by
  have h := step_nullary aligned L 59 rfl (by decide +kernel)
  exact h

theorem R_main_v47 (L : Valuation τ sig (Elt F)) : R L main_v47 = (broadcastInDim S1x128 ![1] bcast_S128_S1x128_1 (R L main_v45 : (⟨S128, .f32⟩ : BufTy).Contents (Elt F)) : (⟨S1x128, .f32⟩ : BufTy).Contents (Elt F)) := by
  have h := step_unary aligned L 82 rfl (by decide +kernel) (by decide +kernel)
  exact h

theorem R_main_v48 (L : Valuation τ sig (Elt F)) : R L main_v48 = (broadcastInDim S50000x128 ![0, 1] bcast_S1x128_S50000x128_0_1 (R L main_v47 : (⟨S1x128, .f32⟩ : BufTy).Contents (Elt F)) : (⟨S50000x128, .f32⟩ : BufTy).Contents (Elt F)) := by
  have h := step_unary aligned L 83 rfl (by decide +kernel) (by decide +kernel)
  exact h

section Calls
attribute [local irreducible] StableHlo.after select broadcastInDim Host.reduceAdd Host.divf cmpf subf mulf maximumf sitofp constant shapeCast

set_option maxHeartbeats 1000000 in
theorem R_main_call0_v0 (L : Valuation τ sig (Elt F)) : R L main_call0_v0 = ((R L main_cst_5 : (⟨S_, .f32⟩ : BufTy).Contents (Elt F)) : (⟨S_, .f32⟩ : BufTy).Contents (Elt F)) := by
  have h := step_unary aligned L 42 rfl (by decide +kernel) (by decide +kernel)
  exact h

set_option maxHeartbeats 1000000 in
theorem R_main_call0_v1 (L : Valuation τ sig (Elt F)) : R L main_call0_v1 = (broadcastInDim S50000x128 ![0, 1] bcast_S50000x1_S50000x128_0_1 (R L main_v29 : (⟨S50000x1, .i1⟩ : BufTy).Contents (Elt F)) : (⟨S50000x128, .i1⟩ : BufTy).Contents (Elt F)) := by
  have h := step_unary aligned L 43 rfl (by decide +kernel) (by decide +kernel)
  exact h

set_option maxHeartbeats 1000000 in
theorem R_main_call0_v2 (L : Valuation τ sig (Elt F)) : R L main_call0_v2 = (broadcastInDim S50000x128 ![] bcast_S_S50000x128 (R L main_call0_v0 : (⟨S_, .f32⟩ : BufTy).Contents (Elt F)) : (⟨S50000x128, .f32⟩ : BufTy).Contents (Elt F)) := by
  have h := step_unary aligned L 44 rfl (by decide +kernel) (by decide +kernel)
  exact h

set_option maxHeartbeats 1000000 in
theorem R_main_v34 (L : Valuation τ sig (Elt F)) : R L main_v34 = (select (R L main_call0_v1 : (⟨S50000x128, .i1⟩ : BufTy).Contents (Elt F)) (R L main_v33 : (⟨S50000x128, .f32⟩ : BufTy).Contents (Elt F)) (R L main_call0_v2 : (⟨S50000x128, .f32⟩ : BufTy).Contents (Elt F)) : (⟨S50000x128, .f32⟩ : BufTy).Contents (Elt F)) := by
  have h := step_ternary aligned L 45 rfl (by decide +kernel) (by decide +kernel) (by decide +kernel) (by decide +kernel)
  exact h

set_option maxHeartbeats 1000000 in
theorem R_main_call1_cst (L : Valuation τ sig (Elt F)) : R L main_call1_cst = (constant S_ .f32 0x00000000#32 : (⟨S_, .f32⟩ : BufTy).Contents (Elt F)) := by
  have h := step_nullary aligned L 60 rfl (by decide +kernel)
  exact h

set_option maxHeartbeats 1000000 in
theorem R_main_call1_v0 (L : Valuation τ sig (Elt F)) : R L main_call1_v0 = (Host.reduceAdd (R L main_v42 : (⟨S50000x128, .f32⟩ : BufTy).Contents (Elt F)) (R L main_call1_cst : (⟨S_, .f32⟩ : BufTy).Contents (Elt F)) reducesTo_S50000x128_S128_d0 h_S_ : (⟨S128, .f32⟩ : BufTy).Contents (Elt F)) := by
  have h := step_binary aligned L 61 rfl (by decide +kernel) (by decide +kernel) (by decide +kernel)
  exact h

set_option maxHeartbeats 1000000 in
theorem R_main_call1_v1 (L : Valuation τ sig (Elt F)) : R L main_call1_v1 = (broadcastInDim S1x128 ![1] bcast_S128_S1x128_1 (R L main_call1_v0 : (⟨S128, .f32⟩ : BufTy).Contents (Elt F)) : (⟨S1x128, .f32⟩ : BufTy).Contents (Elt F)) := by
  have h := step_unary aligned L 62 rfl (by decide +kernel) (by decide +kernel)
  exact h

set_option maxHeartbeats 1000000 in
theorem R_main_call1_cst_0 (L : Valuation τ sig (Elt F)) : R L main_call1_cst_0 = (constant S_ .f32 0x47435000#32 : (⟨S_, .f32⟩ : BufTy).Contents (Elt F)) := by
  have h := step_nullary aligned L 63 rfl (by decide +kernel)
  exact h

set_option maxHeartbeats 1000000 in
theorem R_main_call1_v2 (L : Valuation τ sig (Elt F)) : R L main_call1_v2 = (broadcastInDim S1x128 ![] bcast_S_S1x128 (R L main_call1_cst_0 : (⟨S_, .f32⟩ : BufTy).Contents (Elt F)) : (⟨S1x128, .f32⟩ : BufTy).Contents (Elt F)) := by
  have h := step_unary aligned L 64 rfl (by decide +kernel) (by decide +kernel)
  exact h

set_option maxHeartbeats 1000000 in
theorem R_main_call1_v3 (L : Valuation τ sig (Elt F)) : R L main_call1_v3 = (Host.divf (R L main_call1_v1 : (⟨S1x128, .f32⟩ : BufTy).Contents (Elt F)) (R L main_call1_v2 : (⟨S1x128, .f32⟩ : BufTy).Contents (Elt F)) : (⟨S1x128, .f32⟩ : BufTy).Contents (Elt F)) := by
  have h := step_binary aligned L 65 rfl (by decide +kernel) (by decide +kernel) (by decide +kernel)
  exact h

set_option maxHeartbeats 1000000 in
theorem R_main_call1_v4 (L : Valuation τ sig (Elt F)) : R L main_call1_v4 = (broadcastInDim S50000x128 ![0, 1] bcast_S1x128_S50000x128_0_1 (R L main_call1_v3 : (⟨S1x128, .f32⟩ : BufTy).Contents (Elt F)) : (⟨S50000x128, .f32⟩ : BufTy).Contents (Elt F)) := by
  have h := step_unary aligned L 66 rfl (by decide +kernel) (by decide +kernel)
  exact h

set_option maxHeartbeats 1000000 in
theorem R_main_call1_v5 (L : Valuation τ sig (Elt F)) : R L main_call1_v5 = (subf (R L main_v42 : (⟨S50000x128, .f32⟩ : BufTy).Contents (Elt F)) (R L main_call1_v4 : (⟨S50000x128, .f32⟩ : BufTy).Contents (Elt F)) : (⟨S50000x128, .f32⟩ : BufTy).Contents (Elt F)) := by
  have h := step_binary aligned L 67 rfl (by decide +kernel) (by decide +kernel) (by decide +kernel)
  exact h

set_option maxHeartbeats 1000000 in
theorem R_main_call1_v6 (L : Valuation τ sig (Elt F)) : R L main_call1_v6 = (mulf (R L main_call1_v5 : (⟨S50000x128, .f32⟩ : BufTy).Contents (Elt F)) (R L main_call1_v5 : (⟨S50000x128, .f32⟩ : BufTy).Contents (Elt F)) : (⟨S50000x128, .f32⟩ : BufTy).Contents (Elt F)) := by
  have h := step_binary aligned L 68 rfl (by decide +kernel) (by decide +kernel) (by decide +kernel)
  exact h

set_option maxHeartbeats 1000000 in
theorem R_main_call1_v7 (L : Valuation τ sig (Elt F)) : R L main_call1_v7 = (sitofp .f32 (R L main_c_8 : (⟨S_, .i32⟩ : BufTy).Contents (Elt F)) : (⟨S_, .f32⟩ : BufTy).Contents (Elt F)) := by
  have h := step_unary aligned L 69 rfl (by decide +kernel) (by decide +kernel)
  exact h

set_option maxHeartbeats 1000000 in
theorem R_main_call1_cst_1 (L : Valuation τ sig (Elt F)) : R L main_call1_cst_1 = (constant S_ .f32 0x47435000#32 : (⟨S_, .f32⟩ : BufTy).Contents (Elt F)) := by
  have h := step_nullary aligned L 70 rfl (by decide +kernel)
  exact h

set_option maxHeartbeats 1000000 in
theorem R_main_call1_v8 (L : Valuation τ sig (Elt F)) : R L main_call1_v8 = (subf (R L main_call1_cst_1 : (⟨S_, .f32⟩ : BufTy).Contents (Elt F)) (R L main_call1_v7 : (⟨S_, .f32⟩ : BufTy).Contents (Elt F)) : (⟨S_, .f32⟩ : BufTy).Contents (Elt F)) := by
  have h := step_binary aligned L 71 rfl (by decide +kernel) (by decide +kernel) (by decide +kernel)
  exact h

set_option maxHeartbeats 1000000 in
theorem R_main_call1_cst_2 (L : Valuation τ sig (Elt F)) : R L main_call1_cst_2 = (constant S_ .f32 0x00000000#32 : (⟨S_, .f32⟩ : BufTy).Contents (Elt F)) := by
  have h := step_nullary aligned L 72 rfl (by decide +kernel)
  exact h

set_option maxHeartbeats 1000000 in
theorem R_main_call1_v9 (L : Valuation τ sig (Elt F)) : R L main_call1_v9 = (Host.reduceAdd (R L main_call1_v6 : (⟨S50000x128, .f32⟩ : BufTy).Contents (Elt F)) (R L main_call1_cst_2 : (⟨S_, .f32⟩ : BufTy).Contents (Elt F)) reducesTo_S50000x128_S128_d0 h_S_ : (⟨S128, .f32⟩ : BufTy).Contents (Elt F)) := by
  have h := step_binary aligned L 73 rfl (by decide +kernel) (by decide +kernel) (by decide +kernel)
  exact h

set_option maxHeartbeats 1000000 in
theorem R_main_call1_v10 (L : Valuation τ sig (Elt F)) : R L main_call1_v10 = (broadcastInDim S128 ![] bcast_S_S128 (R L main_call1_v8 : (⟨S_, .f32⟩ : BufTy).Contents (Elt F)) : (⟨S128, .f32⟩ : BufTy).Contents (Elt F)) := by
  have h := step_unary aligned L 74 rfl (by decide +kernel) (by decide +kernel)
  exact h

set_option maxHeartbeats 1000000 in
theorem R_main_call1_v11 (L : Valuation τ sig (Elt F)) : R L main_call1_v11 = (Host.divf (R L main_call1_v9 : (⟨S128, .f32⟩ : BufTy).Contents (Elt F)) (R L main_call1_v10 : (⟨S128, .f32⟩ : BufTy).Contents (Elt F)) : (⟨S128, .f32⟩ : BufTy).Contents (Elt F)) := by
  have h := step_binary aligned L 75 rfl (by decide +kernel) (by decide +kernel) (by decide +kernel)
  exact h

set_option maxHeartbeats 1000000 in
theorem R_main_call1_cst_3 (L : Valuation τ sig (Elt F)) : R L main_call1_cst_3 = (constant S_ .f32 0x00000000#32 : (⟨S_, .f32⟩ : BufTy).Contents (Elt F)) := by
  have h := step_nullary aligned L 76 rfl (by decide +kernel)
  exact h

set_option maxHeartbeats 1000000 in
theorem R_main_call1_v12 (L : Valuation τ sig (Elt F)) : R L main_call1_v12 = (cmpf .ogt (R L main_call1_v8 : (⟨S_, .f32⟩ : BufTy).Contents (Elt F)) (R L main_call1_cst_3 : (⟨S_, .f32⟩ : BufTy).Contents (Elt F)) : (⟨S_, .i1⟩ : BufTy).Contents (Elt F)) := by
  have h := step_binary aligned L 77 rfl (by decide +kernel) (by decide +kernel) (by decide +kernel)
  exact h

set_option maxHeartbeats 1000000 in
theorem R_main_call1_cst_4 (L : Valuation τ sig (Elt F)) : R L main_call1_cst_4 = (constant S_ .f32 0x7FC00000#32 : (⟨S_, .f32⟩ : BufTy).Contents (Elt F)) := by
  have h := step_nullary aligned L 78 rfl (by decide +kernel)
  exact h

set_option maxHeartbeats 1000000 in
theorem R_main_call1_call0_v0 (L : Valuation τ sig (Elt F)) : R L main_call1_call0_v0 = ((R L main_call1_cst_4 : (⟨S_, .f32⟩ : BufTy).Contents (Elt F)) : (⟨S_, .f32⟩ : BufTy).Contents (Elt F)) := by
  have h := step_unary aligned L 79 rfl (by decide +kernel) (by decide +kernel)
  exact h

set_option maxHeartbeats 1000000 in
theorem R_main_call1_call0_v1 (L : Valuation τ sig (Elt F)) : R L main_call1_call0_v1 = (broadcastInDim S128 ![] bcast_S_S128 (R L main_call1_call0_v0 : (⟨S_, .f32⟩ : BufTy).Contents (Elt F)) : (⟨S128, .f32⟩ : BufTy).Contents (Elt F)) := by
  have h := step_unary aligned L 80 rfl (by decide +kernel) (by decide +kernel)
  exact h

set_option maxHeartbeats 1000000 in
theorem R_main_v46 (L : Valuation τ sig (Elt F)) : R L main_v46 = (select (broadcastInDim S128 ![] bcast_S_S128 (R L main_call1_v12 : (⟨S_, .i1⟩ : BufTy).Contents (Elt F))) (R L main_call1_v11 : (⟨S128, .f32⟩ : BufTy).Contents (Elt F)) (R L main_call1_call0_v1 : (⟨S128, .f32⟩ : BufTy).Contents (Elt F)) : (⟨S128, .f32⟩ : BufTy).Contents (Elt F)) := by
  have h := step_ternary aligned L 81 rfl (by decide +kernel) (by decide +kernel) (by decide +kernel) (by decide +kernel)
  exact h

end Calls

end Cert.ReferenceIdeal.RefRun

end
-- ==== Proof.RefSteps1.lean ====
/- The reference's @main one operation at a time, window 1 (operations 85 … 149 of 363).

   For each operation, the equation its result buffer satisfies after the whole of @main: the operation's function of
   what its operand buffers hold then (no later operation writes an operand or the result: decided on the list of
   written buffers from the operation's position on). An operation of a called function is stated at the tensor
   types the function's values carry; the operation itself moves contents between those types and the buffers' along
   equations that are identities at these buffers, and the heavy functions are kept folded while that is checked. -/
import proofs.«180021_j37692632990117_2_alg».proof.Proof.RefStepsBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefRunLib

variable {F : FTy → Type} [FloatOps F]

theorem R_main_v49 (L : Valuation τ sig (Elt F)) : R L main_v49 = (subf (R L main_v42 : (⟨S50000x128, .f32⟩ : BufTy).Contents (Elt F)) (R L main_v48 : (⟨S50000x128, .f32⟩ : BufTy).Contents (Elt F)) : (⟨S50000x128, .f32⟩ : BufTy).Contents (Elt F)) := by
  have h := step_binary aligned L 84 rfl (by decide +kernel) (by decide +kernel) (by decide +kernel)
  exact h

theorem R_main_cst_9 (L : Valuation τ sig (Elt F)) : R L main_cst_9 = (constant S_ .f32 0x3727C5AC#32 : (⟨S_, .f32⟩ : BufTy).Contents (Elt F)) := by
  have h := step_nullary aligned L 85 rfl (by decide +kernel)
  exact h

theorem R_main_v50 (L : Valuation τ sig (Elt F)) : R L main_v50 = (broadcastInDim S128 ![] bcast_S_S128 (R L main_cst_9 : (⟨S_, .f32⟩ : BufTy).Contents (Elt F)) : (⟨S128, .f32⟩ : BufTy).Contents (Elt F)) := by
  have h := step_unary aligned L 86 rfl (by decide +kernel) (by decide +kernel)
  exact h

theorem R_main_v51 (L : Valuation τ sig (Elt F)) : R L main_v51 = (addf (R L main_v46 : (⟨S128, .f32⟩ : BufTy).Contents (Elt F)) (R L main_v50 : (⟨S128, .f32⟩ : BufTy).Contents (Elt F)) : (⟨S128, .f32⟩ : BufTy).Contents (Elt F)) := by
  have h := step_binary aligned L 87 rfl (by decide +kernel) (by decide +kernel) (by decide +kernel)
  exact h

theorem R_main_v52 (L : Valuation τ sig (Elt F)) : R L main_v52 = (Host.rsqrt (R L main_v51 : (⟨S128, .f32⟩ : BufTy).Contents (Elt F)) : (⟨S128, .f32⟩ : BufTy).Contents (Elt F)) := by
  have h := step_unary aligned L 88 rfl (by decide +kernel) (by decide +kernel)
  exact h

theorem R_main_v53 (L : Valuation τ sig (Elt F)) : R L main_v53 = (broadcastInDim S1x128 ![1] bcast_S128_S1x128_1 (R L main_v52 : (⟨S128, .f32⟩ : BufTy).Contents (Elt F)) : (⟨S1x128, .f32⟩ : BufTy).Contents (Elt F)) := by
  have h := step_unary aligned L 89 rfl (by decide +kernel) (by decide +kernel)
  exact h

theorem R_main_v54 (L : Valuation τ sig (Elt F)) : R L main_v54 = (broadcastInDim S50000x128 ![0, 1] bcast_S1x128_S50000x128_0_1 (R L main_v53 : (⟨S1x128, .f32⟩ : BufTy).Contents (Elt F)) : (⟨S50000x128, .f32⟩ : BufTy).Contents (Elt F)) := by
  have h := step_unary aligned L 90 rfl (by decide +kernel) (by decide +kernel)
  exact h

theorem R_main_v55 (L : Valuation τ sig (Elt F)) : R L main_v55 = (mulf (R L main_v49 : (⟨S50000x128, .f32⟩ : BufTy).Contents (Elt F)) (R L main_v54 : (⟨S50000x128, .f32⟩ : BufTy).Contents (Elt F)) : (⟨S50000x128, .f32⟩ : BufTy).Contents (Elt F)) := by
  have h := step_binary aligned L 91 rfl (by decide +kernel) (by decide +kernel) (by decide +kernel)
  exact h

theorem R_main_v56 (L : Valuation τ sig (Elt F)) : R L main_v56 = (broadcastInDim S1x128 ![1] bcast_S128_S1x128_1 (R L main_v11 : (⟨S128, .f32⟩ : BufTy).Contents (Elt F)) : (⟨S1x128, .f32⟩ : BufTy).Contents (Elt F)) := by
  have h := step_unary aligned L 92 rfl (by decide +kernel) (by decide +kernel)
  exact h

theorem R_main_v57 (L : Valuation τ sig (Elt F)) : R L main_v57 = (broadcastInDim S50000x128 ![0, 1] bcast_S1x128_S50000x128_0_1 (R L main_v56 : (⟨S1x128, .f32⟩ : BufTy).Contents (Elt F)) : (⟨S50000x128, .f32⟩ : BufTy).Contents (Elt F)) := by
  have h := step_unary aligned L 93 rfl (by decide +kernel) (by decide +kernel)
  exact h

theorem R_main_v58 (L : Valuation τ sig (Elt F)) : R L main_v58 = (mulf (R L main_v55 : (⟨S50000x128, .f32⟩ : BufTy).Contents (Elt F)) (R L main_v57 : (⟨S50000x128, .f32⟩ : BufTy).Contents (Elt F)) : (⟨S50000x128, .f32⟩ : BufTy).Contents (Elt F)) := by
  have h := step_binary aligned L 94 rfl (by decide +kernel) (by decide +kernel) (by decide +kernel)
  exact h

theorem R_main_v59 (L : Valuation τ sig (Elt F)) : R L main_v59 = (broadcastInDim S1x128 ![1] bcast_S128_S1x128_1 (R L main_v13 : (⟨S128, .f32⟩ : BufTy).Contents (Elt F)) : (⟨S1x128, .f32⟩ : BufTy).Contents (Elt F)) := by
  have h := step_unary aligned L 95 rfl (by decide +kernel) (by decide +kernel)
  exact h

theorem R_main_v60 (L : Valuation τ sig (Elt F)) : R L main_v60 = (broadcastInDim S50000x128 ![0, 1] bcast_S1x128_S50000x128_0_1 (R L main_v59 : (⟨S1x128, .f32⟩ : BufTy).Contents (Elt F)) : (⟨S50000x128, .f32⟩ : BufTy).Contents (Elt F)) := by
  have h := step_unary aligned L 96 rfl (by decide +kernel) (by decide +kernel)
  exact h

theorem R_main_v61 (L : Valuation τ sig (Elt F)) : R L main_v61 = (addf (R L main_v58 : (⟨S50000x128, .f32⟩ : BufTy).Contents (Elt F)) (R L main_v60 : (⟨S50000x128, .f32⟩ : BufTy).Contents (Elt F)) : (⟨S50000x128, .f32⟩ : BufTy).Contents (Elt F)) := by
  have h := step_binary aligned L 97 rfl (by decide +kernel) (by decide +kernel) (by decide +kernel)
  exact h

theorem R_main_v63 (L : Valuation τ sig (Elt F)) : R L main_v63 = (extractStridedSlice S1x128x128 ![1, 0, 0] (R L main_arg4 : (⟨S3x128x128, .f32⟩ : BufTy).Contents (Elt F)) slices_S3x128x128_S1x128x128_1_0_0 : (⟨S1x128x128, .f32⟩ : BufTy).Contents (Elt F)) := by
  have h := step_unary aligned L 101 rfl (by decide +kernel) (by decide +kernel)
  exact h

theorem R_main_v64 (L : Valuation τ sig (Elt F)) : R L main_v64 = (shapeCast S128x128 (R L main_v63 : (⟨S1x128x128, .f32⟩ : BufTy).Contents (Elt F)) shapeCasts_S1x128x128_S128x128 : (⟨S128x128, .f32⟩ : BufTy).Contents (Elt F)) := by
  have h := step_reshape aligned L 102 rfl (by decide +kernel) (by decide +kernel)
  exact h

theorem R_main_v65 (L : Valuation τ sig (Elt F)) : R L main_v65 = (extractStridedSlice S1x128 ![1, 0] (R L main_arg5 : (⟨S3x128, .f32⟩ : BufTy).Contents (Elt F)) slices_S3x128_S1x128_1_0 : (⟨S1x128, .f32⟩ : BufTy).Contents (Elt F)) := by
  have h := step_unary aligned L 103 rfl (by decide +kernel) (by decide +kernel)
  exact h

theorem R_main_v66 (L : Valuation τ sig (Elt F)) : R L main_v66 = (shapeCast S128 (R L main_v65 : (⟨S1x128, .f32⟩ : BufTy).Contents (Elt F)) shapeCasts_S1x128_S128 : (⟨S128, .f32⟩ : BufTy).Contents (Elt F)) := by
  have h := step_reshape aligned L 104 rfl (by decide +kernel) (by decide +kernel)
  exact h

theorem R_main_v67 (L : Valuation τ sig (Elt F)) : R L main_v67 = (extractStridedSlice S1x128x128 ![1, 0, 0] (R L main_arg6 : (⟨S3x128x128, .f32⟩ : BufTy).Contents (Elt F)) slices_S3x128x128_S1x128x128_1_0_0 : (⟨S1x128x128, .f32⟩ : BufTy).Contents (Elt F)) := by
  have h := step_unary aligned L 105 rfl (by decide +kernel) (by decide +kernel)
  exact h

theorem R_main_v68 (L : Valuation τ sig (Elt F)) : R L main_v68 = (shapeCast S128x128 (R L main_v67 : (⟨S1x128x128, .f32⟩ : BufTy).Contents (Elt F)) shapeCasts_S1x128x128_S128x128 : (⟨S128x128, .f32⟩ : BufTy).Contents (Elt F)) := by
  have h := step_reshape aligned L 106 rfl (by decide +kernel) (by decide +kernel)
  exact h

theorem R_main_v69 (L : Valuation τ sig (Elt F)) : R L main_v69 = (extractStridedSlice S1x128 ![1, 0] (R L main_arg7 : (⟨S3x128, .f32⟩ : BufTy).Contents (Elt F)) slices_S3x128_S1x128_1_0 : (⟨S1x128, .f32⟩ : BufTy).Contents (Elt F)) := by
  have h := step_unary aligned L 107 rfl (by decide +kernel) (by decide +kernel)
  exact h

theorem R_main_v70 (L : Valuation τ sig (Elt F)) : R L main_v70 = (shapeCast S128 (R L main_v69 : (⟨S1x128, .f32⟩ : BufTy).Contents (Elt F)) shapeCasts_S1x128_S128 : (⟨S128, .f32⟩ : BufTy).Contents (Elt F)) := by
  have h := step_reshape aligned L 108 rfl (by decide +kernel) (by decide +kernel)
  exact h

theorem R_main_v71 (L : Valuation τ sig (Elt F)) : R L main_v71 = (extractStridedSlice S1x128 ![1, 0] (R L main_arg8 : (⟨S3x128, .f32⟩ : BufTy).Contents (Elt F)) slices_S3x128_S1x128_1_0 : (⟨S1x128, .f32⟩ : BufTy).Contents (Elt F)) := by
  have h := step_unary aligned L 109 rfl (by decide +kernel) (by decide +kernel)
  exact h

theorem R_main_v72 (L : Valuation τ sig (Elt F)) : R L main_v72 = (shapeCast S128 (R L main_v71 : (⟨S1x128, .f32⟩ : BufTy).Contents (Elt F)) shapeCasts_S1x128_S128 : (⟨S128, .f32⟩ : BufTy).Contents (Elt F)) := by
  have h := step_reshape aligned L 110 rfl (by decide +kernel) (by decide +kernel)
  exact h

theorem R_main_c_10 (L : Valuation τ sig (Elt F)) : R L main_c_10 = (constantI S_ 32 0#32 : (⟨S_, .i32⟩ : BufTy).Contents (Elt F)) := by
  have h := step_nullary aligned L 111 rfl (by decide +kernel)
  exact h

theorem R_main_v73 (L : Valuation τ sig (Elt F)) : R L main_v73 = (broadcastInDim S800000 ![] bcast_S_S800000 (R L main_c_10 : (⟨S_, .i32⟩ : BufTy).Contents (Elt F)) : (⟨S800000, .i32⟩ : BufTy).Contents (Elt F)) := by
  have h := step_unary aligned L 112 rfl (by decide +kernel) (by decide +kernel)
  exact h

theorem R_main_v74 (L : Valuation τ sig (Elt F)) : R L main_v74 = (cmpi .slt (R L main_v1 : (⟨S800000, .i32⟩ : BufTy).Contents (Elt F)) (R L main_v73 : (⟨S800000, .i32⟩ : BufTy).Contents (Elt F)) : (⟨S800000, .i1⟩ : BufTy).Contents (Elt F)) := by
  have h := step_binary aligned L 113 rfl (by decide +kernel) (by decide +kernel) (by decide +kernel)
  exact h

theorem R_main_c_11 (L : Valuation τ sig (Elt F)) : R L main_c_11 = (constantI S_ 32 50000#32 : (⟨S_, .i32⟩ : BufTy).Contents (Elt F)) := by
  have h := step_nullary aligned L 114 rfl (by decide +kernel)
  exact h

theorem R_main_v75 (L : Valuation τ sig (Elt F)) : R L main_v75 = (broadcastInDim S800000 ![] bcast_S_S800000 (R L main_c_11 : (⟨S_, .i32⟩ : BufTy).Contents (Elt F)) : (⟨S800000, .i32⟩ : BufTy).Contents (Elt F)) := by
  have h := step_unary aligned L 115 rfl (by decide +kernel) (by decide +kernel)
  exact h

theorem R_main_v76 (L : Valuation τ sig (Elt F)) : R L main_v76 = (addi (R L main_v1 : (⟨S800000, .i32⟩ : BufTy).Contents (Elt F)) (R L main_v75 : (⟨S800000, .i32⟩ : BufTy).Contents (Elt F)) : (⟨S800000, .i32⟩ : BufTy).Contents (Elt F)) := by
  have h := step_binary aligned L 116 rfl (by decide +kernel) (by decide +kernel) (by decide +kernel)
  exact h

theorem R_main_v77 (L : Valuation τ sig (Elt F)) : R L main_v77 = (select (R L main_v74 : (⟨S800000, .i1⟩ : BufTy).Contents (Elt F)) (R L main_v76 : (⟨S800000, .i32⟩ : BufTy).Contents (Elt F)) (R L main_v1 : (⟨S800000, .i32⟩ : BufTy).Contents (Elt F)) : (⟨S800000, .i32⟩ : BufTy).Contents (Elt F)) := by
  have h := step_ternary aligned L 117 rfl (by decide +kernel) (by decide +kernel) (by decide +kernel) (by decide +kernel)
  exact h

theorem R_main_v78 (L : Valuation τ sig (Elt F)) : R L main_v78 = (broadcastInDim S800000x1 ![0] bcast_S800000_S800000x1_0 (R L main_v77 : (⟨S800000, .i32⟩ : BufTy).Contents (Elt F)) : (⟨S800000x1, .i32⟩ : BufTy).Contents (Elt F)) := by
  have h := step_unary aligned L 118 rfl (by decide +kernel) (by decide +kernel)
  exact h

theorem R_main_v79 (L : Valuation τ sig (Elt F)) : R L main_v79 = (Host.gather gather_S50000x128_S800000x1_S800000x128_1_0_n_n_0_1_1128 (R L main_v62 : (⟨S50000x128, .f32⟩ : BufTy).Contents (Elt F)) (R L main_v78 : (⟨S800000x1, .i32⟩ : BufTy).Contents (Elt F)) : (⟨S800000x128, .f32⟩ : BufTy).Contents (Elt F)) := by
  have h := step_binary aligned L 119 rfl (by decide +kernel) (by decide +kernel) (by decide +kernel)
  exact h

theorem R_main_cst_12 (L : Valuation τ sig (Elt F)) : R L main_cst_12 = (constant S_ .f32 0x00000000#32 : (⟨S_, .f32⟩ : BufTy).Contents (Elt F)) := by
  have h := step_nullary aligned L 120 rfl (by decide +kernel)
  exact h

theorem R_main_v80 (L : Valuation τ sig (Elt F)) : R L main_v80 = (broadcastInDim S50000x128 ![] bcast_S_S50000x128 (R L main_cst_12 : (⟨S_, .f32⟩ : BufTy).Contents (Elt F)) : (⟨S50000x128, .f32⟩ : BufTy).Contents (Elt F)) := by
  have h := step_unary aligned L 121 rfl (by decide +kernel) (by decide +kernel)
  exact h

theorem R_main_v81 (L : Valuation τ sig (Elt F)) : R L main_v81 = (broadcastInDim S800000x1 ![0] bcast_S800000_S800000x1_0 (R L main_v3 : (⟨S800000, .i32⟩ : BufTy).Contents (Elt F)) : (⟨S800000x1, .i32⟩ : BufTy).Contents (Elt F)) := by
  have h := step_unary aligned L 122 rfl (by decide +kernel) (by decide +kernel)
  exact h

theorem R_main_v82 (L : Valuation τ sig (Elt F)) : R L main_v82 = (Host.scatterAdd scatter_S50000x128_S800000x1_S800000x128_1_0_0_1 (R L main_v80 : (⟨S50000x128, .f32⟩ : BufTy).Contents (Elt F)) (R L main_v81 : (⟨S800000x1, .i32⟩ : BufTy).Contents (Elt F)) (R L main_v79 : (⟨S800000x128, .f32⟩ : BufTy).Contents (Elt F)) : (⟨S50000x128, .f32⟩ : BufTy).Contents (Elt F)) := by
  have h := step_ternary aligned L 123 rfl (by decide +kernel) (by decide +kernel) (by decide +kernel) (by decide +kernel)
  exact h

theorem R_main_cst_13 (L : Valuation τ sig (Elt F)) : R L main_cst_13 = (constant S_ .f32 0x3F800000#32 : (⟨S_, .f32⟩ : BufTy).Contents (Elt F)) := by
  have h := step_nullary aligned L 124 rfl (by decide +kernel)
  exact h

theorem R_main_v83 (L : Valuation τ sig (Elt F)) : R L main_v83 = (broadcastInDim S800000x1 ![] bcast_S_S800000x1 (R L main_cst_13 : (⟨S_, .f32⟩ : BufTy).Contents (Elt F)) : (⟨S800000x1, .f32⟩ : BufTy).Contents (Elt F)) := by
  have h := step_unary aligned L 125 rfl (by decide +kernel) (by decide +kernel)
  exact h

theorem R_main_cst_14 (L : Valuation τ sig (Elt F)) : R L main_cst_14 = (constant S_ .f32 0x00000000#32 : (⟨S_, .f32⟩ : BufTy).Contents (Elt F)) := by
  have h := step_nullary aligned L 126 rfl (by decide +kernel)
  exact h

theorem R_main_v84 (L : Valuation τ sig (Elt F)) : R L main_v84 = (broadcastInDim S50000x1 ![] bcast_S_S50000x1 (R L main_cst_14 : (⟨S_, .f32⟩ : BufTy).Contents (Elt F)) : (⟨S50000x1, .f32⟩ : BufTy).Contents (Elt F)) := by
  have h := step_unary aligned L 127 rfl (by decide +kernel) (by decide +kernel)
  exact h

theorem R_main_v85 (L : Valuation τ sig (Elt F)) : R L main_v85 = (broadcastInDim S800000x1 ![0] bcast_S800000_S800000x1_0 (R L main_v3 : (⟨S800000, .i32⟩ : BufTy).Contents (Elt F)) : (⟨S800000x1, .i32⟩ : BufTy).Contents (Elt F)) := by
  have h := step_unary aligned L 128 rfl (by decide +kernel) (by decide +kernel)
  exact h

theorem R_main_v86 (L : Valuation τ sig (Elt F)) : R L main_v86 = (Host.scatterAdd scatter_S50000x1_S800000x1_S800000x1_1_0_0_1 (R L main_v84 : (⟨S50000x1, .f32⟩ : BufTy).Contents (Elt F)) (R L main_v85 : (⟨S800000x1, .i32⟩ : BufTy).Contents (Elt F)) (R L main_v83 : (⟨S800000x1, .f32⟩ : BufTy).Contents (Elt F)) : (⟨S50000x1, .f32⟩ : BufTy).Contents (Elt F)) := by
  have h := step_ternary aligned L 129 rfl (by decide +kernel) (by decide +kernel) (by decide +kernel) (by decide +kernel)
  exact h

theorem R_main_cst_15 (L : Valuation τ sig (Elt F)) : R L main_cst_15 = (constant S_ .f32 0x00000000#32 : (⟨S_, .f32⟩ : BufTy).Contents (Elt F)) := by
  have h := step_nullary aligned L 130 rfl (by decide +kernel)
  exact h

theorem R_main_v87 (L : Valuation τ sig (Elt F)) : R L main_v87 = (broadcastInDim S50000x1 ![] bcast_S_S50000x1 (R L main_cst_15 : (⟨S_, .f32⟩ : BufTy).Contents (Elt F)) : (⟨S50000x1, .f32⟩ : BufTy).Contents (Elt F)) := by
  have h := step_unary aligned L 131 rfl (by decide +kernel) (by decide +kernel)
  exact h

theorem R_main_v88 (L : Valuation τ sig (Elt F)) : R L main_v88 = (cmpf .ogt (R L main_v86 : (⟨S50000x1, .f32⟩ : BufTy).Contents (Elt F)) (R L main_v87 : (⟨S50000x1, .f32⟩ : BufTy).Contents (Elt F)) : (⟨S50000x1, .i1⟩ : BufTy).Contents (Elt F)) := by
  have h := step_binary aligned L 132 rfl (by decide +kernel) (by decide +kernel) (by decide +kernel)
  exact h

theorem R_main_cst_16 (L : Valuation τ sig (Elt F)) : R L main_cst_16 = (constant S_ .f32 0x3F800000#32 : (⟨S_, .f32⟩ : BufTy).Contents (Elt F)) := by
  have h := step_nullary aligned L 133 rfl (by decide +kernel)
  exact h

theorem R_main_v89 (L : Valuation τ sig (Elt F)) : R L main_v89 = (broadcastInDim S50000x1 ![] bcast_S_S50000x1 (R L main_cst_16 : (⟨S_, .f32⟩ : BufTy).Contents (Elt F)) : (⟨S50000x1, .f32⟩ : BufTy).Contents (Elt F)) := by
  have h := step_unary aligned L 134 rfl (by decide +kernel) (by decide +kernel)
  exact h

theorem R_main_v90 (L : Valuation τ sig (Elt F)) : R L main_v90 = (maximumf (R L main_v86 : (⟨S50000x1, .f32⟩ : BufTy).Contents (Elt F)) (R L main_v89 : (⟨S50000x1, .f32⟩ : BufTy).Contents (Elt F)) : (⟨S50000x1, .f32⟩ : BufTy).Contents (Elt F)) := by
  have h := step_binary aligned L 135 rfl (by decide +kernel) (by decide +kernel) (by decide +kernel)
  exact h

theorem R_main_v91 (L : Valuation τ sig (Elt F)) : R L main_v91 = (broadcastInDim S50000x128 ![0, 1] bcast_S50000x1_S50000x128_0_1 (R L main_v90 : (⟨S50000x1, .f32⟩ : BufTy).Contents (Elt F)) : (⟨S50000x128, .f32⟩ : BufTy).Contents (Elt F)) := by
  have h := step_unary aligned L 136 rfl (by decide +kernel) (by decide +kernel)
  exact h

theorem R_main_v92 (L : Valuation τ sig (Elt F)) : R L main_v92 = (Host.divf (R L main_v82 : (⟨S50000x128, .f32⟩ : BufTy).Contents (Elt F)) (R L main_v91 : (⟨S50000x128, .f32⟩ : BufTy).Contents (Elt F)) : (⟨S50000x128, .f32⟩ : BufTy).Contents (Elt F)) := by
  have h := step_binary aligned L 137 rfl (by decide +kernel) (by decide +kernel) (by decide +kernel)
  exact h

theorem R_main_cst_17 (L : Valuation τ sig (Elt F)) : R L main_cst_17 = (constant S_ .f32 0x00000000#32 : (⟨S_, .f32⟩ : BufTy).Contents (Elt F)) := by
  have h := step_nullary aligned L 138 rfl (by decide +kernel)
  exact h

theorem R_main_v94 (L : Valuation τ sig (Elt F)) : R L main_v94 = (transpose S128x128 [1, 0] (R L main_v64 : (⟨S128x128, .f32⟩ : BufTy).Contents (Elt F)) transposes_S128x128_S128x128_1_0 : (⟨S128x128, .f32⟩ : BufTy).Contents (Elt F)) := by
  have h := step_unary aligned L 143 rfl (by decide +kernel) (by decide +kernel)
  exact h

theorem R_main_v95 (L : Valuation τ sig (Elt F)) : R L main_v95 = (Host.dotGeneral dot_S50000x128_S128x128_S50000x128_1_0_0_1_n_n none (R L main_v93 : (⟨S50000x128, .f32⟩ : BufTy).Contents (Elt F)) (R L main_v94 : (⟨S128x128, .f32⟩ : BufTy).Contents (Elt F)) : (⟨S50000x128, .f32⟩ : BufTy).Contents (Elt F)) := by
  have h := step_binary aligned L 144 rfl (by decide +kernel) (by decide +kernel) (by decide +kernel)
  exact h

theorem R_main_v96 (L : Valuation τ sig (Elt F)) : R L main_v96 = (broadcastInDim S1x128 ![1] bcast_S128_S1x128_1 (R L main_v66 : (⟨S128, .f32⟩ : BufTy).Contents (Elt F)) : (⟨S1x128, .f32⟩ : BufTy).Contents (Elt F)) := by
  have h := step_unary aligned L 145 rfl (by decide +kernel) (by decide +kernel)
  exact h

theorem R_main_v97 (L : Valuation τ sig (Elt F)) : R L main_v97 = (broadcastInDim S50000x128 ![0, 1] bcast_S1x128_S50000x128_0_1 (R L main_v96 : (⟨S1x128, .f32⟩ : BufTy).Contents (Elt F)) : (⟨S50000x128, .f32⟩ : BufTy).Contents (Elt F)) := by
  have h := step_unary aligned L 146 rfl (by decide +kernel) (by decide +kernel)
  exact h

theorem R_main_v98 (L : Valuation τ sig (Elt F)) : R L main_v98 = (addf (R L main_v95 : (⟨S50000x128, .f32⟩ : BufTy).Contents (Elt F)) (R L main_v97 : (⟨S50000x128, .f32⟩ : BufTy).Contents (Elt F)) : (⟨S50000x128, .f32⟩ : BufTy).Contents (Elt F)) := by
  have h := step_binary aligned L 147 rfl (by decide +kernel) (by decide +kernel) (by decide +kernel)
  exact h

theorem R_main_v99 (L : Valuation τ sig (Elt F)) : R L main_v99 = (transpose S128x128 [1, 0] (R L main_v68 : (⟨S128x128, .f32⟩ : BufTy).Contents (Elt F)) transposes_S128x128_S128x128_1_0 : (⟨S128x128, .f32⟩ : BufTy).Contents (Elt F)) := by
  have h := step_unary aligned L 148 rfl (by decide +kernel) (by decide +kernel)
  exact h

section Calls
attribute [local irreducible] StableHlo.after select broadcastInDim Host.reduceAdd Host.divf cmpf subf mulf maximumf sitofp constant shapeCast

set_option maxHeartbeats 1000000 in
theorem R_main_call2_cst (L : Valuation τ sig (Elt F)) : R L main_call2_cst = (constant S_ .f32 0x00000000#32 : (⟨S_, .f32⟩ : BufTy).Contents (Elt F)) := by
  have h := step_nullary aligned L 98 rfl (by decide +kernel)
  exact h

set_option maxHeartbeats 1000000 in
theorem R_main_call2_v0 (L : Valuation τ sig (Elt F)) : R L main_call2_v0 = (broadcastInDim S50000x128 ![] bcast_S_S50000x128 (R L main_call2_cst : (⟨S_, .f32⟩ : BufTy).Contents (Elt F)) : (⟨S50000x128, .f32⟩ : BufTy).Contents (Elt F)) := by
  have h := step_unary aligned L 99 rfl (by decide +kernel) (by decide +kernel)
  exact h

set_option maxHeartbeats 1000000 in
theorem R_main_v62 (L : Valuation τ sig (Elt F)) : R L main_v62 = (maximumf (R L main_v61 : (⟨S50000x128, .f32⟩ : BufTy).Contents (Elt F)) (R L main_call2_v0 : (⟨S50000x128, .f32⟩ : BufTy).Contents (Elt F)) : (⟨S50000x128, .f32⟩ : BufTy).Contents (Elt F)) := by
  have h := step_binary aligned L 100 rfl (by decide +kernel) (by decide +kernel) (by decide +kernel)
  exact h

set_option maxHeartbeats 1000000 in
theorem R_main_call3_v0 (L : Valuation τ sig (Elt F)) : R L main_call3_v0 = ((R L main_cst_17 : (⟨S_, .f32⟩ : BufTy).Contents (Elt F)) : (⟨S_, .f32⟩ : BufTy).Contents (Elt F)) := by
  have h := step_unary aligned L 139 rfl (by decide +kernel) (by decide +kernel)
  exact h

set_option maxHeartbeats 1000000 in
theorem R_main_call3_v1 (L : Valuation τ sig (Elt F)) : R L main_call3_v1 = (broadcastInDim S50000x128 ![0, 1] bcast_S50000x1_S50000x128_0_1 (R L main_v88 : (⟨S50000x1, .i1⟩ : BufTy).Contents (Elt F)) : (⟨S50000x128, .i1⟩ : BufTy).Contents (Elt F)) := by
  have h := step_unary aligned L 140 rfl (by decide +kernel) (by decide +kernel)
  exact h

set_option maxHeartbeats 1000000 in
theorem R_main_call3_v2 (L : Valuation τ sig (Elt F)) : R L main_call3_v2 = (broadcastInDim S50000x128 ![] bcast_S_S50000x128 (R L main_call3_v0 : (⟨S_, .f32⟩ : BufTy).Contents (Elt F)) : (⟨S50000x128, .f32⟩ : BufTy).Contents (Elt F)) := by
  have h := step_unary aligned L 141 rfl (by decide +kernel) (by decide +kernel)
  exact h

set_option maxHeartbeats 1000000 in
theorem R_main_v93 (L : Valuation τ sig (Elt F)) : R L main_v93 = (select (R L main_call3_v1 : (⟨S50000x128, .i1⟩ : BufTy).Contents (Elt F)) (R L main_v92 : (⟨S50000x128, .f32⟩ : BufTy).Contents (Elt F)) (R L main_call3_v2 : (⟨S50000x128, .f32⟩ : BufTy).Contents (Elt F)) : (⟨S50000x128, .f32⟩ : BufTy).Contents (Elt F)) := by
  have h := step_ternary aligned L 142 rfl (by decide +kernel) (by decide +kernel) (by decide +kernel) (by decide +kernel)
  exact h

end Calls

end Cert.ReferenceIdeal.RefRun

end
-- ==== Proof.RefSteps2.lean ====
/- The reference's @main one operation at a time, window 2 (operations 150 … 232 of 363).

   For each operation, the equation its result buffer satisfies after the whole of @main: the operation's function of
   what its operand buffers hold then (no later operation writes an operand or the result: decided on the list of
   written buffers from the operation's position on). An operation of a called function is stated at the tensor
   types the function's values carry; the operation itself moves contents between those types and the buffers' along
   equations that are identities at these buffers, and the heavy functions are kept folded while that is checked. -/
import proofs.«180021_j37692632990117_2_alg».proof.Proof.RefStepsBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefRunLib

variable {F : FTy → Type} [FloatOps F]

theorem R_main_v100 (L : Valuation τ sig (Elt F)) : R L main_v100 = (Host.dotGeneral dot_S50000x128_S128x128_S50000x128_1_0_0_1_n_n none (R L main_v62 : (⟨S50000x128, .f32⟩ : BufTy).Contents (Elt F)) (R L main_v99 : (⟨S128x128, .f32⟩ : BufTy).Contents (Elt F)) : (⟨S50000x128, .f32⟩ : BufTy).Contents (Elt F)) := by
  have h := step_binary aligned L 149 rfl (by decide +kernel) (by decide +kernel) (by decide +kernel)
  exact h

theorem R_main_v101 (L : Valuation τ sig (Elt F)) : R L main_v101 = (addf (R L main_v98 : (⟨S50000x128, .f32⟩ : BufTy).Contents (Elt F)) (R L main_v100 : (⟨S50000x128, .f32⟩ : BufTy).Contents (Elt F)) : (⟨S50000x128, .f32⟩ : BufTy).Contents (Elt F)) := by
  have h := step_binary aligned L 150 rfl (by decide +kernel) (by decide +kernel) (by decide +kernel)
  exact h

theorem R_main_cst_18 (L : Valuation τ sig (Elt F)) : R L main_cst_18 = (constant S_ .f32 0x00000000#32 : (⟨S_, .f32⟩ : BufTy).Contents (Elt F)) := by
  have h := step_nullary aligned L 151 rfl (by decide +kernel)
  exact h

theorem R_main_v102 (L : Valuation τ sig (Elt F)) : R L main_v102 = (Host.reduceAdd (R L main_v101 : (⟨S50000x128, .f32⟩ : BufTy).Contents (Elt F)) (R L main_cst_18 : (⟨S_, .f32⟩ : BufTy).Contents (Elt F)) reducesTo_S50000x128_S128_d0 h_S_ : (⟨S128, .f32⟩ : BufTy).Contents (Elt F)) := by
  have h := step_binary aligned L 152 rfl (by decide +kernel) (by decide +kernel) (by decide +kernel)
  exact h

theorem R_main_cst_19 (L : Valuation τ sig (Elt F)) : R L main_cst_19 = (constant S_ .f32 0x47435000#32 : (⟨S_, .f32⟩ : BufTy).Contents (Elt F)) := by
  have h := step_nullary aligned L 153 rfl (by decide +kernel)
  exact h

theorem R_main_v103 (L : Valuation τ sig (Elt F)) : R L main_v103 = (broadcastInDim S128 ![] bcast_S_S128 (R L main_cst_19 : (⟨S_, .f32⟩ : BufTy).Contents (Elt F)) : (⟨S128, .f32⟩ : BufTy).Contents (Elt F)) := by
  have h := step_unary aligned L 154 rfl (by decide +kernel) (by decide +kernel)
  exact h

theorem R_main_v104 (L : Valuation τ sig (Elt F)) : R L main_v104 = (Host.divf (R L main_v102 : (⟨S128, .f32⟩ : BufTy).Contents (Elt F)) (R L main_v103 : (⟨S128, .f32⟩ : BufTy).Contents (Elt F)) : (⟨S128, .f32⟩ : BufTy).Contents (Elt F)) := by
  have h := step_binary aligned L 155 rfl (by decide +kernel) (by decide +kernel) (by decide +kernel)
  exact h

theorem R_main_c_20 (L : Valuation τ sig (Elt F)) : R L main_c_20 = (constantI S_ 32 0#32 : (⟨S_, .i32⟩ : BufTy).Contents (Elt F)) := by
  have h := step_nullary aligned L 156 rfl (by decide +kernel)
  exact h

theorem R_main_v106 (L : Valuation τ sig (Elt F)) : R L main_v106 = (broadcastInDim S1x128 ![1] bcast_S128_S1x128_1 (R L main_v104 : (⟨S128, .f32⟩ : BufTy).Contents (Elt F)) : (⟨S1x128, .f32⟩ : BufTy).Contents (Elt F)) := by
  have h := step_unary aligned L 179 rfl (by decide +kernel) (by decide +kernel)
  exact h

theorem R_main_v107 (L : Valuation τ sig (Elt F)) : R L main_v107 = (broadcastInDim S50000x128 ![0, 1] bcast_S1x128_S50000x128_0_1 (R L main_v106 : (⟨S1x128, .f32⟩ : BufTy).Contents (Elt F)) : (⟨S50000x128, .f32⟩ : BufTy).Contents (Elt F)) := by
  have h := step_unary aligned L 180 rfl (by decide +kernel) (by decide +kernel)
  exact h

theorem R_main_v108 (L : Valuation τ sig (Elt F)) : R L main_v108 = (subf (R L main_v101 : (⟨S50000x128, .f32⟩ : BufTy).Contents (Elt F)) (R L main_v107 : (⟨S50000x128, .f32⟩ : BufTy).Contents (Elt F)) : (⟨S50000x128, .f32⟩ : BufTy).Contents (Elt F)) := by
  have h := step_binary aligned L 181 rfl (by decide +kernel) (by decide +kernel) (by decide +kernel)
  exact h

theorem R_main_cst_21 (L : Valuation τ sig (Elt F)) : R L main_cst_21 = (constant S_ .f32 0x3727C5AC#32 : (⟨S_, .f32⟩ : BufTy).Contents (Elt F)) := by
  have h := step_nullary aligned L 182 rfl (by decide +kernel)
  exact h

theorem R_main_v109 (L : Valuation τ sig (Elt F)) : R L main_v109 = (broadcastInDim S128 ![] bcast_S_S128 (R L main_cst_21 : (⟨S_, .f32⟩ : BufTy).Contents (Elt F)) : (⟨S128, .f32⟩ : BufTy).Contents (Elt F)) := by
  have h := step_unary aligned L 183 rfl (by decide +kernel) (by decide +kernel)
  exact h

theorem R_main_v110 (L : Valuation τ sig (Elt F)) : R L main_v110 = (addf (R L main_v105 : (⟨S128, .f32⟩ : BufTy).Contents (Elt F)) (R L main_v109 : (⟨S128, .f32⟩ : BufTy).Contents (Elt F)) : (⟨S128, .f32⟩ : BufTy).Contents (Elt F)) := by
  have h := step_binary aligned L 184 rfl (by decide +kernel) (by decide +kernel) (by decide +kernel)
  exact h

theorem R_main_v111 (L : Valuation τ sig (Elt F)) : R L main_v111 = (Host.rsqrt (R L main_v110 : (⟨S128, .f32⟩ : BufTy).Contents (Elt F)) : (⟨S128, .f32⟩ : BufTy).Contents (Elt F)) := by
  have h := step_unary aligned L 185 rfl (by decide +kernel) (by decide +kernel)
  exact h

theorem R_main_v112 (L : Valuation τ sig (Elt F)) : R L main_v112 = (broadcastInDim S1x128 ![1] bcast_S128_S1x128_1 (R L main_v111 : (⟨S128, .f32⟩ : BufTy).Contents (Elt F)) : (⟨S1x128, .f32⟩ : BufTy).Contents (Elt F)) := by
  have h := step_unary aligned L 186 rfl (by decide +kernel) (by decide +kernel)
  exact h

theorem R_main_v113 (L : Valuation τ sig (Elt F)) : R L main_v113 = (broadcastInDim S50000x128 ![0, 1] bcast_S1x128_S50000x128_0_1 (R L main_v112 : (⟨S1x128, .f32⟩ : BufTy).Contents (Elt F)) : (⟨S50000x128, .f32⟩ : BufTy).Contents (Elt F)) := by
  have h := step_unary aligned L 187 rfl (by decide +kernel) (by decide +kernel)
  exact h

theorem R_main_v114 (L : Valuation τ sig (Elt F)) : R L main_v114 = (mulf (R L main_v108 : (⟨S50000x128, .f32⟩ : BufTy).Contents (Elt F)) (R L main_v113 : (⟨S50000x128, .f32⟩ : BufTy).Contents (Elt F)) : (⟨S50000x128, .f32⟩ : BufTy).Contents (Elt F)) := by
  have h := step_binary aligned L 188 rfl (by decide +kernel) (by decide +kernel) (by decide +kernel)
  exact h

theorem R_main_v115 (L : Valuation τ sig (Elt F)) : R L main_v115 = (broadcastInDim S1x128 ![1] bcast_S128_S1x128_1 (R L main_v70 : (⟨S128, .f32⟩ : BufTy).Contents (Elt F)) : (⟨S1x128, .f32⟩ : BufTy).Contents (Elt F)) := by
  have h := step_unary aligned L 189 rfl (by decide +kernel) (by decide +kernel)
  exact h

theorem R_main_v116 (L : Valuation τ sig (Elt F)) : R L main_v116 = (broadcastInDim S50000x128 ![0, 1] bcast_S1x128_S50000x128_0_1 (R L main_v115 : (⟨S1x128, .f32⟩ : BufTy).Contents (Elt F)) : (⟨S50000x128, .f32⟩ : BufTy).Contents (Elt F)) := by
  have h := step_unary aligned L 190 rfl (by decide +kernel) (by decide +kernel)
  exact h

theorem R_main_v117 (L : Valuation τ sig (Elt F)) : R L main_v117 = (mulf (R L main_v114 : (⟨S50000x128, .f32⟩ : BufTy).Contents (Elt F)) (R L main_v116 : (⟨S50000x128, .f32⟩ : BufTy).Contents (Elt F)) : (⟨S50000x128, .f32⟩ : BufTy).Contents (Elt F)) := by
  have h := step_binary aligned L 191 rfl (by decide +kernel) (by decide +kernel) (by decide +kernel)
  exact h

theorem R_main_v118 (L : Valuation τ sig (Elt F)) : R L main_v118 = (broadcastInDim S1x128 ![1] bcast_S128_S1x128_1 (R L main_v72 : (⟨S128, .f32⟩ : BufTy).Contents (Elt F)) : (⟨S1x128, .f32⟩ : BufTy).Contents (Elt F)) := by
  have h := step_unary aligned L 192 rfl (by decide +kernel) (by decide +kernel)
  exact h

theorem R_main_v119 (L : Valuation τ sig (Elt F)) : R L main_v119 = (broadcastInDim S50000x128 ![0, 1] bcast_S1x128_S50000x128_0_1 (R L main_v118 : (⟨S1x128, .f32⟩ : BufTy).Contents (Elt F)) : (⟨S50000x128, .f32⟩ : BufTy).Contents (Elt F)) := by
  have h := step_unary aligned L 193 rfl (by decide +kernel) (by decide +kernel)
  exact h

theorem R_main_v120 (L : Valuation τ sig (Elt F)) : R L main_v120 = (addf (R L main_v117 : (⟨S50000x128, .f32⟩ : BufTy).Contents (Elt F)) (R L main_v119 : (⟨S50000x128, .f32⟩ : BufTy).Contents (Elt F)) : (⟨S50000x128, .f32⟩ : BufTy).Contents (Elt F)) := by
  have h := step_binary aligned L 194 rfl (by decide +kernel) (by decide +kernel) (by decide +kernel)
  exact h

theorem R_main_v122 (L : Valuation τ sig (Elt F)) : R L main_v122 = (extractStridedSlice S1x128x128 ![2, 0, 0] (R L main_arg4 : (⟨S3x128x128, .f32⟩ : BufTy).Contents (Elt F)) slices_S3x128x128_S1x128x128_2_0_0 : (⟨S1x128x128, .f32⟩ : BufTy).Contents (Elt F)) := by
  have h := step_unary aligned L 198 rfl (by decide +kernel) (by decide +kernel)
  exact h

theorem R_main_v123 (L : Valuation τ sig (Elt F)) : R L main_v123 = (shapeCast S128x128 (R L main_v122 : (⟨S1x128x128, .f32⟩ : BufTy).Contents (Elt F)) shapeCasts_S1x128x128_S128x128 : (⟨S128x128, .f32⟩ : BufTy).Contents (Elt F)) := by
  have h := step_reshape aligned L 199 rfl (by decide +kernel) (by decide +kernel)
  exact h

theorem R_main_v124 (L : Valuation τ sig (Elt F)) : R L main_v124 = (extractStridedSlice S1x128 ![2, 0] (R L main_arg5 : (⟨S3x128, .f32⟩ : BufTy).Contents (Elt F)) slices_S3x128_S1x128_2_0 : (⟨S1x128, .f32⟩ : BufTy).Contents (Elt F)) := by
  have h := step_unary aligned L 200 rfl (by decide +kernel) (by decide +kernel)
  exact h

theorem R_main_v125 (L : Valuation τ sig (Elt F)) : R L main_v125 = (shapeCast S128 (R L main_v124 : (⟨S1x128, .f32⟩ : BufTy).Contents (Elt F)) shapeCasts_S1x128_S128 : (⟨S128, .f32⟩ : BufTy).Contents (Elt F)) := by
  have h := step_reshape aligned L 201 rfl (by decide +kernel) (by decide +kernel)
  exact h

theorem R_main_v126 (L : Valuation τ sig (Elt F)) : R L main_v126 = (extractStridedSlice S1x128x128 ![2, 0, 0] (R L main_arg6 : (⟨S3x128x128, .f32⟩ : BufTy).Contents (Elt F)) slices_S3x128x128_S1x128x128_2_0_0 : (⟨S1x128x128, .f32⟩ : BufTy).Contents (Elt F)) := by
  have h := step_unary aligned L 202 rfl (by decide +kernel) (by decide +kernel)
  exact h

theorem R_main_v127 (L : Valuation τ sig (Elt F)) : R L main_v127 = (shapeCast S128x128 (R L main_v126 : (⟨S1x128x128, .f32⟩ : BufTy).Contents (Elt F)) shapeCasts_S1x128x128_S128x128 : (⟨S128x128, .f32⟩ : BufTy).Contents (Elt F)) := by
  have h := step_reshape aligned L 203 rfl (by decide +kernel) (by decide +kernel)
  exact h

theorem R_main_v128 (L : Valuation τ sig (Elt F)) : R L main_v128 = (extractStridedSlice S1x128 ![2, 0] (R L main_arg7 : (⟨S3x128, .f32⟩ : BufTy).Contents (Elt F)) slices_S3x128_S1x128_2_0 : (⟨S1x128, .f32⟩ : BufTy).Contents (Elt F)) := by
  have h := step_unary aligned L 204 rfl (by decide +kernel) (by decide +kernel)
  exact h

theorem R_main_v129 (L : Valuation τ sig (Elt F)) : R L main_v129 = (shapeCast S128 (R L main_v128 : (⟨S1x128, .f32⟩ : BufTy).Contents (Elt F)) shapeCasts_S1x128_S128 : (⟨S128, .f32⟩ : BufTy).Contents (Elt F)) := by
  have h := step_reshape aligned L 205 rfl (by decide +kernel) (by decide +kernel)
  exact h

theorem R_main_v130 (L : Valuation τ sig (Elt F)) : R L main_v130 = (extractStridedSlice S1x128 ![2, 0] (R L main_arg8 : (⟨S3x128, .f32⟩ : BufTy).Contents (Elt F)) slices_S3x128_S1x128_2_0 : (⟨S1x128, .f32⟩ : BufTy).Contents (Elt F)) := by
  have h := step_unary aligned L 206 rfl (by decide +kernel) (by decide +kernel)
  exact h

theorem R_main_v131 (L : Valuation τ sig (Elt F)) : R L main_v131 = (shapeCast S128 (R L main_v130 : (⟨S1x128, .f32⟩ : BufTy).Contents (Elt F)) shapeCasts_S1x128_S128 : (⟨S128, .f32⟩ : BufTy).Contents (Elt F)) := by
  have h := step_reshape aligned L 207 rfl (by decide +kernel) (by decide +kernel)
  exact h

theorem R_main_c_22 (L : Valuation τ sig (Elt F)) : R L main_c_22 = (constantI S_ 32 0#32 : (⟨S_, .i32⟩ : BufTy).Contents (Elt F)) := by
  have h := step_nullary aligned L 208 rfl (by decide +kernel)
  exact h

theorem R_main_v132 (L : Valuation τ sig (Elt F)) : R L main_v132 = (broadcastInDim S800000 ![] bcast_S_S800000 (R L main_c_22 : (⟨S_, .i32⟩ : BufTy).Contents (Elt F)) : (⟨S800000, .i32⟩ : BufTy).Contents (Elt F)) := by
  have h := step_unary aligned L 209 rfl (by decide +kernel) (by decide +kernel)
  exact h

theorem R_main_v133 (L : Valuation τ sig (Elt F)) : R L main_v133 = (cmpi .slt (R L main_v1 : (⟨S800000, .i32⟩ : BufTy).Contents (Elt F)) (R L main_v132 : (⟨S800000, .i32⟩ : BufTy).Contents (Elt F)) : (⟨S800000, .i1⟩ : BufTy).Contents (Elt F)) := by
  have h := step_binary aligned L 210 rfl (by decide +kernel) (by decide +kernel) (by decide +kernel)
  exact h

theorem R_main_c_23 (L : Valuation τ sig (Elt F)) : R L main_c_23 = (constantI S_ 32 50000#32 : (⟨S_, .i32⟩ : BufTy).Contents (Elt F)) := by
  have h := step_nullary aligned L 211 rfl (by decide +kernel)
  exact h

theorem R_main_v134 (L : Valuation τ sig (Elt F)) : R L main_v134 = (broadcastInDim S800000 ![] bcast_S_S800000 (R L main_c_23 : (⟨S_, .i32⟩ : BufTy).Contents (Elt F)) : (⟨S800000, .i32⟩ : BufTy).Contents (Elt F)) := by
  have h := step_unary aligned L 212 rfl (by decide +kernel) (by decide +kernel)
  exact h

theorem R_main_v135 (L : Valuation τ sig (Elt F)) : R L main_v135 = (addi (R L main_v1 : (⟨S800000, .i32⟩ : BufTy).Contents (Elt F)) (R L main_v134 : (⟨S800000, .i32⟩ : BufTy).Contents (Elt F)) : (⟨S800000, .i32⟩ : BufTy).Contents (Elt F)) := by
  have h := step_binary aligned L 213 rfl (by decide +kernel) (by decide +kernel) (by decide +kernel)
  exact h

theorem R_main_v136 (L : Valuation τ sig (Elt F)) : R L main_v136 = (select (R L main_v133 : (⟨S800000, .i1⟩ : BufTy).Contents (Elt F)) (R L main_v135 : (⟨S800000, .i32⟩ : BufTy).Contents (Elt F)) (R L main_v1 : (⟨S800000, .i32⟩ : BufTy).Contents (Elt F)) : (⟨S800000, .i32⟩ : BufTy).Contents (Elt F)) := by
  have h := step_ternary aligned L 214 rfl (by decide +kernel) (by decide +kernel) (by decide +kernel) (by decide +kernel)
  exact h

theorem R_main_v137 (L : Valuation τ sig (Elt F)) : R L main_v137 = (broadcastInDim S800000x1 ![0] bcast_S800000_S800000x1_0 (R L main_v136 : (⟨S800000, .i32⟩ : BufTy).Contents (Elt F)) : (⟨S800000x1, .i32⟩ : BufTy).Contents (Elt F)) := by
  have h := step_unary aligned L 215 rfl (by decide +kernel) (by decide +kernel)
  exact h

theorem R_main_v138 (L : Valuation τ sig (Elt F)) : R L main_v138 = (Host.gather gather_S50000x128_S800000x1_S800000x128_1_0_n_n_0_1_1128 (R L main_v121 : (⟨S50000x128, .f32⟩ : BufTy).Contents (Elt F)) (R L main_v137 : (⟨S800000x1, .i32⟩ : BufTy).Contents (Elt F)) : (⟨S800000x128, .f32⟩ : BufTy).Contents (Elt F)) := by
  have h := step_binary aligned L 216 rfl (by decide +kernel) (by decide +kernel) (by decide +kernel)
  exact h

theorem R_main_cst_24 (L : Valuation τ sig (Elt F)) : R L main_cst_24 = (constant S_ .f32 0x00000000#32 : (⟨S_, .f32⟩ : BufTy).Contents (Elt F)) := by
  have h := step_nullary aligned L 217 rfl (by decide +kernel)
  exact h

theorem R_main_v139 (L : Valuation τ sig (Elt F)) : R L main_v139 = (broadcastInDim S50000x128 ![] bcast_S_S50000x128 (R L main_cst_24 : (⟨S_, .f32⟩ : BufTy).Contents (Elt F)) : (⟨S50000x128, .f32⟩ : BufTy).Contents (Elt F)) := by
  have h := step_unary aligned L 218 rfl (by decide +kernel) (by decide +kernel)
  exact h

theorem R_main_v140 (L : Valuation τ sig (Elt F)) : R L main_v140 = (broadcastInDim S800000x1 ![0] bcast_S800000_S800000x1_0 (R L main_v3 : (⟨S800000, .i32⟩ : BufTy).Contents (Elt F)) : (⟨S800000x1, .i32⟩ : BufTy).Contents (Elt F)) := by
  have h := step_unary aligned L 219 rfl (by decide +kernel) (by decide +kernel)
  exact h

theorem R_main_v141 (L : Valuation τ sig (Elt F)) : R L main_v141 = (Host.scatterAdd scatter_S50000x128_S800000x1_S800000x128_1_0_0_1 (R L main_v139 : (⟨S50000x128, .f32⟩ : BufTy).Contents (Elt F)) (R L main_v140 : (⟨S800000x1, .i32⟩ : BufTy).Contents (Elt F)) (R L main_v138 : (⟨S800000x128, .f32⟩ : BufTy).Contents (Elt F)) : (⟨S50000x128, .f32⟩ : BufTy).Contents (Elt F)) := by
  have h := step_ternary aligned L 220 rfl (by decide +kernel) (by decide +kernel) (by decide +kernel) (by decide +kernel)
  exact h

theorem R_main_cst_25 (L : Valuation τ sig (Elt F)) : R L main_cst_25 = (constant S_ .f32 0x3F800000#32 : (⟨S_, .f32⟩ : BufTy).Contents (Elt F)) := by
  have h := step_nullary aligned L 221 rfl (by decide +kernel)
  exact h

theorem R_main_v142 (L : Valuation τ sig (Elt F)) : R L main_v142 = (broadcastInDim S800000x1 ![] bcast_S_S800000x1 (R L main_cst_25 : (⟨S_, .f32⟩ : BufTy).Contents (Elt F)) : (⟨S800000x1, .f32⟩ : BufTy).Contents (Elt F)) := by
  have h := step_unary aligned L 222 rfl (by decide +kernel) (by decide +kernel)
  exact h

theorem R_main_cst_26 (L : Valuation τ sig (Elt F)) : R L main_cst_26 = (constant S_ .f32 0x00000000#32 : (⟨S_, .f32⟩ : BufTy).Contents (Elt F)) := by
  have h := step_nullary aligned L 223 rfl (by decide +kernel)
  exact h

theorem R_main_v143 (L : Valuation τ sig (Elt F)) : R L main_v143 = (broadcastInDim S50000x1 ![] bcast_S_S50000x1 (R L main_cst_26 : (⟨S_, .f32⟩ : BufTy).Contents (Elt F)) : (⟨S50000x1, .f32⟩ : BufTy).Contents (Elt F)) := by
  have h := step_unary aligned L 224 rfl (by decide +kernel) (by decide +kernel)
  exact h

theorem R_main_v144 (L : Valuation τ sig (Elt F)) : R L main_v144 = (broadcastInDim S800000x1 ![0] bcast_S800000_S800000x1_0 (R L main_v3 : (⟨S800000, .i32⟩ : BufTy).Contents (Elt F)) : (⟨S800000x1, .i32⟩ : BufTy).Contents (Elt F)) := by
  have h := step_unary aligned L 225 rfl (by decide +kernel) (by decide +kernel)
  exact h

theorem R_main_v145 (L : Valuation τ sig (Elt F)) : R L main_v145 = (Host.scatterAdd scatter_S50000x1_S800000x1_S800000x1_1_0_0_1 (R L main_v143 : (⟨S50000x1, .f32⟩ : BufTy).Contents (Elt F)) (R L main_v144 : (⟨S800000x1, .i32⟩ : BufTy).Contents (Elt F)) (R L main_v142 : (⟨S800000x1, .f32⟩ : BufTy).Contents (Elt F)) : (⟨S50000x1, .f32⟩ : BufTy).Contents (Elt F)) := by
  have h := step_ternary aligned L 226 rfl (by decide +kernel) (by decide +kernel) (by decide +kernel) (by decide +kernel)
  exact h

theorem R_main_cst_27 (L : Valuation τ sig (Elt F)) : R L main_cst_27 = (constant S_ .f32 0x00000000#32 : (⟨S_, .f32⟩ : BufTy).Contents (Elt F)) := by
  have h := step_nullary aligned L 227 rfl (by decide +kernel)
  exact h

theorem R_main_v146 (L : Valuation τ sig (Elt F)) : R L main_v146 = (broadcastInDim S50000x1 ![] bcast_S_S50000x1 (R L main_cst_27 : (⟨S_, .f32⟩ : BufTy).Contents (Elt F)) : (⟨S50000x1, .f32⟩ : BufTy).Contents (Elt F)) := by
  have h := step_unary aligned L 228 rfl (by decide +kernel) (by decide +kernel)
  exact h

theorem R_main_v147 (L : Valuation τ sig (Elt F)) : R L main_v147 = (cmpf .ogt (R L main_v145 : (⟨S50000x1, .f32⟩ : BufTy).Contents (Elt F)) (R L main_v146 : (⟨S50000x1, .f32⟩ : BufTy).Contents (Elt F)) : (⟨S50000x1, .i1⟩ : BufTy).Contents (Elt F)) := by
  have h := step_binary aligned L 229 rfl (by decide +kernel) (by decide +kernel) (by decide +kernel)
  exact h

theorem R_main_cst_28 (L : Valuation τ sig (Elt F)) : R L main_cst_28 = (constant S_ .f32 0x3F800000#32 : (⟨S_, .f32⟩ : BufTy).Contents (Elt F)) := by
  have h := step_nullary aligned L 230 rfl (by decide +kernel)
  exact h

theorem R_main_v148 (L : Valuation τ sig (Elt F)) : R L main_v148 = (broadcastInDim S50000x1 ![] bcast_S_S50000x1 (R L main_cst_28 : (⟨S_, .f32⟩ : BufTy).Contents (Elt F)) : (⟨S50000x1, .f32⟩ : BufTy).Contents (Elt F)) := by
  have h := step_unary aligned L 231 rfl (by decide +kernel) (by decide +kernel)
  exact h

section Calls
attribute [local irreducible] StableHlo.after select broadcastInDim Host.reduceAdd Host.divf cmpf subf mulf maximumf sitofp constant shapeCast

set_option maxHeartbeats 1000000 in
theorem R_main_call4_cst (L : Valuation τ sig (Elt F)) : R L main_call4_cst = (constant S_ .f32 0x00000000#32 : (⟨S_, .f32⟩ : BufTy).Contents (Elt F)) := by
  have h := step_nullary aligned L 157 rfl (by decide +kernel)
  exact h

set_option maxHeartbeats 1000000 in
theorem R_main_call4_v0 (L : Valuation τ sig (Elt F)) : R L main_call4_v0 = (Host.reduceAdd (R L main_v101 : (⟨S50000x128, .f32⟩ : BufTy).Contents (Elt F)) (R L main_call4_cst : (⟨S_, .f32⟩ : BufTy).Contents (Elt F)) reducesTo_S50000x128_S128_d0 h_S_ : (⟨S128, .f32⟩ : BufTy).Contents (Elt F)) := by
  have h := step_binary aligned L 158 rfl (by decide +kernel) (by decide +kernel) (by decide +kernel)
  exact h

set_option maxHeartbeats 1000000 in
theorem R_main_call4_v1 (L : Valuation τ sig (Elt F)) : R L main_call4_v1 = (broadcastInDim S1x128 ![1] bcast_S128_S1x128_1 (R L main_call4_v0 : (⟨S128, .f32⟩ : BufTy).Contents (Elt F)) : (⟨S1x128, .f32⟩ : BufTy).Contents (Elt F)) := by
  have h := step_unary aligned L 159 rfl (by decide +kernel) (by decide +kernel)
  exact h

set_option maxHeartbeats 1000000 in
theorem R_main_call4_cst_0 (L : Valuation τ sig (Elt F)) : R L main_call4_cst_0 = (constant S_ .f32 0x47435000#32 : (⟨S_, .f32⟩ : BufTy).Contents (Elt F)) := by
  have h := step_nullary aligned L 160 rfl (by decide +kernel)
  exact h

set_option maxHeartbeats 1000000 in
theorem R_main_call4_v2 (L : Valuation τ sig (Elt F)) : R L main_call4_v2 = (broadcastInDim S1x128 ![] bcast_S_S1x128 (R L main_call4_cst_0 : (⟨S_, .f32⟩ : BufTy).Contents (Elt F)) : (⟨S1x128, .f32⟩ : BufTy).Contents (Elt F)) := by
  have h := step_unary aligned L 161 rfl (by decide +kernel) (by decide +kernel)
  exact h

set_option maxHeartbeats 1000000 in
theorem R_main_call4_v3 (L : Valuation τ sig (Elt F)) : R L main_call4_v3 = (Host.divf (R L main_call4_v1 : (⟨S1x128, .f32⟩ : BufTy).Contents (Elt F)) (R L main_call4_v2 : (⟨S1x128, .f32⟩ : BufTy).Contents (Elt F)) : (⟨S1x128, .f32⟩ : BufTy).Contents (Elt F)) := by
  have h := step_binary aligned L 162 rfl (by decide +kernel) (by decide +kernel) (by decide +kernel)
  exact h

set_option maxHeartbeats 1000000 in
theorem R_main_call4_v4 (L : Valuation τ sig (Elt F)) : R L main_call4_v4 = (broadcastInDim S50000x128 ![0, 1] bcast_S1x128_S50000x128_0_1 (R L main_call4_v3 : (⟨S1x128, .f32⟩ : BufTy).Contents (Elt F)) : (⟨S50000x128, .f32⟩ : BufTy).Contents (Elt F)) := by
  have h := step_unary aligned L 163 rfl (by decide +kernel) (by decide +kernel)
  exact h

set_option maxHeartbeats 1000000 in
theorem R_main_call4_v5 (L : Valuation τ sig (Elt F)) : R L main_call4_v5 = (subf (R L main_v101 : (⟨S50000x128, .f32⟩ : BufTy).Contents (Elt F)) (R L main_call4_v4 : (⟨S50000x128, .f32⟩ : BufTy).Contents (Elt F)) : (⟨S50000x128, .f32⟩ : BufTy).Contents (Elt F)) := by
  have h := step_binary aligned L 164 rfl (by decide +kernel) (by decide +kernel) (by decide +kernel)
  exact h

set_option maxHeartbeats 1000000 in
theorem R_main_call4_v6 (L : Valuation τ sig (Elt F)) : R L main_call4_v6 = (mulf (R L main_call4_v5 : (⟨S50000x128, .f32⟩ : BufTy).Contents (Elt F)) (R L main_call4_v5 : (⟨S50000x128, .f32⟩ : BufTy).Contents (Elt F)) : (⟨S50000x128, .f32⟩ : BufTy).Contents (Elt F)) := by
  have h := step_binary aligned L 165 rfl (by decide +kernel) (by decide +kernel) (by decide +kernel)
  exact h

set_option maxHeartbeats 1000000 in
theorem R_main_call4_v7 (L : Valuation τ sig (Elt F)) : R L main_call4_v7 = (sitofp .f32 (R L main_c_20 : (⟨S_, .i32⟩ : BufTy).Contents (Elt F)) : (⟨S_, .f32⟩ : BufTy).Contents (Elt F)) := by
  have h := step_unary aligned L 166 rfl (by decide +kernel) (by decide +kernel)
  exact h

set_option maxHeartbeats 1000000 in
theorem R_main_call4_cst_1 (L : Valuation τ sig (Elt F)) : R L main_call4_cst_1 = (constant S_ .f32 0x47435000#32 : (⟨S_, .f32⟩ : BufTy).Contents (Elt F)) := by
  have h := step_nullary aligned L 167 rfl (by decide +kernel)
  exact h

set_option maxHeartbeats 1000000 in
theorem R_main_call4_v8 (L : Valuation τ sig (Elt F)) : R L main_call4_v8 = (subf (R L main_call4_cst_1 : (⟨S_, .f32⟩ : BufTy).Contents (Elt F)) (R L main_call4_v7 : (⟨S_, .f32⟩ : BufTy).Contents (Elt F)) : (⟨S_, .f32⟩ : BufTy).Contents (Elt F)) := by
  have h := step_binary aligned L 168 rfl (by decide +kernel) (by decide +kernel) (by decide +kernel)
  exact h

set_option maxHeartbeats 1000000 in
theorem R_main_call4_cst_2 (L : Valuation τ sig (Elt F)) : R L main_call4_cst_2 = (constant S_ .f32 0x00000000#32 : (⟨S_, .f32⟩ : BufTy).Contents (Elt F)) := by
  have h := step_nullary aligned L 169 rfl (by decide +kernel)
  exact h

set_option maxHeartbeats 1000000 in
theorem R_main_call4_v9 (L : Valuation τ sig (Elt F)) : R L main_call4_v9 = (Host.reduceAdd (R L main_call4_v6 : (⟨S50000x128, .f32⟩ : BufTy).Contents (Elt F)) (R L main_call4_cst_2 : (⟨S_, .f32⟩ : BufTy).Contents (Elt F)) reducesTo_S50000x128_S128_d0 h_S_ : (⟨S128, .f32⟩ : BufTy).Contents (Elt F)) := by
  have h := step_binary aligned L 170 rfl (by decide +kernel) (by decide +kernel) (by decide +kernel)
  exact h

set_option maxHeartbeats 1000000 in
theorem R_main_call4_v10 (L : Valuation τ sig (Elt F)) : R L main_call4_v10 = (broadcastInDim S128 ![] bcast_S_S128 (R L main_call4_v8 : (⟨S_, .f32⟩ : BufTy).Contents (Elt F)) : (⟨S128, .f32⟩ : BufTy).Contents (Elt F)) := by
  have h := step_unary aligned L 171 rfl (by decide +kernel) (by decide +kernel)
  exact h

set_option maxHeartbeats 1000000 in
theorem R_main_call4_v11 (L : Valuation τ sig (Elt F)) : R L main_call4_v11 = (Host.divf (R L main_call4_v9 : (⟨S128, .f32⟩ : BufTy).Contents (Elt F)) (R L main_call4_v10 : (⟨S128, .f32⟩ : BufTy).Contents (Elt F)) : (⟨S128, .f32⟩ : BufTy).Contents (Elt F)) := by
  have h := step_binary aligned L 172 rfl (by decide +kernel) (by decide +kernel) (by decide +kernel)
  exact h

set_option maxHeartbeats 1000000 in
theorem R_main_call4_cst_3 (L : Valuation τ sig (Elt F)) : R L main_call4_cst_3 = (constant S_ .f32 0x00000000#32 : (⟨S_, .f32⟩ : BufTy).Contents (Elt F)) := by
  have h := step_nullary aligned L 173 rfl (by decide +kernel)
  exact h

set_option maxHeartbeats 1000000 in
theorem R_main_call4_v12 (L : Valuation τ sig (Elt F)) : R L main_call4_v12 = (cmpf .ogt (R L main_call4_v8 : (⟨S_, .f32⟩ : BufTy).Contents (Elt F)) (R L main_call4_cst_3 : (⟨S_, .f32⟩ : BufTy).Contents (Elt F)) : (⟨S_, .i1⟩ : BufTy).Contents (Elt F)) := by
  have h := step_binary aligned L 174 rfl (by decide +kernel) (by decide +kernel) (by decide +kernel)
  exact h

set_option maxHeartbeats 1000000 in
theorem R_main_call4_cst_4 (L : Valuation τ sig (Elt F)) : R L main_call4_cst_4 = (constant S_ .f32 0x7FC00000#32 : (⟨S_, .f32⟩ : BufTy).Contents (Elt F)) := by
  have h := step_nullary aligned L 175 rfl (by decide +kernel)
  exact h

set_option maxHeartbeats 1000000 in
theorem R_main_call4_call0_v0 (L : Valuation τ sig (Elt F)) : R L main_call4_call0_v0 = ((R L main_call4_cst_4 : (⟨S_, .f32⟩ : BufTy).Contents (Elt F)) : (⟨S_, .f32⟩ : BufTy).Contents (Elt F)) := by
  have h := step_unary aligned L 176 rfl (by decide +kernel) (by decide +kernel)
  exact h

set_option maxHeartbeats 1000000 in
theorem R_main_call4_call0_v1 (L : Valuation τ sig (Elt F)) : R L main_call4_call0_v1 = (broadcastInDim S128 ![] bcast_S_S128 (R L main_call4_call0_v0 : (⟨S_, .f32⟩ : BufTy).Contents (Elt F)) : (⟨S128, .f32⟩ : BufTy).Contents (Elt F)) := by
  have h := step_unary aligned L 177 rfl (by decide +kernel) (by decide +kernel)
  exact h

set_option maxHeartbeats 1000000 in
theorem R_main_v105 (L : Valuation τ sig (Elt F)) : R L main_v105 = (select (broadcastInDim S128 ![] bcast_S_S128 (R L main_call4_v12 : (⟨S_, .i1⟩ : BufTy).Contents (Elt F))) (R L main_call4_v11 : (⟨S128, .f32⟩ : BufTy).Contents (Elt F)) (R L main_call4_call0_v1 : (⟨S128, .f32⟩ : BufTy).Contents (Elt F)) : (⟨S128, .f32⟩ : BufTy).Contents (Elt F)) := by
  have h := step_ternary aligned L 178 rfl (by decide +kernel) (by decide +kernel) (by decide +kernel) (by decide +kernel)
  exact h

set_option maxHeartbeats 1000000 in
theorem R_main_call5_cst (L : Valuation τ sig (Elt F)) : R L main_call5_cst = (constant S_ .f32 0x00000000#32 : (⟨S_, .f32⟩ : BufTy).Contents (Elt F)) := by
  have h := step_nullary aligned L 195 rfl (by decide +kernel)
  exact h

set_option maxHeartbeats 1000000 in
theorem R_main_call5_v0 (L : Valuation τ sig (Elt F)) : R L main_call5_v0 = (broadcastInDim S50000x128 ![] bcast_S_S50000x128 (R L main_call5_cst : (⟨S_, .f32⟩ : BufTy).Contents (Elt F)) : (⟨S50000x128, .f32⟩ : BufTy).Contents (Elt F)) := by
  have h := step_unary aligned L 196 rfl (by decide +kernel) (by decide +kernel)
  exact h

set_option maxHeartbeats 1000000 in
theorem R_main_v121 (L : Valuation τ sig (Elt F)) : R L main_v121 = (maximumf (R L main_v120 : (⟨S50000x128, .f32⟩ : BufTy).Contents (Elt F)) (R L main_call5_v0 : (⟨S50000x128, .f32⟩ : BufTy).Contents (Elt F)) : (⟨S50000x128, .f32⟩ : BufTy).Contents (Elt F)) := by
  have h := step_binary aligned L 197 rfl (by decide +kernel) (by decide +kernel) (by decide +kernel)
  exact h

end Calls

end Cert.ReferenceIdeal.RefRun

end
-- ==== Proof.RefSteps3.lean ====
/- The reference's @main one operation at a time, window 3 (operations 233 … 339 of 363).

   For each operation, the equation its result buffer satisfies after the whole of @main: the operation's function of
   what its operand buffers hold then (no later operation writes an operand or the result: decided on the list of
   written buffers from the operation's position on). An operation of a called function is stated at the tensor
   types the function's values carry; the operation itself moves contents between those types and the buffers' along
   equations that are identities at these buffers, and the heavy functions are kept folded while that is checked. -/
import proofs.«180021_j37692632990117_2_alg».proof.Proof.RefStepsBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefRunLib

variable {F : FTy → Type} [FloatOps F]

theorem R_main_v149 (L : Valuation τ sig (Elt F)) : R L main_v149 = (maximumf (R L main_v145 : (⟨S50000x1, .f32⟩ : BufTy).Contents (Elt F)) (R L main_v148 : (⟨S50000x1, .f32⟩ : BufTy).Contents (Elt F)) : (⟨S50000x1, .f32⟩ : BufTy).Contents (Elt F)) := by
  have h := step_binary aligned L 232 rfl (by decide +kernel) (by decide +kernel) (by decide +kernel)
  exact h

theorem R_main_v150 (L : Valuation τ sig (Elt F)) : R L main_v150 = (broadcastInDim S50000x128 ![0, 1] bcast_S50000x1_S50000x128_0_1 (R L main_v149 : (⟨S50000x1, .f32⟩ : BufTy).Contents (Elt F)) : (⟨S50000x128, .f32⟩ : BufTy).Contents (Elt F)) := by
  have h := step_unary aligned L 233 rfl (by decide +kernel) (by decide +kernel)
  exact h

theorem R_main_v151 (L : Valuation τ sig (Elt F)) : R L main_v151 = (Host.divf (R L main_v141 : (⟨S50000x128, .f32⟩ : BufTy).Contents (Elt F)) (R L main_v150 : (⟨S50000x128, .f32⟩ : BufTy).Contents (Elt F)) : (⟨S50000x128, .f32⟩ : BufTy).Contents (Elt F)) := by
  have h := step_binary aligned L 234 rfl (by decide +kernel) (by decide +kernel) (by decide +kernel)
  exact h

theorem R_main_cst_29 (L : Valuation τ sig (Elt F)) : R L main_cst_29 = (constant S_ .f32 0x00000000#32 : (⟨S_, .f32⟩ : BufTy).Contents (Elt F)) := by
  have h := step_nullary aligned L 235 rfl (by decide +kernel)
  exact h

theorem R_main_v153 (L : Valuation τ sig (Elt F)) : R L main_v153 = (transpose S128x128 [1, 0] (R L main_v123 : (⟨S128x128, .f32⟩ : BufTy).Contents (Elt F)) transposes_S128x128_S128x128_1_0 : (⟨S128x128, .f32⟩ : BufTy).Contents (Elt F)) := by
  have h := step_unary aligned L 240 rfl (by decide +kernel) (by decide +kernel)
  exact h

theorem R_main_v154 (L : Valuation τ sig (Elt F)) : R L main_v154 = (Host.dotGeneral dot_S50000x128_S128x128_S50000x128_1_0_0_1_n_n none (R L main_v152 : (⟨S50000x128, .f32⟩ : BufTy).Contents (Elt F)) (R L main_v153 : (⟨S128x128, .f32⟩ : BufTy).Contents (Elt F)) : (⟨S50000x128, .f32⟩ : BufTy).Contents (Elt F)) := by
  have h := step_binary aligned L 241 rfl (by decide +kernel) (by decide +kernel) (by decide +kernel)
  exact h

theorem R_main_v155 (L : Valuation τ sig (Elt F)) : R L main_v155 = (broadcastInDim S1x128 ![1] bcast_S128_S1x128_1 (R L main_v125 : (⟨S128, .f32⟩ : BufTy).Contents (Elt F)) : (⟨S1x128, .f32⟩ : BufTy).Contents (Elt F)) := by
  have h := step_unary aligned L 242 rfl (by decide +kernel) (by decide +kernel)
  exact h

theorem R_main_v156 (L : Valuation τ sig (Elt F)) : R L main_v156 = (broadcastInDim S50000x128 ![0, 1] bcast_S1x128_S50000x128_0_1 (R L main_v155 : (⟨S1x128, .f32⟩ : BufTy).Contents (Elt F)) : (⟨S50000x128, .f32⟩ : BufTy).Contents (Elt F)) := by
  have h := step_unary aligned L 243 rfl (by decide +kernel) (by decide +kernel)
  exact h

theorem R_main_v157 (L : Valuation τ sig (Elt F)) : R L main_v157 = (addf (R L main_v154 : (⟨S50000x128, .f32⟩ : BufTy).Contents (Elt F)) (R L main_v156 : (⟨S50000x128, .f32⟩ : BufTy).Contents (Elt F)) : (⟨S50000x128, .f32⟩ : BufTy).Contents (Elt F)) := by
  have h := step_binary aligned L 244 rfl (by decide +kernel) (by decide +kernel) (by decide +kernel)
  exact h

theorem R_main_v158 (L : Valuation τ sig (Elt F)) : R L main_v158 = (transpose S128x128 [1, 0] (R L main_v127 : (⟨S128x128, .f32⟩ : BufTy).Contents (Elt F)) transposes_S128x128_S128x128_1_0 : (⟨S128x128, .f32⟩ : BufTy).Contents (Elt F)) := by
  have h := step_unary aligned L 245 rfl (by decide +kernel) (by decide +kernel)
  exact h

theorem R_main_v159 (L : Valuation τ sig (Elt F)) : R L main_v159 = (Host.dotGeneral dot_S50000x128_S128x128_S50000x128_1_0_0_1_n_n none (R L main_v121 : (⟨S50000x128, .f32⟩ : BufTy).Contents (Elt F)) (R L main_v158 : (⟨S128x128, .f32⟩ : BufTy).Contents (Elt F)) : (⟨S50000x128, .f32⟩ : BufTy).Contents (Elt F)) := by
  have h := step_binary aligned L 246 rfl (by decide +kernel) (by decide +kernel) (by decide +kernel)
  exact h

theorem R_main_v160 (L : Valuation τ sig (Elt F)) : R L main_v160 = (addf (R L main_v157 : (⟨S50000x128, .f32⟩ : BufTy).Contents (Elt F)) (R L main_v159 : (⟨S50000x128, .f32⟩ : BufTy).Contents (Elt F)) : (⟨S50000x128, .f32⟩ : BufTy).Contents (Elt F)) := by
  have h := step_binary aligned L 247 rfl (by decide +kernel) (by decide +kernel) (by decide +kernel)
  exact h

theorem R_main_cst_30 (L : Valuation τ sig (Elt F)) : R L main_cst_30 = (constant S_ .f32 0x00000000#32 : (⟨S_, .f32⟩ : BufTy).Contents (Elt F)) := by
  have h := step_nullary aligned L 248 rfl (by decide +kernel)
  exact h

theorem R_main_v161 (L : Valuation τ sig (Elt F)) : R L main_v161 = (Host.reduceAdd (R L main_v160 : (⟨S50000x128, .f32⟩ : BufTy).Contents (Elt F)) (R L main_cst_30 : (⟨S_, .f32⟩ : BufTy).Contents (Elt F)) reducesTo_S50000x128_S128_d0 h_S_ : (⟨S128, .f32⟩ : BufTy).Contents (Elt F)) := by
  have h := step_binary aligned L 249 rfl (by decide +kernel) (by decide +kernel) (by decide +kernel)
  exact h

theorem R_main_cst_31 (L : Valuation τ sig (Elt F)) : R L main_cst_31 = (constant S_ .f32 0x47435000#32 : (⟨S_, .f32⟩ : BufTy).Contents (Elt F)) := by
  have h := step_nullary aligned L 250 rfl (by decide +kernel)
  exact h

theorem R_main_v162 (L : Valuation τ sig (Elt F)) : R L main_v162 = (broadcastInDim S128 ![] bcast_S_S128 (R L main_cst_31 : (⟨S_, .f32⟩ : BufTy).Contents (Elt F)) : (⟨S128, .f32⟩ : BufTy).Contents (Elt F)) := by
  have h := step_unary aligned L 251 rfl (by decide +kernel) (by decide +kernel)
  exact h

theorem R_main_v163 (L : Valuation τ sig (Elt F)) : R L main_v163 = (Host.divf (R L main_v161 : (⟨S128, .f32⟩ : BufTy).Contents (Elt F)) (R L main_v162 : (⟨S128, .f32⟩ : BufTy).Contents (Elt F)) : (⟨S128, .f32⟩ : BufTy).Contents (Elt F)) := by
  have h := step_binary aligned L 252 rfl (by decide +kernel) (by decide +kernel) (by decide +kernel)
  exact h

theorem R_main_c_32 (L : Valuation τ sig (Elt F)) : R L main_c_32 = (constantI S_ 32 0#32 : (⟨S_, .i32⟩ : BufTy).Contents (Elt F)) := by
  have h := step_nullary aligned L 253 rfl (by decide +kernel)
  exact h

theorem R_main_v165 (L : Valuation τ sig (Elt F)) : R L main_v165 = (broadcastInDim S1x128 ![1] bcast_S128_S1x128_1 (R L main_v163 : (⟨S128, .f32⟩ : BufTy).Contents (Elt F)) : (⟨S1x128, .f32⟩ : BufTy).Contents (Elt F)) := by
  have h := step_unary aligned L 276 rfl (by decide +kernel) (by decide +kernel)
  exact h

theorem R_main_v166 (L : Valuation τ sig (Elt F)) : R L main_v166 = (broadcastInDim S50000x128 ![0, 1] bcast_S1x128_S50000x128_0_1 (R L main_v165 : (⟨S1x128, .f32⟩ : BufTy).Contents (Elt F)) : (⟨S50000x128, .f32⟩ : BufTy).Contents (Elt F)) := by
  have h := step_unary aligned L 277 rfl (by decide +kernel) (by decide +kernel)
  exact h

theorem R_main_v167 (L : Valuation τ sig (Elt F)) : R L main_v167 = (subf (R L main_v160 : (⟨S50000x128, .f32⟩ : BufTy).Contents (Elt F)) (R L main_v166 : (⟨S50000x128, .f32⟩ : BufTy).Contents (Elt F)) : (⟨S50000x128, .f32⟩ : BufTy).Contents (Elt F)) := by
  have h := step_binary aligned L 278 rfl (by decide +kernel) (by decide +kernel) (by decide +kernel)
  exact h

theorem R_main_cst_33 (L : Valuation τ sig (Elt F)) : R L main_cst_33 = (constant S_ .f32 0x3727C5AC#32 : (⟨S_, .f32⟩ : BufTy).Contents (Elt F)) := by
  have h := step_nullary aligned L 279 rfl (by decide +kernel)
  exact h

theorem R_main_v168 (L : Valuation τ sig (Elt F)) : R L main_v168 = (broadcastInDim S128 ![] bcast_S_S128 (R L main_cst_33 : (⟨S_, .f32⟩ : BufTy).Contents (Elt F)) : (⟨S128, .f32⟩ : BufTy).Contents (Elt F)) := by
  have h := step_unary aligned L 280 rfl (by decide +kernel) (by decide +kernel)
  exact h

theorem R_main_v169 (L : Valuation τ sig (Elt F)) : R L main_v169 = (addf (R L main_v164 : (⟨S128, .f32⟩ : BufTy).Contents (Elt F)) (R L main_v168 : (⟨S128, .f32⟩ : BufTy).Contents (Elt F)) : (⟨S128, .f32⟩ : BufTy).Contents (Elt F)) := by
  have h := step_binary aligned L 281 rfl (by decide +kernel) (by decide +kernel) (by decide +kernel)
  exact h

theorem R_main_v170 (L : Valuation τ sig (Elt F)) : R L main_v170 = (Host.rsqrt (R L main_v169 : (⟨S128, .f32⟩ : BufTy).Contents (Elt F)) : (⟨S128, .f32⟩ : BufTy).Contents (Elt F)) := by
  have h := step_unary aligned L 282 rfl (by decide +kernel) (by decide +kernel)
  exact h

theorem R_main_v171 (L : Valuation τ sig (Elt F)) : R L main_v171 = (broadcastInDim S1x128 ![1] bcast_S128_S1x128_1 (R L main_v170 : (⟨S128, .f32⟩ : BufTy).Contents (Elt F)) : (⟨S1x128, .f32⟩ : BufTy).Contents (Elt F)) := by
  have h := step_unary aligned L 283 rfl (by decide +kernel) (by decide +kernel)
  exact h

theorem R_main_v172 (L : Valuation τ sig (Elt F)) : R L main_v172 = (broadcastInDim S50000x128 ![0, 1] bcast_S1x128_S50000x128_0_1 (R L main_v171 : (⟨S1x128, .f32⟩ : BufTy).Contents (Elt F)) : (⟨S50000x128, .f32⟩ : BufTy).Contents (Elt F)) := by
  have h := step_unary aligned L 284 rfl (by decide +kernel) (by decide +kernel)
  exact h

theorem R_main_v173 (L : Valuation τ sig (Elt F)) : R L main_v173 = (mulf (R L main_v167 : (⟨S50000x128, .f32⟩ : BufTy).Contents (Elt F)) (R L main_v172 : (⟨S50000x128, .f32⟩ : BufTy).Contents (Elt F)) : (⟨S50000x128, .f32⟩ : BufTy).Contents (Elt F)) := by
  have h := step_binary aligned L 285 rfl (by decide +kernel) (by decide +kernel) (by decide +kernel)
  exact h

theorem R_main_v174 (L : Valuation τ sig (Elt F)) : R L main_v174 = (broadcastInDim S1x128 ![1] bcast_S128_S1x128_1 (R L main_v129 : (⟨S128, .f32⟩ : BufTy).Contents (Elt F)) : (⟨S1x128, .f32⟩ : BufTy).Contents (Elt F)) := by
  have h := step_unary aligned L 286 rfl (by decide +kernel) (by decide +kernel)
  exact h

theorem R_main_v175 (L : Valuation τ sig (Elt F)) : R L main_v175 = (broadcastInDim S50000x128 ![0, 1] bcast_S1x128_S50000x128_0_1 (R L main_v174 : (⟨S1x128, .f32⟩ : BufTy).Contents (Elt F)) : (⟨S50000x128, .f32⟩ : BufTy).Contents (Elt F)) := by
  have h := step_unary aligned L 287 rfl (by decide +kernel) (by decide +kernel)
  exact h

theorem R_main_v176 (L : Valuation τ sig (Elt F)) : R L main_v176 = (mulf (R L main_v173 : (⟨S50000x128, .f32⟩ : BufTy).Contents (Elt F)) (R L main_v175 : (⟨S50000x128, .f32⟩ : BufTy).Contents (Elt F)) : (⟨S50000x128, .f32⟩ : BufTy).Contents (Elt F)) := by
  have h := step_binary aligned L 288 rfl (by decide +kernel) (by decide +kernel) (by decide +kernel)
  exact h

theorem R_main_v177 (L : Valuation τ sig (Elt F)) : R L main_v177 = (broadcastInDim S1x128 ![1] bcast_S128_S1x128_1 (R L main_v131 : (⟨S128, .f32⟩ : BufTy).Contents (Elt F)) : (⟨S1x128, .f32⟩ : BufTy).Contents (Elt F)) := by
  have h := step_unary aligned L 289 rfl (by decide +kernel) (by decide +kernel)
  exact h

theorem R_main_v178 (L : Valuation τ sig (Elt F)) : R L main_v178 = (broadcastInDim S50000x128 ![0, 1] bcast_S1x128_S50000x128_0_1 (R L main_v177 : (⟨S1x128, .f32⟩ : BufTy).Contents (Elt F)) : (⟨S50000x128, .f32⟩ : BufTy).Contents (Elt F)) := by
  have h := step_unary aligned L 290 rfl (by decide +kernel) (by decide +kernel)
  exact h

theorem R_main_v179 (L : Valuation τ sig (Elt F)) : R L main_v179 = (addf (R L main_v176 : (⟨S50000x128, .f32⟩ : BufTy).Contents (Elt F)) (R L main_v178 : (⟨S50000x128, .f32⟩ : BufTy).Contents (Elt F)) : (⟨S50000x128, .f32⟩ : BufTy).Contents (Elt F)) := by
  have h := step_binary aligned L 291 rfl (by decide +kernel) (by decide +kernel) (by decide +kernel)
  exact h

theorem R_main_c_34 (L : Valuation τ sig (Elt F)) : R L main_c_34 = (constantI S_ 32 0#32 : (⟨S_, .i32⟩ : BufTy).Contents (Elt F)) := by
  have h := step_nullary aligned L 295 rfl (by decide +kernel)
  exact h

theorem R_main_v181 (L : Valuation τ sig (Elt F)) : R L main_v181 = (broadcastInDim S256 ![] bcast_S_S256 (R L main_c_34 : (⟨S_, .i32⟩ : BufTy).Contents (Elt F)) : (⟨S256, .i32⟩ : BufTy).Contents (Elt F)) := by
  have h := step_unary aligned L 296 rfl (by decide +kernel) (by decide +kernel)
  exact h

theorem R_main_v182 (L : Valuation τ sig (Elt F)) : R L main_v182 = (cmpi .slt (R L main_arg3 : (⟨S256, .i32⟩ : BufTy).Contents (Elt F)) (R L main_v181 : (⟨S256, .i32⟩ : BufTy).Contents (Elt F)) : (⟨S256, .i1⟩ : BufTy).Contents (Elt F)) := by
  have h := step_binary aligned L 297 rfl (by decide +kernel) (by decide +kernel) (by decide +kernel)
  exact h

theorem R_main_c_35 (L : Valuation τ sig (Elt F)) : R L main_c_35 = (constantI S_ 32 50000#32 : (⟨S_, .i32⟩ : BufTy).Contents (Elt F)) := by
  have h := step_nullary aligned L 298 rfl (by decide +kernel)
  exact h

theorem R_main_v183 (L : Valuation τ sig (Elt F)) : R L main_v183 = (broadcastInDim S256 ![] bcast_S_S256 (R L main_c_35 : (⟨S_, .i32⟩ : BufTy).Contents (Elt F)) : (⟨S256, .i32⟩ : BufTy).Contents (Elt F)) := by
  have h := step_unary aligned L 299 rfl (by decide +kernel) (by decide +kernel)
  exact h

theorem R_main_v184 (L : Valuation τ sig (Elt F)) : R L main_v184 = (addi (R L main_arg3 : (⟨S256, .i32⟩ : BufTy).Contents (Elt F)) (R L main_v183 : (⟨S256, .i32⟩ : BufTy).Contents (Elt F)) : (⟨S256, .i32⟩ : BufTy).Contents (Elt F)) := by
  have h := step_binary aligned L 300 rfl (by decide +kernel) (by decide +kernel) (by decide +kernel)
  exact h

theorem R_main_v185 (L : Valuation τ sig (Elt F)) : R L main_v185 = (select (R L main_v182 : (⟨S256, .i1⟩ : BufTy).Contents (Elt F)) (R L main_v184 : (⟨S256, .i32⟩ : BufTy).Contents (Elt F)) (R L main_arg3 : (⟨S256, .i32⟩ : BufTy).Contents (Elt F)) : (⟨S256, .i32⟩ : BufTy).Contents (Elt F)) := by
  have h := step_ternary aligned L 301 rfl (by decide +kernel) (by decide +kernel) (by decide +kernel) (by decide +kernel)
  exact h

theorem R_main_v186 (L : Valuation τ sig (Elt F)) : R L main_v186 = (broadcastInDim S256x1 ![0] bcast_S256_S256x1_0 (R L main_v185 : (⟨S256, .i32⟩ : BufTy).Contents (Elt F)) : (⟨S256x1, .i32⟩ : BufTy).Contents (Elt F)) := by
  have h := step_unary aligned L 302 rfl (by decide +kernel) (by decide +kernel)
  exact h

theorem R_main_v187 (L : Valuation τ sig (Elt F)) : R L main_v187 = (Host.gather gather_S50000x128_S256x1_S256x128_1_0_n_n_0_1_1128 (R L main_v180 : (⟨S50000x128, .f32⟩ : BufTy).Contents (Elt F)) (R L main_v186 : (⟨S256x1, .i32⟩ : BufTy).Contents (Elt F)) : (⟨S256x128, .f32⟩ : BufTy).Contents (Elt F)) := by
  have h := step_binary aligned L 303 rfl (by decide +kernel) (by decide +kernel) (by decide +kernel)
  exact h

theorem R_main_v188 (L : Valuation τ sig (Elt F)) : R L main_v188 = (transpose S128x128 [1, 0] (R L main_arg9 : (⟨S128x128, .f32⟩ : BufTy).Contents (Elt F)) transposes_S128x128_S128x128_1_0 : (⟨S128x128, .f32⟩ : BufTy).Contents (Elt F)) := by
  have h := step_unary aligned L 304 rfl (by decide +kernel) (by decide +kernel)
  exact h

theorem R_main_v189 (L : Valuation τ sig (Elt F)) : R L main_v189 = (Host.dotGeneral dot_S50000x128_S128x128_S50000x128_1_0_0_1_n_n none (R L main_v180 : (⟨S50000x128, .f32⟩ : BufTy).Contents (Elt F)) (R L main_v188 : (⟨S128x128, .f32⟩ : BufTy).Contents (Elt F)) : (⟨S50000x128, .f32⟩ : BufTy).Contents (Elt F)) := by
  have h := step_binary aligned L 305 rfl (by decide +kernel) (by decide +kernel) (by decide +kernel)
  exact h

theorem R_main_v190 (L : Valuation τ sig (Elt F)) : R L main_v190 = (broadcastInDim S1x128 ![1] bcast_S128_S1x128_1 (R L main_arg10 : (⟨S128, .f32⟩ : BufTy).Contents (Elt F)) : (⟨S1x128, .f32⟩ : BufTy).Contents (Elt F)) := by
  have h := step_unary aligned L 306 rfl (by decide +kernel) (by decide +kernel)
  exact h

theorem R_main_v191 (L : Valuation τ sig (Elt F)) : R L main_v191 = (broadcastInDim S50000x128 ![0, 1] bcast_S1x128_S50000x128_0_1 (R L main_v190 : (⟨S1x128, .f32⟩ : BufTy).Contents (Elt F)) : (⟨S50000x128, .f32⟩ : BufTy).Contents (Elt F)) := by
  have h := step_unary aligned L 307 rfl (by decide +kernel) (by decide +kernel)
  exact h

theorem R_main_v192 (L : Valuation τ sig (Elt F)) : R L main_v192 = (addf (R L main_v189 : (⟨S50000x128, .f32⟩ : BufTy).Contents (Elt F)) (R L main_v191 : (⟨S50000x128, .f32⟩ : BufTy).Contents (Elt F)) : (⟨S50000x128, .f32⟩ : BufTy).Contents (Elt F)) := by
  have h := step_binary aligned L 308 rfl (by decide +kernel) (by decide +kernel) (by decide +kernel)
  exact h

theorem R_main_cst_36 (L : Valuation τ sig (Elt F)) : R L main_cst_36 = (constant S_ .f32 0x00000000#32 : (⟨S_, .f32⟩ : BufTy).Contents (Elt F)) := by
  have h := step_nullary aligned L 309 rfl (by decide +kernel)
  exact h

theorem R_main_v193 (L : Valuation τ sig (Elt F)) : R L main_v193 = (Host.reduceAdd (R L main_v192 : (⟨S50000x128, .f32⟩ : BufTy).Contents (Elt F)) (R L main_cst_36 : (⟨S_, .f32⟩ : BufTy).Contents (Elt F)) reducesTo_S50000x128_S128_d0 h_S_ : (⟨S128, .f32⟩ : BufTy).Contents (Elt F)) := by
  have h := step_binary aligned L 310 rfl (by decide +kernel) (by decide +kernel) (by decide +kernel)
  exact h

theorem R_main_cst_37 (L : Valuation τ sig (Elt F)) : R L main_cst_37 = (constant S_ .f32 0x47435000#32 : (⟨S_, .f32⟩ : BufTy).Contents (Elt F)) := by
  have h := step_nullary aligned L 311 rfl (by decide +kernel)
  exact h

theorem R_main_v194 (L : Valuation τ sig (Elt F)) : R L main_v194 = (broadcastInDim S128 ![] bcast_S_S128 (R L main_cst_37 : (⟨S_, .f32⟩ : BufTy).Contents (Elt F)) : (⟨S128, .f32⟩ : BufTy).Contents (Elt F)) := by
  have h := step_unary aligned L 312 rfl (by decide +kernel) (by decide +kernel)
  exact h

theorem R_main_v195 (L : Valuation τ sig (Elt F)) : R L main_v195 = (Host.divf (R L main_v193 : (⟨S128, .f32⟩ : BufTy).Contents (Elt F)) (R L main_v194 : (⟨S128, .f32⟩ : BufTy).Contents (Elt F)) : (⟨S128, .f32⟩ : BufTy).Contents (Elt F)) := by
  have h := step_binary aligned L 313 rfl (by decide +kernel) (by decide +kernel) (by decide +kernel)
  exact h

theorem R_main_c_38 (L : Valuation τ sig (Elt F)) : R L main_c_38 = (constantI S_ 32 0#32 : (⟨S_, .i32⟩ : BufTy).Contents (Elt F)) := by
  have h := step_nullary aligned L 314 rfl (by decide +kernel)
  exact h

theorem R_main_v197 (L : Valuation τ sig (Elt F)) : R L main_v197 = (broadcastInDim S1x128 ![1] bcast_S128_S1x128_1 (R L main_v195 : (⟨S128, .f32⟩ : BufTy).Contents (Elt F)) : (⟨S1x128, .f32⟩ : BufTy).Contents (Elt F)) := by
  have h := step_unary aligned L 337 rfl (by decide +kernel) (by decide +kernel)
  exact h

theorem R_main_v198 (L : Valuation τ sig (Elt F)) : R L main_v198 = (broadcastInDim S50000x128 ![0, 1] bcast_S1x128_S50000x128_0_1 (R L main_v197 : (⟨S1x128, .f32⟩ : BufTy).Contents (Elt F)) : (⟨S50000x128, .f32⟩ : BufTy).Contents (Elt F)) := by
  have h := step_unary aligned L 338 rfl (by decide +kernel) (by decide +kernel)
  exact h

section Calls
attribute [local irreducible] StableHlo.after select broadcastInDim Host.reduceAdd Host.divf cmpf subf mulf maximumf sitofp constant shapeCast

set_option maxHeartbeats 1000000 in
theorem R_main_call6_v0 (L : Valuation τ sig (Elt F)) : R L main_call6_v0 = ((R L main_cst_29 : (⟨S_, .f32⟩ : BufTy).Contents (Elt F)) : (⟨S_, .f32⟩ : BufTy).Contents (Elt F)) := by
  have h := step_unary aligned L 236 rfl (by decide +kernel) (by decide +kernel)
  exact h

set_option maxHeartbeats 1000000 in
theorem R_main_call6_v1 (L : Valuation τ sig (Elt F)) : R L main_call6_v1 = (broadcastInDim S50000x128 ![0, 1] bcast_S50000x1_S50000x128_0_1 (R L main_v147 : (⟨S50000x1, .i1⟩ : BufTy).Contents (Elt F)) : (⟨S50000x128, .i1⟩ : BufTy).Contents (Elt F)) := by
  have h := step_unary aligned L 237 rfl (by decide +kernel) (by decide +kernel)
  exact h

set_option maxHeartbeats 1000000 in
theorem R_main_call6_v2 (L : Valuation τ sig (Elt F)) : R L main_call6_v2 = (broadcastInDim S50000x128 ![] bcast_S_S50000x128 (R L main_call6_v0 : (⟨S_, .f32⟩ : BufTy).Contents (Elt F)) : (⟨S50000x128, .f32⟩ : BufTy).Contents (Elt F)) := by
  have h := step_unary aligned L 238 rfl (by decide +kernel) (by decide +kernel)
  exact h

set_option maxHeartbeats 1000000 in
theorem R_main_v152 (L : Valuation τ sig (Elt F)) : R L main_v152 = (select (R L main_call6_v1 : (⟨S50000x128, .i1⟩ : BufTy).Contents (Elt F)) (R L main_v151 : (⟨S50000x128, .f32⟩ : BufTy).Contents (Elt F)) (R L main_call6_v2 : (⟨S50000x128, .f32⟩ : BufTy).Contents (Elt F)) : (⟨S50000x128, .f32⟩ : BufTy).Contents (Elt F)) := by
  have h := step_ternary aligned L 239 rfl (by decide +kernel) (by decide +kernel) (by decide +kernel) (by decide +kernel)
  exact h

set_option maxHeartbeats 1000000 in
theorem R_main_call7_cst (L : Valuation τ sig (Elt F)) : R L main_call7_cst = (constant S_ .f32 0x00000000#32 : (⟨S_, .f32⟩ : BufTy).Contents (Elt F)) := by
  have h := step_nullary aligned L 254 rfl (by decide +kernel)
  exact h

set_option maxHeartbeats 1000000 in
theorem R_main_call7_v0 (L : Valuation τ sig (Elt F)) : R L main_call7_v0 = (Host.reduceAdd (R L main_v160 : (⟨S50000x128, .f32⟩ : BufTy).Contents (Elt F)) (R L main_call7_cst : (⟨S_, .f32⟩ : BufTy).Contents (Elt F)) reducesTo_S50000x128_S128_d0 h_S_ : (⟨S128, .f32⟩ : BufTy).Contents (Elt F)) := by
  have h := step_binary aligned L 255 rfl (by decide +kernel) (by decide +kernel) (by decide +kernel)
  exact h

set_option maxHeartbeats 1000000 in
theorem R_main_call7_v1 (L : Valuation τ sig (Elt F)) : R L main_call7_v1 = (broadcastInDim S1x128 ![1] bcast_S128_S1x128_1 (R L main_call7_v0 : (⟨S128, .f32⟩ : BufTy).Contents (Elt F)) : (⟨S1x128, .f32⟩ : BufTy).Contents (Elt F)) := by
  have h := step_unary aligned L 256 rfl (by decide +kernel) (by decide +kernel)
  exact h

set_option maxHeartbeats 1000000 in
theorem R_main_call7_cst_0 (L : Valuation τ sig (Elt F)) : R L main_call7_cst_0 = (constant S_ .f32 0x47435000#32 : (⟨S_, .f32⟩ : BufTy).Contents (Elt F)) := by
  have h := step_nullary aligned L 257 rfl (by decide +kernel)
  exact h

set_option maxHeartbeats 1000000 in
theorem R_main_call7_v2 (L : Valuation τ sig (Elt F)) : R L main_call7_v2 = (broadcastInDim S1x128 ![] bcast_S_S1x128 (R L main_call7_cst_0 : (⟨S_, .f32⟩ : BufTy).Contents (Elt F)) : (⟨S1x128, .f32⟩ : BufTy).Contents (Elt F)) := by
  have h := step_unary aligned L 258 rfl (by decide +kernel) (by decide +kernel)
  exact h

set_option maxHeartbeats 1000000 in
theorem R_main_call7_v3 (L : Valuation τ sig (Elt F)) : R L main_call7_v3 = (Host.divf (R L main_call7_v1 : (⟨S1x128, .f32⟩ : BufTy).Contents (Elt F)) (R L main_call7_v2 : (⟨S1x128, .f32⟩ : BufTy).Contents (Elt F)) : (⟨S1x128, .f32⟩ : BufTy).Contents (Elt F)) := by
  have h := step_binary aligned L 259 rfl (by decide +kernel) (by decide +kernel) (by decide +kernel)
  exact h

set_option maxHeartbeats 1000000 in
theorem R_main_call7_v4 (L : Valuation τ sig (Elt F)) : R L main_call7_v4 = (broadcastInDim S50000x128 ![0, 1] bcast_S1x128_S50000x128_0_1 (R L main_call7_v3 : (⟨S1x128, .f32⟩ : BufTy).Contents (Elt F)) : (⟨S50000x128, .f32⟩ : BufTy).Contents (Elt F)) := by
  have h := step_unary aligned L 260 rfl (by decide +kernel) (by decide +kernel)
  exact h

set_option maxHeartbeats 1000000 in
theorem R_main_call7_v5 (L : Valuation τ sig (Elt F)) : R L main_call7_v5 = (subf (R L main_v160 : (⟨S50000x128, .f32⟩ : BufTy).Contents (Elt F)) (R L main_call7_v4 : (⟨S50000x128, .f32⟩ : BufTy).Contents (Elt F)) : (⟨S50000x128, .f32⟩ : BufTy).Contents (Elt F)) := by
  have h := step_binary aligned L 261 rfl (by decide +kernel) (by decide +kernel) (by decide +kernel)
  exact h

set_option maxHeartbeats 1000000 in
theorem R_main_call7_v6 (L : Valuation τ sig (Elt F)) : R L main_call7_v6 = (mulf (R L main_call7_v5 : (⟨S50000x128, .f32⟩ : BufTy).Contents (Elt F)) (R L main_call7_v5 : (⟨S50000x128, .f32⟩ : BufTy).Contents (Elt F)) : (⟨S50000x128, .f32⟩ : BufTy).Contents (Elt F)) := by
  have h := step_binary aligned L 262 rfl (by decide +kernel) (by decide +kernel) (by decide +kernel)
  exact h

set_option maxHeartbeats 1000000 in
theorem R_main_call7_v7 (L : Valuation τ sig (Elt F)) : R L main_call7_v7 = (sitofp .f32 (R L main_c_32 : (⟨S_, .i32⟩ : BufTy).Contents (Elt F)) : (⟨S_, .f32⟩ : BufTy).Contents (Elt F)) := by
  have h := step_unary aligned L 263 rfl (by decide +kernel) (by decide +kernel)
  exact h

set_option maxHeartbeats 1000000 in
theorem R_main_call7_cst_1 (L : Valuation τ sig (Elt F)) : R L main_call7_cst_1 = (constant S_ .f32 0x47435000#32 : (⟨S_, .f32⟩ : BufTy).Contents (Elt F)) := by
  have h := step_nullary aligned L 264 rfl (by decide +kernel)
  exact h

set_option maxHeartbeats 1000000 in
theorem R_main_call7_v8 (L : Valuation τ sig (Elt F)) : R L main_call7_v8 = (subf (R L main_call7_cst_1 : (⟨S_, .f32⟩ : BufTy).Contents (Elt F)) (R L main_call7_v7 : (⟨S_, .f32⟩ : BufTy).Contents (Elt F)) : (⟨S_, .f32⟩ : BufTy).Contents (Elt F)) := by
  have h := step_binary aligned L 265 rfl (by decide +kernel) (by decide +kernel) (by decide +kernel)
  exact h

set_option maxHeartbeats 1000000 in
theorem R_main_call7_cst_2 (L : Valuation τ sig (Elt F)) : R L main_call7_cst_2 = (constant S_ .f32 0x00000000#32 : (⟨S_, .f32⟩ : BufTy).Contents (Elt F)) := by
  have h := step_nullary aligned L 266 rfl (by decide +kernel)
  exact h

set_option maxHeartbeats 1000000 in
theorem R_main_call7_v9 (L : Valuation τ sig (Elt F)) : R L main_call7_v9 = (Host.reduceAdd (R L main_call7_v6 : (⟨S50000x128, .f32⟩ : BufTy).Contents (Elt F)) (R L main_call7_cst_2 : (⟨S_, .f32⟩ : BufTy).Contents (Elt F)) reducesTo_S50000x128_S128_d0 h_S_ : (⟨S128, .f32⟩ : BufTy).Contents (Elt F)) := by
  have h := step_binary aligned L 267 rfl (by decide +kernel) (by decide +kernel) (by decide +kernel)
  exact h

set_option maxHeartbeats 1000000 in
theorem R_main_call7_v10 (L : Valuation τ sig (Elt F)) : R L main_call7_v10 = (broadcastInDim S128 ![] bcast_S_S128 (R L main_call7_v8 : (⟨S_, .f32⟩ : BufTy).Contents (Elt F)) : (⟨S128, .f32⟩ : BufTy).Contents (Elt F)) := by
  have h := step_unary aligned L 268 rfl (by decide +kernel) (by decide +kernel)
  exact h

set_option maxHeartbeats 1000000 in
theorem R_main_call7_v11 (L : Valuation τ sig (Elt F)) : R L main_call7_v11 = (Host.divf (R L main_call7_v9 : (⟨S128, .f32⟩ : BufTy).Contents (Elt F)) (R L main_call7_v10 : (⟨S128, .f32⟩ : BufTy).Contents (Elt F)) : (⟨S128, .f32⟩ : BufTy).Contents (Elt F)) := by
  have h := step_binary aligned L 269 rfl (by decide +kernel) (by decide +kernel) (by decide +kernel)
  exact h

set_option maxHeartbeats 1000000 in
theorem R_main_call7_cst_3 (L : Valuation τ sig (Elt F)) : R L main_call7_cst_3 = (constant S_ .f32 0x00000000#32 : (⟨S_, .f32⟩ : BufTy).Contents (Elt F)) := by
  have h := step_nullary aligned L 270 rfl (by decide +kernel)
  exact h

set_option maxHeartbeats 1000000 in
theorem R_main_call7_v12 (L : Valuation τ sig (Elt F)) : R L main_call7_v12 = (cmpf .ogt (R L main_call7_v8 : (⟨S_, .f32⟩ : BufTy).Contents (Elt F)) (R L main_call7_cst_3 : (⟨S_, .f32⟩ : BufTy).Contents (Elt F)) : (⟨S_, .i1⟩ : BufTy).Contents (Elt F)) := by
  have h := step_binary aligned L 271 rfl (by decide +kernel) (by decide +kernel) (by decide +kernel)
  exact h

set_option maxHeartbeats 1000000 in
theorem R_main_call7_cst_4 (L : Valuation τ sig (Elt F)) : R L main_call7_cst_4 = (constant S_ .f32 0x7FC00000#32 : (⟨S_, .f32⟩ : BufTy).Contents (Elt F)) := by
  have h := step_nullary aligned L 272 rfl (by decide +kernel)
  exact h

set_option maxHeartbeats 1000000 in
theorem R_main_call7_call0_v0 (L : Valuation τ sig (Elt F)) : R L main_call7_call0_v0 = ((R L main_call7_cst_4 : (⟨S_, .f32⟩ : BufTy).Contents (Elt F)) : (⟨S_, .f32⟩ : BufTy).Contents (Elt F)) := by
  have h := step_unary aligned L 273 rfl (by decide +kernel) (by decide +kernel)
  exact h

set_option maxHeartbeats 1000000 in
theorem R_main_call7_call0_v1 (L : Valuation τ sig (Elt F)) : R L main_call7_call0_v1 = (broadcastInDim S128 ![] bcast_S_S128 (R L main_call7_call0_v0 : (⟨S_, .f32⟩ : BufTy).Contents (Elt F)) : (⟨S128, .f32⟩ : BufTy).Contents (Elt F)) := by
  have h := step_unary aligned L 274 rfl (by decide +kernel) (by decide +kernel)
  exact h

set_option maxHeartbeats 1000000 in
theorem R_main_v164 (L : Valuation τ sig (Elt F)) : R L main_v164 = (select (broadcastInDim S128 ![] bcast_S_S128 (R L main_call7_v12 : (⟨S_, .i1⟩ : BufTy).Contents (Elt F))) (R L main_call7_v11 : (⟨S128, .f32⟩ : BufTy).Contents (Elt F)) (R L main_call7_call0_v1 : (⟨S128, .f32⟩ : BufTy).Contents (Elt F)) : (⟨S128, .f32⟩ : BufTy).Contents (Elt F)) := by
  have h := step_ternary aligned L 275 rfl (by decide +kernel) (by decide +kernel) (by decide +kernel) (by decide +kernel)
  exact h

set_option maxHeartbeats 1000000 in
theorem R_main_call8_cst (L : Valuation τ sig (Elt F)) : R L main_call8_cst = (constant S_ .f32 0x00000000#32 : (⟨S_, .f32⟩ : BufTy).Contents (Elt F)) := by
  have h := step_nullary aligned L 292 rfl (by decide +kernel)
  exact h

set_option maxHeartbeats 1000000 in
theorem R_main_call8_v0 (L : Valuation τ sig (Elt F)) : R L main_call8_v0 = (broadcastInDim S50000x128 ![] bcast_S_S50000x128 (R L main_call8_cst : (⟨S_, .f32⟩ : BufTy).Contents (Elt F)) : (⟨S50000x128, .f32⟩ : BufTy).Contents (Elt F)) := by
  have h := step_unary aligned L 293 rfl (by decide +kernel) (by decide +kernel)
  exact h

set_option maxHeartbeats 1000000 in
theorem R_main_v180 (L : Valuation τ sig (Elt F)) : R L main_v180 = (maximumf (R L main_v179 : (⟨S50000x128, .f32⟩ : BufTy).Contents (Elt F)) (R L main_call8_v0 : (⟨S50000x128, .f32⟩ : BufTy).Contents (Elt F)) : (⟨S50000x128, .f32⟩ : BufTy).Contents (Elt F)) := by
  have h := step_binary aligned L 294 rfl (by decide +kernel) (by decide +kernel) (by decide +kernel)
  exact h

set_option maxHeartbeats 1000000 in
theorem R_main_call9_cst (L : Valuation τ sig (Elt F)) : R L main_call9_cst = (constant S_ .f32 0x00000000#32 : (⟨S_, .f32⟩ : BufTy).Contents (Elt F)) := by
  have h := step_nullary aligned L 315 rfl (by decide +kernel)
  exact h

set_option maxHeartbeats 1000000 in
theorem R_main_call9_v0 (L : Valuation τ sig (Elt F)) : R L main_call9_v0 = (Host.reduceAdd (R L main_v192 : (⟨S50000x128, .f32⟩ : BufTy).Contents (Elt F)) (R L main_call9_cst : (⟨S_, .f32⟩ : BufTy).Contents (Elt F)) reducesTo_S50000x128_S128_d0 h_S_ : (⟨S128, .f32⟩ : BufTy).Contents (Elt F)) := by
  have h := step_binary aligned L 316 rfl (by decide +kernel) (by decide +kernel) (by decide +kernel)
  exact h

set_option maxHeartbeats 1000000 in
theorem R_main_call9_v1 (L : Valuation τ sig (Elt F)) : R L main_call9_v1 = (broadcastInDim S1x128 ![1] bcast_S128_S1x128_1 (R L main_call9_v0 : (⟨S128, .f32⟩ : BufTy).Contents (Elt F)) : (⟨S1x128, .f32⟩ : BufTy).Contents (Elt F)) := by
  have h := step_unary aligned L 317 rfl (by decide +kernel) (by decide +kernel)
  exact h

set_option maxHeartbeats 1000000 in
theorem R_main_call9_cst_0 (L : Valuation τ sig (Elt F)) : R L main_call9_cst_0 = (constant S_ .f32 0x47435000#32 : (⟨S_, .f32⟩ : BufTy).Contents (Elt F)) := by
  have h := step_nullary aligned L 318 rfl (by decide +kernel)
  exact h

set_option maxHeartbeats 1000000 in
theorem R_main_call9_v2 (L : Valuation τ sig (Elt F)) : R L main_call9_v2 = (broadcastInDim S1x128 ![] bcast_S_S1x128 (R L main_call9_cst_0 : (⟨S_, .f32⟩ : BufTy).Contents (Elt F)) : (⟨S1x128, .f32⟩ : BufTy).Contents (Elt F)) := by
  have h := step_unary aligned L 319 rfl (by decide +kernel) (by decide +kernel)
  exact h

set_option maxHeartbeats 1000000 in
theorem R_main_call9_v3 (L : Valuation τ sig (Elt F)) : R L main_call9_v3 = (Host.divf (R L main_call9_v1 : (⟨S1x128, .f32⟩ : BufTy).Contents (Elt F)) (R L main_call9_v2 : (⟨S1x128, .f32⟩ : BufTy).Contents (Elt F)) : (⟨S1x128, .f32⟩ : BufTy).Contents (Elt F)) := by
  have h := step_binary aligned L 320 rfl (by decide +kernel) (by decide +kernel) (by decide +kernel)
  exact h

set_option maxHeartbeats 1000000 in
theorem R_main_call9_v4 (L : Valuation τ sig (Elt F)) : R L main_call9_v4 = (broadcastInDim S50000x128 ![0, 1] bcast_S1x128_S50000x128_0_1 (R L main_call9_v3 : (⟨S1x128, .f32⟩ : BufTy).Contents (Elt F)) : (⟨S50000x128, .f32⟩ : BufTy).Contents (Elt F)) := by
  have h := step_unary aligned L 321 rfl (by decide +kernel) (by decide +kernel)
  exact h

set_option maxHeartbeats 1000000 in
theorem R_main_call9_v5 (L : Valuation τ sig (Elt F)) : R L main_call9_v5 = (subf (R L main_v192 : (⟨S50000x128, .f32⟩ : BufTy).Contents (Elt F)) (R L main_call9_v4 : (⟨S50000x128, .f32⟩ : BufTy).Contents (Elt F)) : (⟨S50000x128, .f32⟩ : BufTy).Contents (Elt F)) := by
  have h := step_binary aligned L 322 rfl (by decide +kernel) (by decide +kernel) (by decide +kernel)
  exact h

set_option maxHeartbeats 1000000 in
theorem R_main_call9_v6 (L : Valuation τ sig (Elt F)) : R L main_call9_v6 = (mulf (R L main_call9_v5 : (⟨S50000x128, .f32⟩ : BufTy).Contents (Elt F)) (R L main_call9_v5 : (⟨S50000x128, .f32⟩ : BufTy).Contents (Elt F)) : (⟨S50000x128, .f32⟩ : BufTy).Contents (Elt F)) := by
  have h := step_binary aligned L 323 rfl (by decide +kernel) (by decide +kernel) (by decide +kernel)
  exact h

set_option maxHeartbeats 1000000 in
theorem R_main_call9_v7 (L : Valuation τ sig (Elt F)) : R L main_call9_v7 = (sitofp .f32 (R L main_c_38 : (⟨S_, .i32⟩ : BufTy).Contents (Elt F)) : (⟨S_, .f32⟩ : BufTy).Contents (Elt F)) := by
  have h := step_unary aligned L 324 rfl (by decide +kernel) (by decide +kernel)
  exact h

set_option maxHeartbeats 1000000 in
theorem R_main_call9_cst_1 (L : Valuation τ sig (Elt F)) : R L main_call9_cst_1 = (constant S_ .f32 0x47435000#32 : (⟨S_, .f32⟩ : BufTy).Contents (Elt F)) := by
  have h := step_nullary aligned L 325 rfl (by decide +kernel)
  exact h

set_option maxHeartbeats 1000000 in
theorem R_main_call9_v8 (L : Valuation τ sig (Elt F)) : R L main_call9_v8 = (subf (R L main_call9_cst_1 : (⟨S_, .f32⟩ : BufTy).Contents (Elt F)) (R L main_call9_v7 : (⟨S_, .f32⟩ : BufTy).Contents (Elt F)) : (⟨S_, .f32⟩ : BufTy).Contents (Elt F)) := by
  have h := step_binary aligned L 326 rfl (by decide +kernel) (by decide +kernel) (by decide +kernel)
  exact h

set_option maxHeartbeats 1000000 in
theorem R_main_call9_cst_2 (L : Valuation τ sig (Elt F)) : R L main_call9_cst_2 = (constant S_ .f32 0x00000000#32 : (⟨S_, .f32⟩ : BufTy).Contents (Elt F)) := by
  have h := step_nullary aligned L 327 rfl (by decide +kernel)
  exact h

set_option maxHeartbeats 1000000 in
theorem R_main_call9_v9 (L : Valuation τ sig (Elt F)) : R L main_call9_v9 = (Host.reduceAdd (R L main_call9_v6 : (⟨S50000x128, .f32⟩ : BufTy).Contents (Elt F)) (R L main_call9_cst_2 : (⟨S_, .f32⟩ : BufTy).Contents (Elt F)) reducesTo_S50000x128_S128_d0 h_S_ : (⟨S128, .f32⟩ : BufTy).Contents (Elt F)) := by
  have h := step_binary aligned L 328 rfl (by decide +kernel) (by decide +kernel) (by decide +kernel)
  exact h

set_option maxHeartbeats 1000000 in
theorem R_main_call9_v10 (L : Valuation τ sig (Elt F)) : R L main_call9_v10 = (broadcastInDim S128 ![] bcast_S_S128 (R L main_call9_v8 : (⟨S_, .f32⟩ : BufTy).Contents (Elt F)) : (⟨S128, .f32⟩ : BufTy).Contents (Elt F)) := by
  have h := step_unary aligned L 329 rfl (by decide +kernel) (by decide +kernel)
  exact h

set_option maxHeartbeats 1000000 in
theorem R_main_call9_v11 (L : Valuation τ sig (Elt F)) : R L main_call9_v11 = (Host.divf (R L main_call9_v9 : (⟨S128, .f32⟩ : BufTy).Contents (Elt F)) (R L main_call9_v10 : (⟨S128, .f32⟩ : BufTy).Contents (Elt F)) : (⟨S128, .f32⟩ : BufTy).Contents (Elt F)) := by
  have h := step_binary aligned L 330 rfl (by decide +kernel) (by decide +kernel) (by decide +kernel)
  exact h

set_option maxHeartbeats 1000000 in
theorem R_main_call9_cst_3 (L : Valuation τ sig (Elt F)) : R L main_call9_cst_3 = (constant S_ .f32 0x00000000#32 : (⟨S_, .f32⟩ : BufTy).Contents (Elt F)) := by
  have h := step_nullary aligned L 331 rfl (by decide +kernel)
  exact h

set_option maxHeartbeats 1000000 in
theorem R_main_call9_v12 (L : Valuation τ sig (Elt F)) : R L main_call9_v12 = (cmpf .ogt (R L main_call9_v8 : (⟨S_, .f32⟩ : BufTy).Contents (Elt F)) (R L main_call9_cst_3 : (⟨S_, .f32⟩ : BufTy).Contents (Elt F)) : (⟨S_, .i1⟩ : BufTy).Contents (Elt F)) := by
  have h := step_binary aligned L 332 rfl (by decide +kernel) (by decide +kernel) (by decide +kernel)
  exact h

set_option maxHeartbeats 1000000 in
theorem R_main_call9_cst_4 (L : Valuation τ sig (Elt F)) : R L main_call9_cst_4 = (constant S_ .f32 0x7FC00000#32 : (⟨S_, .f32⟩ : BufTy).Contents (Elt F)) := by
  have h := step_nullary aligned L 333 rfl (by decide +kernel)
  exact h

set_option maxHeartbeats 1000000 in
theorem R_main_call9_call0_v0 (L : Valuation τ sig (Elt F)) : R L main_call9_call0_v0 = ((R L main_call9_cst_4 : (⟨S_, .f32⟩ : BufTy).Contents (Elt F)) : (⟨S_, .f32⟩ : BufTy).Contents (Elt F)) := by
  have h := step_unary aligned L 334 rfl (by decide +kernel) (by decide +kernel)
  exact h

set_option maxHeartbeats 1000000 in
theorem R_main_call9_call0_v1 (L : Valuation τ sig (Elt F)) : R L main_call9_call0_v1 = (broadcastInDim S128 ![] bcast_S_S128 (R L main_call9_call0_v0 : (⟨S_, .f32⟩ : BufTy).Contents (Elt F)) : (⟨S128, .f32⟩ : BufTy).Contents (Elt F)) := by
  have h := step_unary aligned L 335 rfl (by decide +kernel) (by decide +kernel)
  exact h

set_option maxHeartbeats 1000000 in
theorem R_main_v196 (L : Valuation τ sig (Elt F)) : R L main_v196 = (select (broadcastInDim S128 ![] bcast_S_S128 (R L main_call9_v12 : (⟨S_, .i1⟩ : BufTy).Contents (Elt F))) (R L main_call9_v11 : (⟨S128, .f32⟩ : BufTy).Contents (Elt F)) (R L main_call9_call0_v1 : (⟨S128, .f32⟩ : BufTy).Contents (Elt F)) : (⟨S128, .f32⟩ : BufTy).Contents (Elt F)) := by
  have h := step_ternary aligned L 336 rfl (by decide +kernel) (by decide +kernel) (by decide +kernel) (by decide +kernel)
  exact h

end Calls

end Cert.ReferenceIdeal.RefRun

end
-- ==== Proof.RefSteps4.lean ====
/- The reference's @main one operation at a time, window 4 (operations 340 … 363 of 363).

   For each operation, the equation its result buffer satisfies after the whole of @main: the operation's function of
   what its operand buffers hold then (no later operation writes an operand or the result: decided on the list of
   written buffers from the operation's position on). An operation of a called function is stated at the tensor
   types the function's values carry; the operation itself moves contents between those types and the buffers' along
   equations that are identities at these buffers, and the heavy functions are kept folded while that is checked. -/
import proofs.«180021_j37692632990117_2_alg».proof.Proof.RefStepsBase

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.RefRunLib

variable {F : FTy → Type} [FloatOps F]

theorem R_main_v199 (L : Valuation τ sig (Elt F)) : R L main_v199 = (subf (R L main_v192 : (⟨S50000x128, .f32⟩ : BufTy).Contents (Elt F)) (R L main_v198 : (⟨S50000x128, .f32⟩ : BufTy).Contents (Elt F)) : (⟨S50000x128, .f32⟩ : BufTy).Contents (Elt F)) := by
  have h := step_binary aligned L 339 rfl (by decide +kernel) (by decide +kernel) (by decide +kernel)
  exact h

theorem R_main_cst_39 (L : Valuation τ sig (Elt F)) : R L main_cst_39 = (constant S_ .f32 0x3727C5AC#32 : (⟨S_, .f32⟩ : BufTy).Contents (Elt F)) := by
  have h := step_nullary aligned L 340 rfl (by decide +kernel)
  exact h

theorem R_main_v200 (L : Valuation τ sig (Elt F)) : R L main_v200 = (broadcastInDim S128 ![] bcast_S_S128 (R L main_cst_39 : (⟨S_, .f32⟩ : BufTy).Contents (Elt F)) : (⟨S128, .f32⟩ : BufTy).Contents (Elt F)) := by
  have h := step_unary aligned L 341 rfl (by decide +kernel) (by decide +kernel)
  exact h

theorem R_main_v201 (L : Valuation τ sig (Elt F)) : R L main_v201 = (addf (R L main_v196 : (⟨S128, .f32⟩ : BufTy).Contents (Elt F)) (R L main_v200 : (⟨S128, .f32⟩ : BufTy).Contents (Elt F)) : (⟨S128, .f32⟩ : BufTy).Contents (Elt F)) := by
  have h := step_binary aligned L 342 rfl (by decide +kernel) (by decide +kernel) (by decide +kernel)
  exact h

theorem R_main_v202 (L : Valuation τ sig (Elt F)) : R L main_v202 = (Host.rsqrt (R L main_v201 : (⟨S128, .f32⟩ : BufTy).Contents (Elt F)) : (⟨S128, .f32⟩ : BufTy).Contents (Elt F)) := by
  have h := step_unary aligned L 343 rfl (by decide +kernel) (by decide +kernel)
  exact h

theorem R_main_v203 (L : Valuation τ sig (Elt F)) : R L main_v203 = (broadcastInDim S1x128 ![1] bcast_S128_S1x128_1 (R L main_v202 : (⟨S128, .f32⟩ : BufTy).Contents (Elt F)) : (⟨S1x128, .f32⟩ : BufTy).Contents (Elt F)) := by
  have h := step_unary aligned L 344 rfl (by decide +kernel) (by decide +kernel)
  exact h

theorem R_main_v204 (L : Valuation τ sig (Elt F)) : R L main_v204 = (broadcastInDim S50000x128 ![0, 1] bcast_S1x128_S50000x128_0_1 (R L main_v203 : (⟨S1x128, .f32⟩ : BufTy).Contents (Elt F)) : (⟨S50000x128, .f32⟩ : BufTy).Contents (Elt F)) := by
  have h := step_unary aligned L 345 rfl (by decide +kernel) (by decide +kernel)
  exact h

theorem R_main_v205 (L : Valuation τ sig (Elt F)) : R L main_v205 = (mulf (R L main_v199 : (⟨S50000x128, .f32⟩ : BufTy).Contents (Elt F)) (R L main_v204 : (⟨S50000x128, .f32⟩ : BufTy).Contents (Elt F)) : (⟨S50000x128, .f32⟩ : BufTy).Contents (Elt F)) := by
  have h := step_binary aligned L 346 rfl (by decide +kernel) (by decide +kernel) (by decide +kernel)
  exact h

theorem R_main_v206 (L : Valuation τ sig (Elt F)) : R L main_v206 = (broadcastInDim S1x128 ![1] bcast_S128_S1x128_1 (R L main_arg11 : (⟨S128, .f32⟩ : BufTy).Contents (Elt F)) : (⟨S1x128, .f32⟩ : BufTy).Contents (Elt F)) := by
  have h := step_unary aligned L 347 rfl (by decide +kernel) (by decide +kernel)
  exact h

theorem R_main_v207 (L : Valuation τ sig (Elt F)) : R L main_v207 = (broadcastInDim S50000x128 ![0, 1] bcast_S1x128_S50000x128_0_1 (R L main_v206 : (⟨S1x128, .f32⟩ : BufTy).Contents (Elt F)) : (⟨S50000x128, .f32⟩ : BufTy).Contents (Elt F)) := by
  have h := step_unary aligned L 348 rfl (by decide +kernel) (by decide +kernel)
  exact h

theorem R_main_v208 (L : Valuation τ sig (Elt F)) : R L main_v208 = (mulf (R L main_v205 : (⟨S50000x128, .f32⟩ : BufTy).Contents (Elt F)) (R L main_v207 : (⟨S50000x128, .f32⟩ : BufTy).Contents (Elt F)) : (⟨S50000x128, .f32⟩ : BufTy).Contents (Elt F)) := by
  have h := step_binary aligned L 349 rfl (by decide +kernel) (by decide +kernel) (by decide +kernel)
  exact h

theorem R_main_v209 (L : Valuation τ sig (Elt F)) : R L main_v209 = (broadcastInDim S1x128 ![1] bcast_S128_S1x128_1 (R L main_arg12 : (⟨S128, .f32⟩ : BufTy).Contents (Elt F)) : (⟨S1x128, .f32⟩ : BufTy).Contents (Elt F)) := by
  have h := step_unary aligned L 350 rfl (by decide +kernel) (by decide +kernel)
  exact h

theorem R_main_v210 (L : Valuation τ sig (Elt F)) : R L main_v210 = (broadcastInDim S50000x128 ![0, 1] bcast_S1x128_S50000x128_0_1 (R L main_v209 : (⟨S1x128, .f32⟩ : BufTy).Contents (Elt F)) : (⟨S50000x128, .f32⟩ : BufTy).Contents (Elt F)) := by
  have h := step_unary aligned L 351 rfl (by decide +kernel) (by decide +kernel)
  exact h

theorem R_main_v211 (L : Valuation τ sig (Elt F)) : R L main_v211 = (addf (R L main_v208 : (⟨S50000x128, .f32⟩ : BufTy).Contents (Elt F)) (R L main_v210 : (⟨S50000x128, .f32⟩ : BufTy).Contents (Elt F)) : (⟨S50000x128, .f32⟩ : BufTy).Contents (Elt F)) := by
  have h := step_binary aligned L 352 rfl (by decide +kernel) (by decide +kernel) (by decide +kernel)
  exact h

theorem R_main_v213 (L : Valuation τ sig (Elt F)) : R L main_v213 = (transpose S128x128 [1, 0] (R L main_arg13 : (⟨S128x128, .f32⟩ : BufTy).Contents (Elt F)) transposes_S128x128_S128x128_1_0 : (⟨S128x128, .f32⟩ : BufTy).Contents (Elt F)) := by
  have h := step_unary aligned L 356 rfl (by decide +kernel) (by decide +kernel)
  exact h

theorem R_main_v214 (L : Valuation τ sig (Elt F)) : R L main_v214 = (Host.dotGeneral dot_S50000x128_S128x128_S50000x128_1_0_0_1_n_n none (R L main_v212 : (⟨S50000x128, .f32⟩ : BufTy).Contents (Elt F)) (R L main_v213 : (⟨S128x128, .f32⟩ : BufTy).Contents (Elt F)) : (⟨S50000x128, .f32⟩ : BufTy).Contents (Elt F)) := by
  have h := step_binary aligned L 357 rfl (by decide +kernel) (by decide +kernel) (by decide +kernel)
  exact h

theorem R_main_v215 (L : Valuation τ sig (Elt F)) : R L main_v215 = (broadcastInDim S1x128 ![1] bcast_S128_S1x128_1 (R L main_arg14 : (⟨S128, .f32⟩ : BufTy).Contents (Elt F)) : (⟨S1x128, .f32⟩ : BufTy).Contents (Elt F)) := by
  have h := step_unary aligned L 358 rfl (by decide +kernel) (by decide +kernel)
  exact h

theorem R_main_v216 (L : Valuation τ sig (Elt F)) : R L main_v216 = (broadcastInDim S50000x128 ![0, 1] bcast_S1x128_S50000x128_0_1 (R L main_v215 : (⟨S1x128, .f32⟩ : BufTy).Contents (Elt F)) : (⟨S50000x128, .f32⟩ : BufTy).Contents (Elt F)) := by
  have h := step_unary aligned L 359 rfl (by decide +kernel) (by decide +kernel)
  exact h

theorem R_main_v217 (L : Valuation τ sig (Elt F)) : R L main_v217 = (addf (R L main_v214 : (⟨S50000x128, .f32⟩ : BufTy).Contents (Elt F)) (R L main_v216 : (⟨S50000x128, .f32⟩ : BufTy).Contents (Elt F)) : (⟨S50000x128, .f32⟩ : BufTy).Contents (Elt F)) := by
  have h := step_binary aligned L 360 rfl (by decide +kernel) (by decide +kernel) (by decide +kernel)
  exact h

theorem R_main_v218 (L : Valuation τ sig (Elt F)) : R L main_v218 = (broadcastInDim S50000x128 ![0, 1] bcast_S50000x1_S50000x128_0_1 (R L main_arg2 : (⟨S50000x1, .f32⟩ : BufTy).Contents (Elt F)) : (⟨S50000x128, .f32⟩ : BufTy).Contents (Elt F)) := by
  have h := step_unary aligned L 361 rfl (by decide +kernel) (by decide +kernel)
  exact h

theorem R_main_v219 (L : Valuation τ sig (Elt F)) : R L main_v219 = (mulf (R L main_v217 : (⟨S50000x128, .f32⟩ : BufTy).Contents (Elt F)) (R L main_v218 : (⟨S50000x128, .f32⟩ : BufTy).Contents (Elt F)) : (⟨S50000x128, .f32⟩ : BufTy).Contents (Elt F)) := by
  have h := step_binary aligned L 362 rfl (by decide +kernel) (by decide +kernel) (by decide +kernel)
  exact h

section Calls
attribute [local irreducible] StableHlo.after select broadcastInDim Host.reduceAdd Host.divf cmpf subf mulf maximumf sitofp constant shapeCast

set_option maxHeartbeats 1000000 in
theorem R_main_call10_cst (L : Valuation τ sig (Elt F)) : R L main_call10_cst = (constant S_ .f32 0x00000000#32 : (⟨S_, .f32⟩ : BufTy).Contents (Elt F)) := by
  have h := step_nullary aligned L 353 rfl (by decide +kernel)
  exact h

set_option maxHeartbeats 1000000 in
theorem R_main_call10_v0 (L : Valuation τ sig (Elt F)) : R L main_call10_v0 = (broadcastInDim S50000x128 ![] bcast_S_S50000x128 (R L main_call10_cst : (⟨S_, .f32⟩ : BufTy).Contents (Elt F)) : (⟨S50000x128, .f32⟩ : BufTy).Contents (Elt F)) := by
  have h := step_unary aligned L 354 rfl (by decide +kernel) (by decide +kernel)
  exact h

set_option maxHeartbeats 1000000 in
theorem R_main_v212 (L : Valuation τ sig (Elt F)) : R L main_v212 = (maximumf (R L main_v211 : (⟨S50000x128, .f32⟩ : BufTy).Contents (Elt F)) (R L main_call10_v0 : (⟨S50000x128, .f32⟩ : BufTy).Contents (Elt F)) : (⟨S50000x128, .f32⟩ : BufTy).Contents (Elt F)) := by
  have h := step_binary aligned L 355 rfl (by decide +kernel) (by decide +kernel) (by decide +kernel)
  exact h

end Calls

end Cert.ReferenceIdeal.RefRun

end
-- ==== Proof.RefValue.lean ====
/- The reference's three results as layer steps.

   Each layer's result buffer ends holding `refLayer` of what eight other buffers end holding — the layer's
   scatter-gather sum, its degree array, its input, its two weights and its three rows —, the read-out's result ends
   holding `refReadout` of the third layer's result and the read-out's operands, and the third result is the host's row
   gather of the third layer's result at the normalised indices. Per layer the reference's operations are composed, one
   equation an operation, into the five whole-array terms that `RefVec` reads as the specification's functions. For any
   launch contents. -/
import proofs.«180021_j37692632990117_2_alg».proof.Proof.RefVec
import proofs.«180021_j37692632990117_2_alg».proof.Proof.RefSteps0
import proofs.«180021_j37692632990117_2_alg».proof.Proof.RefSteps1
import proofs.«180021_j37692632990117_2_alg».proof.Proof.RefSteps2
import proofs.«180021_j37692632990117_2_alg».proof.Proof.RefSteps3
import proofs.«180021_j37692632990117_2_alg».proof.Proof.RefSteps4

set_option maxRecDepth 16384

noncomputable section

open scoped BigOperators

namespace Cert.ReferenceIdeal.RefRun

open Cert.ReferenceIdeal Cert.ReferenceIdeal.Gen Idealize.ShloMosaic Idealize.ShloMosaic.TcCoe Idealize.ShloMosaic.StableHlo Idealize.ShloMosaic.ValueIdx Cert.Spec

/-- Layer 1 of the reference: its result buffer holds `refLayer` of the layer's scatter-gather sum, degree array, input,
    weights and rows, as those buffers end. -/
theorem layer1 (L : Valuation τ sig (Elt Ideal)) :
    R L main_v62 = refLayer (R L main_v23) (R L main_v27) (R L main_arg0) (R L main_v5) (R L main_v9) (R L main_v37) (R L main_v56) (R L main_v59) := by
  refine layer_of_terms (R L main_v23) (R L main_v27) (R L main_arg0) (R L main_v5) (R L main_v9) (R L main_v37) (R L main_v56) (R L main_v59)
    (R L main_v34) (R L main_v42) (R L main_v45) (R L main_v46) (R L main_v62) ?_ ?_ ?_ ?_ ?_
  · unfold aggVec
    rw [
    R_main_v34, R_main_call0_v2, R_main_call0_v1, R_main_call0_v0, R_main_cst_5, R_main_v33,
    R_main_v32, R_main_v31, R_main_v30, R_main_cst_4, R_main_v29, R_main_v28,
    R_main_cst_3]
  · unfold preVec
    rw [
    R_main_v42, R_main_v41, R_main_v40, R_main_v39, R_main_v38, R_main_v36,
    R_main_v35]
  · unfold meanVec
    rw [
    R_main_v45, R_main_v44, R_main_cst_7, R_main_v43, R_main_cst_6]
  · unfold varVec
    rw [
    R_main_v46, R_main_call1_call0_v1, R_main_call1_call0_v0, R_main_call1_cst_4, R_main_call1_v12, R_main_call1_cst_3,
    R_main_call1_v11, R_main_call1_v10, R_main_call1_v9, R_main_call1_cst_2, R_main_call1_v8, R_main_call1_cst_1,
    R_main_call1_v7, R_main_call1_v6, R_main_call1_v5, R_main_call1_v4, R_main_call1_v3, R_main_call1_v2,
    R_main_call1_cst_0, R_main_call1_v1, R_main_call1_v0, R_main_call1_cst, R_main_c_8]
  · unfold tailVec
    rw [
    R_main_v62, R_main_call2_v0, R_main_call2_cst, R_main_v61, R_main_v60, R_main_v58,
    R_main_v57, R_main_v55, R_main_v54, R_main_v53, R_main_v52, R_main_v51,
    R_main_v50, R_main_cst_9, R_main_v49, R_main_v48, R_main_v47]

/-- Layer 2 of the reference: its result buffer holds `refLayer` of the layer's scatter-gather sum, degree array, input,
    weights and rows, as those buffers end. -/
theorem layer2 (L : Valuation τ sig (Elt Ideal)) :
    R L main_v121 = refLayer (R L main_v82) (R L main_v86) (R L main_v62) (R L main_v64) (R L main_v68) (R L main_v96) (R L main_v115) (R L main_v118) := by
  refine layer_of_terms (R L main_v82) (R L main_v86) (R L main_v62) (R L main_v64) (R L main_v68) (R L main_v96) (R L main_v115) (R L main_v118)
    (R L main_v93) (R L main_v101) (R L main_v104) (R L main_v105) (R L main_v121) ?_ ?_ ?_ ?_ ?_
  · unfold aggVec
    rw [
    R_main_v93, R_main_call3_v2, R_main_call3_v1, R_main_call3_v0, R_main_cst_17, R_main_v92,
    R_main_v91, R_main_v90, R_main_v89, R_main_cst_16, R_main_v88, R_main_v87,
    R_main_cst_15]
  · unfold preVec
    rw [
    R_main_v101, R_main_v100, R_main_v99, R_main_v98, R_main_v97, R_main_v95,
    R_main_v94]
  · unfold meanVec
    rw [
    R_main_v104, R_main_v103, R_main_cst_19, R_main_v102, R_main_cst_18]
  · unfold varVec
    rw [
    R_main_v105, R_main_call4_call0_v1, R_main_call4_call0_v0, R_main_call4_cst_4, R_main_call4_v12, R_main_call4_cst_3,
    R_main_call4_v11, R_main_call4_v10, R_main_call4_v9, R_main_call4_cst_2, R_main_call4_v8, R_main_call4_cst_1,
    R_main_call4_v7, R_main_call4_v6, R_main_call4_v5, R_main_call4_v4, R_main_call4_v3, R_main_call4_v2,
    R_main_call4_cst_0, R_main_call4_v1, R_main_call4_v0, R_main_call4_cst, R_main_c_20]
  · unfold tailVec
    rw [
    R_main_v121, R_main_call5_v0, R_main_call5_cst, R_main_v120, R_main_v119, R_main_v117,
    R_main_v116, R_main_v114, R_main_v113, R_main_v112, R_main_v111, R_main_v110,
    R_main_v109, R_main_cst_21, R_main_v108, R_main_v107, R_main_v106]

/-- Layer 3 of the reference: its result buffer holds `refLayer` of the layer's scatter-gather sum, degree array, input,
    weights and rows, as those buffers end. -/
theorem layer3 (L : Valuation τ sig (Elt Ideal)) :
    R L main_v180 = refLayer (R L main_v141) (R L main_v145) (R L main_v121) (R L main_v123) (R L main_v127) (R L main_v155) (R L main_v174) (R L main_v177) := by
  refine layer_of_terms (R L main_v141) (R L main_v145) (R L main_v121) (R L main_v123) (R L main_v127) (R L main_v155) (R L main_v174) (R L main_v177)
    (R L main_v152) (R L main_v160) (R L main_v163) (R L main_v164) (R L main_v180) ?_ ?_ ?_ ?_ ?_
  · unfold aggVec
    rw [
    R_main_v152, R_main_call6_v2, R_main_call6_v1, R_main_call6_v0, R_main_cst_29, R_main_v151,
    R_main_v150, R_main_v149, R_main_v148, R_main_cst_28, R_main_v147, R_main_v146,
    R_main_cst_27]
  · unfold preVec
    rw [
    R_main_v160, R_main_v159, R_main_v158, R_main_v157, R_main_v156, R_main_v154,
    R_main_v153]
  · unfold meanVec
    rw [
    R_main_v163, R_main_v162, R_main_cst_31, R_main_v161, R_main_cst_30]
  · unfold varVec
    rw [
    R_main_v164, R_main_call7_call0_v1, R_main_call7_call0_v0, R_main_call7_cst_4, R_main_call7_v12, R_main_call7_cst_3,
    R_main_call7_v11, R_main_call7_v10, R_main_call7_v9, R_main_call7_cst_2, R_main_call7_v8, R_main_call7_cst_1,
    R_main_call7_v7, R_main_call7_v6, R_main_call7_v5, R_main_call7_v4, R_main_call7_v3, R_main_call7_v2,
    R_main_call7_cst_0, R_main_call7_v1, R_main_call7_v0, R_main_call7_cst, R_main_c_32]
  · unfold tailVec
    rw [
    R_main_v180, R_main_call8_v0, R_main_call8_cst, R_main_v179, R_main_v178, R_main_v176,
    R_main_v175, R_main_v173, R_main_v172, R_main_v171, R_main_v170, R_main_v169,
    R_main_v168, R_main_cst_33, R_main_v167, R_main_v166, R_main_v165]

/-- The read-out of the reference: its result buffer holds `refReadout` of the third layer's result, the two weights,
    the rows and the mask, as those buffers end. -/
theorem readout (L : Valuation τ sig (Elt Ideal)) :
    R L main_v219 = refReadout (R L main_v180) (R L main_arg9) (R L main_v190) (R L main_v206) (R L main_v209) (R L main_arg13) (R L main_v215) (R L main_arg2) := by
  refine readout_of_terms (R L main_v180) (R L main_arg9) (R L main_v190) (R L main_v206) (R L main_v209) (R L main_arg13) (R L main_v215) (R L main_arg2)
    (R L main_v192) (R L main_v195) (R L main_v196) (R L main_v212) (R L main_v219) ?_ ?_ ?_ ?_ ?_
  · unfold linVec
    rw [
    R_main_v192, R_main_v191, R_main_v189, R_main_v188]
  · unfold meanVec
    rw [
    R_main_v195, R_main_v194, R_main_cst_37, R_main_v193, R_main_cst_36]
  · unfold varVec
    rw [
    R_main_v196, R_main_call9_call0_v1, R_main_call9_call0_v0, R_main_call9_cst_4, R_main_call9_v12, R_main_call9_cst_3,
    R_main_call9_v11, R_main_call9_v10, R_main_call9_v9, R_main_call9_cst_2, R_main_call9_v8, R_main_call9_cst_1,
    R_main_call9_v7, R_main_call9_v6, R_main_call9_v5, R_main_call9_v4, R_main_call9_v3, R_main_call9_v2,
    R_main_call9_cst_0, R_main_call9_v1, R_main_call9_v0, R_main_call9_cst, R_main_c_38]
  · unfold tailVec
    rw [
    R_main_v212, R_main_call10_v0, R_main_call10_cst, R_main_v211, R_main_v210, R_main_v208,
    R_main_v207, R_main_v205, R_main_v204, R_main_v203, R_main_v202, R_main_v201,
    R_main_v200, R_main_cst_39, R_main_v199, R_main_v198, R_main_v197]
  · unfold atomVec
    rw [
    R_main_v219, R_main_v218, R_main_v217, R_main_v216, R_main_v214, R_main_v213]

/-- The third result: the host's gather of 256 rows of the third layer's result, at the normalised indices. -/
theorem state (L : Valuation τ sig (Elt Ideal)) :
    R L main_v187 = Host.gather gather_S50000x128_S256x1_S256x128_1_0_n_n_0_1_1128 (R L main_v180) (R L main_v186) :=
  R_main_v187 L

end Cert.ReferenceIdeal.RefRun

end
-- ==== Proof.RefChains.lean ====
/- The reference's host chains in closed form.

   The whole-array functions the reference applies around its layers, as plain definitions over arrays: the
   scatter-gather sum `SG` of a layer's input and the edge array (the edge array's two rows sliced and flattened, the
   source indices normalised — a negative index has 50000 added —, the input's rows gathered at them and added into a
   zero array at the destination rows), the degree array `CNT` (ones added into a zero column at the destination rows),
   each layer's two weights and three rows cut from the stacked arguments, the read-out's rows, and the third result's
   row gather `ST`. Each buffer concerned ends holding the function of the arguments (or of the layer below), by
   composing the equations of the operations between them. The three layers apply one and the same `SG` and `CNT`. -/
import proofs.«180021_j37692632990117_2_alg».proof.Proof.RefSteps0
import proofs.«180021_j37692632990117_2_alg».proof.Proof.RefSteps1
import proofs.«180021_j37692632990117_2_alg».proof.Proof.RefSteps2
import proofs.«180021_j37692632990117_2_alg».proof.Proof.RefSteps3
import proofs.«180021_j37692632990117_2_alg».proof.Proof.RefSteps4

set_option maxRecDepth 16384

noncomputable section

namespace Cert.ReferenceIdeal.RefRun

open Cert.ReferenceIdeal Cert.ReferenceIdeal.Gen Idealize.ShloMosaic Idealize.ShloMosaic.TcCoe Idealize.ShloMosaic.StableHlo

variable {F : FTy → Type} [FloatOps F]

/-- The scatter-gather sum of a layer: the rows of `h` at the edges' normalised source indices, added into a zero array at the edges' destination rows. -/
def SG (h : (⟨S50000x128, .f32⟩ : BufTy).Contents (Elt F)) (ei : (⟨S2x800000, .i32⟩ : BufTy).Contents (Elt F)) : (⟨S50000x128, .f32⟩ : BufTy).Contents (Elt F) :=
  (Host.scatterAdd scatter_S50000x128_S800000x1_S800000x128_1_0_0_1 (broadcastInDim S50000x128 ![] bcast_S_S50000x128 (constant S_ .f32 0x00000000#32 : (⟨S_, .f32⟩ : BufTy).Contents (Elt F)) : (⟨S50000x128, .f32⟩ : BufTy).Contents (Elt F)) (broadcastInDim S800000x1 ![0] bcast_S800000_S800000x1_0 (shapeCast S800000 (extractStridedSlice S1x800000 ![1, 0] ei slices_S2x800000_S1x800000_1_0 : (⟨S1x800000, .i32⟩ : BufTy).Contents (Elt F)) shapeCasts_S1x800000_S800000 : (⟨S800000, .i32⟩ : BufTy).Contents (Elt F)) : (⟨S800000x1, .i32⟩ : BufTy).Contents (Elt F)) (Host.gather gather_S50000x128_S800000x1_S800000x128_1_0_n_n_0_1_1128 h (broadcastInDim S800000x1 ![0] bcast_S800000_S800000x1_0 (select (cmpi .slt (shapeCast S800000 (extractStridedSlice S1x800000 ![0, 0] ei slices_S2x800000_S1x800000_0_0 : (⟨S1x800000, .i32⟩ : BufTy).Contents (Elt F)) shapeCasts_S1x800000_S800000 : (⟨S800000, .i32⟩ : BufTy).Contents (Elt F)) (broadcastInDim S800000 ![] bcast_S_S800000 (constantI S_ 32 0#32 : (⟨S_, .i32⟩ : BufTy).Contents (Elt F)) : (⟨S800000, .i32⟩ : BufTy).Contents (Elt F)) : (⟨S800000, .i1⟩ : BufTy).Contents (Elt F)) (addi (shapeCast S800000 (extractStridedSlice S1x800000 ![0, 0] ei slices_S2x800000_S1x800000_0_0 : (⟨S1x800000, .i32⟩ : BufTy).Contents (Elt F)) shapeCasts_S1x800000_S800000 : (⟨S800000, .i32⟩ : BufTy).Contents (Elt F)) (broadcastInDim S800000 ![] bcast_S_S800000 (constantI S_ 32 50000#32 : (⟨S_, .i32⟩ : BufTy).Contents (Elt F)) : (⟨S800000, .i32⟩ : BufTy).Contents (Elt F)) : (⟨S800000, .i32⟩ : BufTy).Contents (Elt F)) (shapeCast S800000 (extractStridedSlice S1x800000 ![0, 0] ei slices_S2x800000_S1x800000_0_0 : (⟨S1x800000, .i32⟩ : BufTy).Contents (Elt F)) shapeCasts_S1x800000_S800000 : (⟨S800000, .i32⟩ : BufTy).Contents (Elt F)) : (⟨S800000, .i32⟩ : BufTy).Contents (Elt F)) : (⟨S800000x1, .i32⟩ : BufTy).Contents (Elt F)) : (⟨S800000x128, .f32⟩ : BufTy).Contents (Elt F)) : (⟨S50000x128, .f32⟩ : BufTy).Contents (Elt F))

/-- The degree array: ones added into a zero column at the edges' destination rows. -/
def CNT (ei : (⟨S2x800000, .i32⟩ : BufTy).Contents (Elt F)) : (⟨S50000x1, .f32⟩ : BufTy).Contents (Elt F) :=
  (Host.scatterAdd scatter_S50000x1_S800000x1_S800000x1_1_0_0_1 (broadcastInDim S50000x1 ![] bcast_S_S50000x1 (constant S_ .f32 0x00000000#32 : (⟨S_, .f32⟩ : BufTy).Contents (Elt F)) : (⟨S50000x1, .f32⟩ : BufTy).Contents (Elt F)) (broadcastInDim S800000x1 ![0] bcast_S800000_S800000x1_0 (shapeCast S800000 (extractStridedSlice S1x800000 ![1, 0] ei slices_S2x800000_S1x800000_1_0 : (⟨S1x800000, .i32⟩ : BufTy).Contents (Elt F)) shapeCasts_S1x800000_S800000 : (⟨S800000, .i32⟩ : BufTy).Contents (Elt F)) : (⟨S800000x1, .i32⟩ : BufTy).Contents (Elt F)) (broadcastInDim S800000x1 ![] bcast_S_S800000x1 (constant S_ .f32 0x3F800000#32 : (⟨S_, .f32⟩ : BufTy).Contents (Elt F)) : (⟨S800000x1, .f32⟩ : BufTy).Contents (Elt F)) : (⟨S50000x1, .f32⟩ : BufTy).Contents (Elt F))

/-- The third result: 256 rows of `h3` at the normalised indices `a3`. -/
def ST (h3 : (⟨S50000x128, .f32⟩ : BufTy).Contents (Elt F)) (a3 : (⟨S256, .i32⟩ : BufTy).Contents (Elt F)) : (⟨S256x128, .f32⟩ : BufTy).Contents (Elt F) :=
  (Host.gather gather_S50000x128_S256x1_S256x128_1_0_n_n_0_1_1128 h3 (broadcastInDim S256x1 ![0] bcast_S256_S256x1_0 (select (cmpi .slt a3 (broadcastInDim S256 ![] bcast_S_S256 (constantI S_ 32 0#32 : (⟨S_, .i32⟩ : BufTy).Contents (Elt F)) : (⟨S256, .i32⟩ : BufTy).Contents (Elt F)) : (⟨S256, .i1⟩ : BufTy).Contents (Elt F)) (addi a3 (broadcastInDim S256 ![] bcast_S_S256 (constantI S_ 32 50000#32 : (⟨S_, .i32⟩ : BufTy).Contents (Elt F)) : (⟨S256, .i32⟩ : BufTy).Contents (Elt F)) : (⟨S256, .i32⟩ : BufTy).Contents (Elt F)) a3 : (⟨S256, .i32⟩ : BufTy).Contents (Elt F)) : (⟨S256x1, .i32⟩ : BufTy).Contents (Elt F)) : (⟨S256x128, .f32⟩ : BufTy).Contents (Elt F))

/-- Layer 1's first weight: slab 0 of the stacked weights, as a matrix. -/
def WL1 (a4 : (⟨S3x128x128, .f32⟩ : BufTy).Contents (Elt F)) : (⟨S128x128, .f32⟩ : BufTy).Contents (Elt F) :=
  (shapeCast S128x128 (extractStridedSlice S1x128x128 ![0, 0, 0] a4 slices_S3x128x128_S1x128x128_0_0_0 : (⟨S1x128x128, .f32⟩ : BufTy).Contents (Elt F)) shapeCasts_S1x128x128_S128x128 : (⟨S128x128, .f32⟩ : BufTy).Contents (Elt F))

/-- Layer 1's second weight: slab 0 of the stacked weights, as a matrix. -/
def WR1 (a6 : (⟨S3x128x128, .f32⟩ : BufTy).Contents (Elt F)) : (⟨S128x128, .f32⟩ : BufTy).Contents (Elt F) :=
  (shapeCast S128x128 (extractStridedSlice S1x128x128 ![0, 0, 0] a6 slices_S3x128x128_S1x128x128_0_0_0 : (⟨S1x128x128, .f32⟩ : BufTy).Contents (Elt F)) shapeCasts_S1x128x128_S128x128 : (⟨S128x128, .f32⟩ : BufTy).Contents (Elt F))

/-- Layer 1's bias as a row: row 0 of the stacked biases. -/
def BLrow1 (a5 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![0, 0] a5 slices_S3x128_S1x128_0_0 : (⟨S1x128, .f32⟩ : BufTy).Contents (Elt F)) shapeCasts_S1x128_S128 : (⟨S128, .f32⟩ : BufTy).Contents (Elt F)) : (⟨S1x128, .f32⟩ : BufTy).Contents (Elt F))

/-- Layer 1's scale as a row. -/
def GArow1 (a7 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![0, 0] a7 slices_S3x128_S1x128_0_0 : (⟨S1x128, .f32⟩ : BufTy).Contents (Elt F)) shapeCasts_S1x128_S128 : (⟨S128, .f32⟩ : BufTy).Contents (Elt F)) : (⟨S1x128, .f32⟩ : BufTy).Contents (Elt F))

/-- Layer 1's shift as a row. -/
def BErow1 (a8 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![0, 0] a8 slices_S3x128_S1x128_0_0 : (⟨S1x128, .f32⟩ : BufTy).Contents (Elt F)) shapeCasts_S1x128_S128 : (⟨S128, .f32⟩ : BufTy).Contents (Elt F)) : (⟨S1x128, .f32⟩ : BufTy).Contents (Elt F))

/-- Layer 2's first weight: slab 1 of the stacked weights, as a matrix. -/
def WL2 (a4 : (⟨S3x128x128, .f32⟩ : BufTy).Contents (Elt F)) : (⟨S128x128, .f32⟩ : BufTy).Contents (Elt F) :=
  (shapeCast S128x128 (extractStridedSlice S1x128x128 ![1, 0, 0] a4 slices_S3x128x128_S1x128x128_1_0_0 : (⟨S1x128x128, .f32⟩ : BufTy).Contents (Elt F)) shapeCasts_S1x128x128_S128x128 : (⟨S128x128, .f32⟩ : BufTy).Contents (Elt F))

/-- Layer 2's second weight: slab 1 of the stacked weights, as a matrix. -/
def WR2 (a6 : (⟨S3x128x128, .f32⟩ : BufTy).Contents (Elt F)) : (⟨S128x128, .f32⟩ : BufTy).Contents (Elt F) :=
  (shapeCast S128x128 (extractStridedSlice S1x128x128 ![1, 0, 0] a6 slices_S3x128x128_S1x128x128_1_0_0 : (⟨S1x128x128, .f32⟩ : BufTy).Contents (Elt F)) shapeCasts_S1x128x128_S128x128 : (⟨S128x128, .f32⟩ : BufTy).Contents (Elt F))

/-- Layer 2's bias as a row: row 1 of the stacked biases. -/
def BLrow2 (a5 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![1, 0] a5 slices_S3x128_S1x128_1_0 : (⟨S1x128, .f32⟩ : BufTy).Contents (Elt F)) shapeCasts_S1x128_S128 : (⟨S128, .f32⟩ : BufTy).Contents (Elt F)) : (⟨S1x128, .f32⟩ : BufTy).Contents (Elt F))

/-- Layer 2's scale as a row. -/
def GArow2 (a7 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![1, 0] a7 slices_S3x128_S1x128_1_0 : (⟨S1x128, .f32⟩ : BufTy).Contents (Elt F)) shapeCasts_S1x128_S128 : (⟨S128, .f32⟩ : BufTy).Contents (Elt F)) : (⟨S1x128, .f32⟩ : BufTy).Contents (Elt F))

/-- Layer 2's shift as a row. -/
def BErow2 (a8 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![1, 0] a8 slices_S3x128_S1x128_1_0 : (⟨S1x128, .f32⟩ : BufTy).Contents (Elt F)) shapeCasts_S1x128_S128 : (⟨S128, .f32⟩ : BufTy).Contents (Elt F)) : (⟨S1x128, .f32⟩ : BufTy).Contents (Elt F))

/-- Layer 3's first weight: slab 2 of the stacked weights, as a matrix. -/
def WL3 (a4 : (⟨S3x128x128, .f32⟩ : BufTy).Contents (Elt F)) : (⟨S128x128, .f32⟩ : BufTy).Contents (Elt F) :=
  (shapeCast S128x128 (extractStridedSlice S1x128x128 ![2, 0, 0] a4 slices_S3x128x128_S1x128x128_2_0_0 : (⟨S1x128x128, .f32⟩ : BufTy).Contents (Elt F)) shapeCasts_S1x128x128_S128x128 : (⟨S128x128, .f32⟩ : BufTy).Contents (Elt F))

/-- Layer 3's second weight: slab 2 of the stacked weights, as a matrix. -/
def WR3 (a6 : (⟨S3x128x128, .f32⟩ : BufTy).Contents (Elt F)) : (⟨S128x128, .f32⟩ : BufTy).Contents (Elt F) :=
  (shapeCast S128x128 (extractStridedSlice S1x128x128 ![2, 0, 0] a6 slices_S3x128x128_S1x128x128_2_0_0 : (⟨S1x128x128, .f32⟩ : BufTy).Contents (Elt F)) shapeCasts_S1x128x128_S128x128 : (⟨S128x128, .f32⟩ : BufTy).Contents (Elt F))

/-- Layer 3's bias as a row: row 2 of the stacked biases. -/
def BLrow3 (a5 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![2, 0] a5 slices_S3x128_S1x128_2_0 : (⟨S1x128, .f32⟩ : BufTy).Contents (Elt F)) shapeCasts_S1x128_S128 : (⟨S128, .f32⟩ : BufTy).Contents (Elt F)) : (⟨S1x128, .f32⟩ : BufTy).Contents (Elt F))

/-- Layer 3's scale as a row. -/
def GArow3 (a7 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![2, 0] a7 slices_S3x128_S1x128_2_0 : (⟨S1x128, .f32⟩ : BufTy).Contents (Elt F)) shapeCasts_S1x128_S128 : (⟨S128, .f32⟩ : BufTy).Contents (Elt F)) : (⟨S1x128, .f32⟩ : BufTy).Contents (Elt F))

/-- Layer 3's shift as a row. -/
def BErow3 (a8 : (⟨S3x128, .f32⟩ : BufTy).Contents (Elt F)) : (⟨S1x128, .f32⟩ : BufTy).Contents (Elt F) :=
  (broadcastInDim S1x128 ![1] bcast_S128_S1x128_1 (shapeCast S128 (extractStridedSlice S1x128 ![2, 0] a8 slices_S3x128_S1x128_2_0 : (⟨S1x128, .f32⟩ : BufTy).Contents (Elt F)) shapeCasts_S1x128_S128 : (⟨S128, .f32⟩ : BufTy).Contents (Elt F)) : (⟨S1x128, .f32⟩ : BufTy).Contents (Elt F))

/-- The read-out's first bias as a row. -/
def B1row (a10 : (⟨S128, .f32⟩ : BufTy).Contents (Elt F)) : (⟨S1x128, .f32⟩ : BufTy).Contents (Elt F) :=
  (broadcastInDim S1x128 ![1] bcast_S128_S1x128_1 a10 : (⟨S1x128, .f32⟩ : BufTy).Contents (Elt F))

/-- The read-out's scale as a row. -/
def GRrow (a11 : (⟨S128, .f32⟩ : BufTy).Contents (Elt F)) : (⟨S1x128, .f32⟩ : BufTy).Contents (Elt F) :=
  (broadcastInDim S1x128 ![1] bcast_S128_S1x128_1 a11 : (⟨S1x128, .f32⟩ : BufTy).Contents (Elt F))

/-- The read-out's shift as a row. -/
def BRrow (a12 : (⟨S128, .f32⟩ : BufTy).Contents (Elt F)) : (⟨S1x128, .f32⟩ : BufTy).Contents (Elt F) :=
  (broadcastInDim S1x128 ![1] bcast_S128_S1x128_1 a12 : (⟨S1x128, .f32⟩ : BufTy).Contents (Elt F))

/-- The read-out's second bias as a row. -/
def B2row (a14 : (⟨S128, .f32⟩ : BufTy).Contents (Elt F)) : (⟨S1x128, .f32⟩ : BufTy).Contents (Elt F) :=
  (broadcastInDim S1x128 ![1] bcast_S128_S1x128_1 a14 : (⟨S1x128, .f32⟩ : BufTy).Contents (Elt F))

theorem R_S1 (L : Valuation τ sig (Elt F)) : R L main_v23 = SG (R L main_arg0) (R L main_arg1) := by
  unfold SG
  rw [
    R_main_v23, R_main_v22, R_main_v21, R_main_cst, R_main_v20, R_main_v19,
    R_main_v18, R_main_v17, R_main_v16, R_main_c_0, R_main_v15, R_main_v14,
    R_main_c, R_main_v3, R_main_v2, R_main_v1, R_main_v0]

theorem R_S2 (L : Valuation τ sig (Elt F)) : R L main_v82 = SG (R L main_v62) (R L main_arg1) := by
  unfold SG
  rw [
    R_main_v82, R_main_v81, R_main_v80, R_main_cst_12, R_main_v79, R_main_v78,
    R_main_v77, R_main_v76, R_main_v75, R_main_c_11, R_main_v74, R_main_v73,
    R_main_c_10, R_main_v3, R_main_v2, R_main_v1, R_main_v0]

theorem R_S3 (L : Valuation τ sig (Elt F)) : R L main_v141 = SG (R L main_v121) (R L main_arg1) := by
  unfold SG
  rw [
    R_main_v141, R_main_v140, R_main_v139, R_main_cst_24, R_main_v138, R_main_v137,
    R_main_v136, R_main_v135, R_main_v134, R_main_c_23, R_main_v133, R_main_v132,
    R_main_c_22, R_main_v3, R_main_v2, R_main_v1, R_main_v0]

theorem R_cnt1 (L : Valuation τ sig (Elt F)) : R L main_v27 = CNT (R L main_arg1) := by
  unfold CNT
  rw [
    R_main_v27, R_main_v26, R_main_v25, R_main_cst_2, R_main_v24, R_main_cst_1,
    R_main_v3, R_main_v2]

theorem R_cnt2 (L : Valuation τ sig (Elt F)) : R L main_v86 = CNT (R L main_arg1) := by
  unfold CNT
  rw [
    R_main_v86, R_main_v85, R_main_v84, R_main_cst_14, R_main_v83, R_main_cst_13,
    R_main_v3, R_main_v2]

theorem R_cnt3 (L : Valuation τ sig (Elt F)) : R L main_v145 = CNT (R L main_arg1) := by
  unfold CNT
  rw [
    R_main_v145, R_main_v144, R_main_v143, R_main_cst_26, R_main_v142, R_main_cst_25,
    R_main_v3, R_main_v2]

theorem R_WL1 (L : Valuation τ sig (Elt F)) : R L main_v5 = WL1 (R L main_arg4) := by
  unfold WL1
  rw [
    R_main_v5, R_main_v4]

theorem R_WR1 (L : Valuation τ sig (Elt F)) : R L main_v9 = WR1 (R L main_arg6) := by
  unfold WR1
  rw [
    R_main_v9, R_main_v8]

theorem R_BLrow1 (L : Valuation τ sig (Elt F)) : R L main_v37 = BLrow1 (R L main_arg5) := by
  unfold BLrow1
  rw [
    R_main_v37, R_main_v7, R_main_v6]

theorem R_GArow1 (L : Valuation τ sig (Elt F)) : R L main_v56 = GArow1 (R L main_arg7) := by
  unfold GArow1
  rw [
    R_main_v56, R_main_v11, R_main_v10]

theorem R_BErow1 (L : Valuation τ sig (Elt F)) : R L main_v59 = BErow1 (R L main_arg8) := by
  unfold BErow1
  rw [
    R_main_v59, R_main_v13, R_main_v12]

theorem R_WL2 (L : Valuation τ sig (Elt F)) : R L main_v64 = WL2 (R L main_arg4) := by
  unfold WL2
  rw [
    R_main_v64, R_main_v63]

theorem R_WR2 (L : Valuation τ sig (Elt F)) : R L main_v68 = WR2 (R L main_arg6) := by
  unfold WR2
  rw [
    R_main_v68, R_main_v67]

theorem R_BLrow2 (L : Valuation τ sig (Elt F)) : R L main_v96 = BLrow2 (R L main_arg5) := by
  unfold BLrow2
  rw [
    R_main_v96, R_main_v66, R_main_v65]

theorem R_GArow2 (L : Valuation τ sig (Elt F)) : R L main_v115 = GArow2 (R L main_arg7) := by
  unfold GArow2
  rw [
    R_main_v115, R_main_v70, R_main_v69]

theorem R_BErow2 (L : Valuation τ sig (Elt F)) : R L main_v118 = BErow2 (R L main_arg8) := by
  unfold BErow2
  rw [
    R_main_v118, R_main_v72, R_main_v71]

theorem R_WL3 (L : Valuation τ sig (Elt F)) : R L main_v123 = WL3 (R L main_arg4) := by
  unfold WL3
  rw [
    R_main_v123, R_main_v122]

theorem R_WR3 (L : Valuation τ sig (Elt F)) : R L main_v127 = WR3 (R L main_arg6) := by
  unfold WR3
  rw [
    R_main_v127, R_main_v126]

theorem R_BLrow3 (L : Valuation τ sig (Elt F)) : R L main_v155 = BLrow3 (R L main_arg5) := by
  unfold BLrow3
  rw [
    R_main_v155, R_main_v125, R_main_v124]

theorem R_GArow3 (L : Valuation τ sig (Elt F)) : R L main_v174 = GArow3 (R L main_arg7) := by
  unfold GArow3
  rw [
    R_main_v174, R_main_v129, R_main_v128]

theorem R_BErow3 (L : Valuation τ sig (Elt F)) : R L main_v177 = BErow3 (R L main_arg8) := by
  unfold BErow3
  rw [
    R_main_v177, R_main_v131, R_main_v130]

theorem R_B1row (L : Valuation τ sig (Elt F)) : R L main_v190 = B1row (R L main_arg10) := by
  unfold B1row
  rw [
    R_main_v190]

theorem R_GRrow (L : Valuation τ sig (Elt F)) : R L main_v206 = GRrow (R L main_arg11) := by
  unfold GRrow
  rw [
    R_main_v206]

theorem R_BRrow (L : Valuation τ sig (Elt F)) : R L main_v209 = BRrow (R L main_arg12) := by
  unfold BRrow
  rw [
    R_main_v209]

theorem R_B2row (L : Valuation τ sig (Elt F)) : R L main_v215 = B2row (R L main_arg14) := by
  unfold B2row
  rw [
    R_main_v215]

theorem R_state (L : Valuation τ sig (Elt F)) : R L main_v187 = ST (R L main_v180) (R L main_arg3) := by
  unfold ST
  rw [
    R_main_v187, R_main_v186, R_main_v185, R_main_v184, R_main_v183, R_main_c_35,
    R_main_v182, R_main_v181, R_main_c_34]

end Cert.ReferenceIdeal.RefRun

end
-- ==== Proof.RowsEq.lean ====
/- A vector made a row, two ways.

   A vector of 128 entries becomes a row [1,128] either by a broadcast along a new leading axis or by a change of shape;
   either way the row's entry (0, j) is the vector's entry j, so the two rows are one function. -/
import proofs.«180021_j37692632990117_2_alg».proof.Proof.RefVec

noncomputable section

namespace Cert.ReferenceIdeal.RefRun

open Idealize.ShloMosaic Idealize.ShloMosaic.ValueIdx

/-- The broadcast row and the cast row of one vector agree at (0, j): both are the vector at j. -/
theorem row_entry_eq {α : Type} (hb : (⟨1, ![128]⟩ : Shape).BroadcastsInDim ⟨2, ![1, 128]⟩ (![1] : Fin 1 → Fin 2))
    (hc : (⟨1, ![128]⟩ : Shape).ShapeCasts ⟨2, ![1, 128]⟩) (v : (⟨1, ![128]⟩ : Shape).Idx → α) (j : Fin 128) :
    broadcastInDim ⟨2, ![1, 128]⟩ ![1] hb v (ix2 (0 : Fin 1) j) = shapeCast ⟨2, ![1, 128]⟩ v hc (ix2 (0 : Fin 1) j) := by
  rw [bid_b_1b, shapeCast_a_1a_apply]

/-- The broadcast row and the cast row of one vector are equal. -/
theorem row_bcast_eq_cast {α : Type} (hb : (⟨1, ![128]⟩ : Shape).BroadcastsInDim ⟨2, ![1, 128]⟩ (![1] : Fin 1 → Fin 2))
    (hc : (⟨1, ![128]⟩ : Shape).ShapeCasts ⟨2, ![1, 128]⟩) (v : (⟨1, ![128]⟩ : Shape).Idx → α) :
    broadcastInDim ⟨2, ![1, 128]⟩ ![1] hb v = shapeCast ⟨2, ![1, 128]⟩ v hc := by
  funext i
  obtain ⟨z, j, rfl⟩ : ∃ (z : Fin 1) (j : Fin 128), i = ix2 z j := ⟨i 0, i 1, eq_ix2 i⟩
  obtain rfl : z = 0 := Subsingleton.elim _ _
  exact row_entry_eq hb hc v j

end Cert.ReferenceIdeal.RefRun

end
-- ==== Proof.BridgeStep.lean ====
/- One layer of the bridge: when the two programs' layer inputs are the same real arrays (the scatter-gather sum, the
   features, the weights, the bias, scale and shift rows; the kernel's reciprocal degree column being the select of the
   reference's degree), the two layer outputs are the same array, and it is real.  Likewise the read-out. -/
import proofs.«180021_j37692632990117_2_alg».proof.Proof.GlueReal

noncomputable section

namespace Cert.Spec

open Idealize.ShloMosaic Idealize.ShloMosaic.ValueIdx Cert.LibRealSums Cert.KMath

theorem layer_step (S : (⟨2, ![50000, 128]⟩ : Shape).Idx → EReal) (inv cnt : (⟨2, ![50000, 1]⟩ : Shape).Idx → EReal)
    (h : (⟨2, ![50000, 128]⟩ : Shape).Idx → EReal) (wl wr : (⟨2, ![128, 128]⟩ : Shape).Idx → EReal)
    (bl ga be : (⟨2, ![1, 128]⟩ : Shape).Idx → EReal) (hk hr : (⟨2, ![50000, 128]⟩ : Shape).Idx → EReal)
    (hK : hk = kerLayer S inv h wl wr bl ga be) (hR : hr = refLayer S cnt h wl wr bl ga be)
    (hinv : ∀ r : Fin 50000, inv (ix2 r (0 : Fin 1)) = Scalar.select (Ideal.cmp .ogt (cnt (ix2 r (0 : Fin 1))) (Ideal.ofBits .f32 0x00000000#32))
      (Ideal.div (Ideal.ofBits .f32 0x3F800000#32) (max (cnt (ix2 r (0 : Fin 1))) (Ideal.ofBits .f32 0x3F800000#32))) (Ideal.ofBits .f32 0x00000000#32))
    (hcnt : ∀ r : Fin 50000, IsReal (cnt (ix2 r (0 : Fin 1))))
    (hS : ∀ i, IsReal (S i)) (hh : ∀ i, IsReal (h i)) (hwl : ∀ i, IsReal (wl i)) (hwr : ∀ i, IsReal (wr i))
    (hbl : ∀ i, IsReal (bl i)) (hga : ∀ i, IsReal (ga i)) (hbe : ∀ i, IsReal (be i)) :
    hk = hr ∧ ∀ i, IsReal (hk i) := by
  have hI := inv_real cnt inv hinv hcnt
  have hP := linPre2_real _ _ _ _ _ (aggK_real S inv hS hI) hh hwl hwr hbl
  subst hK; subst hR
  exact ⟨(refLayer_eq S cnt inv h wl wr bl ga be hinv hcnt hP).symm, kerLayer_real S inv h wl wr bl ga be hP hga hbe⟩

theorem readout_step (h : (⟨2, ![50000, 128]⟩ : Shape).Idx → EReal) (w1 : (⟨2, ![128, 128]⟩ : Shape).Idx → EReal)
    (b1 ga be : (⟨2, ![1, 128]⟩ : Shape).Idx → EReal) (w2 : (⟨2, ![128, 128]⟩ : Shape).Idx → EReal)
    (b2 : (⟨2, ![1, 128]⟩ : Shape).Idx → EReal) (mask : (⟨2, ![50000, 1]⟩ : Shape).Idx → EReal)
    (ak ar : (⟨2, ![50000, 128]⟩ : Shape).Idx → EReal)
    (hK : ak = kerReadout h w1 b1 ga be w2 b2 mask) (hR : ar = refReadout h w1 b1 ga be w2 b2 mask)
    (hh : ∀ i, IsReal (h i)) (hw1 : ∀ i, IsReal (w1 i)) (hb1 : ∀ i, IsReal (b1 i)) : ak = ar := by
  subst hK; subst hR
  exact (refReadout_eq h w1 b1 ga be w2 b2 mask (linPre1_real h w1 b1 hh hw1 hb1)).symm

end Cert.Spec

end
-- ==== Proof.Bridge.lean ====
/- The two idealized programs compute the same three arrays.

   Layer by layer: the scatter-gather sum, the degree column, the weights and the rows are the same host terms of the same
   arguments on both sides (a reshape of a [128] array to a row and its spread along a new leading axis hold the same
   entries); the kernel's reciprocal degree column is the select of the degree; everything is real because the float
   arguments are; so the layer outputs agree and stay real (one layer of the bridge, three times).  The read-out agrees
   the same way, and the 256-row gather is one host operation of equal operands. -/
import proofs.«180021_j37692632990117_2_alg».proof.Proof.IdealValue
import proofs.«180021_j37692632990117_2_alg».proof.Proof.IdealChains
import proofs.«180021_j37692632990117_2_alg».proof.Proof.IdealFacts
import proofs.«180021_j37692632990117_2_alg».proof.Proof.IdealReal
import proofs.«180021_j37692632990117_2_alg».proof.Proof.RefValue
import proofs.«180021_j37692632990117_2_alg».proof.Proof.RefChains
import proofs.«180021_j37692632990117_2_alg».proof.Proof.RowsEq
import proofs.«180021_j37692632990117_2_alg».proof.Proof.BridgeStep

set_option maxRecDepth 16384

noncomputable section

namespace Cert.Bridge

open Idealize.ShloMosaic Idealize.ShloMosaic.TcCoe Idealize.ShloMosaic.ValueIdx Idealize.ShloMosaic.StableHlo Idealize.SL.Sem
open Cert.Spec Cert.LibRealSums

/-! ## The shared host terms are the same on both sides -/

theorem SG_eq (h : (⟨Cert.KernelIdeal.S50000x128, .f32⟩ : BufTy).Contents (Elt Ideal)) (ei : (⟨Cert.KernelIdeal.S2x800000, .i32⟩ : BufTy).Contents (Elt Ideal)) :
    Cert.KernelIdeal.Gen.SG (F := Ideal) h ei = Cert.ReferenceIdeal.RefRun.SG (F := Ideal) h ei := rfl
theorem CNT_eq (ei : (⟨Cert.KernelIdeal.S2x800000, .i32⟩ : BufTy).Contents (Elt Ideal)) :
    Cert.KernelIdeal.Gen.CNT (F := Ideal) ei = Cert.ReferenceIdeal.RefRun.CNT (F := Ideal) ei := rfl
theorem ST_eq (h : (⟨Cert.KernelIdeal.S50000x128, .f32⟩ : BufTy).Contents (Elt Ideal)) (a : (⟨Cert.KernelIdeal.S256, .i32⟩ : BufTy).Contents (Elt Ideal)) :
    Cert.KernelIdeal.Gen.ST (F := Ideal) h a = Cert.ReferenceIdeal.RefRun.ST (F := Ideal) h a := rfl
theorem WL1_eq (a : (⟨Cert.KernelIdeal.S3x128x128, .f32⟩ : BufTy).Contents (Elt Ideal)) : Cert.KernelIdeal.Gen.WL1 (F := Ideal) a = Cert.ReferenceIdeal.RefRun.WL1 (F := Ideal) a := rfl
theorem WR1_eq (a : (⟨Cert.KernelIdeal.S3x128x128, .f32⟩ : BufTy).Contents (Elt Ideal)) : Cert.KernelIdeal.Gen.WR1 (F := Ideal) a = Cert.ReferenceIdeal.RefRun.WR1 (F := Ideal) a := rfl
theorem WL2_eq (a : (⟨Cert.KernelIdeal.S3x128x128, .f32⟩ : BufTy).Contents (Elt Ideal)) : Cert.KernelIdeal.Gen.WL2 (F := Ideal) a = Cert.ReferenceIdeal.RefRun.WL2 (F := Ideal) a := rfl
theorem WR2_eq (a : (⟨Cert.KernelIdeal.S3x128x128, .f32⟩ : BufTy).Contents (Elt Ideal)) : Cert.KernelIdeal.Gen.WR2 (F := Ideal) a = Cert.ReferenceIdeal.RefRun.WR2 (F := Ideal) a := rfl
theorem WL3_eq (a : (⟨Cert.KernelIdeal.S3x128x128, .f32⟩ : BufTy).Contents (Elt Ideal)) : Cert.KernelIdeal.Gen.WL3 (F := Ideal) a = Cert.ReferenceIdeal.RefRun.WL3 (F := Ideal) a := rfl
theorem WR3_eq (a : (⟨Cert.KernelIdeal.S3x128x128, .f32⟩ : BufTy).Contents (Elt Ideal)) : Cert.KernelIdeal.Gen.WR3 (F := Ideal) a = Cert.ReferenceIdeal.RefRun.WR3 (F := Ideal) a := rfl

/-- A [128] array as a row: by a change of shape, or spread along a new leading axis — the same entries. -/
theorem row_forms (v : (⟨Cert.KernelIdeal.S128, .f32⟩ : BufTy).Contents (Elt Ideal)) :
    (shapeCast Cert.KernelIdeal.S1x128 v Cert.KernelIdeal.Gen.shapeCasts_S128_S1x128 : (⟨Cert.KernelIdeal.S1x128, .f32⟩ : BufTy).Contents (Elt Ideal))
      = broadcastInDim Cert.ReferenceIdeal.S1x128 ![1] Cert.ReferenceIdeal.Gen.bcast_S128_S1x128_1 v := by
  exact (Cert.ReferenceIdeal.RefRun.row_bcast_eq_cast _ _ v).symm

theorem BLrow1_eq (a : (⟨Cert.KernelIdeal.S3x128, .f32⟩ : BufTy).Contents (Elt Ideal)) : Cert.KernelIdeal.Gen.BLrow1 (F := Ideal) a = Cert.ReferenceIdeal.RefRun.BLrow1 (F := Ideal) a := by
  unfold Cert.KernelIdeal.Gen.BLrow1 Cert.ReferenceIdeal.RefRun.BLrow1
  exact row_forms _
theorem GArow1_eq (a : (⟨Cert.KernelIdeal.S3x128, .f32⟩ : BufTy).Contents (Elt Ideal)) : Cert.KernelIdeal.Gen.GArow1 (F := Ideal) a = Cert.ReferenceIdeal.RefRun.GArow1 (F := Ideal) a := by
  unfold Cert.KernelIdeal.Gen.GArow1 Cert.ReferenceIdeal.RefRun.GArow1
  exact row_forms _
theorem BErow1_eq (a : (⟨Cert.KernelIdeal.S3x128, .f32⟩ : BufTy).Contents (Elt Ideal)) : Cert.KernelIdeal.Gen.BErow1 (F := Ideal) a = Cert.ReferenceIdeal.RefRun.BErow1 (F := Ideal) a := by
  unfold Cert.KernelIdeal.Gen.BErow1 Cert.ReferenceIdeal.RefRun.BErow1
  exact row_forms _
theorem BLrow2_eq (a : (⟨Cert.KernelIdeal.S3x128, .f32⟩ : BufTy).Contents (Elt Ideal)) : Cert.KernelIdeal.Gen.BLrow2 (F := Ideal) a = Cert.ReferenceIdeal.RefRun.BLrow2 (F := Ideal) a := by
  unfold Cert.KernelIdeal.Gen.BLrow2 Cert.ReferenceIdeal.RefRun.BLrow2
  exact row_forms _
theorem GArow2_eq (a : (⟨Cert.KernelIdeal.S3x128, .f32⟩ : BufTy).Contents (Elt Ideal)) : Cert.KernelIdeal.Gen.GArow2 (F := Ideal) a = Cert.ReferenceIdeal.RefRun.GArow2 (F := Ideal) a := by
  unfold Cert.KernelIdeal.Gen.GArow2 Cert.ReferenceIdeal.RefRun.GArow2
  exact row_forms _
theorem BErow2_eq (a : (⟨Cert.KernelIdeal.S3x128, .f32⟩ : BufTy).Contents (Elt Ideal)) : Cert.KernelIdeal.Gen.BErow2 (F := Ideal) a = Cert.ReferenceIdeal.RefRun.BErow2 (F := Ideal) a := by
  unfold Cert.KernelIdeal.Gen.BErow2 Cert.ReferenceIdeal.RefRun.BErow2
  exact row_forms _
theorem BLrow3_eq (a : (⟨Cert.KernelIdeal.S3x128, .f32⟩ : BufTy).Contents (Elt Ideal)) : Cert.KernelIdeal.Gen.BLrow3 (F := Ideal) a = Cert.ReferenceIdeal.RefRun.BLrow3 (F := Ideal) a := by
  unfold Cert.KernelIdeal.Gen.BLrow3 Cert.ReferenceIdeal.RefRun.BLrow3
  exact row_forms _
theorem GArow3_eq (a : (⟨Cert.KernelIdeal.S3x128, .f32⟩ : BufTy).Contents (Elt Ideal)) : Cert.KernelIdeal.Gen.GArow3 (F := Ideal) a = Cert.ReferenceIdeal.RefRun.GArow3 (F := Ideal) a := by
  unfold Cert.KernelIdeal.Gen.GArow3 Cert.ReferenceIdeal.RefRun.GArow3
  exact row_forms _
theorem BErow3_eq (a : (⟨Cert.KernelIdeal.S3x128, .f32⟩ : BufTy).Contents (Elt Ideal)) : Cert.KernelIdeal.Gen.BErow3 (F := Ideal) a = Cert.ReferenceIdeal.RefRun.BErow3 (F := Ideal) a := by
  unfold Cert.KernelIdeal.Gen.BErow3 Cert.ReferenceIdeal.RefRun.BErow3
  exact row_forms _
theorem B1row_eq (a : (⟨Cert.KernelIdeal.S128, .f32⟩ : BufTy).Contents (Elt Ideal)) : Cert.KernelIdeal.Gen.B1row (F := Ideal) a = Cert.ReferenceIdeal.RefRun.B1row (F := Ideal) a := by
  unfold Cert.KernelIdeal.Gen.B1row Cert.ReferenceIdeal.RefRun.B1row
  exact row_forms _
theorem GRrow_eq (a : (⟨Cert.KernelIdeal.S128, .f32⟩ : BufTy).Contents (Elt Ideal)) : Cert.KernelIdeal.Gen.GRrow (F := Ideal) a = Cert.ReferenceIdeal.RefRun.GRrow (F := Ideal) a := by
  unfold Cert.KernelIdeal.Gen.GRrow Cert.ReferenceIdeal.RefRun.GRrow
  exact row_forms _
theorem BRrow_eq (a : (⟨Cert.KernelIdeal.S128, .f32⟩ : BufTy).Contents (Elt Ideal)) : Cert.KernelIdeal.Gen.BRrow (F := Ideal) a = Cert.ReferenceIdeal.RefRun.BRrow (F := Ideal) a := by
  unfold Cert.KernelIdeal.Gen.BRrow Cert.ReferenceIdeal.RefRun.BRrow
  exact row_forms _
theorem B2row_eq (a : (⟨Cert.KernelIdeal.S128, .f32⟩ : BufTy).Contents (Elt Ideal)) : Cert.KernelIdeal.Gen.B2row (F := Ideal) a = Cert.ReferenceIdeal.RefRun.B2row (F := Ideal) a := by
  unfold Cert.KernelIdeal.Gen.B2row Cert.ReferenceIdeal.RefRun.B2row
  exact row_forms _

/-! ## The bridge -/

section

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

local notation "KK" => Cert.KernelIdeal.Gen.K m c
local notation "RR" => Cert.ReferenceIdeal.RefRun.R (launchContents m' c)

theorem arg0_eq (a : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) :
    RR Cert.ReferenceIdeal.main_arg0 = KK Cert.KernelIdeal.main_arg0 :=
  (Cert.ReferenceIdeal.RefRun.keep _ (by decide) (by decide) (by decide) (by decide) (by decide)).trans (a.trans (Cert.KernelIdeal.Gen.keep0 m c Cert.KernelIdeal.main_arg0 (by decide)).symm)
theorem K_arg0 : KK Cert.KernelIdeal.main_arg0 = m ((c.tc : Thread Cert.KernelIdeal.nD Cert.KernelIdeal.τ).loc Cert.KernelIdeal.main_arg0) := Cert.KernelIdeal.Gen.keep0 m c Cert.KernelIdeal.main_arg0 (by decide)
theorem arg1_eq (a : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    RR Cert.ReferenceIdeal.main_arg1 = KK Cert.KernelIdeal.main_arg1 :=
  (Cert.ReferenceIdeal.RefRun.keep _ (by decide) (by decide) (by decide) (by decide) (by decide)).trans (a.trans (Cert.KernelIdeal.Gen.keep0 m c Cert.KernelIdeal.main_arg1 (by decide)).symm)
theorem K_arg1 : KK Cert.KernelIdeal.main_arg1 = m ((c.tc : Thread Cert.KernelIdeal.nD Cert.KernelIdeal.τ).loc Cert.KernelIdeal.main_arg1) := Cert.KernelIdeal.Gen.keep0 m c Cert.KernelIdeal.main_arg1 (by decide)
theorem arg2_eq (a : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    RR Cert.ReferenceIdeal.main_arg2 = KK Cert.KernelIdeal.main_arg2 :=
  (Cert.ReferenceIdeal.RefRun.keep _ (by decide) (by decide) (by decide) (by decide) (by decide)).trans (a.trans (Cert.KernelIdeal.Gen.keep0 m c Cert.KernelIdeal.main_arg2 (by decide)).symm)
theorem K_arg2 : KK Cert.KernelIdeal.main_arg2 = m ((c.tc : Thread Cert.KernelIdeal.nD Cert.KernelIdeal.τ).loc Cert.KernelIdeal.main_arg2) := Cert.KernelIdeal.Gen.keep0 m c Cert.KernelIdeal.main_arg2 (by decide)
theorem arg3_eq (a : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    RR Cert.ReferenceIdeal.main_arg3 = KK Cert.KernelIdeal.main_arg3 :=
  (Cert.ReferenceIdeal.RefRun.keep _ (by decide) (by decide) (by decide) (by decide) (by decide)).trans (a.trans (Cert.KernelIdeal.Gen.keep0 m c Cert.KernelIdeal.main_arg3 (by decide)).symm)
theorem K_arg3 : KK Cert.KernelIdeal.main_arg3 = m ((c.tc : Thread Cert.KernelIdeal.nD Cert.KernelIdeal.τ).loc Cert.KernelIdeal.main_arg3) := Cert.KernelIdeal.Gen.keep0 m c Cert.KernelIdeal.main_arg3 (by decide)
theorem arg4_eq (a : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    RR Cert.ReferenceIdeal.main_arg4 = KK Cert.KernelIdeal.main_arg4 :=
  (Cert.ReferenceIdeal.RefRun.keep _ (by decide) (by decide) (by decide) (by decide) (by decide)).trans (a.trans (Cert.KernelIdeal.Gen.keep0 m c Cert.KernelIdeal.main_arg4 (by decide)).symm)
theorem K_arg4 : KK Cert.KernelIdeal.main_arg4 = m ((c.tc : Thread Cert.KernelIdeal.nD Cert.KernelIdeal.τ).loc Cert.KernelIdeal.main_arg4) := Cert.KernelIdeal.Gen.keep0 m c Cert.KernelIdeal.main_arg4 (by decide)
theorem arg5_eq (a : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    RR Cert.ReferenceIdeal.main_arg5 = KK Cert.KernelIdeal.main_arg5 :=
  (Cert.ReferenceIdeal.RefRun.keep _ (by decide) (by decide) (by decide) (by decide) (by decide)).trans (a.trans (Cert.KernelIdeal.Gen.keep0 m c Cert.KernelIdeal.main_arg5 (by decide)).symm)
theorem K_arg5 : KK Cert.KernelIdeal.main_arg5 = m ((c.tc : Thread Cert.KernelIdeal.nD Cert.KernelIdeal.τ).loc Cert.KernelIdeal.main_arg5) := Cert.KernelIdeal.Gen.keep0 m c Cert.KernelIdeal.main_arg5 (by decide)
theorem arg6_eq (a : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    RR Cert.ReferenceIdeal.main_arg6 = KK Cert.KernelIdeal.main_arg6 :=
  (Cert.ReferenceIdeal.RefRun.keep _ (by decide) (by decide) (by decide) (by decide) (by decide)).trans (a.trans (Cert.KernelIdeal.Gen.keep0 m c Cert.KernelIdeal.main_arg6 (by decide)).symm)
theorem K_arg6 : KK Cert.KernelIdeal.main_arg6 = m ((c.tc : Thread Cert.KernelIdeal.nD Cert.KernelIdeal.τ).loc Cert.KernelIdeal.main_arg6) := Cert.KernelIdeal.Gen.keep0 m c Cert.KernelIdeal.main_arg6 (by decide)
theorem arg7_eq (a : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    RR Cert.ReferenceIdeal.main_arg7 = KK Cert.KernelIdeal.main_arg7 :=
  (Cert.ReferenceIdeal.RefRun.keep _ (by decide) (by decide) (by decide) (by decide) (by decide)).trans (a.trans (Cert.KernelIdeal.Gen.keep0 m c Cert.KernelIdeal.main_arg7 (by decide)).symm)
theorem K_arg7 : KK Cert.KernelIdeal.main_arg7 = m ((c.tc : Thread Cert.KernelIdeal.nD Cert.KernelIdeal.τ).loc Cert.KernelIdeal.main_arg7) := Cert.KernelIdeal.Gen.keep0 m c Cert.KernelIdeal.main_arg7 (by decide)
theorem arg8_eq (a : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    RR Cert.ReferenceIdeal.main_arg8 = KK Cert.KernelIdeal.main_arg8 :=
  (Cert.ReferenceIdeal.RefRun.keep _ (by decide) (by decide) (by decide) (by decide) (by decide)).trans (a.trans (Cert.KernelIdeal.Gen.keep0 m c Cert.KernelIdeal.main_arg8 (by decide)).symm)
theorem K_arg8 : KK Cert.KernelIdeal.main_arg8 = m ((c.tc : Thread Cert.KernelIdeal.nD Cert.KernelIdeal.τ).loc Cert.KernelIdeal.main_arg8) := Cert.KernelIdeal.Gen.keep0 m c Cert.KernelIdeal.main_arg8 (by decide)
theorem arg9_eq (a : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    RR Cert.ReferenceIdeal.main_arg9 = KK Cert.KernelIdeal.main_arg9 :=
  (Cert.ReferenceIdeal.RefRun.keep _ (by decide) (by decide) (by decide) (by decide) (by decide)).trans (a.trans (Cert.KernelIdeal.Gen.keep0 m c Cert.KernelIdeal.main_arg9 (by decide)).symm)
theorem K_arg9 : KK Cert.KernelIdeal.main_arg9 = m ((c.tc : Thread Cert.KernelIdeal.nD Cert.KernelIdeal.τ).loc Cert.KernelIdeal.main_arg9) := Cert.KernelIdeal.Gen.keep0 m c Cert.KernelIdeal.main_arg9 (by decide)
theorem arg10_eq (a : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    RR Cert.ReferenceIdeal.main_arg10 = KK Cert.KernelIdeal.main_arg10 :=
  (Cert.ReferenceIdeal.RefRun.keep _ (by decide) (by decide) (by decide) (by decide) (by decide)).trans (a.trans (Cert.KernelIdeal.Gen.keep0 m c Cert.KernelIdeal.main_arg10 (by decide)).symm)
theorem K_arg10 : KK Cert.KernelIdeal.main_arg10 = m ((c.tc : Thread Cert.KernelIdeal.nD Cert.KernelIdeal.τ).loc Cert.KernelIdeal.main_arg10) := Cert.KernelIdeal.Gen.keep0 m c Cert.KernelIdeal.main_arg10 (by decide)
theorem arg11_eq (a : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    RR Cert.ReferenceIdeal.main_arg11 = KK Cert.KernelIdeal.main_arg11 :=
  (Cert.ReferenceIdeal.RefRun.keep _ (by decide) (by decide) (by decide) (by decide) (by decide)).trans (a.trans (Cert.KernelIdeal.Gen.keep0 m c Cert.KernelIdeal.main_arg11 (by decide)).symm)
theorem K_arg11 : KK Cert.KernelIdeal.main_arg11 = m ((c.tc : Thread Cert.KernelIdeal.nD Cert.KernelIdeal.τ).loc Cert.KernelIdeal.main_arg11) := Cert.KernelIdeal.Gen.keep0 m c Cert.KernelIdeal.main_arg11 (by decide)
theorem arg12_eq (a : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    RR Cert.ReferenceIdeal.main_arg12 = KK Cert.KernelIdeal.main_arg12 :=
  (Cert.ReferenceIdeal.RefRun.keep _ (by decide) (by decide) (by decide) (by decide) (by decide)).trans (a.trans (Cert.KernelIdeal.Gen.keep0 m c Cert.KernelIdeal.main_arg12 (by decide)).symm)
theorem K_arg12 : KK Cert.KernelIdeal.main_arg12 = m ((c.tc : Thread Cert.KernelIdeal.nD Cert.KernelIdeal.τ).loc Cert.KernelIdeal.main_arg12) := Cert.KernelIdeal.Gen.keep0 m c Cert.KernelIdeal.main_arg12 (by decide)
theorem arg13_eq (a : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    RR Cert.ReferenceIdeal.main_arg13 = KK Cert.KernelIdeal.main_arg13 :=
  (Cert.ReferenceIdeal.RefRun.keep _ (by decide) (by decide) (by decide) (by decide) (by decide)).trans (a.trans (Cert.KernelIdeal.Gen.keep0 m c Cert.KernelIdeal.main_arg13 (by decide)).symm)
theorem K_arg13 : KK Cert.KernelIdeal.main_arg13 = m ((c.tc : Thread Cert.KernelIdeal.nD Cert.KernelIdeal.τ).loc Cert.KernelIdeal.main_arg13) := Cert.KernelIdeal.Gen.keep0 m c Cert.KernelIdeal.main_arg13 (by decide)
theorem arg14_eq (a : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    RR Cert.ReferenceIdeal.main_arg14 = KK Cert.KernelIdeal.main_arg14 :=
  (Cert.ReferenceIdeal.RefRun.keep _ (by decide) (by decide) (by decide) (by decide) (by decide)).trans (a.trans (Cert.KernelIdeal.Gen.keep0 m c Cert.KernelIdeal.main_arg14 (by decide)).symm)
theorem K_arg14 : KK Cert.KernelIdeal.main_arg14 = m ((c.tc : Thread Cert.KernelIdeal.nD Cert.KernelIdeal.τ).loc Cert.KernelIdeal.main_arg14) := Cert.KernelIdeal.Gen.keep0 m c Cert.KernelIdeal.main_arg14 (by decide)

/-- THE BRIDGE: the reference's three results are the kernel program's. -/
theorem results_eq (hpre : Cert.Pre_KernelIdeal m)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (a14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    RR Cert.ReferenceIdeal.main_v180 = KK Cert.KernelIdeal.main_v107 ∧ RR Cert.ReferenceIdeal.main_v219 = KK Cert.KernelIdeal.main_v124 ∧ RR Cert.ReferenceIdeal.main_v187 = KK Cert.KernelIdeal.main_v114 := by
  have e0 := arg0_eq m m' c a0
  have e1 := arg1_eq m m' c a1
  have e2 := arg2_eq m m' c a2
  have e3 := arg3_eq m m' c a3
  have e4 := arg4_eq m m' c a4
  have e5 := arg5_eq m m' c a5
  have e6 := arg6_eq m m' c a6
  have e7 := arg7_eq m m' c a7
  have e8 := arg8_eq m m' c a8
  have e9 := arg9_eq m m' c a9
  have e10 := arg10_eq m m' c a10
  have e11 := arg11_eq m m' c a11
  have e12 := arg12_eq m m' c a12
  have e13 := arg13_eq m m' c a13
  have e14 := arg14_eq m m' c a14
  -- the float arguments are real
  have rx : ∀ i, IsReal (KK Cert.KernelIdeal.main_arg0 i) := by rw [K_arg0 m c]; exact Cert.KernelIdeal.Gen.arg0_real m hpre c
  have r4 : ∀ i, IsReal (KK Cert.KernelIdeal.main_arg4 i) := by rw [K_arg4 m c]; exact Cert.KernelIdeal.Gen.arg4_real m hpre c
  have r5 : ∀ i, IsReal (KK Cert.KernelIdeal.main_arg5 i) := by rw [K_arg5 m c]; exact Cert.KernelIdeal.Gen.arg5_real m hpre c
  have r6 : ∀ i, IsReal (KK Cert.KernelIdeal.main_arg6 i) := by rw [K_arg6 m c]; exact Cert.KernelIdeal.Gen.arg6_real m hpre c
  have r7 : ∀ i, IsReal (KK Cert.KernelIdeal.main_arg7 i) := by rw [K_arg7 m c]; exact Cert.KernelIdeal.Gen.arg7_real m hpre c
  have r8 : ∀ i, IsReal (KK Cert.KernelIdeal.main_arg8 i) := by rw [K_arg8 m c]; exact Cert.KernelIdeal.Gen.arg8_real m hpre c
  have r9 : ∀ i, IsReal (KK Cert.KernelIdeal.main_arg9 i) := by rw [K_arg9 m c]; exact Cert.KernelIdeal.Gen.arg9_real m hpre c
  have r10 : ∀ i, IsReal (KK Cert.KernelIdeal.main_arg10 i) := by rw [K_arg10 m c]; exact Cert.KernelIdeal.Gen.arg10_real m hpre c
  -- the degree column and the reciprocal degree
  have ecnt1 : RR Cert.ReferenceIdeal.main_v27 = KK Cert.KernelIdeal.main_v7 := by rw [Cert.ReferenceIdeal.RefRun.R_cnt1, Cert.KernelIdeal.Gen.K_cnt m c, e1]; exact (CNT_eq _).symm
  have ecnt2 : RR Cert.ReferenceIdeal.main_v86 = KK Cert.KernelIdeal.main_v7 := by rw [Cert.ReferenceIdeal.RefRun.R_cnt2, Cert.KernelIdeal.Gen.K_cnt m c, e1]; exact (CNT_eq _).symm
  have ecnt3 : RR Cert.ReferenceIdeal.main_v145 = KK Cert.KernelIdeal.main_v7 := by rw [Cert.ReferenceIdeal.RefRun.R_cnt3, Cert.KernelIdeal.Gen.K_cnt m c, e1]; exact (CNT_eq _).symm
  have hcnt : ∀ r : Fin 50000, IsReal ((KK Cert.KernelIdeal.main_v7) (ix2 r (0 : Fin 1))) := by
    rw [Cert.KernelIdeal.Gen.K_cnt m c]; exact fun r => Cert.KernelIdeal.Gen.CNT_real _ _
  have hinv := Cert.KernelIdeal.Gen.K_hinv m c
  -- layer 1
  have eS1 : RR Cert.ReferenceIdeal.main_v23 = KK Cert.KernelIdeal.main_v24 := by rw [Cert.ReferenceIdeal.RefRun.R_S1, Cert.KernelIdeal.Gen.K_S1 m c, e0, e1]; exact (SG_eq _ _).symm
  have hS1 : ∀ i, IsReal (KK Cert.KernelIdeal.main_v24 i) := by rw [Cert.KernelIdeal.Gen.K_S1 m c]; exact Cert.KernelIdeal.Gen.SG_real _ _ rx
  have ewl1 : RR Cert.ReferenceIdeal.main_v5 = KK Cert.KernelIdeal.main_v28 := by rw [Cert.ReferenceIdeal.RefRun.R_WL1, Cert.KernelIdeal.Gen.K_WL1 m c, e4]; exact (WL1_eq _).symm
  have ewr1 : RR Cert.ReferenceIdeal.main_v9 = KK Cert.KernelIdeal.main_v32 := by rw [Cert.ReferenceIdeal.RefRun.R_WR1, Cert.KernelIdeal.Gen.K_WR1 m c, e6]; exact (WR1_eq _).symm
  have ebl1 : RR Cert.ReferenceIdeal.main_v37 = KK Cert.KernelIdeal.main_v33 := by rw [Cert.ReferenceIdeal.RefRun.R_BLrow1, Cert.KernelIdeal.Gen.K_BLrow1 m c, e5]; exact (BLrow1_eq _).symm
  have ega1 : RR Cert.ReferenceIdeal.main_v56 = KK Cert.KernelIdeal.main_v43 := by rw [Cert.ReferenceIdeal.RefRun.R_GArow1, Cert.KernelIdeal.Gen.K_GArow1 m c, e7]; exact (GArow1_eq _).symm
  have ebe1 : RR Cert.ReferenceIdeal.main_v59 = KK Cert.KernelIdeal.main_v44 := by rw [Cert.ReferenceIdeal.RefRun.R_BErow1, Cert.KernelIdeal.Gen.K_BErow1 m c, e8]; exact (BErow1_eq _).symm
  have hR1 := Cert.ReferenceIdeal.RefRun.layer1 (launchContents m' c)
  rw [eS1, ecnt1, e0, ewl1, ewr1, ebl1, ega1, ebe1] at hR1
  obtain ⟨h1, rh1⟩ := layer_step _ _ _ _ _ _ _ _ _ _ _ (Cert.KernelIdeal.Gen.layer1 m c) hR1 hinv hcnt hS1 rx
    (by rw [Cert.KernelIdeal.Gen.K_WL1 m c]; exact Cert.KernelIdeal.Gen.WL1_real _ r4) (by rw [Cert.KernelIdeal.Gen.K_WR1 m c]; exact Cert.KernelIdeal.Gen.WR1_real _ r6)
    (by rw [Cert.KernelIdeal.Gen.K_BLrow1 m c]; exact Cert.KernelIdeal.Gen.BLrow1_real _ r5) (by rw [Cert.KernelIdeal.Gen.K_GArow1 m c]; exact Cert.KernelIdeal.Gen.GArow1_real _ r7)
    (by rw [Cert.KernelIdeal.Gen.K_BErow1 m c]; exact Cert.KernelIdeal.Gen.BErow1_real _ r8)
  -- layer 2
  have eS2 : RR Cert.ReferenceIdeal.main_v82 = KK Cert.KernelIdeal.main_v55 := by rw [Cert.ReferenceIdeal.RefRun.R_S2, Cert.KernelIdeal.Gen.K_S2 m c, ← h1, e1]; exact (SG_eq _ _).symm
  have hS2 : ∀ i, IsReal (KK Cert.KernelIdeal.main_v55 i) := by rw [Cert.KernelIdeal.Gen.K_S2 m c]; exact Cert.KernelIdeal.Gen.SG_real _ _ rh1
  have ewl2 : RR Cert.ReferenceIdeal.main_v64 = KK Cert.KernelIdeal.main_v59 := by rw [Cert.ReferenceIdeal.RefRun.R_WL2, Cert.KernelIdeal.Gen.K_WL2 m c, e4]; exact (WL2_eq _).symm
  have ewr2 : RR Cert.ReferenceIdeal.main_v68 = KK Cert.KernelIdeal.main_v63 := by rw [Cert.ReferenceIdeal.RefRun.R_WR2, Cert.KernelIdeal.Gen.K_WR2 m c, e6]; exact (WR2_eq _).symm
  have ebl2 : RR Cert.ReferenceIdeal.main_v96 = KK Cert.KernelIdeal.main_v64 := by rw [Cert.ReferenceIdeal.RefRun.R_BLrow2, Cert.KernelIdeal.Gen.K_BLrow2 m c, e5]; exact (BLrow2_eq _).symm
  have ega2 : RR Cert.ReferenceIdeal.main_v115 = KK Cert.KernelIdeal.main_v74 := by rw [Cert.ReferenceIdeal.RefRun.R_GArow2, Cert.KernelIdeal.Gen.K_GArow2 m c, e7]; exact (GArow2_eq _).symm
  have ebe2 : RR Cert.ReferenceIdeal.main_v118 = KK Cert.KernelIdeal.main_v75 := by rw [Cert.ReferenceIdeal.RefRun.R_BErow2, Cert.KernelIdeal.Gen.K_BErow2 m c, e8]; exact (BErow2_eq _).symm
  have hR2 := Cert.ReferenceIdeal.RefRun.layer2 (launchContents m' c)
  rw [eS2, ecnt2, ← h1, ewl2, ewr2, ebl2, ega2, ebe2] at hR2
  obtain ⟨h2, rh2⟩ := layer_step _ _ _ _ _ _ _ _ _ _ _ (Cert.KernelIdeal.Gen.layer2 m c) hR2 hinv hcnt hS2 rh1
    (by rw [Cert.KernelIdeal.Gen.K_WL2 m c]; exact Cert.KernelIdeal.Gen.WL2_real _ r4) (by rw [Cert.KernelIdeal.Gen.K_WR2 m c]; exact Cert.KernelIdeal.Gen.WR2_real _ r6)
    (by rw [Cert.KernelIdeal.Gen.K_BLrow2 m c]; exact Cert.KernelIdeal.Gen.BLrow2_real _ r5) (by rw [Cert.KernelIdeal.Gen.K_GArow2 m c]; exact Cert.KernelIdeal.Gen.GArow2_real _ r7)
    (by rw [Cert.KernelIdeal.Gen.K_BErow2 m c]; exact Cert.KernelIdeal.Gen.BErow2_real _ r8)
  -- layer 3
  have eS3 : RR Cert.ReferenceIdeal.main_v141 = KK Cert.KernelIdeal.main_v86 := by rw [Cert.ReferenceIdeal.RefRun.R_S3, Cert.KernelIdeal.Gen.K_S3 m c, ← h2, e1]; exact (SG_eq _ _).symm
  have hS3 : ∀ i, IsReal (KK Cert.KernelIdeal.main_v86 i) := by rw [Cert.KernelIdeal.Gen.K_S3 m c]; exact Cert.KernelIdeal.Gen.SG_real _ _ rh2
  have ewl3 : RR Cert.ReferenceIdeal.main_v123 = KK Cert.KernelIdeal.main_v90 := by rw [Cert.ReferenceIdeal.RefRun.R_WL3, Cert.KernelIdeal.Gen.K_WL3 m c, e4]; exact (WL3_eq _).symm
  have ewr3 : RR Cert.ReferenceIdeal.main_v127 = KK Cert.KernelIdeal.main_v94 := by rw [Cert.ReferenceIdeal.RefRun.R_WR3, Cert.KernelIdeal.Gen.K_WR3 m c, e6]; exact (WR3_eq _).symm
  have ebl3 : RR Cert.ReferenceIdeal.main_v155 = KK Cert.KernelIdeal.main_v95 := by rw [Cert.ReferenceIdeal.RefRun.R_BLrow3, Cert.KernelIdeal.Gen.K_BLrow3 m c, e5]; exact (BLrow3_eq _).symm
  have ega3 : RR Cert.ReferenceIdeal.main_v174 = KK Cert.KernelIdeal.main_v105 := by rw [Cert.ReferenceIdeal.RefRun.R_GArow3, Cert.KernelIdeal.Gen.K_GArow3 m c, e7]; exact (GArow3_eq _).symm
  have ebe3 : RR Cert.ReferenceIdeal.main_v177 = KK Cert.KernelIdeal.main_v106 := by rw [Cert.ReferenceIdeal.RefRun.R_BErow3, Cert.KernelIdeal.Gen.K_BErow3 m c, e8]; exact (BErow3_eq _).symm
  have hR3 := Cert.ReferenceIdeal.RefRun.layer3 (launchContents m' c)
  rw [eS3, ecnt3, ← h2, ewl3, ewr3, ebl3, ega3, ebe3] at hR3
  obtain ⟨h3, rh3⟩ := layer_step _ _ _ _ _ _ _ _ _ _ _ (Cert.KernelIdeal.Gen.layer3 m c) hR3 hinv hcnt hS3 rh2
    (by rw [Cert.KernelIdeal.Gen.K_WL3 m c]; exact Cert.KernelIdeal.Gen.WL3_real _ r4) (by rw [Cert.KernelIdeal.Gen.K_WR3 m c]; exact Cert.KernelIdeal.Gen.WR3_real _ r6)
    (by rw [Cert.KernelIdeal.Gen.K_BLrow3 m c]; exact Cert.KernelIdeal.Gen.BLrow3_real _ r5) (by rw [Cert.KernelIdeal.Gen.K_GArow3 m c]; exact Cert.KernelIdeal.Gen.GArow3_real _ r7)
    (by rw [Cert.KernelIdeal.Gen.K_BErow3 m c]; exact Cert.KernelIdeal.Gen.BErow3_real _ r8)
  -- the read-out
  have eb1 : RR Cert.ReferenceIdeal.main_v190 = KK Cert.KernelIdeal.main_v115 := by rw [Cert.ReferenceIdeal.RefRun.R_B1row, Cert.KernelIdeal.Gen.K_B1row m c, e10]; exact (B1row_eq _).symm
  have egr : RR Cert.ReferenceIdeal.main_v206 = KK Cert.KernelIdeal.main_v121 := by rw [Cert.ReferenceIdeal.RefRun.R_GRrow, Cert.KernelIdeal.Gen.K_GRrow m c, e11]; exact (GRrow_eq _).symm
  have ebr : RR Cert.ReferenceIdeal.main_v209 = KK Cert.KernelIdeal.main_v122 := by rw [Cert.ReferenceIdeal.RefRun.R_BRrow, Cert.KernelIdeal.Gen.K_BRrow m c, e12]; exact (BRrow_eq _).symm
  have eb2 : RR Cert.ReferenceIdeal.main_v215 = KK Cert.KernelIdeal.main_v123 := by rw [Cert.ReferenceIdeal.RefRun.R_B2row, Cert.KernelIdeal.Gen.K_B2row m c, e14]; exact (B2row_eq _).symm
  have hRo := Cert.ReferenceIdeal.RefRun.readout (launchContents m' c)
  rw [← h3, e9, eb1, egr, ebr, e13, eb2, e2] at hRo
  have hro := readout_step _ _ _ _ _ _ _ _ _ _ (Cert.KernelIdeal.Gen.readout m c) hRo rh3 r9
    (by rw [Cert.KernelIdeal.Gen.K_B1row m c]; exact Cert.KernelIdeal.Gen.B1row_real _ r10)
  -- the row gather
  have hst : RR Cert.ReferenceIdeal.main_v187 = KK Cert.KernelIdeal.main_v114 := by
    rw [Cert.ReferenceIdeal.RefRun.R_state, Cert.KernelIdeal.Gen.K_state m c, ← h3, e3]; exact (ST_eq _ _).symm
  exact ⟨h3.symm, hro.symm, hst⟩

end

end Cert.Bridge

end
-- ==== Proof.lean ====
/- The certificate of the three-layer SAGE network with batch normalisation and its read-out.

   The kernel program runs each layer as: a mean aggregation over the edges on the host (gather the source rows,
   scatter-add them at the destination rows, scale by the reciprocal degree), a tiled kernel that forms
   agg·Wlᵀ + h·Wrᵀ + b tile by tile while accumulating the column sums and the column sums of squares of the
   result over the ten tiles and, at the last tile, turns them into the column mean μ = Σ/n and the column
   variance max(Σ²/n − μ², 0), and a second tiled kernel that normalises, scales, shifts and cuts below at zero.
   The read-out repeats the pattern with one linear map and fuses the second linear map and the mask into the
   normalising kernel.  The reference computes the same network with whole-array operations, the variance as the
   mean of the squared deviations.  On real inputs the two variances agree (mean of squares minus squared mean is
   the mean of squared deviations, and is nonnegative), 1/n is the named constant against the reference's
   division by n, and a row's mean aggregate agg/deg equals agg·(1/deg).

   The five conjuncts are stated one by one below. -/
import proofs.«180021_j37692632990117_2_alg».proof.Defs
import proofs.«180021_j37692632990117_2_alg».proof.Proof.Gen.Kernel
import proofs.«180021_j37692632990117_2_alg».proof.Proof.Gen.Kernel.Skeleton
import proofs.«180021_j37692632990117_2_alg».proof.Proof.Gen.Kernel.Launch
import proofs.«180021_j37692632990117_2_alg».proof.Proof.Gen.Kernel.Regions
import proofs.«180021_j37692632990117_2_alg».proof.Proof.Gen.Kernel.Points
import proofs.«180021_j37692632990117_2_alg».proof.Proof.Gen.KernelIdeal
import proofs.«180021_j37692632990117_2_alg».proof.Proof.Gen.KernelIdeal.Skeleton
import proofs.«180021_j37692632990117_2_alg».proof.Proof.Gen.KernelIdeal.Launch
import proofs.«180021_j37692632990117_2_alg».proof.Proof.Gen.KernelIdeal.Regions
import proofs.«180021_j37692632990117_2_alg».proof.Proof.Gen.KernelIdeal.Points
import proofs.«180021_j37692632990117_2_alg».proof.Proof.Gen.ReferenceIdeal
import proofs.«180021_j37692632990117_2_alg».proof.Proof.Gen.Pre_finite_inputs
import proofs.«180021_j37692632990117_2_alg».proof.Proof.RefRunPost
import proofs.«180021_j37692632990117_2_alg».proof.Proof.IdealRun
import proofs.«180021_j37692632990117_2_alg».proof.Proof.BitsFrame
import proofs.«180021_j37692632990117_2_alg».proof.Proof.Bridge
import Idealize.ShloMosaic.Adequacy
import Idealize.ShloMosaic.Init

noncomputable section

namespace Cert.Proof

open Idealize.ShloMosaic Idealize.SL.Sem

/-- The eight ledger entries are one statement: the table gives "inv_50000" the rational 1/50000, and the printed
    constant is that value on the extended reals. -/
theorem preserves : Cert.preserves_Kernel_KernelIdeal :=
  have h := IdealRules.named_const.statement Cert.KernelIdeal.κ "inv_50000" .f32 0x37A7C5AC#32 ((1 / 50000 : ℝ) : EReal) rfl
  ⟨h, h, h, h, h, h, h, h⟩

/-- The reference is host operations only: it runs to the end, and no operation of it writes an argument. -/
theorem frame_reference : Cert.frame_ReferenceIdeal :=
  fun m ρ _ => Cert.ReferenceIdeal.RefRun.frame (F := Ideal) m ρ

/-- The word-level program: its eight regions run point by point (each point's body on its staged blocks, the statistics
    regions carrying their two accumulators from point to point), the host stretches between them write only their own
    results, and no region's output window is an argument. -/
theorem frame_kernel : Cert.frame_Kernel :=
  fun m ρ _ => Cert.Kernel.Gen.frame (F := Bits) m ρ

/-- The idealized program: the same run at the extended reals. -/
theorem frame_kernel_ideal : Cert.frame_KernelIdeal :=
  fun m ρ _ => Cert.KernelIdeal.Gen.frame (F := Ideal) m ρ

/-- Both idealized programs run to the end with named results: the kernel program's three results are what its last
    region boundaries hold, the reference's are its operations' composed term; layer by layer these are the same arrays
    (the bridge), the float arguments being real by the precondition. -/
theorem algebraic : Cert.algebraic_KernelIdeal_ReferenceIdeal := by
  intro m ρ m' ρ' hpre hagree
  refine ⟨fun c => Cert.KernelIdeal.Gen.V18 m (Cert.KernelIdeal.Gen.outsAll m) c (Proc.devRef .tc Cert.KernelIdeal.main_v107),
    fun c => Cert.KernelIdeal.Gen.V18 m (Cert.KernelIdeal.Gen.outsAll m) c (Proc.devRef .tc Cert.KernelIdeal.main_v124),
    fun c => Cert.KernelIdeal.Gen.V18 m (Cert.KernelIdeal.Gen.outsAll m) c (Proc.devRef .tc Cert.KernelIdeal.main_v114),
    Cert.KernelIdeal.Gen.run (F := Ideal) m ρ, ?_⟩
  refine (θ_run Cert.ReferenceIdeal.defs _ _).mono (fun r h c => ?_) (Cert.ReferenceIdeal.RefRun.run_results (F := Ideal) m' ρ')
  obtain ⟨h0, h1, h2, hargs⟩ := h c
  obtain ⟨a0, a1, a2, a3, a4, a5, a6, a7, a8, a9, a10, a11, a12, a13, a14⟩ := hagree c
  obtain ⟨b0, b1, b2⟩ := Cert.Bridge.results_eq m m' c hpre a0 a1 a2 a3 a4 a5 a6 a7 a8 a9 a10 a11 a12 a13 a14
  exact ⟨h0.trans b0, h1.trans b1, h2.trans b2, hargs⟩

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
